-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2x512x512 : Shape := ⟨4, ![1, 2, 512, 512]⟩
abbrev S1x14x512x512 : Shape := ⟨4, ![1, 14, 512, 512]⟩
abbrev S512x512x2x7 : Shape := ⟨4, ![512, 512, 2, 7]⟩
abbrev S4x4 : Shape := ⟨2, ![4, 4]⟩
abbrev S64x7 : Shape := ⟨2, ![64, 7]⟩
abbrev S_ : Shape := ⟨0, ![]⟩

class Facts : Prop where
  bcast_S_S1x2x512x512 : S_.BroadcastsInDim S1x2x512x512 (![] : Fin 0 → Fin S1x2x512x512.rank)
  reducesTo_S1x2x512x512_S_d0_1_2_3 : S1x2x512x512.ReducesTo [0, 1, 2, 3] S_
  h_S_ : 0 < S_.numel
  bcast_S_S1x14x512x512 : S_.BroadcastsInDim S1x14x512x512 (![] : Fin 0 → Fin S1x14x512x512.rank)
  reducesTo_S1x14x512x512_S_d0_1_2_3 : S1x14x512x512.ReducesTo [0, 1, 2, 3] S_
  bcast_S_S512x512x2x7 : S_.BroadcastsInDim S512x512x2x7 (![] : Fin 0 → Fin S512x512x2x7.rank)
  reducesTo_S512x512x2x7_S_d0_1_2_3 : S512x512x2x7.ReducesTo [0, 1, 2, 3] S_
  bcast_S_S4x4 : S_.BroadcastsInDim S4x4 (![] : Fin 0 → Fin S4x4.rank)
  reducesTo_S4x4_S_d0_1 : S4x4.ReducesTo [0, 1] S_
  bcast_S_S64x7 : S_.BroadcastsInDim S64x7 (![] : Fin 0 → Fin S64x7.rank)
  reducesTo_S64x7_S_d0_1 : S64x7.ReducesTo [0, 1] S_

variable [Facts]

def fn_part1 {F : FTy → Type} [FloatOps F] (main_arg4 : FVec F S64x7 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S64x7 .f32 := Host.absf main_arg4
  let main_cst_6 : FVec F S_ .f32 := constant S_ .f32 0x7F800000#32
  let main_v20 : FVec F S64x7 .f32 := broadcastInDim S64x7 ![] bcast_S_S64x7 main_cst_6
  let main_v21 : IVec S64x7 1 := cmpf .olt main_v19 main_v20
  let main_c_7 : IVec S_ 1 := constantI S_ 1 1#1
  let main_v22 : IVec S_ 1 := (fun x v => Host.reduce IntOp.andi x v reducesTo_S64x7_S_d0_1 h_S_) main_v21 main_c_7
  let main_v23 : IVec S_ 1 := andi main_v18 main_v22
  main_v23

def fn {F : FTy → Type} [FloatOps F] (main_arg0 : FVec F S1x2x512x512 .f32) (main_arg1 : FVec F S1x14x512x512 .f32) (main_arg2 : FVec F S512x512x2x7 .f32) (main_arg3 : FVec F S4x4 .f32) (main_arg4 : FVec F S64x7 .f32) : IVec S_ 1 :=
  let main_v0 : FVec F S1x2x512x512 .f32 := Host.absf main_arg0
  let main_cst : FVec F S_ .f32 := constant S_ .f32 0x7F800000#32
  let main_v1 : FVec F S1x2x512x512 .f32 := broadcastInDim S1x2x512x512 ![] bcast_S_S1x2x512x512 main_cst
  let main_v2 : IVec S1x2x512x512 1 := cmpf .olt main_v0 main_v1
  let main_c : IVec S_ 1 := constantI S_ 1 1#1
  let main_v3 : IVec S_ 1 := (fun x v => Host.reduce IntOp.andi x v reducesTo_S1x2x512x512_S_d0_1_2_3 h_S_) main_v2 main_c
  let main_v4 : FVec F S1x14x512x512 .f32 := Host.absf main_arg1
  let main_cst_0 : FVec F S_ .f32 := constant S_ .f32 0x7F800000#32
  let main_v5 : FVec F S1x14x512x512 .f32 := broadcastInDim S1x14x512x512 ![] bcast_S_S1x14x512x512 main_cst_0
  let main_v6 : IVec S1x14x512x512 1 := cmpf .olt main_v4 main_v5
  let main_c_1 : IVec S_ 1 := constantI S_ 1 1#1
  let main_v7 : IVec S_ 1 := (fun x v => Host.reduce IntOp.andi x v reducesTo_S1x14x512x512_S_d0_1_2_3 h_S_) main_v6 main_c_1
  let main_v8 : IVec S_ 1 := andi main_v3 main_v7
  let main_v9 : FVec F S512x512x2x7 .f32 := Host.absf main_arg2
  let main_cst_2 : FVec F S_ .f32 := constant S_ .f32 0x7F800000#32
  let main_v10 : FVec F S512x512x2x7 .f32 := broadcastInDim S512x512x2x7 ![] bcast_S_S512x512x2x7 main_cst_2
  let main_v11 : IVec S512x512x2x7 1 := cmpf .olt main_v9 main_v10
  let main_c_3 : IVec S_ 1 := constantI S_ 1 1#1
  let main_v12 : IVec S_ 1 := (fun x v => Host.reduce IntOp.andi x v reducesTo_S512x512x2x7_S_d0_1_2_3 h_S_) main_v11 main_c_3
  let main_v13 : IVec S_ 1 := andi main_v8 main_v12
  let main_v14 : FVec F S4x4 .f32 := Host.absf main_arg3
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg4 main_v13 main_v16
-- ==== Kernel.lean ====
abbrev S1x2x512x512 : Shape := ⟨4, ![1, 2, 512, 512]⟩
abbrev S1x14x512x512 : Shape := ⟨4, ![1, 14, 512, 512]⟩
abbrev S512x512x2x7 : Shape := ⟨4, ![512, 512, 2, 7]⟩
abbrev S4x4 : Shape := ⟨2, ![4, 4]⟩
abbrev S64x7 : Shape := ⟨2, ![64, 7]⟩
abbrev S3 : Shape := ⟨1, ![3]⟩
abbrev S8x3 : Shape := ⟨2, ![8, 3]⟩
abbrev S_ : Shape := ⟨0, ![]⟩
abbrev S3x1 : Shape := ⟨2, ![3, 1]⟩
abbrev S64x3 : Shape := ⟨2, ![64, 3]⟩
abbrev S64x1x3 : Shape := ⟨3, ![64, 1, 3]⟩
abbrev S1x8x3 : Shape := ⟨3, ![1, 8, 3]⟩
abbrev S64x8x3 : Shape := ⟨3, ![64, 8, 3]⟩
abbrev S64x1 : Shape := ⟨2, ![64, 1]⟩
abbrev S64 : Shape := ⟨1, ![64]⟩
abbrev S64x9 : Shape := ⟨2, ![64, 9]⟩
abbrev S64x3x3 : Shape := ⟨3, ![64, 3, 3]⟩
abbrev S64x8x1 : Shape := ⟨3, ![64, 8, 1]⟩
abbrev S64x8 : Shape := ⟨2, ![64, 8]⟩
abbrev S64x4 : Shape := ⟨2, ![64, 4]⟩
abbrev S2x7x512x512 : Shape := ⟨4, ![2, 7, 512, 512]⟩
abbrev S1x1 : Shape := ⟨2, ![1, 1]⟩
abbrev S1x2x64x512 : Shape := ⟨4, ![1, 2, 64, 512]⟩
abbrev S1x14x64x512 : Shape := ⟨4, ![1, 14, 64, 512]⟩
abbrev S2x7x64x512 : Shape := ⟨4, ![2, 7, 64, 512]⟩
abbrev S1x1x64x512 : Shape := ⟨4, ![1, 1, 64, 512]⟩
abbrev S64x512 : Shape := ⟨2, ![64, 512]⟩
abbrev S1 : Shape := ⟨1, ![1]⟩

abbrev nBuf : Space → Nat
  | .hbm => 71
  | .vmem => 10
  | .smem => 0
  | _ => 0

abbrev bufTy : (tb : Table) → Fin (tcTables nBuf tb) → BufTy
  | .hbm, ⟨0, _⟩ => ⟨S1x2x512x512, .f32⟩
  | .hbm, ⟨1, _⟩ => ⟨S1x14x512x512, .f32⟩
  | .hbm, ⟨2, _⟩ => ⟨S512x512x2x7, .f32⟩
  | .hbm, ⟨3, _⟩ => ⟨S4x4, .f32⟩
  | .hbm, ⟨4, _⟩ => ⟨S64x7, .f32⟩
  | .hbm, ⟨5, _⟩ => ⟨S3, .i32⟩
  | .hbm, ⟨6, _⟩ => ⟨S8x3, .f32⟩
  | .hbm, ⟨7, _⟩ => ⟨S_, .i32⟩
  | .hbm, ⟨8, _⟩ => ⟨S3, .i32⟩
  | .hbm, ⟨9, _⟩ => ⟨S3, .i1⟩
  | .hbm, ⟨10, _⟩ => ⟨S_, .i32⟩
  | .hbm, ⟨11, _⟩ => ⟨S3, .i32⟩
  | .hbm, ⟨12, _⟩ => ⟨S3, .i32⟩
  | .hbm, ⟨13, _⟩ => ⟨S3, .i32⟩
  | .hbm, ⟨14, _⟩ => ⟨S3x1, .i32⟩
  | .hbm, ⟨15, _⟩ => ⟨S64x3, .f32⟩
  | .hbm, ⟨16, _⟩ => ⟨S64x1x3, .f32⟩
  | .hbm, ⟨17, _⟩ => ⟨S1x8x3, .f32⟩
  | .hbm, ⟨18, _⟩ => ⟨S64x8x3, .f32⟩
  | .hbm, ⟨19, _⟩ => ⟨S64x8x3, .f32⟩
  | .hbm, ⟨20, _⟩ => ⟨S64x8x3, .f32⟩
  | .hbm, ⟨21, _⟩ => ⟨S64x1, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S64x1, .f32⟩
  | .hbm, ⟨31, _⟩ => ⟨S64x1, .f32⟩
  | .hbm, ⟨32, _⟩ => ⟨S64x1, .f32⟩
  | .hbm, ⟨33, _⟩ => ⟨S64x1, .f32⟩
  | .hbm, ⟨34, _⟩ => ⟨S64x1, .f32⟩
  | .hbm, ⟨35, _⟩ => ⟨S64x1, .f32⟩
  | .hbm, ⟨36, _⟩ => ⟨S64x1, .f32⟩
  | .hbm, ⟨37, _⟩ => ⟨S64x1, .f32⟩
  | .hbm, ⟨38, _⟩ => ⟨S64x1, .f32⟩
  | .hbm, ⟨39, _⟩ => ⟨S64x9, .f32⟩
  | .hbm, ⟨40, _⟩ => ⟨S64x3x3, .f32⟩
  | .hbm, ⟨41, _⟩ => ⟨S64x8x3, .f32⟩
  | .hbm, ⟨42, _⟩ => ⟨S64x3, .f32⟩
  | .hbm, ⟨43, _⟩ => ⟨S64x1x3, .f32⟩
  | .hbm, ⟨44, _⟩ => ⟨S64x8x3, .f32⟩
  | .hbm, ⟨45, _⟩ => ⟨S64x8x3, .f32⟩
  | .hbm, ⟨46, _⟩ => ⟨S64x8x1, .f32⟩
  | .hbm, ⟨47, _⟩ => ⟨S64x8, .f32⟩
  | .hbm, ⟨48, _⟩ => ⟨S_, .f32⟩
  | .hbm, ⟨49, _⟩ => ⟨S64, .f32⟩
  | .hbm, ⟨50, _⟩ => ⟨S64x8x1, .f32⟩
  | .hbm, ⟨51, _⟩ => ⟨S64x8, .f32⟩
  | .hbm, ⟨52, _⟩ => ⟨S_, .f32⟩
  | .hbm, ⟨53, _⟩ => ⟨S64, .f32⟩
  | .hbm, ⟨54, _⟩ => ⟨S64x8x1, .f32⟩
  | .hbm, ⟨55, _⟩ => ⟨S64x8, .f32⟩
  | .hbm, ⟨56, _⟩ => ⟨S_, .f32⟩
  | .hbm, ⟨57, _⟩ => ⟨S64, .f32⟩
  | .hbm, ⟨58, _⟩ => ⟨S64x8x1, .f32⟩
  | .hbm, ⟨59, _⟩ => ⟨S64x8, .f32⟩
  | .hbm, ⟨60, _⟩ => ⟨S_, .f32⟩
  | .hbm, ⟨61, _⟩ => ⟨S64, .f32⟩
  | .hbm, ⟨62, _⟩ => ⟨S64x1, .f32⟩
  | .hbm, ⟨63, _⟩ => ⟨S64x1, .f32⟩
  | .hbm, ⟨64, _⟩ => ⟨S64x1, .f32⟩
  | .hbm, ⟨65, _⟩ => ⟨S64x1, .f32⟩
  | .hbm, ⟨66, _⟩ => ⟨S64x4, .f32⟩
  | .hbm, ⟨67, _⟩ => ⟨S2x7x512x512, .f32⟩
  | .hbm, ⟨68, _⟩ => ⟨S1x1, .f32⟩
  | .hbm, ⟨69, _⟩ => ⟨S_, .f32⟩
  | .hbm, ⟨70, _⟩ => ⟨S_, .f32⟩
  | .local _ .vmem, ⟨0, _⟩ => ⟨S1x2x64x512, .f32⟩
  | .local _ .vmem, ⟨1, _⟩ => ⟨S1x2x64x512, .f32⟩
  | .local _ .vmem, ⟨2, _⟩ => ⟨S1x14x64x512, .f32⟩
  | .local _ .vmem, ⟨3, _⟩ => ⟨S1x14x64x512, .f32⟩
  | .local _ .vmem, ⟨4, _⟩ => ⟨S2x7x64x512, .f32⟩
  | .local _ .vmem, ⟨5, _⟩ => ⟨S2x7x64x512, .f32⟩
  | .local _ .vmem, ⟨6, _⟩ => ⟨S4x4, .f32⟩
  | .local _ .vmem, ⟨7, _⟩ => ⟨S64x4, .f32⟩
  | .local _ .vmem, ⟨8, _⟩ => ⟨S1x1, .f32⟩
  | .local _ .vmem, ⟨9, _⟩ => ⟨S1x1, .f32⟩
  | _, _ => ⟨S1x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v5002 : BitVec 1 := Scalar.cmpi .eq arg0 c7_i32
  let v5003 : BitVec 32 := Scalar.extui v5002
  let c0_i32_1409 : BitVec 32 := 0#32
  let v5004 : BitVec 1 := Scalar.cmpi .ne v5003 c0_i32_1409
  v5004

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x14x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x7x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  bcast_S_S3 : S_.BroadcastsInDim S3 (![] : Fin 0 → Fin S3.rank)
  bcast_S3_S3x1_0 : S3.BroadcastsInDim S3x1 (![0] : Fin 1 → Fin S3x1.rank)
  bcast_S64x3_S64x1x3_0_2 : S64x3.BroadcastsInDim S64x1x3 (![0, 2] : Fin 2 → Fin S64x1x3.rank)
  bcast_S8x3_S1x8x3_1_2 : S8x3.BroadcastsInDim S1x8x3 (![1, 2] : Fin 2 → Fin S1x8x3.rank)
  bcast_S64x1x3_S64x8x3_0_1_2 : S64x1x3.BroadcastsInDim S64x8x3 (![0, 1, 2] : Fin 3 → Fin S64x8x3.rank)
  bcast_S1x8x3_S64x8x3_0_1_2 : S1x8x3.BroadcastsInDim S64x8x3 (![0, 1, 2] : Fin 3 → Fin S64x8x3.rank)
  slices_S64x7_S64x1_0_6 : S64x7.Slices ![0, 6] S64x1
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  concatenates_S64x1_S64x1_S64x1_S64x1_S64x1_S64x1_S64x1_S64x1_S64x1_S64x9_d1 : Shape.Concatenates [S64x1, S64x1, S64x1, S64x1, S64x1, S64x1, S64x1, S64x1, S64x1] S64x9 1
  shapeCasts_S64x9_S64x3x3 : S64x9.ShapeCasts S64x3x3
  slices_S64x7_S64x3_0_0 : S64x7.Slices ![0, 0] S64x3
  slices_S64x8x3_S64x8x1_0_0_0 : S64x8x3.Slices ![0, 0, 0] S64x8x1
  shapeCasts_S64x8x1_S64x8 : S64x8x1.ShapeCasts S64x8
  reducesTo_S64x8_S64_d1 : S64x8.ReducesTo [1] S64
  h_S_ : 0 < S_.numel
  slices_S64x8x3_S64x8x1_0_0_1 : S64x8x3.Slices ![0, 0, 1] S64x8x1
  concatenates_S64x1_S64x1_S64x1_S64x1_S64x4_d1 : Shape.Concatenates [S64x1, S64x1, S64x1, S64x1] S64x4 1
  transposes_S512x512x2x7_S2x7x512x512_2_3_0_1 : S512x512x2x7.Transposes [2, 3, 0, 1] S2x7x512x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4x4_S4x4_0_0 : ∀ a, (![0, 0] : Fin 2 → Nat) a + S4x4.size a ≤ S4x4.size a
  h_S4x4 : 0 < S4x4.numel
  inb_S1x2x64x512_S1x1x64x512_0_0_0_0 : ∀ a, (![0, 0, 0, 0] : Fin 4 → Nat) a + S1x1x64x512.size a ≤ S1x2x64x512.size a
  h_S1x1x64x512 : 0 < S1x1x64x512.numel
  shapeCasts_S1x1x64x512_S64x512 : S1x1x64x512.ShapeCasts S64x512
  natLt_1_32 : 1 < 32
  inb_S1x14x64x512_S1x1x64x512_0_0_0_0 : ∀ a, (![0, 0, 0, 0] : Fin 4 → Nat) a + S1x1x64x512.size a ≤ S1x14x64x512.size a
  inb_S1x14x64x512_S1x1x64x512_0_1_0_0 : ∀ a, (![0, 1, 0, 0] : Fin 4 → Nat) a + S1x1x64x512.size a ≤ S1x14x64x512.size a
  inb_S1x14x64x512_S1x1x64x512_0_2_0_0 : ∀ a, (![0, 2, 0, 0] : Fin 4 → Nat) a + S1x1x64x512.size a ≤ S1x14x64x512.size a
  inb_S1x14x64x512_S1x1x64x512_0_3_0_0 : ∀ a, (![0, 3, 0, 0] : Fin 4 → Nat) a + S1x1x64x512.size a ≤ S1x14x64x512.size a
  inb_S1x14x64x512_S1x1x64x512_0_4_0_0 : ∀ a, (![0, 4, 0, 0] : Fin 4 → Nat) a + S1x1x64x512.size a ≤ S1x14x64x512.size a
  inb_S1x14x64x512_S1x1x64x512_0_5_0_0 : ∀ a, (![0, 5, 0, 0] : Fin 4 → Nat) a + S1x1x64x512.size a ≤ S1x14x64x512.size a
  inb_S1x14x64x512_S1x1x64x512_0_6_0_0 : ∀ a, (![0, 6, 0, 0] : Fin 4 → Nat) a + S1x1x64x512.size a ≤ S1x14x64x512.size a
  inb_S2x7x64x512_S1x1x64x512_0_0_0_0 : ∀ a, (![0, 0, 0, 0] : Fin 4 → Nat) a + S1x1x64x512.size a ≤ S2x7x64x512.size a
  inb_S2x7x64x512_S1x1x64x512_0_1_0_0 : ∀ a, (![0, 1, 0, 0] : Fin 4 → Nat) a + S1x1x64x512.size a ≤ S2x7x64x512.size a
  inb_S2x7x64x512_S1x1x64x512_0_2_0_0 : ∀ a, (![0, 2, 0, 0] : Fin 4 → Nat) a + S1x1x64x512.size a ≤ S2x7x64x512.size a
  inb_S2x7x64x512_S1x1x64x512_0_3_0_0 : ∀ a, (![0, 3, 0, 0] : Fin 4 → Nat) a + S1x1x64x512.size a ≤ S2x7x64x512.size a
  inb_S2x7x64x512_S1x1x64x512_0_4_0_0 : ∀ a, (![0, 4, 0, 0] : Fin 4 → Nat) a + S1x1x64x512.size a ≤ S2x7x64x512.size a
  inb_S2x7x64x512_S1x1x64x512_0_5_0_0 : ∀ a, (![0, 5, 0, 0] : Fin 4 → Nat) a + S1x1x64x512.size a ≤ S2x7x64x512.size a
  inb_S2x7x64x512_S1x1x64x512_0_6_0_0 : ∀ a, (![0, 6, 0, 0] : Fin 4 → Nat) a + S1x1x64x512.size a ≤ S2x7x64x512.size a
  slices_S4x4_o0_0_S1x1 : S4x4.Slices ![0, 0] S1x1
  inpos_S1x1_p0_0 : ∀ a, (![0, 0] : Fin 2 → Nat) a < S1x1.size a
  slices_S4x4_o0_1_S1x1 : S4x4.Slices ![0, 1] S1x1
  slices_S4x4_o0_2_S1x1 : S4x4.Slices ![0, 2] S1x1
  slices_S4x4_o0_3_S1x1 : S4x4.Slices ![0, 3] S1x1
  slices_S4x4_o1_0_S1x1 : S4x4.Slices ![1, 0] S1x1
  slices_S4x4_o1_1_S1x1 : S4x4.Slices ![1, 1] S1x1
  slices_S4x4_o1_2_S1x1 : S4x4.Slices ![1, 2] S1x1
  slices_S4x4_o1_3_S1x1 : S4x4.Slices ![1, 3] S1x1
  inb_S64x4_S1x1_0_0 : ∀ a, (![0, 0] : Fin 2 → Nat) a + S1x1.size a ≤ S64x4.size a
  inb_S64x4_S1x1_0_1 : ∀ a, (![0, 1] : Fin 2 → Nat) a + S1x1.size a ≤ S64x4.size a
  inb_S64x4_S1x1_0_2 : ∀ a, (![0, 2] : Fin 2 → Nat) a + S1x1.size a ≤ S64x4.size a
  inb_S64x4_S1x1_0_3 : ∀ a, (![0, 3] : Fin 2 → Nat) a + S1x1.size a ≤ S64x4.size a
  inb_S64x4_S1x1_1_0 : ∀ a, (![1, 0] : Fin 2 → Nat) a + S1x1.size a ≤ S64x4.size a
  inb_S64x4_S1x1_1_1 : ∀ a, (![1, 1] : Fin 2 → Nat) a + S1x1.size a ≤ S64x4.size a
  inb_S64x4_S1x1_1_2 : ∀ a, (![1, 2] : Fin 2 → Nat) a + S1x1.size a ≤ S64x4.size a
  inb_S64x4_S1x1_1_3 : ∀ a, (![1, 3] : Fin 2 → Nat) a + S1x1.size a ≤ S64x4.size a
  inb_S64x4_S1x1_2_0 : ∀ a, (![2, 0] : Fin 2 → Nat) a + S1x1.size a ≤ S64x4.size a
  inb_S64x4_S1x1_2_1 : ∀ a, (![2, 1] : Fin 2 → Nat) a + S1x1.size a ≤ S64x4.size a
  inb_S64x4_S1x1_2_2 : ∀ a, (![2, 2] : Fin 2 → Nat) a + S1x1.size a ≤ S64x4.size a
  inb_S64x4_S1x1_2_3 : ∀ a, (![2, 3] : Fin 2 → Nat) a + S1x1.size a ≤ S64x4.size a
  inb_S64x4_S1x1_3_0 : ∀ a, (![3, 0] : Fin 2 → Nat) a + S1x1.size a ≤ S64x4.size a
  inb_S64x4_S1x1_3_1 : ∀ a, (![3, 1] : Fin 2 → Nat) a + S1x1.size a ≤ S64x4.size a
  inb_S64x4_S1x1_3_2 : ∀ a, (![3, 2] : Fin 2 → Nat) a + S1x1.size a ≤ S64x4.size a
  inb_S64x4_S1x1_3_3 : ∀ a, (![3, 3] : Fin 2 → Nat) a + S1x1.size a ≤ S64x4.size a
  inb_S64x4_S1x1_4_0 : ∀ a, (![4, 0] : Fin 2 → Nat) a + S1x1.size a ≤ S64x4.size a
  inb_S64x4_S1x1_4_1 : ∀ a, (![4, 1] : Fin 2 → Nat) a + S1x1.size a ≤ S64x4.size a
  inb_S64x4_S1x1_4_2 : ∀ a, (![4, 2] : Fin 2 → Nat) a + S1x1.size a ≤ S64x4.size a
  inb_S64x4_S1x1_4_3 : ∀ a, (![4, 3] : Fin 2 → Nat) a + S1x1.size a ≤ S64x4.size a
  inb_S64x4_S1x1_5_0 : ∀ a, (![5, 0] : Fin 2 → Nat) a + S1x1.size a ≤ S64x4.size a
  inb_S64x4_S1x1_5_1 : ∀ a, (![5, 1] : Fin 2 → Nat) a + S1x1.size a ≤ S64x4.size a
  inb_S64x4_S1x1_5_2 : ∀ a, (![5, 2] : Fin 2 → Nat) a + S1x1.size a ≤ S64x4.size a
  inb_S64x4_S1x1_5_3 : ∀ a, (![5, 3] : Fin 2 → Nat) a + S1x1.size a ≤ S64x4.size a
  inb_S64x4_S1x1_6_0 : ∀ a, (![6, 0] : Fin 2 → Nat) a + S1x1.size a ≤ S64x4.size a
  inb_S64x4_S1x1_6_1 : ∀ a, (![6, 1] : Fin 2 → Nat) a + S1x1.size a ≤ S64x4.size a
  inb_S64x4_S1x1_6_2 : ∀ a, (![6, 2] : Fin 2 → Nat) a + S1x1.size a ≤ S64x4.size a
  inb_S64x4_S1x1_6_3 : ∀ a, (![6, 3] : Fin 2 → Nat) a + S1x1.size a ≤ S64x4.size a
  inb_S64x4_S1x1_7_0 : ∀ a, (![7, 0] : Fin 2 → Nat) a + S1x1.size a ≤ S64x4.size a
  inb_S64x4_S1x1_7_1 : ∀ a, (![7, 1] : Fin 2 → Nat) a + S1x1.size a ≤ S64x4.size a
  inb_S64x4_S1x1_7_2 : ∀ a, (![7, 2] : Fin 2 → Nat) a + S1x1.size a ≤ S64x4.size a
  inb_S64x4_S1x1_7_3 : ∀ a, (![7, 3] : Fin 2 → Nat) a + S1x1.size a ≤ S64x4.size a
  inb_S64x4_S1x1_8_0 : ∀ a, (![8, 0] : Fin 2 → Nat) a + S1x1.size a ≤ S64x4.size a
  inb_S64x4_S1x1_8_1 : ∀ a, (![8, 1] : Fin 2 → Nat) a + S1x1.size a ≤ S64x4.size a
  inb_S64x4_S1x1_8_2 : ∀ a, (![8, 2] : Fin 2 → Nat) a + S1x1.size a ≤ S64x4.size a
  inb_S64x4_S1x1_8_3 : ∀ a, (![8, 3] : Fin 2 → Nat) a + S1x1.size a ≤ S64x4.size a
  inb_S64x4_S1x1_9_0 : ∀ a, (![9, 0] : Fin 2 → Nat) a + S1x1.size a ≤ S64x4.size a
  inb_S64x4_S1x1_9_1 : ∀ a, (![9, 1] : Fin 2 → Nat) a + S1x1.size a ≤ S64x4.size a
  inb_S64x4_S1x1_9_2 : ∀ a, (![9, 2] : Fin 2 → Nat) a + S1x1.size a ≤ S64x4.size a
  inb_S64x4_S1x1_9_3 : ∀ a, (![9, 3] : Fin 2 → Nat) a + S1x1.size a ≤ S64x4.size a
  inb_S64x4_S1x1_10_0 : ∀ a, (![10, 0] : Fin 2 → Nat) a + S1x1.size a ≤ S64x4.size a
  inb_S64x4_S1x1_10_1 : ∀ a, (![10, 1] : Fin 2 → Nat) a + S1x1.size a ≤ S64x4.size a
  inb_S64x4_S1x1_10_2 : ∀ a, (![10, 2] : Fin 2 → Nat) a + S1x1.size a ≤ S64x4.size a
  inb_S64x4_S1x1_10_3 : ∀ a, (![10, 3] : Fin 2 → Nat) a + S1x1.size a ≤ S64x4.size a
  inb_S64x4_S1x1_11_0 : ∀ a, (![11, 0] : Fin 2 → Nat) a + S1x1.size a ≤ S64x4.size a
  inb_S64x4_S1x1_11_1 : ∀ a, (![11, 1] : Fin 2 → Nat) a + S1x1.size a ≤ S64x4.size a
  inb_S64x4_S1x1_11_2 : ∀ a, (![11, 2] : Fin 2 → Nat) a + S1x1.size a ≤ S64x4.size a
  inb_S64x4_S1x1_11_3 : ∀ a, (![11, 3] : Fin 2 → Nat) a + S1x1.size a ≤ S64x4.size a
  inb_S64x4_S1x1_12_0 : ∀ a, (![12, 0] : Fin 2 → Nat) a + S1x1.size a ≤ S64x4.size a
  inb_S64x4_S1x1_12_1 : ∀ a, (![12, 1] : Fin 2 → Nat) a + S1x1.size a ≤ S64x4.size a
  inb_S64x4_S1x1_12_2 : ∀ a, (![12, 2] : Fin 2 → Nat) a + S1x1.size a ≤ S64x4.size a
  inb_S64x4_S1x1_12_3 : ∀ a, (![12, 3] : Fin 2 → Nat) a + S1x1.size a ≤ S64x4.size a
  inb_S64x4_S1x1_13_0 : ∀ a, (![13, 0] : Fin 2 → Nat) a + S1x1.size a ≤ S64x4.size a
  inb_S64x4_S1x1_13_1 : ∀ a, (![13, 1] : Fin 2 → Nat) a + S1x1.size a ≤ S64x4.size a
  inb_S64x4_S1x1_13_2 : ∀ a, (![13, 2] : Fin 2 → Nat) a + S1x1.size a ≤ S64x4.size a
  inb_S64x4_S1x1_13_3 : ∀ a, (![13, 3] : Fin 2 → Nat) a + S1x1.size a ≤ S64x4.size a
  inb_S64x4_S1x1_14_0 : ∀ a, (![14, 0] : Fin 2 → Nat) a + S1x1.size a ≤ S64x4.size a
  inb_S64x4_S1x1_14_1 : ∀ a, (![14, 1] : Fin 2 → Nat) a + S1x1.size a ≤ S64x4.size a
  inb_S64x4_S1x1_14_2 : ∀ a, (![14, 2] : Fin 2 → Nat) a + S1x1.size a ≤ S64x4.size a
  inb_S64x4_S1x1_14_3 : ∀ a, (![14, 3] : Fin 2 → Nat) a + S1x1.size a ≤ S64x4.size a
  inb_S64x4_S1x1_15_0 : ∀ a, (![15, 0] : Fin 2 → Nat) a + S1x1.size a ≤ S64x4.size a
  inb_S64x4_S1x1_15_1 : ∀ a, (![15, 1] : Fin 2 → Nat) a + S1x1.size a ≤ S64x4.size a
  inb_S64x4_S1x1_15_2 : ∀ a, (![15, 2] : Fin 2 → Nat) a + S1x1.size a ≤ S64x4.size a
  inb_S64x4_S1x1_15_3 : ∀ a, (![15, 3] : Fin 2 → Nat) a + S1x1.size a ≤ S64x4.size a
  inb_S64x4_S1x1_16_0 : ∀ a, (![16, 0] : Fin 2 → Nat) a + S1x1.size a ≤ S64x4.size a
  inb_S64x4_S1x1_16_1 : ∀ a, (![16, 1] : Fin 2 → Nat) a + S1x1.size a ≤ S64x4.size a
  inb_S64x4_S1x1_16_2 : ∀ a, (![16, 2] : Fin 2 → Nat) a + S1x1.size a ≤ S64x4.size a
  inb_S64x4_S1x1_16_3 : ∀ a, (![16, 3] : Fin 2 → Nat) a + S1x1.size a ≤ S64x4.size a
  inb_S64x4_S1x1_17_0 : ∀ a, (![17, 0] : Fin 2 → Nat) a + S1x1.size a ≤ S64x4.size a
  inb_S64x4_S1x1_17_1 : ∀ a, (![17, 1] : Fin 2 → Nat) a + S1x1.size a ≤ S64x4.size a
  inb_S64x4_S1x1_17_2 : ∀ a, (![17, 2] : Fin 2 → Nat) a + S1x1.size a ≤ S64x4.size a
  inb_S64x4_S1x1_17_3 : ∀ a, (![17, 3] : Fin 2 → Nat) a + S1x1.size a ≤ S64x4.size a
  inb_S64x4_S1x1_18_0 : ∀ a, (![18, 0] : Fin 2 → Nat) a + S1x1.size a ≤ S64x4.size a
  inb_S64x4_S1x1_18_1 : ∀ a, (![18, 1] : Fin 2 → Nat) a + S1x1.size a ≤ S64x4.size a
  inb_S64x4_S1x1_18_2 : ∀ a, (![18, 2] : Fin 2 → Nat) a + S1x1.size a ≤ S64x4.size a
  inb_S64x4_S1x1_18_3 : ∀ a, (![18, 3] : Fin 2 → Nat) a + S1x1.size a ≤ S64x4.size a
  inb_S64x4_S1x1_19_0 : ∀ a, (![19, 0] : Fin 2 → Nat) a + S1x1.size a ≤ S64x4.size a
  inb_S64x4_S1x1_19_1 : ∀ a, (![19, 1] : Fin 2 → Nat) a + S1x1.size a ≤ S64x4.size a
  inb_S64x4_S1x1_19_2 : ∀ a, (![19, 2] : Fin 2 → Nat) a + S1x1.size a ≤ S64x4.size a
  inb_S64x4_S1x1_19_3 : ∀ a, (![19, 3] : Fin 2 → Nat) a + S1x1.size a ≤ S64x4.size a
  inb_S64x4_S1x1_20_0 : ∀ a, (![20, 0] : Fin 2 → Nat) a + S1x1.size a ≤ S64x4.size a
  inb_S64x4_S1x1_20_1 : ∀ a, (![20, 1] : Fin 2 → Nat) a + S1x1.size a ≤ S64x4.size a
  inb_S64x4_S1x1_20_2 : ∀ a, (![20, 2] : Fin 2 → Nat) a + S1x1.size a ≤ S64x4.size a
  inb_S64x4_S1x1_20_3 : ∀ a, (![20, 3] : Fin 2 → Nat) a + S1x1.size a ≤ S64x4.size a
  inb_S64x4_S1x1_21_0 : ∀ a, (![21, 0] : Fin 2 → Nat) a + S1x1.size a ≤ S64x4.size a
  inb_S64x4_S1x1_21_1 : ∀ a, (![21, 1] : Fin 2 → Nat) a + S1x1.size a ≤ S64x4.size a
  inb_S64x4_S1x1_21_2 : ∀ a, (![21, 2] : Fin 2 → Nat) a + S1x1.size a ≤ S64x4.size a
  inb_S64x4_S1x1_21_3 : ∀ a, (![21, 3] : Fin 2 → Nat) a + S1x1.size a ≤ S64x4.size a
  inb_S64x4_S1x1_22_0 : ∀ a, (![22, 0] : Fin 2 → Nat) a + S1x1.size a ≤ S64x4.size a
  inb_S64x4_S1x1_22_1 : ∀ a, (![22, 1] : Fin 2 → Nat) a + S1x1.size a ≤ S64x4.size a
  inb_S64x4_S1x1_22_2 : ∀ a, (![22, 2] : Fin 2 → Nat) a + S1x1.size a ≤ S64x4.size a
  inb_S64x4_S1x1_22_3 : ∀ a, (![22, 3] : Fin 2 → Nat) a + S1x1.size a ≤ S64x4.size a
  inb_S64x4_S1x1_23_0 : ∀ a, (![23, 0] : Fin 2 → Nat) a + S1x1.size a ≤ S64x4.size a
  inb_S64x4_S1x1_23_1 : ∀ a, (![23, 1] : Fin 2 → Nat) a + S1x1.size a ≤ S64x4.size a
  inb_S64x4_S1x1_23_2 : ∀ a, (![23, 2] : Fin 2 → Nat) a + S1x1.size a ≤ S64x4.size a
  inb_S64x4_S1x1_23_3 : ∀ a, (![23, 3] : Fin 2 → Nat) a + S1x1.size a ≤ S64x4.size a
  inb_S64x4_S1x1_24_0 : ∀ a, (![24, 0] : Fin 2 → Nat) a + S1x1.size a ≤ S64x4.size a
  inb_S64x4_S1x1_24_1 : ∀ a, (![24, 1] : Fin 2 → Nat) a + S1x1.size a ≤ S64x4.size a
  inb_S64x4_S1x1_24_2 : ∀ a, (![24, 2] : Fin 2 → Nat) a + S1x1.size a ≤ S64x4.size a
  inb_S64x4_S1x1_24_3 : ∀ a, (![24, 3] : Fin 2 → Nat) a + S1x1.size a ≤ S64x4.size a
  inb_S64x4_S1x1_25_0 : ∀ a, (![25, 0] : Fin 2 → Nat) a + S1x1.size a ≤ S64x4.size a
  inb_S64x4_S1x1_25_1 : ∀ a, (![25, 1] : Fin 2 → Nat) a + S1x1.size a ≤ S64x4.size a
  inb_S64x4_S1x1_25_2 : ∀ a, (![25, 2] : Fin 2 → Nat) a + S1x1.size a ≤ S64x4.size a
  inb_S64x4_S1x1_25_3 : ∀ a, (![25, 3] : Fin 2 → Nat) a + S1x1.size a ≤ S64x4.size a
  inb_S64x4_S1x1_26_0 : ∀ a, (![26, 0] : Fin 2 → Nat) a + S1x1.size a ≤ S64x4.size a
  inb_S64x4_S1x1_26_1 : ∀ a, (![26, 1] : Fin 2 → Nat) a + S1x1.size a ≤ S64x4.size a
  inb_S64x4_S1x1_26_2 : ∀ a, (![26, 2] : Fin 2 → Nat) a + S1x1.size a ≤ S64x4.size a
  inb_S64x4_S1x1_26_3 : ∀ a, (![26, 3] : Fin 2 → Nat) a + S1x1.size a ≤ S64x4.size a
  inb_S64x4_S1x1_27_0 : ∀ a, (![27, 0] : Fin 2 → Nat) a + S1x1.size a ≤ S64x4.size a
  inb_S64x4_S1x1_27_1 : ∀ a, (![27, 1] : Fin 2 → Nat) a + S1x1.size a ≤ S64x4.size a
  inb_S64x4_S1x1_27_2 : ∀ a, (![27, 2] : Fin 2 → Nat) a + S1x1.size a ≤ S64x4.size a
  inb_S64x4_S1x1_27_3 : ∀ a, (![27, 3] : Fin 2 → Nat) a + S1x1.size a ≤ S64x4.size a
  inb_S64x4_S1x1_28_0 : ∀ a, (![28, 0] : Fin 2 → Nat) a + S1x1.size a ≤ S64x4.size a
  inb_S64x4_S1x1_28_1 : ∀ a, (![28, 1] : Fin 2 → Nat) a + S1x1.size a ≤ S64x4.size a
  inb_S64x4_S1x1_28_2 : ∀ a, (![28, 2] : Fin 2 → Nat) a + S1x1.size a ≤ S64x4.size a
  inb_S64x4_S1x1_28_3 : ∀ a, (![28, 3] : Fin 2 → Nat) a + S1x1.size a ≤ S64x4.size a
  inb_S64x4_S1x1_29_0 : ∀ a, (![29, 0] : Fin 2 → Nat) a + S1x1.size a ≤ S64x4.size a
  inb_S64x4_S1x1_29_1 : ∀ a, (![29, 1] : Fin 2 → Nat) a + S1x1.size a ≤ S64x4.size a
  inb_S64x4_S1x1_29_2 : ∀ a, (![29, 2] : Fin 2 → Nat) a + S1x1.size a ≤ S64x4.size a
  inb_S64x4_S1x1_29_3 : ∀ a, (![29, 3] : Fin 2 → Nat) a + S1x1.size a ≤ S64x4.size a
  inb_S64x4_S1x1_30_0 : ∀ a, (![30, 0] : Fin 2 → Nat) a + S1x1.size a ≤ S64x4.size a
  inb_S64x4_S1x1_30_1 : ∀ a, (![30, 1] : Fin 2 → Nat) a + S1x1.size a ≤ S64x4.size a
  inb_S64x4_S1x1_30_2 : ∀ a, (![30, 2] : Fin 2 → Nat) a + S1x1.size a ≤ S64x4.size a
  inb_S64x4_S1x1_30_3 : ∀ a, (![30, 3] : Fin 2 → Nat) a + S1x1.size a ≤ S64x4.size a
  inb_S64x4_S1x1_31_0 : ∀ a, (![31, 0] : Fin 2 → Nat) a + S1x1.size a ≤ S64x4.size a
  inb_S64x4_S1x1_31_1 : ∀ a, (![31, 1] : Fin 2 → Nat) a + S1x1.size a ≤ S64x4.size a
  inb_S64x4_S1x1_31_2 : ∀ a, (![31, 2] : Fin 2 → Nat) a + S1x1.size a ≤ S64x4.size a
  inb_S64x4_S1x1_31_3 : ∀ a, (![31, 3] : Fin 2 → Nat) a + S1x1.size a ≤ S64x4.size a
  inb_S64x4_S1x1_32_0 : ∀ a, (![32, 0] : Fin 2 → Nat) a + S1x1.size a ≤ S64x4.size a
  inb_S64x4_S1x1_32_1 : ∀ a, (![32, 1] : Fin 2 → Nat) a + S1x1.size a ≤ S64x4.size a
  inb_S64x4_S1x1_32_2 : ∀ a, (![32, 2] : Fin 2 → Nat) a + S1x1.size a ≤ S64x4.size a
  inb_S64x4_S1x1_32_3 : ∀ a, (![32, 3] : Fin 2 → Nat) a + S1x1.size a ≤ S64x4.size a
  inb_S64x4_S1x1_33_0 : ∀ a, (![33, 0] : Fin 2 → Nat) a + S1x1.size a ≤ S64x4.size a
  inb_S64x4_S1x1_33_1 : ∀ a, (![33, 1] : Fin 2 → Nat) a + S1x1.size a ≤ S64x4.size a
  inb_S64x4_S1x1_33_2 : ∀ a, (![33, 2] : Fin 2 → Nat) a + S1x1.size a ≤ S64x4.size a
  inb_S64x4_S1x1_33_3 : ∀ a, (![33, 3] : Fin 2 → Nat) a + S1x1.size a ≤ S64x4.size a
  inb_S64x4_S1x1_34_0 : ∀ a, (![34, 0] : Fin 2 → Nat) a + S1x1.size a ≤ S64x4.size a
  inb_S64x4_S1x1_34_1 : ∀ a, (![34, 1] : Fin 2 → Nat) a + S1x1.size a ≤ S64x4.size a
  inb_S64x4_S1x1_34_2 : ∀ a, (![34, 2] : Fin 2 → Nat) a + S1x1.size a ≤ S64x4.size a
  inb_S64x4_S1x1_34_3 : ∀ a, (![34, 3] : Fin 2 → Nat) a + S1x1.size a ≤ S64x4.size a
  inb_S64x4_S1x1_35_0 : ∀ a, (![35, 0] : Fin 2 → Nat) a + S1x1.size a ≤ S64x4.size a
  inb_S64x4_S1x1_35_1 : ∀ a, (![35, 1] : Fin 2 → Nat) a + S1x1.size a ≤ S64x4.size a
  inb_S64x4_S1x1_35_2 : ∀ a, (![35, 2] : Fin 2 → Nat) a + S1x1.size a ≤ S64x4.size a
  inb_S64x4_S1x1_35_3 : ∀ a, (![35, 3] : Fin 2 → Nat) a + S1x1.size a ≤ S64x4.size a
  inb_S64x4_S1x1_36_0 : ∀ a, (![36, 0] : Fin 2 → Nat) a + S1x1.size a ≤ S64x4.size a
  inb_S64x4_S1x1_36_1 : ∀ a, (![36, 1] : Fin 2 → Nat) a + S1x1.size a ≤ S64x4.size a
  inb_S64x4_S1x1_36_2 : ∀ a, (![36, 2] : Fin 2 → Nat) a + S1x1.size a ≤ S64x4.size a
  inb_S64x4_S1x1_36_3 : ∀ a, (![36, 3] : Fin 2 → Nat) a + S1x1.size a ≤ S64x4.size a
  inb_S64x4_S1x1_37_0 : ∀ a, (![37, 0] : Fin 2 → Nat) a + S1x1.size a ≤ S64x4.size a
  inb_S64x4_S1x1_37_1 : ∀ a, (![37, 1] : Fin 2 → Nat) a + S1x1.size a ≤ S64x4.size a
  inb_S64x4_S1x1_37_2 : ∀ a, (![37, 2] : Fin 2 → Nat) a + S1x1.size a ≤ S64x4.size a
  inb_S64x4_S1x1_37_3 : ∀ a, (![37, 3] : Fin 2 → Nat) a + S1x1.size a ≤ S64x4.size a
  inb_S64x4_S1x1_38_0 : ∀ a, (![38, 0] : Fin 2 → Nat) a + S1x1.size a ≤ S64x4.size a
  inb_S64x4_S1x1_38_1 : ∀ a, (![38, 1] : Fin 2 → Nat) a + S1x1.size a ≤ S64x4.size a
  inb_S64x4_S1x1_38_2 : ∀ a, (![38, 2] : Fin 2 → Nat) a + S1x1.size a ≤ S64x4.size a
  inb_S64x4_S1x1_38_3 : ∀ a, (![38, 3] : Fin 2 → Nat) a + S1x1.size a ≤ S64x4.size a
  inb_S64x4_S1x1_39_0 : ∀ a, (![39, 0] : Fin 2 → Nat) a + S1x1.size a ≤ S64x4.size a
  inb_S64x4_S1x1_39_1 : ∀ a, (![39, 1] : Fin 2 → Nat) a + S1x1.size a ≤ S64x4.size a
  inb_S64x4_S1x1_39_2 : ∀ a, (![39, 2] : Fin 2 → Nat) a + S1x1.size a ≤ S64x4.size a
  inb_S64x4_S1x1_39_3 : ∀ a, (![39, 3] : Fin 2 → Nat) a + S1x1.size a ≤ S64x4.size a
  inb_S64x4_S1x1_40_0 : ∀ a, (![40, 0] : Fin 2 → Nat) a + S1x1.size a ≤ S64x4.size a
  inb_S64x4_S1x1_40_1 : ∀ a, (![40, 1] : Fin 2 → Nat) a + S1x1.size a ≤ S64x4.size a
  inb_S64x4_S1x1_40_2 : ∀ a, (![40, 2] : Fin 2 → Nat) a + S1x1.size a ≤ S64x4.size a
  inb_S64x4_S1x1_40_3 : ∀ a, (![40, 3] : Fin 2 → Nat) a + S1x1.size a ≤ S64x4.size a
  inb_S64x4_S1x1_41_0 : ∀ a, (![41, 0] : Fin 2 → Nat) a + S1x1.size a ≤ S64x4.size a
  inb_S64x4_S1x1_41_1 : ∀ a, (![41, 1] : Fin 2 → Nat) a + S1x1.size a ≤ S64x4.size a
  inb_S64x4_S1x1_41_2 : ∀ a, (![41, 2] : Fin 2 → Nat) a + S1x1.size a ≤ S64x4.size a
  inb_S64x4_S1x1_41_3 : ∀ a, (![41, 3] : Fin 2 → Nat) a + S1x1.size a ≤ S64x4.size a
  inb_S64x4_S1x1_42_0 : ∀ a, (![42, 0] : Fin 2 → Nat) a + S1x1.size a ≤ S64x4.size a
  inb_S64x4_S1x1_42_1 : ∀ a, (![42, 1] : Fin 2 → Nat) a + S1x1.size a ≤ S64x4.size a
  inb_S64x4_S1x1_42_2 : ∀ a, (![42, 2] : Fin 2 → Nat) a + S1x1.size a ≤ S64x4.size a
  inb_S64x4_S1x1_42_3 : ∀ a, (![42, 3] : Fin 2 → Nat) a + S1x1.size a ≤ S64x4.size a
  inb_S64x4_S1x1_43_0 : ∀ a, (![43, 0] : Fin 2 → Nat) a + S1x1.size a ≤ S64x4.size a
  inb_S64x4_S1x1_43_1 : ∀ a, (![43, 1] : Fin 2 → Nat) a + S1x1.size a ≤ S64x4.size a
  inb_S64x4_S1x1_43_2 : ∀ a, (![43, 2] : Fin 2 → Nat) a + S1x1.size a ≤ S64x4.size a
  inb_S64x4_S1x1_43_3 : ∀ a, (![43, 3] : Fin 2 → Nat) a + S1x1.size a ≤ S64x4.size a
  inb_S64x4_S1x1_44_0 : ∀ a, (![44, 0] : Fin 2 → Nat) a + S1x1.size a ≤ S64x4.size a
  inb_S64x4_S1x1_44_1 : ∀ a, (![44, 1] : Fin 2 → Nat) a + S1x1.size a ≤ S64x4.size a
  inb_S64x4_S1x1_44_2 : ∀ a, (![44, 2] : Fin 2 → Nat) a + S1x1.size a ≤ S64x4.size a
  inb_S64x4_S1x1_44_3 : ∀ a, (![44, 3] : Fin 2 → Nat) a + S1x1.size a ≤ S64x4.size a
  inb_S64x4_S1x1_45_0 : ∀ a, (![45, 0] : Fin 2 → Nat) a + S1x1.size a ≤ S64x4.size a
  inb_S64x4_S1x1_45_1 : ∀ a, (![45, 1] : Fin 2 → Nat) a + S1x1.size a ≤ S64x4.size a
  inb_S64x4_S1x1_45_2 : ∀ a, (![45, 2] : Fin 2 → Nat) a + S1x1.size a ≤ S64x4.size a
  inb_S64x4_S1x1_45_3 : ∀ a, (![45, 3] : Fin 2 → Nat) a + S1x1.size a ≤ S64x4.size a
  inb_S64x4_S1x1_46_0 : ∀ a, (![46, 0] : Fin 2 → Nat) a + S1x1.size a ≤ S64x4.size a
  inb_S64x4_S1x1_46_1 : ∀ a, (![46, 1] : Fin 2 → Nat) a + S1x1.size a ≤ S64x4.size a
  inb_S64x4_S1x1_46_2 : ∀ a, (![46, 2] : Fin 2 → Nat) a + S1x1.size a ≤ S64x4.size a
  inb_S64x4_S1x1_46_3 : ∀ a, (![46, 3] : Fin 2 → Nat) a + S1x1.size a ≤ S64x4.size a
  inb_S64x4_S1x1_47_0 : ∀ a, (![47, 0] : Fin 2 → Nat) a + S1x1.size a ≤ S64x4.size a
  inb_S64x4_S1x1_47_1 : ∀ a, (![47, 1] : Fin 2 → Nat) a + S1x1.size a ≤ S64x4.size a
  inb_S64x4_S1x1_47_2 : ∀ a, (![47, 2] : Fin 2 → Nat) a + S1x1.size a ≤ S64x4.size a
  inb_S64x4_S1x1_47_3 : ∀ a, (![47, 3] : Fin 2 → Nat) a + S1x1.size a ≤ S64x4.size a
  inb_S64x4_S1x1_48_0 : ∀ a, (![48, 0] : Fin 2 → Nat) a + S1x1.size a ≤ S64x4.size a
  inb_S64x4_S1x1_48_1 : ∀ a, (![48, 1] : Fin 2 → Nat) a + S1x1.size a ≤ S64x4.size a
  inb_S64x4_S1x1_48_2 : ∀ a, (![48, 2] : Fin 2 → Nat) a + S1x1.size a ≤ S64x4.size a
  inb_S64x4_S1x1_48_3 : ∀ a, (![48, 3] : Fin 2 → Nat) a + S1x1.size a ≤ S64x4.size a
  inb_S64x4_S1x1_49_0 : ∀ a, (![49, 0] : Fin 2 → Nat) a + S1x1.size a ≤ S64x4.size a
  inb_S64x4_S1x1_49_1 : ∀ a, (![49, 1] : Fin 2 → Nat) a + S1x1.size a ≤ S64x4.size a
  inb_S64x4_S1x1_49_2 : ∀ a, (![49, 2] : Fin 2 → Nat) a + S1x1.size a ≤ S64x4.size a
  inb_S64x4_S1x1_49_3 : ∀ a, (![49, 3] : Fin 2 → Nat) a + S1x1.size a ≤ S64x4.size a
  inb_S64x4_S1x1_50_0 : ∀ a, (![50, 0] : Fin 2 → Nat) a + S1x1.size a ≤ S64x4.size a
  inb_S64x4_S1x1_50_1 : ∀ a, (![50, 1] : Fin 2 → Nat) a + S1x1.size a ≤ S64x4.size a
  inb_S64x4_S1x1_50_2 : ∀ a, (![50, 2] : Fin 2 → Nat) a + S1x1.size a ≤ S64x4.size a
  inb_S64x4_S1x1_50_3 : ∀ a, (![50, 3] : Fin 2 → Nat) a + S1x1.size a ≤ S64x4.size a
  inb_S64x4_S1x1_51_0 : ∀ a, (![51, 0] : Fin 2 → Nat) a + S1x1.size a ≤ S64x4.size a
  inb_S64x4_S1x1_51_1 : ∀ a, (![51, 1] : Fin 2 → Nat) a + S1x1.size a ≤ S64x4.size a
  inb_S64x4_S1x1_51_2 : ∀ a, (![51, 2] : Fin 2 → Nat) a + S1x1.size a ≤ S64x4.size a
  inb_S64x4_S1x1_51_3 : ∀ a, (![51, 3] : Fin 2 → Nat) a + S1x1.size a ≤ S64x4.size a
  inb_S64x4_S1x1_52_0 : ∀ a, (![52, 0] : Fin 2 → Nat) a + S1x1.size a ≤ S64x4.size a
  inb_S64x4_S1x1_52_1 : ∀ a, (![52, 1] : Fin 2 → Nat) a + S1x1.size a ≤ S64x4.size a
  inb_S64x4_S1x1_52_2 : ∀ a, (![52, 2] : Fin 2 → Nat) a + S1x1.size a ≤ S64x4.size a
  inb_S64x4_S1x1_52_3 : ∀ a, (![52, 3] : Fin 2 → Nat) a + S1x1.size a ≤ S64x4.size a
  inb_S64x4_S1x1_53_0 : ∀ a, (![53, 0] : Fin 2 → Nat) a + S1x1.size a ≤ S64x4.size a
  inb_S64x4_S1x1_53_1 : ∀ a, (![53, 1] : Fin 2 → Nat) a + S1x1.size a ≤ S64x4.size a
  inb_S64x4_S1x1_53_2 : ∀ a, (![53, 2] : Fin 2 → Nat) a + S1x1.size a ≤ S64x4.size a
  inb_S64x4_S1x1_53_3 : ∀ a, (![53, 3] : Fin 2 → Nat) a + S1x1.size a ≤ S64x4.size a
  inb_S64x4_S1x1_54_0 : ∀ a, (![54, 0] : Fin 2 → Nat) a + S1x1.size a ≤ S64x4.size a
  inb_S64x4_S1x1_54_1 : ∀ a, (![54, 1] : Fin 2 → Nat) a + S1x1.size a ≤ S64x4.size a
  inb_S64x4_S1x1_54_2 : ∀ a, (![54, 2] : Fin 2 → Nat) a + S1x1.size a ≤ S64x4.size a
  inb_S64x4_S1x1_54_3 : ∀ a, (![54, 3] : Fin 2 → Nat) a + S1x1.size a ≤ S64x4.size a
  inb_S64x4_S1x1_55_0 : ∀ a, (![55, 0] : Fin 2 → Nat) a + S1x1.size a ≤ S64x4.size a
  inb_S64x4_S1x1_55_1 : ∀ a, (![55, 1] : Fin 2 → Nat) a + S1x1.size a ≤ S64x4.size a
  inb_S64x4_S1x1_55_2 : ∀ a, (![55, 2] : Fin 2 → Nat) a + S1x1.size a ≤ S64x4.size a
  inb_S64x4_S1x1_55_3 : ∀ a, (![55, 3] : Fin 2 → Nat) a + S1x1.size a ≤ S64x4.size a
  inb_S64x4_S1x1_56_0 : ∀ a, (![56, 0] : Fin 2 → Nat) a + S1x1.size a ≤ S64x4.size a
  inb_S64x4_S1x1_56_1 : ∀ a, (![56, 1] : Fin 2 → Nat) a + S1x1.size a ≤ S64x4.size a
  inb_S64x4_S1x1_56_2 : ∀ a, (![56, 2] : Fin 2 → Nat) a + S1x1.size a ≤ S64x4.size a
  inb_S64x4_S1x1_56_3 : ∀ a, (![56, 3] : Fin 2 → Nat) a + S1x1.size a ≤ S64x4.size a
  inb_S64x4_S1x1_57_0 : ∀ a, (![57, 0] : Fin 2 → Nat) a + S1x1.size a ≤ S64x4.size a
  inb_S64x4_S1x1_57_1 : ∀ a, (![57, 1] : Fin 2 → Nat) a + S1x1.size a ≤ S64x4.size a
  inb_S64x4_S1x1_57_2 : ∀ a, (![57, 2] : Fin 2 → Nat) a + S1x1.size a ≤ S64x4.size a
  inb_S64x4_S1x1_57_3 : ∀ a, (![57, 3] : Fin 2 → Nat) a + S1x1.size a ≤ S64x4.size a
  inb_S64x4_S1x1_58_0 : ∀ a, (![58, 0] : Fin 2 → Nat) a + S1x1.size a ≤ S64x4.size a
  inb_S64x4_S1x1_58_1 : ∀ a, (![58, 1] : Fin 2 → Nat) a + S1x1.size a ≤ S64x4.size a
  inb_S64x4_S1x1_58_2 : ∀ a, (![58, 2] : Fin 2 → Nat) a + S1x1.size a ≤ S64x4.size a
  inb_S64x4_S1x1_58_3 : ∀ a, (![58, 3] : Fin 2 → Nat) a + S1x1.size a ≤ S64x4.size a
  inb_S64x4_S1x1_59_0 : ∀ a, (![59, 0] : Fin 2 → Nat) a + S1x1.size a ≤ S64x4.size a
  inb_S64x4_S1x1_59_1 : ∀ a, (![59, 1] : Fin 2 → Nat) a + S1x1.size a ≤ S64x4.size a
  inb_S64x4_S1x1_59_2 : ∀ a, (![59, 2] : Fin 2 → Nat) a + S1x1.size a ≤ S64x4.size a
  inb_S64x4_S1x1_59_3 : ∀ a, (![59, 3] : Fin 2 → Nat) a + S1x1.size a ≤ S64x4.size a
  inb_S64x4_S1x1_60_0 : ∀ a, (![60, 0] : Fin 2 → Nat) a + S1x1.size a ≤ S64x4.size a
  inb_S64x4_S1x1_60_1 : ∀ a, (![60, 1] : Fin 2 → Nat) a + S1x1.size a ≤ S64x4.size a
  inb_S64x4_S1x1_60_2 : ∀ a, (![60, 2] : Fin 2 → Nat) a + S1x1.size a ≤ S64x4.size a
  inb_S64x4_S1x1_60_3 : ∀ a, (![60, 3] : Fin 2 → Nat) a + S1x1.size a ≤ S64x4.size a
  inb_S64x4_S1x1_61_0 : ∀ a, (![61, 0] : Fin 2 → Nat) a + S1x1.size a ≤ S64x4.size a
  inb_S64x4_S1x1_61_1 : ∀ a, (![61, 1] : Fin 2 → Nat) a + S1x1.size a ≤ S64x4.size a
  inb_S64x4_S1x1_61_2 : ∀ a, (![61, 2] : Fin 2 → Nat) a + S1x1.size a ≤ S64x4.size a
  inb_S64x4_S1x1_61_3 : ∀ a, (![61, 3] : Fin 2 → Nat) a + S1x1.size a ≤ S64x4.size a
  inb_S64x4_S1x1_62_0 : ∀ a, (![62, 0] : Fin 2 → Nat) a + S1x1.size a ≤ S64x4.size a
  inb_S64x4_S1x1_62_1 : ∀ a, (![62, 1] : Fin 2 → Nat) a + S1x1.size a ≤ S64x4.size a
  inb_S64x4_S1x1_62_2 : ∀ a, (![62, 2] : Fin 2 → Nat) a + S1x1.size a ≤ S64x4.size a
  inb_S64x4_S1x1_62_3 : ∀ a, (![62, 3] : Fin 2 → Nat) a + S1x1.size a ≤ S64x4.size a
  inb_S64x4_S1x1_63_0 : ∀ a, (![63, 0] : Fin 2 → Nat) a + S1x1.size a ≤ S64x4.size a
  inb_S64x4_S1x1_63_1 : ∀ a, (![63, 1] : Fin 2 → Nat) a + S1x1.size a ≤ S64x4.size a
  inb_S64x4_S1x1_63_2 : ∀ a, (![63, 2] : Fin 2 → Nat) a + S1x1.size a ≤ S64x4.size a
  inb_S64x4_S1x1_63_3 : ∀ a, (![63, 3] : Fin 2 → Nat) a + S1x1.size a ≤ S64x4.size a
  reduces_S64x512_S64 : S64x512.Reduces [1] S64
  shapeCasts_S64_S64x1 : S64.ShapeCasts S64x1
  reduces_S64x1_S1 : S64x1.Reduces [0] S1
  shapeCasts_S1_S1x1 : S1.ShapeCasts S1x1
  inb_S1x2x64x512_S1x1x64x512_0_1_0_0 : ∀ a, (![0, 1, 0, 0] : Fin 4 → Nat) a + S1x1x64x512.size a ≤ S1x2x64x512.size a
  inb_S1x14x64x512_S1x1x64x512_0_7_0_0 : ∀ a, (![0, 7, 0, 0] : Fin 4 → Nat) a + S1x1x64x512.size a ≤ S1x14x64x512.size a
  inb_S1x14x64x512_S1x1x64x512_0_8_0_0 : ∀ a, (![0, 8, 0, 0] : Fin 4 → Nat) a + S1x1x64x512.size a ≤ S1x14x64x512.size a
  inb_S1x14x64x512_S1x1x64x512_0_9_0_0 : ∀ a, (![0, 9, 0, 0] : Fin 4 → Nat) a + S1x1x64x512.size a ≤ S1x14x64x512.size a
  inb_S1x14x64x512_S1x1x64x512_0_10_0_0 : ∀ a, (![0, 10, 0, 0] : Fin 4 → Nat) a + S1x1x64x512.size a ≤ S1x14x64x512.size a
  inb_S1x14x64x512_S1x1x64x512_0_11_0_0 : ∀ a, (![0, 11, 0, 0] : Fin 4 → Nat) a + S1x1x64x512.size a ≤ S1x14x64x512.size a
  inb_S1x14x64x512_S1x1x64x512_0_12_0_0 : ∀ a, (![0, 12, 0, 0] : Fin 4 → Nat) a + S1x1x64x512.size a ≤ S1x14x64x512.size a
  inb_S1x14x64x512_S1x1x64x512_0_13_0_0 : ∀ a, (![0, 13, 0, 0] : Fin 4 → Nat) a + S1x1x64x512.size a ≤ S1x14x64x512.size a
  inb_S2x7x64x512_S1x1x64x512_1_0_0_0 : ∀ a, (![1, 0, 0, 0] : Fin 4 → Nat) a + S1x1x64x512.size a ≤ S2x7x64x512.size a
  inb_S2x7x64x512_S1x1x64x512_1_1_0_0 : ∀ a, (![1, 1, 0, 0] : Fin 4 → Nat) a + S1x1x64x512.size a ≤ S2x7x64x512.size a
  inb_S2x7x64x512_S1x1x64x512_1_2_0_0 : ∀ a, (![1, 2, 0, 0] : Fin 4 → Nat) a + S1x1x64x512.size a ≤ S2x7x64x512.size a
  inb_S2x7x64x512_S1x1x64x512_1_3_0_0 : ∀ a, (![1, 3, 0, 0] : Fin 4 → Nat) a + S1x1x64x512.size a ≤ S2x7x64x512.size a
  inb_S2x7x64x512_S1x1x64x512_1_4_0_0 : ∀ a, (![1, 4, 0, 0] : Fin 4 → Nat) a + S1x1x64x512.size a ≤ S2x7x64x512.size a
  inb_S2x7x64x512_S1x1x64x512_1_5_0_0 : ∀ a, (![1, 5, 0, 0] : Fin 4 → Nat) a + S1x1x64x512.size a ≤ S2x7x64x512.size a
  inb_S2x7x64x512_S1x1x64x512_1_6_0_0 : ∀ a, (![1, 6, 0, 0] : Fin 4 → Nat) a + S1x1x64x512.size a ≤ S2x7x64x512.size a
  reducesTo_S1x1_S_d0_1 : S1x1.ReducesTo [0, 1] S_
  gather_S64x7_S3x1_S64x3_0_1_n_n_1_1_641_wf : GatherDims.WF S64x7 S3x1 S64x3 [0] [1] [] [1] [] 1 ![64, 1]
  dot_S64x8x3_S64x3x3_S64x8x3_2_1_1_2_0_0_wf : DotDims.WF S64x8x3 S64x3x3 S64x8x3 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x64x512.size a ≤ S1x2x512x512.size a
  hwx0_0 : ∀ i : grid0.Coords, EltTy.bits .f32 = 32 ∨ (Rect.block (s := S1x2x512x512) S1x2x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x14x64x512.size a ≤ S1x14x512x512.size a
  hwx0_1 : ∀ i : grid0.Coords, EltTy.bits .f32 = 32 ∨ (Rect.block (s := S1x14x512x512) S1x14x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x7x64x512.size a ≤ S2x7x512x512.size a
  hwx0_2 : ∀ i : grid0.Coords, EltTy.bits .f32 = 32 ∨ (Rect.block (s := S2x7x512x512) S2x7x64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x4.size a ≤ S4x4.size a
  hwx0_3 : ∀ i : grid0.Coords, EltTy.bits .f32 = 32 ∨ (Rect.block (s := S4x4) S4x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x4.size a ≤ S64x4.size a
  hwx0_4 : ∀ i : grid0.Coords, EltTy.bits .f32 = 32 ∨ (Rect.block (s := S64x4) S64x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def gather_S64x7_S3x1_S64x3_0_1_n_n_1_1_641 : GatherDims S64x7 S3x1 S64x3 where
  offsetDims := [0]
  collapsedSliceDims := [1]
  operandBatchingDims := []
  startIndicesBatchingDims := []
  startIndexMap := [1]
  indexVectorDim := 1
  sliceSizes := ![64, 1]
  wf := gather_S64x7_S3x1_S64x3_0_1_n_n_1_1_641_wf
def dot_S64x8x3_S64x3x3_S64x8x3_2_1_1_2_0_0 : DotDims S64x8x3 S64x3x3 S64x8x3 where
  lhsContracting := [2]
  rhsContracting := [1]
  lhsNonContracting := [1]
  rhsNonContracting := [2]
  lhsBatch := [0]
  rhsBatch := [0]
  wf := dot_S64x8x3_S64x3x3_S64x8x3_2_1_1_2_0_0_wf

abbrev win0_0 : Pipeline.Window sig grid0 :=
  Pipeline.Window.ofSpec (Memref.whole main_arg0) S1x2x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x14x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v52) S2x7x64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v51) S64x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v53) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1x2x512x512 : Shape := ⟨4, ![1, 2, 512, 512]⟩
abbrev S1x14x512x512 : Shape := ⟨4, ![1, 14, 512, 512]⟩
abbrev S512x512x2x7 : Shape := ⟨4, ![512, 512, 2, 7]⟩
abbrev S4x4 : Shape := ⟨2, ![4, 4]⟩
abbrev S64x7 : Shape := ⟨2, ![64, 7]⟩
abbrev S3 : Shape := ⟨1, ![3]⟩
abbrev S8x3 : Shape := ⟨2, ![8, 3]⟩
abbrev S1x512x512x2 : Shape := ⟨4, ![1, 512, 512, 2]⟩
abbrev S_ : Shape := ⟨0, ![]⟩
abbrev S524288 : Shape := ⟨1, ![524288]⟩
abbrev S1x512x512x14 : Shape := ⟨4, ![1, 512, 512, 14]⟩
abbrev S524288x7 : Shape := ⟨2, ![524288, 7]⟩
abbrev S524288x1 : Shape := ⟨2, ![524288, 1]⟩
abbrev S524288x2 : Shape := ⟨2, ![524288, 2]⟩
abbrev S524288x3 : Shape := ⟨2, ![524288, 3]⟩
abbrev S3x1 : Shape := ⟨2, ![3, 1]⟩
abbrev S524288x1x3 : Shape := ⟨3, ![524288, 1, 3]⟩
abbrev S1x8x3 : Shape := ⟨3, ![1, 8, 3]⟩
abbrev S524288x8x3 : Shape := ⟨3, ![524288, 8, 3]⟩
abbrev S524288x9 : Shape := ⟨2, ![524288, 9]⟩
abbrev S524288x3x3 : Shape := ⟨3, ![524288, 3, 3]⟩
abbrev S524288x8x1 : Shape := ⟨3, ![524288, 8, 1]⟩
abbrev S524288x8x4 : Shape := ⟨3, ![524288, 8, 4]⟩
abbrev S524288x8 : Shape := ⟨2, ![524288, 8]⟩
abbrev S524288x4 : Shape := ⟨2, ![524288, 4]⟩
abbrev S64x3 : Shape := ⟨2, ![64, 3]⟩
abbrev S64x1x3 : Shape := ⟨3, ![64, 1, 3]⟩
abbrev S64x8x3 : Shape := ⟨3, ![64, 8, 3]⟩
abbrev S64x1 : Shape := ⟨2, ![64, 1]⟩
abbrev S64 : Shape := ⟨1, ![64]⟩
abbrev S64x9 : Shape := ⟨2, ![64, 9]⟩
abbrev S64x3x3 : Shape := ⟨3, ![64, 3, 3]⟩
abbrev S64x8x1 : Shape := ⟨3, ![64, 8, 1]⟩
abbrev S64x8 : Shape := ⟨2, ![64, 8]⟩
abbrev S64x4 : Shape := ⟨2, ![64, 4]⟩
abbrev S1x64x4 : Shape := ⟨3, ![1, 64, 4]⟩
abbrev S524288x1x4 : Shape := ⟨3, ![524288, 1, 4]⟩
abbrev S524288x1x1 : Shape := ⟨3, ![524288, 1, 1]⟩
abbrev S1x64x1 : Shape := ⟨3, ![1, 64, 1]⟩
abbrev S1x64 : Shape := ⟨2, ![1, 64]⟩
abbrev S524288x64 : Shape := ⟨2, ![524288, 64]⟩

abbrev nBuf : Space → Nat
  | .hbm => 256
  | .vmem => 0
  | .smem => 0
  | _ => 0

abbrev hbmTy0_0 (i : Nat) : BufTy := match i % 128 with
  | 0 => ⟨S1x2x512x512, .f32⟩
  | 1 => ⟨S1x14x512x512, .f32⟩
  | 2 => ⟨S512x512x2x7, .f32⟩
  | 3 => ⟨S4x4, .f32⟩
  | 4 => ⟨S64x7, .f32⟩
  | 5 => ⟨S3, .i32⟩
  | 6 => ⟨S8x3, .f32⟩
  | 7 => ⟨S3, .i32⟩
  | 8 => ⟨S1x512x512x2, .f32⟩
  | 9 => ⟨S1x512x512x2, .f32⟩
  | 10 => ⟨S1x512x512x2, .f32⟩
  | 11 => ⟨S_, .f32⟩
  | 12 => ⟨S1x512x512x2, .f32⟩
  | 13 => ⟨S1x512x512x2, .f32⟩
  | 14 => ⟨S_, .f32⟩
  | 15 => ⟨S1x512x512x2, .f32⟩
  | 16 => ⟨S1x512x512x2, .f32⟩
  | 17 => ⟨S524288, .f32⟩
  | 18 => ⟨S1x512x512x14, .f32⟩
  | 19 => ⟨S524288x7, .f32⟩
  | 20 => ⟨S524288x7, .f32⟩
  | 21 => ⟨S524288x1, .f32⟩
  | 22 => ⟨S524288, .f32⟩
  | 23 => ⟨S524288, .f32⟩
  | 24 => ⟨S524288x1, .f32⟩
  | 25 => ⟨S524288, .f32⟩
  | 26 => ⟨S524288, .f32⟩
  | 27 => ⟨S524288, .f32⟩
  | 28 => ⟨S524288, .f32⟩
  | 29 => ⟨S524288x2, .f32⟩
  | 30 => ⟨S524288x1, .f32⟩
  | 31 => ⟨S524288x2, .f32⟩
  | 32 => ⟨S524288x2, .f32⟩
  | 33 => ⟨S524288x2, .f32⟩
  | 34 => ⟨S524288x2, .f32⟩
  | 35 => ⟨S524288x1, .f32⟩
  | 36 => ⟨S524288x1, .f32⟩
  | 37 => ⟨S524288x1, .f32⟩
  | 38 => ⟨S524288x1, .f32⟩
  | 39 => ⟨S524288x1, .f32⟩
  | 40 => ⟨S524288x3, .f32⟩
  | 41 => ⟨S524288x3, .f32⟩
  | 42 => ⟨S524288x3, .f32⟩
  | 43 => ⟨S524288x3, .f32⟩
  | 44 => ⟨S524288x1, .f32⟩
  | 45 => ⟨S524288, .f32⟩
  | 46 => ⟨S524288x1, .f32⟩
  | 47 => ⟨S524288, .f32⟩
  | 48 => ⟨S524288, .f32⟩
  | 49 => ⟨S524288x1, .f32⟩
  | 50 => ⟨S524288x7, .f32⟩
  | 51 => ⟨S_, .f32⟩
  | 52 => ⟨S524288, .f32⟩
  | 53 => ⟨S524288, .i1⟩
  | 54 => ⟨S524288, .f32⟩
  | 55 => ⟨S_, .i32⟩
  | 56 => ⟨S3, .i32⟩
  | 57 => ⟨S3, .i1⟩
  | 58 => ⟨S_, .i32⟩
  | 59 => ⟨S3, .i32⟩
  | 60 => ⟨S3, .i32⟩
  | 61 => ⟨S3, .i32⟩
  | 62 => ⟨S3x1, .i32⟩
  | 63 => ⟨S524288x3, .f32⟩
  | 64 => ⟨S524288x1x3, .f32⟩
  | 65 => ⟨S1x8x3, .f32⟩
  | 66 => ⟨S524288x8x3, .f32⟩
  | 67 => ⟨S524288x8x3, .f32⟩
  | 68 => ⟨S524288x8x3, .f32⟩
  | 69 => ⟨S524288x1, .f32⟩
  | 70 => ⟨S524288, .f32⟩
  | 71 => ⟨S524288, .f32⟩
  | 72 => ⟨S524288, .f32⟩
  | 73 => ⟨S_, .f32⟩
  | 74 => ⟨S524288, .f32⟩
  | 75 => ⟨S_, .f32⟩
  | 76 => ⟨S524288, .f32⟩
  | 77 => ⟨S524288, .f32⟩
  | 78 => ⟨S524288x1, .f32⟩
  | 79 => ⟨S524288x1, .f32⟩
  | 80 => ⟨S524288x1, .f32⟩
  | 81 => ⟨S524288x1, .f32⟩
  | 82 => ⟨S524288x1, .f32⟩
  | 83 => ⟨S524288x1, .f32⟩
  | 84 => ⟨S524288x1, .f32⟩
  | 85 => ⟨S524288x1, .f32⟩
  | 86 => ⟨S524288x1, .f32⟩
  | 87 => ⟨S524288x9, .f32⟩
  | 88 => ⟨S524288x3x3, .f32⟩
  | 89 => ⟨S524288x8x3, .f32⟩
  | 90 => ⟨S524288x3, .f32⟩
  | 91 => ⟨S524288x1x3, .f32⟩
  | 92 => ⟨S524288x8x3, .f32⟩
  | 93 => ⟨S524288x8x3, .f32⟩
  | 94 => ⟨S_, .f32⟩
  | 95 => ⟨S524288x8x1, .f32⟩
  | 96 => ⟨S524288x8x4, .f32⟩
  | 97 => ⟨S524288x8x4, .f32⟩
  | 98 => ⟨S524288x8x3, .f32⟩
  | 99 => ⟨S524288x8x1, .f32⟩
  | 100 => ⟨S524288x8, .f32⟩
  | 101 => ⟨S_, .f32⟩
  | 102 => ⟨S524288, .f32⟩
  | 103 => ⟨S524288x8x1, .f32⟩
  | 104 => ⟨S524288x8, .f32⟩
  | 105 => ⟨S_, .f32⟩
  | 106 => ⟨S524288, .f32⟩
  | 107 => ⟨S524288x8x1, .f32⟩
  | 108 => ⟨S524288x8, .f32⟩
  | 109 => ⟨S_, .f32⟩
  | 110 => ⟨S524288, .f32⟩
  | 111 => ⟨S524288x8x1, .f32⟩
  | 112 => ⟨S524288x8, .f32⟩
  | 113 => ⟨S_, .f32⟩
  | 114 => ⟨S524288, .f32⟩
  | 115 => ⟨S524288x1, .f32⟩
  | 116 => ⟨S524288x1, .f32⟩
  | 117 => ⟨S524288x1, .f32⟩
  | 118 => ⟨S524288x1, .f32⟩
  | 119 => ⟨S524288x4, .f32⟩
  | 120 => ⟨S_, .i32⟩
  | 121 => ⟨S3, .i32⟩
  | 122 => ⟨S3, .i1⟩
  | 123 => ⟨S_, .i32⟩
  | 124 => ⟨S3, .i32⟩
  | 125 => ⟨S3, .i32⟩
  | 126 => ⟨S3, .i32⟩
  | 127 => ⟨S3x1, .i32⟩
  | _ => ⟨S1x2x512x512, .f32⟩

abbrev hbmTy0_1 (i : Nat) : BufTy := match i % 128 with
  | 0 => ⟨S64x3, .f32⟩
  | 1 => ⟨S64x1x3, .f32⟩
  | 2 => ⟨S1x8x3, .f32⟩
  | 3 => ⟨S64x8x3, .f32⟩
  | 4 => ⟨S64x8x3, .f32⟩
  | 5 => ⟨S64x8x3, .f32⟩
  | 6 => ⟨S64x1, .f32⟩
  | 7 => ⟨S64, .f32⟩
  | 8 => ⟨S64, .f32⟩
  | 9 => ⟨S64, .f32⟩
  | 10 => ⟨S_, .f32⟩
  | 11 => ⟨S64, .f32⟩
  | 12 => ⟨S_, .f32⟩
  | 13 => ⟨S64, .f32⟩
  | 14 => ⟨S64, .f32⟩
  | 15 => ⟨S64x1, .f32⟩
  | 16 => ⟨S64x1, .f32⟩
  | 17 => ⟨S64x1, .f32⟩
  | 18 => ⟨S64x1, .f32⟩
  | 19 => ⟨S64x1, .f32⟩
  | 20 => ⟨S64x1, .f32⟩
  | 21 => ⟨S64x1, .f32⟩
  | 22 => ⟨S64x1, .f32⟩
  | 23 => ⟨S64x1, .f32⟩
  | 24 => ⟨S64x9, .f32⟩
  | 25 => ⟨S64x3x3, .f32⟩
  | 26 => ⟨S64x8x3, .f32⟩
  | 27 => ⟨S64x3, .f32⟩
  | 28 => ⟨S64x1x3, .f32⟩
  | 29 => ⟨S64x8x3, .f32⟩
  | 30 => ⟨S64x8x3, .f32⟩
  | 31 => ⟨S64x8x1, .f32⟩
  | 32 => ⟨S64x8, .f32⟩
  | 33 => ⟨S_, .f32⟩
  | 34 => ⟨S64, .f32⟩
  | 35 => ⟨S64x8x1, .f32⟩
  | 36 => ⟨S64x8, .f32⟩
  | 37 => ⟨S_, .f32⟩
  | 38 => ⟨S64, .f32⟩
  | 39 => ⟨S64x8x1, .f32⟩
  | 40 => ⟨S64x8, .f32⟩
  | 41 => ⟨S_, .f32⟩
  | 42 => ⟨S64, .f32⟩
  | 43 => ⟨S64x8x1, .f32⟩
  | 44 => ⟨S64x8, .f32⟩
  | 45 => ⟨S_, .f32⟩
  | 46 => ⟨S64, .f32⟩
  | 47 => ⟨S64x1, .f32⟩
  | 48 => ⟨S64x1, .f32⟩
  | 49 => ⟨S64x1, .f32⟩
  | 50 => ⟨S64x1, .f32⟩
  | 51 => ⟨S64x4, .f32⟩
  | 52 => ⟨S1x64x4, .f32⟩
  | 53 => ⟨S524288x1x4, .f32⟩
  | 54 => ⟨S524288x1x1, .f32⟩
  | 55 => ⟨S524288x1, .f32⟩
  | 56 => ⟨S1x64x1, .f32⟩
  | 57 => ⟨S1x64, .f32⟩
  | 58 => ⟨S524288x64, .f32⟩
  | 59 => ⟨S524288x64, .f32⟩
  | 60 => ⟨S524288x64, .f32⟩
  | 61 => ⟨S524288x1x1, .f32⟩
  | 62 => ⟨S524288x1, .f32⟩
  | 63 => ⟨S1x64x1, .f32⟩
  | 64 => ⟨S1x64, .f32⟩
  | 65 => ⟨S524288x64, .f32⟩
  | 66 => ⟨S524288x64, .f32⟩
  | 67 => ⟨S524288x64, .f32⟩
  | 68 => ⟨S524288x1x1, .f32⟩
  | 69 => ⟨S524288x1, .f32⟩
  | 70 => ⟨S1x64x1, .f32⟩
  | 71 => ⟨S1x64, .f32⟩
  | 72 => ⟨S524288x64, .f32⟩
  | 73 => ⟨S524288x64, .f32⟩
  | 74 => ⟨S524288x64, .f32⟩
  | 75 => ⟨S524288x1x1, .f32⟩
  | 76 => ⟨S524288x1, .f32⟩
  | 77 => ⟨S1x64x1, .f32⟩
  | 78 => ⟨S1x64, .f32⟩
  | 79 => ⟨S524288x64, .f32⟩
  | 80 => ⟨S524288x64, .f32⟩
  | 81 => ⟨S524288x64, .f32⟩
  | 82 => ⟨S524288x64, .f32⟩
  | 83 => ⟨S_, .f32⟩
  | 84 => ⟨S524288x64, .f32⟩
  | 85 => ⟨S524288x64, .f32⟩
  | 86 => ⟨S524288x64, .f32⟩
  | 87 => ⟨S_, .f32⟩
  | 88 => ⟨S524288x64, .f32⟩
  | 89 => ⟨S524288x64, .f32⟩
  | 90 => ⟨S524288x64, .f32⟩
  | 91 => ⟨S524288x1x1, .f32⟩
  | 92 => ⟨S524288x1, .f32⟩
  | 93 => ⟨S524288x1x1, .f32⟩
  | 94 => ⟨S524288x1, .f32⟩
  | 95 => ⟨S524288x1, .f32⟩
  | 96 => ⟨S524288x1x1, .f32⟩
  | 97 => ⟨S524288x1, .f32⟩
  | 98 => ⟨S524288x1x1, .f32⟩
  | 99 => ⟨S524288x1, .f32⟩
  | 100 => ⟨S524288x1, .f32⟩
  | 101 => ⟨S524288x1, .f32⟩
  | 102 => ⟨S1x64x1, .f32⟩
  | 103 => ⟨S1x64, .f32⟩
  | 104 => ⟨S1x64x1, .f32⟩
  | 105 => ⟨S1x64, .f32⟩
  | 106 => ⟨S1x64, .f32⟩
  | 107 => ⟨S1x64x1, .f32⟩
  | 108 => ⟨S1x64, .f32⟩
  | 109 => ⟨S1x64x1, .f32⟩
  | 110 => ⟨S1x64, .f32⟩
  | 111 => ⟨S1x64, .f32⟩
  | 112 => ⟨S1x64, .f32⟩
  | 113 => ⟨S524288x64, .f32⟩
  | 114 => ⟨S524288x64, .f32⟩
  | 115 => ⟨S524288x64, .f32⟩
  | 116 => ⟨S524288x64, .f32⟩
  | 117 => ⟨S524288x64, .f32⟩
  | 118 => ⟨S_, .f32⟩
  | 119 => ⟨S524288, .f32⟩
  | 120 => ⟨S524288, .f32⟩
  | 121 => ⟨S524288, .f32⟩
  | 122 => ⟨S524288, .f32⟩
  | 123 => ⟨S_, .f32⟩
  | 124 => ⟨S524288, .f32⟩
  | 125 => ⟨S524288, .f32⟩
  | 126 => ⟨S_, .f32⟩
  | 127 => ⟨S_, .f32⟩
  | _ => ⟨S1x2x512x512, .f32⟩

abbrev hbmTy (i : Nat) : BufTy := match i / 128 with
  | 0 => hbmTy0_0 i
  | 1 => hbmTy0_1 i
  | _ => ⟨S1x2x512x512, .f32⟩

abbrev bufTy : (tb : Table) → Fin (tcTables nBuf tb) → BufTy
  | .hbm, ⟨i, _⟩ => hbmTy i
  | _, _ => ⟨S1x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_4 : Ref sig .tc := ⟨.hbm, 55, rfl⟩
abbrev main_v44 : Ref sig .tc := ⟨.hbm, 56, rfl⟩
abbrev main_v45 : Ref sig .tc := ⟨.hbm, 57, rfl⟩
abbrev main_c_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_6 : Ref sig .tc := ⟨.hbm, 73, rfl⟩
abbrev main_v60 : Ref sig .tc := ⟨.hbm, 74, rfl⟩
abbrev main_cst_7 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_cst_8 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_9 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_10 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_11 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_12 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_c_13 : Ref sig .tc := ⟨.hbm, 120, rfl⟩
abbrev main_v100 : Ref sig .tc := ⟨.hbm, 121, rfl⟩
abbrev main_v101 : Ref sig .tc := ⟨.hbm, 122, rfl⟩
abbrev main_c_14 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_cst_15 : Ref sig .tc := ⟨.hbm, 138, rfl⟩
abbrev main_v116 : Ref sig .tc := ⟨.hbm, 139, rfl⟩
abbrev main_cst_16 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_cst_17 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_cst_18 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_cst_19 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_cst_20 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_cst_21 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_cst_22 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_cst_23 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_cst_24 : Ref sig .tc := ⟨.hbm, 251, rfl⟩
abbrev main_v220 : Ref sig .tc := ⟨.hbm, 252, rfl⟩
abbrev main_v221 : Ref sig .tc := ⟨.hbm, 253, rfl⟩
abbrev main_cst_25 : Ref sig .tc := ⟨.hbm, 254, rfl⟩
abbrev main_v222 : Ref sig .tc := ⟨.hbm, 255, rfl⟩

abbrev nD : Nat := 1
abbrev τ : Topo := Topo.v7x

variable {F : FTy → Type} [FloatOps F]

class Facts₀ : Prop where
  transposes_S1x2x512x512_S1x512x512x2_0_2_3_1 : S1x2x512x512.Transposes [0, 2, 3, 1] S1x512x512x2
  bcast_S_S1x512x512x2 : S_.BroadcastsInDim S1x512x512x2 (![] : Fin 0 → Fin S1x512x512x2.rank)
  shapeCasts_S1x512x512x2_S524288 : S1x512x512x2.ShapeCasts S524288
  transposes_S1x14x512x512_S1x512x512x14_0_2_3_1 : S1x14x512x512.Transposes [0, 2, 3, 1] S1x512x512x14
  shapeCasts_S1x512x512x14_S524288x7 : S1x512x512x14.ShapeCasts S524288x7
  shapeCasts_S512x512x2x7_S524288x7 : S512x512x2x7.ShapeCasts S524288x7
  slices_S524288x7_S524288x1_0_4 : S524288x7.Slices ![0, 4] S524288x1
  shapeCasts_S524288x1_S524288 : S524288x1.ShapeCasts S524288
  slices_S524288x7_S524288x1_0_5 : S524288x7.Slices ![0, 5] S524288x1
  slices_S524288x7_S524288x2_0_0 : S524288x7.Slices ![0, 0] S524288x2
  bcast_S524288_S524288x1_0 : S524288.BroadcastsInDim S524288x1 (![0] : Fin 1 → Fin S524288x1.rank)
  bcast_S524288x1_S524288x2_0_1 : S524288x1.BroadcastsInDim S524288x2 (![0, 1] : Fin 2 → Fin S524288x2.rank)
  slices_S524288x7_S524288x1_0_2 : S524288x7.Slices ![0, 2] S524288x1
  slices_S524288x7_S524288x1_0_3 : S524288x7.Slices ![0, 3] S524288x1
  slices_S524288x7_S524288x3_0_3 : S524288x7.Slices ![0, 3] S524288x3
  slices_S524288x7_S524288x1_0_6 : S524288x7.Slices ![0, 6] S524288x1
  concatenates_S524288x2_S524288x1_S524288x3_S524288x1_S524288x7_d1 : Shape.Concatenates [S524288x2, S524288x1, S524288x3, S524288x1] S524288x7 1
  bcast_S_S524288 : S_.BroadcastsInDim S524288 (![] : Fin 0 → Fin S524288.rank)
  bcast_S_S3 : S_.BroadcastsInDim S3 (![] : Fin 0 → Fin S3.rank)
  bcast_S3_S3x1_0 : S3.BroadcastsInDim S3x1 (![0] : Fin 1 → Fin S3x1.rank)
  bcast_S524288x3_S524288x1x3_0_2 : S524288x3.BroadcastsInDim S524288x1x3 (![0, 2] : Fin 2 → Fin S524288x1x3.rank)
  bcast_S8x3_S1x8x3_1_2 : S8x3.BroadcastsInDim S1x8x3 (![1, 2] : Fin 2 → Fin S1x8x3.rank)
  bcast_S524288x1x3_S524288x8x3_0_1_2 : S524288x1x3.BroadcastsInDim S524288x8x3 (![0, 1, 2] : Fin 3 → Fin S524288x8x3.rank)
  bcast_S1x8x3_S524288x8x3_0_1_2 : S1x8x3.BroadcastsInDim S524288x8x3 (![0, 1, 2] : Fin 3 → Fin S524288x8x3.rank)
  concatenates_S524288x1_S524288x1_S524288x1_S524288x1_S524288x1_S524288x1_S524288x1_S524288x1_S524288x1_S524288x9_d1 : Shape.Concatenates [S524288x1, S524288x1, S524288x1, S524288x1, S524288x1, S524288x1, S524288x1, S524288x1, S524288x1] S524288x9 1
  shapeCasts_S524288x9_S524288x3x3 : S524288x9.ShapeCasts S524288x3x3
  slices_S524288x7_S524288x3_0_0 : S524288x7.Slices ![0, 0] S524288x3
  bcast_S_S524288x8x1 : S_.BroadcastsInDim S524288x8x1 (![] : Fin 0 → Fin S524288x8x1.rank)
  concatenates_S524288x8x3_S524288x8x1_S524288x8x4_d2 : Shape.Concatenates [S524288x8x3, S524288x8x1] S524288x8x4 2
  slices_S524288x8x4_S524288x8x3_0_0_0 : S524288x8x4.Slices ![0, 0, 0] S524288x8x3
  slices_S524288x8x3_S524288x8x1_0_0_0 : S524288x8x3.Slices ![0, 0, 0] S524288x8x1
  shapeCasts_S524288x8x1_S524288x8 : S524288x8x1.ShapeCasts S524288x8
  reducesTo_S524288x8_S524288_d1 : S524288x8.ReducesTo [1] S524288
  h_S_ : 0 < S_.numel
  slices_S524288x8x3_S524288x8x1_0_0_1 : S524288x8x3.Slices ![0, 0, 1] S524288x8x1
  concatenates_S524288x1_S524288x1_S524288x1_S524288x1_S524288x4_d1 : Shape.Concatenates [S524288x1, S524288x1, S524288x1, S524288x1] S524288x4 1
  bcast_S64x3_S64x1x3_0_2 : S64x3.BroadcastsInDim S64x1x3 (![0, 2] : Fin 2 → Fin S64x1x3.rank)
  bcast_S64x1x3_S64x8x3_0_1_2 : S64x1x3.BroadcastsInDim S64x8x3 (![0, 1, 2] : Fin 3 → Fin S64x8x3.rank)
  bcast_S1x8x3_S64x8x3_0_1_2 : S1x8x3.BroadcastsInDim S64x8x3 (![0, 1, 2] : Fin 3 → Fin S64x8x3.rank)
  slices_S64x7_S64x1_0_6 : S64x7.Slices ![0, 6] S64x1
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  concatenates_S64x1_S64x1_S64x1_S64x1_S64x1_S64x1_S64x1_S64x1_S64x1_S64x9_d1 : Shape.Concatenates [S64x1, S64x1, S64x1, S64x1, S64x1, S64x1, S64x1, S64x1, S64x1] S64x9 1
  shapeCasts_S64x9_S64x3x3 : S64x9.ShapeCasts S64x3x3
  slices_S64x7_S64x3_0_0 : S64x7.Slices ![0, 0] S64x3
  slices_S64x8x3_S64x8x1_0_0_0 : S64x8x3.Slices ![0, 0, 0] S64x8x1
  shapeCasts_S64x8x1_S64x8 : S64x8x1.ShapeCasts S64x8
  reducesTo_S64x8_S64_d1 : S64x8.ReducesTo [1] S64
  slices_S64x8x3_S64x8x1_0_0_1 : S64x8x3.Slices ![0, 0, 1] S64x8x1
  concatenates_S64x1_S64x1_S64x1_S64x1_S64x4_d1 : Shape.Concatenates [S64x1, S64x1, S64x1, S64x1] S64x4 1
  bcast_S64x4_S1x64x4_1_2 : S64x4.BroadcastsInDim S1x64x4 (![1, 2] : Fin 2 → Fin S1x64x4.rank)
  bcast_S524288x4_S524288x1x4_0_2 : S524288x4.BroadcastsInDim S524288x1x4 (![0, 2] : Fin 2 → Fin S524288x1x4.rank)
  slices_S524288x1x4_S524288x1x1_0_0_0 : S524288x1x4.Slices ![0, 0, 0] S524288x1x1
  shapeCasts_S524288x1x1_S524288x1 : S524288x1x1.ShapeCasts S524288x1
  slices_S1x64x4_S1x64x1_0_0_0 : S1x64x4.Slices ![0, 0, 0] S1x64x1
  shapeCasts_S1x64x1_S1x64 : S1x64x1.ShapeCasts S1x64
  bcast_S524288x1_S524288x64_0_1 : S524288x1.BroadcastsInDim S524288x64 (![0, 1] : Fin 2 → Fin S524288x64.rank)
  bcast_S1x64_S524288x64_0_1 : S1x64.BroadcastsInDim S524288x64 (![0, 1] : Fin 2 → Fin S524288x64.rank)
  slices_S524288x1x4_S524288x1x1_0_0_1 : S524288x1x4.Slices ![0, 0, 1] S524288x1x1
  slices_S1x64x4_S1x64x1_0_0_1 : S1x64x4.Slices ![0, 0, 1] S1x64x1
  slices_S524288x1x4_S524288x1x1_0_0_2 : S524288x1x4.Slices ![0, 0, 2] S524288x1x1
  slices_S1x64x4_S1x64x1_0_0_2 : S1x64x4.Slices ![0, 0, 2] S1x64x1
  slices_S524288x1x4_S524288x1x1_0_0_3 : S524288x1x4.Slices ![0, 0, 3] S524288x1x1
  slices_S1x64x4_S1x64x1_0_0_3 : S1x64x4.Slices ![0, 0, 3] S1x64x1
  bcast_S_S524288x64 : S_.BroadcastsInDim S524288x64 (![] : Fin 0 → Fin S524288x64.rank)
  reducesTo_S524288x64_S524288_d1 : S524288x64.ReducesTo [1] S524288
  reducesTo_S524288_S_d0 : S524288.ReducesTo [0] S_
  gather_S524288x7_S3x1_S524288x3_0_1_n_n_1_1_5242881_wf : GatherDims.WF S524288x7 S3x1 S524288x3 [0] [1] [] [1] [] 1 ![524288, 1]
  dot_S524288x8x3_S524288x3x3_S524288x8x3_2_1_1_2_0_0_wf : DotDims.WF S524288x8x3 S524288x3x3 S524288x8x3 [2] [1] [1] [2] [0] [0]
  dot_S524288x8x4_S4x4_S524288x8x4_2_1_01_0_n_n_wf : DotDims.WF S524288x8x4 S4x4 S524288x8x4 [2] [1] [0, 1] [0] [] []
  gather_S64x7_S3x1_S64x3_0_1_n_n_1_1_641_wf : GatherDims.WF S64x7 S3x1 S64x3 [0] [1] [] [1] [] 1 ![64, 1]
  dot_S64x8x3_S64x3x3_S64x8x3_2_1_1_2_0_0_wf : DotDims.WF S64x8x3 S64x3x3 S64x8x3 [2] [1] [1] [2] [0] [0]

variable [Facts₀]

def gather_S524288x7_S3x1_S524288x3_0_1_n_n_1_1_5242881 : GatherDims S524288x7 S3x1 S524288x3 where
  offsetDims := [0]
  collapsedSliceDims := [1]
  operandBatchingDims := []
  startIndicesBatchingDims := []
  startIndexMap := [1]
  indexVectorDim := 1
  sliceSizes := ![524288, 1]
  wf := gather_S524288x7_S3x1_S524288x3_0_1_n_n_1_1_5242881_wf
def dot_S524288x8x3_S524288x3x3_S524288x8x3_2_1_1_2_0_0 : DotDims S524288x8x3 S524288x3x3 S524288x8x3 where
  lhsContracting := [2]
  rhsContracting := [1]
  lhsNonContracting := [1]
  rhsNonContracting := [2]
  lhsBatch := [0]
  rhsBatch := [0]
  wf := dot_S524288x8x3_S524288x3x3_S524288x8x3_2_1_1_2_0_0_wf
def dot_S524288x8x4_S4x4_S524288x8x4_2_1_01_0_n_n : DotDims S524288x8x4 S4x4 S524288x8x4 where
  lhsContracting := [2]
  rhsContracting := [1]
  lhsNonContracting := [0, 1]
  rhsNonContracting := [0]
  lhsBatch := []
  rhsBatch := []
  wf := dot_S524288x8x4_S4x4_S524288x8x4_2_1_01_0_n_n_wf
def gather_S64x7_S3x1_S64x3_0_1_n_n_1_1_641 : GatherDims S64x7 S3x1 S64x3 where
  offsetDims := [0]
  collapsedSliceDims := [1]
  operandBatchingDims := []
  startIndicesBatchingDims := []
  startIndexMap := [1]
  indexVectorDim := 1
  sliceSizes := ![64, 1]
  wf := gather_S64x7_S3x1_S64x3_0_1_n_n_1_1_641_wf
def dot_S64x8x3_S64x3x3_S64x8x3_2_1_1_2_0_0 : DotDims S64x8x3 S64x3x3 S64x8x3 where
  lhsContracting := [2]
  rhsContracting := [1]
  lhsNonContracting := [1]
  rhsNonContracting := [2]
  lhsBatch := [0]
  rhsBatch := [0]
  wf := dot_S64x8x3_S64x3x3_S64x8x3_2_1_1_2_0_0_wf

class Facts : Prop extends Facts₀ where

variable [Facts]
-- ==== Proof.FrameK.Shared.lean ====
/-
  What the three runs of the kernel body share: the contents of the core's buffers when the region is entered
  (the fold of the host operations that prepare the target boxes and re-lay the anchors), the host lines around the
  region, each window's block at a grid point, and the two conditions the body branches on — whether the point is
  the first of the eight (the accumulator is reset) and whether it is the last (the total is written out).
-/
import proofs.«157336_j6562710028353_2_alg».proof.Proof.Gen.Kernel.Launch
import proofs.«157336_j6562710028353_2_alg».proof.Proof.Gen.Kernel.Skeleton
import proofs.«157336_j6562710028353_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The core's buffers when the region is entered: the launch contents after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write none of the region's arrays: the final sum writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Argument 2 is staged by no window, and no host operation after the region writes it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Argument 4 is staged by no window, and no host operation after the region writes it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The two conditions -/

/-- The point is the first of the grid: the accumulator is reset there. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The point is the last of the grid: the accumulated total is stored into the output there. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point nothing is stored into the output, and the pipeline does not write it back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last point the output is stored. -/
theorem liveAt0_5 : ∀ t : Fin cfg0.N, cond0_1 (grid0.coords t) → cfg0.idle 5 (grid0.coords t) = false := by decide +kernel

/-! ## The staging memrefs at a point, and the scratch accumulator -/

abbrev VO0_5 : View sig .tc .vmem S1x1 .f32 := (Memref.whole cc0_stg5_0 : Memref sig .tc .vmem S1x1 .f32).view
abbrev ms0_0 (t : Fin cfg0.N) : Memref sig .tc .vmem S1x2x64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x14x64x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x7x64x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
/-- The scratch accumulator: one cell the kernel carries from point to point. -/
abbrev scM0_0 : Memref sig .tc .vmem S1x1 .f32 := Memref.whole cc0_scratch0
abbrev VS0_0 : View sig .tc .vmem S1x1 .f32 := scM0_0.view

/-- What the launch hands the body beside the windows: the scratch cell at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.FrameK.RunMid.lean ====
/-
  The kernel body run once, symbolically, at a grid point of one of the three kinds (first / middle / last), on any
  whole staging memrefs: what it leaves in the accumulator cell and in the output cell, as the list of its stores.
-/
import proofs.«157336_j6562710028353_2_alg».proof.Proof.FrameK.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a MIDDLE grid point: the point's total is added to what the point before left in the accumulator cell,
    and nothing is stored into the output cell, which is handed back as found.
    The inputs' staging memrefs are held at their contents throughout and handed back unchanged; the lists of stores
    are what the symbolic run finds. -/
noncomputable def kernelRun0_B (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S1x2x64x512 .f32) (x1 : Vec F S1x14x64x512 .f32) (x2 : Vec F S2x7x64x512 .f32) (x3 : Vec F S4x4 .f32) (x4 : Vec F S64x4 .f32) (xs0 : Vec F S1x1 .f32) :
    Σ' (L5 : List (View.Piece (Elt F) S1x1 .f32)), { LS0 : List (View.Piece (Elt F) S1x1 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__nms_kernel i arg1 harg1 arg2 harg2 arg3 harg3 arg4 harg4 arg5 harg5 arg6 harg6 arg7 harg7) K } := by
  refine ⟨[], ?_, fun xi5 E K => ?run⟩
  case run =>
    simp only [cc0__nms_kernel_eq_skeleton]; unfold cc0__nms_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec_parts (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Hand

end
-- ==== Proof.FrameK.RunFirst.lean ====
/-
  The kernel body run once, symbolically, at a grid point of one of the three kinds (first / middle / last), on any
  whole staging memrefs: what it leaves in the accumulator cell and in the output cell, as the list of its stores.
-/
import proofs.«157336_j6562710028353_2_alg».proof.Proof.FrameK.RunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at the FIRST grid point: the accumulator cell, whatever it held, is reset to zero, the point's total is
    added to it, and nothing is stored into the output cell, which is handed back as found.
    The inputs' staging memrefs are held at their contents throughout and handed back unchanged; the lists of stores
    are what the symbolic run finds. -/
noncomputable def kernelRun0_A (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S1x2x64x512 .f32) (x1 : Vec F S1x14x64x512 .f32) (x2 : Vec F S2x7x64x512 .f32) (x3 : Vec F S4x4 .f32) (x4 : Vec F S64x4 .f32) :
    Σ' (L5 : List (View.Piece (Elt F) S1x1 .f32)), { LS0 : List (View.Piece (Elt F) S1x1 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__nms_kernel i arg1 harg1 arg2 harg2 arg3 harg3 arg4 harg4 arg5 harg5 arg6 harg6 arg7 harg7) K } := by
  refine ⟨[], ?_, fun xi5 E K => ?run⟩
  case run =>
    simp only [cc0__nms_kernel_eq_skeleton]; unfold cc0__nms_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec_parts (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Hand

end
-- ==== Proof.FrameK.RunLast.lean ====
/-
  The kernel body run once, symbolically, at a grid point of one of the three kinds (first / middle / last), on any
  whole staging memrefs: what it leaves in the accumulator cell and in the output cell, as the list of its stores.
-/
import proofs.«157336_j6562710028353_2_alg».proof.Proof.FrameK.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at the LAST grid point: the point's total is added to what the point before left in the accumulator cell,
    and the accumulated total is then stored into the output cell.
    The inputs' staging memrefs are held at their contents throughout and handed back unchanged; the lists of stores
    are what the symbolic run finds. -/
noncomputable def kernelRun0_C (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S1x2x64x512 .f32) (x1 : Vec F S1x14x64x512 .f32) (x2 : Vec F S2x7x64x512 .f32) (x3 : Vec F S4x4 .f32) (x4 : Vec F S64x4 .f32) (xs0 : Vec F S1x1 .f32) :
    Σ' (L5 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__nms_kernel i arg1 harg1 arg2 harg2 arg3 harg3 arg4 harg4 arg5 harg5 arg6 harg6 arg7 harg7) K } := by
  refine ⟨?_, ?_, fun E K => ?run⟩
  case run =>
    simp only [cc0__nms_kernel_eq_skeleton]; unfold cc0__nms_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec_parts (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Hand

end
-- ==== Proof.FrameK.Frame.lean ====
/-
  The frame of the program: what the accumulator cell and the output cell hold after each of the eight grid points
  (the first point resets the accumulator and adds its total, every later point adds its total to what the point
  before left, the last point also stores the accumulated total into the output cell), the pipeline's proof data,
  the body's obligation at a generic point, and the run of the whole program around its one region.
-/
import proofs.«157336_j6562710028353_2_alg».proof.Proof.FrameK.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator cell is stored whole at a first point: the stores the run lists cover it. -/
theorem scover0_A_0 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S1x2x64x512 .f32) (x1 : Vec F S1x14x64x512 .f32) (x2 : Vec F S2x7x64x512 .f32) (x3 : Vec F S4x4 .f32) (x4 : Vec F S64x4 .f32) (y : S1x1.Idx) :
    ∃ pc ∈ (kernelRun0_A c i arg1 harg1 arg2 harg2 arg3 harg3 arg4 harg4 arg5 harg5 arg6 harg6 arg7 harg7 hc0 hc1 x0 x1 x2 x3 x4).2.1, y ∈ pc.1.set :=
  View.cover_of_tiledL (kernelRun0_A c i arg1 harg1 arg2 harg2 arg3 harg3 arg4 harg4 arg5 harg5 arg6 harg6 arg7 harg7 hc0 hc1 x0 x1 x2 x3 x4).2.1 S1x1.size (by sl_kernel_rfl) y

/-- What such a point leaves in the accumulator cell: its stores read back. -/
def sout0_A_0 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S1x2x64x512 .f32) (x1 : Vec F S1x14x64x512 .f32) (x2 : Vec F S2x7x64x512 .f32) (x3 : Vec F S4x4 .f32) (x4 : Vec F S64x4 .f32) : Vec F S1x1 .f32 :=
  VS0_0.read (Elt F) (VS0_0.writes (Elt F) VS0_0.junk (kernelRun0_A c i arg1 harg1 arg2 harg2 arg3 harg3 arg4 harg4 arg5 harg5 arg6 harg6 arg7 harg7 hc0 hc1 x0 x1 x2 x3 x4).2.1)

/-- What such a point leaves in the output cell's staging buffer (nothing is stored: a placeholder nobody consults, the window being idle and not written back there). -/
def out0_A_5 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S1x2x64x512 .f32) (x1 : Vec F S1x14x64x512 .f32) (x2 : Vec F S2x7x64x512 .f32) (x3 : Vec F S4x4 .f32) (x4 : Vec F S64x4 .f32) : Vec F S1x1 .f32 :=
  VO0_5.read (Elt F) (VO0_5.writes (Elt F) VO0_5.junk (kernelRun0_A c i arg1 harg1 arg2 harg2 arg3 harg3 arg4 harg4 arg5 harg5 arg6 harg6 arg7 harg7 hc0 hc1 x0 x1 x2 x3 x4).1)

/-- The accumulator cell is stored whole at a middle point: the stores the run lists cover it. -/
theorem scover0_B_0 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S1x2x64x512 .f32) (x1 : Vec F S1x14x64x512 .f32) (x2 : Vec F S2x7x64x512 .f32) (x3 : Vec F S4x4 .f32) (x4 : Vec F S64x4 .f32) (xs0 : Vec F S1x1 .f32) (y : S1x1.Idx) :
    ∃ pc ∈ (kernelRun0_B c i arg1 harg1 arg2 harg2 arg3 harg3 arg4 harg4 arg5 harg5 arg6 harg6 arg7 harg7 hc0 hc1 x0 x1 x2 x3 x4 xs0).2.1, y ∈ pc.1.set :=
  View.cover_of_tiledL (kernelRun0_B c i arg1 harg1 arg2 harg2 arg3 harg3 arg4 harg4 arg5 harg5 arg6 harg6 arg7 harg7 hc0 hc1 x0 x1 x2 x3 x4 xs0).2.1 S1x1.size (by sl_kernel_rfl) y

/-- What such a point leaves in the accumulator cell: its stores read back. -/
def sout0_B_0 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S1x2x64x512 .f32) (x1 : Vec F S1x14x64x512 .f32) (x2 : Vec F S2x7x64x512 .f32) (x3 : Vec F S4x4 .f32) (x4 : Vec F S64x4 .f32) (xs0 : Vec F S1x1 .f32) : Vec F S1x1 .f32 :=
  VS0_0.read (Elt F) (VS0_0.writes (Elt F) VS0_0.junk (kernelRun0_B c i arg1 harg1 arg2 harg2 arg3 harg3 arg4 harg4 arg5 harg5 arg6 harg6 arg7 harg7 hc0 hc1 x0 x1 x2 x3 x4 xs0).2.1)

/-- What such a point leaves in the output cell's staging buffer (nothing is stored: a placeholder nobody consults, the window being idle and not written back there). -/
def out0_B_5 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S1x2x64x512 .f32) (x1 : Vec F S1x14x64x512 .f32) (x2 : Vec F S2x7x64x512 .f32) (x3 : Vec F S4x4 .f32) (x4 : Vec F S64x4 .f32) (xs0 : Vec F S1x1 .f32) : Vec F S1x1 .f32 :=
  VO0_5.read (Elt F) (VO0_5.writes (Elt F) VO0_5.junk (kernelRun0_B c i arg1 harg1 arg2 harg2 arg3 harg3 arg4 harg4 arg5 harg5 arg6 harg6 arg7 harg7 hc0 hc1 x0 x1 x2 x3 x4 xs0).1)

/-- The accumulator cell is stored whole at a last point: the stores the run lists cover it. -/
theorem scover0_C_0 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S1x2x64x512 .f32) (x1 : Vec F S1x14x64x512 .f32) (x2 : Vec F S2x7x64x512 .f32) (x3 : Vec F S4x4 .f32) (x4 : Vec F S64x4 .f32) (xs0 : Vec F S1x1 .f32) (y : S1x1.Idx) :
    ∃ pc ∈ (kernelRun0_C c i arg1 harg1 arg2 harg2 arg3 harg3 arg4 harg4 arg5 harg5 arg6 harg6 arg7 harg7 hc0 hc1 x0 x1 x2 x3 x4 xs0).2.1, y ∈ pc.1.set :=
  View.cover_of_tiledL (kernelRun0_C c i arg1 harg1 arg2 harg2 arg3 harg3 arg4 harg4 arg5 harg5 arg6 harg6 arg7 harg7 hc0 hc1 x0 x1 x2 x3 x4 xs0).2.1 S1x1.size (by sl_kernel_rfl) y

/-- What such a point leaves in the accumulator cell: its stores read back. -/
def sout0_C_0 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S1x2x64x512 .f32) (x1 : Vec F S1x14x64x512 .f32) (x2 : Vec F S2x7x64x512 .f32) (x3 : Vec F S4x4 .f32) (x4 : Vec F S64x4 .f32) (xs0 : Vec F S1x1 .f32) : Vec F S1x1 .f32 :=
  VS0_0.read (Elt F) (VS0_0.writes (Elt F) VS0_0.junk (kernelRun0_C c i arg1 harg1 arg2 harg2 arg3 harg3 arg4 harg4 arg5 harg5 arg6 harg6 arg7 harg7 hc0 hc1 x0 x1 x2 x3 x4 xs0).2.1)

/-- At the last point the output cell is stored whole. -/
theorem cover0_C_5 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S1x2x64x512 .f32) (x1 : Vec F S1x14x64x512 .f32) (x2 : Vec F S2x7x64x512 .f32) (x3 : Vec F S4x4 .f32) (x4 : Vec F S64x4 .f32) (xs0 : Vec F S1x1 .f32) (y : S1x1.Idx) :
    ∃ pc ∈ (kernelRun0_C c i arg1 harg1 arg2 harg2 arg3 harg3 arg4 harg4 arg5 harg5 arg6 harg6 arg7 harg7 hc0 hc1 x0 x1 x2 x3 x4 xs0).1, y ∈ pc.1.set :=
  View.cover_of_tiledL (kernelRun0_C c i arg1 harg1 arg2 harg2 arg3 harg3 arg4 harg4 arg5 harg5 arg6 harg6 arg7 harg7 hc0 hc1 x0 x1 x2 x3 x4 xs0).1 S1x1.size (by sl_kernel_rfl) y

/-- What such a point leaves in the output cell's staging buffer: its store read back. -/
def out0_C_5 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S1x2x64x512 .f32) (x1 : Vec F S1x14x64x512 .f32) (x2 : Vec F S2x7x64x512 .f32) (x3 : Vec F S4x4 .f32) (x4 : Vec F S64x4 .f32) (xs0 : Vec F S1x1 .f32) : Vec F S1x1 .f32 :=
  VO0_5.read (Elt F) (VO0_5.writes (Elt F) VO0_5.junk (kernelRun0_C c i arg1 harg1 arg2 harg2 arg3 harg3 arg4 harg4 arg5 harg5 arg6 harg6 arg7 harg7 hc0 hc1 x0 x1 x2 x3 x4 xs0).1)

/-! ## What the two cells hold after each point -/

/-- THE ACCUMULATION, point by point: (the output cell's staging buffer, the accumulator cell) after the body at
    position `n` — the first point starts from nothing, every later one from what the point before left in the
    accumulator. -/
def outsAt0 (c : Dev nD) : (n : ℕ) → n < cfg0.N → Vec F S1x1 .f32 × Vec F S1x1 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      if h1 : (n + 1) % 8 = 7 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 8 = 7 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator cell holds anything;
    afterwards it holds what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block, the output's at what the
    accumulation says; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' memrefs hold their blocks; which of the three kinds the point is decides
    which run applies; the invariant hands the body the accumulator cell (at anything at the first point, at what
    the point before left afterwards) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases h1 : t.val % 8 = 7
    · exfalso; omega
    · -- the first point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [outsAt0_A m c t h0 h1]
      unfold sout0_A_0; (try dsimp only)
      have hz : t.val = 0 := by omega
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · -- the last point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_5 sout0_C_0; (try dsimp only)
      have hz : t.val ≠ 0 := by omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    · -- a middle point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [outsAt0_B m c t h0 h1]
      unfold sout0_B_0; (try dsimp only)
      have hz : t.val ≠ 0 := by omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution of the program terminates, and in every final state each of the region's arrays is
    what the proof data computes and every other unscoped buffer is as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs to the end, faults nowhere, and its five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans ((((dats m) 0 c).arrAt_in 0 rfl _).trans ((A_eq m c 0).trans (V_main_arg0 m c))),
     ((h c).1 1).trans ((((dats m) 0 c).arrAt_in 1 rfl _).trans ((A_eq m c 1).trans (V_main_arg1 m c))),
     ((h c).2 main_arg2 (Pipeline.mem_restRefs_of main_arg2 (by decide) (by decide))).trans (W_main_arg2 m (dats m) c),
     ((h c).1 3).trans ((((dats m) 0 c).arrAt_in 3 rfl _).trans ((A_eq m c 3).trans (V_main_arg3 m c))),
     ((h c).2 main_arg4 (Pipeline.mem_restRefs_of main_arg4 (by decide) (by decide))).trans (W_main_arg4 m (dats m) c)⟩) (run_main m ρ)

/-- The same run read at the result as well: the scalar the program returns is what the final sum after the region
    makes of the output cell, and the five argument arrays end as launched. -/
theorem run_result : θ_run defs (onTc (τ := τ) (main (F := F))) ⟨m, fun _ => 0, ρ⟩ (fun r => ∀ c : Dev nD,
      r.2.mem ((c.tc : Thread nD τ).loc main_v54) = Pipeline.afterTail₀ cfgs (dats m) 0 (V0 m) [hostOps1] c main_v54
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v54 (Pipeline.mem_restRefs_of main_v54 (by decide) (by decide)),
     ((h c).1 0).trans ((((dats m) 0 c).arrAt_in 0 rfl _).trans ((A_eq m c 0).trans (V_main_arg0 m c))),
     ((h c).1 1).trans ((((dats m) 0 c).arrAt_in 1 rfl _).trans ((A_eq m c 1).trans (V_main_arg1 m c))),
     ((h c).2 main_arg2 (Pipeline.mem_restRefs_of main_arg2 (by decide) (by decide))).trans (W_main_arg2 m (dats m) c),
     ((h c).1 3).trans ((((dats m) 0 c).arrAt_in 3 rfl _).trans ((A_eq m c 3).trans (V_main_arg3 m c))),
     ((h c).2 main_arg4 (Pipeline.mem_restRefs_of main_arg4 (by decide) (by decide))).trans (W_main_arg4 m (dats m) c)⟩) (run_main m ρ)

end Cert.Kernel.Hand

end
-- ==== Proof.FrameKI.Shared.lean ====
/-
  What the three runs of the kernel body share: the contents of the core's buffers when the region is entered
  (the fold of the host operations that prepare the target boxes and re-lay the anchors), the host lines around the
  region, each window's block at a grid point, and the two conditions the body branches on — whether the point is
  the first of the eight (the accumulator is reset) and whether it is the last (the total is written out).
-/
import proofs.«157336_j6562710028353_2_alg».proof.Proof.Gen.KernelIdeal.Launch
import proofs.«157336_j6562710028353_2_alg».proof.Proof.Gen.KernelIdeal.Skeleton
import proofs.«157336_j6562710028353_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The core's buffers when the region is entered: the launch contents after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write none of the region's arrays: the final sum writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Argument 2 is staged by no window, and no host operation after the region writes it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Argument 4 is staged by no window, and no host operation after the region writes it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The two conditions -/

/-- The point is the first of the grid: the accumulator is reset there. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The point is the last of the grid: the accumulated total is stored into the output there. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point nothing is stored into the output, and the pipeline does not write it back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last point the output is stored. -/
theorem liveAt0_5 : ∀ t : Fin cfg0.N, cond0_1 (grid0.coords t) → cfg0.idle 5 (grid0.coords t) = false := by decide +kernel

/-! ## The staging memrefs at a point, and the scratch accumulator -/

abbrev VO0_5 : View sig .tc .vmem S1x1 .f32 := (Memref.whole cc0_stg5_0 : Memref sig .tc .vmem S1x1 .f32).view
abbrev ms0_0 (t : Fin cfg0.N) : Memref sig .tc .vmem S1x2x64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x14x64x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x7x64x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
/-- The scratch accumulator: one cell the kernel carries from point to point. -/
abbrev scM0_0 : Memref sig .tc .vmem S1x1 .f32 := Memref.whole cc0_scratch0
abbrev VS0_0 : View sig .tc .vmem S1x1 .f32 := scM0_0.view

/-- What the launch hands the body beside the windows: the scratch cell at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.FrameKI.RunMid.lean ====
/-
  The kernel body run once, symbolically, at a grid point of one of the three kinds (first / middle / last), on any
  whole staging memrefs: what it leaves in the accumulator cell and in the output cell, as the list of its stores.
-/
import proofs.«157336_j6562710028353_2_alg».proof.Proof.FrameKI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a MIDDLE grid point: the point's total is added to what the point before left in the accumulator cell,
    and nothing is stored into the output cell, which is handed back as found.
    The inputs' staging memrefs are held at their contents throughout and handed back unchanged; the lists of stores
    are what the symbolic run finds. -/
noncomputable def kernelRun0_B (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S1x2x64x512 .f32) (x1 : Vec F S1x14x64x512 .f32) (x2 : Vec F S2x7x64x512 .f32) (x3 : Vec F S4x4 .f32) (x4 : Vec F S64x4 .f32) (xs0 : Vec F S1x1 .f32) :
    Σ' (L5 : List (View.Piece (Elt F) S1x1 .f32)), { LS0 : List (View.Piece (Elt F) S1x1 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__nms_kernel i arg1 harg1 arg2 harg2 arg3 harg3 arg4 harg4 arg5 harg5 arg6 harg6 arg7 harg7) K } := by
  refine ⟨[], ?_, fun xi5 E K => ?run⟩
  case run =>
    simp only [cc0__nms_kernel_eq_skeleton]; unfold cc0__nms_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec_parts (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Hand

end
-- ==== Proof.FrameKI.RunFirst.lean ====
/-
  The kernel body run once, symbolically, at a grid point of one of the three kinds (first / middle / last), on any
  whole staging memrefs: what it leaves in the accumulator cell and in the output cell, as the list of its stores.
-/
import proofs.«157336_j6562710028353_2_alg».proof.Proof.FrameKI.RunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at the FIRST grid point: the accumulator cell, whatever it held, is reset to zero, the point's total is
    added to it, and nothing is stored into the output cell, which is handed back as found.
    The inputs' staging memrefs are held at their contents throughout and handed back unchanged; the lists of stores
    are what the symbolic run finds. -/
noncomputable def kernelRun0_A (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S1x2x64x512 .f32) (x1 : Vec F S1x14x64x512 .f32) (x2 : Vec F S2x7x64x512 .f32) (x3 : Vec F S4x4 .f32) (x4 : Vec F S64x4 .f32) :
    Σ' (L5 : List (View.Piece (Elt F) S1x1 .f32)), { LS0 : List (View.Piece (Elt F) S1x1 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__nms_kernel i arg1 harg1 arg2 harg2 arg3 harg3 arg4 harg4 arg5 harg5 arg6 harg6 arg7 harg7) K } := by
  refine ⟨[], ?_, fun xi5 E K => ?run⟩
  case run =>
    simp only [cc0__nms_kernel_eq_skeleton]; unfold cc0__nms_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec_parts (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Hand

end
-- ==== Proof.FrameKI.RunLast.lean ====
/-
  The kernel body run once, symbolically, at a grid point of one of the three kinds (first / middle / last), on any
  whole staging memrefs: what it leaves in the accumulator cell and in the output cell, as the list of its stores.
-/
import proofs.«157336_j6562710028353_2_alg».proof.Proof.FrameKI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at the LAST grid point: the point's total is added to what the point before left in the accumulator cell,
    and the accumulated total is then stored into the output cell.
    The inputs' staging memrefs are held at their contents throughout and handed back unchanged; the lists of stores
    are what the symbolic run finds. -/
noncomputable def kernelRun0_C (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S1x2x64x512 .f32) (x1 : Vec F S1x14x64x512 .f32) (x2 : Vec F S2x7x64x512 .f32) (x3 : Vec F S4x4 .f32) (x4 : Vec F S64x4 .f32) (xs0 : Vec F S1x1 .f32) :
    Σ' (L5 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__nms_kernel i arg1 harg1 arg2 harg2 arg3 harg3 arg4 harg4 arg5 harg5 arg6 harg6 arg7 harg7) K } := by
  refine ⟨?_, ?_, fun E K => ?run⟩
  case run =>
    simp only [cc0__nms_kernel_eq_skeleton]; unfold cc0__nms_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec_parts (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Hand

end
-- ==== Proof.FrameKI.Frame.lean ====
/-
  The frame of the program: what the accumulator cell and the output cell hold after each of the eight grid points
  (the first point resets the accumulator and adds its total, every later point adds its total to what the point
  before left, the last point also stores the accumulated total into the output cell), the pipeline's proof data,
  the body's obligation at a generic point, and the run of the whole program around its one region.
-/
import proofs.«157336_j6562710028353_2_alg».proof.Proof.FrameKI.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator cell is stored whole at a first point: the stores the run lists cover it. -/
theorem scover0_A_0 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S1x2x64x512 .f32) (x1 : Vec F S1x14x64x512 .f32) (x2 : Vec F S2x7x64x512 .f32) (x3 : Vec F S4x4 .f32) (x4 : Vec F S64x4 .f32) (y : S1x1.Idx) :
    ∃ pc ∈ (kernelRun0_A c i arg1 harg1 arg2 harg2 arg3 harg3 arg4 harg4 arg5 harg5 arg6 harg6 arg7 harg7 hc0 hc1 x0 x1 x2 x3 x4).2.1, y ∈ pc.1.set :=
  View.cover_of_tiledL (kernelRun0_A c i arg1 harg1 arg2 harg2 arg3 harg3 arg4 harg4 arg5 harg5 arg6 harg6 arg7 harg7 hc0 hc1 x0 x1 x2 x3 x4).2.1 S1x1.size (by sl_kernel_rfl) y

/-- What such a point leaves in the accumulator cell: its stores read back. -/
def sout0_A_0 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S1x2x64x512 .f32) (x1 : Vec F S1x14x64x512 .f32) (x2 : Vec F S2x7x64x512 .f32) (x3 : Vec F S4x4 .f32) (x4 : Vec F S64x4 .f32) : Vec F S1x1 .f32 :=
  VS0_0.read (Elt F) (VS0_0.writes (Elt F) VS0_0.junk (kernelRun0_A c i arg1 harg1 arg2 harg2 arg3 harg3 arg4 harg4 arg5 harg5 arg6 harg6 arg7 harg7 hc0 hc1 x0 x1 x2 x3 x4).2.1)

/-- What such a point leaves in the output cell's staging buffer (nothing is stored: a placeholder nobody consults, the window being idle and not written back there). -/
def out0_A_5 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S1x2x64x512 .f32) (x1 : Vec F S1x14x64x512 .f32) (x2 : Vec F S2x7x64x512 .f32) (x3 : Vec F S4x4 .f32) (x4 : Vec F S64x4 .f32) : Vec F S1x1 .f32 :=
  VO0_5.read (Elt F) (VO0_5.writes (Elt F) VO0_5.junk (kernelRun0_A c i arg1 harg1 arg2 harg2 arg3 harg3 arg4 harg4 arg5 harg5 arg6 harg6 arg7 harg7 hc0 hc1 x0 x1 x2 x3 x4).1)

/-- The accumulator cell is stored whole at a middle point: the stores the run lists cover it. -/
theorem scover0_B_0 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S1x2x64x512 .f32) (x1 : Vec F S1x14x64x512 .f32) (x2 : Vec F S2x7x64x512 .f32) (x3 : Vec F S4x4 .f32) (x4 : Vec F S64x4 .f32) (xs0 : Vec F S1x1 .f32) (y : S1x1.Idx) :
    ∃ pc ∈ (kernelRun0_B c i arg1 harg1 arg2 harg2 arg3 harg3 arg4 harg4 arg5 harg5 arg6 harg6 arg7 harg7 hc0 hc1 x0 x1 x2 x3 x4 xs0).2.1, y ∈ pc.1.set :=
  View.cover_of_tiledL (kernelRun0_B c i arg1 harg1 arg2 harg2 arg3 harg3 arg4 harg4 arg5 harg5 arg6 harg6 arg7 harg7 hc0 hc1 x0 x1 x2 x3 x4 xs0).2.1 S1x1.size (by sl_kernel_rfl) y

/-- What such a point leaves in the accumulator cell: its stores read back. -/
def sout0_B_0 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S1x2x64x512 .f32) (x1 : Vec F S1x14x64x512 .f32) (x2 : Vec F S2x7x64x512 .f32) (x3 : Vec F S4x4 .f32) (x4 : Vec F S64x4 .f32) (xs0 : Vec F S1x1 .f32) : Vec F S1x1 .f32 :=
  VS0_0.read (Elt F) (VS0_0.writes (Elt F) VS0_0.junk (kernelRun0_B c i arg1 harg1 arg2 harg2 arg3 harg3 arg4 harg4 arg5 harg5 arg6 harg6 arg7 harg7 hc0 hc1 x0 x1 x2 x3 x4 xs0).2.1)

/-- What such a point leaves in the output cell's staging buffer (nothing is stored: a placeholder nobody consults, the window being idle and not written back there). -/
def out0_B_5 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S1x2x64x512 .f32) (x1 : Vec F S1x14x64x512 .f32) (x2 : Vec F S2x7x64x512 .f32) (x3 : Vec F S4x4 .f32) (x4 : Vec F S64x4 .f32) (xs0 : Vec F S1x1 .f32) : Vec F S1x1 .f32 :=
  VO0_5.read (Elt F) (VO0_5.writes (Elt F) VO0_5.junk (kernelRun0_B c i arg1 harg1 arg2 harg2 arg3 harg3 arg4 harg4 arg5 harg5 arg6 harg6 arg7 harg7 hc0 hc1 x0 x1 x2 x3 x4 xs0).1)

/-- The accumulator cell is stored whole at a last point: the stores the run lists cover it. -/
theorem scover0_C_0 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S1x2x64x512 .f32) (x1 : Vec F S1x14x64x512 .f32) (x2 : Vec F S2x7x64x512 .f32) (x3 : Vec F S4x4 .f32) (x4 : Vec F S64x4 .f32) (xs0 : Vec F S1x1 .f32) (y : S1x1.Idx) :
    ∃ pc ∈ (kernelRun0_C c i arg1 harg1 arg2 harg2 arg3 harg3 arg4 harg4 arg5 harg5 arg6 harg6 arg7 harg7 hc0 hc1 x0 x1 x2 x3 x4 xs0).2.1, y ∈ pc.1.set :=
  View.cover_of_tiledL (kernelRun0_C c i arg1 harg1 arg2 harg2 arg3 harg3 arg4 harg4 arg5 harg5 arg6 harg6 arg7 harg7 hc0 hc1 x0 x1 x2 x3 x4 xs0).2.1 S1x1.size (by sl_kernel_rfl) y

/-- What such a point leaves in the accumulator cell: its stores read back. -/
def sout0_C_0 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S1x2x64x512 .f32) (x1 : Vec F S1x14x64x512 .f32) (x2 : Vec F S2x7x64x512 .f32) (x3 : Vec F S4x4 .f32) (x4 : Vec F S64x4 .f32) (xs0 : Vec F S1x1 .f32) : Vec F S1x1 .f32 :=
  VS0_0.read (Elt F) (VS0_0.writes (Elt F) VS0_0.junk (kernelRun0_C c i arg1 harg1 arg2 harg2 arg3 harg3 arg4 harg4 arg5 harg5 arg6 harg6 arg7 harg7 hc0 hc1 x0 x1 x2 x3 x4 xs0).2.1)

/-- At the last point the output cell is stored whole. -/
theorem cover0_C_5 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S1x2x64x512 .f32) (x1 : Vec F S1x14x64x512 .f32) (x2 : Vec F S2x7x64x512 .f32) (x3 : Vec F S4x4 .f32) (x4 : Vec F S64x4 .f32) (xs0 : Vec F S1x1 .f32) (y : S1x1.Idx) :
    ∃ pc ∈ (kernelRun0_C c i arg1 harg1 arg2 harg2 arg3 harg3 arg4 harg4 arg5 harg5 arg6 harg6 arg7 harg7 hc0 hc1 x0 x1 x2 x3 x4 xs0).1, y ∈ pc.1.set :=
  View.cover_of_tiledL (kernelRun0_C c i arg1 harg1 arg2 harg2 arg3 harg3 arg4 harg4 arg5 harg5 arg6 harg6 arg7 harg7 hc0 hc1 x0 x1 x2 x3 x4 xs0).1 S1x1.size (by sl_kernel_rfl) y

/-- What such a point leaves in the output cell's staging buffer: its store read back. -/
def out0_C_5 (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S1x2x64x512 .f32) (x1 : Vec F S1x14x64x512 .f32) (x2 : Vec F S2x7x64x512 .f32) (x3 : Vec F S4x4 .f32) (x4 : Vec F S64x4 .f32) (xs0 : Vec F S1x1 .f32) : Vec F S1x1 .f32 :=
  VO0_5.read (Elt F) (VO0_5.writes (Elt F) VO0_5.junk (kernelRun0_C c i arg1 harg1 arg2 harg2 arg3 harg3 arg4 harg4 arg5 harg5 arg6 harg6 arg7 harg7 hc0 hc1 x0 x1 x2 x3 x4 xs0).1)

/-! ## What the two cells hold after each point -/

/-- THE ACCUMULATION, point by point: (the output cell's staging buffer, the accumulator cell) after the body at
    position `n` — the first point starts from nothing, every later one from what the point before left in the
    accumulator. -/
def outsAt0 (c : Dev nD) : (n : ℕ) → n < cfg0.N → Vec F S1x1 .f32 × Vec F S1x1 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      if h1 : (n + 1) % 8 = 7 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 8 = 7 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator cell holds anything;
    afterwards it holds what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block, the output's at what the
    accumulation says; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' memrefs hold their blocks; which of the three kinds the point is decides
    which run applies; the invariant hands the body the accumulator cell (at anything at the first point, at what
    the point before left afterwards) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases h1 : t.val % 8 = 7
    · exfalso; omega
    · -- the first point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [outsAt0_A m c t h0 h1]
      unfold sout0_A_0; (try dsimp only)
      have hz : t.val = 0 := by omega
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · -- the last point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_5 sout0_C_0; (try dsimp only)
      have hz : t.val ≠ 0 := by omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    · -- a middle point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [outsAt0_B m c t h0 h1]
      unfold sout0_B_0; (try dsimp only)
      have hz : t.val ≠ 0 := by omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution of the program terminates, and in every final state each of the region's arrays is
    what the proof data computes and every other unscoped buffer is as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs to the end, faults nowhere, and its five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans ((((dats m) 0 c).arrAt_in 0 rfl _).trans ((A_eq m c 0).trans (V_main_arg0 m c))),
     ((h c).1 1).trans ((((dats m) 0 c).arrAt_in 1 rfl _).trans ((A_eq m c 1).trans (V_main_arg1 m c))),
     ((h c).2 main_arg2 (Pipeline.mem_restRefs_of main_arg2 (by decide) (by decide))).trans (W_main_arg2 m (dats m) c),
     ((h c).1 3).trans ((((dats m) 0 c).arrAt_in 3 rfl _).trans ((A_eq m c 3).trans (V_main_arg3 m c))),
     ((h c).2 main_arg4 (Pipeline.mem_restRefs_of main_arg4 (by decide) (by decide))).trans (W_main_arg4 m (dats m) c)⟩) (run_main m ρ)

/-- The same run read at the result as well: the scalar the program returns is what the final sum after the region
    makes of the output cell, and the five argument arrays end as launched. -/
theorem run_result : θ_run defs (onTc (τ := τ) (main (F := F))) ⟨m, fun _ => 0, ρ⟩ (fun r => ∀ c : Dev nD,
      r.2.mem ((c.tc : Thread nD τ).loc main_v54) = Pipeline.afterTail₀ cfgs (dats m) 0 (V0 m) [hostOps1] c main_v54
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v54 (Pipeline.mem_restRefs_of main_v54 (by decide) (by decide)),
     ((h c).1 0).trans ((((dats m) 0 c).arrAt_in 0 rfl _).trans ((A_eq m c 0).trans (V_main_arg0 m c))),
     ((h c).1 1).trans ((((dats m) 0 c).arrAt_in 1 rfl _).trans ((A_eq m c 1).trans (V_main_arg1 m c))),
     ((h c).2 main_arg2 (Pipeline.mem_restRefs_of main_arg2 (by decide) (by decide))).trans (W_main_arg2 m (dats m) c),
     ((h c).1 3).trans ((((dats m) 0 c).arrAt_in 3 rfl _).trans ((A_eq m c 3).trans (V_main_arg3 m c))),
     ((h c).2 main_arg4 (Pipeline.mem_restRefs_of main_arg4 (by decide) (by decide))).trans (W_main_arg4 m (dats m) c)⟩) (run_main m ρ)

end Cert.KernelIdeal.Hand

end
-- ==== Proof.RefRun.lean ====
/- The reference program's host function as a list of operations, and its run.

   The reference is a straight line of 251 host operations followed by the return. Written as a list, the line is
   the library's `seq` of that list, so the library's theorem on straight lines applies: every weakly fair execution
   terminates, and each buffer ends at the fold (`after`) of the operations' results over the contents it had at
   launch. An argument array is written by no operation of the list, so the fold leaves it as it was. -/
import proofs.«157336_j6562710028353_2_alg».proof.Proof.Gen.ReferenceIdeal
import Idealize.ShloMosaic.Lib.StableHlo.Run
import Idealize.ShloMosaic.Lib.Pipeline.Frame
import proofs.«157336_j6562710028353_2_alg».proof.Defs
import proofs.«157336_j6562710028353_2_alg».proof.Proof.Gen.Pre_finite_inputs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The host function's operations 1 … 60 of 251 (the window `main_part0`), in order. -/
abbrev ops_part0 : List (HloOp τ sig (Elt F)) :=
  [ StableHlo.nullary main_c (fun i => lit0 (S3.rowMajor i)),
    StableHlo.nullary main_cst (fun i => FloatOps.ofBits .f32 (lit1 (S8x3.rowMajor i))),
    StableHlo.nullary main_c_0 (fun i => lit2 (S3.rowMajor i)),
    StableHlo.unary main_arg0 main_v0 ((transpose S1x512x512x2 [0, 2, 3, 1] · transposes_S1x2x512x512_S1x512x512x2_0_2_3_1) : (⟨S1x2x512x512, .f32⟩ : BufTy).Contents (Elt F) → (⟨S1x512x512x2, .f32⟩ : BufTy).Contents (Elt F)),
    StableHlo.unary main_v0 main_v1 (Host.negf : (⟨S1x512x512x2, .f32⟩ : BufTy).Contents (Elt F) → (⟨S1x512x512x2, .f32⟩ : BufTy).Contents (Elt F)),
    StableHlo.unary main_v1 main_v2 (Host.exp : (⟨S1x512x512x2, .f32⟩ : BufTy).Contents (Elt F) → (⟨S1x512x512x2, .f32⟩ : BufTy).Contents (Elt F)),
    StableHlo.nullary main_cst_1 (constant S_ .f32 0x3F800000#32),
    StableHlo.unary main_cst_1 main_v3 (broadcastInDim S1x512x512x2 ![] bcast_S_S1x512x512x2 : (⟨S_, .f32⟩ : BufTy).Contents (Elt F) → (⟨S1x512x512x2, .f32⟩ : BufTy).Contents (Elt F)),
    StableHlo.binary main_v3 main_v2 main_v4 (addf : (⟨S1x512x512x2, .f32⟩ : BufTy).Contents (Elt F) → (⟨S1x512x512x2, .f32⟩ : BufTy).Contents (Elt F) → (⟨S1x512x512x2, .f32⟩ : BufTy).Contents (Elt F)),
    StableHlo.nullary main_cst_2 (constant S_ .f32 0x3F800000#32),
    StableHlo.unary main_cst_2 main_v5 (broadcastInDim S1x512x512x2 ![] bcast_S_S1x512x512x2 : (⟨S_, .f32⟩ : BufTy).Contents (Elt F) → (⟨S1x512x512x2, .f32⟩ : BufTy).Contents (Elt F)),
    StableHlo.binary main_v5 main_v4 main_v6 (Host.divf : (⟨S1x512x512x2, .f32⟩ : BufTy).Contents (Elt F) → (⟨S1x512x512x2, .f32⟩ : BufTy).Contents (Elt F) → (⟨S1x512x512x2, .f32⟩ : BufTy).Contents (Elt F)),
    StableHlo.reshape main_v6 main_v7 rfl shapeCasts_S1x512x512x2_S524288,
    StableHlo.unary main_arg1 main_v8 ((transpose S1x512x512x14 [0, 2, 3, 1] · transposes_S1x14x512x512_S1x512x512x14_0_2_3_1) : (⟨S1x14x512x512, .f32⟩ : BufTy).Contents (Elt F) → (⟨S1x512x512x14, .f32⟩ : BufTy).Contents (Elt F)),
    StableHlo.reshape main_v8 main_v9 rfl shapeCasts_S1x512x512x14_S524288x7,
    StableHlo.reshape main_arg2 main_v10 rfl shapeCasts_S512x512x2x7_S524288x7,
    StableHlo.unary main_v10 main_v11 ((extractStridedSlice S524288x1 ![0, 4] · slices_S524288x7_S524288x1_0_4) : (⟨S524288x7, .f32⟩ : BufTy).Contents (Elt F) → (⟨S524288x1, .f32⟩ : BufTy).Contents (Elt F)),
    StableHlo.reshape main_v11 main_v12 rfl shapeCasts_S524288x1_S524288,
    StableHlo.binary main_v12 main_v12 main_v13 (mulf : (⟨S524288, .f32⟩ : BufTy).Contents (Elt F) → (⟨S524288, .f32⟩ : BufTy).Contents (Elt F) → (⟨S524288, .f32⟩ : BufTy).Contents (Elt F)),
    StableHlo.unary main_v10 main_v14 ((extractStridedSlice S524288x1 ![0, 5] · slices_S524288x7_S524288x1_0_5) : (⟨S524288x7, .f32⟩ : BufTy).Contents (Elt F) → (⟨S524288x1, .f32⟩ : BufTy).Contents (Elt F)),
    StableHlo.reshape main_v14 main_v15 rfl shapeCasts_S524288x1_S524288,
    StableHlo.binary main_v15 main_v15 main_v16 (mulf : (⟨S524288, .f32⟩ : BufTy).Contents (Elt F) → (⟨S524288, .f32⟩ : BufTy).Contents (Elt F) → (⟨S524288, .f32⟩ : BufTy).Contents (Elt F)),
    StableHlo.binary main_v13 main_v16 main_v17 (addf : (⟨S524288, .f32⟩ : BufTy).Contents (Elt F) → (⟨S524288, .f32⟩ : BufTy).Contents (Elt F) → (⟨S524288, .f32⟩ : BufTy).Contents (Elt F)),
    StableHlo.unary main_v17 main_v18 (Host.sqrt : (⟨S524288, .f32⟩ : BufTy).Contents (Elt F) → (⟨S524288, .f32⟩ : BufTy).Contents (Elt F)),
    StableHlo.unary main_v9 main_v19 ((extractStridedSlice S524288x2 ![0, 0] · slices_S524288x7_S524288x2_0_0) : (⟨S524288x7, .f32⟩ : BufTy).Contents (Elt F) → (⟨S524288x2, .f32⟩ : BufTy).Contents (Elt F)),
    StableHlo.unary main_v18 main_v20 (broadcastInDim S524288x1 ![0] bcast_S524288_S524288x1_0 : (⟨S524288, .f32⟩ : BufTy).Contents (Elt F) → (⟨S524288x1, .f32⟩ : BufTy).Contents (Elt F)),
    StableHlo.unary main_v20 main_v21 (broadcastInDim S524288x2 ![0, 1] bcast_S524288x1_S524288x2_0_1 : (⟨S524288x1, .f32⟩ : BufTy).Contents (Elt F) → (⟨S524288x2, .f32⟩ : BufTy).Contents (Elt F)),
    StableHlo.binary main_v19 main_v21 main_v22 (mulf : (⟨S524288x2, .f32⟩ : BufTy).Contents (Elt F) → (⟨S524288x2, .f32⟩ : BufTy).Contents (Elt F) → (⟨S524288x2, .f32⟩ : BufTy).Contents (Elt F)),
    StableHlo.unary main_v10 main_v23 ((extractStridedSlice S524288x2 ![0, 0] · slices_S524288x7_S524288x2_0_0) : (⟨S524288x7, .f32⟩ : BufTy).Contents (Elt F) → (⟨S524288x2, .f32⟩ : BufTy).Contents (Elt F)),
    StableHlo.binary main_v22 main_v23 main_v24 (addf : (⟨S524288x2, .f32⟩ : BufTy).Contents (Elt F) → (⟨S524288x2, .f32⟩ : BufTy).Contents (Elt F) → (⟨S524288x2, .f32⟩ : BufTy).Contents (Elt F)),
    StableHlo.unary main_v9 main_v25 ((extractStridedSlice S524288x1 ![0, 2] · slices_S524288x7_S524288x1_0_2) : (⟨S524288x7, .f32⟩ : BufTy).Contents (Elt F) → (⟨S524288x1, .f32⟩ : BufTy).Contents (Elt F)),
    StableHlo.unary main_v10 main_v26 ((extractStridedSlice S524288x1 ![0, 3] · slices_S524288x7_S524288x1_0_3) : (⟨S524288x7, .f32⟩ : BufTy).Contents (Elt F) → (⟨S524288x1, .f32⟩ : BufTy).Contents (Elt F)),
    StableHlo.binary main_v25 main_v26 main_v27 (mulf : (⟨S524288x1, .f32⟩ : BufTy).Contents (Elt F) → (⟨S524288x1, .f32⟩ : BufTy).Contents (Elt F) → (⟨S524288x1, .f32⟩ : BufTy).Contents (Elt F)),
    StableHlo.unary main_v10 main_v28 ((extractStridedSlice S524288x1 ![0, 2] · slices_S524288x7_S524288x1_0_2) : (⟨S524288x7, .f32⟩ : BufTy).Contents (Elt F) → (⟨S524288x1, .f32⟩ : BufTy).Contents (Elt F)),
    StableHlo.binary main_v27 main_v28 main_v29 (addf : (⟨S524288x1, .f32⟩ : BufTy).Contents (Elt F) → (⟨S524288x1, .f32⟩ : BufTy).Contents (Elt F) → (⟨S524288x1, .f32⟩ : BufTy).Contents (Elt F)),
    StableHlo.unary main_v9 main_v30 ((extractStridedSlice S524288x3 ![0, 3] · slices_S524288x7_S524288x3_0_3) : (⟨S524288x7, .f32⟩ : BufTy).Contents (Elt F) → (⟨S524288x3, .f32⟩ : BufTy).Contents (Elt F)),
    StableHlo.unary main_v30 main_v31 (Host.exp : (⟨S524288x3, .f32⟩ : BufTy).Contents (Elt F) → (⟨S524288x3, .f32⟩ : BufTy).Contents (Elt F)),
    StableHlo.unary main_v10 main_v32 ((extractStridedSlice S524288x3 ![0, 3] · slices_S524288x7_S524288x3_0_3) : (⟨S524288x7, .f32⟩ : BufTy).Contents (Elt F) → (⟨S524288x3, .f32⟩ : BufTy).Contents (Elt F)),
    StableHlo.binary main_v31 main_v32 main_v33 (mulf : (⟨S524288x3, .f32⟩ : BufTy).Contents (Elt F) → (⟨S524288x3, .f32⟩ : BufTy).Contents (Elt F) → (⟨S524288x3, .f32⟩ : BufTy).Contents (Elt F)),
    StableHlo.unary main_v9 main_v34 ((extractStridedSlice S524288x1 ![0, 6] · slices_S524288x7_S524288x1_0_6) : (⟨S524288x7, .f32⟩ : BufTy).Contents (Elt F) → (⟨S524288x1, .f32⟩ : BufTy).Contents (Elt F)),
    StableHlo.reshape main_v34 main_v35 rfl shapeCasts_S524288x1_S524288,
    StableHlo.unary main_v10 main_v36 ((extractStridedSlice S524288x1 ![0, 6] · slices_S524288x7_S524288x1_0_6) : (⟨S524288x7, .f32⟩ : BufTy).Contents (Elt F) → (⟨S524288x1, .f32⟩ : BufTy).Contents (Elt F)),
    StableHlo.reshape main_v36 main_v37 rfl shapeCasts_S524288x1_S524288,
    StableHlo.binary main_v35 main_v37 main_v38 (addf : (⟨S524288, .f32⟩ : BufTy).Contents (Elt F) → (⟨S524288, .f32⟩ : BufTy).Contents (Elt F) → (⟨S524288, .f32⟩ : BufTy).Contents (Elt F)),
    StableHlo.unary main_v38 main_v39 (broadcastInDim S524288x1 ![0] bcast_S524288_S524288x1_0 : (⟨S524288, .f32⟩ : BufTy).Contents (Elt F) → (⟨S524288x1, .f32⟩ : BufTy).Contents (Elt F)),
    StableHlo.nary ![main_v24, main_v29, main_v33, main_v39] main_v40 (fun u => concatenate S524288x7 1 [⟨S524288x2, u 0⟩, ⟨S524288x1, u 1⟩, ⟨S524288x3, u 2⟩, ⟨S524288x1, u 3⟩] concatenates_S524288x2_S524288x1_S524288x3_S524288x1_S524288x7_d1),
    StableHlo.nullary main_cst_3 (constant S_ .f32 0x3DCCCCCD#32),
    StableHlo.unary main_cst_3 main_v41 (broadcastInDim S524288 ![] bcast_S_S524288 : (⟨S_, .f32⟩ : BufTy).Contents (Elt F) → (⟨S524288, .f32⟩ : BufTy).Contents (Elt F)),
    StableHlo.binary main_v7 main_v41 main_v42 (cmpf .ogt : (⟨S524288, .f32⟩ : BufTy).Contents (Elt F) → (⟨S524288, .f32⟩ : BufTy).Contents (Elt F) → (⟨S524288, .i1⟩ : BufTy).Contents (Elt F)),
    StableHlo.unary main_v42 main_v43 (uitofp .f32 : (⟨S524288, .i1⟩ : BufTy).Contents (Elt F) → (⟨S524288, .f32⟩ : BufTy).Contents (Elt F)),
    StableHlo.nullary main_c_4 (constantI S_ 32 0#32),
    StableHlo.unary main_c_4 main_v44 (broadcastInDim S3 ![] bcast_S_S3 : (⟨S_, .i32⟩ : BufTy).Contents (Elt F) → (⟨S3, .i32⟩ : BufTy).Contents (Elt F)),
    StableHlo.binary main_c main_v44 main_v45 (cmpi .slt : (⟨S3, .i32⟩ : BufTy).Contents (Elt F) → (⟨S3, .i32⟩ : BufTy).Contents (Elt F) → (⟨S3, .i1⟩ : BufTy).Contents (Elt F)),
    StableHlo.nullary main_c_5 (constantI S_ 32 7#32),
    StableHlo.unary main_c_5 main_v46 (broadcastInDim S3 ![] bcast_S_S3 : (⟨S_, .i32⟩ : BufTy).Contents (Elt F) → (⟨S3, .i32⟩ : BufTy).Contents (Elt F)),
    StableHlo.binary main_c main_v46 main_v47 (addi : (⟨S3, .i32⟩ : BufTy).Contents (Elt F) → (⟨S3, .i32⟩ : BufTy).Contents (Elt F) → (⟨S3, .i32⟩ : BufTy).Contents (Elt F)),
    StableHlo.ternary main_v45 main_v47 main_c main_v48 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v48 main_v49 (broadcastInDim S3x1 ![0] bcast_S3_S3x1_0 : (⟨S3, .i32⟩ : BufTy).Contents (Elt F) → (⟨S3x1, .i32⟩ : BufTy).Contents (Elt F)),
    StableHlo.binary main_v40 main_v49 main_v50 ((fun x i => Host.gather gather_S524288x7_S3x1_S524288x3_0_1_n_n_1_1_5242881 x i) : (⟨S524288x7, .f32⟩ : BufTy).Contents (Elt F) → (⟨S3x1, .i32⟩ : BufTy).Contents (Elt F) → (⟨S524288x3, .f32⟩ : BufTy).Contents (Elt F)),
    StableHlo.unary main_v50 main_v51 (broadcastInDim S524288x1x3 ![0, 2] bcast_S524288x3_S524288x1x3_0_2 : (⟨S524288x3, .f32⟩ : BufTy).Contents (Elt F) → (⟨S524288x1x3, .f32⟩ : BufTy).Contents (Elt F)) ]

/-- The host function's operations 61 … 120 of 251 (the window `main_part1`), in order. -/
abbrev ops_part1 : List (HloOp τ sig (Elt F)) :=
  [ StableHlo.unary main_cst main_v52 (broadcastInDim S1x8x3 ![1, 2] bcast_S8x3_S1x8x3_1_2 : (⟨S8x3, .f32⟩ : BufTy).Contents (Elt F) → (⟨S1x8x3, .f32⟩ : BufTy).Contents (Elt F)),
    StableHlo.unary main_v51 main_v53 (broadcastInDim S524288x8x3 ![0, 1, 2] bcast_S524288x1x3_S524288x8x3_0_1_2 : (⟨S524288x1x3, .f32⟩ : BufTy).Contents (Elt F) → (⟨S524288x8x3, .f32⟩ : BufTy).Contents (Elt F)),
    StableHlo.unary main_v52 main_v54 (broadcastInDim S524288x8x3 ![0, 1, 2] bcast_S1x8x3_S524288x8x3_0_1_2 : (⟨S1x8x3, .f32⟩ : BufTy).Contents (Elt F) → (⟨S524288x8x3, .f32⟩ : BufTy).Contents (Elt F)),
    StableHlo.binary main_v53 main_v54 main_v55 (mulf : (⟨S524288x8x3, .f32⟩ : BufTy).Contents (Elt F) → (⟨S524288x8x3, .f32⟩ : BufTy).Contents (Elt F) → (⟨S524288x8x3, .f32⟩ : BufTy).Contents (Elt F)),
    StableHlo.unary main_v40 main_v56 ((extractStridedSlice S524288x1 ![0, 6] · slices_S524288x7_S524288x1_0_6) : (⟨S524288x7, .f32⟩ : BufTy).Contents (Elt F) → (⟨S524288x1, .f32⟩ : BufTy).Contents (Elt F)),
    StableHlo.reshape main_v56 main_v57 rfl shapeCasts_S524288x1_S524288,
    StableHlo.unary main_v57 main_v58 (Host.cos : (⟨S524288, .f32⟩ : BufTy).Contents (Elt F) → (⟨S524288, .f32⟩ : BufTy).Contents (Elt F)),
    StableHlo.unary main_v57 main_v59 (Host.sin : (⟨S524288, .f32⟩ : BufTy).Contents (Elt F) → (⟨S524288, .f32⟩ : BufTy).Contents (Elt F)),
    StableHlo.nullary main_cst_6 (constant S_ .f32 0x00000000#32),
    StableHlo.unary main_cst_6 main_v60 (broadcastInDim S524288 ![] bcast_S_S524288 : (⟨S_, .f32⟩ : BufTy).Contents (Elt F) → (⟨S524288, .f32⟩ : BufTy).Contents (Elt F)),
    StableHlo.nullary main_cst_7 (constant S_ .f32 0x3F800000#32),
    StableHlo.unary main_cst_7 main_v61 (broadcastInDim S524288 ![] bcast_S_S524288 : (⟨S_, .f32⟩ : BufTy).Contents (Elt F) → (⟨S524288, .f32⟩ : BufTy).Contents (Elt F)),
    StableHlo.unary main_v59 main_v62 (Host.negf : (⟨S524288, .f32⟩ : BufTy).Contents (Elt F) → (⟨S524288, .f32⟩ : BufTy).Contents (Elt F)),
    StableHlo.unary main_v58 main_v63 (broadcastInDim S524288x1 ![0] bcast_S524288_S524288x1_0 : (⟨S524288, .f32⟩ : BufTy).Contents (Elt F) → (⟨S524288x1, .f32⟩ : BufTy).Contents (Elt F)),
    StableHlo.unary main_v59 main_v64 (broadcastInDim S524288x1 ![0] bcast_S524288_S524288x1_0 : (⟨S524288, .f32⟩ : BufTy).Contents (Elt F) → (⟨S524288x1, .f32⟩ : BufTy).Contents (Elt F)),
    StableHlo.unary main_v60 main_v65 (broadcastInDim S524288x1 ![0] bcast_S524288_S524288x1_0 : (⟨S524288, .f32⟩ : BufTy).Contents (Elt F) → (⟨S524288x1, .f32⟩ : BufTy).Contents (Elt F)),
    StableHlo.unary main_v62 main_v66 (broadcastInDim S524288x1 ![0] bcast_S524288_S524288x1_0 : (⟨S524288, .f32⟩ : BufTy).Contents (Elt F) → (⟨S524288x1, .f32⟩ : BufTy).Contents (Elt F)),
    StableHlo.unary main_v58 main_v67 (broadcastInDim S524288x1 ![0] bcast_S524288_S524288x1_0 : (⟨S524288, .f32⟩ : BufTy).Contents (Elt F) → (⟨S524288x1, .f32⟩ : BufTy).Contents (Elt F)),
    StableHlo.unary main_v60 main_v68 (broadcastInDim S524288x1 ![0] bcast_S524288_S524288x1_0 : (⟨S524288, .f32⟩ : BufTy).Contents (Elt F) → (⟨S524288x1, .f32⟩ : BufTy).Contents (Elt F)),
    StableHlo.unary main_v60 main_v69 (broadcastInDim S524288x1 ![0] bcast_S524288_S524288x1_0 : (⟨S524288, .f32⟩ : BufTy).Contents (Elt F) → (⟨S524288x1, .f32⟩ : BufTy).Contents (Elt F)),
    StableHlo.unary main_v60 main_v70 (broadcastInDim S524288x1 ![0] bcast_S524288_S524288x1_0 : (⟨S524288, .f32⟩ : BufTy).Contents (Elt F) → (⟨S524288x1, .f32⟩ : BufTy).Contents (Elt F)),
    StableHlo.unary main_v61 main_v71 (broadcastInDim S524288x1 ![0] bcast_S524288_S524288x1_0 : (⟨S524288, .f32⟩ : BufTy).Contents (Elt F) → (⟨S524288x1, .f32⟩ : BufTy).Contents (Elt F)),
    StableHlo.nary ![main_v63, main_v64, main_v65, main_v66, main_v67, main_v68, main_v69, main_v70, main_v71] main_v72 (fun u => concatenate S524288x9 1 [⟨S524288x1, u 0⟩, ⟨S524288x1, u 1⟩, ⟨S524288x1, u 2⟩, ⟨S524288x1, u 3⟩, ⟨S524288x1, u 4⟩, ⟨S524288x1, u 5⟩, ⟨S524288x1, u 6⟩, ⟨S524288x1, u 7⟩, ⟨S524288x1, u 8⟩] concatenates_S524288x1_S524288x1_S524288x1_S524288x1_S524288x1_S524288x1_S524288x1_S524288x1_S524288x1_S524288x9_d1),
    StableHlo.reshape main_v72 main_v73 rfl shapeCasts_S524288x9_S524288x3x3,
    StableHlo.binary main_v55 main_v73 main_v74 ((fun l r => Host.dotGeneral dot_S524288x8x3_S524288x3x3_S524288x8x3_2_1_1_2_0_0 none l r) : (⟨S524288x8x3, .f32⟩ : BufTy).Contents (Elt F) → (⟨S524288x3x3, .f32⟩ : BufTy).Contents (Elt F) → (⟨S524288x8x3, .f32⟩ : BufTy).Contents (Elt F)),
    StableHlo.unary main_v40 main_v75 ((extractStridedSlice S524288x3 ![0, 0] · slices_S524288x7_S524288x3_0_0) : (⟨S524288x7, .f32⟩ : BufTy).Contents (Elt F) → (⟨S524288x3, .f32⟩ : BufTy).Contents (Elt F)),
    StableHlo.unary main_v75 main_v76 (broadcastInDim S524288x1x3 ![0, 2] bcast_S524288x3_S524288x1x3_0_2 : (⟨S524288x3, .f32⟩ : BufTy).Contents (Elt F) → (⟨S524288x1x3, .f32⟩ : BufTy).Contents (Elt F)),
    StableHlo.unary main_v76 main_v77 (broadcastInDim S524288x8x3 ![0, 1, 2] bcast_S524288x1x3_S524288x8x3_0_1_2 : (⟨S524288x1x3, .f32⟩ : BufTy).Contents (Elt F) → (⟨S524288x8x3, .f32⟩ : BufTy).Contents (Elt F)),
    StableHlo.binary main_v74 main_v77 main_v78 (addf : (⟨S524288x8x3, .f32⟩ : BufTy).Contents (Elt F) → (⟨S524288x8x3, .f32⟩ : BufTy).Contents (Elt F) → (⟨S524288x8x3, .f32⟩ : BufTy).Contents (Elt F)),
    StableHlo.nullary main_cst_8 (constant S_ .f32 0x3F800000#32),
    StableHlo.unary main_cst_8 main_v79 (broadcastInDim S524288x8x1 ![] bcast_S_S524288x8x1 : (⟨S_, .f32⟩ : BufTy).Contents (Elt F) → (⟨S524288x8x1, .f32⟩ : BufTy).Contents (Elt F)),
    StableHlo.binary main_v78 main_v79 main_v80 ((fun a b => concatenate S524288x8x4 2 [⟨S524288x8x3, a⟩, ⟨S524288x8x1, b⟩] concatenates_S524288x8x3_S524288x8x1_S524288x8x4_d2) : (⟨S524288x8x3, .f32⟩ : BufTy).Contents (Elt F) → (⟨S524288x8x1, .f32⟩ : BufTy).Contents (Elt F) → (⟨S524288x8x4, .f32⟩ : BufTy).Contents (Elt F)),
    StableHlo.binary main_v80 main_arg3 main_v81 ((fun l r => Host.dotGeneral dot_S524288x8x4_S4x4_S524288x8x4_2_1_01_0_n_n none l r) : (⟨S524288x8x4, .f32⟩ : BufTy).Contents (Elt F) → (⟨S4x4, .f32⟩ : BufTy).Contents (Elt F) → (⟨S524288x8x4, .f32⟩ : BufTy).Contents (Elt F)),
    StableHlo.unary main_v81 main_v82 ((extractStridedSlice S524288x8x3 ![0, 0, 0] · slices_S524288x8x4_S524288x8x3_0_0_0) : (⟨S524288x8x4, .f32⟩ : BufTy).Contents (Elt F) → (⟨S524288x8x3, .f32⟩ : BufTy).Contents (Elt F)),
    StableHlo.unary main_v82 main_v83 ((extractStridedSlice S524288x8x1 ![0, 0, 0] · slices_S524288x8x3_S524288x8x1_0_0_0) : (⟨S524288x8x3, .f32⟩ : BufTy).Contents (Elt F) → (⟨S524288x8x1, .f32⟩ : BufTy).Contents (Elt F)),
    StableHlo.reshape main_v83 main_v84 rfl shapeCasts_S524288x8x1_S524288x8,
    StableHlo.nullary main_cst_9 (constant S_ .f32 0x7F800000#32),
    StableHlo.binary main_v84 main_cst_9 main_v85 ((fun x v => Host.reduce FloatOps.minimumf x v reducesTo_S524288x8_S524288_d1 h_S_) : (⟨S524288x8, .f32⟩ : BufTy).Contents (Elt F) → (⟨S_, .f32⟩ : BufTy).Contents (Elt F) → (⟨S524288, .f32⟩ : BufTy).Contents (Elt F)),
    StableHlo.unary main_v82 main_v86 ((extractStridedSlice S524288x8x1 ![0, 0, 1] · slices_S524288x8x3_S524288x8x1_0_0_1) : (⟨S524288x8x3, .f32⟩ : BufTy).Contents (Elt F) → (⟨S524288x8x1, .f32⟩ : BufTy).Contents (Elt F)),
    StableHlo.reshape main_v86 main_v87 rfl shapeCasts_S524288x8x1_S524288x8,
    StableHlo.nullary main_cst_10 (constant S_ .f32 0x7F800000#32),
    StableHlo.binary main_v87 main_cst_10 main_v88 ((fun x v => Host.reduce FloatOps.minimumf x v reducesTo_S524288x8_S524288_d1 h_S_) : (⟨S524288x8, .f32⟩ : BufTy).Contents (Elt F) → (⟨S_, .f32⟩ : BufTy).Contents (Elt F) → (⟨S524288, .f32⟩ : BufTy).Contents (Elt F)),
    StableHlo.unary main_v82 main_v89 ((extractStridedSlice S524288x8x1 ![0, 0, 0] · slices_S524288x8x3_S524288x8x1_0_0_0) : (⟨S524288x8x3, .f32⟩ : BufTy).Contents (Elt F) → (⟨S524288x8x1, .f32⟩ : BufTy).Contents (Elt F)),
    StableHlo.reshape main_v89 main_v90 rfl shapeCasts_S524288x8x1_S524288x8,
    StableHlo.nullary main_cst_11 (constant S_ .f32 0xFF800000#32),
    StableHlo.binary main_v90 main_cst_11 main_v91 ((fun x v => Host.reduce FloatOps.maximumf x v reducesTo_S524288x8_S524288_d1 h_S_) : (⟨S524288x8, .f32⟩ : BufTy).Contents (Elt F) → (⟨S_, .f32⟩ : BufTy).Contents (Elt F) → (⟨S524288, .f32⟩ : BufTy).Contents (Elt F)),
    StableHlo.unary main_v82 main_v92 ((extractStridedSlice S524288x8x1 ![0, 0, 1] · slices_S524288x8x3_S524288x8x1_0_0_1) : (⟨S524288x8x3, .f32⟩ : BufTy).Contents (Elt F) → (⟨S524288x8x1, .f32⟩ : BufTy).Contents (Elt F)),
    StableHlo.reshape main_v92 main_v93 rfl shapeCasts_S524288x8x1_S524288x8,
    StableHlo.nullary main_cst_12 (constant S_ .f32 0xFF800000#32),
    StableHlo.binary main_v93 main_cst_12 main_v94 ((fun x v => Host.reduce FloatOps.maximumf x v reducesTo_S524288x8_S524288_d1 h_S_) : (⟨S524288x8, .f32⟩ : BufTy).Contents (Elt F) → (⟨S_, .f32⟩ : BufTy).Contents (Elt F) → (⟨S524288, .f32⟩ : BufTy).Contents (Elt F)),
    StableHlo.unary main_v85 main_v95 (broadcastInDim S524288x1 ![0] bcast_S524288_S524288x1_0 : (⟨S524288, .f32⟩ : BufTy).Contents (Elt F) → (⟨S524288x1, .f32⟩ : BufTy).Contents (Elt F)),
    StableHlo.unary main_v88 main_v96 (broadcastInDim S524288x1 ![0] bcast_S524288_S524288x1_0 : (⟨S524288, .f32⟩ : BufTy).Contents (Elt F) → (⟨S524288x1, .f32⟩ : BufTy).Contents (Elt F)),
    StableHlo.unary main_v91 main_v97 (broadcastInDim S524288x1 ![0] bcast_S524288_S524288x1_0 : (⟨S524288, .f32⟩ : BufTy).Contents (Elt F) → (⟨S524288x1, .f32⟩ : BufTy).Contents (Elt F)),
    StableHlo.unary main_v94 main_v98 (broadcastInDim S524288x1 ![0] bcast_S524288_S524288x1_0 : (⟨S524288, .f32⟩ : BufTy).Contents (Elt F) → (⟨S524288x1, .f32⟩ : BufTy).Contents (Elt F)),
    StableHlo.nary ![main_v95, main_v96, main_v97, main_v98] main_v99 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    StableHlo.nullary main_c_13 (constantI S_ 32 0#32),
    StableHlo.unary main_c_13 main_v100 (broadcastInDim S3 ![] bcast_S_S3 : (⟨S_, .i32⟩ : BufTy).Contents (Elt F) → (⟨S3, .i32⟩ : BufTy).Contents (Elt F)),
    StableHlo.binary main_c_0 main_v100 main_v101 (cmpi .slt : (⟨S3, .i32⟩ : BufTy).Contents (Elt F) → (⟨S3, .i32⟩ : BufTy).Contents (Elt F) → (⟨S3, .i1⟩ : BufTy).Contents (Elt F)),
    StableHlo.nullary main_c_14 (constantI S_ 32 7#32),
    StableHlo.unary main_c_14 main_v102 (broadcastInDim S3 ![] bcast_S_S3 : (⟨S_, .i32⟩ : BufTy).Contents (Elt F) → (⟨S3, .i32⟩ : BufTy).Contents (Elt F)) ]

/-- The host function's operations 121 … 180 of 251 (the window `main_part2`), in order. -/
abbrev ops_part2 : List (HloOp τ sig (Elt F)) :=
  [ StableHlo.binary main_c_0 main_v102 main_v103 (addi : (⟨S3, .i32⟩ : BufTy).Contents (Elt F) → (⟨S3, .i32⟩ : BufTy).Contents (Elt F) → (⟨S3, .i32⟩ : BufTy).Contents (Elt F)),
    StableHlo.ternary main_v101 main_v103 main_c_0 main_v104 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v104 main_v105 (broadcastInDim S3x1 ![0] bcast_S3_S3x1_0 : (⟨S3, .i32⟩ : BufTy).Contents (Elt F) → (⟨S3x1, .i32⟩ : BufTy).Contents (Elt F)),
    StableHlo.binary main_arg4 main_v105 main_v106 ((fun x i => Host.gather gather_S64x7_S3x1_S64x3_0_1_n_n_1_1_641 x i) : (⟨S64x7, .f32⟩ : BufTy).Contents (Elt F) → (⟨S3x1, .i32⟩ : BufTy).Contents (Elt F) → (⟨S64x3, .f32⟩ : BufTy).Contents (Elt F)),
    StableHlo.unary main_v106 main_v107 (broadcastInDim S64x1x3 ![0, 2] bcast_S64x3_S64x1x3_0_2 : (⟨S64x3, .f32⟩ : BufTy).Contents (Elt F) → (⟨S64x1x3, .f32⟩ : BufTy).Contents (Elt F)),
    StableHlo.unary main_cst main_v108 (broadcastInDim S1x8x3 ![1, 2] bcast_S8x3_S1x8x3_1_2 : (⟨S8x3, .f32⟩ : BufTy).Contents (Elt F) → (⟨S1x8x3, .f32⟩ : BufTy).Contents (Elt F)),
    StableHlo.unary main_v107 main_v109 (broadcastInDim S64x8x3 ![0, 1, 2] bcast_S64x1x3_S64x8x3_0_1_2 : (⟨S64x1x3, .f32⟩ : BufTy).Contents (Elt F) → (⟨S64x8x3, .f32⟩ : BufTy).Contents (Elt F)),
    StableHlo.unary main_v108 main_v110 (broadcastInDim S64x8x3 ![0, 1, 2] bcast_S1x8x3_S64x8x3_0_1_2 : (⟨S1x8x3, .f32⟩ : BufTy).Contents (Elt F) → (⟨S64x8x3, .f32⟩ : BufTy).Contents (Elt F)),
    StableHlo.binary main_v109 main_v110 main_v111 (mulf : (⟨S64x8x3, .f32⟩ : BufTy).Contents (Elt F) → (⟨S64x8x3, .f32⟩ : BufTy).Contents (Elt F) → (⟨S64x8x3, .f32⟩ : BufTy).Contents (Elt F)),
    StableHlo.unary main_arg4 main_v112 ((extractStridedSlice S64x1 ![0, 6] · slices_S64x7_S64x1_0_6) : (⟨S64x7, .f32⟩ : BufTy).Contents (Elt F) → (⟨S64x1, .f32⟩ : BufTy).Contents (Elt F)),
    StableHlo.reshape main_v112 main_v113 rfl shapeCasts_S64x1_S64,
    StableHlo.unary main_v113 main_v114 (Host.cos : (⟨S64, .f32⟩ : BufTy).Contents (Elt F) → (⟨S64, .f32⟩ : BufTy).Contents (Elt F)),
    StableHlo.unary main_v113 main_v115 (Host.sin : (⟨S64, .f32⟩ : BufTy).Contents (Elt F) → (⟨S64, .f32⟩ : BufTy).Contents (Elt F)),
    StableHlo.nullary main_cst_15 (constant S_ .f32 0x00000000#32),
    StableHlo.unary main_cst_15 main_v116 (broadcastInDim S64 ![] bcast_S_S64 : (⟨S_, .f32⟩ : BufTy).Contents (Elt F) → (⟨S64, .f32⟩ : BufTy).Contents (Elt F)),
    StableHlo.nullary main_cst_16 (constant S_ .f32 0x3F800000#32),
    StableHlo.unary main_cst_16 main_v117 (broadcastInDim S64 ![] bcast_S_S64 : (⟨S_, .f32⟩ : BufTy).Contents (Elt F) → (⟨S64, .f32⟩ : BufTy).Contents (Elt F)),
    StableHlo.unary main_v115 main_v118 (Host.negf : (⟨S64, .f32⟩ : BufTy).Contents (Elt F) → (⟨S64, .f32⟩ : BufTy).Contents (Elt F)),
    StableHlo.unary main_v114 main_v119 (broadcastInDim S64x1 ![0] bcast_S64_S64x1_0 : (⟨S64, .f32⟩ : BufTy).Contents (Elt F) → (⟨S64x1, .f32⟩ : BufTy).Contents (Elt F)),
    StableHlo.unary main_v115 main_v120 (broadcastInDim S64x1 ![0] bcast_S64_S64x1_0 : (⟨S64, .f32⟩ : BufTy).Contents (Elt F) → (⟨S64x1, .f32⟩ : BufTy).Contents (Elt F)),
    StableHlo.unary main_v116 main_v121 (broadcastInDim S64x1 ![0] bcast_S64_S64x1_0 : (⟨S64, .f32⟩ : BufTy).Contents (Elt F) → (⟨S64x1, .f32⟩ : BufTy).Contents (Elt F)),
    StableHlo.unary main_v118 main_v122 (broadcastInDim S64x1 ![0] bcast_S64_S64x1_0 : (⟨S64, .f32⟩ : BufTy).Contents (Elt F) → (⟨S64x1, .f32⟩ : BufTy).Contents (Elt F)),
    StableHlo.unary main_v114 main_v123 (broadcastInDim S64x1 ![0] bcast_S64_S64x1_0 : (⟨S64, .f32⟩ : BufTy).Contents (Elt F) → (⟨S64x1, .f32⟩ : BufTy).Contents (Elt F)),
    StableHlo.unary main_v116 main_v124 (broadcastInDim S64x1 ![0] bcast_S64_S64x1_0 : (⟨S64, .f32⟩ : BufTy).Contents (Elt F) → (⟨S64x1, .f32⟩ : BufTy).Contents (Elt F)),
    StableHlo.unary main_v116 main_v125 (broadcastInDim S64x1 ![0] bcast_S64_S64x1_0 : (⟨S64, .f32⟩ : BufTy).Contents (Elt F) → (⟨S64x1, .f32⟩ : BufTy).Contents (Elt F)),
    StableHlo.unary main_v116 main_v126 (broadcastInDim S64x1 ![0] bcast_S64_S64x1_0 : (⟨S64, .f32⟩ : BufTy).Contents (Elt F) → (⟨S64x1, .f32⟩ : BufTy).Contents (Elt F)),
    StableHlo.unary main_v117 main_v127 (broadcastInDim S64x1 ![0] bcast_S64_S64x1_0 : (⟨S64, .f32⟩ : BufTy).Contents (Elt F) → (⟨S64x1, .f32⟩ : BufTy).Contents (Elt F)),
    StableHlo.nary ![main_v119, main_v120, main_v121, main_v122, main_v123, main_v124, main_v125, main_v126, main_v127] main_v128 (fun u => concatenate S64x9 1 [⟨S64x1, u 0⟩, ⟨S64x1, u 1⟩, ⟨S64x1, u 2⟩, ⟨S64x1, u 3⟩, ⟨S64x1, u 4⟩, ⟨S64x1, u 5⟩, ⟨S64x1, u 6⟩, ⟨S64x1, u 7⟩, ⟨S64x1, u 8⟩] concatenates_S64x1_S64x1_S64x1_S64x1_S64x1_S64x1_S64x1_S64x1_S64x1_S64x9_d1),
    StableHlo.reshape main_v128 main_v129 rfl shapeCasts_S64x9_S64x3x3,
    StableHlo.binary main_v111 main_v129 main_v130 ((fun l r => Host.dotGeneral dot_S64x8x3_S64x3x3_S64x8x3_2_1_1_2_0_0 none l r) : (⟨S64x8x3, .f32⟩ : BufTy).Contents (Elt F) → (⟨S64x3x3, .f32⟩ : BufTy).Contents (Elt F) → (⟨S64x8x3, .f32⟩ : BufTy).Contents (Elt F)),
    StableHlo.unary main_arg4 main_v131 ((extractStridedSlice S64x3 ![0, 0] · slices_S64x7_S64x3_0_0) : (⟨S64x7, .f32⟩ : BufTy).Contents (Elt F) → (⟨S64x3, .f32⟩ : BufTy).Contents (Elt F)),
    StableHlo.unary main_v131 main_v132 (broadcastInDim S64x1x3 ![0, 2] bcast_S64x3_S64x1x3_0_2 : (⟨S64x3, .f32⟩ : BufTy).Contents (Elt F) → (⟨S64x1x3, .f32⟩ : BufTy).Contents (Elt F)),
    StableHlo.unary main_v132 main_v133 (broadcastInDim S64x8x3 ![0, 1, 2] bcast_S64x1x3_S64x8x3_0_1_2 : (⟨S64x1x3, .f32⟩ : BufTy).Contents (Elt F) → (⟨S64x8x3, .f32⟩ : BufTy).Contents (Elt F)),
    StableHlo.binary main_v130 main_v133 main_v134 (addf : (⟨S64x8x3, .f32⟩ : BufTy).Contents (Elt F) → (⟨S64x8x3, .f32⟩ : BufTy).Contents (Elt F) → (⟨S64x8x3, .f32⟩ : BufTy).Contents (Elt F)),
    StableHlo.unary main_v134 main_v135 ((extractStridedSlice S64x8x1 ![0, 0, 0] · slices_S64x8x3_S64x8x1_0_0_0) : (⟨S64x8x3, .f32⟩ : BufTy).Contents (Elt F) → (⟨S64x8x1, .f32⟩ : BufTy).Contents (Elt F)),
    StableHlo.reshape main_v135 main_v136 rfl shapeCasts_S64x8x1_S64x8,
    StableHlo.nullary main_cst_17 (constant S_ .f32 0x7F800000#32),
    StableHlo.binary main_v136 main_cst_17 main_v137 ((fun x v => Host.reduce FloatOps.minimumf x v reducesTo_S64x8_S64_d1 h_S_) : (⟨S64x8, .f32⟩ : BufTy).Contents (Elt F) → (⟨S_, .f32⟩ : BufTy).Contents (Elt F) → (⟨S64, .f32⟩ : BufTy).Contents (Elt F)),
    StableHlo.unary main_v134 main_v138 ((extractStridedSlice S64x8x1 ![0, 0, 1] · slices_S64x8x3_S64x8x1_0_0_1) : (⟨S64x8x3, .f32⟩ : BufTy).Contents (Elt F) → (⟨S64x8x1, .f32⟩ : BufTy).Contents (Elt F)),
    StableHlo.reshape main_v138 main_v139 rfl shapeCasts_S64x8x1_S64x8,
    StableHlo.nullary main_cst_18 (constant S_ .f32 0x7F800000#32),
    StableHlo.binary main_v139 main_cst_18 main_v140 ((fun x v => Host.reduce FloatOps.minimumf x v reducesTo_S64x8_S64_d1 h_S_) : (⟨S64x8, .f32⟩ : BufTy).Contents (Elt F) → (⟨S_, .f32⟩ : BufTy).Contents (Elt F) → (⟨S64, .f32⟩ : BufTy).Contents (Elt F)),
    StableHlo.unary main_v134 main_v141 ((extractStridedSlice S64x8x1 ![0, 0, 0] · slices_S64x8x3_S64x8x1_0_0_0) : (⟨S64x8x3, .f32⟩ : BufTy).Contents (Elt F) → (⟨S64x8x1, .f32⟩ : BufTy).Contents (Elt F)),
    StableHlo.reshape main_v141 main_v142 rfl shapeCasts_S64x8x1_S64x8,
    StableHlo.nullary main_cst_19 (constant S_ .f32 0xFF800000#32),
    StableHlo.binary main_v142 main_cst_19 main_v143 ((fun x v => Host.reduce FloatOps.maximumf x v reducesTo_S64x8_S64_d1 h_S_) : (⟨S64x8, .f32⟩ : BufTy).Contents (Elt F) → (⟨S_, .f32⟩ : BufTy).Contents (Elt F) → (⟨S64, .f32⟩ : BufTy).Contents (Elt F)),
    StableHlo.unary main_v134 main_v144 ((extractStridedSlice S64x8x1 ![0, 0, 1] · slices_S64x8x3_S64x8x1_0_0_1) : (⟨S64x8x3, .f32⟩ : BufTy).Contents (Elt F) → (⟨S64x8x1, .f32⟩ : BufTy).Contents (Elt F)),
    StableHlo.reshape main_v144 main_v145 rfl shapeCasts_S64x8x1_S64x8,
    StableHlo.nullary main_cst_20 (constant S_ .f32 0xFF800000#32),
    StableHlo.binary main_v145 main_cst_20 main_v146 ((fun x v => Host.reduce FloatOps.maximumf x v reducesTo_S64x8_S64_d1 h_S_) : (⟨S64x8, .f32⟩ : BufTy).Contents (Elt F) → (⟨S_, .f32⟩ : BufTy).Contents (Elt F) → (⟨S64, .f32⟩ : BufTy).Contents (Elt F)),
    StableHlo.unary main_v137 main_v147 (broadcastInDim S64x1 ![0] bcast_S64_S64x1_0 : (⟨S64, .f32⟩ : BufTy).Contents (Elt F) → (⟨S64x1, .f32⟩ : BufTy).Contents (Elt F)),
    StableHlo.unary main_v140 main_v148 (broadcastInDim S64x1 ![0] bcast_S64_S64x1_0 : (⟨S64, .f32⟩ : BufTy).Contents (Elt F) → (⟨S64x1, .f32⟩ : BufTy).Contents (Elt F)),
    StableHlo.unary main_v143 main_v149 (broadcastInDim S64x1 ![0] bcast_S64_S64x1_0 : (⟨S64, .f32⟩ : BufTy).Contents (Elt F) → (⟨S64x1, .f32⟩ : BufTy).Contents (Elt F)),
    StableHlo.unary main_v146 main_v150 (broadcastInDim S64x1 ![0] bcast_S64_S64x1_0 : (⟨S64, .f32⟩ : BufTy).Contents (Elt F) → (⟨S64x1, .f32⟩ : BufTy).Contents (Elt F)),
    StableHlo.nary ![main_v147, main_v148, main_v149, main_v150] main_v151 (fun u => concatenate S64x4 1 [⟨S64x1, u 0⟩, ⟨S64x1, u 1⟩, ⟨S64x1, u 2⟩, ⟨S64x1, u 3⟩] concatenates_S64x1_S64x1_S64x1_S64x1_S64x4_d1),
    StableHlo.unary main_v151 main_v152 (broadcastInDim S1x64x4 ![1, 2] bcast_S64x4_S1x64x4_1_2 : (⟨S64x4, .f32⟩ : BufTy).Contents (Elt F) → (⟨S1x64x4, .f32⟩ : BufTy).Contents (Elt F)),
    StableHlo.unary main_v99 main_v153 (broadcastInDim S524288x1x4 ![0, 2] bcast_S524288x4_S524288x1x4_0_2 : (⟨S524288x4, .f32⟩ : BufTy).Contents (Elt F) → (⟨S524288x1x4, .f32⟩ : BufTy).Contents (Elt F)),
    StableHlo.unary main_v153 main_v154 ((extractStridedSlice S524288x1x1 ![0, 0, 0] · slices_S524288x1x4_S524288x1x1_0_0_0) : (⟨S524288x1x4, .f32⟩ : BufTy).Contents (Elt F) → (⟨S524288x1x1, .f32⟩ : BufTy).Contents (Elt F)),
    StableHlo.reshape main_v154 main_v155 rfl shapeCasts_S524288x1x1_S524288x1,
    StableHlo.unary main_v152 main_v156 ((extractStridedSlice S1x64x1 ![0, 0, 0] · slices_S1x64x4_S1x64x1_0_0_0) : (⟨S1x64x4, .f32⟩ : BufTy).Contents (Elt F) → (⟨S1x64x1, .f32⟩ : BufTy).Contents (Elt F)) ]

/-- The host function's operations 181 … 240 of 251 (the window `main_part3`), in order. -/
abbrev ops_part3 : List (HloOp τ sig (Elt F)) :=
  [ StableHlo.reshape main_v156 main_v157 rfl shapeCasts_S1x64x1_S1x64,
    StableHlo.unary main_v155 main_v158 (broadcastInDim S524288x64 ![0, 1] bcast_S524288x1_S524288x64_0_1 : (⟨S524288x1, .f32⟩ : BufTy).Contents (Elt F) → (⟨S524288x64, .f32⟩ : BufTy).Contents (Elt F)),
    StableHlo.unary main_v157 main_v159 (broadcastInDim S524288x64 ![0, 1] bcast_S1x64_S524288x64_0_1 : (⟨S1x64, .f32⟩ : BufTy).Contents (Elt F) → (⟨S524288x64, .f32⟩ : BufTy).Contents (Elt F)),
    StableHlo.binary main_v158 main_v159 main_v160 (maximumf : (⟨S524288x64, .f32⟩ : BufTy).Contents (Elt F) → (⟨S524288x64, .f32⟩ : BufTy).Contents (Elt F) → (⟨S524288x64, .f32⟩ : BufTy).Contents (Elt F)),
    StableHlo.unary main_v153 main_v161 ((extractStridedSlice S524288x1x1 ![0, 0, 1] · slices_S524288x1x4_S524288x1x1_0_0_1) : (⟨S524288x1x4, .f32⟩ : BufTy).Contents (Elt F) → (⟨S524288x1x1, .f32⟩ : BufTy).Contents (Elt F)),
    StableHlo.reshape main_v161 main_v162 rfl shapeCasts_S524288x1x1_S524288x1,
    StableHlo.unary main_v152 main_v163 ((extractStridedSlice S1x64x1 ![0, 0, 1] · slices_S1x64x4_S1x64x1_0_0_1) : (⟨S1x64x4, .f32⟩ : BufTy).Contents (Elt F) → (⟨S1x64x1, .f32⟩ : BufTy).Contents (Elt F)),
    StableHlo.reshape main_v163 main_v164 rfl shapeCasts_S1x64x1_S1x64,
    StableHlo.unary main_v162 main_v165 (broadcastInDim S524288x64 ![0, 1] bcast_S524288x1_S524288x64_0_1 : (⟨S524288x1, .f32⟩ : BufTy).Contents (Elt F) → (⟨S524288x64, .f32⟩ : BufTy).Contents (Elt F)),
    StableHlo.unary main_v164 main_v166 (broadcastInDim S524288x64 ![0, 1] bcast_S1x64_S524288x64_0_1 : (⟨S1x64, .f32⟩ : BufTy).Contents (Elt F) → (⟨S524288x64, .f32⟩ : BufTy).Contents (Elt F)),
    StableHlo.binary main_v165 main_v166 main_v167 (maximumf : (⟨S524288x64, .f32⟩ : BufTy).Contents (Elt F) → (⟨S524288x64, .f32⟩ : BufTy).Contents (Elt F) → (⟨S524288x64, .f32⟩ : BufTy).Contents (Elt F)),
    StableHlo.unary main_v153 main_v168 ((extractStridedSlice S524288x1x1 ![0, 0, 2] · slices_S524288x1x4_S524288x1x1_0_0_2) : (⟨S524288x1x4, .f32⟩ : BufTy).Contents (Elt F) → (⟨S524288x1x1, .f32⟩ : BufTy).Contents (Elt F)),
    StableHlo.reshape main_v168 main_v169 rfl shapeCasts_S524288x1x1_S524288x1,
    StableHlo.unary main_v152 main_v170 ((extractStridedSlice S1x64x1 ![0, 0, 2] · slices_S1x64x4_S1x64x1_0_0_2) : (⟨S1x64x4, .f32⟩ : BufTy).Contents (Elt F) → (⟨S1x64x1, .f32⟩ : BufTy).Contents (Elt F)),
    StableHlo.reshape main_v170 main_v171 rfl shapeCasts_S1x64x1_S1x64,
    StableHlo.unary main_v169 main_v172 (broadcastInDim S524288x64 ![0, 1] bcast_S524288x1_S524288x64_0_1 : (⟨S524288x1, .f32⟩ : BufTy).Contents (Elt F) → (⟨S524288x64, .f32⟩ : BufTy).Contents (Elt F)),
    StableHlo.unary main_v171 main_v173 (broadcastInDim S524288x64 ![0, 1] bcast_S1x64_S524288x64_0_1 : (⟨S1x64, .f32⟩ : BufTy).Contents (Elt F) → (⟨S524288x64, .f32⟩ : BufTy).Contents (Elt F)),
    StableHlo.binary main_v172 main_v173 main_v174 (minimumf : (⟨S524288x64, .f32⟩ : BufTy).Contents (Elt F) → (⟨S524288x64, .f32⟩ : BufTy).Contents (Elt F) → (⟨S524288x64, .f32⟩ : BufTy).Contents (Elt F)),
    StableHlo.unary main_v153 main_v175 ((extractStridedSlice S524288x1x1 ![0, 0, 3] · slices_S524288x1x4_S524288x1x1_0_0_3) : (⟨S524288x1x4, .f32⟩ : BufTy).Contents (Elt F) → (⟨S524288x1x1, .f32⟩ : BufTy).Contents (Elt F)),
    StableHlo.reshape main_v175 main_v176 rfl shapeCasts_S524288x1x1_S524288x1,
    StableHlo.unary main_v152 main_v177 ((extractStridedSlice S1x64x1 ![0, 0, 3] · slices_S1x64x4_S1x64x1_0_0_3) : (⟨S1x64x4, .f32⟩ : BufTy).Contents (Elt F) → (⟨S1x64x1, .f32⟩ : BufTy).Contents (Elt F)),
    StableHlo.reshape main_v177 main_v178 rfl shapeCasts_S1x64x1_S1x64,
    StableHlo.unary main_v176 main_v179 (broadcastInDim S524288x64 ![0, 1] bcast_S524288x1_S524288x64_0_1 : (⟨S524288x1, .f32⟩ : BufTy).Contents (Elt F) → (⟨S524288x64, .f32⟩ : BufTy).Contents (Elt F)),
    StableHlo.unary main_v178 main_v180 (broadcastInDim S524288x64 ![0, 1] bcast_S1x64_S524288x64_0_1 : (⟨S1x64, .f32⟩ : BufTy).Contents (Elt F) → (⟨S524288x64, .f32⟩ : BufTy).Contents (Elt F)),
    StableHlo.binary main_v179 main_v180 main_v181 (minimumf : (⟨S524288x64, .f32⟩ : BufTy).Contents (Elt F) → (⟨S524288x64, .f32⟩ : BufTy).Contents (Elt F) → (⟨S524288x64, .f32⟩ : BufTy).Contents (Elt F)),
    StableHlo.binary main_v174 main_v160 main_v182 (subf : (⟨S524288x64, .f32⟩ : BufTy).Contents (Elt F) → (⟨S524288x64, .f32⟩ : BufTy).Contents (Elt F) → (⟨S524288x64, .f32⟩ : BufTy).Contents (Elt F)),
    StableHlo.nullary main_cst_21 (constant S_ .f32 0x00000000#32),
    StableHlo.unary main_cst_21 main_v183 (broadcastInDim S524288x64 ![] bcast_S_S524288x64 : (⟨S_, .f32⟩ : BufTy).Contents (Elt F) → (⟨S524288x64, .f32⟩ : BufTy).Contents (Elt F)),
    StableHlo.binary main_v183 main_v182 main_v184 (maximumf : (⟨S524288x64, .f32⟩ : BufTy).Contents (Elt F) → (⟨S524288x64, .f32⟩ : BufTy).Contents (Elt F) → (⟨S524288x64, .f32⟩ : BufTy).Contents (Elt F)),
    StableHlo.binary main_v181 main_v167 main_v185 (subf : (⟨S524288x64, .f32⟩ : BufTy).Contents (Elt F) → (⟨S524288x64, .f32⟩ : BufTy).Contents (Elt F) → (⟨S524288x64, .f32⟩ : BufTy).Contents (Elt F)),
    StableHlo.nullary main_cst_22 (constant S_ .f32 0x00000000#32),
    StableHlo.unary main_cst_22 main_v186 (broadcastInDim S524288x64 ![] bcast_S_S524288x64 : (⟨S_, .f32⟩ : BufTy).Contents (Elt F) → (⟨S524288x64, .f32⟩ : BufTy).Contents (Elt F)),
    StableHlo.binary main_v186 main_v185 main_v187 (maximumf : (⟨S524288x64, .f32⟩ : BufTy).Contents (Elt F) → (⟨S524288x64, .f32⟩ : BufTy).Contents (Elt F) → (⟨S524288x64, .f32⟩ : BufTy).Contents (Elt F)),
    StableHlo.binary main_v184 main_v187 main_v188 (mulf : (⟨S524288x64, .f32⟩ : BufTy).Contents (Elt F) → (⟨S524288x64, .f32⟩ : BufTy).Contents (Elt F) → (⟨S524288x64, .f32⟩ : BufTy).Contents (Elt F)),
    StableHlo.unary main_v153 main_v189 ((extractStridedSlice S524288x1x1 ![0, 0, 2] · slices_S524288x1x4_S524288x1x1_0_0_2) : (⟨S524288x1x4, .f32⟩ : BufTy).Contents (Elt F) → (⟨S524288x1x1, .f32⟩ : BufTy).Contents (Elt F)),
    StableHlo.reshape main_v189 main_v190 rfl shapeCasts_S524288x1x1_S524288x1,
    StableHlo.unary main_v153 main_v191 ((extractStridedSlice S524288x1x1 ![0, 0, 0] · slices_S524288x1x4_S524288x1x1_0_0_0) : (⟨S524288x1x4, .f32⟩ : BufTy).Contents (Elt F) → (⟨S524288x1x1, .f32⟩ : BufTy).Contents (Elt F)),
    StableHlo.reshape main_v191 main_v192 rfl shapeCasts_S524288x1x1_S524288x1,
    StableHlo.binary main_v190 main_v192 main_v193 (subf : (⟨S524288x1, .f32⟩ : BufTy).Contents (Elt F) → (⟨S524288x1, .f32⟩ : BufTy).Contents (Elt F) → (⟨S524288x1, .f32⟩ : BufTy).Contents (Elt F)),
    StableHlo.unary main_v153 main_v194 ((extractStridedSlice S524288x1x1 ![0, 0, 3] · slices_S524288x1x4_S524288x1x1_0_0_3) : (⟨S524288x1x4, .f32⟩ : BufTy).Contents (Elt F) → (⟨S524288x1x1, .f32⟩ : BufTy).Contents (Elt F)),
    StableHlo.reshape main_v194 main_v195 rfl shapeCasts_S524288x1x1_S524288x1,
    StableHlo.unary main_v153 main_v196 ((extractStridedSlice S524288x1x1 ![0, 0, 1] · slices_S524288x1x4_S524288x1x1_0_0_1) : (⟨S524288x1x4, .f32⟩ : BufTy).Contents (Elt F) → (⟨S524288x1x1, .f32⟩ : BufTy).Contents (Elt F)),
    StableHlo.reshape main_v196 main_v197 rfl shapeCasts_S524288x1x1_S524288x1,
    StableHlo.binary main_v195 main_v197 main_v198 (subf : (⟨S524288x1, .f32⟩ : BufTy).Contents (Elt F) → (⟨S524288x1, .f32⟩ : BufTy).Contents (Elt F) → (⟨S524288x1, .f32⟩ : BufTy).Contents (Elt F)),
    StableHlo.binary main_v193 main_v198 main_v199 (mulf : (⟨S524288x1, .f32⟩ : BufTy).Contents (Elt F) → (⟨S524288x1, .f32⟩ : BufTy).Contents (Elt F) → (⟨S524288x1, .f32⟩ : BufTy).Contents (Elt F)),
    StableHlo.unary main_v152 main_v200 ((extractStridedSlice S1x64x1 ![0, 0, 2] · slices_S1x64x4_S1x64x1_0_0_2) : (⟨S1x64x4, .f32⟩ : BufTy).Contents (Elt F) → (⟨S1x64x1, .f32⟩ : BufTy).Contents (Elt F)),
    StableHlo.reshape main_v200 main_v201 rfl shapeCasts_S1x64x1_S1x64,
    StableHlo.unary main_v152 main_v202 ((extractStridedSlice S1x64x1 ![0, 0, 0] · slices_S1x64x4_S1x64x1_0_0_0) : (⟨S1x64x4, .f32⟩ : BufTy).Contents (Elt F) → (⟨S1x64x1, .f32⟩ : BufTy).Contents (Elt F)),
    StableHlo.reshape main_v202 main_v203 rfl shapeCasts_S1x64x1_S1x64,
    StableHlo.binary main_v201 main_v203 main_v204 (subf : (⟨S1x64, .f32⟩ : BufTy).Contents (Elt F) → (⟨S1x64, .f32⟩ : BufTy).Contents (Elt F) → (⟨S1x64, .f32⟩ : BufTy).Contents (Elt F)),
    StableHlo.unary main_v152 main_v205 ((extractStridedSlice S1x64x1 ![0, 0, 3] · slices_S1x64x4_S1x64x1_0_0_3) : (⟨S1x64x4, .f32⟩ : BufTy).Contents (Elt F) → (⟨S1x64x1, .f32⟩ : BufTy).Contents (Elt F)),
    StableHlo.reshape main_v205 main_v206 rfl shapeCasts_S1x64x1_S1x64,
    StableHlo.unary main_v152 main_v207 ((extractStridedSlice S1x64x1 ![0, 0, 1] · slices_S1x64x4_S1x64x1_0_0_1) : (⟨S1x64x4, .f32⟩ : BufTy).Contents (Elt F) → (⟨S1x64x1, .f32⟩ : BufTy).Contents (Elt F)),
    StableHlo.reshape main_v207 main_v208 rfl shapeCasts_S1x64x1_S1x64,
    StableHlo.binary main_v206 main_v208 main_v209 (subf : (⟨S1x64, .f32⟩ : BufTy).Contents (Elt F) → (⟨S1x64, .f32⟩ : BufTy).Contents (Elt F) → (⟨S1x64, .f32⟩ : BufTy).Contents (Elt F)),
    StableHlo.binary main_v204 main_v209 main_v210 (mulf : (⟨S1x64, .f32⟩ : BufTy).Contents (Elt F) → (⟨S1x64, .f32⟩ : BufTy).Contents (Elt F) → (⟨S1x64, .f32⟩ : BufTy).Contents (Elt F)),
    StableHlo.unary main_v199 main_v211 (broadcastInDim S524288x64 ![0, 1] bcast_S524288x1_S524288x64_0_1 : (⟨S524288x1, .f32⟩ : BufTy).Contents (Elt F) → (⟨S524288x64, .f32⟩ : BufTy).Contents (Elt F)),
    StableHlo.unary main_v210 main_v212 (broadcastInDim S524288x64 ![0, 1] bcast_S1x64_S524288x64_0_1 : (⟨S1x64, .f32⟩ : BufTy).Contents (Elt F) → (⟨S524288x64, .f32⟩ : BufTy).Contents (Elt F)),
    StableHlo.binary main_v211 main_v212 main_v213 (addf : (⟨S524288x64, .f32⟩ : BufTy).Contents (Elt F) → (⟨S524288x64, .f32⟩ : BufTy).Contents (Elt F) → (⟨S524288x64, .f32⟩ : BufTy).Contents (Elt F)),
    StableHlo.binary main_v213 main_v188 main_v214 (subf : (⟨S524288x64, .f32⟩ : BufTy).Contents (Elt F) → (⟨S524288x64, .f32⟩ : BufTy).Contents (Elt F) → (⟨S524288x64, .f32⟩ : BufTy).Contents (Elt F)) ]

/-- The host function's operations 241 … 251 of 251 (the window `main_part4`), in order. -/
abbrev ops_part4 : List (HloOp τ sig (Elt F)) :=
  [ StableHlo.binary main_v188 main_v214 main_v215 (Host.divf : (⟨S524288x64, .f32⟩ : BufTy).Contents (Elt F) → (⟨S524288x64, .f32⟩ : BufTy).Contents (Elt F) → (⟨S524288x64, .f32⟩ : BufTy).Contents (Elt F)),
    StableHlo.nullary main_cst_23 (constant S_ .f32 0x3F800000#32),
    StableHlo.unary main_cst_23 main_v216 (broadcastInDim S524288 ![] bcast_S_S524288 : (⟨S_, .f32⟩ : BufTy).Contents (Elt F) → (⟨S524288, .f32⟩ : BufTy).Contents (Elt F)),
    StableHlo.binary main_v216 main_v7 main_v217 (subf : (⟨S524288, .f32⟩ : BufTy).Contents (Elt F) → (⟨S524288, .f32⟩ : BufTy).Contents (Elt F) → (⟨S524288, .f32⟩ : BufTy).Contents (Elt F)),
    StableHlo.unary main_v217 main_v218 (Host.log : (⟨S524288, .f32⟩ : BufTy).Contents (Elt F) → (⟨S524288, .f32⟩ : BufTy).Contents (Elt F)),
    StableHlo.binary main_v43 main_v218 main_v219 (mulf : (⟨S524288, .f32⟩ : BufTy).Contents (Elt F) → (⟨S524288, .f32⟩ : BufTy).Contents (Elt F) → (⟨S524288, .f32⟩ : BufTy).Contents (Elt F)),
    StableHlo.nullary main_cst_24 (constant S_ .f32 0x00000000#32),
    StableHlo.binary main_v215 main_cst_24 main_v220 ((fun x v => Host.reduceAdd x v reducesTo_S524288x64_S524288_d1 h_S_) : (⟨S524288x64, .f32⟩ : BufTy).Contents (Elt F) → (⟨S_, .f32⟩ : BufTy).Contents (Elt F) → (⟨S524288, .f32⟩ : BufTy).Contents (Elt F)),
    StableHlo.binary main_v219 main_v220 main_v221 (mulf : (⟨S524288, .f32⟩ : BufTy).Contents (Elt F) → (⟨S524288, .f32⟩ : BufTy).Contents (Elt F) → (⟨S524288, .f32⟩ : BufTy).Contents (Elt F)),
    StableHlo.nullary main_cst_25 (constant S_ .f32 0x00000000#32),
    StableHlo.binary main_v221 main_cst_25 main_v222 ((fun x v => Host.reduceAdd x v reducesTo_S524288_S_d0 h_S_) : (⟨S524288, .f32⟩ : BufTy).Contents (Elt F) → (⟨S_, .f32⟩ : BufTy).Contents (Elt F) → (⟨S_, .f32⟩ : BufTy).Contents (Elt F)) ]

/-- The host function's 251 operations, in order. -/
abbrev ops : List (HloOp τ sig (Elt F)) :=
  ops_part0 ++ (ops_part1 ++ (ops_part2 ++ (ops_part3 ++ (ops_part4))))

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
/-- The host function is the straight line of its operations. -/
theorem main_eq (c : Dev nD) : main (F := F) c = seq ops := by
  simp only [ops, seq_append, ← main_part0_eq c, ← main_part1_eq c, ← main_part2_eq c, ← main_part3_eq c, ← main_part4_eq c]
  rfl

/-- The signature scopes no buffer and no semaphore of the host's. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨nullary_bufs_sub .., nullary_bufs_sub .., nullary_bufs_sub .., unary_bufs_sub .., unary_bufs_sub .., unary_bufs_sub .., nullary_bufs_sub .., unary_bufs_sub .., binary_bufs_sub .., nullary_bufs_sub .., unary_bufs_sub .., binary_bufs_sub .., reshape_bufs_sub .., unary_bufs_sub .., reshape_bufs_sub .., reshape_bufs_sub .., unary_bufs_sub .., reshape_bufs_sub .., binary_bufs_sub .., unary_bufs_sub .., reshape_bufs_sub .., binary_bufs_sub .., binary_bufs_sub .., unary_bufs_sub .., unary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., unary_bufs_sub .., binary_bufs_sub .., unary_bufs_sub .., reshape_bufs_sub .., unary_bufs_sub .., reshape_bufs_sub .., binary_bufs_sub .., unary_bufs_sub .., nary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩
set_option maxRecDepth 8192 in
theorem ops_part1_sub : (ops_part1 : List (HloOp τ sig (Elt F))).Forall fun op => op.bufs ⊆ tcRefs τ sig :=
  ⟨unary_bufs_sub .., unary_bufs_sub .., unary_bufs_sub .., binary_bufs_sub .., unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., binary_bufs_sub .., unary_bufs_sub .., unary_bufs_sub .., unary_bufs_sub .., binary_bufs_sub .., nullary_bufs_sub .., unary_bufs_sub .., binary_bufs_sub .., binary_bufs_sub .., unary_bufs_sub .., unary_bufs_sub .., reshape_bufs_sub .., nullary_bufs_sub .., binary_bufs_sub .., unary_bufs_sub .., reshape_bufs_sub .., nullary_bufs_sub .., binary_bufs_sub .., unary_bufs_sub .., reshape_bufs_sub .., nullary_bufs_sub .., binary_bufs_sub .., unary_bufs_sub .., reshape_bufs_sub .., nullary_bufs_sub .., binary_bufs_sub .., unary_bufs_sub .., unary_bufs_sub .., unary_bufs_sub .., unary_bufs_sub .., nary_bufs_sub .., nullary_bufs_sub .., unary_bufs_sub .., binary_bufs_sub .., nullary_bufs_sub .., unary_bufs_sub ..⟩
set_option maxRecDepth 8192 in
theorem ops_part2_sub : (ops_part2 : List (HloOp τ sig (Elt F))).Forall fun op => op.bufs ⊆ tcRefs τ sig :=
  ⟨binary_bufs_sub .., ternary_bufs_sub .., unary_bufs_sub .., binary_bufs_sub .., unary_bufs_sub .., unary_bufs_sub .., unary_bufs_sub .., unary_bufs_sub .., binary_bufs_sub .., unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., binary_bufs_sub .., unary_bufs_sub .., unary_bufs_sub .., unary_bufs_sub .., binary_bufs_sub .., unary_bufs_sub .., reshape_bufs_sub .., nullary_bufs_sub .., binary_bufs_sub .., unary_bufs_sub .., reshape_bufs_sub .., nullary_bufs_sub .., binary_bufs_sub .., unary_bufs_sub .., reshape_bufs_sub .., nullary_bufs_sub .., binary_bufs_sub .., unary_bufs_sub .., reshape_bufs_sub .., nullary_bufs_sub .., binary_bufs_sub .., unary_bufs_sub .., unary_bufs_sub .., unary_bufs_sub .., unary_bufs_sub .., nary_bufs_sub .., unary_bufs_sub .., unary_bufs_sub .., unary_bufs_sub .., reshape_bufs_sub .., unary_bufs_sub ..⟩
set_option maxRecDepth 8192 in
theorem ops_part3_sub : (ops_part3 : List (HloOp τ sig (Elt F))).Forall fun op => op.bufs ⊆ tcRefs τ sig :=
  ⟨reshape_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., binary_bufs_sub .., binary_bufs_sub ..⟩
set_option maxRecDepth 8192 in
theorem ops_part4_sub : (ops_part4 : List (HloOp τ sig (Elt F))).Forall fun op => op.bufs ⊆ tcRefs τ sig :=
  ⟨binary_bufs_sub .., nullary_bufs_sub .., unary_bufs_sub .., binary_bufs_sub .., unary_bufs_sub .., binary_bufs_sub .., nullary_bufs_sub .., binary_bufs_sub .., binary_bufs_sub .., nullary_bufs_sub .., binary_bufs_sub ..⟩
/-- Every operation touches the host's buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h]

/-! ## The buffers the operations write

Each operation writes exactly one buffer, its result. Listing the results window by window, a buffer outside all five
lists is written by no operation, so the fold over the whole line leaves it at its launch contents. -/

/-- The buffers the operations of window 0 write. -/
abbrev ops_part0_W : List (Ref sig .tc) := [main_c, main_cst, main_c_0, main_v0, main_v1, main_v2, main_cst_1, main_v3, main_v4, main_cst_2, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_cst_3, main_v41, main_v42, main_v43, main_c_4, main_v44, main_v45, main_c_5, main_v46, main_v47, main_v48, main_v49, main_v50, main_v51]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide)⟩

/-- The buffers the operations of window 1 write. -/
abbrev ops_part1_W : List (Ref sig .tc) := [main_v52, main_v53, main_v54, main_v55, main_v56, main_v57, main_v58, main_v59, main_cst_6, main_v60, main_cst_7, main_v61, main_v62, main_v63, main_v64, main_v65, main_v66, main_v67, main_v68, main_v69, main_v70, main_v71, main_v72, main_v73, main_v74, main_v75, main_v76, main_v77, main_v78, main_cst_8, main_v79, main_v80, main_v81, main_v82, main_v83, main_v84, main_cst_9, main_v85, main_v86, main_v87, main_cst_10, main_v88, main_v89, main_v90, main_cst_11, main_v91, main_v92, main_v93, main_cst_12, main_v94, main_v95, main_v96, main_v97, main_v98, main_v99, main_c_13, main_v100, main_v101, main_c_14, main_v102]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide)⟩

/-- The buffers the operations of window 2 write. -/
abbrev ops_part2_W : List (Ref sig .tc) := [main_v103, main_v104, main_v105, main_v106, main_v107, main_v108, main_v109, main_v110, main_v111, main_v112, main_v113, main_v114, main_v115, main_cst_15, main_v116, main_cst_16, main_v117, main_v118, main_v119, main_v120, main_v121, main_v122, main_v123, main_v124, main_v125, main_v126, main_v127, main_v128, main_v129, main_v130, main_v131, main_v132, main_v133, main_v134, main_v135, main_v136, main_cst_17, main_v137, main_v138, main_v139, main_cst_18, main_v140, main_v141, main_v142, main_cst_19, main_v143, main_v144, main_v145, main_cst_20, main_v146, main_v147, main_v148, main_v149, main_v150, main_v151, main_v152, main_v153, main_v154, main_v155, main_v156]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide)⟩

/-- The buffers the operations of window 3 write. -/
abbrev ops_part3_W : List (Ref sig .tc) := [main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_cst_21, main_v183, main_v184, main_v185, main_cst_22, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide)⟩

/-- The buffers the operations of window 4 write. -/
abbrev ops_part4_W : List (Ref sig .tc) := [main_v215, main_cst_23, main_v216, main_v217, main_v218, main_v219, main_cst_24, main_v220, main_v221, main_cst_25, main_v222]
set_option maxRecDepth 8192 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide)⟩

/-- A buffer that no window writes keeps its contents through the whole line. -/
theorem after_ops_keep (V : Valuation τ sig (Elt F)) (r : Ref sig .tc) (h0 : r ∉ ops_part0_W) (h1 : r ∉ ops_part1_W) (h2 : r ∉ ops_part2_W) (h3 : r ∉ ops_part3_W) (h4 : r ∉ ops_part4_W) :
    after ops V (Proc.devRef .tc r) = V (Proc.devRef .tc r) := by
  simp only [ops, after_append]
  rw [after_of_writes_sub ops_part4 _ ops_part4_writes h4,
    after_of_writes_sub ops_part3 _ ops_part3_writes h3,
    after_of_writes_sub ops_part2 _ ops_part2_writes h2,
    after_of_writes_sub ops_part1 _ ops_part1_writes h1,
    after_of_writes_sub ops_part0 _ ops_part0_writes h0]

/-- every weakly fair execution of the reference terminates; its result buffer holds the fold of the 251 operations over the launch contents, and the five argument arrays end unchanged -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v222) = after ops (launchContents m c) (Proc.devRef .tc main_v222)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h c main_v222,
      (h c main_arg0).trans (after_ops_keep (launchContents m c) main_arg0 (by decide) (by decide) (by decide) (by decide) (by decide)),
      (h c main_arg1).trans (after_ops_keep (launchContents m c) main_arg1 (by decide) (by decide) (by decide) (by decide) (by decide)),
      (h c main_arg2).trans (after_ops_keep (launchContents m c) main_arg2 (by decide) (by decide) (by decide) (by decide) (by decide)),
      (h c main_arg3).trans (after_ops_keep (launchContents m c) main_arg3 (by decide) (by decide) (by decide) (by decide) (by decide)),
      (h c main_arg4).trans (after_ops_keep (launchContents m c) main_arg4 (by decide) (by decide) (by decide) (by decide) (by decide))⟩)
    (run_seq scopedRefs_eq scopedSems_eq defs main (fun _ => ops) main_eq (fun _ => ops_sub) m ρ)

/-- the reference leaves its five argument arrays as they were -/
theorem frame_ri : Cert.frame_ReferenceIdeal := fun m ρ _ => (θ_run Cert.ReferenceIdeal.defs _ _).mono (fun _ h c => (h c).2) (Cert.ReferenceIdeal.RefRun.run (F := Ideal) m ρ)

end Cert.ReferenceIdeal.RefRun

end
-- ==== Proof.KAcc.lean ====
/-
  The accumulation over the eight grid points, read as numbers. Given what ONE grid point adds to the accumulator
  cell as a function `pt` of its five input blocks (hypotheses `hA`, `hB`, `hC`, `hOut` say so for the first, a
  middle and the last point, and that the last point copies the cell into the output cell), the accumulator after
  point `n` is the ordered running sum  ((z + pt₀) + pt₁) + … + ptₙ ; the output cell's block is written back once,
  after the last point, and is the whole one-cell array; and the program's scalar is the host's final sum of that
  array from zero.
-/
import proofs.«157336_j6562710028353_2_alg».proof.Proof.FrameKI.Frame
import Idealize.ShloMosaic.Lib.Pipeline.Value
import Idealize.ShloMosaic.Lib.ValueIdx
import Idealize.ShloMosaic.PureOps.Ideal.Laws

set_option maxRecDepth 16384

noncomputable section

namespace Cert.KernelIdeal.KAcc

open Cert.KernelIdeal Cert.KernelIdeal.Gen Cert.KernelIdeal.Hand
open Idealize.ShloMosaic Idealize.ShloMosaic.TcCoe Idealize.SL.Sem ValueIdx
open Idealize.ShloMosaic.Pipeline (Dat)

variable (m : (ℓ : Loc nD τ sig) → Buf (Elt Ideal) ℓ) (ρ : Dev nD → PrngReg)

-- what one grid point adds, as a function of its five input blocks; and the zero the first point starts from
variable (pt : Vec Ideal S1x2x64x512 .f32 → Vec Ideal S1x14x64x512 .f32 → Vec Ideal S2x7x64x512 .f32 → Vec Ideal S4x4 .f32 → Vec Ideal S64x4 .f32 → EReal)
  (z : EReal)

/-- The point's total at grid point `t`, over the blocks the windows hold there. -/
def ptAt (c : Dev nD) (t : Fin cfg0.N) : EReal :=
  pt (iblk m c 0 t) (iblk m c 1 t) (iblk m c 2 t) (iblk m c 3 t) (iblk m c 4 t)

/-- The ordered running sum after point `n`. -/
def accAt (c : Dev nD) : (n : ℕ) → n < cfg0.N → EReal
  | 0, h => z + ptAt m pt c ⟨0, h⟩
  | n + 1, h => accAt c n (Nat.lt_of_succ_lt h) + ptAt m pt c ⟨n + 1, h⟩

section
variable
  (hA : ∀ (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 : Vec Ideal S1x2x64x512 .f32) (x1 : Vec Ideal S1x14x64x512 .f32) (x2 : Vec Ideal S2x7x64x512 .f32) (x3 : Vec Ideal S4x4 .f32) (x4 : Vec Ideal S64x4 .f32),
    sout0_A_0 (F := Ideal) c i arg1 harg1 arg2 harg2 arg3 harg3 arg4 harg4 arg5 harg5 arg6 harg6 arg7 harg7 hc0 hc1 x0 x1 x2 x3 x4 = fun _ => z + pt x0 x1 x2 x3 x4)
  (hB : ∀ (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 : Vec Ideal S1x2x64x512 .f32) (x1 : Vec Ideal S1x14x64x512 .f32) (x2 : Vec Ideal S2x7x64x512 .f32) (x3 : Vec Ideal S4x4 .f32) (x4 : Vec Ideal S64x4 .f32) (xs0 : Vec Ideal S1x1 .f32),
    sout0_B_0 (F := Ideal) c i arg1 harg1 arg2 harg2 arg3 harg3 arg4 harg4 arg5 harg5 arg6 harg6 arg7 harg7 hc0 hc1 x0 x1 x2 x3 x4 xs0 = fun _ => xs0 (ix2 0 0) + pt x0 x1 x2 x3 x4)
  (hC : ∀ (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 : Vec Ideal S1x2x64x512 .f32) (x1 : Vec Ideal S1x14x64x512 .f32) (x2 : Vec Ideal S2x7x64x512 .f32) (x3 : Vec Ideal S4x4 .f32) (x4 : Vec Ideal S64x4 .f32) (xs0 : Vec Ideal S1x1 .f32),
    sout0_C_0 (F := Ideal) c i arg1 harg1 arg2 harg2 arg3 harg3 arg4 harg4 arg5 harg5 arg6 harg6 arg7 harg7 hc0 hc1 x0 x1 x2 x3 x4 xs0 = fun _ => xs0 (ix2 0 0) + pt x0 x1 x2 x3 x4)
  (hOut : ∀ (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 : Vec Ideal S1x2x64x512 .f32) (x1 : Vec Ideal S1x14x64x512 .f32) (x2 : Vec Ideal S2x7x64x512 .f32) (x3 : Vec Ideal S4x4 .f32) (x4 : Vec Ideal S64x4 .f32) (xs0 : Vec Ideal S1x1 .f32),
    out0_C_5 (F := Ideal) c i arg1 harg1 arg2 harg2 arg3 harg3 arg4 harg4 arg5 harg5 arg6 harg6 arg7 harg7 hc0 hc1 x0 x1 x2 x3 x4 xs0 = sout0_C_0 (F := Ideal) c i arg1 harg1 arg2 harg2 arg3 harg3 arg4 harg4 arg5 harg5 arg6 harg6 arg7 harg7 hc0 hc1 x0 x1 x2 x3 x4 xs0)

include hA hB hC in
/-- The accumulator cell after point `n` holds the running sum — by induction on the point. -/
theorem outsAt_snd (c : Dev nD) : ∀ (n : ℕ) (h : n < cfg0.N), (outsAt0 m c n h).2 = fun _ => accAt m pt z c n h
  | 0, h => by
    rw [outsAt0_A m c ⟨0, h⟩ rfl (by show ¬ (0 : ℕ) % 8 = 7; decide)]
    dsimp only
    rw [hA]
    rfl
  | n + 1, h => by
    have hN : cfg0.N = 8 := N_0
    have h0 : ¬(⟨n + 1, h⟩ : Fin cfg0.N).val % 8 = 0 := by dsimp only; omega
    by_cases h7 : (⟨n + 1, h⟩ : Fin cfg0.N).val % 8 = 7
    · rw [outsAt0_C m c ⟨n + 1, h⟩ h0 h7]
      dsimp only
      rw [hC]
      show (fun _ => (outsAt0 m c n _).2 (ix2 0 0) + _) = _
      rw [outsAt_snd c n]
      rfl
    · rw [outsAt0_B m c ⟨n + 1, h⟩ h0 h7]
      dsimp only
      rw [hB]
      show (fun _ => (outsAt0 m c n _).2 (ix2 0 0) + _) = _
      rw [outsAt_snd c n]
      rfl

include hA hB hC hOut in
/-- After the last point the output cell's staging buffer holds the same running sum. -/
theorem outsAt_fst_last (c : Dev nD) (h : 7 < cfg0.N) : (outsAt0 m c 7 h).1 = fun _ => accAt m pt z c 7 h := by
  have e := outsAt_snd m pt z hA hB hC c 7 h
  rw [outsAt0_C m c ⟨7, h⟩ (by show ¬ (7 : ℕ) % 8 = 0; decide) (by show (7 : ℕ) % 8 = 7; rfl)] at e ⊢
  dsimp only at e ⊢
  rw [hOut]
  exact e

/-- The output array (one cell) as the run leaves it: the running sum after the last point. -/
def result (c : Dev nD) : Buf (Elt Ideal) ((c : Thread nD τ).loc main_v53) :=
  fun _ => accAt m pt z c 7 (by rw [show cfg0.N = 8 from N_0]; decide)

include hA hB hC hOut in
/-- The one write-back, after the last point, writes the running sum: the one-cell block is the whole array. -/
theorem flushed_eq (c : Dev nD) (t : Fin cfg0.N) (hf : (cfg0.win 5).flush t = true) :
    (dats m 0 c).flushed 5 t = ((cfg0.win 5).blk t).view.read (Elt Ideal) (result m pt z c) := by
  have hN : cfg0.N = 8 := N_0
  have h7 : t.val = 7 := by have := (flush0_5 t).mp hf; have := t.isLt; omega
  obtain rfl : t = t0_7 := Fin.ext h7
  show (cfg0.win 5).cut (grid0.coords t0_7) ((dats m 0 c).after 5 t0_7) = _
  rw [after0_5]
  show (cfg0.win 5).cut (grid0.coords t0_7) (outsAt0 m c 7 _).1 = _
  refine (congrArg ((cfg0.win 5).cut (grid0.coords t0_7)) (outsAt_fst_last m pt z hA hB hC hOut c _)).trans ?_
  have hz' : (fun a => win0_5.index t0_7 a * main_v53.ty.shape.size a) = fun _ => 0 := funext fun a => by fin_cases a <;> decide
  exact (Memref.read_access_unit_zero (Elt Ideal) main_v53 hz' (fun a => by rw [congrFun hz' a]; simp) (result m pt z c)).symm

include hA hB hC hOut in
/-- So the output array ends holding the running sum after the last point. -/
theorem final5 (c : Dev nD) : (dats m 0 c).arrAt 5 cfg0.N = result m pt z c :=
  (dats m 0 c).arrAt_eq_of_cover 5 (result m pt z c) (flushed_eq m pt z hA hB hC hOut c) fun i =>
    ⟨t0_7, (flush0_5 t0_7).mpr rfl, by
      show i ∈ ((View.whole main_v53).slice (win0_5.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_5.index t0_7 0 * win0_5.size 0 ≤ (i 0 : Nat) ∧ (i 0 : Nat) < win0_5.index t0_7 0 * win0_5.size 0 + win0_5.xsize (grid0.coords t0_7) 0
                  rw [show win0_5.index t0_7 0 * win0_5.size 0 = 0 from by decide +kernel, show win0_5.xsize (grid0.coords t0_7) 0 = 1 from by decide +kernel]; omega
      | ⟨1, _⟩ => show win0_5.index t0_7 1 * win0_5.size 1 ≤ (i 1 : Nat) ∧ (i 1 : Nat) < win0_5.index t0_7 1 * win0_5.size 1 + win0_5.xsize (grid0.coords t0_7) 1
                  rw [show win0_5.index t0_7 1 * win0_5.size 1 = 0 from by decide +kernel, show win0_5.xsize (grid0.coords t0_7) 1 = 1 from by decide +kernel]; omega⟩

include hA hB hC hOut in
/-- The program's scalar: the host's final sum, from zero, of the one-cell output array. -/
theorem tail_eq (c : Dev nD) :
    Pipeline.afterTail₀ cfgs (dats m) 0 (V0 m) [hostOps1] c main_v54
      = fun _ => accAt m pt z c 7 (by rw [show cfg0.N = 8 from N_0]; decide) := by
  unfold Pipeline.afterTail₀
  show StableHlo.after hostOps1 _ (Proc.devRef .tc main_v54) = _
  after_results
  have e : Pipeline.withArrays (cfgs 0).spec c (V0 m c) (fun w => (dats m 0 c).arrAt w (cfgs 0).N) (Proc.devRef .tc main_v53)
      = result m pt z c :=
    (Pipeline.withArrays_arr spec0 launch0.win.arr_inj c _ _ 5).trans (final5 m pt z hA hB hC hOut c)
  rw [e]
  funext j
  show Ideal.hostReduceAdd reducesTo_S1x1_S_d0_1 (result m pt z c) (Ideal.ofBits .f32 0x00000000#32) j = _
  rw [Ideal.hostReduceAdd_total _ (fun b => b.elim0), Ideal.ofBits_zero_f32, zero_add, sum_idx2, Fin.sum_univ_one, Fin.sum_univ_one]
  rfl

end

end Cert.KernelIdeal.KAcc

end
-- ==== Proof.LibNary.lean ====
/-
  A host operation with a literal family of operands (a concatenation of nine, or of two, pieces): its result
  with each operand's contents read AT ITS OWN REFERENCE, so that a fold over a list of operations can go on rewriting
  the operands' contents (the library states this form for four operands; these are the same statement at nine and two).
-/
import Idealize.ShloMosaic.Lib.StableHlo.Run

noncomputable section

namespace Cert.LibNary

open Idealize.ShloMosaic Idealize.ShloMosaic.StableHlo

variable {τ : Topo} {sig : RefSig} {Val : EltTy → Type}
variable {x0 x1 x2 x3 x4 x5 x6 x7 x8 y : Ref sig .tc}

/-- Nine operands. -/
theorem nary9_result
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result]; congr 1; funext k; fin_cases k <;> rfl

theorem nary9_result'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) :=
  nary9_result f hxs hy F

/-- Two operands. -/
theorem nary2_result
    (f : ((k : Fin 2) → ((![x0, x1] : Fin 2 → Ref sig .tc) k).ty.Contents Val) → y.ty.Contents Val) (hxs hy)
    (F : Valuation τ sig Val) :
    (nary (τ := τ) ![x0, x1] y f hxs hy).result F (Proc.devRef .tc y)
      = f (Fin.cons (F (Proc.devRef .tc x0)) (Fin.cons (F (Proc.devRef .tc x1)) (fun i => i.elim0))) := by
  rw [nary_result]; congr 1; funext k; fin_cases k <;> rfl

theorem nary2_result'
    (f : ((k : Fin 2) → ((![x0, x1] : Fin 2 → Ref sig .tc) k).ty.Contents Val) → y.ty.Contents Val) (hxs hy)
    (F : Valuation τ sig Val) :
    (nary (τ := τ) ![x0, x1] y f hxs hy).result F (no_index (Proc.devRef .tc y))
      = f (Fin.cons (F (Proc.devRef .tc x0)) (Fin.cons (F (Proc.devRef .tc x1)) (fun i => i.elim0))) :=
  nary2_result f hxs hy F

/-- The function of a 2-operand operation applied to its operands' contents as plain arguments. -/
def napp2 (f : ((k : Fin 2) → ((![x0, x1] : Fin 2 → Ref sig .tc) k).ty.Contents Val) → y.ty.Contents Val) (a0 : x0.ty.Contents Val) (a1 : x1.ty.Contents Val) : y.ty.Contents Val :=
  f (Fin.cons a0 (Fin.cons a1 (fun i => i.elim0)))

theorem nary2_app (f : ((k : Fin 2) → ((![x0, x1] : Fin 2 → Ref sig .tc) k).ty.Contents Val) → y.ty.Contents Val) (hxs hy) (F : Valuation τ sig Val) :
    (nary (τ := τ) ![x0, x1] y f hxs hy).result F (no_index (Proc.devRef .tc y)) = napp2 f (F (Proc.devRef .tc x0)) (F (Proc.devRef .tc x1)) := by
  rw [nary_result]; unfold napp2; congr 1; funext k; fin_cases k <;> rfl

/-- The function of a 4-operand operation applied to its operands' contents as plain arguments. -/
def napp4 (f : ((k : Fin 4) → ((![x0, x1, x2, x3] : Fin 4 → Ref sig .tc) k).ty.Contents Val) → y.ty.Contents Val) (a0 : x0.ty.Contents Val) (a1 : x1.ty.Contents Val) (a2 : x2.ty.Contents Val) (a3 : x3.ty.Contents Val) : y.ty.Contents Val :=
  f (Fin.cons a0 (Fin.cons a1 (Fin.cons a2 (Fin.cons a3 (fun i => i.elim0)))))

theorem nary4_app (f : ((k : Fin 4) → ((![x0, x1, x2, x3] : Fin 4 → Ref sig .tc) k).ty.Contents Val) → y.ty.Contents Val) (hxs hy) (F : Valuation τ sig Val) :
    (nary (τ := τ) ![x0, x1, x2, x3] y f hxs hy).result F (no_index (Proc.devRef .tc y)) = napp4 f (F (Proc.devRef .tc x0)) (F (Proc.devRef .tc x1)) (F (Proc.devRef .tc x2)) (F (Proc.devRef .tc x3)) := by
  rw [nary_result]; unfold napp4; congr 1; funext k; fin_cases k <;> rfl

/-- The function of a 9-operand operation applied to its operands' contents as plain arguments. -/
def napp9 (f : ((k : Fin 9) → ((![x0, x1, x2, x3, x4, x5, x6, x7, x8] : Fin 9 → Ref sig .tc) k).ty.Contents Val) → y.ty.Contents Val) (a0 : x0.ty.Contents Val) (a1 : x1.ty.Contents Val) (a2 : x2.ty.Contents Val) (a3 : x3.ty.Contents Val) (a4 : x4.ty.Contents Val) (a5 : x5.ty.Contents Val) (a6 : x6.ty.Contents Val) (a7 : x7.ty.Contents Val) (a8 : x8.ty.Contents Val) : y.ty.Contents Val :=
  f (Fin.cons a0 (Fin.cons a1 (Fin.cons a2 (Fin.cons a3 (Fin.cons a4 (Fin.cons a5 (Fin.cons a6 (Fin.cons a7 (Fin.cons a8 (fun i => i.elim0))))))))))

theorem nary9_app (f : ((k : Fin 9) → ((![x0, x1, x2, x3, x4, x5, x6, x7, x8] : Fin 9 → Ref sig .tc) k).ty.Contents Val) → y.ty.Contents Val) (hxs hy) (F : Valuation τ sig Val) :
    (nary (τ := τ) ![x0, x1, x2, x3, x4, x5, x6, x7, x8] y f hxs hy).result F (no_index (Proc.devRef .tc y)) = napp9 f (F (Proc.devRef .tc x0)) (F (Proc.devRef .tc x1)) (F (Proc.devRef .tc x2)) (F (Proc.devRef .tc x3)) (F (Proc.devRef .tc x4)) (F (Proc.devRef .tc x5)) (F (Proc.devRef .tc x6)) (F (Proc.devRef .tc x7)) (F (Proc.devRef .tc x8)) := by
  rw [nary_result]; unfold napp9; congr 1; funext k; fin_cases k <;> rfl

end Cert.LibNary

/-- The fold of a list of host operations read at one buffer, in one rewriting pass, the families of nine and of two
    operands included. -/
macro "after_results_fam" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Cert.LibNary.nary9_result', Cert.LibNary.nary2_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same with the families' operands as plain arguments (`napp2`, `napp4`, `napp9`): the one pass then goes on
    reading each operand's contents, which it cannot do inside a dependent family. -/
macro "after_results_lit" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary.nary2_app, Cert.LibNary.nary4_app, Cert.LibNary.nary9_app,
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

end
-- ==== Proof.KBlk.lean ====
/-
  The windows' blocks read at an index: at grid point t the score, delta and anchor windows hold rows 64 t … 64 t + 63
  of their arrays (all lanes, all channels), the matrix and target-hull windows hold their whole arrays.
-/
import proofs.«157336_j6562710028353_2_alg».proof.Proof.FrameKI.Frame
import Idealize.ShloMosaic.Lib.Pipeline.Value
import Idealize.ShloMosaic.Lib.ValueIdx
import proofs.«157336_j6562710028353_2_alg».proof.Proof.LibNary

set_option maxRecDepth 16384

noncomputable section

namespace Cert.KernelIdeal.KBlk

open Cert.KernelIdeal Cert.KernelIdeal.Gen Cert.KernelIdeal.Hand
open Idealize.ShloMosaic Idealize.ShloMosaic.TcCoe Idealize.SL.Sem ValueIdx

variable {F : FTy → Type} [FloatOps F]
variable (m : (ℓ : Loc nD τ sig) → Buf (Elt F) ℓ)

/-- Row `64 t + r` of the 512. -/
def row (t : Fin cfg0.N) (r : Fin 64) : Fin 512 :=
  ⟨64 * t.val + r.val, by have := t.isLt; have hN : cfg0.N = 8 := N_0; have := r.isLt; omega⟩

theorem blk0 (c : Dev nD) (t : Fin cfg0.N) (g : Fin 2) (r : Fin 64) (l : Fin 512) :
    (iblk m c 0 t : Vec F S1x2x64x512 .f32) (ix4 0 g r l)
      = m ((c : Thread nD τ).loc main_arg0) (ix4 0 g (row t r) l) := by
  have hi : win0_0.index t 0 = 0 ∧ win0_0.index t 1 = 0 ∧ win0_0.index t 2 = t.val ∧ win0_0.index t 3 = 0 := by
    rcases fin_N0 t with rfl | rfl | rfl | rfl | rfl | rfl | rfl | rfl <;> decide
  unfold iblk
  rw [View.read_apply]
  refine (congrFun (V_main_arg0 m c) _).trans ?_
  refine congrArg _ (funext fun a => Fin.ext ?_)
  match a with
  | ⟨0, _⟩ => show win0_0.index t 0 * 1 + 1 * 0 = 0; rw [hi.1]
  | ⟨1, _⟩ => show win0_0.index t 1 * 2 + 1 * g.val = g.val; rw [hi.2.1]; omega
  | ⟨2, _⟩ => show win0_0.index t 2 * 64 + 1 * r.val = 64 * t.val + r.val; rw [hi.2.2.1]; omega
  | ⟨3, _⟩ => show win0_0.index t 3 * 512 + 1 * l.val = l.val; rw [hi.2.2.2]; omega

theorem blk1 (c : Dev nD) (t : Fin cfg0.N) (ch : Fin 14) (r : Fin 64) (l : Fin 512) :
    (iblk m c 1 t : Vec F S1x14x64x512 .f32) (ix4 0 ch r l)
      = m ((c : Thread nD τ).loc main_arg1) (ix4 0 ch (row t r) l) := by
  have hi : win0_1.index t 0 = 0 ∧ win0_1.index t 1 = 0 ∧ win0_1.index t 2 = t.val ∧ win0_1.index t 3 = 0 := by
    rcases fin_N0 t with rfl | rfl | rfl | rfl | rfl | rfl | rfl | rfl <;> decide
  unfold iblk
  rw [View.read_apply]
  refine (congrFun (V_main_arg1 m c) _).trans ?_
  refine congrArg _ (funext fun a => Fin.ext ?_)
  match a with
  | ⟨0, _⟩ => show win0_1.index t 0 * 1 + 1 * 0 = 0; rw [hi.1]
  | ⟨1, _⟩ => show win0_1.index t 1 * 14 + 1 * ch.val = ch.val; rw [hi.2.1]; omega
  | ⟨2, _⟩ => show win0_1.index t 2 * 64 + 1 * r.val = 64 * t.val + r.val; rw [hi.2.2.1]; omega
  | ⟨3, _⟩ => show win0_1.index t 3 * 512 + 1 * l.val = l.val; rw [hi.2.2.2]; omega

/-- The anchor window's array is the host's re-laying of the anchor argument: channel and parameter first. -/
theorem blk2 (c : Dev nD) (t : Fin cfg0.N) (g : Fin 2) (q : Fin 7) (r : Fin 64) (l : Fin 512) :
    (iblk m c 2 t : Vec F S2x7x64x512 .f32) (ix4 g q r l)
      = V m c main_v52 (ix4 g q (row t r) l) := by
  have hi : win0_2.index t 0 = 0 ∧ win0_2.index t 1 = 0 ∧ win0_2.index t 2 = t.val ∧ win0_2.index t 3 = 0 := by
    rcases fin_N0 t with rfl | rfl | rfl | rfl | rfl | rfl | rfl | rfl <;> decide
  unfold iblk
  rw [View.read_apply]
  show V m c main_v52 _ = _
  refine congrArg _ (funext fun a => Fin.ext ?_)
  match a with
  | ⟨0, _⟩ => show win0_2.index t 0 * 2 + 1 * g.val = g.val; rw [hi.1]; omega
  | ⟨1, _⟩ => show win0_2.index t 1 * 7 + 1 * q.val = q.val; rw [hi.2.1]; omega
  | ⟨2, _⟩ => show win0_2.index t 2 * 64 + 1 * r.val = 64 * t.val + r.val; rw [hi.2.2.1]; omega
  | ⟨3, _⟩ => show win0_2.index t 3 * 512 + 1 * l.val = l.val; rw [hi.2.2.2]; omega

theorem blk3 (c : Dev nD) (t : Fin cfg0.N) (o cc : Fin 4) :
    (iblk m c 3 t : Vec F S4x4 .f32) (ix2 o cc) = m ((c : Thread nD τ).loc main_arg3) (ix2 o cc) := by
  have hi : win0_3.index t 0 = 0 ∧ win0_3.index t 1 = 0 := by
    rcases fin_N0 t with rfl | rfl | rfl | rfl | rfl | rfl | rfl | rfl <;> decide
  unfold iblk
  rw [View.read_apply]
  refine (congrFun (V_main_arg3 m c) _).trans ?_
  refine congrArg _ (funext fun a => Fin.ext ?_)
  match a with
  | ⟨0, _⟩ => show win0_3.index t 0 * 4 + 1 * o.val = o.val; rw [hi.1]; omega
  | ⟨1, _⟩ => show win0_3.index t 1 * 4 + 1 * cc.val = cc.val; rw [hi.2]; omega

/-- The target window's array is what the host lines before the region computed from the target argument. -/
theorem blk4 (c : Dev nD) (t : Fin cfg0.N) (j : Fin 64) (k : Fin 4) :
    (iblk m c 4 t : Vec F S64x4 .f32) (ix2 j k) = V m c main_v51 (ix2 j k) := by
  have hi : win0_4.index t 0 = 0 ∧ win0_4.index t 1 = 0 := by
    rcases fin_N0 t with rfl | rfl | rfl | rfl | rfl | rfl | rfl | rfl <;> decide
  unfold iblk
  rw [View.read_apply]
  show V m c main_v51 _ = _
  refine congrArg _ (funext fun a => Fin.ext ?_)
  match a with
  | ⟨0, _⟩ => show win0_4.index t 0 * 64 + 1 * j.val = j.val; rw [hi.1]; omega
  | ⟨1, _⟩ => show win0_4.index t 1 * 4 + 1 * k.val = k.val; rw [hi.2]; omega

/-- The re-laid anchors, read: entry (g, q, w, l) is the anchor argument's (w, l, g, q). -/
theorem v52_apply (c : Dev nD) (g : Fin 2) (q : Fin 7) (w l : Fin 512) :
    V m c main_v52 (ix4 g q w l) = m ((c : Thread nD τ).loc main_arg2) (ix4 w l g q) := by
  have e : (V m c main_v52 : S2x7x512x512.Idx → F .f32)
      = transpose S2x7x512x512 [2, 3, 0, 1] (m ((c : Thread nD τ).loc main_arg2)) transposes_S512x512x2x7_S2x7x512x512_2_3_0_1 := by
    show StableHlo.after (List.flatten [hostOps0]) (fun b => m (c, b)) (Proc.devRef .tc main_v52) = _
    simp only [List.flatten_cons, List.flatten_nil, List.append_nil]
    after_results_fam
  rw [e]
  refine transpose_apply _ _ _ _ _ (fun b => ?_)
  match b with
  | ⟨0, _⟩ => rfl
  | ⟨1, _⟩ => rfl
  | ⟨2, _⟩ => rfl
  | ⟨3, _⟩ => rfl

end Cert.KernelIdeal.KBlk

end
-- ==== Proof.KTot.lean ====
/-
  The kernel program's scalar as one sum over anchors. Given that a grid point adds, from its five blocks, the sum
  over its 64 × 512 tile and the two yaw channels of a per-anchor term `ck` of the tile's entries (hypothesis `hpt`),
  the running sum after the eight points is the sum over all 512 rows, 512 lanes and both channels of that term
  read off the argument arrays: the eight tiles' rows are the rows 64 t + r, each once.
-/
import proofs.«157336_j6562710028353_2_alg».proof.Proof.KAcc
import proofs.«157336_j6562710028353_2_alg».proof.Proof.KBlk

set_option maxRecDepth 16384

noncomputable section

namespace Cert.KernelIdeal.KTot

open Cert.KernelIdeal Cert.KernelIdeal.Gen Cert.KernelIdeal.Hand Cert.KernelIdeal.KAcc Cert.KernelIdeal.KBlk
open Idealize.ShloMosaic Idealize.ShloMosaic.TcCoe Idealize.SL.Sem ValueIdx

variable (m : (ℓ : Loc nD τ sig) → Buf (Elt Ideal) ℓ)
variable (pt : Vec Ideal S1x2x64x512 .f32 → Vec Ideal S1x14x64x512 .f32 → Vec Ideal S2x7x64x512 .f32 → Vec Ideal S4x4 .f32 → Vec Ideal S64x4 .f32 → EReal)
variable (ck : (Fin 4 → Fin 4 → EReal) → (Fin 64 → Fin 4 → EReal) → EReal → (Fin 7 → EReal) → (Fin 7 → EReal) → EReal)

theorem chan_lt (g : Fin 2) (q : Fin 7) : 7 * g.val + q.val < 14 := by have := g.isLt; have := q.isLt; omega

/-- One anchor's term read off the ARGUMENT arrays: cell (w, l), channel g. -/
def termAt (c : Dev nD) (w l : Fin 512) (g : Fin 2) : EReal :=
  ck (fun o cc => m ((c : Thread nD τ).loc main_arg3) (ix2 o cc)) (fun j k => V m c main_v51 (ix2 j k))
    (m ((c : Thread nD τ).loc main_arg0) (ix4 0 g w l))
    (fun q => m ((c : Thread nD τ).loc main_arg1) (ix4 0 ⟨7 * g.val + q.val, chan_lt g q⟩ w l))
    (fun q => m ((c : Thread nD τ).loc main_arg2) (ix4 w l g q))

section
variable
  (z0 : EReal) (hz0 : z0 = 0)
  (hpt : ∀ (x0 : Vec Ideal S1x2x64x512 .f32) (x1 : Vec Ideal S1x14x64x512 .f32) (x2 : Vec Ideal S2x7x64x512 .f32) (x3 : Vec Ideal S4x4 .f32) (x4 : Vec Ideal S64x4 .f32),
    pt x0 x1 x2 x3 x4
      = (z0 + ∑ r : Fin 64, ∑ l : Fin 512, ck (fun o cc => x3 (ix2 o cc)) (fun j k => x4 (ix2 j k)) (x0 (ix4 (0 : Fin 1) (0 : Fin 2) r l))
            (fun q => x1 (ix4 (0 : Fin 1) (⟨q.val, by have := q.isLt; omega⟩ : Fin 14) r l)) (fun q => x2 (ix4 (0 : Fin 2) q r l)))
        + ∑ r : Fin 64, ∑ l : Fin 512, ck (fun o cc => x3 (ix2 o cc)) (fun j k => x4 (ix2 j k)) (x0 (ix4 (0 : Fin 1) (1 : Fin 2) r l))
            (fun q => x1 (ix4 (0 : Fin 1) (⟨7 + q.val, by have := q.isLt; omega⟩ : Fin 14) r l)) (fun q => x2 (ix4 (1 : Fin 2) q r l)))

include hz0 hpt in
/-- A grid point's total is the sum of the per-anchor terms of its 64 rows. -/
theorem ptAt_eq (c : Dev nD) (t : Fin cfg0.N) :
    ptAt m pt c t = ∑ r : Fin 64, ∑ l : Fin 512, ∑ g : Fin 2, termAt m ck c (row t r) l g := by
  unfold ptAt
  rw [hpt, hz0, zero_add, ← Finset.sum_add_distrib]
  refine Finset.sum_congr rfl fun r _ => ?_
  rw [← Finset.sum_add_distrib]
  refine Finset.sum_congr rfl fun l _ => ?_
  rw [Fin.sum_univ_two]
  congr 1
  · unfold termAt
    simp only [blk0, blk1, blk2, blk3, blk4]
    have e1 : (fun q : Fin 7 => m ((c : Thread nD τ).loc main_arg1) (ix4 (0 : Fin 1) (⟨q.val, by have := q.isLt; omega⟩ : Fin 14) (row t r) l))
        = fun q : Fin 7 => m ((c : Thread nD τ).loc main_arg1) (ix4 (0 : Fin 1) (⟨7 * (0 : Fin 2).val + q.val, chan_lt 0 q⟩ : Fin 14) (row t r) l) :=
      funext fun q => congrArg (fun ch : Fin 14 => m ((c : Thread nD τ).loc main_arg1) (ix4 (0 : Fin 1) ch (row t r) l)) (Fin.ext (by simp))
    rw [e1]
    exact congrArg _ (funext fun q => v52_apply m c 0 q (row t r) l)
  · unfold termAt
    simp only [blk0, blk1, blk2, blk3, blk4]
    have e1 : (fun q : Fin 7 => m ((c : Thread nD τ).loc main_arg1) (ix4 (0 : Fin 1) (⟨7 + q.val, by have := q.isLt; omega⟩ : Fin 14) (row t r) l))
        = fun q : Fin 7 => m ((c : Thread nD τ).loc main_arg1) (ix4 (0 : Fin 1) (⟨7 * (1 : Fin 2).val + q.val, chan_lt 1 q⟩ : Fin 14) (row t r) l) :=
      funext fun q => congrArg (fun ch : Fin 14 => m ((c : Thread nD τ).loc main_arg1) (ix4 (0 : Fin 1) ch (row t r) l)) (Fin.ext (by simp))
    rw [e1]
    exact congrArg _ (funext fun q => v52_apply m c 1 q (row t r) l)

end

/-- The 512 rows are the eight tiles' 64 rows each, once. -/
theorem sum_rows {M : Type*} [AddCommMonoid M] (f : Fin 512 → M) :
    ∑ w : Fin 512, f w = ∑ t : Fin cfg0.N, ∑ r : Fin 64, f (row t r) := by
  have hN : cfg0.N = 8 := N_0
  let e : Fin cfg0.N × Fin 64 ≃ Fin 512 := ((finCongr hN).prodCongr (Equiv.refl _)).trans finProdFinEquiv
  calc ∑ w, f w = ∑ x : Fin cfg0.N × Fin 64, f (e x) := (Equiv.sum_comp e f).symm
    _ = ∑ t : Fin cfg0.N, ∑ r : Fin 64, f (e (t, r)) := Fintype.sum_prod_type _
    _ = _ := Finset.sum_congr rfl fun t _ => Finset.sum_congr rfl fun r _ => congrArg f (Fin.ext (by
        show r.val + 64 * t.val = 64 * t.val + r.val
        omega))

/-- The running sum after the last point is the sum of the eight points' totals, when it starts from zero. -/
theorem accAt_seven (z : EReal) (hz : z = 0) (c : Dev nD) (h : 7 < cfg0.N) :
    accAt m pt z c 7 h = ∑ t : Fin cfg0.N, ptAt m pt c t := by
  rw [← Equiv.sum_comp (finCongr (show cfg0.N = 8 from N_0)).symm (fun t => ptAt m pt c t), Fin.sum_univ_eight]
  simp only [accAt, hz, zero_add]
  rfl

section
variable
  (z0 : EReal) (hz0 : z0 = 0)
  (hpt : ∀ (x0 : Vec Ideal S1x2x64x512 .f32) (x1 : Vec Ideal S1x14x64x512 .f32) (x2 : Vec Ideal S2x7x64x512 .f32) (x3 : Vec Ideal S4x4 .f32) (x4 : Vec Ideal S64x4 .f32),
    pt x0 x1 x2 x3 x4
      = (z0 + ∑ r : Fin 64, ∑ l : Fin 512, ck (fun o cc => x3 (ix2 o cc)) (fun j k => x4 (ix2 j k)) (x0 (ix4 (0 : Fin 1) (0 : Fin 2) r l))
            (fun q => x1 (ix4 (0 : Fin 1) (⟨q.val, by have := q.isLt; omega⟩ : Fin 14) r l)) (fun q => x2 (ix4 (0 : Fin 2) q r l)))
        + ∑ r : Fin 64, ∑ l : Fin 512, ck (fun o cc => x3 (ix2 o cc)) (fun j k => x4 (ix2 j k)) (x0 (ix4 (0 : Fin 1) (1 : Fin 2) r l))
            (fun q => x1 (ix4 (0 : Fin 1) (⟨7 + q.val, by have := q.isLt; omega⟩ : Fin 14) r l)) (fun q => x2 (ix4 (1 : Fin 2) q r l)))

include hz0 hpt in
/-- So the running sum after the last point is the sum of the per-anchor term over all cells and both channels. -/
theorem accAt_total (z : EReal) (hz : z = 0) (c : Dev nD) (h : 7 < cfg0.N) :
    accAt m pt z c 7 h = ∑ w : Fin 512, ∑ l : Fin 512, ∑ g : Fin 2, termAt m ck c w l g := by
  rw [accAt_seven m pt z hz c h, sum_rows]
  exact Finset.sum_congr rfl fun t _ => ptAt_eq m pt ck z0 hz0 hpt c t

end

end Cert.KernelIdeal.KTot

end
-- ==== Proof.KRun.Basic.lean ====
/-
  Small facts used to read the kernel's run back as numbers: what a load through a one-cell rectangle of the
  target-hull block, or through a one-slab rectangle of a four-axis block, reads at an index; and a left-nested
  chain of additions over the rows of a table, written as the sum over the rows.
-/
import proofs.«157336_j6562710028353_2_alg».proof.KernelIdeal
import Idealize.ShloMosaic.Lib.Pipeline.Value
import Idealize.ShloMosaic.Lib.ValueIdx
import Idealize.ShloMosaic.PureOps.Ideal.Laws

noncomputable section
namespace Cert.KernelIdeal.KRun
open Cert.KernelIdeal
open Idealize.ShloMosaic Idealize.ShloMosaic.ValueIdx

theorem hz : (![0, 0] : Fin 2 → Nat) = fun _ => 0 := funext fun a => by fin_cases a <;> rfl

/-! ## Loads read at an index -/

section Loads
variable {Val : EltTy → Type} {e : EltTy}

/-- A load of the one cell at row `j`, column `k` of a two-axis block reads the block there. -/
theorem ld_cell {n0 n1 : ℕ} (X : (⟨2, ![n0, n1]⟩ : Shape).Idx → Val e) (j k : ℕ)
    (inb : ∀ a, (![j, k] : Fin 2 → ℕ) a + (![1, 1] : Fin 2 → ℕ) a ≤ (⟨2, ![n0, n1]⟩ : Shape).size a)
    (y : (⟨2, ![1, 1]⟩ : Shape).Idx) :
    View.ld X (Rect.unit ![j, k] ![1, 1] inb) y
      = X (ix2 ⟨j, show j + 1 ≤ n0 from inb 0⟩ ⟨k, show k + 1 ≤ n1 from inb 1⟩) := by
  show X _ = X _
  congr 1
  funext a
  apply Fin.ext
  have h0 : (y 0).val = 0 := by have := (y 0).isLt; simp at this; omega
  have h1 : (y 1).val = 0 := by have := (y 1).isLt; simp at this; omega
  match a with
  | ⟨0, _⟩ => show j + 1 * (y 0).val = j; omega
  | ⟨1, _⟩ => show k + 1 * (y 1).val = k; omega

/-- A load of the slab at positions `a`, `b` of the two leading axes of a four-axis block, read at row `r`,
    lane `l`, reads the block at `(a, b, r, l)`. -/
theorem ld_slab {n0 n1 : ℕ} (X : (⟨4, ![n0, n1, 64, 512]⟩ : Shape).Idx → Val e) (a b : ℕ)
    (inb : ∀ d, (![a, b, 0, 0] : Fin 4 → ℕ) d + (![1, 1, 64, 512] : Fin 4 → ℕ) d ≤ (⟨4, ![n0, n1, 64, 512]⟩ : Shape).size d)
    (u v : Fin 1) (r : Fin 64) (l : Fin 512) :
    View.ld X (Rect.unit ![a, b, 0, 0] ![1, 1, 64, 512] inb) (ix4 u v r l)
      = X (ix4 ⟨a, show a + 1 ≤ n0 from inb 0⟩ ⟨b, show b + 1 ≤ n1 from inb 1⟩ r l) := by
  show X _ = X _
  congr 1
  funext d
  apply Fin.ext
  have hu : u.val = 0 := by omega
  have hv : v.val = 0 := by omega
  match d with
  | ⟨0, _⟩ => show a + 1 * u.val = a; omega
  | ⟨1, _⟩ => show b + 1 * v.val = b; omega
  | ⟨2, _⟩ => show 0 + 1 * r.val = r.val; omega
  | ⟨3, _⟩ => show 0 + 1 * l.val = l.val; omega

end Loads

/-! ## A left-nested chain of additions is the sum -/

/-- `((z + g 0) + g 1) + … + g (k − 1)`, by recursion on `k`. -/
def chain {n : ℕ} (g : Fin n → EReal) (z : EReal) : (k : ℕ) → k ≤ n → EReal
  | 0, _ => z
  | k + 1, h => chain g z k (Nat.le_of_succ_le h) + g ⟨k, h⟩

theorem chain_eq {n : ℕ} (g : Fin n → EReal) (z : EReal) : ∀ (k : ℕ) (h : k ≤ n),
    chain g z k h = z + ∑ j : Fin k, g ⟨j.val, lt_of_lt_of_le j.isLt h⟩
  | 0, _ => by simp [chain]
  | k + 1, h => by
    rw [chain, chain_eq g z k, Fin.sum_univ_castSucc, add_assoc]
    rfl

/-- The whole chain is `z` plus the sum over all rows. -/
theorem chain_all {n : ℕ} (g : Fin n → EReal) (z : EReal) : chain g z n le_rfl = z + ∑ j : Fin n, g j :=
  chain_eq g z n le_rfl

end Cert.KernelIdeal.KRun
end
-- ==== Proof.KRun.Pack.lean ====
/-
  What a middle grid point leaves in the accumulator cell, as ONE closed term over the five input blocks and the
  cell's earlier contents: the body's single covering store read back, every intermediate value of the run opened,
  every load turned into the block read through the load's rectangle. The term comes together with the proof that
  the accumulator cell holds it, whatever the staging memrefs are.
-/
import proofs.«157336_j6562710028353_2_alg».proof.Proof.FrameKI.Frame
import proofs.«157336_j6562710028353_2_alg».proof.Proof.KRun.Basic

set_option maxRecDepth 16384

noncomputable section
namespace Cert.KernelIdeal.KRun
open Cert.KernelIdeal Cert.KernelIdeal.Gen Cert.KernelIdeal.Hand
open Idealize.ShloMosaic Idealize.ShloMosaic.TcCoe Idealize.ShloMosaic.Tactic
open Idealize.SL Idealize.SL.Sem

variable {F : FTy → Type} [FloatOps F]

set_option maxHeartbeats 4000000 in
/-- The accumulator cell after a middle point, with the proof that it is that. -/
def packB (x0 : Vec F S1x2x64x512 .f32) (x1 : Vec F S1x14x64x512 .f32) (x2 : Vec F S2x7x64x512 .f32) (x3 : Vec F S4x4 .f32) (x4 : Vec F S64x4 .f32) (xs0 : Vec F S1x1 .f32) :
    { v : Vec F S1x1 .f32 // ∀ (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i),
        sout0_B_0 c i arg1 harg1 arg2 harg2 arg3 harg3 arg4 harg4 arg5 harg5 arg6 harg6 arg7 harg7 hc0 hc1 x0 x1 x2 x3 x4 xs0 = v } := by
  refine ⟨?v, fun c i arg1 harg1 arg2 harg2 arg3 harg3 arg4 harg4 arg5 harg5 arg6 harg6 arg7 harg7 hc0 hc1 => ?h⟩
  case h =>
    unfold sout0_B_0
    rw [View.read_writes_eq_canon _ _ _ (scover0_B_0 c i arg1 harg1 arg2 harg2 arg3 harg3 arg4 harg4 arg5 harg5 arg6 harg6 arg7 harg7 hc0 hc1 x0 x1 x2 x3 x4 xs0)]
    unfold kernelRun0_B
    dsimp only
    rw [View.canon_unit_zero hz]
    sl_unfold_run_names
    simp only [View.readAt_eq_ld, harg1.read_unread, harg2.read_unread, harg3.read_unread, harg4.read_unread, harg5.read_unread, harg7.read_unread]
    exact rfl

/-- The accumulator cell's new contents as a function of the blocks and of its old contents `acc`. -/
def pointVec (x0 : Vec F S1x2x64x512 .f32) (x1 : Vec F S1x14x64x512 .f32) (x2 : Vec F S2x7x64x512 .f32) (x3 : Vec F S4x4 .f32) (x4 : Vec F S64x4 .f32) (acc : Vec F S1x1 .f32) : Vec F S1x1 .f32 := (packB x0 x1 x2 x3 x4 acc).1

theorem soutB_vec (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 : Vec F S1x2x64x512 .f32) (x1 : Vec F S1x14x64x512 .f32) (x2 : Vec F S2x7x64x512 .f32) (x3 : Vec F S4x4 .f32) (x4 : Vec F S64x4 .f32) (xs0 : Vec F S1x1 .f32) :
    sout0_B_0 c i arg1 harg1 arg2 harg2 arg3 harg3 arg4 harg4 arg5 harg5 arg6 harg6 arg7 harg7 hc0 hc1 x0 x1 x2 x3 x4 xs0 = pointVec x0 x1 x2 x3 x4 xs0 :=
  (packB x0 x1 x2 x3 x4 xs0).2 c i arg1 harg1 arg2 harg2 arg3 harg3 arg4 harg4 arg5 harg5 arg6 harg6 arg7 harg7 hc0 hc1

end Cert.KernelIdeal.KRun
end
-- ==== Proof.KRun.Runs.lean ====
/-
  The first and the last grid point against the middle one. The last point leaves in the accumulator cell the same
  function of the blocks and of the cell's earlier contents as a middle point, and stores that into the output
  cell; the first point leaves the same function of the blocks and of the zero cell its reset has just stored.
-/
import proofs.«157336_j6562710028353_2_alg».proof.Proof.KRun.Pack

set_option maxRecDepth 16384

noncomputable section
namespace Cert.KernelIdeal.KRun
open Cert.KernelIdeal Cert.KernelIdeal.Gen Cert.KernelIdeal.Hand
open Idealize.ShloMosaic Idealize.ShloMosaic.TcCoe Idealize.ShloMosaic.Tactic
open Idealize.SL Idealize.SL.Sem

variable {F : FTy → Type} [FloatOps F]

set_option maxHeartbeats 4000000 in
/-- The accumulator cell after the last point. -/
theorem soutC_vec (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 : Vec F S1x2x64x512 .f32) (x1 : Vec F S1x14x64x512 .f32) (x2 : Vec F S2x7x64x512 .f32) (x3 : Vec F S4x4 .f32) (x4 : Vec F S64x4 .f32) (xs0 : Vec F S1x1 .f32) :
    sout0_C_0 c i arg1 harg1 arg2 harg2 arg3 harg3 arg4 harg4 arg5 harg5 arg6 harg6 arg7 harg7 hc0 hc1 x0 x1 x2 x3 x4 xs0 = pointVec x0 x1 x2 x3 x4 xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 x3 x4 xs0)]
  unfold kernelRun0_C
  dsimp only
  sl_unfold_run_names
  rw [View.canon_unit_zero hz]
  simp only [View.readAt_eq_ld, harg1.read_unread, harg2.read_unread, harg3.read_unread, harg4.read_unread, harg5.read_unread, harg7.read_unread]
  unfold pointVec packB
  exact rfl

set_option maxHeartbeats 4000000 in
/-- The output cell after the last point holds what the accumulator cell holds. -/
theorem out_C (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 : Vec F S1x2x64x512 .f32) (x1 : Vec F S1x14x64x512 .f32) (x2 : Vec F S2x7x64x512 .f32) (x3 : Vec F S4x4 .f32) (x4 : Vec F S64x4 .f32) (xs0 : Vec F S1x1 .f32) :
    out0_C_5 c i arg1 harg1 arg2 harg2 arg3 harg3 arg4 harg4 arg5 harg5 arg6 harg6 arg7 harg7 hc0 hc1 x0 x1 x2 x3 x4 xs0 = sout0_C_0 c i arg1 harg1 arg2 harg2 arg3 harg3 arg4 harg4 arg5 harg5 arg6 harg6 arg7 harg7 hc0 hc1 x0 x1 x2 x3 x4 xs0 := by
  unfold out0_C_5 sout0_C_0
  rw [View.read_writes_eq_canon _ _ _ (scover0_C_0 c i arg1 harg1 arg2 harg2 arg3 harg3 arg4 harg4 arg5 harg5 arg6 harg6 arg7 harg7 hc0 hc1 x0 x1 x2 x3 x4 xs0),
    View.read_writes_eq_canon _ _ _ (cover0_C_5 c i arg1 harg1 arg2 harg2 arg3 harg3 arg4 harg4 arg5 harg5 arg6 harg6 arg7 harg7 hc0 hc1 x0 x1 x2 x3 x4 xs0)]
  unfold kernelRun0_C
  dsimp only
  sl_unfold_run_names
  rw [View.canon_unit_zero hz, View.readCov_unit_zero (S := S1x1) _ hz, View.canon_unit_zero hz]

set_option maxHeartbeats 4000000 in
/-- The accumulator cell after the first point: the middle point's function at the zero cell the reset stores. -/
theorem soutA_vec (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 : Vec F S1x2x64x512 .f32) (x1 : Vec F S1x14x64x512 .f32) (x2 : Vec F S2x7x64x512 .f32) (x3 : Vec F S4x4 .f32) (x4 : Vec F S64x4 .f32) :
    sout0_A_0 c i arg1 harg1 arg2 harg2 arg3 harg3 arg4 harg4 arg5 harg5 arg6 harg6 arg7 harg7 hc0 hc1 x0 x1 x2 x3 x4 = pointVec x0 x1 x2 x3 x4 (k0_pay1 (F := F)) := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  sl_unfold_run_names
  rw [View.canon_cons_unit_zero (S := S1x1) hz, View.readCov_unit_zero (S := S1x1) _ hz]
  simp only [View.readAt_eq_ld, harg1.read_unread, harg2.read_unread, harg3.read_unread, harg4.read_unread, harg5.read_unread, harg7.read_unread]
  unfold pointVec packB
  exact rfl

end Cert.KernelIdeal.KRun
end
-- ==== Proof.KRun.Loads.lean ====
/-
  The loads the body makes, each read at an index with the coordinates written as numerals: the 256 cells of the
  target-hull block, the 30 slabs of the score, delta and anchor blocks, the whole matrix; and the 64-step chain of
  additions written out.
-/
import proofs.«157336_j6562710028353_2_alg».proof.Proof.KRun.Basic

noncomputable section
namespace Cert.KernelIdeal.KRun
open Cert.KernelIdeal
open Idealize.ShloMosaic Idealize.ShloMosaic.ValueIdx

section
variable {Val : EltTy → Type} {e : EltTy}

/-- The whole 4 × 4 matrix loaded is the matrix. -/
theorem ld_mat (X : (⟨2, ![4, 4]⟩ : Shape).Idx → Val e)
    (inb : ∀ a, (![0, 0] : Fin 2 → ℕ) a + (![4, 4] : Fin 2 → ℕ) a ≤ (⟨2, ![4, 4]⟩ : Shape).size a) :
    View.ld X (Rect.unit ![0, 0] ![4, 4] inb) = X :=
  View.ld_unit_zero (S := (⟨2, ![4, 4]⟩ : Shape)) hz inb X

/-- The one cell of the accumulator loaded is the cell. -/
theorem ld_acc (X : (⟨2, ![1, 1]⟩ : Shape).Idx → Val e)
    (inb : ∀ a, (![0, 0] : Fin 2 → ℕ) a + (![1, 1] : Fin 2 → ℕ) a ≤ (⟨2, ![1, 1]⟩ : Shape).size a) :
    View.ld X (Rect.unit ![0, 0] ![1, 1] inb) = X :=
  View.ld_unit_zero (S := (⟨2, ![1, 1]⟩ : Shape)) hz inb X

theorem x4_0_0 (X : (⟨2, ![64, 4]⟩ : Shape).Idx → Val e) (inb : ∀ a, (![0, 0] : Fin 2 → ℕ) a + (![1, 1] : Fin 2 → ℕ) a ≤ (⟨2, ![64, 4]⟩ : Shape).size a) (y : (⟨2, ![1, 1]⟩ : Shape).Idx) : View.ld X (Rect.unit ![0, 0] ![1, 1] inb) y = X (ix2 (0 : Fin 64) (0 : Fin 4)) := ld_cell X 0 0 inb y
theorem x4_0_1 (X : (⟨2, ![64, 4]⟩ : Shape).Idx → Val e) (inb : ∀ a, (![0, 1] : Fin 2 → ℕ) a + (![1, 1] : Fin 2 → ℕ) a ≤ (⟨2, ![64, 4]⟩ : Shape).size a) (y : (⟨2, ![1, 1]⟩ : Shape).Idx) : View.ld X (Rect.unit ![0, 1] ![1, 1] inb) y = X (ix2 (0 : Fin 64) (1 : Fin 4)) := ld_cell X 0 1 inb y
theorem x4_0_2 (X : (⟨2, ![64, 4]⟩ : Shape).Idx → Val e) (inb : ∀ a, (![0, 2] : Fin 2 → ℕ) a + (![1, 1] : Fin 2 → ℕ) a ≤ (⟨2, ![64, 4]⟩ : Shape).size a) (y : (⟨2, ![1, 1]⟩ : Shape).Idx) : View.ld X (Rect.unit ![0, 2] ![1, 1] inb) y = X (ix2 (0 : Fin 64) (2 : Fin 4)) := ld_cell X 0 2 inb y
theorem x4_0_3 (X : (⟨2, ![64, 4]⟩ : Shape).Idx → Val e) (inb : ∀ a, (![0, 3] : Fin 2 → ℕ) a + (![1, 1] : Fin 2 → ℕ) a ≤ (⟨2, ![64, 4]⟩ : Shape).size a) (y : (⟨2, ![1, 1]⟩ : Shape).Idx) : View.ld X (Rect.unit ![0, 3] ![1, 1] inb) y = X (ix2 (0 : Fin 64) (3 : Fin 4)) := ld_cell X 0 3 inb y
theorem x4_1_0 (X : (⟨2, ![64, 4]⟩ : Shape).Idx → Val e) (inb : ∀ a, (![1, 0] : Fin 2 → ℕ) a + (![1, 1] : Fin 2 → ℕ) a ≤ (⟨2, ![64, 4]⟩ : Shape).size a) (y : (⟨2, ![1, 1]⟩ : Shape).Idx) : View.ld X (Rect.unit ![1, 0] ![1, 1] inb) y = X (ix2 (1 : Fin 64) (0 : Fin 4)) := ld_cell X 1 0 inb y
theorem x4_1_1 (X : (⟨2, ![64, 4]⟩ : Shape).Idx → Val e) (inb : ∀ a, (![1, 1] : Fin 2 → ℕ) a + (![1, 1] : Fin 2 → ℕ) a ≤ (⟨2, ![64, 4]⟩ : Shape).size a) (y : (⟨2, ![1, 1]⟩ : Shape).Idx) : View.ld X (Rect.unit ![1, 1] ![1, 1] inb) y = X (ix2 (1 : Fin 64) (1 : Fin 4)) := ld_cell X 1 1 inb y
theorem x4_1_2 (X : (⟨2, ![64, 4]⟩ : Shape).Idx → Val e) (inb : ∀ a, (![1, 2] : Fin 2 → ℕ) a + (![1, 1] : Fin 2 → ℕ) a ≤ (⟨2, ![64, 4]⟩ : Shape).size a) (y : (⟨2, ![1, 1]⟩ : Shape).Idx) : View.ld X (Rect.unit ![1, 2] ![1, 1] inb) y = X (ix2 (1 : Fin 64) (2 : Fin 4)) := ld_cell X 1 2 inb y
theorem x4_1_3 (X : (⟨2, ![64, 4]⟩ : Shape).Idx → Val e) (inb : ∀ a, (![1, 3] : Fin 2 → ℕ) a + (![1, 1] : Fin 2 → ℕ) a ≤ (⟨2, ![64, 4]⟩ : Shape).size a) (y : (⟨2, ![1, 1]⟩ : Shape).Idx) : View.ld X (Rect.unit ![1, 3] ![1, 1] inb) y = X (ix2 (1 : Fin 64) (3 : Fin 4)) := ld_cell X 1 3 inb y
theorem x4_2_0 (X : (⟨2, ![64, 4]⟩ : Shape).Idx → Val e) (inb : ∀ a, (![2, 0] : Fin 2 → ℕ) a + (![1, 1] : Fin 2 → ℕ) a ≤ (⟨2, ![64, 4]⟩ : Shape).size a) (y : (⟨2, ![1, 1]⟩ : Shape).Idx) : View.ld X (Rect.unit ![2, 0] ![1, 1] inb) y = X (ix2 (2 : Fin 64) (0 : Fin 4)) := ld_cell X 2 0 inb y
theorem x4_2_1 (X : (⟨2, ![64, 4]⟩ : Shape).Idx → Val e) (inb : ∀ a, (![2, 1] : Fin 2 → ℕ) a + (![1, 1] : Fin 2 → ℕ) a ≤ (⟨2, ![64, 4]⟩ : Shape).size a) (y : (⟨2, ![1, 1]⟩ : Shape).Idx) : View.ld X (Rect.unit ![2, 1] ![1, 1] inb) y = X (ix2 (2 : Fin 64) (1 : Fin 4)) := ld_cell X 2 1 inb y
theorem x4_2_2 (X : (⟨2, ![64, 4]⟩ : Shape).Idx → Val e) (inb : ∀ a, (![2, 2] : Fin 2 → ℕ) a + (![1, 1] : Fin 2 → ℕ) a ≤ (⟨2, ![64, 4]⟩ : Shape).size a) (y : (⟨2, ![1, 1]⟩ : Shape).Idx) : View.ld X (Rect.unit ![2, 2] ![1, 1] inb) y = X (ix2 (2 : Fin 64) (2 : Fin 4)) := ld_cell X 2 2 inb y
theorem x4_2_3 (X : (⟨2, ![64, 4]⟩ : Shape).Idx → Val e) (inb : ∀ a, (![2, 3] : Fin 2 → ℕ) a + (![1, 1] : Fin 2 → ℕ) a ≤ (⟨2, ![64, 4]⟩ : Shape).size a) (y : (⟨2, ![1, 1]⟩ : Shape).Idx) : View.ld X (Rect.unit ![2, 3] ![1, 1] inb) y = X (ix2 (2 : Fin 64) (3 : Fin 4)) := ld_cell X 2 3 inb y
theorem x4_3_0 (X : (⟨2, ![64, 4]⟩ : Shape).Idx → Val e) (inb : ∀ a, (![3, 0] : Fin 2 → ℕ) a + (![1, 1] : Fin 2 → ℕ) a ≤ (⟨2, ![64, 4]⟩ : Shape).size a) (y : (⟨2, ![1, 1]⟩ : Shape).Idx) : View.ld X (Rect.unit ![3, 0] ![1, 1] inb) y = X (ix2 (3 : Fin 64) (0 : Fin 4)) := ld_cell X 3 0 inb y
theorem x4_3_1 (X : (⟨2, ![64, 4]⟩ : Shape).Idx → Val e) (inb : ∀ a, (![3, 1] : Fin 2 → ℕ) a + (![1, 1] : Fin 2 → ℕ) a ≤ (⟨2, ![64, 4]⟩ : Shape).size a) (y : (⟨2, ![1, 1]⟩ : Shape).Idx) : View.ld X (Rect.unit ![3, 1] ![1, 1] inb) y = X (ix2 (3 : Fin 64) (1 : Fin 4)) := ld_cell X 3 1 inb y
theorem x4_3_2 (X : (⟨2, ![64, 4]⟩ : Shape).Idx → Val e) (inb : ∀ a, (![3, 2] : Fin 2 → ℕ) a + (![1, 1] : Fin 2 → ℕ) a ≤ (⟨2, ![64, 4]⟩ : Shape).size a) (y : (⟨2, ![1, 1]⟩ : Shape).Idx) : View.ld X (Rect.unit ![3, 2] ![1, 1] inb) y = X (ix2 (3 : Fin 64) (2 : Fin 4)) := ld_cell X 3 2 inb y
theorem x4_3_3 (X : (⟨2, ![64, 4]⟩ : Shape).Idx → Val e) (inb : ∀ a, (![3, 3] : Fin 2 → ℕ) a + (![1, 1] : Fin 2 → ℕ) a ≤ (⟨2, ![64, 4]⟩ : Shape).size a) (y : (⟨2, ![1, 1]⟩ : Shape).Idx) : View.ld X (Rect.unit ![3, 3] ![1, 1] inb) y = X (ix2 (3 : Fin 64) (3 : Fin 4)) := ld_cell X 3 3 inb y
theorem x4_4_0 (X : (⟨2, ![64, 4]⟩ : Shape).Idx → Val e) (inb : ∀ a, (![4, 0] : Fin 2 → ℕ) a + (![1, 1] : Fin 2 → ℕ) a ≤ (⟨2, ![64, 4]⟩ : Shape).size a) (y : (⟨2, ![1, 1]⟩ : Shape).Idx) : View.ld X (Rect.unit ![4, 0] ![1, 1] inb) y = X (ix2 (4 : Fin 64) (0 : Fin 4)) := ld_cell X 4 0 inb y
theorem x4_4_1 (X : (⟨2, ![64, 4]⟩ : Shape).Idx → Val e) (inb : ∀ a, (![4, 1] : Fin 2 → ℕ) a + (![1, 1] : Fin 2 → ℕ) a ≤ (⟨2, ![64, 4]⟩ : Shape).size a) (y : (⟨2, ![1, 1]⟩ : Shape).Idx) : View.ld X (Rect.unit ![4, 1] ![1, 1] inb) y = X (ix2 (4 : Fin 64) (1 : Fin 4)) := ld_cell X 4 1 inb y
theorem x4_4_2 (X : (⟨2, ![64, 4]⟩ : Shape).Idx → Val e) (inb : ∀ a, (![4, 2] : Fin 2 → ℕ) a + (![1, 1] : Fin 2 → ℕ) a ≤ (⟨2, ![64, 4]⟩ : Shape).size a) (y : (⟨2, ![1, 1]⟩ : Shape).Idx) : View.ld X (Rect.unit ![4, 2] ![1, 1] inb) y = X (ix2 (4 : Fin 64) (2 : Fin 4)) := ld_cell X 4 2 inb y
theorem x4_4_3 (X : (⟨2, ![64, 4]⟩ : Shape).Idx → Val e) (inb : ∀ a, (![4, 3] : Fin 2 → ℕ) a + (![1, 1] : Fin 2 → ℕ) a ≤ (⟨2, ![64, 4]⟩ : Shape).size a) (y : (⟨2, ![1, 1]⟩ : Shape).Idx) : View.ld X (Rect.unit ![4, 3] ![1, 1] inb) y = X (ix2 (4 : Fin 64) (3 : Fin 4)) := ld_cell X 4 3 inb y
theorem x4_5_0 (X : (⟨2, ![64, 4]⟩ : Shape).Idx → Val e) (inb : ∀ a, (![5, 0] : Fin 2 → ℕ) a + (![1, 1] : Fin 2 → ℕ) a ≤ (⟨2, ![64, 4]⟩ : Shape).size a) (y : (⟨2, ![1, 1]⟩ : Shape).Idx) : View.ld X (Rect.unit ![5, 0] ![1, 1] inb) y = X (ix2 (5 : Fin 64) (0 : Fin 4)) := ld_cell X 5 0 inb y
theorem x4_5_1 (X : (⟨2, ![64, 4]⟩ : Shape).Idx → Val e) (inb : ∀ a, (![5, 1] : Fin 2 → ℕ) a + (![1, 1] : Fin 2 → ℕ) a ≤ (⟨2, ![64, 4]⟩ : Shape).size a) (y : (⟨2, ![1, 1]⟩ : Shape).Idx) : View.ld X (Rect.unit ![5, 1] ![1, 1] inb) y = X (ix2 (5 : Fin 64) (1 : Fin 4)) := ld_cell X 5 1 inb y
theorem x4_5_2 (X : (⟨2, ![64, 4]⟩ : Shape).Idx → Val e) (inb : ∀ a, (![5, 2] : Fin 2 → ℕ) a + (![1, 1] : Fin 2 → ℕ) a ≤ (⟨2, ![64, 4]⟩ : Shape).size a) (y : (⟨2, ![1, 1]⟩ : Shape).Idx) : View.ld X (Rect.unit ![5, 2] ![1, 1] inb) y = X (ix2 (5 : Fin 64) (2 : Fin 4)) := ld_cell X 5 2 inb y
theorem x4_5_3 (X : (⟨2, ![64, 4]⟩ : Shape).Idx → Val e) (inb : ∀ a, (![5, 3] : Fin 2 → ℕ) a + (![1, 1] : Fin 2 → ℕ) a ≤ (⟨2, ![64, 4]⟩ : Shape).size a) (y : (⟨2, ![1, 1]⟩ : Shape).Idx) : View.ld X (Rect.unit ![5, 3] ![1, 1] inb) y = X (ix2 (5 : Fin 64) (3 : Fin 4)) := ld_cell X 5 3 inb y
theorem x4_6_0 (X : (⟨2, ![64, 4]⟩ : Shape).Idx → Val e) (inb : ∀ a, (![6, 0] : Fin 2 → ℕ) a + (![1, 1] : Fin 2 → ℕ) a ≤ (⟨2, ![64, 4]⟩ : Shape).size a) (y : (⟨2, ![1, 1]⟩ : Shape).Idx) : View.ld X (Rect.unit ![6, 0] ![1, 1] inb) y = X (ix2 (6 : Fin 64) (0 : Fin 4)) := ld_cell X 6 0 inb y
theorem x4_6_1 (X : (⟨2, ![64, 4]⟩ : Shape).Idx → Val e) (inb : ∀ a, (![6, 1] : Fin 2 → ℕ) a + (![1, 1] : Fin 2 → ℕ) a ≤ (⟨2, ![64, 4]⟩ : Shape).size a) (y : (⟨2, ![1, 1]⟩ : Shape).Idx) : View.ld X (Rect.unit ![6, 1] ![1, 1] inb) y = X (ix2 (6 : Fin 64) (1 : Fin 4)) := ld_cell X 6 1 inb y
theorem x4_6_2 (X : (⟨2, ![64, 4]⟩ : Shape).Idx → Val e) (inb : ∀ a, (![6, 2] : Fin 2 → ℕ) a + (![1, 1] : Fin 2 → ℕ) a ≤ (⟨2, ![64, 4]⟩ : Shape).size a) (y : (⟨2, ![1, 1]⟩ : Shape).Idx) : View.ld X (Rect.unit ![6, 2] ![1, 1] inb) y = X (ix2 (6 : Fin 64) (2 : Fin 4)) := ld_cell X 6 2 inb y
theorem x4_6_3 (X : (⟨2, ![64, 4]⟩ : Shape).Idx → Val e) (inb : ∀ a, (![6, 3] : Fin 2 → ℕ) a + (![1, 1] : Fin 2 → ℕ) a ≤ (⟨2, ![64, 4]⟩ : Shape).size a) (y : (⟨2, ![1, 1]⟩ : Shape).Idx) : View.ld X (Rect.unit ![6, 3] ![1, 1] inb) y = X (ix2 (6 : Fin 64) (3 : Fin 4)) := ld_cell X 6 3 inb y
theorem x4_7_0 (X : (⟨2, ![64, 4]⟩ : Shape).Idx → Val e) (inb : ∀ a, (![7, 0] : Fin 2 → ℕ) a + (![1, 1] : Fin 2 → ℕ) a ≤ (⟨2, ![64, 4]⟩ : Shape).size a) (y : (⟨2, ![1, 1]⟩ : Shape).Idx) : View.ld X (Rect.unit ![7, 0] ![1, 1] inb) y = X (ix2 (7 : Fin 64) (0 : Fin 4)) := ld_cell X 7 0 inb y
theorem x4_7_1 (X : (⟨2, ![64, 4]⟩ : Shape).Idx → Val e) (inb : ∀ a, (![7, 1] : Fin 2 → ℕ) a + (![1, 1] : Fin 2 → ℕ) a ≤ (⟨2, ![64, 4]⟩ : Shape).size a) (y : (⟨2, ![1, 1]⟩ : Shape).Idx) : View.ld X (Rect.unit ![7, 1] ![1, 1] inb) y = X (ix2 (7 : Fin 64) (1 : Fin 4)) := ld_cell X 7 1 inb y
theorem x4_7_2 (X : (⟨2, ![64, 4]⟩ : Shape).Idx → Val e) (inb : ∀ a, (![7, 2] : Fin 2 → ℕ) a + (![1, 1] : Fin 2 → ℕ) a ≤ (⟨2, ![64, 4]⟩ : Shape).size a) (y : (⟨2, ![1, 1]⟩ : Shape).Idx) : View.ld X (Rect.unit ![7, 2] ![1, 1] inb) y = X (ix2 (7 : Fin 64) (2 : Fin 4)) := ld_cell X 7 2 inb y
theorem x4_7_3 (X : (⟨2, ![64, 4]⟩ : Shape).Idx → Val e) (inb : ∀ a, (![7, 3] : Fin 2 → ℕ) a + (![1, 1] : Fin 2 → ℕ) a ≤ (⟨2, ![64, 4]⟩ : Shape).size a) (y : (⟨2, ![1, 1]⟩ : Shape).Idx) : View.ld X (Rect.unit ![7, 3] ![1, 1] inb) y = X (ix2 (7 : Fin 64) (3 : Fin 4)) := ld_cell X 7 3 inb y
theorem x4_8_0 (X : (⟨2, ![64, 4]⟩ : Shape).Idx → Val e) (inb : ∀ a, (![8, 0] : Fin 2 → ℕ) a + (![1, 1] : Fin 2 → ℕ) a ≤ (⟨2, ![64, 4]⟩ : Shape).size a) (y : (⟨2, ![1, 1]⟩ : Shape).Idx) : View.ld X (Rect.unit ![8, 0] ![1, 1] inb) y = X (ix2 (8 : Fin 64) (0 : Fin 4)) := ld_cell X 8 0 inb y
theorem x4_8_1 (X : (⟨2, ![64, 4]⟩ : Shape).Idx → Val e) (inb : ∀ a, (![8, 1] : Fin 2 → ℕ) a + (![1, 1] : Fin 2 → ℕ) a ≤ (⟨2, ![64, 4]⟩ : Shape).size a) (y : (⟨2, ![1, 1]⟩ : Shape).Idx) : View.ld X (Rect.unit ![8, 1] ![1, 1] inb) y = X (ix2 (8 : Fin 64) (1 : Fin 4)) := ld_cell X 8 1 inb y
theorem x4_8_2 (X : (⟨2, ![64, 4]⟩ : Shape).Idx → Val e) (inb : ∀ a, (![8, 2] : Fin 2 → ℕ) a + (![1, 1] : Fin 2 → ℕ) a ≤ (⟨2, ![64, 4]⟩ : Shape).size a) (y : (⟨2, ![1, 1]⟩ : Shape).Idx) : View.ld X (Rect.unit ![8, 2] ![1, 1] inb) y = X (ix2 (8 : Fin 64) (2 : Fin 4)) := ld_cell X 8 2 inb y
theorem x4_8_3 (X : (⟨2, ![64, 4]⟩ : Shape).Idx → Val e) (inb : ∀ a, (![8, 3] : Fin 2 → ℕ) a + (![1, 1] : Fin 2 → ℕ) a ≤ (⟨2, ![64, 4]⟩ : Shape).size a) (y : (⟨2, ![1, 1]⟩ : Shape).Idx) : View.ld X (Rect.unit ![8, 3] ![1, 1] inb) y = X (ix2 (8 : Fin 64) (3 : Fin 4)) := ld_cell X 8 3 inb y
theorem x4_9_0 (X : (⟨2, ![64, 4]⟩ : Shape).Idx → Val e) (inb : ∀ a, (![9, 0] : Fin 2 → ℕ) a + (![1, 1] : Fin 2 → ℕ) a ≤ (⟨2, ![64, 4]⟩ : Shape).size a) (y : (⟨2, ![1, 1]⟩ : Shape).Idx) : View.ld X (Rect.unit ![9, 0] ![1, 1] inb) y = X (ix2 (9 : Fin 64) (0 : Fin 4)) := ld_cell X 9 0 inb y
theorem x4_9_1 (X : (⟨2, ![64, 4]⟩ : Shape).Idx → Val e) (inb : ∀ a, (![9, 1] : Fin 2 → ℕ) a + (![1, 1] : Fin 2 → ℕ) a ≤ (⟨2, ![64, 4]⟩ : Shape).size a) (y : (⟨2, ![1, 1]⟩ : Shape).Idx) : View.ld X (Rect.unit ![9, 1] ![1, 1] inb) y = X (ix2 (9 : Fin 64) (1 : Fin 4)) := ld_cell X 9 1 inb y
theorem x4_9_2 (X : (⟨2, ![64, 4]⟩ : Shape).Idx → Val e) (inb : ∀ a, (![9, 2] : Fin 2 → ℕ) a + (![1, 1] : Fin 2 → ℕ) a ≤ (⟨2, ![64, 4]⟩ : Shape).size a) (y : (⟨2, ![1, 1]⟩ : Shape).Idx) : View.ld X (Rect.unit ![9, 2] ![1, 1] inb) y = X (ix2 (9 : Fin 64) (2 : Fin 4)) := ld_cell X 9 2 inb y
theorem x4_9_3 (X : (⟨2, ![64, 4]⟩ : Shape).Idx → Val e) (inb : ∀ a, (![9, 3] : Fin 2 → ℕ) a + (![1, 1] : Fin 2 → ℕ) a ≤ (⟨2, ![64, 4]⟩ : Shape).size a) (y : (⟨2, ![1, 1]⟩ : Shape).Idx) : View.ld X (Rect.unit ![9, 3] ![1, 1] inb) y = X (ix2 (9 : Fin 64) (3 : Fin 4)) := ld_cell X 9 3 inb y
theorem x4_10_0 (X : (⟨2, ![64, 4]⟩ : Shape).Idx → Val e) (inb : ∀ a, (![10, 0] : Fin 2 → ℕ) a + (![1, 1] : Fin 2 → ℕ) a ≤ (⟨2, ![64, 4]⟩ : Shape).size a) (y : (⟨2, ![1, 1]⟩ : Shape).Idx) : View.ld X (Rect.unit ![10, 0] ![1, 1] inb) y = X (ix2 (10 : Fin 64) (0 : Fin 4)) := ld_cell X 10 0 inb y
theorem x4_10_1 (X : (⟨2, ![64, 4]⟩ : Shape).Idx → Val e) (inb : ∀ a, (![10, 1] : Fin 2 → ℕ) a + (![1, 1] : Fin 2 → ℕ) a ≤ (⟨2, ![64, 4]⟩ : Shape).size a) (y : (⟨2, ![1, 1]⟩ : Shape).Idx) : View.ld X (Rect.unit ![10, 1] ![1, 1] inb) y = X (ix2 (10 : Fin 64) (1 : Fin 4)) := ld_cell X 10 1 inb y
theorem x4_10_2 (X : (⟨2, ![64, 4]⟩ : Shape).Idx → Val e) (inb : ∀ a, (![10, 2] : Fin 2 → ℕ) a + (![1, 1] : Fin 2 → ℕ) a ≤ (⟨2, ![64, 4]⟩ : Shape).size a) (y : (⟨2, ![1, 1]⟩ : Shape).Idx) : View.ld X (Rect.unit ![10, 2] ![1, 1] inb) y = X (ix2 (10 : Fin 64) (2 : Fin 4)) := ld_cell X 10 2 inb y
theorem x4_10_3 (X : (⟨2, ![64, 4]⟩ : Shape).Idx → Val e) (inb : ∀ a, (![10, 3] : Fin 2 → ℕ) a + (![1, 1] : Fin 2 → ℕ) a ≤ (⟨2, ![64, 4]⟩ : Shape).size a) (y : (⟨2, ![1, 1]⟩ : Shape).Idx) : View.ld X (Rect.unit ![10, 3] ![1, 1] inb) y = X (ix2 (10 : Fin 64) (3 : Fin 4)) := ld_cell X 10 3 inb y
theorem x4_11_0 (X : (⟨2, ![64, 4]⟩ : Shape).Idx → Val e) (inb : ∀ a, (![11, 0] : Fin 2 → ℕ) a + (![1, 1] : Fin 2 → ℕ) a ≤ (⟨2, ![64, 4]⟩ : Shape).size a) (y : (⟨2, ![1, 1]⟩ : Shape).Idx) : View.ld X (Rect.unit ![11, 0] ![1, 1] inb) y = X (ix2 (11 : Fin 64) (0 : Fin 4)) := ld_cell X 11 0 inb y
theorem x4_11_1 (X : (⟨2, ![64, 4]⟩ : Shape).Idx → Val e) (inb : ∀ a, (![11, 1] : Fin 2 → ℕ) a + (![1, 1] : Fin 2 → ℕ) a ≤ (⟨2, ![64, 4]⟩ : Shape).size a) (y : (⟨2, ![1, 1]⟩ : Shape).Idx) : View.ld X (Rect.unit ![11, 1] ![1, 1] inb) y = X (ix2 (11 : Fin 64) (1 : Fin 4)) := ld_cell X 11 1 inb y
theorem x4_11_2 (X : (⟨2, ![64, 4]⟩ : Shape).Idx → Val e) (inb : ∀ a, (![11, 2] : Fin 2 → ℕ) a + (![1, 1] : Fin 2 → ℕ) a ≤ (⟨2, ![64, 4]⟩ : Shape).size a) (y : (⟨2, ![1, 1]⟩ : Shape).Idx) : View.ld X (Rect.unit ![11, 2] ![1, 1] inb) y = X (ix2 (11 : Fin 64) (2 : Fin 4)) := ld_cell X 11 2 inb y
theorem x4_11_3 (X : (⟨2, ![64, 4]⟩ : Shape).Idx → Val e) (inb : ∀ a, (![11, 3] : Fin 2 → ℕ) a + (![1, 1] : Fin 2 → ℕ) a ≤ (⟨2, ![64, 4]⟩ : Shape).size a) (y : (⟨2, ![1, 1]⟩ : Shape).Idx) : View.ld X (Rect.unit ![11, 3] ![1, 1] inb) y = X (ix2 (11 : Fin 64) (3 : Fin 4)) := ld_cell X 11 3 inb y
theorem x4_12_0 (X : (⟨2, ![64, 4]⟩ : Shape).Idx → Val e) (inb : ∀ a, (![12, 0] : Fin 2 → ℕ) a + (![1, 1] : Fin 2 → ℕ) a ≤ (⟨2, ![64, 4]⟩ : Shape).size a) (y : (⟨2, ![1, 1]⟩ : Shape).Idx) : View.ld X (Rect.unit ![12, 0] ![1, 1] inb) y = X (ix2 (12 : Fin 64) (0 : Fin 4)) := ld_cell X 12 0 inb y
theorem x4_12_1 (X : (⟨2, ![64, 4]⟩ : Shape).Idx → Val e) (inb : ∀ a, (![12, 1] : Fin 2 → ℕ) a + (![1, 1] : Fin 2 → ℕ) a ≤ (⟨2, ![64, 4]⟩ : Shape).size a) (y : (⟨2, ![1, 1]⟩ : Shape).Idx) : View.ld X (Rect.unit ![12, 1] ![1, 1] inb) y = X (ix2 (12 : Fin 64) (1 : Fin 4)) := ld_cell X 12 1 inb y
theorem x4_12_2 (X : (⟨2, ![64, 4]⟩ : Shape).Idx → Val e) (inb : ∀ a, (![12, 2] : Fin 2 → ℕ) a + (![1, 1] : Fin 2 → ℕ) a ≤ (⟨2, ![64, 4]⟩ : Shape).size a) (y : (⟨2, ![1, 1]⟩ : Shape).Idx) : View.ld X (Rect.unit ![12, 2] ![1, 1] inb) y = X (ix2 (12 : Fin 64) (2 : Fin 4)) := ld_cell X 12 2 inb y
theorem x4_12_3 (X : (⟨2, ![64, 4]⟩ : Shape).Idx → Val e) (inb : ∀ a, (![12, 3] : Fin 2 → ℕ) a + (![1, 1] : Fin 2 → ℕ) a ≤ (⟨2, ![64, 4]⟩ : Shape).size a) (y : (⟨2, ![1, 1]⟩ : Shape).Idx) : View.ld X (Rect.unit ![12, 3] ![1, 1] inb) y = X (ix2 (12 : Fin 64) (3 : Fin 4)) := ld_cell X 12 3 inb y
theorem x4_13_0 (X : (⟨2, ![64, 4]⟩ : Shape).Idx → Val e) (inb : ∀ a, (![13, 0] : Fin 2 → ℕ) a + (![1, 1] : Fin 2 → ℕ) a ≤ (⟨2, ![64, 4]⟩ : Shape).size a) (y : (⟨2, ![1, 1]⟩ : Shape).Idx) : View.ld X (Rect.unit ![13, 0] ![1, 1] inb) y = X (ix2 (13 : Fin 64) (0 : Fin 4)) := ld_cell X 13 0 inb y
theorem x4_13_1 (X : (⟨2, ![64, 4]⟩ : Shape).Idx → Val e) (inb : ∀ a, (![13, 1] : Fin 2 → ℕ) a + (![1, 1] : Fin 2 → ℕ) a ≤ (⟨2, ![64, 4]⟩ : Shape).size a) (y : (⟨2, ![1, 1]⟩ : Shape).Idx) : View.ld X (Rect.unit ![13, 1] ![1, 1] inb) y = X (ix2 (13 : Fin 64) (1 : Fin 4)) := ld_cell X 13 1 inb y
theorem x4_13_2 (X : (⟨2, ![64, 4]⟩ : Shape).Idx → Val e) (inb : ∀ a, (![13, 2] : Fin 2 → ℕ) a + (![1, 1] : Fin 2 → ℕ) a ≤ (⟨2, ![64, 4]⟩ : Shape).size a) (y : (⟨2, ![1, 1]⟩ : Shape).Idx) : View.ld X (Rect.unit ![13, 2] ![1, 1] inb) y = X (ix2 (13 : Fin 64) (2 : Fin 4)) := ld_cell X 13 2 inb y
theorem x4_13_3 (X : (⟨2, ![64, 4]⟩ : Shape).Idx → Val e) (inb : ∀ a, (![13, 3] : Fin 2 → ℕ) a + (![1, 1] : Fin 2 → ℕ) a ≤ (⟨2, ![64, 4]⟩ : Shape).size a) (y : (⟨2, ![1, 1]⟩ : Shape).Idx) : View.ld X (Rect.unit ![13, 3] ![1, 1] inb) y = X (ix2 (13 : Fin 64) (3 : Fin 4)) := ld_cell X 13 3 inb y
theorem x4_14_0 (X : (⟨2, ![64, 4]⟩ : Shape).Idx → Val e) (inb : ∀ a, (![14, 0] : Fin 2 → ℕ) a + (![1, 1] : Fin 2 → ℕ) a ≤ (⟨2, ![64, 4]⟩ : Shape).size a) (y : (⟨2, ![1, 1]⟩ : Shape).Idx) : View.ld X (Rect.unit ![14, 0] ![1, 1] inb) y = X (ix2 (14 : Fin 64) (0 : Fin 4)) := ld_cell X 14 0 inb y
theorem x4_14_1 (X : (⟨2, ![64, 4]⟩ : Shape).Idx → Val e) (inb : ∀ a, (![14, 1] : Fin 2 → ℕ) a + (![1, 1] : Fin 2 → ℕ) a ≤ (⟨2, ![64, 4]⟩ : Shape).size a) (y : (⟨2, ![1, 1]⟩ : Shape).Idx) : View.ld X (Rect.unit ![14, 1] ![1, 1] inb) y = X (ix2 (14 : Fin 64) (1 : Fin 4)) := ld_cell X 14 1 inb y
theorem x4_14_2 (X : (⟨2, ![64, 4]⟩ : Shape).Idx → Val e) (inb : ∀ a, (![14, 2] : Fin 2 → ℕ) a + (![1, 1] : Fin 2 → ℕ) a ≤ (⟨2, ![64, 4]⟩ : Shape).size a) (y : (⟨2, ![1, 1]⟩ : Shape).Idx) : View.ld X (Rect.unit ![14, 2] ![1, 1] inb) y = X (ix2 (14 : Fin 64) (2 : Fin 4)) := ld_cell X 14 2 inb y
theorem x4_14_3 (X : (⟨2, ![64, 4]⟩ : Shape).Idx → Val e) (inb : ∀ a, (![14, 3] : Fin 2 → ℕ) a + (![1, 1] : Fin 2 → ℕ) a ≤ (⟨2, ![64, 4]⟩ : Shape).size a) (y : (⟨2, ![1, 1]⟩ : Shape).Idx) : View.ld X (Rect.unit ![14, 3] ![1, 1] inb) y = X (ix2 (14 : Fin 64) (3 : Fin 4)) := ld_cell X 14 3 inb y
theorem x4_15_0 (X : (⟨2, ![64, 4]⟩ : Shape).Idx → Val e) (inb : ∀ a, (![15, 0] : Fin 2 → ℕ) a + (![1, 1] : Fin 2 → ℕ) a ≤ (⟨2, ![64, 4]⟩ : Shape).size a) (y : (⟨2, ![1, 1]⟩ : Shape).Idx) : View.ld X (Rect.unit ![15, 0] ![1, 1] inb) y = X (ix2 (15 : Fin 64) (0 : Fin 4)) := ld_cell X 15 0 inb y
theorem x4_15_1 (X : (⟨2, ![64, 4]⟩ : Shape).Idx → Val e) (inb : ∀ a, (![15, 1] : Fin 2 → ℕ) a + (![1, 1] : Fin 2 → ℕ) a ≤ (⟨2, ![64, 4]⟩ : Shape).size a) (y : (⟨2, ![1, 1]⟩ : Shape).Idx) : View.ld X (Rect.unit ![15, 1] ![1, 1] inb) y = X (ix2 (15 : Fin 64) (1 : Fin 4)) := ld_cell X 15 1 inb y
theorem x4_15_2 (X : (⟨2, ![64, 4]⟩ : Shape).Idx → Val e) (inb : ∀ a, (![15, 2] : Fin 2 → ℕ) a + (![1, 1] : Fin 2 → ℕ) a ≤ (⟨2, ![64, 4]⟩ : Shape).size a) (y : (⟨2, ![1, 1]⟩ : Shape).Idx) : View.ld X (Rect.unit ![15, 2] ![1, 1] inb) y = X (ix2 (15 : Fin 64) (2 : Fin 4)) := ld_cell X 15 2 inb y
theorem x4_15_3 (X : (⟨2, ![64, 4]⟩ : Shape).Idx → Val e) (inb : ∀ a, (![15, 3] : Fin 2 → ℕ) a + (![1, 1] : Fin 2 → ℕ) a ≤ (⟨2, ![64, 4]⟩ : Shape).size a) (y : (⟨2, ![1, 1]⟩ : Shape).Idx) : View.ld X (Rect.unit ![15, 3] ![1, 1] inb) y = X (ix2 (15 : Fin 64) (3 : Fin 4)) := ld_cell X 15 3 inb y
theorem x4_16_0 (X : (⟨2, ![64, 4]⟩ : Shape).Idx → Val e) (inb : ∀ a, (![16, 0] : Fin 2 → ℕ) a + (![1, 1] : Fin 2 → ℕ) a ≤ (⟨2, ![64, 4]⟩ : Shape).size a) (y : (⟨2, ![1, 1]⟩ : Shape).Idx) : View.ld X (Rect.unit ![16, 0] ![1, 1] inb) y = X (ix2 (16 : Fin 64) (0 : Fin 4)) := ld_cell X 16 0 inb y
theorem x4_16_1 (X : (⟨2, ![64, 4]⟩ : Shape).Idx → Val e) (inb : ∀ a, (![16, 1] : Fin 2 → ℕ) a + (![1, 1] : Fin 2 → ℕ) a ≤ (⟨2, ![64, 4]⟩ : Shape).size a) (y : (⟨2, ![1, 1]⟩ : Shape).Idx) : View.ld X (Rect.unit ![16, 1] ![1, 1] inb) y = X (ix2 (16 : Fin 64) (1 : Fin 4)) := ld_cell X 16 1 inb y
theorem x4_16_2 (X : (⟨2, ![64, 4]⟩ : Shape).Idx → Val e) (inb : ∀ a, (![16, 2] : Fin 2 → ℕ) a + (![1, 1] : Fin 2 → ℕ) a ≤ (⟨2, ![64, 4]⟩ : Shape).size a) (y : (⟨2, ![1, 1]⟩ : Shape).Idx) : View.ld X (Rect.unit ![16, 2] ![1, 1] inb) y = X (ix2 (16 : Fin 64) (2 : Fin 4)) := ld_cell X 16 2 inb y
theorem x4_16_3 (X : (⟨2, ![64, 4]⟩ : Shape).Idx → Val e) (inb : ∀ a, (![16, 3] : Fin 2 → ℕ) a + (![1, 1] : Fin 2 → ℕ) a ≤ (⟨2, ![64, 4]⟩ : Shape).size a) (y : (⟨2, ![1, 1]⟩ : Shape).Idx) : View.ld X (Rect.unit ![16, 3] ![1, 1] inb) y = X (ix2 (16 : Fin 64) (3 : Fin 4)) := ld_cell X 16 3 inb y
theorem x4_17_0 (X : (⟨2, ![64, 4]⟩ : Shape).Idx → Val e) (inb : ∀ a, (![17, 0] : Fin 2 → ℕ) a + (![1, 1] : Fin 2 → ℕ) a ≤ (⟨2, ![64, 4]⟩ : Shape).size a) (y : (⟨2, ![1, 1]⟩ : Shape).Idx) : View.ld X (Rect.unit ![17, 0] ![1, 1] inb) y = X (ix2 (17 : Fin 64) (0 : Fin 4)) := ld_cell X 17 0 inb y
theorem x4_17_1 (X : (⟨2, ![64, 4]⟩ : Shape).Idx → Val e) (inb : ∀ a, (![17, 1] : Fin 2 → ℕ) a + (![1, 1] : Fin 2 → ℕ) a ≤ (⟨2, ![64, 4]⟩ : Shape).size a) (y : (⟨2, ![1, 1]⟩ : Shape).Idx) : View.ld X (Rect.unit ![17, 1] ![1, 1] inb) y = X (ix2 (17 : Fin 64) (1 : Fin 4)) := ld_cell X 17 1 inb y
theorem x4_17_2 (X : (⟨2, ![64, 4]⟩ : Shape).Idx → Val e) (inb : ∀ a, (![17, 2] : Fin 2 → ℕ) a + (![1, 1] : Fin 2 → ℕ) a ≤ (⟨2, ![64, 4]⟩ : Shape).size a) (y : (⟨2, ![1, 1]⟩ : Shape).Idx) : View.ld X (Rect.unit ![17, 2] ![1, 1] inb) y = X (ix2 (17 : Fin 64) (2 : Fin 4)) := ld_cell X 17 2 inb y
theorem x4_17_3 (X : (⟨2, ![64, 4]⟩ : Shape).Idx → Val e) (inb : ∀ a, (![17, 3] : Fin 2 → ℕ) a + (![1, 1] : Fin 2 → ℕ) a ≤ (⟨2, ![64, 4]⟩ : Shape).size a) (y : (⟨2, ![1, 1]⟩ : Shape).Idx) : View.ld X (Rect.unit ![17, 3] ![1, 1] inb) y = X (ix2 (17 : Fin 64) (3 : Fin 4)) := ld_cell X 17 3 inb y
theorem x4_18_0 (X : (⟨2, ![64, 4]⟩ : Shape).Idx → Val e) (inb : ∀ a, (![18, 0] : Fin 2 → ℕ) a + (![1, 1] : Fin 2 → ℕ) a ≤ (⟨2, ![64, 4]⟩ : Shape).size a) (y : (⟨2, ![1, 1]⟩ : Shape).Idx) : View.ld X (Rect.unit ![18, 0] ![1, 1] inb) y = X (ix2 (18 : Fin 64) (0 : Fin 4)) := ld_cell X 18 0 inb y
theorem x4_18_1 (X : (⟨2, ![64, 4]⟩ : Shape).Idx → Val e) (inb : ∀ a, (![18, 1] : Fin 2 → ℕ) a + (![1, 1] : Fin 2 → ℕ) a ≤ (⟨2, ![64, 4]⟩ : Shape).size a) (y : (⟨2, ![1, 1]⟩ : Shape).Idx) : View.ld X (Rect.unit ![18, 1] ![1, 1] inb) y = X (ix2 (18 : Fin 64) (1 : Fin 4)) := ld_cell X 18 1 inb y
theorem x4_18_2 (X : (⟨2, ![64, 4]⟩ : Shape).Idx → Val e) (inb : ∀ a, (![18, 2] : Fin 2 → ℕ) a + (![1, 1] : Fin 2 → ℕ) a ≤ (⟨2, ![64, 4]⟩ : Shape).size a) (y : (⟨2, ![1, 1]⟩ : Shape).Idx) : View.ld X (Rect.unit ![18, 2] ![1, 1] inb) y = X (ix2 (18 : Fin 64) (2 : Fin 4)) := ld_cell X 18 2 inb y
theorem x4_18_3 (X : (⟨2, ![64, 4]⟩ : Shape).Idx → Val e) (inb : ∀ a, (![18, 3] : Fin 2 → ℕ) a + (![1, 1] : Fin 2 → ℕ) a ≤ (⟨2, ![64, 4]⟩ : Shape).size a) (y : (⟨2, ![1, 1]⟩ : Shape).Idx) : View.ld X (Rect.unit ![18, 3] ![1, 1] inb) y = X (ix2 (18 : Fin 64) (3 : Fin 4)) := ld_cell X 18 3 inb y
theorem x4_19_0 (X : (⟨2, ![64, 4]⟩ : Shape).Idx → Val e) (inb : ∀ a, (![19, 0] : Fin 2 → ℕ) a + (![1, 1] : Fin 2 → ℕ) a ≤ (⟨2, ![64, 4]⟩ : Shape).size a) (y : (⟨2, ![1, 1]⟩ : Shape).Idx) : View.ld X (Rect.unit ![19, 0] ![1, 1] inb) y = X (ix2 (19 : Fin 64) (0 : Fin 4)) := ld_cell X 19 0 inb y
theorem x4_19_1 (X : (⟨2, ![64, 4]⟩ : Shape).Idx → Val e) (inb : ∀ a, (![19, 1] : Fin 2 → ℕ) a + (![1, 1] : Fin 2 → ℕ) a ≤ (⟨2, ![64, 4]⟩ : Shape).size a) (y : (⟨2, ![1, 1]⟩ : Shape).Idx) : View.ld X (Rect.unit ![19, 1] ![1, 1] inb) y = X (ix2 (19 : Fin 64) (1 : Fin 4)) := ld_cell X 19 1 inb y
theorem x4_19_2 (X : (⟨2, ![64, 4]⟩ : Shape).Idx → Val e) (inb : ∀ a, (![19, 2] : Fin 2 → ℕ) a + (![1, 1] : Fin 2 → ℕ) a ≤ (⟨2, ![64, 4]⟩ : Shape).size a) (y : (⟨2, ![1, 1]⟩ : Shape).Idx) : View.ld X (Rect.unit ![19, 2] ![1, 1] inb) y = X (ix2 (19 : Fin 64) (2 : Fin 4)) := ld_cell X 19 2 inb y
theorem x4_19_3 (X : (⟨2, ![64, 4]⟩ : Shape).Idx → Val e) (inb : ∀ a, (![19, 3] : Fin 2 → ℕ) a + (![1, 1] : Fin 2 → ℕ) a ≤ (⟨2, ![64, 4]⟩ : Shape).size a) (y : (⟨2, ![1, 1]⟩ : Shape).Idx) : View.ld X (Rect.unit ![19, 3] ![1, 1] inb) y = X (ix2 (19 : Fin 64) (3 : Fin 4)) := ld_cell X 19 3 inb y
theorem x4_20_0 (X : (⟨2, ![64, 4]⟩ : Shape).Idx → Val e) (inb : ∀ a, (![20, 0] : Fin 2 → ℕ) a + (![1, 1] : Fin 2 → ℕ) a ≤ (⟨2, ![64, 4]⟩ : Shape).size a) (y : (⟨2, ![1, 1]⟩ : Shape).Idx) : View.ld X (Rect.unit ![20, 0] ![1, 1] inb) y = X (ix2 (20 : Fin 64) (0 : Fin 4)) := ld_cell X 20 0 inb y
theorem x4_20_1 (X : (⟨2, ![64, 4]⟩ : Shape).Idx → Val e) (inb : ∀ a, (![20, 1] : Fin 2 → ℕ) a + (![1, 1] : Fin 2 → ℕ) a ≤ (⟨2, ![64, 4]⟩ : Shape).size a) (y : (⟨2, ![1, 1]⟩ : Shape).Idx) : View.ld X (Rect.unit ![20, 1] ![1, 1] inb) y = X (ix2 (20 : Fin 64) (1 : Fin 4)) := ld_cell X 20 1 inb y
theorem x4_20_2 (X : (⟨2, ![64, 4]⟩ : Shape).Idx → Val e) (inb : ∀ a, (![20, 2] : Fin 2 → ℕ) a + (![1, 1] : Fin 2 → ℕ) a ≤ (⟨2, ![64, 4]⟩ : Shape).size a) (y : (⟨2, ![1, 1]⟩ : Shape).Idx) : View.ld X (Rect.unit ![20, 2] ![1, 1] inb) y = X (ix2 (20 : Fin 64) (2 : Fin 4)) := ld_cell X 20 2 inb y
theorem x4_20_3 (X : (⟨2, ![64, 4]⟩ : Shape).Idx → Val e) (inb : ∀ a, (![20, 3] : Fin 2 → ℕ) a + (![1, 1] : Fin 2 → ℕ) a ≤ (⟨2, ![64, 4]⟩ : Shape).size a) (y : (⟨2, ![1, 1]⟩ : Shape).Idx) : View.ld X (Rect.unit ![20, 3] ![1, 1] inb) y = X (ix2 (20 : Fin 64) (3 : Fin 4)) := ld_cell X 20 3 inb y
theorem x4_21_0 (X : (⟨2, ![64, 4]⟩ : Shape).Idx → Val e) (inb : ∀ a, (![21, 0] : Fin 2 → ℕ) a + (![1, 1] : Fin 2 → ℕ) a ≤ (⟨2, ![64, 4]⟩ : Shape).size a) (y : (⟨2, ![1, 1]⟩ : Shape).Idx) : View.ld X (Rect.unit ![21, 0] ![1, 1] inb) y = X (ix2 (21 : Fin 64) (0 : Fin 4)) := ld_cell X 21 0 inb y
theorem x4_21_1 (X : (⟨2, ![64, 4]⟩ : Shape).Idx → Val e) (inb : ∀ a, (![21, 1] : Fin 2 → ℕ) a + (![1, 1] : Fin 2 → ℕ) a ≤ (⟨2, ![64, 4]⟩ : Shape).size a) (y : (⟨2, ![1, 1]⟩ : Shape).Idx) : View.ld X (Rect.unit ![21, 1] ![1, 1] inb) y = X (ix2 (21 : Fin 64) (1 : Fin 4)) := ld_cell X 21 1 inb y
theorem x4_21_2 (X : (⟨2, ![64, 4]⟩ : Shape).Idx → Val e) (inb : ∀ a, (![21, 2] : Fin 2 → ℕ) a + (![1, 1] : Fin 2 → ℕ) a ≤ (⟨2, ![64, 4]⟩ : Shape).size a) (y : (⟨2, ![1, 1]⟩ : Shape).Idx) : View.ld X (Rect.unit ![21, 2] ![1, 1] inb) y = X (ix2 (21 : Fin 64) (2 : Fin 4)) := ld_cell X 21 2 inb y
theorem x4_21_3 (X : (⟨2, ![64, 4]⟩ : Shape).Idx → Val e) (inb : ∀ a, (![21, 3] : Fin 2 → ℕ) a + (![1, 1] : Fin 2 → ℕ) a ≤ (⟨2, ![64, 4]⟩ : Shape).size a) (y : (⟨2, ![1, 1]⟩ : Shape).Idx) : View.ld X (Rect.unit ![21, 3] ![1, 1] inb) y = X (ix2 (21 : Fin 64) (3 : Fin 4)) := ld_cell X 21 3 inb y
theorem x4_22_0 (X : (⟨2, ![64, 4]⟩ : Shape).Idx → Val e) (inb : ∀ a, (![22, 0] : Fin 2 → ℕ) a + (![1, 1] : Fin 2 → ℕ) a ≤ (⟨2, ![64, 4]⟩ : Shape).size a) (y : (⟨2, ![1, 1]⟩ : Shape).Idx) : View.ld X (Rect.unit ![22, 0] ![1, 1] inb) y = X (ix2 (22 : Fin 64) (0 : Fin 4)) := ld_cell X 22 0 inb y
theorem x4_22_1 (X : (⟨2, ![64, 4]⟩ : Shape).Idx → Val e) (inb : ∀ a, (![22, 1] : Fin 2 → ℕ) a + (![1, 1] : Fin 2 → ℕ) a ≤ (⟨2, ![64, 4]⟩ : Shape).size a) (y : (⟨2, ![1, 1]⟩ : Shape).Idx) : View.ld X (Rect.unit ![22, 1] ![1, 1] inb) y = X (ix2 (22 : Fin 64) (1 : Fin 4)) := ld_cell X 22 1 inb y
theorem x4_22_2 (X : (⟨2, ![64, 4]⟩ : Shape).Idx → Val e) (inb : ∀ a, (![22, 2] : Fin 2 → ℕ) a + (![1, 1] : Fin 2 → ℕ) a ≤ (⟨2, ![64, 4]⟩ : Shape).size a) (y : (⟨2, ![1, 1]⟩ : Shape).Idx) : View.ld X (Rect.unit ![22, 2] ![1, 1] inb) y = X (ix2 (22 : Fin 64) (2 : Fin 4)) := ld_cell X 22 2 inb y
theorem x4_22_3 (X : (⟨2, ![64, 4]⟩ : Shape).Idx → Val e) (inb : ∀ a, (![22, 3] : Fin 2 → ℕ) a + (![1, 1] : Fin 2 → ℕ) a ≤ (⟨2, ![64, 4]⟩ : Shape).size a) (y : (⟨2, ![1, 1]⟩ : Shape).Idx) : View.ld X (Rect.unit ![22, 3] ![1, 1] inb) y = X (ix2 (22 : Fin 64) (3 : Fin 4)) := ld_cell X 22 3 inb y
theorem x4_23_0 (X : (⟨2, ![64, 4]⟩ : Shape).Idx → Val e) (inb : ∀ a, (![23, 0] : Fin 2 → ℕ) a + (![1, 1] : Fin 2 → ℕ) a ≤ (⟨2, ![64, 4]⟩ : Shape).size a) (y : (⟨2, ![1, 1]⟩ : Shape).Idx) : View.ld X (Rect.unit ![23, 0] ![1, 1] inb) y = X (ix2 (23 : Fin 64) (0 : Fin 4)) := ld_cell X 23 0 inb y
theorem x4_23_1 (X : (⟨2, ![64, 4]⟩ : Shape).Idx → Val e) (inb : ∀ a, (![23, 1] : Fin 2 → ℕ) a + (![1, 1] : Fin 2 → ℕ) a ≤ (⟨2, ![64, 4]⟩ : Shape).size a) (y : (⟨2, ![1, 1]⟩ : Shape).Idx) : View.ld X (Rect.unit ![23, 1] ![1, 1] inb) y = X (ix2 (23 : Fin 64) (1 : Fin 4)) := ld_cell X 23 1 inb y
theorem x4_23_2 (X : (⟨2, ![64, 4]⟩ : Shape).Idx → Val e) (inb : ∀ a, (![23, 2] : Fin 2 → ℕ) a + (![1, 1] : Fin 2 → ℕ) a ≤ (⟨2, ![64, 4]⟩ : Shape).size a) (y : (⟨2, ![1, 1]⟩ : Shape).Idx) : View.ld X (Rect.unit ![23, 2] ![1, 1] inb) y = X (ix2 (23 : Fin 64) (2 : Fin 4)) := ld_cell X 23 2 inb y
theorem x4_23_3 (X : (⟨2, ![64, 4]⟩ : Shape).Idx → Val e) (inb : ∀ a, (![23, 3] : Fin 2 → ℕ) a + (![1, 1] : Fin 2 → ℕ) a ≤ (⟨2, ![64, 4]⟩ : Shape).size a) (y : (⟨2, ![1, 1]⟩ : Shape).Idx) : View.ld X (Rect.unit ![23, 3] ![1, 1] inb) y = X (ix2 (23 : Fin 64) (3 : Fin 4)) := ld_cell X 23 3 inb y
theorem x4_24_0 (X : (⟨2, ![64, 4]⟩ : Shape).Idx → Val e) (inb : ∀ a, (![24, 0] : Fin 2 → ℕ) a + (![1, 1] : Fin 2 → ℕ) a ≤ (⟨2, ![64, 4]⟩ : Shape).size a) (y : (⟨2, ![1, 1]⟩ : Shape).Idx) : View.ld X (Rect.unit ![24, 0] ![1, 1] inb) y = X (ix2 (24 : Fin 64) (0 : Fin 4)) := ld_cell X 24 0 inb y
theorem x4_24_1 (X : (⟨2, ![64, 4]⟩ : Shape).Idx → Val e) (inb : ∀ a, (![24, 1] : Fin 2 → ℕ) a + (![1, 1] : Fin 2 → ℕ) a ≤ (⟨2, ![64, 4]⟩ : Shape).size a) (y : (⟨2, ![1, 1]⟩ : Shape).Idx) : View.ld X (Rect.unit ![24, 1] ![1, 1] inb) y = X (ix2 (24 : Fin 64) (1 : Fin 4)) := ld_cell X 24 1 inb y
theorem x4_24_2 (X : (⟨2, ![64, 4]⟩ : Shape).Idx → Val e) (inb : ∀ a, (![24, 2] : Fin 2 → ℕ) a + (![1, 1] : Fin 2 → ℕ) a ≤ (⟨2, ![64, 4]⟩ : Shape).size a) (y : (⟨2, ![1, 1]⟩ : Shape).Idx) : View.ld X (Rect.unit ![24, 2] ![1, 1] inb) y = X (ix2 (24 : Fin 64) (2 : Fin 4)) := ld_cell X 24 2 inb y
theorem x4_24_3 (X : (⟨2, ![64, 4]⟩ : Shape).Idx → Val e) (inb : ∀ a, (![24, 3] : Fin 2 → ℕ) a + (![1, 1] : Fin 2 → ℕ) a ≤ (⟨2, ![64, 4]⟩ : Shape).size a) (y : (⟨2, ![1, 1]⟩ : Shape).Idx) : View.ld X (Rect.unit ![24, 3] ![1, 1] inb) y = X (ix2 (24 : Fin 64) (3 : Fin 4)) := ld_cell X 24 3 inb y
theorem x4_25_0 (X : (⟨2, ![64, 4]⟩ : Shape).Idx → Val e) (inb : ∀ a, (![25, 0] : Fin 2 → ℕ) a + (![1, 1] : Fin 2 → ℕ) a ≤ (⟨2, ![64, 4]⟩ : Shape).size a) (y : (⟨2, ![1, 1]⟩ : Shape).Idx) : View.ld X (Rect.unit ![25, 0] ![1, 1] inb) y = X (ix2 (25 : Fin 64) (0 : Fin 4)) := ld_cell X 25 0 inb y
theorem x4_25_1 (X : (⟨2, ![64, 4]⟩ : Shape).Idx → Val e) (inb : ∀ a, (![25, 1] : Fin 2 → ℕ) a + (![1, 1] : Fin 2 → ℕ) a ≤ (⟨2, ![64, 4]⟩ : Shape).size a) (y : (⟨2, ![1, 1]⟩ : Shape).Idx) : View.ld X (Rect.unit ![25, 1] ![1, 1] inb) y = X (ix2 (25 : Fin 64) (1 : Fin 4)) := ld_cell X 25 1 inb y
theorem x4_25_2 (X : (⟨2, ![64, 4]⟩ : Shape).Idx → Val e) (inb : ∀ a, (![25, 2] : Fin 2 → ℕ) a + (![1, 1] : Fin 2 → ℕ) a ≤ (⟨2, ![64, 4]⟩ : Shape).size a) (y : (⟨2, ![1, 1]⟩ : Shape).Idx) : View.ld X (Rect.unit ![25, 2] ![1, 1] inb) y = X (ix2 (25 : Fin 64) (2 : Fin 4)) := ld_cell X 25 2 inb y
theorem x4_25_3 (X : (⟨2, ![64, 4]⟩ : Shape).Idx → Val e) (inb : ∀ a, (![25, 3] : Fin 2 → ℕ) a + (![1, 1] : Fin 2 → ℕ) a ≤ (⟨2, ![64, 4]⟩ : Shape).size a) (y : (⟨2, ![1, 1]⟩ : Shape).Idx) : View.ld X (Rect.unit ![25, 3] ![1, 1] inb) y = X (ix2 (25 : Fin 64) (3 : Fin 4)) := ld_cell X 25 3 inb y
theorem x4_26_0 (X : (⟨2, ![64, 4]⟩ : Shape).Idx → Val e) (inb : ∀ a, (![26, 0] : Fin 2 → ℕ) a + (![1, 1] : Fin 2 → ℕ) a ≤ (⟨2, ![64, 4]⟩ : Shape).size a) (y : (⟨2, ![1, 1]⟩ : Shape).Idx) : View.ld X (Rect.unit ![26, 0] ![1, 1] inb) y = X (ix2 (26 : Fin 64) (0 : Fin 4)) := ld_cell X 26 0 inb y
theorem x4_26_1 (X : (⟨2, ![64, 4]⟩ : Shape).Idx → Val e) (inb : ∀ a, (![26, 1] : Fin 2 → ℕ) a + (![1, 1] : Fin 2 → ℕ) a ≤ (⟨2, ![64, 4]⟩ : Shape).size a) (y : (⟨2, ![1, 1]⟩ : Shape).Idx) : View.ld X (Rect.unit ![26, 1] ![1, 1] inb) y = X (ix2 (26 : Fin 64) (1 : Fin 4)) := ld_cell X 26 1 inb y
theorem x4_26_2 (X : (⟨2, ![64, 4]⟩ : Shape).Idx → Val e) (inb : ∀ a, (![26, 2] : Fin 2 → ℕ) a + (![1, 1] : Fin 2 → ℕ) a ≤ (⟨2, ![64, 4]⟩ : Shape).size a) (y : (⟨2, ![1, 1]⟩ : Shape).Idx) : View.ld X (Rect.unit ![26, 2] ![1, 1] inb) y = X (ix2 (26 : Fin 64) (2 : Fin 4)) := ld_cell X 26 2 inb y
theorem x4_26_3 (X : (⟨2, ![64, 4]⟩ : Shape).Idx → Val e) (inb : ∀ a, (![26, 3] : Fin 2 → ℕ) a + (![1, 1] : Fin 2 → ℕ) a ≤ (⟨2, ![64, 4]⟩ : Shape).size a) (y : (⟨2, ![1, 1]⟩ : Shape).Idx) : View.ld X (Rect.unit ![26, 3] ![1, 1] inb) y = X (ix2 (26 : Fin 64) (3 : Fin 4)) := ld_cell X 26 3 inb y
theorem x4_27_0 (X : (⟨2, ![64, 4]⟩ : Shape).Idx → Val e) (inb : ∀ a, (![27, 0] : Fin 2 → ℕ) a + (![1, 1] : Fin 2 → ℕ) a ≤ (⟨2, ![64, 4]⟩ : Shape).size a) (y : (⟨2, ![1, 1]⟩ : Shape).Idx) : View.ld X (Rect.unit ![27, 0] ![1, 1] inb) y = X (ix2 (27 : Fin 64) (0 : Fin 4)) := ld_cell X 27 0 inb y
theorem x4_27_1 (X : (⟨2, ![64, 4]⟩ : Shape).Idx → Val e) (inb : ∀ a, (![27, 1] : Fin 2 → ℕ) a + (![1, 1] : Fin 2 → ℕ) a ≤ (⟨2, ![64, 4]⟩ : Shape).size a) (y : (⟨2, ![1, 1]⟩ : Shape).Idx) : View.ld X (Rect.unit ![27, 1] ![1, 1] inb) y = X (ix2 (27 : Fin 64) (1 : Fin 4)) := ld_cell X 27 1 inb y
theorem x4_27_2 (X : (⟨2, ![64, 4]⟩ : Shape).Idx → Val e) (inb : ∀ a, (![27, 2] : Fin 2 → ℕ) a + (![1, 1] : Fin 2 → ℕ) a ≤ (⟨2, ![64, 4]⟩ : Shape).size a) (y : (⟨2, ![1, 1]⟩ : Shape).Idx) : View.ld X (Rect.unit ![27, 2] ![1, 1] inb) y = X (ix2 (27 : Fin 64) (2 : Fin 4)) := ld_cell X 27 2 inb y
theorem x4_27_3 (X : (⟨2, ![64, 4]⟩ : Shape).Idx → Val e) (inb : ∀ a, (![27, 3] : Fin 2 → ℕ) a + (![1, 1] : Fin 2 → ℕ) a ≤ (⟨2, ![64, 4]⟩ : Shape).size a) (y : (⟨2, ![1, 1]⟩ : Shape).Idx) : View.ld X (Rect.unit ![27, 3] ![1, 1] inb) y = X (ix2 (27 : Fin 64) (3 : Fin 4)) := ld_cell X 27 3 inb y
theorem x4_28_0 (X : (⟨2, ![64, 4]⟩ : Shape).Idx → Val e) (inb : ∀ a, (![28, 0] : Fin 2 → ℕ) a + (![1, 1] : Fin 2 → ℕ) a ≤ (⟨2, ![64, 4]⟩ : Shape).size a) (y : (⟨2, ![1, 1]⟩ : Shape).Idx) : View.ld X (Rect.unit ![28, 0] ![1, 1] inb) y = X (ix2 (28 : Fin 64) (0 : Fin 4)) := ld_cell X 28 0 inb y
theorem x4_28_1 (X : (⟨2, ![64, 4]⟩ : Shape).Idx → Val e) (inb : ∀ a, (![28, 1] : Fin 2 → ℕ) a + (![1, 1] : Fin 2 → ℕ) a ≤ (⟨2, ![64, 4]⟩ : Shape).size a) (y : (⟨2, ![1, 1]⟩ : Shape).Idx) : View.ld X (Rect.unit ![28, 1] ![1, 1] inb) y = X (ix2 (28 : Fin 64) (1 : Fin 4)) := ld_cell X 28 1 inb y
theorem x4_28_2 (X : (⟨2, ![64, 4]⟩ : Shape).Idx → Val e) (inb : ∀ a, (![28, 2] : Fin 2 → ℕ) a + (![1, 1] : Fin 2 → ℕ) a ≤ (⟨2, ![64, 4]⟩ : Shape).size a) (y : (⟨2, ![1, 1]⟩ : Shape).Idx) : View.ld X (Rect.unit ![28, 2] ![1, 1] inb) y = X (ix2 (28 : Fin 64) (2 : Fin 4)) := ld_cell X 28 2 inb y
theorem x4_28_3 (X : (⟨2, ![64, 4]⟩ : Shape).Idx → Val e) (inb : ∀ a, (![28, 3] : Fin 2 → ℕ) a + (![1, 1] : Fin 2 → ℕ) a ≤ (⟨2, ![64, 4]⟩ : Shape).size a) (y : (⟨2, ![1, 1]⟩ : Shape).Idx) : View.ld X (Rect.unit ![28, 3] ![1, 1] inb) y = X (ix2 (28 : Fin 64) (3 : Fin 4)) := ld_cell X 28 3 inb y
theorem x4_29_0 (X : (⟨2, ![64, 4]⟩ : Shape).Idx → Val e) (inb : ∀ a, (![29, 0] : Fin 2 → ℕ) a + (![1, 1] : Fin 2 → ℕ) a ≤ (⟨2, ![64, 4]⟩ : Shape).size a) (y : (⟨2, ![1, 1]⟩ : Shape).Idx) : View.ld X (Rect.unit ![29, 0] ![1, 1] inb) y = X (ix2 (29 : Fin 64) (0 : Fin 4)) := ld_cell X 29 0 inb y
theorem x4_29_1 (X : (⟨2, ![64, 4]⟩ : Shape).Idx → Val e) (inb : ∀ a, (![29, 1] : Fin 2 → ℕ) a + (![1, 1] : Fin 2 → ℕ) a ≤ (⟨2, ![64, 4]⟩ : Shape).size a) (y : (⟨2, ![1, 1]⟩ : Shape).Idx) : View.ld X (Rect.unit ![29, 1] ![1, 1] inb) y = X (ix2 (29 : Fin 64) (1 : Fin 4)) := ld_cell X 29 1 inb y
theorem x4_29_2 (X : (⟨2, ![64, 4]⟩ : Shape).Idx → Val e) (inb : ∀ a, (![29, 2] : Fin 2 → ℕ) a + (![1, 1] : Fin 2 → ℕ) a ≤ (⟨2, ![64, 4]⟩ : Shape).size a) (y : (⟨2, ![1, 1]⟩ : Shape).Idx) : View.ld X (Rect.unit ![29, 2] ![1, 1] inb) y = X (ix2 (29 : Fin 64) (2 : Fin 4)) := ld_cell X 29 2 inb y
theorem x4_29_3 (X : (⟨2, ![64, 4]⟩ : Shape).Idx → Val e) (inb : ∀ a, (![29, 3] : Fin 2 → ℕ) a + (![1, 1] : Fin 2 → ℕ) a ≤ (⟨2, ![64, 4]⟩ : Shape).size a) (y : (⟨2, ![1, 1]⟩ : Shape).Idx) : View.ld X (Rect.unit ![29, 3] ![1, 1] inb) y = X (ix2 (29 : Fin 64) (3 : Fin 4)) := ld_cell X 29 3 inb y
theorem x4_30_0 (X : (⟨2, ![64, 4]⟩ : Shape).Idx → Val e) (inb : ∀ a, (![30, 0] : Fin 2 → ℕ) a + (![1, 1] : Fin 2 → ℕ) a ≤ (⟨2, ![64, 4]⟩ : Shape).size a) (y : (⟨2, ![1, 1]⟩ : Shape).Idx) : View.ld X (Rect.unit ![30, 0] ![1, 1] inb) y = X (ix2 (30 : Fin 64) (0 : Fin 4)) := ld_cell X 30 0 inb y
theorem x4_30_1 (X : (⟨2, ![64, 4]⟩ : Shape).Idx → Val e) (inb : ∀ a, (![30, 1] : Fin 2 → ℕ) a + (![1, 1] : Fin 2 → ℕ) a ≤ (⟨2, ![64, 4]⟩ : Shape).size a) (y : (⟨2, ![1, 1]⟩ : Shape).Idx) : View.ld X (Rect.unit ![30, 1] ![1, 1] inb) y = X (ix2 (30 : Fin 64) (1 : Fin 4)) := ld_cell X 30 1 inb y
theorem x4_30_2 (X : (⟨2, ![64, 4]⟩ : Shape).Idx → Val e) (inb : ∀ a, (![30, 2] : Fin 2 → ℕ) a + (![1, 1] : Fin 2 → ℕ) a ≤ (⟨2, ![64, 4]⟩ : Shape).size a) (y : (⟨2, ![1, 1]⟩ : Shape).Idx) : View.ld X (Rect.unit ![30, 2] ![1, 1] inb) y = X (ix2 (30 : Fin 64) (2 : Fin 4)) := ld_cell X 30 2 inb y
theorem x4_30_3 (X : (⟨2, ![64, 4]⟩ : Shape).Idx → Val e) (inb : ∀ a, (![30, 3] : Fin 2 → ℕ) a + (![1, 1] : Fin 2 → ℕ) a ≤ (⟨2, ![64, 4]⟩ : Shape).size a) (y : (⟨2, ![1, 1]⟩ : Shape).Idx) : View.ld X (Rect.unit ![30, 3] ![1, 1] inb) y = X (ix2 (30 : Fin 64) (3 : Fin 4)) := ld_cell X 30 3 inb y
theorem x4_31_0 (X : (⟨2, ![64, 4]⟩ : Shape).Idx → Val e) (inb : ∀ a, (![31, 0] : Fin 2 → ℕ) a + (![1, 1] : Fin 2 → ℕ) a ≤ (⟨2, ![64, 4]⟩ : Shape).size a) (y : (⟨2, ![1, 1]⟩ : Shape).Idx) : View.ld X (Rect.unit ![31, 0] ![1, 1] inb) y = X (ix2 (31 : Fin 64) (0 : Fin 4)) := ld_cell X 31 0 inb y
theorem x4_31_1 (X : (⟨2, ![64, 4]⟩ : Shape).Idx → Val e) (inb : ∀ a, (![31, 1] : Fin 2 → ℕ) a + (![1, 1] : Fin 2 → ℕ) a ≤ (⟨2, ![64, 4]⟩ : Shape).size a) (y : (⟨2, ![1, 1]⟩ : Shape).Idx) : View.ld X (Rect.unit ![31, 1] ![1, 1] inb) y = X (ix2 (31 : Fin 64) (1 : Fin 4)) := ld_cell X 31 1 inb y
theorem x4_31_2 (X : (⟨2, ![64, 4]⟩ : Shape).Idx → Val e) (inb : ∀ a, (![31, 2] : Fin 2 → ℕ) a + (![1, 1] : Fin 2 → ℕ) a ≤ (⟨2, ![64, 4]⟩ : Shape).size a) (y : (⟨2, ![1, 1]⟩ : Shape).Idx) : View.ld X (Rect.unit ![31, 2] ![1, 1] inb) y = X (ix2 (31 : Fin 64) (2 : Fin 4)) := ld_cell X 31 2 inb y
theorem x4_31_3 (X : (⟨2, ![64, 4]⟩ : Shape).Idx → Val e) (inb : ∀ a, (![31, 3] : Fin 2 → ℕ) a + (![1, 1] : Fin 2 → ℕ) a ≤ (⟨2, ![64, 4]⟩ : Shape).size a) (y : (⟨2, ![1, 1]⟩ : Shape).Idx) : View.ld X (Rect.unit ![31, 3] ![1, 1] inb) y = X (ix2 (31 : Fin 64) (3 : Fin 4)) := ld_cell X 31 3 inb y
theorem x4_32_0 (X : (⟨2, ![64, 4]⟩ : Shape).Idx → Val e) (inb : ∀ a, (![32, 0] : Fin 2 → ℕ) a + (![1, 1] : Fin 2 → ℕ) a ≤ (⟨2, ![64, 4]⟩ : Shape).size a) (y : (⟨2, ![1, 1]⟩ : Shape).Idx) : View.ld X (Rect.unit ![32, 0] ![1, 1] inb) y = X (ix2 (32 : Fin 64) (0 : Fin 4)) := ld_cell X 32 0 inb y
theorem x4_32_1 (X : (⟨2, ![64, 4]⟩ : Shape).Idx → Val e) (inb : ∀ a, (![32, 1] : Fin 2 → ℕ) a + (![1, 1] : Fin 2 → ℕ) a ≤ (⟨2, ![64, 4]⟩ : Shape).size a) (y : (⟨2, ![1, 1]⟩ : Shape).Idx) : View.ld X (Rect.unit ![32, 1] ![1, 1] inb) y = X (ix2 (32 : Fin 64) (1 : Fin 4)) := ld_cell X 32 1 inb y
theorem x4_32_2 (X : (⟨2, ![64, 4]⟩ : Shape).Idx → Val e) (inb : ∀ a, (![32, 2] : Fin 2 → ℕ) a + (![1, 1] : Fin 2 → ℕ) a ≤ (⟨2, ![64, 4]⟩ : Shape).size a) (y : (⟨2, ![1, 1]⟩ : Shape).Idx) : View.ld X (Rect.unit ![32, 2] ![1, 1] inb) y = X (ix2 (32 : Fin 64) (2 : Fin 4)) := ld_cell X 32 2 inb y
theorem x4_32_3 (X : (⟨2, ![64, 4]⟩ : Shape).Idx → Val e) (inb : ∀ a, (![32, 3] : Fin 2 → ℕ) a + (![1, 1] : Fin 2 → ℕ) a ≤ (⟨2, ![64, 4]⟩ : Shape).size a) (y : (⟨2, ![1, 1]⟩ : Shape).Idx) : View.ld X (Rect.unit ![32, 3] ![1, 1] inb) y = X (ix2 (32 : Fin 64) (3 : Fin 4)) := ld_cell X 32 3 inb y
theorem x4_33_0 (X : (⟨2, ![64, 4]⟩ : Shape).Idx → Val e) (inb : ∀ a, (![33, 0] : Fin 2 → ℕ) a + (![1, 1] : Fin 2 → ℕ) a ≤ (⟨2, ![64, 4]⟩ : Shape).size a) (y : (⟨2, ![1, 1]⟩ : Shape).Idx) : View.ld X (Rect.unit ![33, 0] ![1, 1] inb) y = X (ix2 (33 : Fin 64) (0 : Fin 4)) := ld_cell X 33 0 inb y
theorem x4_33_1 (X : (⟨2, ![64, 4]⟩ : Shape).Idx → Val e) (inb : ∀ a, (![33, 1] : Fin 2 → ℕ) a + (![1, 1] : Fin 2 → ℕ) a ≤ (⟨2, ![64, 4]⟩ : Shape).size a) (y : (⟨2, ![1, 1]⟩ : Shape).Idx) : View.ld X (Rect.unit ![33, 1] ![1, 1] inb) y = X (ix2 (33 : Fin 64) (1 : Fin 4)) := ld_cell X 33 1 inb y
theorem x4_33_2 (X : (⟨2, ![64, 4]⟩ : Shape).Idx → Val e) (inb : ∀ a, (![33, 2] : Fin 2 → ℕ) a + (![1, 1] : Fin 2 → ℕ) a ≤ (⟨2, ![64, 4]⟩ : Shape).size a) (y : (⟨2, ![1, 1]⟩ : Shape).Idx) : View.ld X (Rect.unit ![33, 2] ![1, 1] inb) y = X (ix2 (33 : Fin 64) (2 : Fin 4)) := ld_cell X 33 2 inb y
theorem x4_33_3 (X : (⟨2, ![64, 4]⟩ : Shape).Idx → Val e) (inb : ∀ a, (![33, 3] : Fin 2 → ℕ) a + (![1, 1] : Fin 2 → ℕ) a ≤ (⟨2, ![64, 4]⟩ : Shape).size a) (y : (⟨2, ![1, 1]⟩ : Shape).Idx) : View.ld X (Rect.unit ![33, 3] ![1, 1] inb) y = X (ix2 (33 : Fin 64) (3 : Fin 4)) := ld_cell X 33 3 inb y
theorem x4_34_0 (X : (⟨2, ![64, 4]⟩ : Shape).Idx → Val e) (inb : ∀ a, (![34, 0] : Fin 2 → ℕ) a + (![1, 1] : Fin 2 → ℕ) a ≤ (⟨2, ![64, 4]⟩ : Shape).size a) (y : (⟨2, ![1, 1]⟩ : Shape).Idx) : View.ld X (Rect.unit ![34, 0] ![1, 1] inb) y = X (ix2 (34 : Fin 64) (0 : Fin 4)) := ld_cell X 34 0 inb y
theorem x4_34_1 (X : (⟨2, ![64, 4]⟩ : Shape).Idx → Val e) (inb : ∀ a, (![34, 1] : Fin 2 → ℕ) a + (![1, 1] : Fin 2 → ℕ) a ≤ (⟨2, ![64, 4]⟩ : Shape).size a) (y : (⟨2, ![1, 1]⟩ : Shape).Idx) : View.ld X (Rect.unit ![34, 1] ![1, 1] inb) y = X (ix2 (34 : Fin 64) (1 : Fin 4)) := ld_cell X 34 1 inb y
theorem x4_34_2 (X : (⟨2, ![64, 4]⟩ : Shape).Idx → Val e) (inb : ∀ a, (![34, 2] : Fin 2 → ℕ) a + (![1, 1] : Fin 2 → ℕ) a ≤ (⟨2, ![64, 4]⟩ : Shape).size a) (y : (⟨2, ![1, 1]⟩ : Shape).Idx) : View.ld X (Rect.unit ![34, 2] ![1, 1] inb) y = X (ix2 (34 : Fin 64) (2 : Fin 4)) := ld_cell X 34 2 inb y
theorem x4_34_3 (X : (⟨2, ![64, 4]⟩ : Shape).Idx → Val e) (inb : ∀ a, (![34, 3] : Fin 2 → ℕ) a + (![1, 1] : Fin 2 → ℕ) a ≤ (⟨2, ![64, 4]⟩ : Shape).size a) (y : (⟨2, ![1, 1]⟩ : Shape).Idx) : View.ld X (Rect.unit ![34, 3] ![1, 1] inb) y = X (ix2 (34 : Fin 64) (3 : Fin 4)) := ld_cell X 34 3 inb y
theorem x4_35_0 (X : (⟨2, ![64, 4]⟩ : Shape).Idx → Val e) (inb : ∀ a, (![35, 0] : Fin 2 → ℕ) a + (![1, 1] : Fin 2 → ℕ) a ≤ (⟨2, ![64, 4]⟩ : Shape).size a) (y : (⟨2, ![1, 1]⟩ : Shape).Idx) : View.ld X (Rect.unit ![35, 0] ![1, 1] inb) y = X (ix2 (35 : Fin 64) (0 : Fin 4)) := ld_cell X 35 0 inb y
theorem x4_35_1 (X : (⟨2, ![64, 4]⟩ : Shape).Idx → Val e) (inb : ∀ a, (![35, 1] : Fin 2 → ℕ) a + (![1, 1] : Fin 2 → ℕ) a ≤ (⟨2, ![64, 4]⟩ : Shape).size a) (y : (⟨2, ![1, 1]⟩ : Shape).Idx) : View.ld X (Rect.unit ![35, 1] ![1, 1] inb) y = X (ix2 (35 : Fin 64) (1 : Fin 4)) := ld_cell X 35 1 inb y
theorem x4_35_2 (X : (⟨2, ![64, 4]⟩ : Shape).Idx → Val e) (inb : ∀ a, (![35, 2] : Fin 2 → ℕ) a + (![1, 1] : Fin 2 → ℕ) a ≤ (⟨2, ![64, 4]⟩ : Shape).size a) (y : (⟨2, ![1, 1]⟩ : Shape).Idx) : View.ld X (Rect.unit ![35, 2] ![1, 1] inb) y = X (ix2 (35 : Fin 64) (2 : Fin 4)) := ld_cell X 35 2 inb y
theorem x4_35_3 (X : (⟨2, ![64, 4]⟩ : Shape).Idx → Val e) (inb : ∀ a, (![35, 3] : Fin 2 → ℕ) a + (![1, 1] : Fin 2 → ℕ) a ≤ (⟨2, ![64, 4]⟩ : Shape).size a) (y : (⟨2, ![1, 1]⟩ : Shape).Idx) : View.ld X (Rect.unit ![35, 3] ![1, 1] inb) y = X (ix2 (35 : Fin 64) (3 : Fin 4)) := ld_cell X 35 3 inb y
theorem x4_36_0 (X : (⟨2, ![64, 4]⟩ : Shape).Idx → Val e) (inb : ∀ a, (![36, 0] : Fin 2 → ℕ) a + (![1, 1] : Fin 2 → ℕ) a ≤ (⟨2, ![64, 4]⟩ : Shape).size a) (y : (⟨2, ![1, 1]⟩ : Shape).Idx) : View.ld X (Rect.unit ![36, 0] ![1, 1] inb) y = X (ix2 (36 : Fin 64) (0 : Fin 4)) := ld_cell X 36 0 inb y
theorem x4_36_1 (X : (⟨2, ![64, 4]⟩ : Shape).Idx → Val e) (inb : ∀ a, (![36, 1] : Fin 2 → ℕ) a + (![1, 1] : Fin 2 → ℕ) a ≤ (⟨2, ![64, 4]⟩ : Shape).size a) (y : (⟨2, ![1, 1]⟩ : Shape).Idx) : View.ld X (Rect.unit ![36, 1] ![1, 1] inb) y = X (ix2 (36 : Fin 64) (1 : Fin 4)) := ld_cell X 36 1 inb y
theorem x4_36_2 (X : (⟨2, ![64, 4]⟩ : Shape).Idx → Val e) (inb : ∀ a, (![36, 2] : Fin 2 → ℕ) a + (![1, 1] : Fin 2 → ℕ) a ≤ (⟨2, ![64, 4]⟩ : Shape).size a) (y : (⟨2, ![1, 1]⟩ : Shape).Idx) : View.ld X (Rect.unit ![36, 2] ![1, 1] inb) y = X (ix2 (36 : Fin 64) (2 : Fin 4)) := ld_cell X 36 2 inb y
theorem x4_36_3 (X : (⟨2, ![64, 4]⟩ : Shape).Idx → Val e) (inb : ∀ a, (![36, 3] : Fin 2 → ℕ) a + (![1, 1] : Fin 2 → ℕ) a ≤ (⟨2, ![64, 4]⟩ : Shape).size a) (y : (⟨2, ![1, 1]⟩ : Shape).Idx) : View.ld X (Rect.unit ![36, 3] ![1, 1] inb) y = X (ix2 (36 : Fin 64) (3 : Fin 4)) := ld_cell X 36 3 inb y
theorem x4_37_0 (X : (⟨2, ![64, 4]⟩ : Shape).Idx → Val e) (inb : ∀ a, (![37, 0] : Fin 2 → ℕ) a + (![1, 1] : Fin 2 → ℕ) a ≤ (⟨2, ![64, 4]⟩ : Shape).size a) (y : (⟨2, ![1, 1]⟩ : Shape).Idx) : View.ld X (Rect.unit ![37, 0] ![1, 1] inb) y = X (ix2 (37 : Fin 64) (0 : Fin 4)) := ld_cell X 37 0 inb y
theorem x4_37_1 (X : (⟨2, ![64, 4]⟩ : Shape).Idx → Val e) (inb : ∀ a, (![37, 1] : Fin 2 → ℕ) a + (![1, 1] : Fin 2 → ℕ) a ≤ (⟨2, ![64, 4]⟩ : Shape).size a) (y : (⟨2, ![1, 1]⟩ : Shape).Idx) : View.ld X (Rect.unit ![37, 1] ![1, 1] inb) y = X (ix2 (37 : Fin 64) (1 : Fin 4)) := ld_cell X 37 1 inb y
theorem x4_37_2 (X : (⟨2, ![64, 4]⟩ : Shape).Idx → Val e) (inb : ∀ a, (![37, 2] : Fin 2 → ℕ) a + (![1, 1] : Fin 2 → ℕ) a ≤ (⟨2, ![64, 4]⟩ : Shape).size a) (y : (⟨2, ![1, 1]⟩ : Shape).Idx) : View.ld X (Rect.unit ![37, 2] ![1, 1] inb) y = X (ix2 (37 : Fin 64) (2 : Fin 4)) := ld_cell X 37 2 inb y
theorem x4_37_3 (X : (⟨2, ![64, 4]⟩ : Shape).Idx → Val e) (inb : ∀ a, (![37, 3] : Fin 2 → ℕ) a + (![1, 1] : Fin 2 → ℕ) a ≤ (⟨2, ![64, 4]⟩ : Shape).size a) (y : (⟨2, ![1, 1]⟩ : Shape).Idx) : View.ld X (Rect.unit ![37, 3] ![1, 1] inb) y = X (ix2 (37 : Fin 64) (3 : Fin 4)) := ld_cell X 37 3 inb y
theorem x4_38_0 (X : (⟨2, ![64, 4]⟩ : Shape).Idx → Val e) (inb : ∀ a, (![38, 0] : Fin 2 → ℕ) a + (![1, 1] : Fin 2 → ℕ) a ≤ (⟨2, ![64, 4]⟩ : Shape).size a) (y : (⟨2, ![1, 1]⟩ : Shape).Idx) : View.ld X (Rect.unit ![38, 0] ![1, 1] inb) y = X (ix2 (38 : Fin 64) (0 : Fin 4)) := ld_cell X 38 0 inb y
theorem x4_38_1 (X : (⟨2, ![64, 4]⟩ : Shape).Idx → Val e) (inb : ∀ a, (![38, 1] : Fin 2 → ℕ) a + (![1, 1] : Fin 2 → ℕ) a ≤ (⟨2, ![64, 4]⟩ : Shape).size a) (y : (⟨2, ![1, 1]⟩ : Shape).Idx) : View.ld X (Rect.unit ![38, 1] ![1, 1] inb) y = X (ix2 (38 : Fin 64) (1 : Fin 4)) := ld_cell X 38 1 inb y
theorem x4_38_2 (X : (⟨2, ![64, 4]⟩ : Shape).Idx → Val e) (inb : ∀ a, (![38, 2] : Fin 2 → ℕ) a + (![1, 1] : Fin 2 → ℕ) a ≤ (⟨2, ![64, 4]⟩ : Shape).size a) (y : (⟨2, ![1, 1]⟩ : Shape).Idx) : View.ld X (Rect.unit ![38, 2] ![1, 1] inb) y = X (ix2 (38 : Fin 64) (2 : Fin 4)) := ld_cell X 38 2 inb y
theorem x4_38_3 (X : (⟨2, ![64, 4]⟩ : Shape).Idx → Val e) (inb : ∀ a, (![38, 3] : Fin 2 → ℕ) a + (![1, 1] : Fin 2 → ℕ) a ≤ (⟨2, ![64, 4]⟩ : Shape).size a) (y : (⟨2, ![1, 1]⟩ : Shape).Idx) : View.ld X (Rect.unit ![38, 3] ![1, 1] inb) y = X (ix2 (38 : Fin 64) (3 : Fin 4)) := ld_cell X 38 3 inb y
theorem x4_39_0 (X : (⟨2, ![64, 4]⟩ : Shape).Idx → Val e) (inb : ∀ a, (![39, 0] : Fin 2 → ℕ) a + (![1, 1] : Fin 2 → ℕ) a ≤ (⟨2, ![64, 4]⟩ : Shape).size a) (y : (⟨2, ![1, 1]⟩ : Shape).Idx) : View.ld X (Rect.unit ![39, 0] ![1, 1] inb) y = X (ix2 (39 : Fin 64) (0 : Fin 4)) := ld_cell X 39 0 inb y
theorem x4_39_1 (X : (⟨2, ![64, 4]⟩ : Shape).Idx → Val e) (inb : ∀ a, (![39, 1] : Fin 2 → ℕ) a + (![1, 1] : Fin 2 → ℕ) a ≤ (⟨2, ![64, 4]⟩ : Shape).size a) (y : (⟨2, ![1, 1]⟩ : Shape).Idx) : View.ld X (Rect.unit ![39, 1] ![1, 1] inb) y = X (ix2 (39 : Fin 64) (1 : Fin 4)) := ld_cell X 39 1 inb y
theorem x4_39_2 (X : (⟨2, ![64, 4]⟩ : Shape).Idx → Val e) (inb : ∀ a, (![39, 2] : Fin 2 → ℕ) a + (![1, 1] : Fin 2 → ℕ) a ≤ (⟨2, ![64, 4]⟩ : Shape).size a) (y : (⟨2, ![1, 1]⟩ : Shape).Idx) : View.ld X (Rect.unit ![39, 2] ![1, 1] inb) y = X (ix2 (39 : Fin 64) (2 : Fin 4)) := ld_cell X 39 2 inb y
theorem x4_39_3 (X : (⟨2, ![64, 4]⟩ : Shape).Idx → Val e) (inb : ∀ a, (![39, 3] : Fin 2 → ℕ) a + (![1, 1] : Fin 2 → ℕ) a ≤ (⟨2, ![64, 4]⟩ : Shape).size a) (y : (⟨2, ![1, 1]⟩ : Shape).Idx) : View.ld X (Rect.unit ![39, 3] ![1, 1] inb) y = X (ix2 (39 : Fin 64) (3 : Fin 4)) := ld_cell X 39 3 inb y
theorem x4_40_0 (X : (⟨2, ![64, 4]⟩ : Shape).Idx → Val e) (inb : ∀ a, (![40, 0] : Fin 2 → ℕ) a + (![1, 1] : Fin 2 → ℕ) a ≤ (⟨2, ![64, 4]⟩ : Shape).size a) (y : (⟨2, ![1, 1]⟩ : Shape).Idx) : View.ld X (Rect.unit ![40, 0] ![1, 1] inb) y = X (ix2 (40 : Fin 64) (0 : Fin 4)) := ld_cell X 40 0 inb y
theorem x4_40_1 (X : (⟨2, ![64, 4]⟩ : Shape).Idx → Val e) (inb : ∀ a, (![40, 1] : Fin 2 → ℕ) a + (![1, 1] : Fin 2 → ℕ) a ≤ (⟨2, ![64, 4]⟩ : Shape).size a) (y : (⟨2, ![1, 1]⟩ : Shape).Idx) : View.ld X (Rect.unit ![40, 1] ![1, 1] inb) y = X (ix2 (40 : Fin 64) (1 : Fin 4)) := ld_cell X 40 1 inb y
theorem x4_40_2 (X : (⟨2, ![64, 4]⟩ : Shape).Idx → Val e) (inb : ∀ a, (![40, 2] : Fin 2 → ℕ) a + (![1, 1] : Fin 2 → ℕ) a ≤ (⟨2, ![64, 4]⟩ : Shape).size a) (y : (⟨2, ![1, 1]⟩ : Shape).Idx) : View.ld X (Rect.unit ![40, 2] ![1, 1] inb) y = X (ix2 (40 : Fin 64) (2 : Fin 4)) := ld_cell X 40 2 inb y
theorem x4_40_3 (X : (⟨2, ![64, 4]⟩ : Shape).Idx → Val e) (inb : ∀ a, (![40, 3] : Fin 2 → ℕ) a + (![1, 1] : Fin 2 → ℕ) a ≤ (⟨2, ![64, 4]⟩ : Shape).size a) (y : (⟨2, ![1, 1]⟩ : Shape).Idx) : View.ld X (Rect.unit ![40, 3] ![1, 1] inb) y = X (ix2 (40 : Fin 64) (3 : Fin 4)) := ld_cell X 40 3 inb y
theorem x4_41_0 (X : (⟨2, ![64, 4]⟩ : Shape).Idx → Val e) (inb : ∀ a, (![41, 0] : Fin 2 → ℕ) a + (![1, 1] : Fin 2 → ℕ) a ≤ (⟨2, ![64, 4]⟩ : Shape).size a) (y : (⟨2, ![1, 1]⟩ : Shape).Idx) : View.ld X (Rect.unit ![41, 0] ![1, 1] inb) y = X (ix2 (41 : Fin 64) (0 : Fin 4)) := ld_cell X 41 0 inb y
theorem x4_41_1 (X : (⟨2, ![64, 4]⟩ : Shape).Idx → Val e) (inb : ∀ a, (![41, 1] : Fin 2 → ℕ) a + (![1, 1] : Fin 2 → ℕ) a ≤ (⟨2, ![64, 4]⟩ : Shape).size a) (y : (⟨2, ![1, 1]⟩ : Shape).Idx) : View.ld X (Rect.unit ![41, 1] ![1, 1] inb) y = X (ix2 (41 : Fin 64) (1 : Fin 4)) := ld_cell X 41 1 inb y
theorem x4_41_2 (X : (⟨2, ![64, 4]⟩ : Shape).Idx → Val e) (inb : ∀ a, (![41, 2] : Fin 2 → ℕ) a + (![1, 1] : Fin 2 → ℕ) a ≤ (⟨2, ![64, 4]⟩ : Shape).size a) (y : (⟨2, ![1, 1]⟩ : Shape).Idx) : View.ld X (Rect.unit ![41, 2] ![1, 1] inb) y = X (ix2 (41 : Fin 64) (2 : Fin 4)) := ld_cell X 41 2 inb y
theorem x4_41_3 (X : (⟨2, ![64, 4]⟩ : Shape).Idx → Val e) (inb : ∀ a, (![41, 3] : Fin 2 → ℕ) a + (![1, 1] : Fin 2 → ℕ) a ≤ (⟨2, ![64, 4]⟩ : Shape).size a) (y : (⟨2, ![1, 1]⟩ : Shape).Idx) : View.ld X (Rect.unit ![41, 3] ![1, 1] inb) y = X (ix2 (41 : Fin 64) (3 : Fin 4)) := ld_cell X 41 3 inb y
theorem x4_42_0 (X : (⟨2, ![64, 4]⟩ : Shape).Idx → Val e) (inb : ∀ a, (![42, 0] : Fin 2 → ℕ) a + (![1, 1] : Fin 2 → ℕ) a ≤ (⟨2, ![64, 4]⟩ : Shape).size a) (y : (⟨2, ![1, 1]⟩ : Shape).Idx) : View.ld X (Rect.unit ![42, 0] ![1, 1] inb) y = X (ix2 (42 : Fin 64) (0 : Fin 4)) := ld_cell X 42 0 inb y
theorem x4_42_1 (X : (⟨2, ![64, 4]⟩ : Shape).Idx → Val e) (inb : ∀ a, (![42, 1] : Fin 2 → ℕ) a + (![1, 1] : Fin 2 → ℕ) a ≤ (⟨2, ![64, 4]⟩ : Shape).size a) (y : (⟨2, ![1, 1]⟩ : Shape).Idx) : View.ld X (Rect.unit ![42, 1] ![1, 1] inb) y = X (ix2 (42 : Fin 64) (1 : Fin 4)) := ld_cell X 42 1 inb y
theorem x4_42_2 (X : (⟨2, ![64, 4]⟩ : Shape).Idx → Val e) (inb : ∀ a, (![42, 2] : Fin 2 → ℕ) a + (![1, 1] : Fin 2 → ℕ) a ≤ (⟨2, ![64, 4]⟩ : Shape).size a) (y : (⟨2, ![1, 1]⟩ : Shape).Idx) : View.ld X (Rect.unit ![42, 2] ![1, 1] inb) y = X (ix2 (42 : Fin 64) (2 : Fin 4)) := ld_cell X 42 2 inb y
theorem x4_42_3 (X : (⟨2, ![64, 4]⟩ : Shape).Idx → Val e) (inb : ∀ a, (![42, 3] : Fin 2 → ℕ) a + (![1, 1] : Fin 2 → ℕ) a ≤ (⟨2, ![64, 4]⟩ : Shape).size a) (y : (⟨2, ![1, 1]⟩ : Shape).Idx) : View.ld X (Rect.unit ![42, 3] ![1, 1] inb) y = X (ix2 (42 : Fin 64) (3 : Fin 4)) := ld_cell X 42 3 inb y
theorem x4_43_0 (X : (⟨2, ![64, 4]⟩ : Shape).Idx → Val e) (inb : ∀ a, (![43, 0] : Fin 2 → ℕ) a + (![1, 1] : Fin 2 → ℕ) a ≤ (⟨2, ![64, 4]⟩ : Shape).size a) (y : (⟨2, ![1, 1]⟩ : Shape).Idx) : View.ld X (Rect.unit ![43, 0] ![1, 1] inb) y = X (ix2 (43 : Fin 64) (0 : Fin 4)) := ld_cell X 43 0 inb y
theorem x4_43_1 (X : (⟨2, ![64, 4]⟩ : Shape).Idx → Val e) (inb : ∀ a, (![43, 1] : Fin 2 → ℕ) a + (![1, 1] : Fin 2 → ℕ) a ≤ (⟨2, ![64, 4]⟩ : Shape).size a) (y : (⟨2, ![1, 1]⟩ : Shape).Idx) : View.ld X (Rect.unit ![43, 1] ![1, 1] inb) y = X (ix2 (43 : Fin 64) (1 : Fin 4)) := ld_cell X 43 1 inb y
theorem x4_43_2 (X : (⟨2, ![64, 4]⟩ : Shape).Idx → Val e) (inb : ∀ a, (![43, 2] : Fin 2 → ℕ) a + (![1, 1] : Fin 2 → ℕ) a ≤ (⟨2, ![64, 4]⟩ : Shape).size a) (y : (⟨2, ![1, 1]⟩ : Shape).Idx) : View.ld X (Rect.unit ![43, 2] ![1, 1] inb) y = X (ix2 (43 : Fin 64) (2 : Fin 4)) := ld_cell X 43 2 inb y
theorem x4_43_3 (X : (⟨2, ![64, 4]⟩ : Shape).Idx → Val e) (inb : ∀ a, (![43, 3] : Fin 2 → ℕ) a + (![1, 1] : Fin 2 → ℕ) a ≤ (⟨2, ![64, 4]⟩ : Shape).size a) (y : (⟨2, ![1, 1]⟩ : Shape).Idx) : View.ld X (Rect.unit ![43, 3] ![1, 1] inb) y = X (ix2 (43 : Fin 64) (3 : Fin 4)) := ld_cell X 43 3 inb y
theorem x4_44_0 (X : (⟨2, ![64, 4]⟩ : Shape).Idx → Val e) (inb : ∀ a, (![44, 0] : Fin 2 → ℕ) a + (![1, 1] : Fin 2 → ℕ) a ≤ (⟨2, ![64, 4]⟩ : Shape).size a) (y : (⟨2, ![1, 1]⟩ : Shape).Idx) : View.ld X (Rect.unit ![44, 0] ![1, 1] inb) y = X (ix2 (44 : Fin 64) (0 : Fin 4)) := ld_cell X 44 0 inb y
theorem x4_44_1 (X : (⟨2, ![64, 4]⟩ : Shape).Idx → Val e) (inb : ∀ a, (![44, 1] : Fin 2 → ℕ) a + (![1, 1] : Fin 2 → ℕ) a ≤ (⟨2, ![64, 4]⟩ : Shape).size a) (y : (⟨2, ![1, 1]⟩ : Shape).Idx) : View.ld X (Rect.unit ![44, 1] ![1, 1] inb) y = X (ix2 (44 : Fin 64) (1 : Fin 4)) := ld_cell X 44 1 inb y
theorem x4_44_2 (X : (⟨2, ![64, 4]⟩ : Shape).Idx → Val e) (inb : ∀ a, (![44, 2] : Fin 2 → ℕ) a + (![1, 1] : Fin 2 → ℕ) a ≤ (⟨2, ![64, 4]⟩ : Shape).size a) (y : (⟨2, ![1, 1]⟩ : Shape).Idx) : View.ld X (Rect.unit ![44, 2] ![1, 1] inb) y = X (ix2 (44 : Fin 64) (2 : Fin 4)) := ld_cell X 44 2 inb y
theorem x4_44_3 (X : (⟨2, ![64, 4]⟩ : Shape).Idx → Val e) (inb : ∀ a, (![44, 3] : Fin 2 → ℕ) a + (![1, 1] : Fin 2 → ℕ) a ≤ (⟨2, ![64, 4]⟩ : Shape).size a) (y : (⟨2, ![1, 1]⟩ : Shape).Idx) : View.ld X (Rect.unit ![44, 3] ![1, 1] inb) y = X (ix2 (44 : Fin 64) (3 : Fin 4)) := ld_cell X 44 3 inb y
theorem x4_45_0 (X : (⟨2, ![64, 4]⟩ : Shape).Idx → Val e) (inb : ∀ a, (![45, 0] : Fin 2 → ℕ) a + (![1, 1] : Fin 2 → ℕ) a ≤ (⟨2, ![64, 4]⟩ : Shape).size a) (y : (⟨2, ![1, 1]⟩ : Shape).Idx) : View.ld X (Rect.unit ![45, 0] ![1, 1] inb) y = X (ix2 (45 : Fin 64) (0 : Fin 4)) := ld_cell X 45 0 inb y
theorem x4_45_1 (X : (⟨2, ![64, 4]⟩ : Shape).Idx → Val e) (inb : ∀ a, (![45, 1] : Fin 2 → ℕ) a + (![1, 1] : Fin 2 → ℕ) a ≤ (⟨2, ![64, 4]⟩ : Shape).size a) (y : (⟨2, ![1, 1]⟩ : Shape).Idx) : View.ld X (Rect.unit ![45, 1] ![1, 1] inb) y = X (ix2 (45 : Fin 64) (1 : Fin 4)) := ld_cell X 45 1 inb y
theorem x4_45_2 (X : (⟨2, ![64, 4]⟩ : Shape).Idx → Val e) (inb : ∀ a, (![45, 2] : Fin 2 → ℕ) a + (![1, 1] : Fin 2 → ℕ) a ≤ (⟨2, ![64, 4]⟩ : Shape).size a) (y : (⟨2, ![1, 1]⟩ : Shape).Idx) : View.ld X (Rect.unit ![45, 2] ![1, 1] inb) y = X (ix2 (45 : Fin 64) (2 : Fin 4)) := ld_cell X 45 2 inb y
theorem x4_45_3 (X : (⟨2, ![64, 4]⟩ : Shape).Idx → Val e) (inb : ∀ a, (![45, 3] : Fin 2 → ℕ) a + (![1, 1] : Fin 2 → ℕ) a ≤ (⟨2, ![64, 4]⟩ : Shape).size a) (y : (⟨2, ![1, 1]⟩ : Shape).Idx) : View.ld X (Rect.unit ![45, 3] ![1, 1] inb) y = X (ix2 (45 : Fin 64) (3 : Fin 4)) := ld_cell X 45 3 inb y
theorem x4_46_0 (X : (⟨2, ![64, 4]⟩ : Shape).Idx → Val e) (inb : ∀ a, (![46, 0] : Fin 2 → ℕ) a + (![1, 1] : Fin 2 → ℕ) a ≤ (⟨2, ![64, 4]⟩ : Shape).size a) (y : (⟨2, ![1, 1]⟩ : Shape).Idx) : View.ld X (Rect.unit ![46, 0] ![1, 1] inb) y = X (ix2 (46 : Fin 64) (0 : Fin 4)) := ld_cell X 46 0 inb y
theorem x4_46_1 (X : (⟨2, ![64, 4]⟩ : Shape).Idx → Val e) (inb : ∀ a, (![46, 1] : Fin 2 → ℕ) a + (![1, 1] : Fin 2 → ℕ) a ≤ (⟨2, ![64, 4]⟩ : Shape).size a) (y : (⟨2, ![1, 1]⟩ : Shape).Idx) : View.ld X (Rect.unit ![46, 1] ![1, 1] inb) y = X (ix2 (46 : Fin 64) (1 : Fin 4)) := ld_cell X 46 1 inb y
theorem x4_46_2 (X : (⟨2, ![64, 4]⟩ : Shape).Idx → Val e) (inb : ∀ a, (![46, 2] : Fin 2 → ℕ) a + (![1, 1] : Fin 2 → ℕ) a ≤ (⟨2, ![64, 4]⟩ : Shape).size a) (y : (⟨2, ![1, 1]⟩ : Shape).Idx) : View.ld X (Rect.unit ![46, 2] ![1, 1] inb) y = X (ix2 (46 : Fin 64) (2 : Fin 4)) := ld_cell X 46 2 inb y
theorem x4_46_3 (X : (⟨2, ![64, 4]⟩ : Shape).Idx → Val e) (inb : ∀ a, (![46, 3] : Fin 2 → ℕ) a + (![1, 1] : Fin 2 → ℕ) a ≤ (⟨2, ![64, 4]⟩ : Shape).size a) (y : (⟨2, ![1, 1]⟩ : Shape).Idx) : View.ld X (Rect.unit ![46, 3] ![1, 1] inb) y = X (ix2 (46 : Fin 64) (3 : Fin 4)) := ld_cell X 46 3 inb y
theorem x4_47_0 (X : (⟨2, ![64, 4]⟩ : Shape).Idx → Val e) (inb : ∀ a, (![47, 0] : Fin 2 → ℕ) a + (![1, 1] : Fin 2 → ℕ) a ≤ (⟨2, ![64, 4]⟩ : Shape).size a) (y : (⟨2, ![1, 1]⟩ : Shape).Idx) : View.ld X (Rect.unit ![47, 0] ![1, 1] inb) y = X (ix2 (47 : Fin 64) (0 : Fin 4)) := ld_cell X 47 0 inb y
theorem x4_47_1 (X : (⟨2, ![64, 4]⟩ : Shape).Idx → Val e) (inb : ∀ a, (![47, 1] : Fin 2 → ℕ) a + (![1, 1] : Fin 2 → ℕ) a ≤ (⟨2, ![64, 4]⟩ : Shape).size a) (y : (⟨2, ![1, 1]⟩ : Shape).Idx) : View.ld X (Rect.unit ![47, 1] ![1, 1] inb) y = X (ix2 (47 : Fin 64) (1 : Fin 4)) := ld_cell X 47 1 inb y
theorem x4_47_2 (X : (⟨2, ![64, 4]⟩ : Shape).Idx → Val e) (inb : ∀ a, (![47, 2] : Fin 2 → ℕ) a + (![1, 1] : Fin 2 → ℕ) a ≤ (⟨2, ![64, 4]⟩ : Shape).size a) (y : (⟨2, ![1, 1]⟩ : Shape).Idx) : View.ld X (Rect.unit ![47, 2] ![1, 1] inb) y = X (ix2 (47 : Fin 64) (2 : Fin 4)) := ld_cell X 47 2 inb y
theorem x4_47_3 (X : (⟨2, ![64, 4]⟩ : Shape).Idx → Val e) (inb : ∀ a, (![47, 3] : Fin 2 → ℕ) a + (![1, 1] : Fin 2 → ℕ) a ≤ (⟨2, ![64, 4]⟩ : Shape).size a) (y : (⟨2, ![1, 1]⟩ : Shape).Idx) : View.ld X (Rect.unit ![47, 3] ![1, 1] inb) y = X (ix2 (47 : Fin 64) (3 : Fin 4)) := ld_cell X 47 3 inb y
theorem x4_48_0 (X : (⟨2, ![64, 4]⟩ : Shape).Idx → Val e) (inb : ∀ a, (![48, 0] : Fin 2 → ℕ) a + (![1, 1] : Fin 2 → ℕ) a ≤ (⟨2, ![64, 4]⟩ : Shape).size a) (y : (⟨2, ![1, 1]⟩ : Shape).Idx) : View.ld X (Rect.unit ![48, 0] ![1, 1] inb) y = X (ix2 (48 : Fin 64) (0 : Fin 4)) := ld_cell X 48 0 inb y
theorem x4_48_1 (X : (⟨2, ![64, 4]⟩ : Shape).Idx → Val e) (inb : ∀ a, (![48, 1] : Fin 2 → ℕ) a + (![1, 1] : Fin 2 → ℕ) a ≤ (⟨2, ![64, 4]⟩ : Shape).size a) (y : (⟨2, ![1, 1]⟩ : Shape).Idx) : View.ld X (Rect.unit ![48, 1] ![1, 1] inb) y = X (ix2 (48 : Fin 64) (1 : Fin 4)) := ld_cell X 48 1 inb y
theorem x4_48_2 (X : (⟨2, ![64, 4]⟩ : Shape).Idx → Val e) (inb : ∀ a, (![48, 2] : Fin 2 → ℕ) a + (![1, 1] : Fin 2 → ℕ) a ≤ (⟨2, ![64, 4]⟩ : Shape).size a) (y : (⟨2, ![1, 1]⟩ : Shape).Idx) : View.ld X (Rect.unit ![48, 2] ![1, 1] inb) y = X (ix2 (48 : Fin 64) (2 : Fin 4)) := ld_cell X 48 2 inb y
theorem x4_48_3 (X : (⟨2, ![64, 4]⟩ : Shape).Idx → Val e) (inb : ∀ a, (![48, 3] : Fin 2 → ℕ) a + (![1, 1] : Fin 2 → ℕ) a ≤ (⟨2, ![64, 4]⟩ : Shape).size a) (y : (⟨2, ![1, 1]⟩ : Shape).Idx) : View.ld X (Rect.unit ![48, 3] ![1, 1] inb) y = X (ix2 (48 : Fin 64) (3 : Fin 4)) := ld_cell X 48 3 inb y
theorem x4_49_0 (X : (⟨2, ![64, 4]⟩ : Shape).Idx → Val e) (inb : ∀ a, (![49, 0] : Fin 2 → ℕ) a + (![1, 1] : Fin 2 → ℕ) a ≤ (⟨2, ![64, 4]⟩ : Shape).size a) (y : (⟨2, ![1, 1]⟩ : Shape).Idx) : View.ld X (Rect.unit ![49, 0] ![1, 1] inb) y = X (ix2 (49 : Fin 64) (0 : Fin 4)) := ld_cell X 49 0 inb y
theorem x4_49_1 (X : (⟨2, ![64, 4]⟩ : Shape).Idx → Val e) (inb : ∀ a, (![49, 1] : Fin 2 → ℕ) a + (![1, 1] : Fin 2 → ℕ) a ≤ (⟨2, ![64, 4]⟩ : Shape).size a) (y : (⟨2, ![1, 1]⟩ : Shape).Idx) : View.ld X (Rect.unit ![49, 1] ![1, 1] inb) y = X (ix2 (49 : Fin 64) (1 : Fin 4)) := ld_cell X 49 1 inb y
theorem x4_49_2 (X : (⟨2, ![64, 4]⟩ : Shape).Idx → Val e) (inb : ∀ a, (![49, 2] : Fin 2 → ℕ) a + (![1, 1] : Fin 2 → ℕ) a ≤ (⟨2, ![64, 4]⟩ : Shape).size a) (y : (⟨2, ![1, 1]⟩ : Shape).Idx) : View.ld X (Rect.unit ![49, 2] ![1, 1] inb) y = X (ix2 (49 : Fin 64) (2 : Fin 4)) := ld_cell X 49 2 inb y
theorem x4_49_3 (X : (⟨2, ![64, 4]⟩ : Shape).Idx → Val e) (inb : ∀ a, (![49, 3] : Fin 2 → ℕ) a + (![1, 1] : Fin 2 → ℕ) a ≤ (⟨2, ![64, 4]⟩ : Shape).size a) (y : (⟨2, ![1, 1]⟩ : Shape).Idx) : View.ld X (Rect.unit ![49, 3] ![1, 1] inb) y = X (ix2 (49 : Fin 64) (3 : Fin 4)) := ld_cell X 49 3 inb y
theorem x4_50_0 (X : (⟨2, ![64, 4]⟩ : Shape).Idx → Val e) (inb : ∀ a, (![50, 0] : Fin 2 → ℕ) a + (![1, 1] : Fin 2 → ℕ) a ≤ (⟨2, ![64, 4]⟩ : Shape).size a) (y : (⟨2, ![1, 1]⟩ : Shape).Idx) : View.ld X (Rect.unit ![50, 0] ![1, 1] inb) y = X (ix2 (50 : Fin 64) (0 : Fin 4)) := ld_cell X 50 0 inb y
theorem x4_50_1 (X : (⟨2, ![64, 4]⟩ : Shape).Idx → Val e) (inb : ∀ a, (![50, 1] : Fin 2 → ℕ) a + (![1, 1] : Fin 2 → ℕ) a ≤ (⟨2, ![64, 4]⟩ : Shape).size a) (y : (⟨2, ![1, 1]⟩ : Shape).Idx) : View.ld X (Rect.unit ![50, 1] ![1, 1] inb) y = X (ix2 (50 : Fin 64) (1 : Fin 4)) := ld_cell X 50 1 inb y
theorem x4_50_2 (X : (⟨2, ![64, 4]⟩ : Shape).Idx → Val e) (inb : ∀ a, (![50, 2] : Fin 2 → ℕ) a + (![1, 1] : Fin 2 → ℕ) a ≤ (⟨2, ![64, 4]⟩ : Shape).size a) (y : (⟨2, ![1, 1]⟩ : Shape).Idx) : View.ld X (Rect.unit ![50, 2] ![1, 1] inb) y = X (ix2 (50 : Fin 64) (2 : Fin 4)) := ld_cell X 50 2 inb y
theorem x4_50_3 (X : (⟨2, ![64, 4]⟩ : Shape).Idx → Val e) (inb : ∀ a, (![50, 3] : Fin 2 → ℕ) a + (![1, 1] : Fin 2 → ℕ) a ≤ (⟨2, ![64, 4]⟩ : Shape).size a) (y : (⟨2, ![1, 1]⟩ : Shape).Idx) : View.ld X (Rect.unit ![50, 3] ![1, 1] inb) y = X (ix2 (50 : Fin 64) (3 : Fin 4)) := ld_cell X 50 3 inb y
theorem x4_51_0 (X : (⟨2, ![64, 4]⟩ : Shape).Idx → Val e) (inb : ∀ a, (![51, 0] : Fin 2 → ℕ) a + (![1, 1] : Fin 2 → ℕ) a ≤ (⟨2, ![64, 4]⟩ : Shape).size a) (y : (⟨2, ![1, 1]⟩ : Shape).Idx) : View.ld X (Rect.unit ![51, 0] ![1, 1] inb) y = X (ix2 (51 : Fin 64) (0 : Fin 4)) := ld_cell X 51 0 inb y
theorem x4_51_1 (X : (⟨2, ![64, 4]⟩ : Shape).Idx → Val e) (inb : ∀ a, (![51, 1] : Fin 2 → ℕ) a + (![1, 1] : Fin 2 → ℕ) a ≤ (⟨2, ![64, 4]⟩ : Shape).size a) (y : (⟨2, ![1, 1]⟩ : Shape).Idx) : View.ld X (Rect.unit ![51, 1] ![1, 1] inb) y = X (ix2 (51 : Fin 64) (1 : Fin 4)) := ld_cell X 51 1 inb y
theorem x4_51_2 (X : (⟨2, ![64, 4]⟩ : Shape).Idx → Val e) (inb : ∀ a, (![51, 2] : Fin 2 → ℕ) a + (![1, 1] : Fin 2 → ℕ) a ≤ (⟨2, ![64, 4]⟩ : Shape).size a) (y : (⟨2, ![1, 1]⟩ : Shape).Idx) : View.ld X (Rect.unit ![51, 2] ![1, 1] inb) y = X (ix2 (51 : Fin 64) (2 : Fin 4)) := ld_cell X 51 2 inb y
theorem x4_51_3 (X : (⟨2, ![64, 4]⟩ : Shape).Idx → Val e) (inb : ∀ a, (![51, 3] : Fin 2 → ℕ) a + (![1, 1] : Fin 2 → ℕ) a ≤ (⟨2, ![64, 4]⟩ : Shape).size a) (y : (⟨2, ![1, 1]⟩ : Shape).Idx) : View.ld X (Rect.unit ![51, 3] ![1, 1] inb) y = X (ix2 (51 : Fin 64) (3 : Fin 4)) := ld_cell X 51 3 inb y
theorem x4_52_0 (X : (⟨2, ![64, 4]⟩ : Shape).Idx → Val e) (inb : ∀ a, (![52, 0] : Fin 2 → ℕ) a + (![1, 1] : Fin 2 → ℕ) a ≤ (⟨2, ![64, 4]⟩ : Shape).size a) (y : (⟨2, ![1, 1]⟩ : Shape).Idx) : View.ld X (Rect.unit ![52, 0] ![1, 1] inb) y = X (ix2 (52 : Fin 64) (0 : Fin 4)) := ld_cell X 52 0 inb y
theorem x4_52_1 (X : (⟨2, ![64, 4]⟩ : Shape).Idx → Val e) (inb : ∀ a, (![52, 1] : Fin 2 → ℕ) a + (![1, 1] : Fin 2 → ℕ) a ≤ (⟨2, ![64, 4]⟩ : Shape).size a) (y : (⟨2, ![1, 1]⟩ : Shape).Idx) : View.ld X (Rect.unit ![52, 1] ![1, 1] inb) y = X (ix2 (52 : Fin 64) (1 : Fin 4)) := ld_cell X 52 1 inb y
theorem x4_52_2 (X : (⟨2, ![64, 4]⟩ : Shape).Idx → Val e) (inb : ∀ a, (![52, 2] : Fin 2 → ℕ) a + (![1, 1] : Fin 2 → ℕ) a ≤ (⟨2, ![64, 4]⟩ : Shape).size a) (y : (⟨2, ![1, 1]⟩ : Shape).Idx) : View.ld X (Rect.unit ![52, 2] ![1, 1] inb) y = X (ix2 (52 : Fin 64) (2 : Fin 4)) := ld_cell X 52 2 inb y
theorem x4_52_3 (X : (⟨2, ![64, 4]⟩ : Shape).Idx → Val e) (inb : ∀ a, (![52, 3] : Fin 2 → ℕ) a + (![1, 1] : Fin 2 → ℕ) a ≤ (⟨2, ![64, 4]⟩ : Shape).size a) (y : (⟨2, ![1, 1]⟩ : Shape).Idx) : View.ld X (Rect.unit ![52, 3] ![1, 1] inb) y = X (ix2 (52 : Fin 64) (3 : Fin 4)) := ld_cell X 52 3 inb y
theorem x4_53_0 (X : (⟨2, ![64, 4]⟩ : Shape).Idx → Val e) (inb : ∀ a, (![53, 0] : Fin 2 → ℕ) a + (![1, 1] : Fin 2 → ℕ) a ≤ (⟨2, ![64, 4]⟩ : Shape).size a) (y : (⟨2, ![1, 1]⟩ : Shape).Idx) : View.ld X (Rect.unit ![53, 0] ![1, 1] inb) y = X (ix2 (53 : Fin 64) (0 : Fin 4)) := ld_cell X 53 0 inb y
theorem x4_53_1 (X : (⟨2, ![64, 4]⟩ : Shape).Idx → Val e) (inb : ∀ a, (![53, 1] : Fin 2 → ℕ) a + (![1, 1] : Fin 2 → ℕ) a ≤ (⟨2, ![64, 4]⟩ : Shape).size a) (y : (⟨2, ![1, 1]⟩ : Shape).Idx) : View.ld X (Rect.unit ![53, 1] ![1, 1] inb) y = X (ix2 (53 : Fin 64) (1 : Fin 4)) := ld_cell X 53 1 inb y
theorem x4_53_2 (X : (⟨2, ![64, 4]⟩ : Shape).Idx → Val e) (inb : ∀ a, (![53, 2] : Fin 2 → ℕ) a + (![1, 1] : Fin 2 → ℕ) a ≤ (⟨2, ![64, 4]⟩ : Shape).size a) (y : (⟨2, ![1, 1]⟩ : Shape).Idx) : View.ld X (Rect.unit ![53, 2] ![1, 1] inb) y = X (ix2 (53 : Fin 64) (2 : Fin 4)) := ld_cell X 53 2 inb y
theorem x4_53_3 (X : (⟨2, ![64, 4]⟩ : Shape).Idx → Val e) (inb : ∀ a, (![53, 3] : Fin 2 → ℕ) a + (![1, 1] : Fin 2 → ℕ) a ≤ (⟨2, ![64, 4]⟩ : Shape).size a) (y : (⟨2, ![1, 1]⟩ : Shape).Idx) : View.ld X (Rect.unit ![53, 3] ![1, 1] inb) y = X (ix2 (53 : Fin 64) (3 : Fin 4)) := ld_cell X 53 3 inb y
theorem x4_54_0 (X : (⟨2, ![64, 4]⟩ : Shape).Idx → Val e) (inb : ∀ a, (![54, 0] : Fin 2 → ℕ) a + (![1, 1] : Fin 2 → ℕ) a ≤ (⟨2, ![64, 4]⟩ : Shape).size a) (y : (⟨2, ![1, 1]⟩ : Shape).Idx) : View.ld X (Rect.unit ![54, 0] ![1, 1] inb) y = X (ix2 (54 : Fin 64) (0 : Fin 4)) := ld_cell X 54 0 inb y
theorem x4_54_1 (X : (⟨2, ![64, 4]⟩ : Shape).Idx → Val e) (inb : ∀ a, (![54, 1] : Fin 2 → ℕ) a + (![1, 1] : Fin 2 → ℕ) a ≤ (⟨2, ![64, 4]⟩ : Shape).size a) (y : (⟨2, ![1, 1]⟩ : Shape).Idx) : View.ld X (Rect.unit ![54, 1] ![1, 1] inb) y = X (ix2 (54 : Fin 64) (1 : Fin 4)) := ld_cell X 54 1 inb y
theorem x4_54_2 (X : (⟨2, ![64, 4]⟩ : Shape).Idx → Val e) (inb : ∀ a, (![54, 2] : Fin 2 → ℕ) a + (![1, 1] : Fin 2 → ℕ) a ≤ (⟨2, ![64, 4]⟩ : Shape).size a) (y : (⟨2, ![1, 1]⟩ : Shape).Idx) : View.ld X (Rect.unit ![54, 2] ![1, 1] inb) y = X (ix2 (54 : Fin 64) (2 : Fin 4)) := ld_cell X 54 2 inb y
theorem x4_54_3 (X : (⟨2, ![64, 4]⟩ : Shape).Idx → Val e) (inb : ∀ a, (![54, 3] : Fin 2 → ℕ) a + (![1, 1] : Fin 2 → ℕ) a ≤ (⟨2, ![64, 4]⟩ : Shape).size a) (y : (⟨2, ![1, 1]⟩ : Shape).Idx) : View.ld X (Rect.unit ![54, 3] ![1, 1] inb) y = X (ix2 (54 : Fin 64) (3 : Fin 4)) := ld_cell X 54 3 inb y
theorem x4_55_0 (X : (⟨2, ![64, 4]⟩ : Shape).Idx → Val e) (inb : ∀ a, (![55, 0] : Fin 2 → ℕ) a + (![1, 1] : Fin 2 → ℕ) a ≤ (⟨2, ![64, 4]⟩ : Shape).size a) (y : (⟨2, ![1, 1]⟩ : Shape).Idx) : View.ld X (Rect.unit ![55, 0] ![1, 1] inb) y = X (ix2 (55 : Fin 64) (0 : Fin 4)) := ld_cell X 55 0 inb y
theorem x4_55_1 (X : (⟨2, ![64, 4]⟩ : Shape).Idx → Val e) (inb : ∀ a, (![55, 1] : Fin 2 → ℕ) a + (![1, 1] : Fin 2 → ℕ) a ≤ (⟨2, ![64, 4]⟩ : Shape).size a) (y : (⟨2, ![1, 1]⟩ : Shape).Idx) : View.ld X (Rect.unit ![55, 1] ![1, 1] inb) y = X (ix2 (55 : Fin 64) (1 : Fin 4)) := ld_cell X 55 1 inb y
theorem x4_55_2 (X : (⟨2, ![64, 4]⟩ : Shape).Idx → Val e) (inb : ∀ a, (![55, 2] : Fin 2 → ℕ) a + (![1, 1] : Fin 2 → ℕ) a ≤ (⟨2, ![64, 4]⟩ : Shape).size a) (y : (⟨2, ![1, 1]⟩ : Shape).Idx) : View.ld X (Rect.unit ![55, 2] ![1, 1] inb) y = X (ix2 (55 : Fin 64) (2 : Fin 4)) := ld_cell X 55 2 inb y
theorem x4_55_3 (X : (⟨2, ![64, 4]⟩ : Shape).Idx → Val e) (inb : ∀ a, (![55, 3] : Fin 2 → ℕ) a + (![1, 1] : Fin 2 → ℕ) a ≤ (⟨2, ![64, 4]⟩ : Shape).size a) (y : (⟨2, ![1, 1]⟩ : Shape).Idx) : View.ld X (Rect.unit ![55, 3] ![1, 1] inb) y = X (ix2 (55 : Fin 64) (3 : Fin 4)) := ld_cell X 55 3 inb y
theorem x4_56_0 (X : (⟨2, ![64, 4]⟩ : Shape).Idx → Val e) (inb : ∀ a, (![56, 0] : Fin 2 → ℕ) a + (![1, 1] : Fin 2 → ℕ) a ≤ (⟨2, ![64, 4]⟩ : Shape).size a) (y : (⟨2, ![1, 1]⟩ : Shape).Idx) : View.ld X (Rect.unit ![56, 0] ![1, 1] inb) y = X (ix2 (56 : Fin 64) (0 : Fin 4)) := ld_cell X 56 0 inb y
theorem x4_56_1 (X : (⟨2, ![64, 4]⟩ : Shape).Idx → Val e) (inb : ∀ a, (![56, 1] : Fin 2 → ℕ) a + (![1, 1] : Fin 2 → ℕ) a ≤ (⟨2, ![64, 4]⟩ : Shape).size a) (y : (⟨2, ![1, 1]⟩ : Shape).Idx) : View.ld X (Rect.unit ![56, 1] ![1, 1] inb) y = X (ix2 (56 : Fin 64) (1 : Fin 4)) := ld_cell X 56 1 inb y
theorem x4_56_2 (X : (⟨2, ![64, 4]⟩ : Shape).Idx → Val e) (inb : ∀ a, (![56, 2] : Fin 2 → ℕ) a + (![1, 1] : Fin 2 → ℕ) a ≤ (⟨2, ![64, 4]⟩ : Shape).size a) (y : (⟨2, ![1, 1]⟩ : Shape).Idx) : View.ld X (Rect.unit ![56, 2] ![1, 1] inb) y = X (ix2 (56 : Fin 64) (2 : Fin 4)) := ld_cell X 56 2 inb y
theorem x4_56_3 (X : (⟨2, ![64, 4]⟩ : Shape).Idx → Val e) (inb : ∀ a, (![56, 3] : Fin 2 → ℕ) a + (![1, 1] : Fin 2 → ℕ) a ≤ (⟨2, ![64, 4]⟩ : Shape).size a) (y : (⟨2, ![1, 1]⟩ : Shape).Idx) : View.ld X (Rect.unit ![56, 3] ![1, 1] inb) y = X (ix2 (56 : Fin 64) (3 : Fin 4)) := ld_cell X 56 3 inb y
theorem x4_57_0 (X : (⟨2, ![64, 4]⟩ : Shape).Idx → Val e) (inb : ∀ a, (![57, 0] : Fin 2 → ℕ) a + (![1, 1] : Fin 2 → ℕ) a ≤ (⟨2, ![64, 4]⟩ : Shape).size a) (y : (⟨2, ![1, 1]⟩ : Shape).Idx) : View.ld X (Rect.unit ![57, 0] ![1, 1] inb) y = X (ix2 (57 : Fin 64) (0 : Fin 4)) := ld_cell X 57 0 inb y
theorem x4_57_1 (X : (⟨2, ![64, 4]⟩ : Shape).Idx → Val e) (inb : ∀ a, (![57, 1] : Fin 2 → ℕ) a + (![1, 1] : Fin 2 → ℕ) a ≤ (⟨2, ![64, 4]⟩ : Shape).size a) (y : (⟨2, ![1, 1]⟩ : Shape).Idx) : View.ld X (Rect.unit ![57, 1] ![1, 1] inb) y = X (ix2 (57 : Fin 64) (1 : Fin 4)) := ld_cell X 57 1 inb y
theorem x4_57_2 (X : (⟨2, ![64, 4]⟩ : Shape).Idx → Val e) (inb : ∀ a, (![57, 2] : Fin 2 → ℕ) a + (![1, 1] : Fin 2 → ℕ) a ≤ (⟨2, ![64, 4]⟩ : Shape).size a) (y : (⟨2, ![1, 1]⟩ : Shape).Idx) : View.ld X (Rect.unit ![57, 2] ![1, 1] inb) y = X (ix2 (57 : Fin 64) (2 : Fin 4)) := ld_cell X 57 2 inb y
theorem x4_57_3 (X : (⟨2, ![64, 4]⟩ : Shape).Idx → Val e) (inb : ∀ a, (![57, 3] : Fin 2 → ℕ) a + (![1, 1] : Fin 2 → ℕ) a ≤ (⟨2, ![64, 4]⟩ : Shape).size a) (y : (⟨2, ![1, 1]⟩ : Shape).Idx) : View.ld X (Rect.unit ![57, 3] ![1, 1] inb) y = X (ix2 (57 : Fin 64) (3 : Fin 4)) := ld_cell X 57 3 inb y
theorem x4_58_0 (X : (⟨2, ![64, 4]⟩ : Shape).Idx → Val e) (inb : ∀ a, (![58, 0] : Fin 2 → ℕ) a + (![1, 1] : Fin 2 → ℕ) a ≤ (⟨2, ![64, 4]⟩ : Shape).size a) (y : (⟨2, ![1, 1]⟩ : Shape).Idx) : View.ld X (Rect.unit ![58, 0] ![1, 1] inb) y = X (ix2 (58 : Fin 64) (0 : Fin 4)) := ld_cell X 58 0 inb y
theorem x4_58_1 (X : (⟨2, ![64, 4]⟩ : Shape).Idx → Val e) (inb : ∀ a, (![58, 1] : Fin 2 → ℕ) a + (![1, 1] : Fin 2 → ℕ) a ≤ (⟨2, ![64, 4]⟩ : Shape).size a) (y : (⟨2, ![1, 1]⟩ : Shape).Idx) : View.ld X (Rect.unit ![58, 1] ![1, 1] inb) y = X (ix2 (58 : Fin 64) (1 : Fin 4)) := ld_cell X 58 1 inb y
theorem x4_58_2 (X : (⟨2, ![64, 4]⟩ : Shape).Idx → Val e) (inb : ∀ a, (![58, 2] : Fin 2 → ℕ) a + (![1, 1] : Fin 2 → ℕ) a ≤ (⟨2, ![64, 4]⟩ : Shape).size a) (y : (⟨2, ![1, 1]⟩ : Shape).Idx) : View.ld X (Rect.unit ![58, 2] ![1, 1] inb) y = X (ix2 (58 : Fin 64) (2 : Fin 4)) := ld_cell X 58 2 inb y
theorem x4_58_3 (X : (⟨2, ![64, 4]⟩ : Shape).Idx → Val e) (inb : ∀ a, (![58, 3] : Fin 2 → ℕ) a + (![1, 1] : Fin 2 → ℕ) a ≤ (⟨2, ![64, 4]⟩ : Shape).size a) (y : (⟨2, ![1, 1]⟩ : Shape).Idx) : View.ld X (Rect.unit ![58, 3] ![1, 1] inb) y = X (ix2 (58 : Fin 64) (3 : Fin 4)) := ld_cell X 58 3 inb y
theorem x4_59_0 (X : (⟨2, ![64, 4]⟩ : Shape).Idx → Val e) (inb : ∀ a, (![59, 0] : Fin 2 → ℕ) a + (![1, 1] : Fin 2 → ℕ) a ≤ (⟨2, ![64, 4]⟩ : Shape).size a) (y : (⟨2, ![1, 1]⟩ : Shape).Idx) : View.ld X (Rect.unit ![59, 0] ![1, 1] inb) y = X (ix2 (59 : Fin 64) (0 : Fin 4)) := ld_cell X 59 0 inb y
theorem x4_59_1 (X : (⟨2, ![64, 4]⟩ : Shape).Idx → Val e) (inb : ∀ a, (![59, 1] : Fin 2 → ℕ) a + (![1, 1] : Fin 2 → ℕ) a ≤ (⟨2, ![64, 4]⟩ : Shape).size a) (y : (⟨2, ![1, 1]⟩ : Shape).Idx) : View.ld X (Rect.unit ![59, 1] ![1, 1] inb) y = X (ix2 (59 : Fin 64) (1 : Fin 4)) := ld_cell X 59 1 inb y
theorem x4_59_2 (X : (⟨2, ![64, 4]⟩ : Shape).Idx → Val e) (inb : ∀ a, (![59, 2] : Fin 2 → ℕ) a + (![1, 1] : Fin 2 → ℕ) a ≤ (⟨2, ![64, 4]⟩ : Shape).size a) (y : (⟨2, ![1, 1]⟩ : Shape).Idx) : View.ld X (Rect.unit ![59, 2] ![1, 1] inb) y = X (ix2 (59 : Fin 64) (2 : Fin 4)) := ld_cell X 59 2 inb y
theorem x4_59_3 (X : (⟨2, ![64, 4]⟩ : Shape).Idx → Val e) (inb : ∀ a, (![59, 3] : Fin 2 → ℕ) a + (![1, 1] : Fin 2 → ℕ) a ≤ (⟨2, ![64, 4]⟩ : Shape).size a) (y : (⟨2, ![1, 1]⟩ : Shape).Idx) : View.ld X (Rect.unit ![59, 3] ![1, 1] inb) y = X (ix2 (59 : Fin 64) (3 : Fin 4)) := ld_cell X 59 3 inb y
theorem x4_60_0 (X : (⟨2, ![64, 4]⟩ : Shape).Idx → Val e) (inb : ∀ a, (![60, 0] : Fin 2 → ℕ) a + (![1, 1] : Fin 2 → ℕ) a ≤ (⟨2, ![64, 4]⟩ : Shape).size a) (y : (⟨2, ![1, 1]⟩ : Shape).Idx) : View.ld X (Rect.unit ![60, 0] ![1, 1] inb) y = X (ix2 (60 : Fin 64) (0 : Fin 4)) := ld_cell X 60 0 inb y
theorem x4_60_1 (X : (⟨2, ![64, 4]⟩ : Shape).Idx → Val e) (inb : ∀ a, (![60, 1] : Fin 2 → ℕ) a + (![1, 1] : Fin 2 → ℕ) a ≤ (⟨2, ![64, 4]⟩ : Shape).size a) (y : (⟨2, ![1, 1]⟩ : Shape).Idx) : View.ld X (Rect.unit ![60, 1] ![1, 1] inb) y = X (ix2 (60 : Fin 64) (1 : Fin 4)) := ld_cell X 60 1 inb y
theorem x4_60_2 (X : (⟨2, ![64, 4]⟩ : Shape).Idx → Val e) (inb : ∀ a, (![60, 2] : Fin 2 → ℕ) a + (![1, 1] : Fin 2 → ℕ) a ≤ (⟨2, ![64, 4]⟩ : Shape).size a) (y : (⟨2, ![1, 1]⟩ : Shape).Idx) : View.ld X (Rect.unit ![60, 2] ![1, 1] inb) y = X (ix2 (60 : Fin 64) (2 : Fin 4)) := ld_cell X 60 2 inb y
theorem x4_60_3 (X : (⟨2, ![64, 4]⟩ : Shape).Idx → Val e) (inb : ∀ a, (![60, 3] : Fin 2 → ℕ) a + (![1, 1] : Fin 2 → ℕ) a ≤ (⟨2, ![64, 4]⟩ : Shape).size a) (y : (⟨2, ![1, 1]⟩ : Shape).Idx) : View.ld X (Rect.unit ![60, 3] ![1, 1] inb) y = X (ix2 (60 : Fin 64) (3 : Fin 4)) := ld_cell X 60 3 inb y
theorem x4_61_0 (X : (⟨2, ![64, 4]⟩ : Shape).Idx → Val e) (inb : ∀ a, (![61, 0] : Fin 2 → ℕ) a + (![1, 1] : Fin 2 → ℕ) a ≤ (⟨2, ![64, 4]⟩ : Shape).size a) (y : (⟨2, ![1, 1]⟩ : Shape).Idx) : View.ld X (Rect.unit ![61, 0] ![1, 1] inb) y = X (ix2 (61 : Fin 64) (0 : Fin 4)) := ld_cell X 61 0 inb y
theorem x4_61_1 (X : (⟨2, ![64, 4]⟩ : Shape).Idx → Val e) (inb : ∀ a, (![61, 1] : Fin 2 → ℕ) a + (![1, 1] : Fin 2 → ℕ) a ≤ (⟨2, ![64, 4]⟩ : Shape).size a) (y : (⟨2, ![1, 1]⟩ : Shape).Idx) : View.ld X (Rect.unit ![61, 1] ![1, 1] inb) y = X (ix2 (61 : Fin 64) (1 : Fin 4)) := ld_cell X 61 1 inb y
theorem x4_61_2 (X : (⟨2, ![64, 4]⟩ : Shape).Idx → Val e) (inb : ∀ a, (![61, 2] : Fin 2 → ℕ) a + (![1, 1] : Fin 2 → ℕ) a ≤ (⟨2, ![64, 4]⟩ : Shape).size a) (y : (⟨2, ![1, 1]⟩ : Shape).Idx) : View.ld X (Rect.unit ![61, 2] ![1, 1] inb) y = X (ix2 (61 : Fin 64) (2 : Fin 4)) := ld_cell X 61 2 inb y
theorem x4_61_3 (X : (⟨2, ![64, 4]⟩ : Shape).Idx → Val e) (inb : ∀ a, (![61, 3] : Fin 2 → ℕ) a + (![1, 1] : Fin 2 → ℕ) a ≤ (⟨2, ![64, 4]⟩ : Shape).size a) (y : (⟨2, ![1, 1]⟩ : Shape).Idx) : View.ld X (Rect.unit ![61, 3] ![1, 1] inb) y = X (ix2 (61 : Fin 64) (3 : Fin 4)) := ld_cell X 61 3 inb y
theorem x4_62_0 (X : (⟨2, ![64, 4]⟩ : Shape).Idx → Val e) (inb : ∀ a, (![62, 0] : Fin 2 → ℕ) a + (![1, 1] : Fin 2 → ℕ) a ≤ (⟨2, ![64, 4]⟩ : Shape).size a) (y : (⟨2, ![1, 1]⟩ : Shape).Idx) : View.ld X (Rect.unit ![62, 0] ![1, 1] inb) y = X (ix2 (62 : Fin 64) (0 : Fin 4)) := ld_cell X 62 0 inb y
theorem x4_62_1 (X : (⟨2, ![64, 4]⟩ : Shape).Idx → Val e) (inb : ∀ a, (![62, 1] : Fin 2 → ℕ) a + (![1, 1] : Fin 2 → ℕ) a ≤ (⟨2, ![64, 4]⟩ : Shape).size a) (y : (⟨2, ![1, 1]⟩ : Shape).Idx) : View.ld X (Rect.unit ![62, 1] ![1, 1] inb) y = X (ix2 (62 : Fin 64) (1 : Fin 4)) := ld_cell X 62 1 inb y
theorem x4_62_2 (X : (⟨2, ![64, 4]⟩ : Shape).Idx → Val e) (inb : ∀ a, (![62, 2] : Fin 2 → ℕ) a + (![1, 1] : Fin 2 → ℕ) a ≤ (⟨2, ![64, 4]⟩ : Shape).size a) (y : (⟨2, ![1, 1]⟩ : Shape).Idx) : View.ld X (Rect.unit ![62, 2] ![1, 1] inb) y = X (ix2 (62 : Fin 64) (2 : Fin 4)) := ld_cell X 62 2 inb y
theorem x4_62_3 (X : (⟨2, ![64, 4]⟩ : Shape).Idx → Val e) (inb : ∀ a, (![62, 3] : Fin 2 → ℕ) a + (![1, 1] : Fin 2 → ℕ) a ≤ (⟨2, ![64, 4]⟩ : Shape).size a) (y : (⟨2, ![1, 1]⟩ : Shape).Idx) : View.ld X (Rect.unit ![62, 3] ![1, 1] inb) y = X (ix2 (62 : Fin 64) (3 : Fin 4)) := ld_cell X 62 3 inb y
theorem x4_63_0 (X : (⟨2, ![64, 4]⟩ : Shape).Idx → Val e) (inb : ∀ a, (![63, 0] : Fin 2 → ℕ) a + (![1, 1] : Fin 2 → ℕ) a ≤ (⟨2, ![64, 4]⟩ : Shape).size a) (y : (⟨2, ![1, 1]⟩ : Shape).Idx) : View.ld X (Rect.unit ![63, 0] ![1, 1] inb) y = X (ix2 (63 : Fin 64) (0 : Fin 4)) := ld_cell X 63 0 inb y
theorem x4_63_1 (X : (⟨2, ![64, 4]⟩ : Shape).Idx → Val e) (inb : ∀ a, (![63, 1] : Fin 2 → ℕ) a + (![1, 1] : Fin 2 → ℕ) a ≤ (⟨2, ![64, 4]⟩ : Shape).size a) (y : (⟨2, ![1, 1]⟩ : Shape).Idx) : View.ld X (Rect.unit ![63, 1] ![1, 1] inb) y = X (ix2 (63 : Fin 64) (1 : Fin 4)) := ld_cell X 63 1 inb y
theorem x4_63_2 (X : (⟨2, ![64, 4]⟩ : Shape).Idx → Val e) (inb : ∀ a, (![63, 2] : Fin 2 → ℕ) a + (![1, 1] : Fin 2 → ℕ) a ≤ (⟨2, ![64, 4]⟩ : Shape).size a) (y : (⟨2, ![1, 1]⟩ : Shape).Idx) : View.ld X (Rect.unit ![63, 2] ![1, 1] inb) y = X (ix2 (63 : Fin 64) (2 : Fin 4)) := ld_cell X 63 2 inb y
theorem x4_63_3 (X : (⟨2, ![64, 4]⟩ : Shape).Idx → Val e) (inb : ∀ a, (![63, 3] : Fin 2 → ℕ) a + (![1, 1] : Fin 2 → ℕ) a ≤ (⟨2, ![64, 4]⟩ : Shape).size a) (y : (⟨2, ![1, 1]⟩ : Shape).Idx) : View.ld X (Rect.unit ![63, 3] ![1, 1] inb) y = X (ix2 (63 : Fin 64) (3 : Fin 4)) := ld_cell X 63 3 inb y
theorem x0_0_0 (X : (⟨4, ![1, 2, 64, 512]⟩ : Shape).Idx → Val e) (inb : ∀ d, (![0, 0, 0, 0] : Fin 4 → ℕ) d + (![1, 1, 64, 512] : Fin 4 → ℕ) d ≤ (⟨4, ![1, 2, 64, 512]⟩ : Shape).size d) (u v : Fin 1) (r : Fin 64) (l : Fin 512) : View.ld X (Rect.unit ![0, 0, 0, 0] ![1, 1, 64, 512] inb) (ix4 u v r l) = X (ix4 (0 : Fin 1) (0 : Fin 2) r l) := ld_slab X 0 0 inb u v r l
theorem x0_0_1 (X : (⟨4, ![1, 2, 64, 512]⟩ : Shape).Idx → Val e) (inb : ∀ d, (![0, 1, 0, 0] : Fin 4 → ℕ) d + (![1, 1, 64, 512] : Fin 4 → ℕ) d ≤ (⟨4, ![1, 2, 64, 512]⟩ : Shape).size d) (u v : Fin 1) (r : Fin 64) (l : Fin 512) : View.ld X (Rect.unit ![0, 1, 0, 0] ![1, 1, 64, 512] inb) (ix4 u v r l) = X (ix4 (0 : Fin 1) (1 : Fin 2) r l) := ld_slab X 0 1 inb u v r l
theorem x1_0_0 (X : (⟨4, ![1, 14, 64, 512]⟩ : Shape).Idx → Val e) (inb : ∀ d, (![0, 0, 0, 0] : Fin 4 → ℕ) d + (![1, 1, 64, 512] : Fin 4 → ℕ) d ≤ (⟨4, ![1, 14, 64, 512]⟩ : Shape).size d) (u v : Fin 1) (r : Fin 64) (l : Fin 512) : View.ld X (Rect.unit ![0, 0, 0, 0] ![1, 1, 64, 512] inb) (ix4 u v r l) = X (ix4 (0 : Fin 1) (0 : Fin 14) r l) := ld_slab X 0 0 inb u v r l
theorem x1_0_1 (X : (⟨4, ![1, 14, 64, 512]⟩ : Shape).Idx → Val e) (inb : ∀ d, (![0, 1, 0, 0] : Fin 4 → ℕ) d + (![1, 1, 64, 512] : Fin 4 → ℕ) d ≤ (⟨4, ![1, 14, 64, 512]⟩ : Shape).size d) (u v : Fin 1) (r : Fin 64) (l : Fin 512) : View.ld X (Rect.unit ![0, 1, 0, 0] ![1, 1, 64, 512] inb) (ix4 u v r l) = X (ix4 (0 : Fin 1) (1 : Fin 14) r l) := ld_slab X 0 1 inb u v r l
theorem x1_0_2 (X : (⟨4, ![1, 14, 64, 512]⟩ : Shape).Idx → Val e) (inb : ∀ d, (![0, 2, 0, 0] : Fin 4 → ℕ) d + (![1, 1, 64, 512] : Fin 4 → ℕ) d ≤ (⟨4, ![1, 14, 64, 512]⟩ : Shape).size d) (u v : Fin 1) (r : Fin 64) (l : Fin 512) : View.ld X (Rect.unit ![0, 2, 0, 0] ![1, 1, 64, 512] inb) (ix4 u v r l) = X (ix4 (0 : Fin 1) (2 : Fin 14) r l) := ld_slab X 0 2 inb u v r l
theorem x1_0_3 (X : (⟨4, ![1, 14, 64, 512]⟩ : Shape).Idx → Val e) (inb : ∀ d, (![0, 3, 0, 0] : Fin 4 → ℕ) d + (![1, 1, 64, 512] : Fin 4 → ℕ) d ≤ (⟨4, ![1, 14, 64, 512]⟩ : Shape).size d) (u v : Fin 1) (r : Fin 64) (l : Fin 512) : View.ld X (Rect.unit ![0, 3, 0, 0] ![1, 1, 64, 512] inb) (ix4 u v r l) = X (ix4 (0 : Fin 1) (3 : Fin 14) r l) := ld_slab X 0 3 inb u v r l
theorem x1_0_4 (X : (⟨4, ![1, 14, 64, 512]⟩ : Shape).Idx → Val e) (inb : ∀ d, (![0, 4, 0, 0] : Fin 4 → ℕ) d + (![1, 1, 64, 512] : Fin 4 → ℕ) d ≤ (⟨4, ![1, 14, 64, 512]⟩ : Shape).size d) (u v : Fin 1) (r : Fin 64) (l : Fin 512) : View.ld X (Rect.unit ![0, 4, 0, 0] ![1, 1, 64, 512] inb) (ix4 u v r l) = X (ix4 (0 : Fin 1) (4 : Fin 14) r l) := ld_slab X 0 4 inb u v r l
theorem x1_0_5 (X : (⟨4, ![1, 14, 64, 512]⟩ : Shape).Idx → Val e) (inb : ∀ d, (![0, 5, 0, 0] : Fin 4 → ℕ) d + (![1, 1, 64, 512] : Fin 4 → ℕ) d ≤ (⟨4, ![1, 14, 64, 512]⟩ : Shape).size d) (u v : Fin 1) (r : Fin 64) (l : Fin 512) : View.ld X (Rect.unit ![0, 5, 0, 0] ![1, 1, 64, 512] inb) (ix4 u v r l) = X (ix4 (0 : Fin 1) (5 : Fin 14) r l) := ld_slab X 0 5 inb u v r l
theorem x1_0_6 (X : (⟨4, ![1, 14, 64, 512]⟩ : Shape).Idx → Val e) (inb : ∀ d, (![0, 6, 0, 0] : Fin 4 → ℕ) d + (![1, 1, 64, 512] : Fin 4 → ℕ) d ≤ (⟨4, ![1, 14, 64, 512]⟩ : Shape).size d) (u v : Fin 1) (r : Fin 64) (l : Fin 512) : View.ld X (Rect.unit ![0, 6, 0, 0] ![1, 1, 64, 512] inb) (ix4 u v r l) = X (ix4 (0 : Fin 1) (6 : Fin 14) r l) := ld_slab X 0 6 inb u v r l
theorem x1_0_7 (X : (⟨4, ![1, 14, 64, 512]⟩ : Shape).Idx → Val e) (inb : ∀ d, (![0, 7, 0, 0] : Fin 4 → ℕ) d + (![1, 1, 64, 512] : Fin 4 → ℕ) d ≤ (⟨4, ![1, 14, 64, 512]⟩ : Shape).size d) (u v : Fin 1) (r : Fin 64) (l : Fin 512) : View.ld X (Rect.unit ![0, 7, 0, 0] ![1, 1, 64, 512] inb) (ix4 u v r l) = X (ix4 (0 : Fin 1) (7 : Fin 14) r l) := ld_slab X 0 7 inb u v r l
theorem x1_0_8 (X : (⟨4, ![1, 14, 64, 512]⟩ : Shape).Idx → Val e) (inb : ∀ d, (![0, 8, 0, 0] : Fin 4 → ℕ) d + (![1, 1, 64, 512] : Fin 4 → ℕ) d ≤ (⟨4, ![1, 14, 64, 512]⟩ : Shape).size d) (u v : Fin 1) (r : Fin 64) (l : Fin 512) : View.ld X (Rect.unit ![0, 8, 0, 0] ![1, 1, 64, 512] inb) (ix4 u v r l) = X (ix4 (0 : Fin 1) (8 : Fin 14) r l) := ld_slab X 0 8 inb u v r l
theorem x1_0_9 (X : (⟨4, ![1, 14, 64, 512]⟩ : Shape).Idx → Val e) (inb : ∀ d, (![0, 9, 0, 0] : Fin 4 → ℕ) d + (![1, 1, 64, 512] : Fin 4 → ℕ) d ≤ (⟨4, ![1, 14, 64, 512]⟩ : Shape).size d) (u v : Fin 1) (r : Fin 64) (l : Fin 512) : View.ld X (Rect.unit ![0, 9, 0, 0] ![1, 1, 64, 512] inb) (ix4 u v r l) = X (ix4 (0 : Fin 1) (9 : Fin 14) r l) := ld_slab X 0 9 inb u v r l
theorem x1_0_10 (X : (⟨4, ![1, 14, 64, 512]⟩ : Shape).Idx → Val e) (inb : ∀ d, (![0, 10, 0, 0] : Fin 4 → ℕ) d + (![1, 1, 64, 512] : Fin 4 → ℕ) d ≤ (⟨4, ![1, 14, 64, 512]⟩ : Shape).size d) (u v : Fin 1) (r : Fin 64) (l : Fin 512) : View.ld X (Rect.unit ![0, 10, 0, 0] ![1, 1, 64, 512] inb) (ix4 u v r l) = X (ix4 (0 : Fin 1) (10 : Fin 14) r l) := ld_slab X 0 10 inb u v r l
theorem x1_0_11 (X : (⟨4, ![1, 14, 64, 512]⟩ : Shape).Idx → Val e) (inb : ∀ d, (![0, 11, 0, 0] : Fin 4 → ℕ) d + (![1, 1, 64, 512] : Fin 4 → ℕ) d ≤ (⟨4, ![1, 14, 64, 512]⟩ : Shape).size d) (u v : Fin 1) (r : Fin 64) (l : Fin 512) : View.ld X (Rect.unit ![0, 11, 0, 0] ![1, 1, 64, 512] inb) (ix4 u v r l) = X (ix4 (0 : Fin 1) (11 : Fin 14) r l) := ld_slab X 0 11 inb u v r l
theorem x1_0_12 (X : (⟨4, ![1, 14, 64, 512]⟩ : Shape).Idx → Val e) (inb : ∀ d, (![0, 12, 0, 0] : Fin 4 → ℕ) d + (![1, 1, 64, 512] : Fin 4 → ℕ) d ≤ (⟨4, ![1, 14, 64, 512]⟩ : Shape).size d) (u v : Fin 1) (r : Fin 64) (l : Fin 512) : View.ld X (Rect.unit ![0, 12, 0, 0] ![1, 1, 64, 512] inb) (ix4 u v r l) = X (ix4 (0 : Fin 1) (12 : Fin 14) r l) := ld_slab X 0 12 inb u v r l
theorem x1_0_13 (X : (⟨4, ![1, 14, 64, 512]⟩ : Shape).Idx → Val e) (inb : ∀ d, (![0, 13, 0, 0] : Fin 4 → ℕ) d + (![1, 1, 64, 512] : Fin 4 → ℕ) d ≤ (⟨4, ![1, 14, 64, 512]⟩ : Shape).size d) (u v : Fin 1) (r : Fin 64) (l : Fin 512) : View.ld X (Rect.unit ![0, 13, 0, 0] ![1, 1, 64, 512] inb) (ix4 u v r l) = X (ix4 (0 : Fin 1) (13 : Fin 14) r l) := ld_slab X 0 13 inb u v r l
theorem x2_0_0 (X : (⟨4, ![2, 7, 64, 512]⟩ : Shape).Idx → Val e) (inb : ∀ d, (![0, 0, 0, 0] : Fin 4 → ℕ) d + (![1, 1, 64, 512] : Fin 4 → ℕ) d ≤ (⟨4, ![2, 7, 64, 512]⟩ : Shape).size d) (u v : Fin 1) (r : Fin 64) (l : Fin 512) : View.ld X (Rect.unit ![0, 0, 0, 0] ![1, 1, 64, 512] inb) (ix4 u v r l) = X (ix4 (0 : Fin 2) (0 : Fin 7) r l) := ld_slab X 0 0 inb u v r l
theorem x2_0_1 (X : (⟨4, ![2, 7, 64, 512]⟩ : Shape).Idx → Val e) (inb : ∀ d, (![0, 1, 0, 0] : Fin 4 → ℕ) d + (![1, 1, 64, 512] : Fin 4 → ℕ) d ≤ (⟨4, ![2, 7, 64, 512]⟩ : Shape).size d) (u v : Fin 1) (r : Fin 64) (l : Fin 512) : View.ld X (Rect.unit ![0, 1, 0, 0] ![1, 1, 64, 512] inb) (ix4 u v r l) = X (ix4 (0 : Fin 2) (1 : Fin 7) r l) := ld_slab X 0 1 inb u v r l
theorem x2_0_2 (X : (⟨4, ![2, 7, 64, 512]⟩ : Shape).Idx → Val e) (inb : ∀ d, (![0, 2, 0, 0] : Fin 4 → ℕ) d + (![1, 1, 64, 512] : Fin 4 → ℕ) d ≤ (⟨4, ![2, 7, 64, 512]⟩ : Shape).size d) (u v : Fin 1) (r : Fin 64) (l : Fin 512) : View.ld X (Rect.unit ![0, 2, 0, 0] ![1, 1, 64, 512] inb) (ix4 u v r l) = X (ix4 (0 : Fin 2) (2 : Fin 7) r l) := ld_slab X 0 2 inb u v r l
theorem x2_0_3 (X : (⟨4, ![2, 7, 64, 512]⟩ : Shape).Idx → Val e) (inb : ∀ d, (![0, 3, 0, 0] : Fin 4 → ℕ) d + (![1, 1, 64, 512] : Fin 4 → ℕ) d ≤ (⟨4, ![2, 7, 64, 512]⟩ : Shape).size d) (u v : Fin 1) (r : Fin 64) (l : Fin 512) : View.ld X (Rect.unit ![0, 3, 0, 0] ![1, 1, 64, 512] inb) (ix4 u v r l) = X (ix4 (0 : Fin 2) (3 : Fin 7) r l) := ld_slab X 0 3 inb u v r l
theorem x2_0_4 (X : (⟨4, ![2, 7, 64, 512]⟩ : Shape).Idx → Val e) (inb : ∀ d, (![0, 4, 0, 0] : Fin 4 → ℕ) d + (![1, 1, 64, 512] : Fin 4 → ℕ) d ≤ (⟨4, ![2, 7, 64, 512]⟩ : Shape).size d) (u v : Fin 1) (r : Fin 64) (l : Fin 512) : View.ld X (Rect.unit ![0, 4, 0, 0] ![1, 1, 64, 512] inb) (ix4 u v r l) = X (ix4 (0 : Fin 2) (4 : Fin 7) r l) := ld_slab X 0 4 inb u v r l
theorem x2_0_5 (X : (⟨4, ![2, 7, 64, 512]⟩ : Shape).Idx → Val e) (inb : ∀ d, (![0, 5, 0, 0] : Fin 4 → ℕ) d + (![1, 1, 64, 512] : Fin 4 → ℕ) d ≤ (⟨4, ![2, 7, 64, 512]⟩ : Shape).size d) (u v : Fin 1) (r : Fin 64) (l : Fin 512) : View.ld X (Rect.unit ![0, 5, 0, 0] ![1, 1, 64, 512] inb) (ix4 u v r l) = X (ix4 (0 : Fin 2) (5 : Fin 7) r l) := ld_slab X 0 5 inb u v r l
theorem x2_0_6 (X : (⟨4, ![2, 7, 64, 512]⟩ : Shape).Idx → Val e) (inb : ∀ d, (![0, 6, 0, 0] : Fin 4 → ℕ) d + (![1, 1, 64, 512] : Fin 4 → ℕ) d ≤ (⟨4, ![2, 7, 64, 512]⟩ : Shape).size d) (u v : Fin 1) (r : Fin 64) (l : Fin 512) : View.ld X (Rect.unit ![0, 6, 0, 0] ![1, 1, 64, 512] inb) (ix4 u v r l) = X (ix4 (0 : Fin 2) (6 : Fin 7) r l) := ld_slab X 0 6 inb u v r l
theorem x2_1_0 (X : (⟨4, ![2, 7, 64, 512]⟩ : Shape).Idx → Val e) (inb : ∀ d, (![1, 0, 0, 0] : Fin 4 → ℕ) d + (![1, 1, 64, 512] : Fin 4 → ℕ) d ≤ (⟨4, ![2, 7, 64, 512]⟩ : Shape).size d) (u v : Fin 1) (r : Fin 64) (l : Fin 512) : View.ld X (Rect.unit ![1, 0, 0, 0] ![1, 1, 64, 512] inb) (ix4 u v r l) = X (ix4 (1 : Fin 2) (0 : Fin 7) r l) := ld_slab X 1 0 inb u v r l
theorem x2_1_1 (X : (⟨4, ![2, 7, 64, 512]⟩ : Shape).Idx → Val e) (inb : ∀ d, (![1, 1, 0, 0] : Fin 4 → ℕ) d + (![1, 1, 64, 512] : Fin 4 → ℕ) d ≤ (⟨4, ![2, 7, 64, 512]⟩ : Shape).size d) (u v : Fin 1) (r : Fin 64) (l : Fin 512) : View.ld X (Rect.unit ![1, 1, 0, 0] ![1, 1, 64, 512] inb) (ix4 u v r l) = X (ix4 (1 : Fin 2) (1 : Fin 7) r l) := ld_slab X 1 1 inb u v r l
theorem x2_1_2 (X : (⟨4, ![2, 7, 64, 512]⟩ : Shape).Idx → Val e) (inb : ∀ d, (![1, 2, 0, 0] : Fin 4 → ℕ) d + (![1, 1, 64, 512] : Fin 4 → ℕ) d ≤ (⟨4, ![2, 7, 64, 512]⟩ : Shape).size d) (u v : Fin 1) (r : Fin 64) (l : Fin 512) : View.ld X (Rect.unit ![1, 2, 0, 0] ![1, 1, 64, 512] inb) (ix4 u v r l) = X (ix4 (1 : Fin 2) (2 : Fin 7) r l) := ld_slab X 1 2 inb u v r l
theorem x2_1_3 (X : (⟨4, ![2, 7, 64, 512]⟩ : Shape).Idx → Val e) (inb : ∀ d, (![1, 3, 0, 0] : Fin 4 → ℕ) d + (![1, 1, 64, 512] : Fin 4 → ℕ) d ≤ (⟨4, ![2, 7, 64, 512]⟩ : Shape).size d) (u v : Fin 1) (r : Fin 64) (l : Fin 512) : View.ld X (Rect.unit ![1, 3, 0, 0] ![1, 1, 64, 512] inb) (ix4 u v r l) = X (ix4 (1 : Fin 2) (3 : Fin 7) r l) := ld_slab X 1 3 inb u v r l
theorem x2_1_4 (X : (⟨4, ![2, 7, 64, 512]⟩ : Shape).Idx → Val e) (inb : ∀ d, (![1, 4, 0, 0] : Fin 4 → ℕ) d + (![1, 1, 64, 512] : Fin 4 → ℕ) d ≤ (⟨4, ![2, 7, 64, 512]⟩ : Shape).size d) (u v : Fin 1) (r : Fin 64) (l : Fin 512) : View.ld X (Rect.unit ![1, 4, 0, 0] ![1, 1, 64, 512] inb) (ix4 u v r l) = X (ix4 (1 : Fin 2) (4 : Fin 7) r l) := ld_slab X 1 4 inb u v r l
theorem x2_1_5 (X : (⟨4, ![2, 7, 64, 512]⟩ : Shape).Idx → Val e) (inb : ∀ d, (![1, 5, 0, 0] : Fin 4 → ℕ) d + (![1, 1, 64, 512] : Fin 4 → ℕ) d ≤ (⟨4, ![2, 7, 64, 512]⟩ : Shape).size d) (u v : Fin 1) (r : Fin 64) (l : Fin 512) : View.ld X (Rect.unit ![1, 5, 0, 0] ![1, 1, 64, 512] inb) (ix4 u v r l) = X (ix4 (1 : Fin 2) (5 : Fin 7) r l) := ld_slab X 1 5 inb u v r l
theorem x2_1_6 (X : (⟨4, ![2, 7, 64, 512]⟩ : Shape).Idx → Val e) (inb : ∀ d, (![1, 6, 0, 0] : Fin 4 → ℕ) d + (![1, 1, 64, 512] : Fin 4 → ℕ) d ≤ (⟨4, ![2, 7, 64, 512]⟩ : Shape).size d) (u v : Fin 1) (r : Fin 64) (l : Fin 512) : View.ld X (Rect.unit ![1, 6, 0, 0] ![1, 1, 64, 512] inb) (ix4 u v r l) = X (ix4 (1 : Fin 2) (6 : Fin 7) r l) := ld_slab X 1 6 inb u v r l

end

/-- The 64-step chain of additions, written out, is the start plus the sum over the 64 rows. -/
theorem chain64 (g : Fin 64 → EReal) (z : EReal) :
    ((((((((((((((((((((((((((((((((((((((((((((((((((((((((((((((((z + g 0) + g 1) + g 2) + g 3) + g 4) + g 5) + g 6) + g 7) + g 8) + g 9) + g 10) + g 11) + g 12) + g 13) + g 14) + g 15) + g 16) + g 17) + g 18) + g 19) + g 20) + g 21) + g 22) + g 23) + g 24) + g 25) + g 26) + g 27) + g 28) + g 29) + g 30) + g 31) + g 32) + g 33) + g 34) + g 35) + g 36) + g 37) + g 38) + g 39) + g 40) + g 41) + g 42) + g 43) + g 44) + g 45) + g 46) + g 47) + g 48) + g 49) + g 50) + g 51) + g 52) + g 53) + g 54) + g 55) + g 56) + g 57) + g 58) + g 59) + g 60) + g 61) + g 62) + g 63) = z + ∑ j : Fin 64, g j :=
  chain_all g z

end Cert.KernelIdeal.KRun
end
-- ==== Proof.KPay.Ops.lean ====
/-
  The operations a payload of the kernel is made of, each read at ONE index of the 64 × 512 tile, at the ideal
  instance (every float an extended real, every operation exact). The elementwise arithmetic (sum, difference,
  product, quotient, maximum, minimum, a broadcast scalar) is read by the library's definitional lemmas; here are the
  remaining ones: the unary functions, the score threshold's 0/1 indicator, the scalar unit's difference and product,
  a constant, the one element of a 1 × 1 vector, a 1 × 1 × 64 × 512 slab seen as a 64 × 512 tile, and the two staged
  sums (along the 512 lanes, then along the 64 sublanes) with the two casts that keep a trailing unit axis.
-/
import proofs.«157336_j6562710028353_2_alg».proof.Proof.Gen.KernelIdeal.Skeleton
import Idealize.ShloMosaic.Lib.ValueIdx
import Idealize.ShloMosaic.Lib.ValueLayout
import Idealize.ShloMosaic.PureOps.Ideal.Laws

noncomputable section

open scoped BigOperators

namespace Cert.KernelIdeal.KPay

open Cert.KernelIdeal Cert.KernelIdeal.Gen
open Idealize.ShloMosaic Idealize.ShloMosaic.ValueIdx

/-! ## Unary functions at an index -/

section Unary
variable {s : Shape} {φ : FTy}

theorem exp_apply (a : FVec Ideal s φ) (i : s.Idx) : exp a i = Ideal.exp (a i) := rfl
theorem log_apply (a : FVec Ideal s φ) (i : s.Idx) : log a i = Ideal.log (a i) := rfl
theorem sqrt_apply (a : FVec Ideal s φ) (i : s.Idx) : sqrt a i = Ideal.sqrt (a i) := rfl
theorem sin_apply (a : FVec Ideal s φ) (i : s.Idx) : sin a i = Ideal.sin (a i) := rfl
theorem cos_apply (a : FVec Ideal s φ) (i : s.Idx) : cos a i = Ideal.cos (a i) := rfl
theorem logistic_apply (a : FVec Ideal s φ) (i : s.Idx) : logistic a i = Ideal.logistic (a i) := rfl

end Unary

/-! ## The threshold indicator: 1 where the first operand exceeds the second, else 0 -/

/-- The comparison "greater than", widened to a 32-bit word and converted to a float: the 0/1 indicator of x > y. -/
def gtInd (x y : EReal) : EReal :=
  FloatOps.sitofp (F := Ideal) .f32 ((FloatOps.cmpf (F := Ideal) (φ := .f32) .ogt x y).setWidth 32)

theorem gtInd_apply {s : Shape} (a b : FVec Ideal s .f32) (h : 1 < 32) (i : s.Idx) :
    (sitofp .f32 (extui 32 (cmpf .ogt a b) h) : FVec Ideal s .f32) i = gtInd (a i) (b i) := rfl

/-! ## The scalar unit and constants -/

theorem scalar_subf (x y : Ideal .f32) : Scalar.subf x y = x - y := rfl
theorem scalar_mulf (x y : Ideal .f32) : Scalar.mulf x y = x * y := rfl
theorem scalar_ofBits (b : BitVec 32) : (Scalar.ofBits .f32 b : Ideal .f32) = Ideal.ofBits .f32 b := rfl

/-! ## The one element of a 1 × 1 vector -/

theorem extract00 (v : FVec Ideal S1x1 .f32) (h : ∀ a, (![0, 0] : Fin 2 → Nat) a < S1x1.size a) :
    extractAt ![0, 0] v h = v (ix2 0 0) := by
  unfold extractAt
  refine congrArg v (funext fun a => ?_)
  match a with
  | ⟨0, _⟩ => rfl
  | ⟨1, _⟩ => rfl

/-! ## A 1 × 1 × 64 × 512 slab as a 64 × 512 tile -/

theorem slab_apply (v : FVec Ideal S1x1x64x512 .f32) (h : S1x1x64x512.ShapeCasts S64x512) (r : Fin 64) (l : Fin 512) :
    shapeCast S64x512 v h (ix2 r l) = v (ix4 0 0 r l) :=
  shapeCast_apply v h (ix2 r l) (ix4 0 0 r l) (by
    rw [Shape.rowMajor_val_four, Shape.rowMajor_val_two]
    show (((0 * 1 + 0) * 64 + r.val) * 512 + l.val) = r.val * 512 + l.val
    simp only [Nat.zero_mul, Nat.zero_add])

/-- A 1 × 1 vector recast to its own shape is itself. -/
theorem cast11_apply (v : FVec Ideal S1x1 .f32) (h : S1x1.ShapeCasts S1x1) (i : S1x1.Idx) :
    shapeCast S1x1 v h i = v i :=
  shapeCast_apply v h i i rfl

/-! ## One element of the 4 × 4 matrix, taken as a 1 × 1 block -/

theorem matElt (v : FVec Ideal S4x4 .f32) (o c : Nat) (h : S4x4.Slices ![o, c] S1x1) (o' c' : Fin 4)
    (ho : o'.val = o) (hc : c'.val = c) :
    extractStridedSlice S1x1 ![o, c] v h (ix2 0 0) = v (ix2 o' c') :=
  extractStridedSlice_apply _ v h _ _ (fun a => by
    match a with
    | ⟨0, _⟩ => exact ho
    | ⟨1, _⟩ => exact hc)

theorem mat00 (v : FVec Ideal S4x4 .f32) (h : S4x4.Slices ![0, 0] S1x1) :
    extractStridedSlice S1x1 ![0, 0] v h (ix2 0 0) = v (ix2 (0 : Fin 4) (0 : Fin 4)) := matElt v 0 0 h 0 0 rfl rfl
theorem mat01 (v : FVec Ideal S4x4 .f32) (h : S4x4.Slices ![0, 1] S1x1) :
    extractStridedSlice S1x1 ![0, 1] v h (ix2 0 0) = v (ix2 (0 : Fin 4) (1 : Fin 4)) := matElt v 0 1 h 0 1 rfl rfl
theorem mat02 (v : FVec Ideal S4x4 .f32) (h : S4x4.Slices ![0, 2] S1x1) :
    extractStridedSlice S1x1 ![0, 2] v h (ix2 0 0) = v (ix2 (0 : Fin 4) (2 : Fin 4)) := matElt v 0 2 h 0 2 rfl rfl
theorem mat03 (v : FVec Ideal S4x4 .f32) (h : S4x4.Slices ![0, 3] S1x1) :
    extractStridedSlice S1x1 ![0, 3] v h (ix2 0 0) = v (ix2 (0 : Fin 4) (3 : Fin 4)) := matElt v 0 3 h 0 3 rfl rfl
theorem mat10 (v : FVec Ideal S4x4 .f32) (h : S4x4.Slices ![1, 0] S1x1) :
    extractStridedSlice S1x1 ![1, 0] v h (ix2 0 0) = v (ix2 (1 : Fin 4) (0 : Fin 4)) := matElt v 1 0 h 1 0 rfl rfl
theorem mat11 (v : FVec Ideal S4x4 .f32) (h : S4x4.Slices ![1, 1] S1x1) :
    extractStridedSlice S1x1 ![1, 1] v h (ix2 0 0) = v (ix2 (1 : Fin 4) (1 : Fin 4)) := matElt v 1 1 h 1 1 rfl rfl
theorem mat12 (v : FVec Ideal S4x4 .f32) (h : S4x4.Slices ![1, 2] S1x1) :
    extractStridedSlice S1x1 ![1, 2] v h (ix2 0 0) = v (ix2 (1 : Fin 4) (2 : Fin 4)) := matElt v 1 2 h 1 2 rfl rfl
theorem mat13 (v : FVec Ideal S4x4 .f32) (h : S4x4.Slices ![1, 3] S1x1) :
    extractStridedSlice S1x1 ![1, 3] v h (ix2 0 0) = v (ix2 (1 : Fin 4) (3 : Fin 4)) := matElt v 1 3 h 1 3 rfl rfl

/-! ## The staged sum of a tile: along the lanes, then along the sublanes -/

/-- The sum along the 512 lanes, at row r. -/
theorem laneSum_apply (src : FVec Ideal S64x512 .f32) (h : S64x512.Reduces [1] S64) (hφ : FTy.f32 = FTy.f32 ∨ FTy.f32 = FTy.bf16)
    (hacc : (0x00000000#32 : BitVec 32) = 0x00000000#32) (r : Fin 64) :
    multiReduction .add [1] S64 src 0x00000000#32 h hφ hacc (ix1 r) = ∑ l : Fin 512, src (ix2 r l) := by
  refine (Ideal.multiReduction_add_single src 0x00000000#32 h hφ hacc (ix1 r)).trans ?_
  show ∑ k : Fin 512, src (h.lift (ix1 r) k) = _
  refine Finset.sum_congr rfl fun l _ => congrArg src (funext fun a => ?_)
  match a with
  | ⟨0, _⟩ => exact Fin.ext rfl
  | ⟨1, _⟩ => exact Fin.ext rfl

/-- A column of 64 row sums, kept with a trailing unit axis. -/
theorem col_apply (v : FVec Ideal S64 .f32) (h : S64.ShapeCasts S64x1) (r : Fin 64) (u : Fin 1) :
    shapeCast S64x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- The sum along the 64 sublanes of a column. -/
theorem sublaneSum_apply (src : FVec Ideal S64x1 .f32) (h : S64x1.Reduces [0] S1) (hφ : FTy.f32 = FTy.f32 ∨ FTy.f32 = FTy.bf16)
    (hacc : (0x00000000#32 : BitVec 32) = 0x00000000#32) (u : Fin 1) :
    multiReduction .add [0] S1 src 0x00000000#32 h hφ hacc (ix1 u) = ∑ r : Fin 64, src (ix2 r u) := by
  refine (Ideal.multiReduction_add_single src 0x00000000#32 h hφ hacc (ix1 u)).trans ?_
  show ∑ k : Fin 64, src (h.lift (ix1 u) k) = _
  refine Finset.sum_congr rfl fun r _ => congrArg src (funext fun a => ?_)
  match a with
  | ⟨0, _⟩ => exact Fin.ext rfl
  | ⟨1, _⟩ => exact Fin.ext rfl

/-- The one total, kept as a 1 × 1 vector. -/
theorem cell_apply (v : FVec Ideal S1 .f32) (h : S1.ShapeCasts S1x1) (a b : Fin 1) :
    shapeCast S1x1 v h (ix2 a b) = v (ix1 b) :=
  shapeCast_a_1a_apply v h a b

/-- The whole staged sum of a tile, read at the one cell: the double sum over rows and lanes. -/
theorem tileSum_apply (src : FVec Ideal S64x512 .f32) (h1 : S64x512.Reduces [1] S64) (h2 : S64.ShapeCasts S64x1)
    (h3 : S64x1.Reduces [0] S1) (h4 : S1.ShapeCasts S1x1) (hφ hφ' : FTy.f32 = FTy.f32 ∨ FTy.f32 = FTy.bf16)
    (hacc hacc' : (0x00000000#32 : BitVec 32) = 0x00000000#32) :
    shapeCast S1x1 (multiReduction .add [0] S1 (shapeCast S64x1 (multiReduction .add [1] S64 src 0x00000000#32 h1 hφ hacc) h2)
      0x00000000#32 h3 hφ' hacc') h4 (ix2 (0 : Fin 1) (0 : Fin 1)) = ∑ r : Fin 64, ∑ l : Fin 512, src (ix2 r l) := by
  rw [cell_apply, sublaneSum_apply]
  refine Finset.sum_congr rfl fun r _ => ?_
  rw [col_apply, laneSum_apply]

/-! ## Reading a payload: every operation above, and the library's elementwise ones, pushed to the index -/

/-- Rewrites a payload applied at an index by the reading of each operation it is made of. -/
macro "kpay_read" : tactic => `(tactic| (
  (try dsimp only);
  simp only [mulf_apply, addf_apply, subf_apply, divf_apply, maximumf_apply, minimumf_apply, broadcast_apply,
    exp_apply, log_apply, sqrt_apply, sin_apply, cos_apply, logistic_apply, gtInd_apply,
    scalar_subf, scalar_mulf, scalar_ofBits, extract00, slab_apply, cast11_apply,
    mat00, mat01, mat02, mat03, mat10, mat11, mat12, mat13,
    cell_apply, sublaneSum_apply, col_apply, laneSum_apply]))

end Cert.KernelIdeal.KPay

end
-- ==== Proof.KPay.Classes.lean ====
/-
  What the kernel computes for one anchor, as scalar functions over the extended reals in the kernel's own order of
  operations: the score weight (threshold indicator times the logarithm of one minus the sigmoid), the decoded box, a
  corner of the box rotated by the yaw, moved to the centre and sent through two rows of the 4 × 4 matrix, the running
  minimum and maximum that make the axis-aligned hull of the eight corners, and for one target hull the clamped overlap
  and the ratio overlap / (area + target area − overlap) added to the running total.
-/
import proofs.«157336_j6562710028353_2_alg».proof.Proof.KPay.Ops

noncomputable section

namespace Cert.KernelIdeal.KPay

open Idealize.ShloMosaic

/-! ## The constants the body spells -/

/-- 0 -/
abbrev c0 : EReal := Ideal.ofBits .f32 0x00000000#32
/-- 1 -/
abbrev c1 : EReal := Ideal.ofBits .f32 0x3F800000#32
/-- the score threshold, 0.1 rounded to single precision -/
abbrev cThr : EReal := Ideal.ofBits .f32 0x3DCCCCCD#32
/-- 1/2 and −1/2, the corner template's entries -/
abbrev cHalf : EReal := Ideal.ofBits .f32 0x3F000000#32
abbrev cNegHalf : EReal := Ideal.ofBits .f32 0xBF000000#32
/-- +∞ and −∞, where the running minimum and maximum start -/
abbrev cInf : EReal := Ideal.ofBits .f32 0x7F800000#32
abbrev cNegInf : EReal := Ideal.ofBits .f32 0xFF800000#32

/-! ## The score weight -/

/-- The probability of a score. -/
def prob (s : EReal) : EReal := Ideal.logistic s
/-- 1 where the probability exceeds the threshold, else 0. -/
def mask (s : EReal) : EReal := gtInd (prob s) cThr
/-- log (1 − probability). -/
def logNot (s : EReal) : EReal := Ideal.log (c1 - prob s)
/-- The weight of an anchor's overlap total: mask · log (1 − probability). -/
def weight (s : EReal) : EReal := mask s * logNot s

/-! ## The decoded box: deltas d0 … d6 against the anchor a0 … a6 = (x, y, z, h, w, l, yaw) -/

/-- The anchor's diagonal in the plane, √(w² + l²). -/
def diag (a4 a5 : EReal) : EReal := Ideal.sqrt (a4 * a4 + a5 * a5)
/-- A centre coordinate in the plane: delta · diagonal + anchor. -/
def boxXY (d dg a : EReal) : EReal := d * dg + a
/-- The centre's height: delta · anchor height + anchor z. -/
def boxZ (d2 a3 a2 : EReal) : EReal := d2 * a3 + a2
/-- A size: exp delta · anchor size. -/
def boxSize (d a : EReal) : EReal := Ideal.exp d * a
/-- The yaw: delta + anchor yaw. -/
def boxYaw (d6 a6 : EReal) : EReal := d6 + a6

/-! ## One corner: template entry times size, rotated, moved to the centre, projected -/

/-- The rotated and translated x of a corner with half-extents cl (along the length) and cw (along the width). -/
def cornerX (cl cw c s bx : EReal) : EReal := cl * c - cw * s + bx
/-- The rotated and translated y. -/
def cornerY (cl cw c s by' : EReal) : EReal := cl * s + cw * c + by'
/-- The translated z: half-extent along the height plus the centre's height. -/
def cornerZ (ch bz : EReal) : EReal := ch + bz
/-- One row (t0 t1 t2 t3) of the matrix applied to the point (x, y, z, 1). -/
def proj (t0 t1 t2 t3 x y z : EReal) : EReal := t0 * x + t1 * y + t2 * z + t3

/-! ## One target against the hull (x1, y1, x2, y2) of area ar; the target hull is (t0, t1, t2, t3) = (x1, y1, x2, y2) -/

/-- The overlap of the intervals [lo, hi] and [tlo, thi], clamped at 0. -/
def ovl (lo hi tlo thi : EReal) : EReal := max c0 (min hi thi - max lo tlo)
/-- The overlap area of the two hulls. -/
def inter (x1 y1 x2 y2 t0 t1 t2 t3 : EReal) : EReal := ovl x1 x2 t0 t2 * ovl y1 y2 t1 t3
/-- The target hull's area. -/
def tArea (t0 t1 t2 t3 : EReal) : EReal := (t2 - t0) * (t3 - t1)
/-- The ratio overlap / (area + target area − overlap). -/
def iou (x1 y1 x2 y2 ar t0 t1 t2 t3 : EReal) : EReal :=
  Ideal.div (inter x1 y1 x2 y2 t0 t1 t2 t3) (ar + tArea t0 t1 t2 t3 - inter x1 y1 x2 y2 t0 t1 t2 t3)
/-- One target added to the running total. -/
def iouStep (acc x1 y1 x2 y2 ar t0 t1 t2 t3 : EReal) : EReal := acc + iou x1 y1 x2 y2 ar t0 t1 t2 t3

/-- The hull's area. -/
def hullArea (x1 y1 x2 y2 : EReal) : EReal := (x2 - x1) * (y2 - y1)

end Cert.KernelIdeal.KPay

end
-- ==== Proof.KRun.PointDefs.lean ====
/-
  One anchor's term and one grid point's total, as numbers in the kernel's own order of operations: a corner of the
  decoded box projected by a row of the matrix, the running least and greatest over the eight corners, the overlap
  ratios with the 64 target hulls added up from zero and weighted by the score, and the two yaw channels' totals
  over the 64 × 512 tile added to zero.
-/
import proofs.«157336_j6562710028353_2_alg».proof.KernelIdeal
import proofs.«157336_j6562710028353_2_alg».proof.Proof.KPay.Classes
import Idealize.ShloMosaic.Lib.ValueIdx

noncomputable section

open scoped BigOperators

namespace Cert.KernelIdeal.KRun
open Cert.KernelIdeal Cert.KernelIdeal.KPay
open Idealize.ShloMosaic Idealize.ShloMosaic.ValueIdx

/-- A corner of the decoded box — template entries `t0`, `t1`, `t2` along the length, the width and the height —
    rotated by the yaw, moved to the centre and sent through row `o` of the matrix `T`; `d` the seven deltas,
    `a` the anchor (x, y, z, h, w, l, yaw). -/
def outK (T : Fin 4 → Fin 4 → EReal) (o : Fin 4) (d a : Fin 7 → EReal) (t0 t1 t2 : EReal) : EReal :=
  proj (T o 0) (T o 1) (T o 2) (T o 3)
    (cornerX (t0 * boxSize (d 5) (a 5)) (t1 * boxSize (d 4) (a 4)) (Ideal.cos (boxYaw (d 6) (a 6)))
      (Ideal.sin (boxYaw (d 6) (a 6))) (boxXY (d 0) (diag (a 4) (a 5)) (a 0)))
    (cornerY (t0 * boxSize (d 5) (a 5)) (t1 * boxSize (d 4) (a 4)) (Ideal.cos (boxYaw (d 6) (a 6)))
      (Ideal.sin (boxYaw (d 6) (a 6))) (boxXY (d 1) (diag (a 4) (a 5)) (a 1)))
    (cornerZ (t2 * boxSize (d 3) (a 3)) (boxZ (d 2) (a 3) (a 2)))

/-- The running minimum of a coordinate over the eight corners, from +∞, in the body's order of corners. -/
def hullMin (f : EReal → EReal → EReal → EReal) : EReal :=
  min (min (min (min (min (min (min (min cInf (f cHalf cHalf cNegHalf)) (f cHalf cNegHalf cNegHalf)) (f cNegHalf cNegHalf cNegHalf)) (f cNegHalf cHalf cNegHalf)) (f cHalf cHalf cHalf)) (f cHalf cNegHalf cHalf)) (f cNegHalf cNegHalf cHalf)) (f cNegHalf cHalf cHalf)

/-- The running maximum over the eight corners, from −∞. -/
def hullMax (f : EReal → EReal → EReal → EReal) : EReal :=
  max (max (max (max (max (max (max (max cNegInf (f cHalf cHalf cNegHalf)) (f cHalf cNegHalf cNegHalf)) (f cNegHalf cNegHalf cNegHalf)) (f cNegHalf cHalf cNegHalf)) (f cHalf cHalf cHalf)) (f cHalf cNegHalf cHalf)) (f cNegHalf cNegHalf cHalf)) (f cNegHalf cHalf cHalf)

/-- The overlap ratios of the hull (x1, y1, x2, y2) with the 64 target hulls, added up from zero. -/
def iouSum (tg : Fin 64 → Fin 4 → EReal) (x1 y1 x2 y2 : EReal) : EReal :=
  c0 + ∑ j : Fin 64, iou x1 y1 x2 y2 (hullArea x1 y1 x2 y2) (tg j 0) (tg j 1) (tg j 2) (tg j 3)

/-- One anchor's term: the score weight times the summed overlap ratios of its box's hull; `T` the matrix, `tg` the
    target hulls, `s` the score, `d` the deltas, `a` the anchor. -/
def contribK (T : Fin 4 → Fin 4 → EReal) (tg : Fin 64 → Fin 4 → EReal) (s : EReal) (d a : Fin 7 → EReal) : EReal :=
  weight s * iouSum tg (hullMin (outK T 0 d a)) (hullMin (outK T 1 d a)) (hullMax (outK T 0 d a)) (hullMax (outK T 1 d a))

/-- What one grid point adds to the accumulator cell: zero plus the first yaw channel's total over the tile, plus
    the second channel's. -/
def pointTotal (x0 : Vec Ideal S1x2x64x512 .f32) (x1 : Vec Ideal S1x14x64x512 .f32) (x2 : Vec Ideal S2x7x64x512 .f32) (x3 : Vec Ideal S4x4 .f32) (x4 : Vec Ideal S64x4 .f32) : EReal :=
  (c0 + ∑ r : Fin 64, ∑ l : Fin 512, contribK (fun o c => x3 (ix2 o c)) (fun j k => x4 (ix2 j k))
      (x0 (ix4 (0 : Fin 1) (0 : Fin 2) r l))
      (fun q => x1 (ix4 (0 : Fin 1) (⟨q.val, by have := q.isLt; omega⟩ : Fin 14) r l))
      (fun q => x2 (ix4 (0 : Fin 2) q r l)))
    + ∑ r : Fin 64, ∑ l : Fin 512, contribK (fun o c => x3 (ix2 o c)) (fun j k => x4 (ix2 j k))
      (x0 (ix4 (0 : Fin 1) (1 : Fin 2) r l))
      (fun q => x1 (ix4 (0 : Fin 1) (⟨7 + q.val, by have := q.isLt; omega⟩ : Fin 14) r l))
      (fun q => x2 (ix4 (1 : Fin 2) q r l))

end Cert.KernelIdeal.KRun
end
-- ==== Proof.KPay.Attr.lean ====
/-
  The simp set `kpay`: the readings of the kernel body's payloads at an index (the lemmas payN_apply of the table
  modules). Registered here because a simp set must exist before the module that fills it.
-/
import Lean.Meta.Tactic.Simp.RegisterCommand

/-- Reads a payload of the kernel's body at an index: `simp only [kpay]` rewrites every payload applied at an index
    (row and lane of the tile, the one cell of a 1 × 1 vector) into its own operations on its arguments at that index. -/
register_simp_attr kpay
-- ==== Proof.KPay.Table1.lean ====
/-
  The payloads k0_pay1 to k0_pay90 of the kernel's body, each read at one index: at row r and lane l of the 64 × 512 tile
  (a scalar payload as it is, a 1 × 1 payload at its one cell), the payload's own operations applied, in its own order,
  to its arguments at that index. A 1 × 1 × 64 × 512 slab is read at (0, 0, r, l), a 1 × 1 load at (0, 0), a payload
  called inside another stays a call at the same index.
-/
import proofs.«157336_j6562710028353_2_alg».proof.Proof.KPay.Ops

noncomputable section

open scoped BigOperators

namespace Cert.KernelIdeal.KPay

open Cert.KernelIdeal Cert.KernelIdeal.Gen
open Idealize.ShloMosaic Idealize.ShloMosaic.ValueIdx

theorem pay1_apply  :
    k0_pay1 (F := Ideal) (ix2 (0 : Fin 1) (0 : Fin 1)) =
      (Ideal.ofBits .f32 0x00000000#32) := by
  first | (unfold k0_pay1; kpay_read) | rfl

theorem pay2_apply  :
    k0_pay2 (F := Ideal) (ix2 (0 : Fin 1) (0 : Fin 1)) =
      (Ideal.ofBits .f32 0x00000000#32) := by
  first | (unfold k0_pay2; kpay_read) | rfl

theorem pay3_apply (v5 : Vec Ideal S1x1x64x512 .f32) (r : Fin 64) (l : Fin 512) :
    k0_pay3 (F := Ideal) v5 (ix2 r l) =
      (Ideal.logistic (v5 (ix4 (0 : Fin 1) (0 : Fin 1) r l))) := by
  first | (unfold k0_pay3; kpay_read) | rfl

theorem pay4_apply (v5 : Vec Ideal S1x1x64x512 .f32) (r : Fin 64) (l : Fin 512) :
    k0_pay4 (F := Ideal) v5 (ix2 r l) =
      (gtInd (k0_pay3 (F := Ideal) v5 (ix2 r l)) (Ideal.ofBits .f32 0x3DCCCCCD#32)) := by
  first | (unfold k0_pay4; kpay_read) | rfl

theorem pay5_apply (v5 : Vec Ideal S1x1x64x512 .f32) (r : Fin 64) (l : Fin 512) :
    k0_pay5 (F := Ideal) v5 (ix2 r l) =
      (Ideal.log ((Ideal.ofBits .f32 0x3F800000#32) - (k0_pay3 (F := Ideal) v5 (ix2 r l)))) := by
  first | (unfold k0_pay5; kpay_read) | rfl

theorem pay6_apply (v15 : Vec Ideal S1x1x64x512 .f32) (r : Fin 64) (l : Fin 512) :
    k0_pay6 (F := Ideal) v15 (ix2 r l) =
      (v15 (ix4 (0 : Fin 1) (0 : Fin 1) r l)) := by
  first | (unfold k0_pay6; kpay_read) | rfl

theorem pay7_apply (v17 : Vec Ideal S1x1x64x512 .f32) (r : Fin 64) (l : Fin 512) :
    k0_pay7 (F := Ideal) v17 (ix2 r l) =
      (v17 (ix4 (0 : Fin 1) (0 : Fin 1) r l)) := by
  first | (unfold k0_pay7; kpay_read) | rfl

theorem pay8_apply (v19 : Vec Ideal S1x1x64x512 .f32) (r : Fin 64) (l : Fin 512) :
    k0_pay8 (F := Ideal) v19 (ix2 r l) =
      (v19 (ix4 (0 : Fin 1) (0 : Fin 1) r l)) := by
  first | (unfold k0_pay8; kpay_read) | rfl

theorem pay9_apply (v21 : Vec Ideal S1x1x64x512 .f32) (r : Fin 64) (l : Fin 512) :
    k0_pay9 (F := Ideal) v21 (ix2 r l) =
      (v21 (ix4 (0 : Fin 1) (0 : Fin 1) r l)) := by
  first | (unfold k0_pay9; kpay_read) | rfl

theorem pay10_apply (v23 : Vec Ideal S1x1x64x512 .f32) (r : Fin 64) (l : Fin 512) :
    k0_pay10 (F := Ideal) v23 (ix2 r l) =
      (v23 (ix4 (0 : Fin 1) (0 : Fin 1) r l)) := by
  first | (unfold k0_pay10; kpay_read) | rfl

theorem pay11_apply (v25 : Vec Ideal S1x1x64x512 .f32) (r : Fin 64) (l : Fin 512) :
    k0_pay11 (F := Ideal) v25 (ix2 r l) =
      (v25 (ix4 (0 : Fin 1) (0 : Fin 1) r l)) := by
  first | (unfold k0_pay11; kpay_read) | rfl

theorem pay12_apply (v27 : Vec Ideal S1x1x64x512 .f32) (r : Fin 64) (l : Fin 512) :
    k0_pay12 (F := Ideal) v27 (ix2 r l) =
      (v27 (ix4 (0 : Fin 1) (0 : Fin 1) r l)) := by
  first | (unfold k0_pay12; kpay_read) | rfl

theorem pay13_apply (v33 : Vec Ideal S1x1x64x512 .f32) (r : Fin 64) (l : Fin 512) :
    k0_pay13 (F := Ideal) v33 (ix2 r l) =
      (v33 (ix4 (0 : Fin 1) (0 : Fin 1) r l)) := by
  first | (unfold k0_pay13; kpay_read) | rfl

theorem pay14_apply (v35 : Vec Ideal S1x1x64x512 .f32) (r : Fin 64) (l : Fin 512) :
    k0_pay14 (F := Ideal) v35 (ix2 r l) =
      (v35 (ix4 (0 : Fin 1) (0 : Fin 1) r l)) := by
  first | (unfold k0_pay14; kpay_read) | rfl

theorem pay15_apply (v37 : Vec Ideal S1x1x64x512 .f32) (r : Fin 64) (l : Fin 512) :
    k0_pay15 (F := Ideal) v37 (ix2 r l) =
      (v37 (ix4 (0 : Fin 1) (0 : Fin 1) r l)) := by
  first | (unfold k0_pay15; kpay_read) | rfl

theorem pay16_apply (v39 : Vec Ideal S1x1x64x512 .f32) (r : Fin 64) (l : Fin 512) :
    k0_pay16 (F := Ideal) v39 (ix2 r l) =
      (v39 (ix4 (0 : Fin 1) (0 : Fin 1) r l)) := by
  first | (unfold k0_pay16; kpay_read) | rfl

theorem pay17_apply (v41 : Vec Ideal S1x1x64x512 .f32) (r : Fin 64) (l : Fin 512) :
    k0_pay17 (F := Ideal) v41 (ix2 r l) =
      (v41 (ix4 (0 : Fin 1) (0 : Fin 1) r l)) := by
  first | (unfold k0_pay17; kpay_read) | rfl

theorem pay18_apply (v37 : Vec Ideal S1x1x64x512 .f32) (v39 : Vec Ideal S1x1x64x512 .f32) (r : Fin 64) (l : Fin 512) :
    k0_pay18 (F := Ideal) v37 v39 (ix2 r l) =
      (Ideal.sqrt (((k0_pay15 (F := Ideal) v37 (ix2 r l)) * (k0_pay15 (F := Ideal) v37 (ix2 r l))) + ((k0_pay16 (F := Ideal) v39 (ix2 r l)) * (k0_pay16 (F := Ideal) v39 (ix2 r l))))) := by
  first | (unfold k0_pay18; kpay_read) | rfl

theorem pay19_apply (v16 : FVec Ideal S64x512 .f32) (v29 : Vec Ideal S1x1x64x512 .f32) (v37 : Vec Ideal S1x1x64x512 .f32) (v39 : Vec Ideal S1x1x64x512 .f32) (r : Fin 64) (l : Fin 512) :
    k0_pay19 (F := Ideal) v16 v29 v37 v39 (ix2 r l) =
      (((v16 (ix2 r l)) * (k0_pay18 (F := Ideal) v37 v39 (ix2 r l))) + (v29 (ix4 (0 : Fin 1) (0 : Fin 1) r l))) := by
  first | (unfold k0_pay19; kpay_read) | rfl

theorem pay20_apply (v18 : FVec Ideal S64x512 .f32) (v31 : Vec Ideal S1x1x64x512 .f32) (v37 : Vec Ideal S1x1x64x512 .f32) (v39 : Vec Ideal S1x1x64x512 .f32) (r : Fin 64) (l : Fin 512) :
    k0_pay20 (F := Ideal) v18 v31 v37 v39 (ix2 r l) =
      (((v18 (ix2 r l)) * (k0_pay18 (F := Ideal) v37 v39 (ix2 r l))) + (v31 (ix4 (0 : Fin 1) (0 : Fin 1) r l))) := by
  first | (unfold k0_pay20; kpay_read) | rfl

theorem pay21_apply (v20 : FVec Ideal S64x512 .f32) (v34 : FVec Ideal S64x512 .f32) (v36 : FVec Ideal S64x512 .f32) (r : Fin 64) (l : Fin 512) :
    k0_pay21 (F := Ideal) v20 v34 v36 (ix2 r l) =
      (((v20 (ix2 r l)) * (v36 (ix2 r l))) + (v34 (ix2 r l))) := by
  first | (unfold k0_pay21; kpay_read) | rfl

theorem pay22_apply (v22 : FVec Ideal S64x512 .f32) (v36 : FVec Ideal S64x512 .f32) (r : Fin 64) (l : Fin 512) :
    k0_pay22 (F := Ideal) v22 v36 (ix2 r l) =
      ((Ideal.exp (v22 (ix2 r l))) * (v36 (ix2 r l))) := by
  first | (unfold k0_pay22; kpay_read) | rfl

theorem pay23_apply (v24 : FVec Ideal S64x512 .f32) (v38 : FVec Ideal S64x512 .f32) (r : Fin 64) (l : Fin 512) :
    k0_pay23 (F := Ideal) v24 v38 (ix2 r l) =
      ((Ideal.exp (v24 (ix2 r l))) * (v38 (ix2 r l))) := by
  first | (unfold k0_pay23; kpay_read) | rfl

theorem pay24_apply (v26 : FVec Ideal S64x512 .f32) (v40 : FVec Ideal S64x512 .f32) (r : Fin 64) (l : Fin 512) :
    k0_pay24 (F := Ideal) v26 v40 (ix2 r l) =
      ((Ideal.exp (v26 (ix2 r l))) * (v40 (ix2 r l))) := by
  first | (unfold k0_pay24; kpay_read) | rfl

theorem pay25_apply (v28 : FVec Ideal S64x512 .f32) (v42 : FVec Ideal S64x512 .f32) (r : Fin 64) (l : Fin 512) :
    k0_pay25 (F := Ideal) v28 v42 (ix2 r l) =
      ((v28 (ix2 r l)) + (v42 (ix2 r l))) := by
  first | (unfold k0_pay25; kpay_read) | rfl

theorem pay26_apply (v28 : FVec Ideal S64x512 .f32) (v42 : FVec Ideal S64x512 .f32) (r : Fin 64) (l : Fin 512) :
    k0_pay26 (F := Ideal) v28 v42 (ix2 r l) =
      (Ideal.cos (k0_pay25 (F := Ideal) v28 v42 (ix2 r l))) := by
  first | (unfold k0_pay26; kpay_read) | rfl

theorem pay27_apply (v28 : FVec Ideal S64x512 .f32) (v42 : FVec Ideal S64x512 .f32) (r : Fin 64) (l : Fin 512) :
    k0_pay27 (F := Ideal) v28 v42 (ix2 r l) =
      (Ideal.sin (k0_pay25 (F := Ideal) v28 v42 (ix2 r l))) := by
  first | (unfold k0_pay27; kpay_read) | rfl

theorem pay28_apply  (r : Fin 64) (l : Fin 512) :
    k0_pay28 (F := Ideal) (ix2 r l) =
      (Ideal.ofBits .f32 0x7F800000#32) := by
  first | (unfold k0_pay28; kpay_read) | rfl

theorem pay29_apply  (r : Fin 64) (l : Fin 512) :
    k0_pay29 (F := Ideal) (ix2 r l) =
      (Ideal.ofBits .f32 0x7F800000#32) := by
  first | (unfold k0_pay29; kpay_read) | rfl

theorem pay30_apply  (r : Fin 64) (l : Fin 512) :
    k0_pay30 (F := Ideal) (ix2 r l) =
      (Ideal.ofBits .f32 0xFF800000#32) := by
  first | (unfold k0_pay30; kpay_read) | rfl

theorem pay31_apply  (r : Fin 64) (l : Fin 512) :
    k0_pay31 (F := Ideal) (ix2 r l) =
      (Ideal.ofBits .f32 0xFF800000#32) := by
  first | (unfold k0_pay31; kpay_read) | rfl

theorem pay32_apply (v26 : FVec Ideal S64x512 .f32) (v40 : FVec Ideal S64x512 .f32) (r : Fin 64) (l : Fin 512) :
    k0_pay32 (F := Ideal) v26 v40 (ix2 r l) =
      ((Ideal.ofBits .f32 0x3F000000#32) * (k0_pay24 (F := Ideal) v26 v40 (ix2 r l))) := by
  first | (unfold k0_pay32; kpay_read) | rfl

theorem pay33_apply (v24 : FVec Ideal S64x512 .f32) (v38 : FVec Ideal S64x512 .f32) (r : Fin 64) (l : Fin 512) :
    k0_pay33 (F := Ideal) v24 v38 (ix2 r l) =
      ((Ideal.ofBits .f32 0x3F000000#32) * (k0_pay23 (F := Ideal) v24 v38 (ix2 r l))) := by
  first | (unfold k0_pay33; kpay_read) | rfl

theorem pay34_apply (v24 : FVec Ideal S64x512 .f32) (v26 : FVec Ideal S64x512 .f32) (v28 : FVec Ideal S64x512 .f32) (v38 : FVec Ideal S64x512 .f32) (v40 : FVec Ideal S64x512 .f32) (v42 : FVec Ideal S64x512 .f32) (v48 : FVec Ideal S64x512 .f32) (r : Fin 64) (l : Fin 512) :
    k0_pay34 (F := Ideal) v24 v26 v28 v38 v40 v42 v48 (ix2 r l) =
      ((((k0_pay32 (F := Ideal) v26 v40 (ix2 r l)) * (k0_pay26 (F := Ideal) v28 v42 (ix2 r l))) - ((k0_pay33 (F := Ideal) v24 v38 (ix2 r l)) * (k0_pay27 (F := Ideal) v28 v42 (ix2 r l)))) + (v48 (ix2 r l))) := by
  first | (unfold k0_pay34; kpay_read) | rfl

theorem pay35_apply (v24 : FVec Ideal S64x512 .f32) (v26 : FVec Ideal S64x512 .f32) (v28 : FVec Ideal S64x512 .f32) (v38 : FVec Ideal S64x512 .f32) (v40 : FVec Ideal S64x512 .f32) (v42 : FVec Ideal S64x512 .f32) (v50 : FVec Ideal S64x512 .f32) (r : Fin 64) (l : Fin 512) :
    k0_pay35 (F := Ideal) v24 v26 v28 v38 v40 v42 v50 (ix2 r l) =
      ((((k0_pay32 (F := Ideal) v26 v40 (ix2 r l)) * (k0_pay27 (F := Ideal) v28 v42 (ix2 r l))) + ((k0_pay33 (F := Ideal) v24 v38 (ix2 r l)) * (k0_pay26 (F := Ideal) v28 v42 (ix2 r l)))) + (v50 (ix2 r l))) := by
  first | (unfold k0_pay35; kpay_read) | rfl

theorem pay36_apply (v20 : FVec Ideal S64x512 .f32) (v22 : FVec Ideal S64x512 .f32) (v34 : FVec Ideal S64x512 .f32) (v36 : FVec Ideal S64x512 .f32) (r : Fin 64) (l : Fin 512) :
    k0_pay36 (F := Ideal) v20 v22 v34 v36 (ix2 r l) =
      (((Ideal.ofBits .f32 0xBF000000#32) * (k0_pay22 (F := Ideal) v22 v36 (ix2 r l))) + (k0_pay21 (F := Ideal) v20 v34 v36 (ix2 r l))) := by
  first | (unfold k0_pay36; kpay_read) | rfl

theorem pay37_apply (v3 : Vec Ideal S4x4 .f32) (v20 : FVec Ideal S64x512 .f32) (v22 : FVec Ideal S64x512 .f32) (v24 : FVec Ideal S64x512 .f32) (v26 : FVec Ideal S64x512 .f32) (v28 : FVec Ideal S64x512 .f32) (v34 : FVec Ideal S64x512 .f32) (v36 : FVec Ideal S64x512 .f32) (v38 : FVec Ideal S64x512 .f32) (v40 : FVec Ideal S64x512 .f32) (v42 : FVec Ideal S64x512 .f32) (v48 : FVec Ideal S64x512 .f32) (v50 : FVec Ideal S64x512 .f32) (r : Fin 64) (l : Fin 512) :
    k0_pay37 (F := Ideal) v3 v20 v22 v24 v26 v28 v34 v36 v38 v40 v42 v48 v50 (ix2 r l) =
      (((((v3 (ix2 (0 : Fin 4) (0 : Fin 4))) * (k0_pay34 (F := Ideal) v24 v26 v28 v38 v40 v42 v48 (ix2 r l))) + ((v3 (ix2 (0 : Fin 4) (1 : Fin 4))) * (k0_pay35 (F := Ideal) v24 v26 v28 v38 v40 v42 v50 (ix2 r l)))) + ((v3 (ix2 (0 : Fin 4) (2 : Fin 4))) * (k0_pay36 (F := Ideal) v20 v22 v34 v36 (ix2 r l)))) + (v3 (ix2 (0 : Fin 4) (3 : Fin 4)))) := by
  first | (unfold k0_pay37; kpay_read) | rfl

theorem pay38_apply (v3 : Vec Ideal S4x4 .f32) (v24 : FVec Ideal S64x512 .f32) (v26 : FVec Ideal S64x512 .f32) (v28 : FVec Ideal S64x512 .f32) (v38 : FVec Ideal S64x512 .f32) (v40 : FVec Ideal S64x512 .f32) (v42 : FVec Ideal S64x512 .f32) (v48 : FVec Ideal S64x512 .f32) (r : Fin 64) (l : Fin 512) :
    k0_pay38 (F := Ideal) v3 v24 v26 v28 v38 v40 v42 v48 (ix2 r l) =
      ((v3 (ix2 (1 : Fin 4) (0 : Fin 4))) * (k0_pay34 (F := Ideal) v24 v26 v28 v38 v40 v42 v48 (ix2 r l))) := by
  first | (unfold k0_pay38; kpay_read) | rfl

theorem pay39_apply (v3 : Vec Ideal S4x4 .f32) :
    k0_pay39 (F := Ideal) v3 (ix2 (0 : Fin 1) (0 : Fin 1)) =
      (v3 (ix2 (1 : Fin 4) (1 : Fin 4))) := by
  first | (unfold k0_pay39; kpay_read) | rfl

theorem pay40_apply (v3 : Vec Ideal S4x4 .f32) (v79 : FVec Ideal S64x512 .f32) (v80 : FVec Ideal S64x512 .f32) (v102 : FVec Ideal S64x512 .f32) (v103 : FVec Ideal S1x1 .f32) (r : Fin 64) (l : Fin 512) :
    k0_pay40 (F := Ideal) v3 v79 v80 v102 v103 (ix2 r l) =
      ((((v102 (ix2 r l)) + ((v103 (ix2 (0 : Fin 1) (0 : Fin 1))) * (v79 (ix2 r l)))) + ((v3 (ix2 (1 : Fin 4) (2 : Fin 4))) * (v80 (ix2 r l)))) + (v3 (ix2 (1 : Fin 4) (3 : Fin 4)))) := by
  first | (unfold k0_pay40; kpay_read) | rfl

theorem pay41_apply (v62 : FVec Ideal S64x512 .f32) (v98 : FVec Ideal S64x512 .f32) (r : Fin 64) (l : Fin 512) :
    k0_pay41 (F := Ideal) v62 v98 (ix2 r l) =
      (min (v62 (ix2 r l)) (v98 (ix2 r l))) := by
  first | (unfold k0_pay41; kpay_read) | rfl

theorem pay42_apply (v3 : Vec Ideal S4x4 .f32) (v63 : FVec Ideal S64x512 .f32) (v79 : FVec Ideal S64x512 .f32) (v80 : FVec Ideal S64x512 .f32) (v102 : FVec Ideal S64x512 .f32) (v103 : FVec Ideal S1x1 .f32) (r : Fin 64) (l : Fin 512) :
    k0_pay42 (F := Ideal) v3 v63 v79 v80 v102 v103 (ix2 r l) =
      (min (v63 (ix2 r l)) (k0_pay40 (F := Ideal) v3 v79 v80 v102 v103 (ix2 r l))) := by
  first | (unfold k0_pay42; kpay_read) | rfl

theorem pay43_apply (v64 : FVec Ideal S64x512 .f32) (v98 : FVec Ideal S64x512 .f32) (r : Fin 64) (l : Fin 512) :
    k0_pay43 (F := Ideal) v64 v98 (ix2 r l) =
      (max (v64 (ix2 r l)) (v98 (ix2 r l))) := by
  first | (unfold k0_pay43; kpay_read) | rfl

theorem pay44_apply (v3 : Vec Ideal S4x4 .f32) (v65 : FVec Ideal S64x512 .f32) (v79 : FVec Ideal S64x512 .f32) (v80 : FVec Ideal S64x512 .f32) (v102 : FVec Ideal S64x512 .f32) (v103 : FVec Ideal S1x1 .f32) (r : Fin 64) (l : Fin 512) :
    k0_pay44 (F := Ideal) v3 v65 v79 v80 v102 v103 (ix2 r l) =
      (max (v65 (ix2 r l)) (k0_pay40 (F := Ideal) v3 v79 v80 v102 v103 (ix2 r l))) := by
  first | (unfold k0_pay44; kpay_read) | rfl

theorem pay45_apply (v58 : FVec Ideal S64x512 .f32) (r : Fin 64) (l : Fin 512) :
    k0_pay45 (F := Ideal) v58 (ix2 r l) =
      ((Ideal.ofBits .f32 0x3F000000#32) * (v58 (ix2 r l))) := by
  first | (unfold k0_pay45; kpay_read) | rfl

theorem pay46_apply (v56 : FVec Ideal S64x512 .f32) (r : Fin 64) (l : Fin 512) :
    k0_pay46 (F := Ideal) v56 (ix2 r l) =
      ((Ideal.ofBits .f32 0xBF000000#32) * (v56 (ix2 r l))) := by
  first | (unfold k0_pay46; kpay_read) | rfl

theorem pay47_apply (v48 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay47 (F := Ideal) v48 v56 v58 v60 v61 (ix2 r l) =
      ((((k0_pay45 (F := Ideal) v58 (ix2 r l)) * (v60 (ix2 r l))) - ((k0_pay46 (F := Ideal) v56 (ix2 r l)) * (v61 (ix2 r l)))) + (v48 (ix2 r l))) := by
  first | (unfold k0_pay47; kpay_read) | rfl

theorem pay48_apply (v50 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay48 (F := Ideal) v50 v56 v58 v60 v61 (ix2 r l) =
      ((((k0_pay45 (F := Ideal) v58 (ix2 r l)) * (v61 (ix2 r l))) + ((k0_pay46 (F := Ideal) v56 (ix2 r l)) * (v60 (ix2 r l)))) + (v50 (ix2 r l))) := by
  first | (unfold k0_pay48; kpay_read) | rfl

theorem pay49_apply (v52 : FVec Ideal S64x512 .f32) (v54 : FVec Ideal S64x512 .f32) (r : Fin 64) (l : Fin 512) :
    k0_pay49 (F := Ideal) v52 v54 (ix2 r l) =
      (((Ideal.ofBits .f32 0xBF000000#32) * (v54 (ix2 r l))) + (v52 (ix2 r l))) := by
  first | (unfold k0_pay49; kpay_read) | rfl

theorem pay50_apply (v3 : Vec Ideal S4x4 .f32) (v48 : FVec Ideal S64x512 .f32) (v50 : FVec Ideal S64x512 .f32) (v52 : FVec Ideal S64x512 .f32) (v54 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay50 (F := Ideal) v3 v48 v50 v52 v54 v56 v58 v60 v61 (ix2 r l) =
      (((((v3 (ix2 (0 : Fin 4) (0 : Fin 4))) * (k0_pay47 (F := Ideal) v48 v56 v58 v60 v61 (ix2 r l))) + ((v3 (ix2 (0 : Fin 4) (1 : Fin 4))) * (k0_pay48 (F := Ideal) v50 v56 v58 v60 v61 (ix2 r l)))) + ((v3 (ix2 (0 : Fin 4) (2 : Fin 4))) * (k0_pay49 (F := Ideal) v52 v54 (ix2 r l)))) + (v3 (ix2 (0 : Fin 4) (3 : Fin 4)))) := by
  first | (unfold k0_pay50; kpay_read) | rfl

theorem pay51_apply (v3 : Vec Ideal S4x4 .f32) (v48 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay51 (F := Ideal) v3 v48 v56 v58 v60 v61 (ix2 r l) =
      ((v3 (ix2 (1 : Fin 4) (0 : Fin 4))) * (k0_pay47 (F := Ideal) v48 v56 v58 v60 v61 (ix2 r l))) := by
  first | (unfold k0_pay51; kpay_read) | rfl

theorem pay52_apply (v3 : Vec Ideal S4x4 .f32) (r : Fin 64) (l : Fin 512) :
    k0_pay52 (F := Ideal) v3 (ix2 r l) =
      (v3 (ix2 (1 : Fin 4) (1 : Fin 4))) := by
  first | (unfold k0_pay52; kpay_read) | rfl

theorem pay53_apply (v3 : Vec Ideal S4x4 .f32) (v134 : FVec Ideal S64x512 .f32) (v135 : FVec Ideal S64x512 .f32) (v157 : FVec Ideal S64x512 .f32) (v160 : FVec Ideal S64x512 .f32) (r : Fin 64) (l : Fin 512) :
    k0_pay53 (F := Ideal) v3 v134 v135 v157 v160 (ix2 r l) =
      ((((v157 (ix2 r l)) + ((v160 (ix2 r l)) * (v134 (ix2 r l)))) + ((v3 (ix2 (1 : Fin 4) (2 : Fin 4))) * (v135 (ix2 r l)))) + (v3 (ix2 (1 : Fin 4) (3 : Fin 4)))) := by
  first | (unfold k0_pay53; kpay_read) | rfl

theorem pay54_apply (v117 : FVec Ideal S64x512 .f32) (v153 : FVec Ideal S64x512 .f32) (r : Fin 64) (l : Fin 512) :
    k0_pay54 (F := Ideal) v117 v153 (ix2 r l) =
      (min (v117 (ix2 r l)) (v153 (ix2 r l))) := by
  first | (unfold k0_pay54; kpay_read) | rfl

theorem pay55_apply (v3 : Vec Ideal S4x4 .f32) (v118 : FVec Ideal S64x512 .f32) (v134 : FVec Ideal S64x512 .f32) (v135 : FVec Ideal S64x512 .f32) (v157 : FVec Ideal S64x512 .f32) (v160 : FVec Ideal S64x512 .f32) (r : Fin 64) (l : Fin 512) :
    k0_pay55 (F := Ideal) v3 v118 v134 v135 v157 v160 (ix2 r l) =
      (min (v118 (ix2 r l)) (k0_pay53 (F := Ideal) v3 v134 v135 v157 v160 (ix2 r l))) := by
  first | (unfold k0_pay55; kpay_read) | rfl

theorem pay56_apply (v119 : FVec Ideal S64x512 .f32) (v153 : FVec Ideal S64x512 .f32) (r : Fin 64) (l : Fin 512) :
    k0_pay56 (F := Ideal) v119 v153 (ix2 r l) =
      (max (v119 (ix2 r l)) (v153 (ix2 r l))) := by
  first | (unfold k0_pay56; kpay_read) | rfl

theorem pay57_apply (v3 : Vec Ideal S4x4 .f32) (v120 : FVec Ideal S64x512 .f32) (v134 : FVec Ideal S64x512 .f32) (v135 : FVec Ideal S64x512 .f32) (v157 : FVec Ideal S64x512 .f32) (v160 : FVec Ideal S64x512 .f32) (r : Fin 64) (l : Fin 512) :
    k0_pay57 (F := Ideal) v3 v120 v134 v135 v157 v160 (ix2 r l) =
      (max (v120 (ix2 r l)) (k0_pay53 (F := Ideal) v3 v134 v135 v157 v160 (ix2 r l))) := by
  first | (unfold k0_pay57; kpay_read) | rfl

theorem pay58_apply (v58 : FVec Ideal S64x512 .f32) (r : Fin 64) (l : Fin 512) :
    k0_pay58 (F := Ideal) v58 (ix2 r l) =
      ((Ideal.ofBits .f32 0xBF000000#32) * (v58 (ix2 r l))) := by
  first | (unfold k0_pay58; kpay_read) | rfl

theorem pay59_apply (v56 : FVec Ideal S64x512 .f32) (r : Fin 64) (l : Fin 512) :
    k0_pay59 (F := Ideal) v56 (ix2 r l) =
      ((Ideal.ofBits .f32 0xBF000000#32) * (v56 (ix2 r l))) := by
  first | (unfold k0_pay59; kpay_read) | rfl

theorem pay60_apply (v48 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay60 (F := Ideal) v48 v56 v58 v60 v61 (ix2 r l) =
      ((((k0_pay58 (F := Ideal) v58 (ix2 r l)) * (v60 (ix2 r l))) - ((k0_pay59 (F := Ideal) v56 (ix2 r l)) * (v61 (ix2 r l)))) + (v48 (ix2 r l))) := by
  first | (unfold k0_pay60; kpay_read) | rfl

theorem pay61_apply (v50 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay61 (F := Ideal) v50 v56 v58 v60 v61 (ix2 r l) =
      ((((k0_pay58 (F := Ideal) v58 (ix2 r l)) * (v61 (ix2 r l))) + ((k0_pay59 (F := Ideal) v56 (ix2 r l)) * (v60 (ix2 r l)))) + (v50 (ix2 r l))) := by
  first | (unfold k0_pay61; kpay_read) | rfl

theorem pay62_apply (v52 : FVec Ideal S64x512 .f32) (v54 : FVec Ideal S64x512 .f32) (r : Fin 64) (l : Fin 512) :
    k0_pay62 (F := Ideal) v52 v54 (ix2 r l) =
      (((Ideal.ofBits .f32 0xBF000000#32) * (v54 (ix2 r l))) + (v52 (ix2 r l))) := by
  first | (unfold k0_pay62; kpay_read) | rfl

theorem pay63_apply (v3 : Vec Ideal S4x4 .f32) (v48 : FVec Ideal S64x512 .f32) (v50 : FVec Ideal S64x512 .f32) (v52 : FVec Ideal S64x512 .f32) (v54 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay63 (F := Ideal) v3 v48 v50 v52 v54 v56 v58 v60 v61 (ix2 r l) =
      (((((v3 (ix2 (0 : Fin 4) (0 : Fin 4))) * (k0_pay60 (F := Ideal) v48 v56 v58 v60 v61 (ix2 r l))) + ((v3 (ix2 (0 : Fin 4) (1 : Fin 4))) * (k0_pay61 (F := Ideal) v50 v56 v58 v60 v61 (ix2 r l)))) + ((v3 (ix2 (0 : Fin 4) (2 : Fin 4))) * (k0_pay62 (F := Ideal) v52 v54 (ix2 r l)))) + (v3 (ix2 (0 : Fin 4) (3 : Fin 4)))) := by
  first | (unfold k0_pay63; kpay_read) | rfl

theorem pay64_apply (v3 : Vec Ideal S4x4 .f32) (v48 : FVec Ideal S64x512 .f32) (v50 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay64 (F := Ideal) v3 v48 v50 v56 v58 v60 v61 (ix2 r l) =
      (((v3 (ix2 (1 : Fin 4) (0 : Fin 4))) * (k0_pay60 (F := Ideal) v48 v56 v58 v60 v61 (ix2 r l))) + ((v3 (ix2 (1 : Fin 4) (1 : Fin 4))) * (k0_pay61 (F := Ideal) v50 v56 v58 v60 v61 (ix2 r l)))) := by
  first | (unfold k0_pay64; kpay_read) | rfl

theorem pay65_apply (v3 : Vec Ideal S4x4 .f32) (v190 : FVec Ideal S64x512 .f32) (v217 : FVec Ideal S64x512 .f32) (r : Fin 64) (l : Fin 512) :
    k0_pay65 (F := Ideal) v3 v190 v217 (ix2 r l) =
      (((v217 (ix2 r l)) + ((v3 (ix2 (1 : Fin 4) (2 : Fin 4))) * (v190 (ix2 r l)))) + (v3 (ix2 (1 : Fin 4) (3 : Fin 4)))) := by
  first | (unfold k0_pay65; kpay_read) | rfl

theorem pay66_apply (v172 : FVec Ideal S64x512 .f32) (v208 : FVec Ideal S64x512 .f32) (r : Fin 64) (l : Fin 512) :
    k0_pay66 (F := Ideal) v172 v208 (ix2 r l) =
      (min (v172 (ix2 r l)) (v208 (ix2 r l))) := by
  first | (unfold k0_pay66; kpay_read) | rfl

theorem pay67_apply (v3 : Vec Ideal S4x4 .f32) (v173 : FVec Ideal S64x512 .f32) (v190 : FVec Ideal S64x512 .f32) (v217 : FVec Ideal S64x512 .f32) (r : Fin 64) (l : Fin 512) :
    k0_pay67 (F := Ideal) v3 v173 v190 v217 (ix2 r l) =
      (min (v173 (ix2 r l)) (k0_pay65 (F := Ideal) v3 v190 v217 (ix2 r l))) := by
  first | (unfold k0_pay67; kpay_read) | rfl

theorem pay68_apply (v174 : FVec Ideal S64x512 .f32) (v208 : FVec Ideal S64x512 .f32) (r : Fin 64) (l : Fin 512) :
    k0_pay68 (F := Ideal) v174 v208 (ix2 r l) =
      (max (v174 (ix2 r l)) (v208 (ix2 r l))) := by
  first | (unfold k0_pay68; kpay_read) | rfl

theorem pay69_apply (v3 : Vec Ideal S4x4 .f32) (v175 : FVec Ideal S64x512 .f32) (v190 : FVec Ideal S64x512 .f32) (v217 : FVec Ideal S64x512 .f32) (r : Fin 64) (l : Fin 512) :
    k0_pay69 (F := Ideal) v3 v175 v190 v217 (ix2 r l) =
      (max (v175 (ix2 r l)) (k0_pay65 (F := Ideal) v3 v190 v217 (ix2 r l))) := by
  first | (unfold k0_pay69; kpay_read) | rfl

theorem pay70_apply (v58 : FVec Ideal S64x512 .f32) (r : Fin 64) (l : Fin 512) :
    k0_pay70 (F := Ideal) v58 (ix2 r l) =
      ((Ideal.ofBits .f32 0xBF000000#32) * (v58 (ix2 r l))) := by
  first | (unfold k0_pay70; kpay_read) | rfl

theorem pay71_apply (v56 : FVec Ideal S64x512 .f32) (r : Fin 64) (l : Fin 512) :
    k0_pay71 (F := Ideal) v56 (ix2 r l) =
      ((Ideal.ofBits .f32 0x3F000000#32) * (v56 (ix2 r l))) := by
  first | (unfold k0_pay71; kpay_read) | rfl

theorem pay72_apply (v48 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay72 (F := Ideal) v48 v56 v58 v60 v61 (ix2 r l) =
      ((((k0_pay70 (F := Ideal) v58 (ix2 r l)) * (v60 (ix2 r l))) - ((k0_pay71 (F := Ideal) v56 (ix2 r l)) * (v61 (ix2 r l)))) + (v48 (ix2 r l))) := by
  first | (unfold k0_pay72; kpay_read) | rfl

theorem pay73_apply (v50 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay73 (F := Ideal) v50 v56 v58 v60 v61 (ix2 r l) =
      ((((k0_pay70 (F := Ideal) v58 (ix2 r l)) * (v61 (ix2 r l))) + ((k0_pay71 (F := Ideal) v56 (ix2 r l)) * (v60 (ix2 r l)))) + (v50 (ix2 r l))) := by
  first | (unfold k0_pay73; kpay_read) | rfl

theorem pay74_apply (v52 : FVec Ideal S64x512 .f32) (v54 : FVec Ideal S64x512 .f32) (r : Fin 64) (l : Fin 512) :
    k0_pay74 (F := Ideal) v52 v54 (ix2 r l) =
      (((Ideal.ofBits .f32 0xBF000000#32) * (v54 (ix2 r l))) + (v52 (ix2 r l))) := by
  first | (unfold k0_pay74; kpay_read) | rfl

theorem pay75_apply (v3 : Vec Ideal S4x4 .f32) (v48 : FVec Ideal S64x512 .f32) (v50 : FVec Ideal S64x512 .f32) (v52 : FVec Ideal S64x512 .f32) (v54 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay75 (F := Ideal) v3 v48 v50 v52 v54 v56 v58 v60 v61 (ix2 r l) =
      (((((v3 (ix2 (0 : Fin 4) (0 : Fin 4))) * (k0_pay72 (F := Ideal) v48 v56 v58 v60 v61 (ix2 r l))) + ((v3 (ix2 (0 : Fin 4) (1 : Fin 4))) * (k0_pay73 (F := Ideal) v50 v56 v58 v60 v61 (ix2 r l)))) + ((v3 (ix2 (0 : Fin 4) (2 : Fin 4))) * (k0_pay74 (F := Ideal) v52 v54 (ix2 r l)))) + (v3 (ix2 (0 : Fin 4) (3 : Fin 4)))) := by
  first | (unfold k0_pay75; kpay_read) | rfl

theorem pay76_apply (v3 : Vec Ideal S4x4 .f32) (v48 : FVec Ideal S64x512 .f32) (v50 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay76 (F := Ideal) v3 v48 v50 v56 v58 v60 v61 (ix2 r l) =
      (((v3 (ix2 (1 : Fin 4) (0 : Fin 4))) * (k0_pay72 (F := Ideal) v48 v56 v58 v60 v61 (ix2 r l))) + ((v3 (ix2 (1 : Fin 4) (1 : Fin 4))) * (k0_pay73 (F := Ideal) v50 v56 v58 v60 v61 (ix2 r l)))) := by
  first | (unfold k0_pay76; kpay_read) | rfl

theorem pay77_apply (v3 : Vec Ideal S4x4 .f32) :
    k0_pay77 (F := Ideal) v3 =
      (v3 (ix2 (1 : Fin 4) (2 : Fin 4))) := by
  first | (unfold k0_pay77; kpay_read) | rfl

theorem pay78_apply (v3 : Vec Ideal S4x4 .f32) (v245 : FVec Ideal S64x512 .f32) (v272 : FVec Ideal S64x512 .f32) (v274 : Ideal .f32) (r : Fin 64) (l : Fin 512) :
    k0_pay78 (F := Ideal) v3 v245 v272 v274 (ix2 r l) =
      (((v272 (ix2 r l)) + (v274 * (v245 (ix2 r l)))) + (v3 (ix2 (1 : Fin 4) (3 : Fin 4)))) := by
  first | (unfold k0_pay78; kpay_read) | rfl

theorem pay79_apply (v227 : FVec Ideal S64x512 .f32) (v263 : FVec Ideal S64x512 .f32) (r : Fin 64) (l : Fin 512) :
    k0_pay79 (F := Ideal) v227 v263 (ix2 r l) =
      (min (v227 (ix2 r l)) (v263 (ix2 r l))) := by
  first | (unfold k0_pay79; kpay_read) | rfl

theorem pay80_apply (v3 : Vec Ideal S4x4 .f32) (v228 : FVec Ideal S64x512 .f32) (v245 : FVec Ideal S64x512 .f32) (v272 : FVec Ideal S64x512 .f32) (v274 : Ideal .f32) (r : Fin 64) (l : Fin 512) :
    k0_pay80 (F := Ideal) v3 v228 v245 v272 v274 (ix2 r l) =
      (min (v228 (ix2 r l)) (k0_pay78 (F := Ideal) v3 v245 v272 v274 (ix2 r l))) := by
  first | (unfold k0_pay80; kpay_read) | rfl

theorem pay81_apply (v229 : FVec Ideal S64x512 .f32) (v263 : FVec Ideal S64x512 .f32) (r : Fin 64) (l : Fin 512) :
    k0_pay81 (F := Ideal) v229 v263 (ix2 r l) =
      (max (v229 (ix2 r l)) (v263 (ix2 r l))) := by
  first | (unfold k0_pay81; kpay_read) | rfl

theorem pay82_apply (v3 : Vec Ideal S4x4 .f32) (v230 : FVec Ideal S64x512 .f32) (v245 : FVec Ideal S64x512 .f32) (v272 : FVec Ideal S64x512 .f32) (v274 : Ideal .f32) (r : Fin 64) (l : Fin 512) :
    k0_pay82 (F := Ideal) v3 v230 v245 v272 v274 (ix2 r l) =
      (max (v230 (ix2 r l)) (k0_pay78 (F := Ideal) v3 v245 v272 v274 (ix2 r l))) := by
  first | (unfold k0_pay82; kpay_read) | rfl

theorem pay83_apply (v58 : FVec Ideal S64x512 .f32) (r : Fin 64) (l : Fin 512) :
    k0_pay83 (F := Ideal) v58 (ix2 r l) =
      ((Ideal.ofBits .f32 0x3F000000#32) * (v58 (ix2 r l))) := by
  first | (unfold k0_pay83; kpay_read) | rfl

theorem pay84_apply (v56 : FVec Ideal S64x512 .f32) (r : Fin 64) (l : Fin 512) :
    k0_pay84 (F := Ideal) v56 (ix2 r l) =
      ((Ideal.ofBits .f32 0x3F000000#32) * (v56 (ix2 r l))) := by
  first | (unfold k0_pay84; kpay_read) | rfl

theorem pay85_apply (v48 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay85 (F := Ideal) v48 v56 v58 v60 v61 (ix2 r l) =
      ((((k0_pay83 (F := Ideal) v58 (ix2 r l)) * (v60 (ix2 r l))) - ((k0_pay84 (F := Ideal) v56 (ix2 r l)) * (v61 (ix2 r l)))) + (v48 (ix2 r l))) := by
  first | (unfold k0_pay85; kpay_read) | rfl

theorem pay86_apply (v50 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay86 (F := Ideal) v50 v56 v58 v60 v61 (ix2 r l) =
      ((((k0_pay83 (F := Ideal) v58 (ix2 r l)) * (v61 (ix2 r l))) + ((k0_pay84 (F := Ideal) v56 (ix2 r l)) * (v60 (ix2 r l)))) + (v50 (ix2 r l))) := by
  first | (unfold k0_pay86; kpay_read) | rfl

theorem pay87_apply (v52 : FVec Ideal S64x512 .f32) (v54 : FVec Ideal S64x512 .f32) (r : Fin 64) (l : Fin 512) :
    k0_pay87 (F := Ideal) v52 v54 (ix2 r l) =
      (((Ideal.ofBits .f32 0x3F000000#32) * (v54 (ix2 r l))) + (v52 (ix2 r l))) := by
  first | (unfold k0_pay87; kpay_read) | rfl

theorem pay88_apply (v3 : Vec Ideal S4x4 .f32) (v48 : FVec Ideal S64x512 .f32) (v50 : FVec Ideal S64x512 .f32) (v52 : FVec Ideal S64x512 .f32) (v54 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay88 (F := Ideal) v3 v48 v50 v52 v54 v56 v58 v60 v61 (ix2 r l) =
      (((((v3 (ix2 (0 : Fin 4) (0 : Fin 4))) * (k0_pay85 (F := Ideal) v48 v56 v58 v60 v61 (ix2 r l))) + ((v3 (ix2 (0 : Fin 4) (1 : Fin 4))) * (k0_pay86 (F := Ideal) v50 v56 v58 v60 v61 (ix2 r l)))) + ((v3 (ix2 (0 : Fin 4) (2 : Fin 4))) * (k0_pay87 (F := Ideal) v52 v54 (ix2 r l)))) + (v3 (ix2 (0 : Fin 4) (3 : Fin 4)))) := by
  first | (unfold k0_pay88; kpay_read) | rfl

theorem pay89_apply (v3 : Vec Ideal S4x4 .f32) (v48 : FVec Ideal S64x512 .f32) (v50 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay89 (F := Ideal) v3 v48 v50 v56 v58 v60 v61 (ix2 r l) =
      (((v3 (ix2 (1 : Fin 4) (0 : Fin 4))) * (k0_pay85 (F := Ideal) v48 v56 v58 v60 v61 (ix2 r l))) + ((v3 (ix2 (1 : Fin 4) (1 : Fin 4))) * (k0_pay86 (F := Ideal) v50 v56 v58 v60 v61 (ix2 r l)))) := by
  first | (unfold k0_pay89; kpay_read) | rfl

theorem pay90_apply (v3 : Vec Ideal S4x4 .f32) (v52 : FVec Ideal S64x512 .f32) (v54 : FVec Ideal S64x512 .f32) (r : Fin 64) (l : Fin 512) :
    k0_pay90 (F := Ideal) v3 v52 v54 (ix2 r l) =
      ((v3 (ix2 (1 : Fin 4) (2 : Fin 4))) * (k0_pay87 (F := Ideal) v52 v54 (ix2 r l))) := by
  first | (unfold k0_pay90; kpay_read) | rfl

end Cert.KernelIdeal.KPay

end
-- ==== Proof.KPay.Table2.lean ====
/-
  The payloads k0_pay91 to k0_pay180 of the kernel's body, each read at one index: at row r and lane l of the 64 × 512 tile
  (a scalar payload as it is, a 1 × 1 payload at its one cell), the payload's own operations applied, in its own order,
  to its arguments at that index. A 1 × 1 × 64 × 512 slab is read at (0, 0, r, l), a 1 × 1 load at (0, 0), a payload
  called inside another stays a call at the same index.
-/
import proofs.«157336_j6562710028353_2_alg».proof.Proof.KPay.Ops

noncomputable section

open scoped BigOperators

namespace Cert.KernelIdeal.KPay

open Cert.KernelIdeal Cert.KernelIdeal.Gen
open Idealize.ShloMosaic Idealize.ShloMosaic.ValueIdx

theorem pay91_apply (v3 : Vec Ideal S4x4 .f32) (v327 : FVec Ideal S64x512 .f32) (v331 : FVec Ideal S64x512 .f32) (r : Fin 64) (l : Fin 512) :
    k0_pay91 (F := Ideal) v3 v327 v331 (ix2 r l) =
      (((v327 (ix2 r l)) + (v331 (ix2 r l))) + (v3 (ix2 (1 : Fin 4) (3 : Fin 4)))) := by
  first | (unfold k0_pay91; kpay_read) | rfl

theorem pay92_apply (v282 : FVec Ideal S64x512 .f32) (v318 : FVec Ideal S64x512 .f32) (r : Fin 64) (l : Fin 512) :
    k0_pay92 (F := Ideal) v282 v318 (ix2 r l) =
      (min (v282 (ix2 r l)) (v318 (ix2 r l))) := by
  first | (unfold k0_pay92; kpay_read) | rfl

theorem pay93_apply (v3 : Vec Ideal S4x4 .f32) (v283 : FVec Ideal S64x512 .f32) (v327 : FVec Ideal S64x512 .f32) (v331 : FVec Ideal S64x512 .f32) (r : Fin 64) (l : Fin 512) :
    k0_pay93 (F := Ideal) v3 v283 v327 v331 (ix2 r l) =
      (min (v283 (ix2 r l)) (k0_pay91 (F := Ideal) v3 v327 v331 (ix2 r l))) := by
  first | (unfold k0_pay93; kpay_read) | rfl

theorem pay94_apply (v284 : FVec Ideal S64x512 .f32) (v318 : FVec Ideal S64x512 .f32) (r : Fin 64) (l : Fin 512) :
    k0_pay94 (F := Ideal) v284 v318 (ix2 r l) =
      (max (v284 (ix2 r l)) (v318 (ix2 r l))) := by
  first | (unfold k0_pay94; kpay_read) | rfl

theorem pay95_apply (v3 : Vec Ideal S4x4 .f32) (v285 : FVec Ideal S64x512 .f32) (v327 : FVec Ideal S64x512 .f32) (v331 : FVec Ideal S64x512 .f32) (r : Fin 64) (l : Fin 512) :
    k0_pay95 (F := Ideal) v3 v285 v327 v331 (ix2 r l) =
      (max (v285 (ix2 r l)) (k0_pay91 (F := Ideal) v3 v327 v331 (ix2 r l))) := by
  first | (unfold k0_pay95; kpay_read) | rfl

theorem pay96_apply (v58 : FVec Ideal S64x512 .f32) (r : Fin 64) (l : Fin 512) :
    k0_pay96 (F := Ideal) v58 (ix2 r l) =
      ((Ideal.ofBits .f32 0x3F000000#32) * (v58 (ix2 r l))) := by
  first | (unfold k0_pay96; kpay_read) | rfl

theorem pay97_apply (v56 : FVec Ideal S64x512 .f32) (r : Fin 64) (l : Fin 512) :
    k0_pay97 (F := Ideal) v56 (ix2 r l) =
      ((Ideal.ofBits .f32 0xBF000000#32) * (v56 (ix2 r l))) := by
  first | (unfold k0_pay97; kpay_read) | rfl

theorem pay98_apply (v48 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay98 (F := Ideal) v48 v56 v58 v60 v61 (ix2 r l) =
      ((((k0_pay96 (F := Ideal) v58 (ix2 r l)) * (v60 (ix2 r l))) - ((k0_pay97 (F := Ideal) v56 (ix2 r l)) * (v61 (ix2 r l)))) + (v48 (ix2 r l))) := by
  first | (unfold k0_pay98; kpay_read) | rfl

theorem pay99_apply (v50 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay99 (F := Ideal) v50 v56 v58 v60 v61 (ix2 r l) =
      ((((k0_pay96 (F := Ideal) v58 (ix2 r l)) * (v61 (ix2 r l))) + ((k0_pay97 (F := Ideal) v56 (ix2 r l)) * (v60 (ix2 r l)))) + (v50 (ix2 r l))) := by
  first | (unfold k0_pay99; kpay_read) | rfl

theorem pay100_apply (v52 : FVec Ideal S64x512 .f32) (v54 : FVec Ideal S64x512 .f32) (r : Fin 64) (l : Fin 512) :
    k0_pay100 (F := Ideal) v52 v54 (ix2 r l) =
      (((Ideal.ofBits .f32 0x3F000000#32) * (v54 (ix2 r l))) + (v52 (ix2 r l))) := by
  first | (unfold k0_pay100; kpay_read) | rfl

theorem pay101_apply (v3 : Vec Ideal S4x4 .f32) (v48 : FVec Ideal S64x512 .f32) (v50 : FVec Ideal S64x512 .f32) (v52 : FVec Ideal S64x512 .f32) (v54 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay101 (F := Ideal) v3 v48 v50 v52 v54 v56 v58 v60 v61 (ix2 r l) =
      (((((v3 (ix2 (0 : Fin 4) (0 : Fin 4))) * (k0_pay98 (F := Ideal) v48 v56 v58 v60 v61 (ix2 r l))) + ((v3 (ix2 (0 : Fin 4) (1 : Fin 4))) * (k0_pay99 (F := Ideal) v50 v56 v58 v60 v61 (ix2 r l)))) + ((v3 (ix2 (0 : Fin 4) (2 : Fin 4))) * (k0_pay100 (F := Ideal) v52 v54 (ix2 r l)))) + (v3 (ix2 (0 : Fin 4) (3 : Fin 4)))) := by
  first | (unfold k0_pay101; kpay_read) | rfl

theorem pay102_apply (v3 : Vec Ideal S4x4 .f32) (v48 : FVec Ideal S64x512 .f32) (v50 : FVec Ideal S64x512 .f32) (v52 : FVec Ideal S64x512 .f32) (v54 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay102 (F := Ideal) v3 v48 v50 v52 v54 v56 v58 v60 v61 (ix2 r l) =
      ((((v3 (ix2 (1 : Fin 4) (0 : Fin 4))) * (k0_pay98 (F := Ideal) v48 v56 v58 v60 v61 (ix2 r l))) + ((v3 (ix2 (1 : Fin 4) (1 : Fin 4))) * (k0_pay99 (F := Ideal) v50 v56 v58 v60 v61 (ix2 r l)))) + ((v3 (ix2 (1 : Fin 4) (2 : Fin 4))) * (k0_pay100 (F := Ideal) v52 v54 (ix2 r l)))) := by
  first | (unfold k0_pay102; kpay_read) | rfl

theorem pay103_apply (v3 : Vec Ideal S4x4 .f32) :
    k0_pay103 (F := Ideal) v3 (ix2 (0 : Fin 1) (0 : Fin 1)) =
      (v3 (ix2 (1 : Fin 4) (3 : Fin 4))) := by
  first | (unfold k0_pay103; kpay_read) | rfl

theorem pay104_apply (v387 : FVec Ideal S64x512 .f32) (v388 : FVec Ideal S1x1 .f32) (r : Fin 64) (l : Fin 512) :
    k0_pay104 (F := Ideal) v387 v388 (ix2 r l) =
      ((v387 (ix2 r l)) + (v388 (ix2 (0 : Fin 1) (0 : Fin 1)))) := by
  first | (unfold k0_pay104; kpay_read) | rfl

theorem pay105_apply (v337 : FVec Ideal S64x512 .f32) (v373 : FVec Ideal S64x512 .f32) (r : Fin 64) (l : Fin 512) :
    k0_pay105 (F := Ideal) v337 v373 (ix2 r l) =
      (min (v337 (ix2 r l)) (v373 (ix2 r l))) := by
  first | (unfold k0_pay105; kpay_read) | rfl

theorem pay106_apply (v338 : FVec Ideal S64x512 .f32) (v387 : FVec Ideal S64x512 .f32) (v388 : FVec Ideal S1x1 .f32) (r : Fin 64) (l : Fin 512) :
    k0_pay106 (F := Ideal) v338 v387 v388 (ix2 r l) =
      (min (v338 (ix2 r l)) (k0_pay104 (F := Ideal) v387 v388 (ix2 r l))) := by
  first | (unfold k0_pay106; kpay_read) | rfl

theorem pay107_apply (v339 : FVec Ideal S64x512 .f32) (v373 : FVec Ideal S64x512 .f32) (r : Fin 64) (l : Fin 512) :
    k0_pay107 (F := Ideal) v339 v373 (ix2 r l) =
      (max (v339 (ix2 r l)) (v373 (ix2 r l))) := by
  first | (unfold k0_pay107; kpay_read) | rfl

theorem pay108_apply (v340 : FVec Ideal S64x512 .f32) (v387 : FVec Ideal S64x512 .f32) (v388 : FVec Ideal S1x1 .f32) (r : Fin 64) (l : Fin 512) :
    k0_pay108 (F := Ideal) v340 v387 v388 (ix2 r l) =
      (max (v340 (ix2 r l)) (k0_pay104 (F := Ideal) v387 v388 (ix2 r l))) := by
  first | (unfold k0_pay108; kpay_read) | rfl

theorem pay109_apply (v58 : FVec Ideal S64x512 .f32) (r : Fin 64) (l : Fin 512) :
    k0_pay109 (F := Ideal) v58 (ix2 r l) =
      ((Ideal.ofBits .f32 0xBF000000#32) * (v58 (ix2 r l))) := by
  first | (unfold k0_pay109; kpay_read) | rfl

theorem pay110_apply (v56 : FVec Ideal S64x512 .f32) (r : Fin 64) (l : Fin 512) :
    k0_pay110 (F := Ideal) v56 (ix2 r l) =
      ((Ideal.ofBits .f32 0xBF000000#32) * (v56 (ix2 r l))) := by
  first | (unfold k0_pay110; kpay_read) | rfl

theorem pay111_apply (v48 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay111 (F := Ideal) v48 v56 v58 v60 v61 (ix2 r l) =
      ((((k0_pay109 (F := Ideal) v58 (ix2 r l)) * (v60 (ix2 r l))) - ((k0_pay110 (F := Ideal) v56 (ix2 r l)) * (v61 (ix2 r l)))) + (v48 (ix2 r l))) := by
  first | (unfold k0_pay111; kpay_read) | rfl

theorem pay112_apply (v50 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay112 (F := Ideal) v50 v56 v58 v60 v61 (ix2 r l) =
      ((((k0_pay109 (F := Ideal) v58 (ix2 r l)) * (v61 (ix2 r l))) + ((k0_pay110 (F := Ideal) v56 (ix2 r l)) * (v60 (ix2 r l)))) + (v50 (ix2 r l))) := by
  first | (unfold k0_pay112; kpay_read) | rfl

theorem pay113_apply (v52 : FVec Ideal S64x512 .f32) (v54 : FVec Ideal S64x512 .f32) (r : Fin 64) (l : Fin 512) :
    k0_pay113 (F := Ideal) v52 v54 (ix2 r l) =
      (((Ideal.ofBits .f32 0x3F000000#32) * (v54 (ix2 r l))) + (v52 (ix2 r l))) := by
  first | (unfold k0_pay113; kpay_read) | rfl

theorem pay114_apply (v3 : Vec Ideal S4x4 .f32) (v48 : FVec Ideal S64x512 .f32) (v50 : FVec Ideal S64x512 .f32) (v52 : FVec Ideal S64x512 .f32) (v54 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay114 (F := Ideal) v3 v48 v50 v52 v54 v56 v58 v60 v61 (ix2 r l) =
      (((((v3 (ix2 (0 : Fin 4) (0 : Fin 4))) * (k0_pay111 (F := Ideal) v48 v56 v58 v60 v61 (ix2 r l))) + ((v3 (ix2 (0 : Fin 4) (1 : Fin 4))) * (k0_pay112 (F := Ideal) v50 v56 v58 v60 v61 (ix2 r l)))) + ((v3 (ix2 (0 : Fin 4) (2 : Fin 4))) * (k0_pay113 (F := Ideal) v52 v54 (ix2 r l)))) + (v3 (ix2 (0 : Fin 4) (3 : Fin 4)))) := by
  first | (unfold k0_pay114; kpay_read) | rfl

theorem pay115_apply (v3 : Vec Ideal S4x4 .f32) (v48 : FVec Ideal S64x512 .f32) (v50 : FVec Ideal S64x512 .f32) (v52 : FVec Ideal S64x512 .f32) (v54 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay115 (F := Ideal) v3 v48 v50 v52 v54 v56 v58 v60 v61 (ix2 r l) =
      ((((v3 (ix2 (1 : Fin 4) (0 : Fin 4))) * (k0_pay111 (F := Ideal) v48 v56 v58 v60 v61 (ix2 r l))) + ((v3 (ix2 (1 : Fin 4) (1 : Fin 4))) * (k0_pay112 (F := Ideal) v50 v56 v58 v60 v61 (ix2 r l)))) + ((v3 (ix2 (1 : Fin 4) (2 : Fin 4))) * (k0_pay113 (F := Ideal) v52 v54 (ix2 r l)))) := by
  first | (unfold k0_pay115; kpay_read) | rfl

theorem pay116_apply (v3 : Vec Ideal S4x4 .f32) (r : Fin 64) (l : Fin 512) :
    k0_pay116 (F := Ideal) v3 (ix2 r l) =
      (v3 (ix2 (1 : Fin 4) (3 : Fin 4))) := by
  first | (unfold k0_pay116; kpay_read) | rfl

theorem pay117_apply (v442 : FVec Ideal S64x512 .f32) (v445 : FVec Ideal S64x512 .f32) (r : Fin 64) (l : Fin 512) :
    k0_pay117 (F := Ideal) v442 v445 (ix2 r l) =
      ((v442 (ix2 r l)) + (v445 (ix2 r l))) := by
  first | (unfold k0_pay117; kpay_read) | rfl

theorem pay118_apply (v393 : FVec Ideal S64x512 .f32) (v442 : FVec Ideal S64x512 .f32) (v445 : FVec Ideal S64x512 .f32) (r : Fin 64) (l : Fin 512) :
    k0_pay118 (F := Ideal) v393 v442 v445 (ix2 r l) =
      (min (v393 (ix2 r l)) (k0_pay117 (F := Ideal) v442 v445 (ix2 r l))) := by
  first | (unfold k0_pay118; kpay_read) | rfl

theorem pay119_apply (v394 : FVec Ideal S64x512 .f32) (v428 : FVec Ideal S64x512 .f32) (r : Fin 64) (l : Fin 512) :
    k0_pay119 (F := Ideal) v394 v428 (ix2 r l) =
      (max (v394 (ix2 r l)) (v428 (ix2 r l))) := by
  first | (unfold k0_pay119; kpay_read) | rfl

theorem pay120_apply (v395 : FVec Ideal S64x512 .f32) (v442 : FVec Ideal S64x512 .f32) (v445 : FVec Ideal S64x512 .f32) (r : Fin 64) (l : Fin 512) :
    k0_pay120 (F := Ideal) v395 v442 v445 (ix2 r l) =
      (max (v395 (ix2 r l)) (k0_pay117 (F := Ideal) v442 v445 (ix2 r l))) := by
  first | (unfold k0_pay120; kpay_read) | rfl

theorem pay121_apply (v58 : FVec Ideal S64x512 .f32) (r : Fin 64) (l : Fin 512) :
    k0_pay121 (F := Ideal) v58 (ix2 r l) =
      ((Ideal.ofBits .f32 0xBF000000#32) * (v58 (ix2 r l))) := by
  first | (unfold k0_pay121; kpay_read) | rfl

theorem pay122_apply (v56 : FVec Ideal S64x512 .f32) (r : Fin 64) (l : Fin 512) :
    k0_pay122 (F := Ideal) v56 (ix2 r l) =
      ((Ideal.ofBits .f32 0x3F000000#32) * (v56 (ix2 r l))) := by
  first | (unfold k0_pay122; kpay_read) | rfl

theorem pay123_apply (v48 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay123 (F := Ideal) v48 v56 v58 v60 v61 (ix2 r l) =
      ((((k0_pay121 (F := Ideal) v58 (ix2 r l)) * (v60 (ix2 r l))) - ((k0_pay122 (F := Ideal) v56 (ix2 r l)) * (v61 (ix2 r l)))) + (v48 (ix2 r l))) := by
  first | (unfold k0_pay123; kpay_read) | rfl

theorem pay124_apply (v50 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay124 (F := Ideal) v50 v56 v58 v60 v61 (ix2 r l) =
      ((((k0_pay121 (F := Ideal) v58 (ix2 r l)) * (v61 (ix2 r l))) + ((k0_pay122 (F := Ideal) v56 (ix2 r l)) * (v60 (ix2 r l)))) + (v50 (ix2 r l))) := by
  first | (unfold k0_pay124; kpay_read) | rfl

theorem pay125_apply (v52 : FVec Ideal S64x512 .f32) (v54 : FVec Ideal S64x512 .f32) (r : Fin 64) (l : Fin 512) :
    k0_pay125 (F := Ideal) v52 v54 (ix2 r l) =
      (((Ideal.ofBits .f32 0x3F000000#32) * (v54 (ix2 r l))) + (v52 (ix2 r l))) := by
  first | (unfold k0_pay125; kpay_read) | rfl

theorem pay126_apply (v3 : Vec Ideal S4x4 .f32) (v48 : FVec Ideal S64x512 .f32) (v50 : FVec Ideal S64x512 .f32) (v52 : FVec Ideal S64x512 .f32) (v54 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay126 (F := Ideal) v3 v48 v50 v52 v54 v56 v58 v60 v61 (ix2 r l) =
      (((((v3 (ix2 (0 : Fin 4) (0 : Fin 4))) * (k0_pay123 (F := Ideal) v48 v56 v58 v60 v61 (ix2 r l))) + ((v3 (ix2 (0 : Fin 4) (1 : Fin 4))) * (k0_pay124 (F := Ideal) v50 v56 v58 v60 v61 (ix2 r l)))) + ((v3 (ix2 (0 : Fin 4) (2 : Fin 4))) * (k0_pay125 (F := Ideal) v52 v54 (ix2 r l)))) + (v3 (ix2 (0 : Fin 4) (3 : Fin 4)))) := by
  first | (unfold k0_pay126; kpay_read) | rfl

theorem pay127_apply (v3 : Vec Ideal S4x4 .f32) (v48 : FVec Ideal S64x512 .f32) (v50 : FVec Ideal S64x512 .f32) (v52 : FVec Ideal S64x512 .f32) (v54 : FVec Ideal S64x512 .f32) (v56 : FVec Ideal S64x512 .f32) (v58 : FVec Ideal S64x512 .f32) (v60 : FVec Ideal S64x512 .f32) (v61 : FVec Ideal S64x512 .f32) (r : Fin 64) (l : Fin 512) :
    k0_pay127 (F := Ideal) v3 v48 v50 v52 v54 v56 v58 v60 v61 (ix2 r l) =
      (((((v3 (ix2 (1 : Fin 4) (0 : Fin 4))) * (k0_pay123 (F := Ideal) v48 v56 v58 v60 v61 (ix2 r l))) + ((v3 (ix2 (1 : Fin 4) (1 : Fin 4))) * (k0_pay124 (F := Ideal) v50 v56 v58 v60 v61 (ix2 r l)))) + ((v3 (ix2 (1 : Fin 4) (2 : Fin 4))) * (k0_pay125 (F := Ideal) v52 v54 (ix2 r l)))) + (v3 (ix2 (1 : Fin 4) (3 : Fin 4)))) := by
  first | (unfold k0_pay127; kpay_read) | rfl

theorem pay128_apply (v3 : Vec Ideal S4x4 .f32) (v48 : FVec Ideal S64x512 .f32) (v50 : FVec Ideal S64x512 .f32) (v52 : FVec Ideal S64x512 .f32) (v54 : FVec Ideal S64x512 .f32) (v56 : FVec Ideal S64x512 .f32) (v58 : FVec Ideal S64x512 .f32) (v60 : FVec Ideal S64x512 .f32) (v61 : FVec Ideal S64x512 .f32) (v392 : FVec Ideal S64x512 .f32) (v428 : FVec Ideal S64x512 .f32) (r : Fin 64) (l : Fin 512) :
    k0_pay128 (F := Ideal) v3 v48 v50 v52 v54 v56 v58 v60 v61 v392 v428 (ix2 r l) =
      (min (min (v392 (ix2 r l)) (v428 (ix2 r l))) (k0_pay126 (F := Ideal) v3 v48 v50 v52 v54 v56 v58 v60 v61 (ix2 r l))) := by
  first | (unfold k0_pay128; kpay_read) | rfl

theorem pay129_apply (v448 : FVec Ideal S64x512 .f32) (v501 : FVec Ideal S64x512 .f32) (r : Fin 64) (l : Fin 512) :
    k0_pay129 (F := Ideal) v448 v501 (ix2 r l) =
      (min (v448 (ix2 r l)) (v501 (ix2 r l))) := by
  first | (unfold k0_pay129; kpay_read) | rfl

theorem pay130_apply (v449 : FVec Ideal S64x512 .f32) (v483 : FVec Ideal S64x512 .f32) (r : Fin 64) (l : Fin 512) :
    k0_pay130 (F := Ideal) v449 v483 (ix2 r l) =
      (max (v449 (ix2 r l)) (v483 (ix2 r l))) := by
  first | (unfold k0_pay130; kpay_read) | rfl

theorem pay131_apply (v450 : FVec Ideal S64x512 .f32) (v501 : FVec Ideal S64x512 .f32) (r : Fin 64) (l : Fin 512) :
    k0_pay131 (F := Ideal) v450 v501 (ix2 r l) =
      (max (v450 (ix2 r l)) (v501 (ix2 r l))) := by
  first | (unfold k0_pay131; kpay_read) | rfl

theorem pay132_apply (v448 : FVec Ideal S64x512 .f32) (v449 : FVec Ideal S64x512 .f32) (v450 : FVec Ideal S64x512 .f32) (v483 : FVec Ideal S64x512 .f32) (v501 : FVec Ideal S64x512 .f32) (v502 : FVec Ideal S64x512 .f32) (r : Fin 64) (l : Fin 512) :
    k0_pay132 (F := Ideal) v448 v449 v450 v483 v501 v502 (ix2 r l) =
      (((k0_pay130 (F := Ideal) v449 v483 (ix2 r l)) - (v502 (ix2 r l))) * ((k0_pay131 (F := Ideal) v450 v501 (ix2 r l)) - (k0_pay129 (F := Ideal) v448 v501 (ix2 r l)))) := by
  first | (unfold k0_pay132; kpay_read) | rfl

theorem pay133_apply (v448 : FVec Ideal S64x512 .f32) (v449 : FVec Ideal S64x512 .f32) (v450 : FVec Ideal S64x512 .f32) (v483 : FVec Ideal S64x512 .f32) (v501 : FVec Ideal S64x512 .f32) (v502 : FVec Ideal S64x512 .f32) (v510 : Vec Ideal S1x1 .f32) (v512 : Vec Ideal S1x1 .f32) (v514 : Vec Ideal S1x1 .f32) (v516 : Vec Ideal S1x1 .f32) (r : Fin 64) (l : Fin 512) :
    k0_pay133 (F := Ideal) v448 v449 v450 v483 v501 v502 v510 v512 v514 v516 (ix2 r l) =
      ((Ideal.ofBits .f32 0x00000000#32) + (Ideal.div ((max (Ideal.ofBits .f32 0x00000000#32) ((min (k0_pay130 (F := Ideal) v449 v483 (ix2 r l)) (v514 (ix2 (0 : Fin 1) (0 : Fin 1)))) - (max (v502 (ix2 r l)) (v510 (ix2 (0 : Fin 1) (0 : Fin 1)))))) * (max (Ideal.ofBits .f32 0x00000000#32) ((min (k0_pay131 (F := Ideal) v450 v501 (ix2 r l)) (v516 (ix2 (0 : Fin 1) (0 : Fin 1)))) - (max (k0_pay129 (F := Ideal) v448 v501 (ix2 r l)) (v512 (ix2 (0 : Fin 1) (0 : Fin 1))))))) (((k0_pay132 (F := Ideal) v448 v449 v450 v483 v501 v502 (ix2 r l)) + (((v514 (ix2 (0 : Fin 1) (0 : Fin 1))) - (v510 (ix2 (0 : Fin 1) (0 : Fin 1)))) * ((v516 (ix2 (0 : Fin 1) (0 : Fin 1))) - (v512 (ix2 (0 : Fin 1) (0 : Fin 1)))))) - ((max (Ideal.ofBits .f32 0x00000000#32) ((min (k0_pay130 (F := Ideal) v449 v483 (ix2 r l)) (v514 (ix2 (0 : Fin 1) (0 : Fin 1)))) - (max (v502 (ix2 r l)) (v510 (ix2 (0 : Fin 1) (0 : Fin 1)))))) * (max (Ideal.ofBits .f32 0x00000000#32) ((min (k0_pay131 (F := Ideal) v450 v501 (ix2 r l)) (v516 (ix2 (0 : Fin 1) (0 : Fin 1)))) - (max (k0_pay129 (F := Ideal) v448 v501 (ix2 r l)) (v512 (ix2 (0 : Fin 1) (0 : Fin 1)))))))))) := by
  first | (unfold k0_pay133; kpay_read) | rfl

theorem pay134_apply (v541 : Vec Ideal S1x1 .f32) :
    k0_pay134 (F := Ideal) v541 =
      (v541 (ix2 (0 : Fin 1) (0 : Fin 1))) := by
  first | (unfold k0_pay134; kpay_read) | rfl

theorem pay135_apply (v543 : Vec Ideal S1x1 .f32) :
    k0_pay135 (F := Ideal) v543 =
      (v543 (ix2 (0 : Fin 1) (0 : Fin 1))) := by
  first | (unfold k0_pay135; kpay_read) | rfl

theorem pay136_apply (v502 : FVec Ideal S64x512 .f32) (v503 : FVec Ideal S64x512 .f32) (v504 : FVec Ideal S64x512 .f32) (v505 : FVec Ideal S64x512 .f32) (v508 : FVec Ideal S64x512 .f32) (v540 : FVec Ideal S64x512 .f32) (v542 : Ideal .f32) (v544 : Ideal .f32) (v545 : Vec Ideal S1x1 .f32) (v547 : Vec Ideal S1x1 .f32) (r : Fin 64) (l : Fin 512) :
    k0_pay136 (F := Ideal) v502 v503 v504 v505 v508 v540 v542 v544 v545 v547 (ix2 r l) =
      ((v540 (ix2 r l)) + (Ideal.div ((max (Ideal.ofBits .f32 0x00000000#32) ((min (v504 (ix2 r l)) (v545 (ix2 (0 : Fin 1) (0 : Fin 1)))) - (max (v502 (ix2 r l)) v542))) * (max (Ideal.ofBits .f32 0x00000000#32) ((min (v505 (ix2 r l)) (v547 (ix2 (0 : Fin 1) (0 : Fin 1)))) - (max (v503 (ix2 r l)) v544)))) (((v508 (ix2 r l)) + (((v545 (ix2 (0 : Fin 1) (0 : Fin 1))) - v542) * ((v547 (ix2 (0 : Fin 1) (0 : Fin 1))) - v544))) - ((max (Ideal.ofBits .f32 0x00000000#32) ((min (v504 (ix2 r l)) (v545 (ix2 (0 : Fin 1) (0 : Fin 1)))) - (max (v502 (ix2 r l)) v542))) * (max (Ideal.ofBits .f32 0x00000000#32) ((min (v505 (ix2 r l)) (v547 (ix2 (0 : Fin 1) (0 : Fin 1)))) - (max (v503 (ix2 r l)) v544))))))) := by
  first | (unfold k0_pay136; kpay_read) | rfl

theorem pay137_apply (v572 : Vec Ideal S1x1 .f32) :
    k0_pay137 (F := Ideal) v572 =
      (v572 (ix2 (0 : Fin 1) (0 : Fin 1))) := by
  first | (unfold k0_pay137; kpay_read) | rfl

theorem pay138_apply (v574 : Vec Ideal S1x1 .f32) :
    k0_pay138 (F := Ideal) v574 =
      (v574 (ix2 (0 : Fin 1) (0 : Fin 1))) := by
  first | (unfold k0_pay138; kpay_read) | rfl

theorem pay139_apply (v576 : Vec Ideal S1x1 .f32) :
    k0_pay139 (F := Ideal) v576 =
      (v576 (ix2 (0 : Fin 1) (0 : Fin 1))) := by
  first | (unfold k0_pay139; kpay_read) | rfl

theorem pay140_apply (v578 : Vec Ideal S1x1 .f32) :
    k0_pay140 (F := Ideal) v578 =
      (v578 (ix2 (0 : Fin 1) (0 : Fin 1))) := by
  first | (unfold k0_pay140; kpay_read) | rfl

theorem pay141_apply (v502 : FVec Ideal S64x512 .f32) (v504 : FVec Ideal S64x512 .f32) (v572 : Vec Ideal S1x1 .f32) (v576 : Vec Ideal S1x1 .f32) (r : Fin 64) (l : Fin 512) :
    k0_pay141 (F := Ideal) v502 v504 v572 v576 (ix2 r l) =
      (max (Ideal.ofBits .f32 0x00000000#32) ((min (v504 (ix2 r l)) (k0_pay139 (F := Ideal) v576)) - (max (v502 (ix2 r l)) (k0_pay137 (F := Ideal) v572)))) := by
  first | (unfold k0_pay141; kpay_read) | rfl

theorem pay142_apply (v503 : FVec Ideal S64x512 .f32) (v505 : FVec Ideal S64x512 .f32) (v574 : Vec Ideal S1x1 .f32) (v578 : Vec Ideal S1x1 .f32) (r : Fin 64) (l : Fin 512) :
    k0_pay142 (F := Ideal) v503 v505 v574 v578 (ix2 r l) =
      ((min (v505 (ix2 r l)) (k0_pay140 (F := Ideal) v578)) - (max (v503 (ix2 r l)) (k0_pay138 (F := Ideal) v574))) := by
  first | (unfold k0_pay142; kpay_read) | rfl

theorem pay143_apply (v502 : FVec Ideal S64x512 .f32) (v503 : FVec Ideal S64x512 .f32) (v504 : FVec Ideal S64x512 .f32) (v505 : FVec Ideal S64x512 .f32) (v508 : FVec Ideal S64x512 .f32) (v571 : FVec Ideal S64x512 .f32) (v573 : Ideal .f32) (v575 : Ideal .f32) (v577 : Ideal .f32) (v579 : Ideal .f32) (v590 : FVec Ideal S64x512 .f32) (v591 : FVec Ideal S64x512 .f32) (cst_116 : Ideal .f32) (v603 : Vec Ideal S1x1 .f32) (v605 : Vec Ideal S1x1 .f32) (v607 : Vec Ideal S1x1 .f32) (v609 : Vec Ideal S1x1 .f32) (r : Fin 64) (l : Fin 512) :
    k0_pay143 (F := Ideal) v502 v503 v504 v505 v508 v571 v573 v575 v577 v579 v590 v591 cst_116 v603 v605 v607 v609 (ix2 r l) =
      (((v571 (ix2 r l)) + (Ideal.div ((v590 (ix2 r l)) * (max cst_116 (v591 (ix2 r l)))) (((v508 (ix2 r l)) + ((v577 - v573) * (v579 - v575))) - ((v590 (ix2 r l)) * (max cst_116 (v591 (ix2 r l))))))) + (Ideal.div ((max (Ideal.ofBits .f32 0x00000000#32) ((min (v504 (ix2 r l)) (v607 (ix2 (0 : Fin 1) (0 : Fin 1)))) - (max (v502 (ix2 r l)) (v603 (ix2 (0 : Fin 1) (0 : Fin 1)))))) * (max (Ideal.ofBits .f32 0x00000000#32) ((min (v505 (ix2 r l)) (v609 (ix2 (0 : Fin 1) (0 : Fin 1)))) - (max (v503 (ix2 r l)) (v605 (ix2 (0 : Fin 1) (0 : Fin 1))))))) (((v508 (ix2 r l)) + (((v607 (ix2 (0 : Fin 1) (0 : Fin 1))) - (v603 (ix2 (0 : Fin 1) (0 : Fin 1)))) * ((v609 (ix2 (0 : Fin 1) (0 : Fin 1))) - (v605 (ix2 (0 : Fin 1) (0 : Fin 1)))))) - ((max (Ideal.ofBits .f32 0x00000000#32) ((min (v504 (ix2 r l)) (v607 (ix2 (0 : Fin 1) (0 : Fin 1)))) - (max (v502 (ix2 r l)) (v603 (ix2 (0 : Fin 1) (0 : Fin 1)))))) * (max (Ideal.ofBits .f32 0x00000000#32) ((min (v505 (ix2 r l)) (v609 (ix2 (0 : Fin 1) (0 : Fin 1)))) - (max (v503 (ix2 r l)) (v605 (ix2 (0 : Fin 1) (0 : Fin 1)))))))))) := by
  first | (unfold k0_pay143; kpay_read) | rfl

theorem pay144_apply (v634 : Vec Ideal S1x1 .f32) :
    k0_pay144 (F := Ideal) v634 =
      (v634 (ix2 (0 : Fin 1) (0 : Fin 1))) := by
  first | (unfold k0_pay144; kpay_read) | rfl

theorem pay145_apply (v636 : Vec Ideal S1x1 .f32) :
    k0_pay145 (F := Ideal) v636 =
      (v636 (ix2 (0 : Fin 1) (0 : Fin 1))) := by
  first | (unfold k0_pay145; kpay_read) | rfl

theorem pay146_apply (v502 : FVec Ideal S64x512 .f32) (v503 : FVec Ideal S64x512 .f32) (v504 : FVec Ideal S64x512 .f32) (v505 : FVec Ideal S64x512 .f32) (v508 : FVec Ideal S64x512 .f32) (v633 : FVec Ideal S64x512 .f32) (v635 : Ideal .f32) (v637 : Ideal .f32) (v638 : Vec Ideal S1x1 .f32) (v640 : Vec Ideal S1x1 .f32) (r : Fin 64) (l : Fin 512) :
    k0_pay146 (F := Ideal) v502 v503 v504 v505 v508 v633 v635 v637 v638 v640 (ix2 r l) =
      ((v633 (ix2 r l)) + (Ideal.div ((max (Ideal.ofBits .f32 0x00000000#32) ((min (v504 (ix2 r l)) (v638 (ix2 (0 : Fin 1) (0 : Fin 1)))) - (max (v502 (ix2 r l)) v635))) * (max (Ideal.ofBits .f32 0x00000000#32) ((min (v505 (ix2 r l)) (v640 (ix2 (0 : Fin 1) (0 : Fin 1)))) - (max (v503 (ix2 r l)) v637)))) (((v508 (ix2 r l)) + (((v638 (ix2 (0 : Fin 1) (0 : Fin 1))) - v635) * ((v640 (ix2 (0 : Fin 1) (0 : Fin 1))) - v637))) - ((max (Ideal.ofBits .f32 0x00000000#32) ((min (v504 (ix2 r l)) (v638 (ix2 (0 : Fin 1) (0 : Fin 1)))) - (max (v502 (ix2 r l)) v635))) * (max (Ideal.ofBits .f32 0x00000000#32) ((min (v505 (ix2 r l)) (v640 (ix2 (0 : Fin 1) (0 : Fin 1)))) - (max (v503 (ix2 r l)) v637))))))) := by
  first | (unfold k0_pay146; kpay_read) | rfl

theorem pay147_apply (v665 : Vec Ideal S1x1 .f32) :
    k0_pay147 (F := Ideal) v665 =
      (v665 (ix2 (0 : Fin 1) (0 : Fin 1))) := by
  first | (unfold k0_pay147; kpay_read) | rfl

theorem pay148_apply (v667 : Vec Ideal S1x1 .f32) :
    k0_pay148 (F := Ideal) v667 =
      (v667 (ix2 (0 : Fin 1) (0 : Fin 1))) := by
  first | (unfold k0_pay148; kpay_read) | rfl

theorem pay149_apply (v669 : Vec Ideal S1x1 .f32) :
    k0_pay149 (F := Ideal) v669 =
      (v669 (ix2 (0 : Fin 1) (0 : Fin 1))) := by
  first | (unfold k0_pay149; kpay_read) | rfl

theorem pay150_apply (v671 : Vec Ideal S1x1 .f32) :
    k0_pay150 (F := Ideal) v671 =
      (v671 (ix2 (0 : Fin 1) (0 : Fin 1))) := by
  first | (unfold k0_pay150; kpay_read) | rfl

theorem pay151_apply (v503 : FVec Ideal S64x512 .f32) (v667 : Vec Ideal S1x1 .f32) (r : Fin 64) (l : Fin 512) :
    k0_pay151 (F := Ideal) v503 v667 (ix2 r l) =
      (max (v503 (ix2 r l)) (k0_pay148 (F := Ideal) v667)) := by
  first | (unfold k0_pay151; kpay_read) | rfl

theorem pay152_apply (v505 : FVec Ideal S64x512 .f32) (v671 : Vec Ideal S1x1 .f32) (r : Fin 64) (l : Fin 512) :
    k0_pay152 (F := Ideal) v505 v671 (ix2 r l) =
      (min (v505 (ix2 r l)) (k0_pay150 (F := Ideal) v671)) := by
  first | (unfold k0_pay152; kpay_read) | rfl

theorem pay153_apply (v502 : FVec Ideal S64x512 .f32) (v504 : FVec Ideal S64x512 .f32) (v665 : Vec Ideal S1x1 .f32) (v669 : Vec Ideal S1x1 .f32) (r : Fin 64) (l : Fin 512) :
    k0_pay153 (F := Ideal) v502 v504 v665 v669 (ix2 r l) =
      ((min (v504 (ix2 r l)) (k0_pay149 (F := Ideal) v669)) - (max (v502 (ix2 r l)) (k0_pay147 (F := Ideal) v665))) := by
  first | (unfold k0_pay153; kpay_read) | rfl

theorem pay154_apply  (r : Fin 64) (l : Fin 512) :
    k0_pay154 (F := Ideal) (ix2 r l) =
      (Ideal.ofBits .f32 0x00000000#32) := by
  first | (unfold k0_pay154; kpay_read) | rfl

theorem pay155_apply (v502 : FVec Ideal S64x512 .f32) (v503 : FVec Ideal S64x512 .f32) (v504 : FVec Ideal S64x512 .f32) (v505 : FVec Ideal S64x512 .f32) (v508 : FVec Ideal S64x512 .f32) (v664 : FVec Ideal S64x512 .f32) (v666 : Ideal .f32) (v668 : Ideal .f32) (v670 : Ideal .f32) (v672 : Ideal .f32) (v676 : FVec Ideal S64x512 .f32) (v680 : FVec Ideal S64x512 .f32) (v681 : FVec Ideal S64x512 .f32) (v682 : FVec Ideal S64x512 .f32) (v696 : Vec Ideal S1x1 .f32) (v698 : Vec Ideal S1x1 .f32) (v700 : Vec Ideal S1x1 .f32) (v702 : Vec Ideal S1x1 .f32) (r : Fin 64) (l : Fin 512) :
    k0_pay155 (F := Ideal) v502 v503 v504 v505 v508 v664 v666 v668 v670 v672 v676 v680 v681 v682 v696 v698 v700 v702 (ix2 r l) =
      (((v664 (ix2 r l)) + (Ideal.div ((max (v682 (ix2 r l)) (v681 (ix2 r l))) * (max (Ideal.ofBits .f32 0x00000000#32) ((v680 (ix2 r l)) - (v676 (ix2 r l))))) (((v508 (ix2 r l)) + ((v670 - v666) * (v672 - v668))) - ((max (v682 (ix2 r l)) (v681 (ix2 r l))) * (max (Ideal.ofBits .f32 0x00000000#32) ((v680 (ix2 r l)) - (v676 (ix2 r l)))))))) + (Ideal.div ((max (Ideal.ofBits .f32 0x00000000#32) ((min (v504 (ix2 r l)) (v700 (ix2 (0 : Fin 1) (0 : Fin 1)))) - (max (v502 (ix2 r l)) (v696 (ix2 (0 : Fin 1) (0 : Fin 1)))))) * (max (Ideal.ofBits .f32 0x00000000#32) ((min (v505 (ix2 r l)) (v702 (ix2 (0 : Fin 1) (0 : Fin 1)))) - (max (v503 (ix2 r l)) (v698 (ix2 (0 : Fin 1) (0 : Fin 1))))))) (((v508 (ix2 r l)) + (((v700 (ix2 (0 : Fin 1) (0 : Fin 1))) - (v696 (ix2 (0 : Fin 1) (0 : Fin 1)))) * ((v702 (ix2 (0 : Fin 1) (0 : Fin 1))) - (v698 (ix2 (0 : Fin 1) (0 : Fin 1)))))) - ((max (Ideal.ofBits .f32 0x00000000#32) ((min (v504 (ix2 r l)) (v700 (ix2 (0 : Fin 1) (0 : Fin 1)))) - (max (v502 (ix2 r l)) (v696 (ix2 (0 : Fin 1) (0 : Fin 1)))))) * (max (Ideal.ofBits .f32 0x00000000#32) ((min (v505 (ix2 r l)) (v702 (ix2 (0 : Fin 1) (0 : Fin 1)))) - (max (v503 (ix2 r l)) (v698 (ix2 (0 : Fin 1) (0 : Fin 1)))))))))) := by
  first | (unfold k0_pay155; kpay_read) | rfl

theorem pay156_apply (v727 : Vec Ideal S1x1 .f32) :
    k0_pay156 (F := Ideal) v727 =
      (v727 (ix2 (0 : Fin 1) (0 : Fin 1))) := by
  first | (unfold k0_pay156; kpay_read) | rfl

theorem pay157_apply (v502 : FVec Ideal S64x512 .f32) (v503 : FVec Ideal S64x512 .f32) (v504 : FVec Ideal S64x512 .f32) (v505 : FVec Ideal S64x512 .f32) (v508 : FVec Ideal S64x512 .f32) (v726 : FVec Ideal S64x512 .f32) (v728 : Ideal .f32) (v729 : Vec Ideal S1x1 .f32) (v731 : Vec Ideal S1x1 .f32) (v733 : Vec Ideal S1x1 .f32) (r : Fin 64) (l : Fin 512) :
    k0_pay157 (F := Ideal) v502 v503 v504 v505 v508 v726 v728 v729 v731 v733 (ix2 r l) =
      ((v726 (ix2 r l)) + (Ideal.div ((max (Ideal.ofBits .f32 0x00000000#32) ((min (v504 (ix2 r l)) (v731 (ix2 (0 : Fin 1) (0 : Fin 1)))) - (max (v502 (ix2 r l)) v728))) * (max (Ideal.ofBits .f32 0x00000000#32) ((min (v505 (ix2 r l)) (v733 (ix2 (0 : Fin 1) (0 : Fin 1)))) - (max (v503 (ix2 r l)) (v729 (ix2 (0 : Fin 1) (0 : Fin 1))))))) (((v508 (ix2 r l)) + (((v731 (ix2 (0 : Fin 1) (0 : Fin 1))) - v728) * ((v733 (ix2 (0 : Fin 1) (0 : Fin 1))) - (v729 (ix2 (0 : Fin 1) (0 : Fin 1)))))) - ((max (Ideal.ofBits .f32 0x00000000#32) ((min (v504 (ix2 r l)) (v731 (ix2 (0 : Fin 1) (0 : Fin 1)))) - (max (v502 (ix2 r l)) v728))) * (max (Ideal.ofBits .f32 0x00000000#32) ((min (v505 (ix2 r l)) (v733 (ix2 (0 : Fin 1) (0 : Fin 1)))) - (max (v503 (ix2 r l)) (v729 (ix2 (0 : Fin 1) (0 : Fin 1)))))))))) := by
  first | (unfold k0_pay157; kpay_read) | rfl

theorem pay158_apply (v758 : Vec Ideal S1x1 .f32) :
    k0_pay158 (F := Ideal) v758 =
      (v758 (ix2 (0 : Fin 1) (0 : Fin 1))) := by
  first | (unfold k0_pay158; kpay_read) | rfl

theorem pay159_apply (v760 : Vec Ideal S1x1 .f32) :
    k0_pay159 (F := Ideal) v760 =
      (v760 (ix2 (0 : Fin 1) (0 : Fin 1))) := by
  first | (unfold k0_pay159; kpay_read) | rfl

theorem pay160_apply (v762 : Vec Ideal S1x1 .f32) :
    k0_pay160 (F := Ideal) v762 =
      (v762 (ix2 (0 : Fin 1) (0 : Fin 1))) := by
  first | (unfold k0_pay160; kpay_read) | rfl

theorem pay161_apply (v764 : Vec Ideal S1x1 .f32) :
    k0_pay161 (F := Ideal) v764 =
      (v764 (ix2 (0 : Fin 1) (0 : Fin 1))) := by
  first | (unfold k0_pay161; kpay_read) | rfl

theorem pay162_apply (v502 : FVec Ideal S64x512 .f32) (v758 : Vec Ideal S1x1 .f32) (r : Fin 64) (l : Fin 512) :
    k0_pay162 (F := Ideal) v502 v758 (ix2 r l) =
      (max (v502 (ix2 r l)) (k0_pay158 (F := Ideal) v758)) := by
  first | (unfold k0_pay162; kpay_read) | rfl

theorem pay163_apply (v503 : FVec Ideal S64x512 .f32) (v760 : Vec Ideal S1x1 .f32) (r : Fin 64) (l : Fin 512) :
    k0_pay163 (F := Ideal) v503 v760 (ix2 r l) =
      (max (v503 (ix2 r l)) (k0_pay159 (F := Ideal) v760)) := by
  first | (unfold k0_pay163; kpay_read) | rfl

theorem pay164_apply (v504 : FVec Ideal S64x512 .f32) (v762 : Vec Ideal S1x1 .f32) (r : Fin 64) (l : Fin 512) :
    k0_pay164 (F := Ideal) v504 v762 (ix2 r l) =
      (min (v504 (ix2 r l)) (k0_pay160 (F := Ideal) v762)) := by
  first | (unfold k0_pay164; kpay_read) | rfl

theorem pay165_apply (v505 : FVec Ideal S64x512 .f32) (v764 : Vec Ideal S1x1 .f32) (r : Fin 64) (l : Fin 512) :
    k0_pay165 (F := Ideal) v505 v764 (ix2 r l) =
      (min (v505 (ix2 r l)) (k0_pay161 (F := Ideal) v764)) := by
  first | (unfold k0_pay165; kpay_read) | rfl

theorem pay166_apply (v502 : FVec Ideal S64x512 .f32) (v503 : FVec Ideal S64x512 .f32) (v504 : FVec Ideal S64x512 .f32) (v505 : FVec Ideal S64x512 .f32) (v508 : FVec Ideal S64x512 .f32) (v757 : FVec Ideal S64x512 .f32) (v759 : Ideal .f32) (v761 : Ideal .f32) (v763 : Ideal .f32) (v765 : Ideal .f32) (v767 : FVec Ideal S64x512 .f32) (v769 : FVec Ideal S64x512 .f32) (v771 : FVec Ideal S64x512 .f32) (v773 : FVec Ideal S64x512 .f32) (v789 : Vec Ideal S1x1 .f32) (v791 : Vec Ideal S1x1 .f32) (v793 : Vec Ideal S1x1 .f32) (v795 : Vec Ideal S1x1 .f32) (r : Fin 64) (l : Fin 512) :
    k0_pay166 (F := Ideal) v502 v503 v504 v505 v508 v757 v759 v761 v763 v765 v767 v769 v771 v773 v789 v791 v793 v795 (ix2 r l) =
      (((v757 (ix2 r l)) + (Ideal.div ((max (Ideal.ofBits .f32 0x00000000#32) ((v771 (ix2 r l)) - (v767 (ix2 r l)))) * (max (Ideal.ofBits .f32 0x00000000#32) ((v773 (ix2 r l)) - (v769 (ix2 r l))))) (((v508 (ix2 r l)) + ((v763 - v759) * (v765 - v761))) - ((max (Ideal.ofBits .f32 0x00000000#32) ((v771 (ix2 r l)) - (v767 (ix2 r l)))) * (max (Ideal.ofBits .f32 0x00000000#32) ((v773 (ix2 r l)) - (v769 (ix2 r l)))))))) + (Ideal.div ((max (Ideal.ofBits .f32 0x00000000#32) ((min (v504 (ix2 r l)) (v793 (ix2 (0 : Fin 1) (0 : Fin 1)))) - (max (v502 (ix2 r l)) (v789 (ix2 (0 : Fin 1) (0 : Fin 1)))))) * (max (Ideal.ofBits .f32 0x00000000#32) ((min (v505 (ix2 r l)) (v795 (ix2 (0 : Fin 1) (0 : Fin 1)))) - (max (v503 (ix2 r l)) (v791 (ix2 (0 : Fin 1) (0 : Fin 1))))))) (((v508 (ix2 r l)) + (((v793 (ix2 (0 : Fin 1) (0 : Fin 1))) - (v789 (ix2 (0 : Fin 1) (0 : Fin 1)))) * ((v795 (ix2 (0 : Fin 1) (0 : Fin 1))) - (v791 (ix2 (0 : Fin 1) (0 : Fin 1)))))) - ((max (Ideal.ofBits .f32 0x00000000#32) ((min (v504 (ix2 r l)) (v793 (ix2 (0 : Fin 1) (0 : Fin 1)))) - (max (v502 (ix2 r l)) (v789 (ix2 (0 : Fin 1) (0 : Fin 1)))))) * (max (Ideal.ofBits .f32 0x00000000#32) ((min (v505 (ix2 r l)) (v795 (ix2 (0 : Fin 1) (0 : Fin 1)))) - (max (v503 (ix2 r l)) (v791 (ix2 (0 : Fin 1) (0 : Fin 1)))))))))) := by
  first | (unfold k0_pay166; kpay_read) | rfl

theorem pay167_apply (v502 : FVec Ideal S64x512 .f32) (v503 : FVec Ideal S64x512 .f32) (v504 : FVec Ideal S64x512 .f32) (v505 : FVec Ideal S64x512 .f32) (v508 : FVec Ideal S64x512 .f32) (v819 : FVec Ideal S64x512 .f32) (v820 : Vec Ideal S1x1 .f32) (v822 : Vec Ideal S1x1 .f32) (v824 : Vec Ideal S1x1 .f32) (v826 : Vec Ideal S1x1 .f32) (r : Fin 64) (l : Fin 512) :
    k0_pay167 (F := Ideal) v502 v503 v504 v505 v508 v819 v820 v822 v824 v826 (ix2 r l) =
      ((v819 (ix2 r l)) + (Ideal.div ((max (Ideal.ofBits .f32 0x00000000#32) ((min (v504 (ix2 r l)) (v824 (ix2 (0 : Fin 1) (0 : Fin 1)))) - (max (v502 (ix2 r l)) (v820 (ix2 (0 : Fin 1) (0 : Fin 1)))))) * (max (Ideal.ofBits .f32 0x00000000#32) ((min (v505 (ix2 r l)) (v826 (ix2 (0 : Fin 1) (0 : Fin 1)))) - (max (v503 (ix2 r l)) (v822 (ix2 (0 : Fin 1) (0 : Fin 1))))))) (((v508 (ix2 r l)) + (((v824 (ix2 (0 : Fin 1) (0 : Fin 1))) - (v820 (ix2 (0 : Fin 1) (0 : Fin 1)))) * ((v826 (ix2 (0 : Fin 1) (0 : Fin 1))) - (v822 (ix2 (0 : Fin 1) (0 : Fin 1)))))) - ((max (Ideal.ofBits .f32 0x00000000#32) ((min (v504 (ix2 r l)) (v824 (ix2 (0 : Fin 1) (0 : Fin 1)))) - (max (v502 (ix2 r l)) (v820 (ix2 (0 : Fin 1) (0 : Fin 1)))))) * (max (Ideal.ofBits .f32 0x00000000#32) ((min (v505 (ix2 r l)) (v826 (ix2 (0 : Fin 1) (0 : Fin 1)))) - (max (v503 (ix2 r l)) (v822 (ix2 (0 : Fin 1) (0 : Fin 1)))))))))) := by
  first | (unfold k0_pay167; kpay_read) | rfl

theorem pay168_apply (v851 : Vec Ideal S1x1 .f32) :
    k0_pay168 (F := Ideal) v851 =
      (v851 (ix2 (0 : Fin 1) (0 : Fin 1))) := by
  first | (unfold k0_pay168; kpay_read) | rfl

theorem pay169_apply (v853 : Vec Ideal S1x1 .f32) :
    k0_pay169 (F := Ideal) v853 =
      (v853 (ix2 (0 : Fin 1) (0 : Fin 1))) := by
  first | (unfold k0_pay169; kpay_read) | rfl

theorem pay170_apply (v855 : Vec Ideal S1x1 .f32) :
    k0_pay170 (F := Ideal) v855 =
      (v855 (ix2 (0 : Fin 1) (0 : Fin 1))) := by
  first | (unfold k0_pay170; kpay_read) | rfl

theorem pay171_apply (v857 : Vec Ideal S1x1 .f32) :
    k0_pay171 (F := Ideal) v857 =
      (v857 (ix2 (0 : Fin 1) (0 : Fin 1))) := by
  first | (unfold k0_pay171; kpay_read) | rfl

theorem pay172_apply (v502 : FVec Ideal S64x512 .f32) (v851 : Vec Ideal S1x1 .f32) (r : Fin 64) (l : Fin 512) :
    k0_pay172 (F := Ideal) v502 v851 (ix2 r l) =
      (max (v502 (ix2 r l)) (k0_pay168 (F := Ideal) v851)) := by
  first | (unfold k0_pay172; kpay_read) | rfl

theorem pay173_apply (v503 : FVec Ideal S64x512 .f32) (v853 : Vec Ideal S1x1 .f32) (r : Fin 64) (l : Fin 512) :
    k0_pay173 (F := Ideal) v503 v853 (ix2 r l) =
      (max (v503 (ix2 r l)) (k0_pay169 (F := Ideal) v853)) := by
  first | (unfold k0_pay173; kpay_read) | rfl

theorem pay174_apply (v855 : Vec Ideal S1x1 .f32) (r : Fin 64) (l : Fin 512) :
    k0_pay174 (F := Ideal) v855 (ix2 r l) =
      (k0_pay170 (F := Ideal) v855) := by
  first | (unfold k0_pay174; kpay_read) | rfl

theorem pay175_apply (v504 : FVec Ideal S64x512 .f32) (v505 : FVec Ideal S64x512 .f32) (v508 : FVec Ideal S64x512 .f32) (v850 : FVec Ideal S64x512 .f32) (v852 : Ideal .f32) (v854 : Ideal .f32) (v856 : Ideal .f32) (v858 : Ideal .f32) (v860 : FVec Ideal S64x512 .f32) (v862 : FVec Ideal S64x512 .f32) (v863 : FVec Ideal S64x512 .f32) (r : Fin 64) (l : Fin 512) :
    k0_pay175 (F := Ideal) v504 v505 v508 v850 v852 v854 v856 v858 v860 v862 v863 (ix2 r l) =
      ((v850 (ix2 r l)) + (Ideal.div ((max (Ideal.ofBits .f32 0x00000000#32) ((min (v504 (ix2 r l)) (v863 (ix2 r l))) - (v860 (ix2 r l)))) * (max (Ideal.ofBits .f32 0x00000000#32) ((min (v505 (ix2 r l)) v858) - (v862 (ix2 r l))))) (((v508 (ix2 r l)) + ((v856 - v852) * (v858 - v854))) - ((max (Ideal.ofBits .f32 0x00000000#32) ((min (v504 (ix2 r l)) (v863 (ix2 r l))) - (v860 (ix2 r l)))) * (max (Ideal.ofBits .f32 0x00000000#32) ((min (v505 (ix2 r l)) v858) - (v862 (ix2 r l)))))))) := by
  first | (unfold k0_pay175; kpay_read) | rfl

theorem pay176_apply (v502 : FVec Ideal S64x512 .f32) (v503 : FVec Ideal S64x512 .f32) (v504 : FVec Ideal S64x512 .f32) (v505 : FVec Ideal S64x512 .f32) (v508 : FVec Ideal S64x512 .f32) (v882 : Vec Ideal S1x1 .f32) (v884 : Vec Ideal S1x1 .f32) (v886 : Vec Ideal S1x1 .f32) (v888 : Vec Ideal S1x1 .f32) (r : Fin 64) (l : Fin 512) :
    k0_pay176 (F := Ideal) v502 v503 v504 v505 v508 v882 v884 v886 v888 (ix2 r l) =
      (Ideal.div ((max (Ideal.ofBits .f32 0x00000000#32) ((min (v504 (ix2 r l)) (v886 (ix2 (0 : Fin 1) (0 : Fin 1)))) - (max (v502 (ix2 r l)) (v882 (ix2 (0 : Fin 1) (0 : Fin 1)))))) * (max (Ideal.ofBits .f32 0x00000000#32) ((min (v505 (ix2 r l)) (v888 (ix2 (0 : Fin 1) (0 : Fin 1)))) - (max (v503 (ix2 r l)) (v884 (ix2 (0 : Fin 1) (0 : Fin 1))))))) (((v508 (ix2 r l)) + (((v886 (ix2 (0 : Fin 1) (0 : Fin 1))) - (v882 (ix2 (0 : Fin 1) (0 : Fin 1)))) * ((v888 (ix2 (0 : Fin 1) (0 : Fin 1))) - (v884 (ix2 (0 : Fin 1) (0 : Fin 1)))))) - ((max (Ideal.ofBits .f32 0x00000000#32) ((min (v504 (ix2 r l)) (v886 (ix2 (0 : Fin 1) (0 : Fin 1)))) - (max (v502 (ix2 r l)) (v882 (ix2 (0 : Fin 1) (0 : Fin 1)))))) * (max (Ideal.ofBits .f32 0x00000000#32) ((min (v505 (ix2 r l)) (v888 (ix2 (0 : Fin 1) (0 : Fin 1)))) - (max (v503 (ix2 r l)) (v884 (ix2 (0 : Fin 1) (0 : Fin 1))))))))) := by
  first | (unfold k0_pay176; kpay_read) | rfl

theorem pay177_apply (v502 : FVec Ideal S64x512 .f32) (v503 : FVec Ideal S64x512 .f32) (v504 : FVec Ideal S64x512 .f32) (v505 : FVec Ideal S64x512 .f32) (v508 : FVec Ideal S64x512 .f32) (v881 : FVec Ideal S64x512 .f32) (v911 : FVec Ideal S64x512 .f32) (v913 : Vec Ideal S1x1 .f32) (v915 : Vec Ideal S1x1 .f32) (v917 : Vec Ideal S1x1 .f32) (v919 : Vec Ideal S1x1 .f32) (r : Fin 64) (l : Fin 512) :
    k0_pay177 (F := Ideal) v502 v503 v504 v505 v508 v881 v911 v913 v915 v917 v919 (ix2 r l) =
      (((v881 (ix2 r l)) + (v911 (ix2 r l))) + (Ideal.div ((max (Ideal.ofBits .f32 0x00000000#32) ((min (v504 (ix2 r l)) (v917 (ix2 (0 : Fin 1) (0 : Fin 1)))) - (max (v502 (ix2 r l)) (v913 (ix2 (0 : Fin 1) (0 : Fin 1)))))) * (max (Ideal.ofBits .f32 0x00000000#32) ((min (v505 (ix2 r l)) (v919 (ix2 (0 : Fin 1) (0 : Fin 1)))) - (max (v503 (ix2 r l)) (v915 (ix2 (0 : Fin 1) (0 : Fin 1))))))) (((v508 (ix2 r l)) + (((v917 (ix2 (0 : Fin 1) (0 : Fin 1))) - (v913 (ix2 (0 : Fin 1) (0 : Fin 1)))) * ((v919 (ix2 (0 : Fin 1) (0 : Fin 1))) - (v915 (ix2 (0 : Fin 1) (0 : Fin 1)))))) - ((max (Ideal.ofBits .f32 0x00000000#32) ((min (v504 (ix2 r l)) (v917 (ix2 (0 : Fin 1) (0 : Fin 1)))) - (max (v502 (ix2 r l)) (v913 (ix2 (0 : Fin 1) (0 : Fin 1)))))) * (max (Ideal.ofBits .f32 0x00000000#32) ((min (v505 (ix2 r l)) (v919 (ix2 (0 : Fin 1) (0 : Fin 1)))) - (max (v503 (ix2 r l)) (v915 (ix2 (0 : Fin 1) (0 : Fin 1)))))))))) := by
  first | (unfold k0_pay177; kpay_read) | rfl

theorem pay178_apply (v944 : Vec Ideal S1x1 .f32) :
    k0_pay178 (F := Ideal) v944 =
      (v944 (ix2 (0 : Fin 1) (0 : Fin 1))) := by
  first | (unfold k0_pay178; kpay_read) | rfl

theorem pay179_apply (v946 : Vec Ideal S1x1 .f32) :
    k0_pay179 (F := Ideal) v946 =
      (v946 (ix2 (0 : Fin 1) (0 : Fin 1))) := by
  first | (unfold k0_pay179; kpay_read) | rfl

theorem pay180_apply (v948 : Vec Ideal S1x1 .f32) :
    k0_pay180 (F := Ideal) v948 =
      (v948 (ix2 (0 : Fin 1) (0 : Fin 1))) := by
  first | (unfold k0_pay180; kpay_read) | rfl

end Cert.KernelIdeal.KPay

end
-- ==== Proof.KPay.Table3.lean ====
/-
  The payloads k0_pay181 to k0_pay270 of the kernel's body, each read at one index: at row r and lane l of the 64 × 512 tile
  (a scalar payload as it is, a 1 × 1 payload at its one cell), the payload's own operations applied, in its own order,
  to its arguments at that index. A 1 × 1 × 64 × 512 slab is read at (0, 0, r, l), a 1 × 1 load at (0, 0), a payload
  called inside another stays a call at the same index.
-/
import proofs.«157336_j6562710028353_2_alg».proof.Proof.KPay.Ops

noncomputable section

open scoped BigOperators

namespace Cert.KernelIdeal.KPay

open Cert.KernelIdeal Cert.KernelIdeal.Gen
open Idealize.ShloMosaic Idealize.ShloMosaic.ValueIdx

theorem pay181_apply (v950 : Vec Ideal S1x1 .f32) :
    k0_pay181 (F := Ideal) v950 =
      (v950 (ix2 (0 : Fin 1) (0 : Fin 1))) := by
  first | (unfold k0_pay181; kpay_read) | rfl

theorem pay182_apply (v502 : FVec Ideal S64x512 .f32) (v944 : Vec Ideal S1x1 .f32) (r : Fin 64) (l : Fin 512) :
    k0_pay182 (F := Ideal) v502 v944 (ix2 r l) =
      (max (v502 (ix2 r l)) (k0_pay178 (F := Ideal) v944)) := by
  first | (unfold k0_pay182; kpay_read) | rfl

theorem pay183_apply (v503 : FVec Ideal S64x512 .f32) (v504 : FVec Ideal S64x512 .f32) (v505 : FVec Ideal S64x512 .f32) (v508 : FVec Ideal S64x512 .f32) (v943 : FVec Ideal S64x512 .f32) (v945 : Ideal .f32) (v947 : Ideal .f32) (v949 : Ideal .f32) (v951 : Ideal .f32) (v953 : FVec Ideal S64x512 .f32) (r : Fin 64) (l : Fin 512) :
    k0_pay183 (F := Ideal) v503 v504 v505 v508 v943 v945 v947 v949 v951 v953 (ix2 r l) =
      ((v943 (ix2 r l)) + (Ideal.div ((max (Ideal.ofBits .f32 0x00000000#32) ((min (v504 (ix2 r l)) v949) - (v953 (ix2 r l)))) * (max (Ideal.ofBits .f32 0x00000000#32) ((min (v505 (ix2 r l)) v951) - (max (v503 (ix2 r l)) v947)))) (((v508 (ix2 r l)) + ((v949 - v945) * (v951 - v947))) - ((max (Ideal.ofBits .f32 0x00000000#32) ((min (v504 (ix2 r l)) v949) - (v953 (ix2 r l)))) * (max (Ideal.ofBits .f32 0x00000000#32) ((min (v505 (ix2 r l)) v951) - (max (v503 (ix2 r l)) v947))))))) := by
  first | (unfold k0_pay183; kpay_read) | rfl

theorem pay184_apply (v975 : Vec Ideal S1x1 .f32) :
    k0_pay184 (F := Ideal) v975 =
      (v975 (ix2 (0 : Fin 1) (0 : Fin 1))) := by
  first | (unfold k0_pay184; kpay_read) | rfl

theorem pay185_apply (v977 : Vec Ideal S1x1 .f32) :
    k0_pay185 (F := Ideal) v977 =
      (v977 (ix2 (0 : Fin 1) (0 : Fin 1))) := by
  first | (unfold k0_pay185; kpay_read) | rfl

theorem pay186_apply (v979 : Vec Ideal S1x1 .f32) :
    k0_pay186 (F := Ideal) v979 =
      (v979 (ix2 (0 : Fin 1) (0 : Fin 1))) := by
  first | (unfold k0_pay186; kpay_read) | rfl

theorem pay187_apply (v981 : Vec Ideal S1x1 .f32) :
    k0_pay187 (F := Ideal) v981 =
      (v981 (ix2 (0 : Fin 1) (0 : Fin 1))) := by
  first | (unfold k0_pay187; kpay_read) | rfl

theorem pay188_apply (v502 : FVec Ideal S64x512 .f32) (v503 : FVec Ideal S64x512 .f32) (v504 : FVec Ideal S64x512 .f32) (v505 : FVec Ideal S64x512 .f32) (v975 : Vec Ideal S1x1 .f32) (v977 : Vec Ideal S1x1 .f32) (v979 : Vec Ideal S1x1 .f32) (v981 : Vec Ideal S1x1 .f32) (r : Fin 64) (l : Fin 512) :
    k0_pay188 (F := Ideal) v502 v503 v504 v505 v975 v977 v979 v981 (ix2 r l) =
      ((max (Ideal.ofBits .f32 0x00000000#32) ((min (v504 (ix2 r l)) (k0_pay186 (F := Ideal) v979)) - (max (v502 (ix2 r l)) (k0_pay184 (F := Ideal) v975)))) * (max (Ideal.ofBits .f32 0x00000000#32) ((min (v505 (ix2 r l)) (k0_pay187 (F := Ideal) v981)) - (max (v503 (ix2 r l)) (k0_pay185 (F := Ideal) v977))))) := by
  first | (unfold k0_pay188; kpay_read) | rfl

theorem pay189_apply (v975 : Vec Ideal S1x1 .f32) (v977 : Vec Ideal S1x1 .f32) (v979 : Vec Ideal S1x1 .f32) (v981 : Vec Ideal S1x1 .f32) (r : Fin 64) (l : Fin 512) :
    k0_pay189 (F := Ideal) v975 v977 v979 v981 (ix2 r l) =
      (((k0_pay186 (F := Ideal) v979) - (k0_pay184 (F := Ideal) v975)) * ((k0_pay187 (F := Ideal) v981) - (k0_pay185 (F := Ideal) v977))) := by
  first | (unfold k0_pay189; kpay_read) | rfl

theorem pay190_apply (v502 : FVec Ideal S64x512 .f32) (v503 : FVec Ideal S64x512 .f32) (v504 : FVec Ideal S64x512 .f32) (v505 : FVec Ideal S64x512 .f32) (v508 : FVec Ideal S64x512 .f32) (v974 : FVec Ideal S64x512 .f32) (v997 : FVec Ideal S64x512 .f32) (v1001 : FVec Ideal S64x512 .f32) (v1006 : Vec Ideal S1x1 .f32) (v1008 : Vec Ideal S1x1 .f32) (v1010 : Vec Ideal S1x1 .f32) (v1012 : Vec Ideal S1x1 .f32) (r : Fin 64) (l : Fin 512) :
    k0_pay190 (F := Ideal) v502 v503 v504 v505 v508 v974 v997 v1001 v1006 v1008 v1010 v1012 (ix2 r l) =
      (((v974 (ix2 r l)) + (Ideal.div (v997 (ix2 r l)) (((v508 (ix2 r l)) + (v1001 (ix2 r l))) - (v997 (ix2 r l))))) + (Ideal.div ((max (Ideal.ofBits .f32 0x00000000#32) ((min (v504 (ix2 r l)) (v1010 (ix2 (0 : Fin 1) (0 : Fin 1)))) - (max (v502 (ix2 r l)) (v1006 (ix2 (0 : Fin 1) (0 : Fin 1)))))) * (max (Ideal.ofBits .f32 0x00000000#32) ((min (v505 (ix2 r l)) (v1012 (ix2 (0 : Fin 1) (0 : Fin 1)))) - (max (v503 (ix2 r l)) (v1008 (ix2 (0 : Fin 1) (0 : Fin 1))))))) (((v508 (ix2 r l)) + (((v1010 (ix2 (0 : Fin 1) (0 : Fin 1))) - (v1006 (ix2 (0 : Fin 1) (0 : Fin 1)))) * ((v1012 (ix2 (0 : Fin 1) (0 : Fin 1))) - (v1008 (ix2 (0 : Fin 1) (0 : Fin 1)))))) - ((max (Ideal.ofBits .f32 0x00000000#32) ((min (v504 (ix2 r l)) (v1010 (ix2 (0 : Fin 1) (0 : Fin 1)))) - (max (v502 (ix2 r l)) (v1006 (ix2 (0 : Fin 1) (0 : Fin 1)))))) * (max (Ideal.ofBits .f32 0x00000000#32) ((min (v505 (ix2 r l)) (v1012 (ix2 (0 : Fin 1) (0 : Fin 1)))) - (max (v503 (ix2 r l)) (v1008 (ix2 (0 : Fin 1) (0 : Fin 1)))))))))) := by
  first | (unfold k0_pay190; kpay_read) | rfl

theorem pay191_apply (v1037 : Vec Ideal S1x1 .f32) :
    k0_pay191 (F := Ideal) v1037 =
      (v1037 (ix2 (0 : Fin 1) (0 : Fin 1))) := by
  first | (unfold k0_pay191; kpay_read) | rfl

theorem pay192_apply (v1039 : Vec Ideal S1x1 .f32) :
    k0_pay192 (F := Ideal) v1039 =
      (v1039 (ix2 (0 : Fin 1) (0 : Fin 1))) := by
  first | (unfold k0_pay192; kpay_read) | rfl

theorem pay193_apply (v1041 : Vec Ideal S1x1 .f32) :
    k0_pay193 (F := Ideal) v1041 =
      (v1041 (ix2 (0 : Fin 1) (0 : Fin 1))) := by
  first | (unfold k0_pay193; kpay_read) | rfl

theorem pay194_apply (v502 : FVec Ideal S64x512 .f32) (v503 : FVec Ideal S64x512 .f32) (v504 : FVec Ideal S64x512 .f32) (v505 : FVec Ideal S64x512 .f32) (v508 : FVec Ideal S64x512 .f32) (v1036 : FVec Ideal S64x512 .f32) (v1038 : Ideal .f32) (v1040 : Ideal .f32) (v1042 : Ideal .f32) (v1043 : Vec Ideal S1x1 .f32) (r : Fin 64) (l : Fin 512) :
    k0_pay194 (F := Ideal) v502 v503 v504 v505 v508 v1036 v1038 v1040 v1042 v1043 (ix2 r l) =
      ((v1036 (ix2 r l)) + (Ideal.div ((max (Ideal.ofBits .f32 0x00000000#32) ((min (v504 (ix2 r l)) v1042) - (max (v502 (ix2 r l)) v1038))) * (max (Ideal.ofBits .f32 0x00000000#32) ((min (v505 (ix2 r l)) (v1043 (ix2 (0 : Fin 1) (0 : Fin 1)))) - (max (v503 (ix2 r l)) v1040)))) (((v508 (ix2 r l)) + ((v1042 - v1038) * ((v1043 (ix2 (0 : Fin 1) (0 : Fin 1))) - v1040))) - ((max (Ideal.ofBits .f32 0x00000000#32) ((min (v504 (ix2 r l)) v1042) - (max (v502 (ix2 r l)) v1038))) * (max (Ideal.ofBits .f32 0x00000000#32) ((min (v505 (ix2 r l)) (v1043 (ix2 (0 : Fin 1) (0 : Fin 1)))) - (max (v503 (ix2 r l)) v1040))))))) := by
  first | (unfold k0_pay194; kpay_read) | rfl

theorem pay195_apply (v1068 : Vec Ideal S1x1 .f32) :
    k0_pay195 (F := Ideal) v1068 =
      (v1068 (ix2 (0 : Fin 1) (0 : Fin 1))) := by
  first | (unfold k0_pay195; kpay_read) | rfl

theorem pay196_apply (v1070 : Vec Ideal S1x1 .f32) :
    k0_pay196 (F := Ideal) v1070 =
      (v1070 (ix2 (0 : Fin 1) (0 : Fin 1))) := by
  first | (unfold k0_pay196; kpay_read) | rfl

theorem pay197_apply (v1072 : Vec Ideal S1x1 .f32) :
    k0_pay197 (F := Ideal) v1072 =
      (v1072 (ix2 (0 : Fin 1) (0 : Fin 1))) := by
  first | (unfold k0_pay197; kpay_read) | rfl

theorem pay198_apply (v1074 : Vec Ideal S1x1 .f32) :
    k0_pay198 (F := Ideal) v1074 =
      (v1074 (ix2 (0 : Fin 1) (0 : Fin 1))) := by
  first | (unfold k0_pay198; kpay_read) | rfl

theorem pay199_apply (v502 : FVec Ideal S64x512 .f32) (v503 : FVec Ideal S64x512 .f32) (v504 : FVec Ideal S64x512 .f32) (v505 : FVec Ideal S64x512 .f32) (v1068 : Vec Ideal S1x1 .f32) (v1070 : Vec Ideal S1x1 .f32) (v1072 : Vec Ideal S1x1 .f32) (v1074 : Vec Ideal S1x1 .f32) (r : Fin 64) (l : Fin 512) :
    k0_pay199 (F := Ideal) v502 v503 v504 v505 v1068 v1070 v1072 v1074 (ix2 r l) =
      ((max (Ideal.ofBits .f32 0x00000000#32) ((min (v504 (ix2 r l)) (k0_pay197 (F := Ideal) v1072)) - (max (v502 (ix2 r l)) (k0_pay195 (F := Ideal) v1068)))) * (max (Ideal.ofBits .f32 0x00000000#32) ((min (v505 (ix2 r l)) (k0_pay198 (F := Ideal) v1074)) - (max (v503 (ix2 r l)) (k0_pay196 (F := Ideal) v1070))))) := by
  first | (unfold k0_pay199; kpay_read) | rfl

theorem pay200_apply (v1068 : Vec Ideal S1x1 .f32) (v1072 : Vec Ideal S1x1 .f32) :
    k0_pay200 (F := Ideal) v1068 v1072 =
      ((k0_pay197 (F := Ideal) v1072) - (k0_pay195 (F := Ideal) v1068)) := by
  first | (unfold k0_pay200; kpay_read) | rfl

theorem pay201_apply (v502 : FVec Ideal S64x512 .f32) (v503 : FVec Ideal S64x512 .f32) (v504 : FVec Ideal S64x512 .f32) (v505 : FVec Ideal S64x512 .f32) (v508 : FVec Ideal S64x512 .f32) (v1067 : FVec Ideal S64x512 .f32) (v1071 : Ideal .f32) (v1075 : Ideal .f32) (v1090 : FVec Ideal S64x512 .f32) (v1091 : Ideal .f32) (v1099 : Vec Ideal S1x1 .f32) (v1101 : Vec Ideal S1x1 .f32) (v1103 : Vec Ideal S1x1 .f32) (v1105 : Vec Ideal S1x1 .f32) (r : Fin 64) (l : Fin 512) :
    k0_pay201 (F := Ideal) v502 v503 v504 v505 v508 v1067 v1071 v1075 v1090 v1091 v1099 v1101 v1103 v1105 (ix2 r l) =
      (((v1067 (ix2 r l)) + (Ideal.div (v1090 (ix2 r l)) (((v508 (ix2 r l)) + (v1091 * (v1075 - v1071))) - (v1090 (ix2 r l))))) + (Ideal.div ((max (Ideal.ofBits .f32 0x00000000#32) ((min (v504 (ix2 r l)) (v1103 (ix2 (0 : Fin 1) (0 : Fin 1)))) - (max (v502 (ix2 r l)) (v1099 (ix2 (0 : Fin 1) (0 : Fin 1)))))) * (max (Ideal.ofBits .f32 0x00000000#32) ((min (v505 (ix2 r l)) (v1105 (ix2 (0 : Fin 1) (0 : Fin 1)))) - (max (v503 (ix2 r l)) (v1101 (ix2 (0 : Fin 1) (0 : Fin 1))))))) (((v508 (ix2 r l)) + (((v1103 (ix2 (0 : Fin 1) (0 : Fin 1))) - (v1099 (ix2 (0 : Fin 1) (0 : Fin 1)))) * ((v1105 (ix2 (0 : Fin 1) (0 : Fin 1))) - (v1101 (ix2 (0 : Fin 1) (0 : Fin 1)))))) - ((max (Ideal.ofBits .f32 0x00000000#32) ((min (v504 (ix2 r l)) (v1103 (ix2 (0 : Fin 1) (0 : Fin 1)))) - (max (v502 (ix2 r l)) (v1099 (ix2 (0 : Fin 1) (0 : Fin 1)))))) * (max (Ideal.ofBits .f32 0x00000000#32) ((min (v505 (ix2 r l)) (v1105 (ix2 (0 : Fin 1) (0 : Fin 1)))) - (max (v503 (ix2 r l)) (v1101 (ix2 (0 : Fin 1) (0 : Fin 1)))))))))) := by
  first | (unfold k0_pay201; kpay_read) | rfl

theorem pay202_apply (v1130 : Vec Ideal S1x1 .f32) :
    k0_pay202 (F := Ideal) v1130 =
      (v1130 (ix2 (0 : Fin 1) (0 : Fin 1))) := by
  first | (unfold k0_pay202; kpay_read) | rfl

theorem pay203_apply (v1132 : Vec Ideal S1x1 .f32) :
    k0_pay203 (F := Ideal) v1132 =
      (v1132 (ix2 (0 : Fin 1) (0 : Fin 1))) := by
  first | (unfold k0_pay203; kpay_read) | rfl

theorem pay204_apply (v1134 : Vec Ideal S1x1 .f32) :
    k0_pay204 (F := Ideal) v1134 =
      (v1134 (ix2 (0 : Fin 1) (0 : Fin 1))) := by
  first | (unfold k0_pay204; kpay_read) | rfl

theorem pay205_apply (v502 : FVec Ideal S64x512 .f32) (v503 : FVec Ideal S64x512 .f32) (v504 : FVec Ideal S64x512 .f32) (v505 : FVec Ideal S64x512 .f32) (v508 : FVec Ideal S64x512 .f32) (v1129 : FVec Ideal S64x512 .f32) (v1131 : Ideal .f32) (v1133 : Ideal .f32) (v1135 : Ideal .f32) (v1136 : Vec Ideal S1x1 .f32) (r : Fin 64) (l : Fin 512) :
    k0_pay205 (F := Ideal) v502 v503 v504 v505 v508 v1129 v1131 v1133 v1135 v1136 (ix2 r l) =
      ((v1129 (ix2 r l)) + (Ideal.div ((max (Ideal.ofBits .f32 0x00000000#32) ((min (v504 (ix2 r l)) v1135) - (max (v502 (ix2 r l)) v1131))) * (max (Ideal.ofBits .f32 0x00000000#32) ((min (v505 (ix2 r l)) (v1136 (ix2 (0 : Fin 1) (0 : Fin 1)))) - (max (v503 (ix2 r l)) v1133)))) (((v508 (ix2 r l)) + ((v1135 - v1131) * ((v1136 (ix2 (0 : Fin 1) (0 : Fin 1))) - v1133))) - ((max (Ideal.ofBits .f32 0x00000000#32) ((min (v504 (ix2 r l)) v1135) - (max (v502 (ix2 r l)) v1131))) * (max (Ideal.ofBits .f32 0x00000000#32) ((min (v505 (ix2 r l)) (v1136 (ix2 (0 : Fin 1) (0 : Fin 1)))) - (max (v503 (ix2 r l)) v1133))))))) := by
  first | (unfold k0_pay205; kpay_read) | rfl

theorem pay206_apply (v1161 : Vec Ideal S1x1 .f32) :
    k0_pay206 (F := Ideal) v1161 =
      (v1161 (ix2 (0 : Fin 1) (0 : Fin 1))) := by
  first | (unfold k0_pay206; kpay_read) | rfl

theorem pay207_apply (v1163 : Vec Ideal S1x1 .f32) :
    k0_pay207 (F := Ideal) v1163 =
      (v1163 (ix2 (0 : Fin 1) (0 : Fin 1))) := by
  first | (unfold k0_pay207; kpay_read) | rfl

theorem pay208_apply (v1165 : Vec Ideal S1x1 .f32) :
    k0_pay208 (F := Ideal) v1165 =
      (v1165 (ix2 (0 : Fin 1) (0 : Fin 1))) := by
  first | (unfold k0_pay208; kpay_read) | rfl

theorem pay209_apply (v1167 : Vec Ideal S1x1 .f32) :
    k0_pay209 (F := Ideal) v1167 =
      (v1167 (ix2 (0 : Fin 1) (0 : Fin 1))) := by
  first | (unfold k0_pay209; kpay_read) | rfl

theorem pay210_apply (v502 : FVec Ideal S64x512 .f32) (v504 : FVec Ideal S64x512 .f32) (v1161 : Vec Ideal S1x1 .f32) (v1165 : Vec Ideal S1x1 .f32) (r : Fin 64) (l : Fin 512) :
    k0_pay210 (F := Ideal) v502 v504 v1161 v1165 (ix2 r l) =
      (max (Ideal.ofBits .f32 0x00000000#32) ((min (v504 (ix2 r l)) (k0_pay208 (F := Ideal) v1165)) - (max (v502 (ix2 r l)) (k0_pay206 (F := Ideal) v1161)))) := by
  first | (unfold k0_pay210; kpay_read) | rfl

theorem pay211_apply (v503 : FVec Ideal S64x512 .f32) (v505 : FVec Ideal S64x512 .f32) (v1163 : Vec Ideal S1x1 .f32) (v1167 : Vec Ideal S1x1 .f32) (r : Fin 64) (l : Fin 512) :
    k0_pay211 (F := Ideal) v503 v505 v1163 v1167 (ix2 r l) =
      ((min (v505 (ix2 r l)) (k0_pay209 (F := Ideal) v1167)) - (max (v503 (ix2 r l)) (k0_pay207 (F := Ideal) v1163))) := by
  first | (unfold k0_pay211; kpay_read) | rfl

theorem pay212_apply  (r : Fin 64) (l : Fin 512) :
    k0_pay212 (F := Ideal) (ix2 r l) =
      (Ideal.ofBits .f32 0x00000000#32) := by
  first | (unfold k0_pay212; kpay_read) | rfl

theorem pay213_apply (v502 : FVec Ideal S64x512 .f32) (v503 : FVec Ideal S64x512 .f32) (v504 : FVec Ideal S64x512 .f32) (v505 : FVec Ideal S64x512 .f32) (v508 : FVec Ideal S64x512 .f32) (v1160 : FVec Ideal S64x512 .f32) (v1162 : Ideal .f32) (v1164 : Ideal .f32) (v1166 : Ideal .f32) (v1168 : Ideal .f32) (v1179 : FVec Ideal S64x512 .f32) (v1180 : FVec Ideal S64x512 .f32) (v1181 : FVec Ideal S64x512 .f32) (v1192 : Vec Ideal S1x1 .f32) (v1194 : Vec Ideal S1x1 .f32) (v1196 : Vec Ideal S1x1 .f32) (v1198 : Vec Ideal S1x1 .f32) (r : Fin 64) (l : Fin 512) :
    k0_pay213 (F := Ideal) v502 v503 v504 v505 v508 v1160 v1162 v1164 v1166 v1168 v1179 v1180 v1181 v1192 v1194 v1196 v1198 (ix2 r l) =
      (((v1160 (ix2 r l)) + (Ideal.div ((v1179 (ix2 r l)) * (max (v1181 (ix2 r l)) (v1180 (ix2 r l)))) (((v508 (ix2 r l)) + ((v1166 - v1162) * (v1168 - v1164))) - ((v1179 (ix2 r l)) * (max (v1181 (ix2 r l)) (v1180 (ix2 r l))))))) + (Ideal.div ((max (Ideal.ofBits .f32 0x00000000#32) ((min (v504 (ix2 r l)) (v1196 (ix2 (0 : Fin 1) (0 : Fin 1)))) - (max (v502 (ix2 r l)) (v1192 (ix2 (0 : Fin 1) (0 : Fin 1)))))) * (max (Ideal.ofBits .f32 0x00000000#32) ((min (v505 (ix2 r l)) (v1198 (ix2 (0 : Fin 1) (0 : Fin 1)))) - (max (v503 (ix2 r l)) (v1194 (ix2 (0 : Fin 1) (0 : Fin 1))))))) (((v508 (ix2 r l)) + (((v1196 (ix2 (0 : Fin 1) (0 : Fin 1))) - (v1192 (ix2 (0 : Fin 1) (0 : Fin 1)))) * ((v1198 (ix2 (0 : Fin 1) (0 : Fin 1))) - (v1194 (ix2 (0 : Fin 1) (0 : Fin 1)))))) - ((max (Ideal.ofBits .f32 0x00000000#32) ((min (v504 (ix2 r l)) (v1196 (ix2 (0 : Fin 1) (0 : Fin 1)))) - (max (v502 (ix2 r l)) (v1192 (ix2 (0 : Fin 1) (0 : Fin 1)))))) * (max (Ideal.ofBits .f32 0x00000000#32) ((min (v505 (ix2 r l)) (v1198 (ix2 (0 : Fin 1) (0 : Fin 1)))) - (max (v503 (ix2 r l)) (v1194 (ix2 (0 : Fin 1) (0 : Fin 1)))))))))) := by
  first | (unfold k0_pay213; kpay_read) | rfl

theorem pay214_apply (v1223 : Vec Ideal S1x1 .f32) :
    k0_pay214 (F := Ideal) v1223 =
      (v1223 (ix2 (0 : Fin 1) (0 : Fin 1))) := by
  first | (unfold k0_pay214; kpay_read) | rfl

theorem pay215_apply (v1225 : Vec Ideal S1x1 .f32) :
    k0_pay215 (F := Ideal) v1225 =
      (v1225 (ix2 (0 : Fin 1) (0 : Fin 1))) := by
  first | (unfold k0_pay215; kpay_read) | rfl

theorem pay216_apply (v502 : FVec Ideal S64x512 .f32) (v503 : FVec Ideal S64x512 .f32) (v504 : FVec Ideal S64x512 .f32) (v505 : FVec Ideal S64x512 .f32) (v508 : FVec Ideal S64x512 .f32) (v1222 : FVec Ideal S64x512 .f32) (v1224 : Ideal .f32) (v1226 : Ideal .f32) (v1227 : Vec Ideal S1x1 .f32) (v1229 : Vec Ideal S1x1 .f32) (r : Fin 64) (l : Fin 512) :
    k0_pay216 (F := Ideal) v502 v503 v504 v505 v508 v1222 v1224 v1226 v1227 v1229 (ix2 r l) =
      ((v1222 (ix2 r l)) + (Ideal.div ((max (Ideal.ofBits .f32 0x00000000#32) ((min (v504 (ix2 r l)) (v1227 (ix2 (0 : Fin 1) (0 : Fin 1)))) - (max (v502 (ix2 r l)) v1224))) * (max (Ideal.ofBits .f32 0x00000000#32) ((min (v505 (ix2 r l)) (v1229 (ix2 (0 : Fin 1) (0 : Fin 1)))) - (max (v503 (ix2 r l)) v1226)))) (((v508 (ix2 r l)) + (((v1227 (ix2 (0 : Fin 1) (0 : Fin 1))) - v1224) * ((v1229 (ix2 (0 : Fin 1) (0 : Fin 1))) - v1226))) - ((max (Ideal.ofBits .f32 0x00000000#32) ((min (v504 (ix2 r l)) (v1227 (ix2 (0 : Fin 1) (0 : Fin 1)))) - (max (v502 (ix2 r l)) v1224))) * (max (Ideal.ofBits .f32 0x00000000#32) ((min (v505 (ix2 r l)) (v1229 (ix2 (0 : Fin 1) (0 : Fin 1)))) - (max (v503 (ix2 r l)) v1226))))))) := by
  first | (unfold k0_pay216; kpay_read) | rfl

theorem pay217_apply (v1254 : Vec Ideal S1x1 .f32) :
    k0_pay217 (F := Ideal) v1254 =
      (v1254 (ix2 (0 : Fin 1) (0 : Fin 1))) := by
  first | (unfold k0_pay217; kpay_read) | rfl

theorem pay218_apply (v1256 : Vec Ideal S1x1 .f32) :
    k0_pay218 (F := Ideal) v1256 =
      (v1256 (ix2 (0 : Fin 1) (0 : Fin 1))) := by
  first | (unfold k0_pay218; kpay_read) | rfl

theorem pay219_apply (v1258 : Vec Ideal S1x1 .f32) :
    k0_pay219 (F := Ideal) v1258 =
      (v1258 (ix2 (0 : Fin 1) (0 : Fin 1))) := by
  first | (unfold k0_pay219; kpay_read) | rfl

theorem pay220_apply (v1260 : Vec Ideal S1x1 .f32) :
    k0_pay220 (F := Ideal) v1260 =
      (v1260 (ix2 (0 : Fin 1) (0 : Fin 1))) := by
  first | (unfold k0_pay220; kpay_read) | rfl

theorem pay221_apply (v503 : FVec Ideal S64x512 .f32) (v1256 : Vec Ideal S1x1 .f32) (r : Fin 64) (l : Fin 512) :
    k0_pay221 (F := Ideal) v503 v1256 (ix2 r l) =
      (max (v503 (ix2 r l)) (k0_pay218 (F := Ideal) v1256)) := by
  first | (unfold k0_pay221; kpay_read) | rfl

theorem pay222_apply (v505 : FVec Ideal S64x512 .f32) (v1260 : Vec Ideal S1x1 .f32) (r : Fin 64) (l : Fin 512) :
    k0_pay222 (F := Ideal) v505 v1260 (ix2 r l) =
      (min (v505 (ix2 r l)) (k0_pay220 (F := Ideal) v1260)) := by
  first | (unfold k0_pay222; kpay_read) | rfl

theorem pay223_apply (v502 : FVec Ideal S64x512 .f32) (v504 : FVec Ideal S64x512 .f32) (v1254 : Vec Ideal S1x1 .f32) (v1258 : Vec Ideal S1x1 .f32) (r : Fin 64) (l : Fin 512) :
    k0_pay223 (F := Ideal) v502 v504 v1254 v1258 (ix2 r l) =
      (max (Ideal.ofBits .f32 0x00000000#32) ((min (v504 (ix2 r l)) (k0_pay219 (F := Ideal) v1258)) - (max (v502 (ix2 r l)) (k0_pay217 (F := Ideal) v1254)))) := by
  first | (unfold k0_pay223; kpay_read) | rfl

theorem pay224_apply (v502 : FVec Ideal S64x512 .f32) (v503 : FVec Ideal S64x512 .f32) (v504 : FVec Ideal S64x512 .f32) (v505 : FVec Ideal S64x512 .f32) (v508 : FVec Ideal S64x512 .f32) (v1253 : FVec Ideal S64x512 .f32) (v1255 : Ideal .f32) (v1257 : Ideal .f32) (v1259 : Ideal .f32) (v1261 : Ideal .f32) (v1265 : FVec Ideal S64x512 .f32) (v1269 : FVec Ideal S64x512 .f32) (v1272 : FVec Ideal S64x512 .f32) (v1285 : Vec Ideal S1x1 .f32) (v1287 : Vec Ideal S1x1 .f32) (v1289 : Vec Ideal S1x1 .f32) (v1291 : Vec Ideal S1x1 .f32) (r : Fin 64) (l : Fin 512) :
    k0_pay224 (F := Ideal) v502 v503 v504 v505 v508 v1253 v1255 v1257 v1259 v1261 v1265 v1269 v1272 v1285 v1287 v1289 v1291 (ix2 r l) =
      (((v1253 (ix2 r l)) + (Ideal.div ((v1272 (ix2 r l)) * (max (Ideal.ofBits .f32 0x00000000#32) ((v1269 (ix2 r l)) - (v1265 (ix2 r l))))) (((v508 (ix2 r l)) + ((v1259 - v1255) * (v1261 - v1257))) - ((v1272 (ix2 r l)) * (max (Ideal.ofBits .f32 0x00000000#32) ((v1269 (ix2 r l)) - (v1265 (ix2 r l)))))))) + (Ideal.div ((max (Ideal.ofBits .f32 0x00000000#32) ((min (v504 (ix2 r l)) (v1289 (ix2 (0 : Fin 1) (0 : Fin 1)))) - (max (v502 (ix2 r l)) (v1285 (ix2 (0 : Fin 1) (0 : Fin 1)))))) * (max (Ideal.ofBits .f32 0x00000000#32) ((min (v505 (ix2 r l)) (v1291 (ix2 (0 : Fin 1) (0 : Fin 1)))) - (max (v503 (ix2 r l)) (v1287 (ix2 (0 : Fin 1) (0 : Fin 1))))))) (((v508 (ix2 r l)) + (((v1289 (ix2 (0 : Fin 1) (0 : Fin 1))) - (v1285 (ix2 (0 : Fin 1) (0 : Fin 1)))) * ((v1291 (ix2 (0 : Fin 1) (0 : Fin 1))) - (v1287 (ix2 (0 : Fin 1) (0 : Fin 1)))))) - ((max (Ideal.ofBits .f32 0x00000000#32) ((min (v504 (ix2 r l)) (v1289 (ix2 (0 : Fin 1) (0 : Fin 1)))) - (max (v502 (ix2 r l)) (v1285 (ix2 (0 : Fin 1) (0 : Fin 1)))))) * (max (Ideal.ofBits .f32 0x00000000#32) ((min (v505 (ix2 r l)) (v1291 (ix2 (0 : Fin 1) (0 : Fin 1)))) - (max (v503 (ix2 r l)) (v1287 (ix2 (0 : Fin 1) (0 : Fin 1)))))))))) := by
  first | (unfold k0_pay224; kpay_read) | rfl

theorem pay225_apply (v1316 : Vec Ideal S1x1 .f32) :
    k0_pay225 (F := Ideal) v1316 =
      (v1316 (ix2 (0 : Fin 1) (0 : Fin 1))) := by
  first | (unfold k0_pay225; kpay_read) | rfl

theorem pay226_apply (v502 : FVec Ideal S64x512 .f32) (v503 : FVec Ideal S64x512 .f32) (v504 : FVec Ideal S64x512 .f32) (v505 : FVec Ideal S64x512 .f32) (v508 : FVec Ideal S64x512 .f32) (v1315 : FVec Ideal S64x512 .f32) (v1317 : Ideal .f32) (v1318 : Vec Ideal S1x1 .f32) (v1320 : Vec Ideal S1x1 .f32) (v1322 : Vec Ideal S1x1 .f32) (r : Fin 64) (l : Fin 512) :
    k0_pay226 (F := Ideal) v502 v503 v504 v505 v508 v1315 v1317 v1318 v1320 v1322 (ix2 r l) =
      ((v1315 (ix2 r l)) + (Ideal.div ((max (Ideal.ofBits .f32 0x00000000#32) ((min (v504 (ix2 r l)) (v1320 (ix2 (0 : Fin 1) (0 : Fin 1)))) - (max (v502 (ix2 r l)) v1317))) * (max (Ideal.ofBits .f32 0x00000000#32) ((min (v505 (ix2 r l)) (v1322 (ix2 (0 : Fin 1) (0 : Fin 1)))) - (max (v503 (ix2 r l)) (v1318 (ix2 (0 : Fin 1) (0 : Fin 1))))))) (((v508 (ix2 r l)) + (((v1320 (ix2 (0 : Fin 1) (0 : Fin 1))) - v1317) * ((v1322 (ix2 (0 : Fin 1) (0 : Fin 1))) - (v1318 (ix2 (0 : Fin 1) (0 : Fin 1)))))) - ((max (Ideal.ofBits .f32 0x00000000#32) ((min (v504 (ix2 r l)) (v1320 (ix2 (0 : Fin 1) (0 : Fin 1)))) - (max (v502 (ix2 r l)) v1317))) * (max (Ideal.ofBits .f32 0x00000000#32) ((min (v505 (ix2 r l)) (v1322 (ix2 (0 : Fin 1) (0 : Fin 1)))) - (max (v503 (ix2 r l)) (v1318 (ix2 (0 : Fin 1) (0 : Fin 1)))))))))) := by
  first | (unfold k0_pay226; kpay_read) | rfl

theorem pay227_apply (v1347 : Vec Ideal S1x1 .f32) :
    k0_pay227 (F := Ideal) v1347 =
      (v1347 (ix2 (0 : Fin 1) (0 : Fin 1))) := by
  first | (unfold k0_pay227; kpay_read) | rfl

theorem pay228_apply (v1349 : Vec Ideal S1x1 .f32) :
    k0_pay228 (F := Ideal) v1349 =
      (v1349 (ix2 (0 : Fin 1) (0 : Fin 1))) := by
  first | (unfold k0_pay228; kpay_read) | rfl

theorem pay229_apply (v1351 : Vec Ideal S1x1 .f32) :
    k0_pay229 (F := Ideal) v1351 =
      (v1351 (ix2 (0 : Fin 1) (0 : Fin 1))) := by
  first | (unfold k0_pay229; kpay_read) | rfl

theorem pay230_apply (v1353 : Vec Ideal S1x1 .f32) :
    k0_pay230 (F := Ideal) v1353 =
      (v1353 (ix2 (0 : Fin 1) (0 : Fin 1))) := by
  first | (unfold k0_pay230; kpay_read) | rfl

theorem pay231_apply (v503 : FVec Ideal S64x512 .f32) (v1349 : Vec Ideal S1x1 .f32) (r : Fin 64) (l : Fin 512) :
    k0_pay231 (F := Ideal) v503 v1349 (ix2 r l) =
      (max (v503 (ix2 r l)) (k0_pay228 (F := Ideal) v1349)) := by
  first | (unfold k0_pay231; kpay_read) | rfl

theorem pay232_apply (v505 : FVec Ideal S64x512 .f32) (v1353 : Vec Ideal S1x1 .f32) (r : Fin 64) (l : Fin 512) :
    k0_pay232 (F := Ideal) v505 v1353 (ix2 r l) =
      (min (v505 (ix2 r l)) (k0_pay230 (F := Ideal) v1353)) := by
  first | (unfold k0_pay232; kpay_read) | rfl

theorem pay233_apply (v502 : FVec Ideal S64x512 .f32) (v504 : FVec Ideal S64x512 .f32) (v1347 : Vec Ideal S1x1 .f32) (v1351 : Vec Ideal S1x1 .f32) (r : Fin 64) (l : Fin 512) :
    k0_pay233 (F := Ideal) v502 v504 v1347 v1351 (ix2 r l) =
      ((min (v504 (ix2 r l)) (k0_pay229 (F := Ideal) v1351)) - (max (v502 (ix2 r l)) (k0_pay227 (F := Ideal) v1347))) := by
  first | (unfold k0_pay233; kpay_read) | rfl

theorem pay234_apply (v502 : FVec Ideal S64x512 .f32) (v503 : FVec Ideal S64x512 .f32) (v504 : FVec Ideal S64x512 .f32) (v505 : FVec Ideal S64x512 .f32) (v508 : FVec Ideal S64x512 .f32) (v1346 : FVec Ideal S64x512 .f32) (v1348 : Ideal .f32) (v1350 : Ideal .f32) (v1352 : Ideal .f32) (v1354 : Ideal .f32) (v1358 : FVec Ideal S64x512 .f32) (v1362 : FVec Ideal S64x512 .f32) (v1363 : FVec Ideal S64x512 .f32) (v1378 : Vec Ideal S1x1 .f32) (v1380 : Vec Ideal S1x1 .f32) (v1382 : Vec Ideal S1x1 .f32) (v1384 : Vec Ideal S1x1 .f32) (r : Fin 64) (l : Fin 512) :
    k0_pay234 (F := Ideal) v502 v503 v504 v505 v508 v1346 v1348 v1350 v1352 v1354 v1358 v1362 v1363 v1378 v1380 v1382 v1384 (ix2 r l) =
      (((v1346 (ix2 r l)) + (Ideal.div ((max (Ideal.ofBits .f32 0x00000000#32) (v1363 (ix2 r l))) * (max (Ideal.ofBits .f32 0x00000000#32) ((v1362 (ix2 r l)) - (v1358 (ix2 r l))))) (((v508 (ix2 r l)) + ((v1352 - v1348) * (v1354 - v1350))) - ((max (Ideal.ofBits .f32 0x00000000#32) (v1363 (ix2 r l))) * (max (Ideal.ofBits .f32 0x00000000#32) ((v1362 (ix2 r l)) - (v1358 (ix2 r l)))))))) + (Ideal.div ((max (Ideal.ofBits .f32 0x00000000#32) ((min (v504 (ix2 r l)) (v1382 (ix2 (0 : Fin 1) (0 : Fin 1)))) - (max (v502 (ix2 r l)) (v1378 (ix2 (0 : Fin 1) (0 : Fin 1)))))) * (max (Ideal.ofBits .f32 0x00000000#32) ((min (v505 (ix2 r l)) (v1384 (ix2 (0 : Fin 1) (0 : Fin 1)))) - (max (v503 (ix2 r l)) (v1380 (ix2 (0 : Fin 1) (0 : Fin 1))))))) (((v508 (ix2 r l)) + (((v1382 (ix2 (0 : Fin 1) (0 : Fin 1))) - (v1378 (ix2 (0 : Fin 1) (0 : Fin 1)))) * ((v1384 (ix2 (0 : Fin 1) (0 : Fin 1))) - (v1380 (ix2 (0 : Fin 1) (0 : Fin 1)))))) - ((max (Ideal.ofBits .f32 0x00000000#32) ((min (v504 (ix2 r l)) (v1382 (ix2 (0 : Fin 1) (0 : Fin 1)))) - (max (v502 (ix2 r l)) (v1378 (ix2 (0 : Fin 1) (0 : Fin 1)))))) * (max (Ideal.ofBits .f32 0x00000000#32) ((min (v505 (ix2 r l)) (v1384 (ix2 (0 : Fin 1) (0 : Fin 1)))) - (max (v503 (ix2 r l)) (v1380 (ix2 (0 : Fin 1) (0 : Fin 1)))))))))) := by
  first | (unfold k0_pay234; kpay_read) | rfl

theorem pay235_apply (v502 : FVec Ideal S64x512 .f32) (v503 : FVec Ideal S64x512 .f32) (v504 : FVec Ideal S64x512 .f32) (v505 : FVec Ideal S64x512 .f32) (v508 : FVec Ideal S64x512 .f32) (v1408 : FVec Ideal S64x512 .f32) (v1409 : Vec Ideal S1x1 .f32) (v1411 : Vec Ideal S1x1 .f32) (v1413 : Vec Ideal S1x1 .f32) (v1415 : Vec Ideal S1x1 .f32) (r : Fin 64) (l : Fin 512) :
    k0_pay235 (F := Ideal) v502 v503 v504 v505 v508 v1408 v1409 v1411 v1413 v1415 (ix2 r l) =
      ((v1408 (ix2 r l)) + (Ideal.div ((max (Ideal.ofBits .f32 0x00000000#32) ((min (v504 (ix2 r l)) (v1413 (ix2 (0 : Fin 1) (0 : Fin 1)))) - (max (v502 (ix2 r l)) (v1409 (ix2 (0 : Fin 1) (0 : Fin 1)))))) * (max (Ideal.ofBits .f32 0x00000000#32) ((min (v505 (ix2 r l)) (v1415 (ix2 (0 : Fin 1) (0 : Fin 1)))) - (max (v503 (ix2 r l)) (v1411 (ix2 (0 : Fin 1) (0 : Fin 1))))))) (((v508 (ix2 r l)) + (((v1413 (ix2 (0 : Fin 1) (0 : Fin 1))) - (v1409 (ix2 (0 : Fin 1) (0 : Fin 1)))) * ((v1415 (ix2 (0 : Fin 1) (0 : Fin 1))) - (v1411 (ix2 (0 : Fin 1) (0 : Fin 1)))))) - ((max (Ideal.ofBits .f32 0x00000000#32) ((min (v504 (ix2 r l)) (v1413 (ix2 (0 : Fin 1) (0 : Fin 1)))) - (max (v502 (ix2 r l)) (v1409 (ix2 (0 : Fin 1) (0 : Fin 1)))))) * (max (Ideal.ofBits .f32 0x00000000#32) ((min (v505 (ix2 r l)) (v1415 (ix2 (0 : Fin 1) (0 : Fin 1)))) - (max (v503 (ix2 r l)) (v1411 (ix2 (0 : Fin 1) (0 : Fin 1)))))))))) := by
  first | (unfold k0_pay235; kpay_read) | rfl

theorem pay236_apply (v1440 : Vec Ideal S1x1 .f32) :
    k0_pay236 (F := Ideal) v1440 =
      (v1440 (ix2 (0 : Fin 1) (0 : Fin 1))) := by
  first | (unfold k0_pay236; kpay_read) | rfl

theorem pay237_apply (v1442 : Vec Ideal S1x1 .f32) :
    k0_pay237 (F := Ideal) v1442 =
      (v1442 (ix2 (0 : Fin 1) (0 : Fin 1))) := by
  first | (unfold k0_pay237; kpay_read) | rfl

theorem pay238_apply (v1444 : Vec Ideal S1x1 .f32) :
    k0_pay238 (F := Ideal) v1444 =
      (v1444 (ix2 (0 : Fin 1) (0 : Fin 1))) := by
  first | (unfold k0_pay238; kpay_read) | rfl

theorem pay239_apply (v1446 : Vec Ideal S1x1 .f32) :
    k0_pay239 (F := Ideal) v1446 =
      (v1446 (ix2 (0 : Fin 1) (0 : Fin 1))) := by
  first | (unfold k0_pay239; kpay_read) | rfl

theorem pay240_apply (v502 : FVec Ideal S64x512 .f32) (v1440 : Vec Ideal S1x1 .f32) (r : Fin 64) (l : Fin 512) :
    k0_pay240 (F := Ideal) v502 v1440 (ix2 r l) =
      (max (v502 (ix2 r l)) (k0_pay236 (F := Ideal) v1440)) := by
  first | (unfold k0_pay240; kpay_read) | rfl

theorem pay241_apply (v503 : FVec Ideal S64x512 .f32) (v1442 : Vec Ideal S1x1 .f32) (r : Fin 64) (l : Fin 512) :
    k0_pay241 (F := Ideal) v503 v1442 (ix2 r l) =
      (max (v503 (ix2 r l)) (k0_pay237 (F := Ideal) v1442)) := by
  first | (unfold k0_pay241; kpay_read) | rfl

theorem pay242_apply (v504 : FVec Ideal S64x512 .f32) (v1444 : Vec Ideal S1x1 .f32) (r : Fin 64) (l : Fin 512) :
    k0_pay242 (F := Ideal) v504 v1444 (ix2 r l) =
      (min (v504 (ix2 r l)) (k0_pay238 (F := Ideal) v1444)) := by
  first | (unfold k0_pay242; kpay_read) | rfl

theorem pay243_apply (v502 : FVec Ideal S64x512 .f32) (v503 : FVec Ideal S64x512 .f32) (v504 : FVec Ideal S64x512 .f32) (v505 : FVec Ideal S64x512 .f32) (v508 : FVec Ideal S64x512 .f32) (v1439 : FVec Ideal S64x512 .f32) (v1441 : Ideal .f32) (v1443 : Ideal .f32) (v1445 : Ideal .f32) (v1447 : Ideal .f32) (v1449 : FVec Ideal S64x512 .f32) (v1451 : FVec Ideal S64x512 .f32) (v1453 : FVec Ideal S64x512 .f32) (v1471 : Vec Ideal S1x1 .f32) (v1473 : Vec Ideal S1x1 .f32) (v1475 : Vec Ideal S1x1 .f32) (v1477 : Vec Ideal S1x1 .f32) (r : Fin 64) (l : Fin 512) :
    k0_pay243 (F := Ideal) v502 v503 v504 v505 v508 v1439 v1441 v1443 v1445 v1447 v1449 v1451 v1453 v1471 v1473 v1475 v1477 (ix2 r l) =
      (((v1439 (ix2 r l)) + (Ideal.div ((max (Ideal.ofBits .f32 0x00000000#32) ((v1453 (ix2 r l)) - (v1449 (ix2 r l)))) * (max (Ideal.ofBits .f32 0x00000000#32) ((min (v505 (ix2 r l)) v1447) - (v1451 (ix2 r l))))) (((v508 (ix2 r l)) + ((v1445 - v1441) * (v1447 - v1443))) - ((max (Ideal.ofBits .f32 0x00000000#32) ((v1453 (ix2 r l)) - (v1449 (ix2 r l)))) * (max (Ideal.ofBits .f32 0x00000000#32) ((min (v505 (ix2 r l)) v1447) - (v1451 (ix2 r l)))))))) + (Ideal.div ((max (Ideal.ofBits .f32 0x00000000#32) ((min (v504 (ix2 r l)) (v1475 (ix2 (0 : Fin 1) (0 : Fin 1)))) - (max (v502 (ix2 r l)) (v1471 (ix2 (0 : Fin 1) (0 : Fin 1)))))) * (max (Ideal.ofBits .f32 0x00000000#32) ((min (v505 (ix2 r l)) (v1477 (ix2 (0 : Fin 1) (0 : Fin 1)))) - (max (v503 (ix2 r l)) (v1473 (ix2 (0 : Fin 1) (0 : Fin 1))))))) (((v508 (ix2 r l)) + (((v1475 (ix2 (0 : Fin 1) (0 : Fin 1))) - (v1471 (ix2 (0 : Fin 1) (0 : Fin 1)))) * ((v1477 (ix2 (0 : Fin 1) (0 : Fin 1))) - (v1473 (ix2 (0 : Fin 1) (0 : Fin 1)))))) - ((max (Ideal.ofBits .f32 0x00000000#32) ((min (v504 (ix2 r l)) (v1475 (ix2 (0 : Fin 1) (0 : Fin 1)))) - (max (v502 (ix2 r l)) (v1471 (ix2 (0 : Fin 1) (0 : Fin 1)))))) * (max (Ideal.ofBits .f32 0x00000000#32) ((min (v505 (ix2 r l)) (v1477 (ix2 (0 : Fin 1) (0 : Fin 1)))) - (max (v503 (ix2 r l)) (v1473 (ix2 (0 : Fin 1) (0 : Fin 1)))))))))) := by
  first | (unfold k0_pay243; kpay_read) | rfl

theorem pay244_apply (v502 : FVec Ideal S64x512 .f32) (v503 : FVec Ideal S64x512 .f32) (v504 : FVec Ideal S64x512 .f32) (v505 : FVec Ideal S64x512 .f32) (v508 : FVec Ideal S64x512 .f32) (v1501 : FVec Ideal S64x512 .f32) (v1502 : Vec Ideal S1x1 .f32) (v1504 : Vec Ideal S1x1 .f32) (v1506 : Vec Ideal S1x1 .f32) (v1508 : Vec Ideal S1x1 .f32) (r : Fin 64) (l : Fin 512) :
    k0_pay244 (F := Ideal) v502 v503 v504 v505 v508 v1501 v1502 v1504 v1506 v1508 (ix2 r l) =
      ((v1501 (ix2 r l)) + (Ideal.div ((max (Ideal.ofBits .f32 0x00000000#32) ((min (v504 (ix2 r l)) (v1506 (ix2 (0 : Fin 1) (0 : Fin 1)))) - (max (v502 (ix2 r l)) (v1502 (ix2 (0 : Fin 1) (0 : Fin 1)))))) * (max (Ideal.ofBits .f32 0x00000000#32) ((min (v505 (ix2 r l)) (v1508 (ix2 (0 : Fin 1) (0 : Fin 1)))) - (max (v503 (ix2 r l)) (v1504 (ix2 (0 : Fin 1) (0 : Fin 1))))))) (((v508 (ix2 r l)) + (((v1506 (ix2 (0 : Fin 1) (0 : Fin 1))) - (v1502 (ix2 (0 : Fin 1) (0 : Fin 1)))) * ((v1508 (ix2 (0 : Fin 1) (0 : Fin 1))) - (v1504 (ix2 (0 : Fin 1) (0 : Fin 1)))))) - ((max (Ideal.ofBits .f32 0x00000000#32) ((min (v504 (ix2 r l)) (v1506 (ix2 (0 : Fin 1) (0 : Fin 1)))) - (max (v502 (ix2 r l)) (v1502 (ix2 (0 : Fin 1) (0 : Fin 1)))))) * (max (Ideal.ofBits .f32 0x00000000#32) ((min (v505 (ix2 r l)) (v1508 (ix2 (0 : Fin 1) (0 : Fin 1)))) - (max (v503 (ix2 r l)) (v1504 (ix2 (0 : Fin 1) (0 : Fin 1)))))))))) := by
  first | (unfold k0_pay244; kpay_read) | rfl

theorem pay245_apply (v1533 : Vec Ideal S1x1 .f32) :
    k0_pay245 (F := Ideal) v1533 =
      (v1533 (ix2 (0 : Fin 1) (0 : Fin 1))) := by
  first | (unfold k0_pay245; kpay_read) | rfl

theorem pay246_apply (v1535 : Vec Ideal S1x1 .f32) :
    k0_pay246 (F := Ideal) v1535 =
      (v1535 (ix2 (0 : Fin 1) (0 : Fin 1))) := by
  first | (unfold k0_pay246; kpay_read) | rfl

theorem pay247_apply (v1537 : Vec Ideal S1x1 .f32) :
    k0_pay247 (F := Ideal) v1537 =
      (v1537 (ix2 (0 : Fin 1) (0 : Fin 1))) := by
  first | (unfold k0_pay247; kpay_read) | rfl

theorem pay248_apply (v1539 : Vec Ideal S1x1 .f32) :
    k0_pay248 (F := Ideal) v1539 =
      (v1539 (ix2 (0 : Fin 1) (0 : Fin 1))) := by
  first | (unfold k0_pay248; kpay_read) | rfl

theorem pay249_apply (v502 : FVec Ideal S64x512 .f32) (v1533 : Vec Ideal S1x1 .f32) (r : Fin 64) (l : Fin 512) :
    k0_pay249 (F := Ideal) v502 v1533 (ix2 r l) =
      (max (v502 (ix2 r l)) (k0_pay245 (F := Ideal) v1533)) := by
  first | (unfold k0_pay249; kpay_read) | rfl

theorem pay250_apply (v1535 : Vec Ideal S1x1 .f32) (r : Fin 64) (l : Fin 512) :
    k0_pay250 (F := Ideal) v1535 (ix2 r l) =
      (k0_pay246 (F := Ideal) v1535) := by
  first | (unfold k0_pay250; kpay_read) | rfl

theorem pay251_apply (v503 : FVec Ideal S64x512 .f32) (v504 : FVec Ideal S64x512 .f32) (v505 : FVec Ideal S64x512 .f32) (v508 : FVec Ideal S64x512 .f32) (v1532 : FVec Ideal S64x512 .f32) (v1534 : Ideal .f32) (v1536 : Ideal .f32) (v1538 : Ideal .f32) (v1540 : Ideal .f32) (v1542 : FVec Ideal S64x512 .f32) (v1543 : FVec Ideal S64x512 .f32) (r : Fin 64) (l : Fin 512) :
    k0_pay251 (F := Ideal) v503 v504 v505 v508 v1532 v1534 v1536 v1538 v1540 v1542 v1543 (ix2 r l) =
      ((v1532 (ix2 r l)) + (Ideal.div ((max (Ideal.ofBits .f32 0x00000000#32) ((min (v504 (ix2 r l)) v1538) - (v1542 (ix2 r l)))) * (max (Ideal.ofBits .f32 0x00000000#32) ((min (v505 (ix2 r l)) v1540) - (max (v503 (ix2 r l)) (v1543 (ix2 r l)))))) (((v508 (ix2 r l)) + ((v1538 - v1534) * (v1540 - v1536))) - ((max (Ideal.ofBits .f32 0x00000000#32) ((min (v504 (ix2 r l)) v1538) - (v1542 (ix2 r l)))) * (max (Ideal.ofBits .f32 0x00000000#32) ((min (v505 (ix2 r l)) v1540) - (max (v503 (ix2 r l)) (v1543 (ix2 r l))))))))) := by
  first | (unfold k0_pay251; kpay_read) | rfl

theorem pay252_apply (v1564 : Vec Ideal S1x1 .f32) :
    k0_pay252 (F := Ideal) v1564 =
      (v1564 (ix2 (0 : Fin 1) (0 : Fin 1))) := by
  first | (unfold k0_pay252; kpay_read) | rfl

theorem pay253_apply (v1566 : Vec Ideal S1x1 .f32) :
    k0_pay253 (F := Ideal) v1566 =
      (v1566 (ix2 (0 : Fin 1) (0 : Fin 1))) := by
  first | (unfold k0_pay253; kpay_read) | rfl

theorem pay254_apply (v1568 : Vec Ideal S1x1 .f32) :
    k0_pay254 (F := Ideal) v1568 =
      (v1568 (ix2 (0 : Fin 1) (0 : Fin 1))) := by
  first | (unfold k0_pay254; kpay_read) | rfl

theorem pay255_apply (v1570 : Vec Ideal S1x1 .f32) :
    k0_pay255 (F := Ideal) v1570 =
      (v1570 (ix2 (0 : Fin 1) (0 : Fin 1))) := by
  first | (unfold k0_pay255; kpay_read) | rfl

theorem pay256_apply (v502 : FVec Ideal S64x512 .f32) (v503 : FVec Ideal S64x512 .f32) (v504 : FVec Ideal S64x512 .f32) (v505 : FVec Ideal S64x512 .f32) (v1564 : Vec Ideal S1x1 .f32) (v1566 : Vec Ideal S1x1 .f32) (v1568 : Vec Ideal S1x1 .f32) (v1570 : Vec Ideal S1x1 .f32) (r : Fin 64) (l : Fin 512) :
    k0_pay256 (F := Ideal) v502 v503 v504 v505 v1564 v1566 v1568 v1570 (ix2 r l) =
      ((max (Ideal.ofBits .f32 0x00000000#32) ((min (v504 (ix2 r l)) (k0_pay254 (F := Ideal) v1568)) - (max (v502 (ix2 r l)) (k0_pay252 (F := Ideal) v1564)))) * (max (Ideal.ofBits .f32 0x00000000#32) ((min (v505 (ix2 r l)) (k0_pay255 (F := Ideal) v1570)) - (max (v503 (ix2 r l)) (k0_pay253 (F := Ideal) v1566))))) := by
  first | (unfold k0_pay256; kpay_read) | rfl

theorem pay257_apply (v508 : FVec Ideal S64x512 .f32) (v1564 : Vec Ideal S1x1 .f32) (v1566 : Vec Ideal S1x1 .f32) (v1568 : Vec Ideal S1x1 .f32) (v1570 : Vec Ideal S1x1 .f32) (r : Fin 64) (l : Fin 512) :
    k0_pay257 (F := Ideal) v508 v1564 v1566 v1568 v1570 (ix2 r l) =
      ((v508 (ix2 r l)) + (((k0_pay254 (F := Ideal) v1568) - (k0_pay252 (F := Ideal) v1564)) * ((k0_pay255 (F := Ideal) v1570) - (k0_pay253 (F := Ideal) v1566)))) := by
  first | (unfold k0_pay257; kpay_read) | rfl

theorem pay258_apply (v502 : FVec Ideal S64x512 .f32) (v503 : FVec Ideal S64x512 .f32) (v504 : FVec Ideal S64x512 .f32) (v505 : FVec Ideal S64x512 .f32) (v508 : FVec Ideal S64x512 .f32) (v1563 : FVec Ideal S64x512 .f32) (v1586 : FVec Ideal S64x512 .f32) (v1591 : FVec Ideal S64x512 .f32) (v1595 : Vec Ideal S1x1 .f32) (v1597 : Vec Ideal S1x1 .f32) (v1599 : Vec Ideal S1x1 .f32) (v1601 : Vec Ideal S1x1 .f32) (r : Fin 64) (l : Fin 512) :
    k0_pay258 (F := Ideal) v502 v503 v504 v505 v508 v1563 v1586 v1591 v1595 v1597 v1599 v1601 (ix2 r l) =
      (((v1563 (ix2 r l)) + (Ideal.div (v1586 (ix2 r l)) ((v1591 (ix2 r l)) - (v1586 (ix2 r l))))) + (Ideal.div ((max (Ideal.ofBits .f32 0x00000000#32) ((min (v504 (ix2 r l)) (v1599 (ix2 (0 : Fin 1) (0 : Fin 1)))) - (max (v502 (ix2 r l)) (v1595 (ix2 (0 : Fin 1) (0 : Fin 1)))))) * (max (Ideal.ofBits .f32 0x00000000#32) ((min (v505 (ix2 r l)) (v1601 (ix2 (0 : Fin 1) (0 : Fin 1)))) - (max (v503 (ix2 r l)) (v1597 (ix2 (0 : Fin 1) (0 : Fin 1))))))) (((v508 (ix2 r l)) + (((v1599 (ix2 (0 : Fin 1) (0 : Fin 1))) - (v1595 (ix2 (0 : Fin 1) (0 : Fin 1)))) * ((v1601 (ix2 (0 : Fin 1) (0 : Fin 1))) - (v1597 (ix2 (0 : Fin 1) (0 : Fin 1)))))) - ((max (Ideal.ofBits .f32 0x00000000#32) ((min (v504 (ix2 r l)) (v1599 (ix2 (0 : Fin 1) (0 : Fin 1)))) - (max (v502 (ix2 r l)) (v1595 (ix2 (0 : Fin 1) (0 : Fin 1)))))) * (max (Ideal.ofBits .f32 0x00000000#32) ((min (v505 (ix2 r l)) (v1601 (ix2 (0 : Fin 1) (0 : Fin 1)))) - (max (v503 (ix2 r l)) (v1597 (ix2 (0 : Fin 1) (0 : Fin 1)))))))))) := by
  first | (unfold k0_pay258; kpay_read) | rfl

theorem pay259_apply (v1626 : Vec Ideal S1x1 .f32) :
    k0_pay259 (F := Ideal) v1626 =
      (v1626 (ix2 (0 : Fin 1) (0 : Fin 1))) := by
  first | (unfold k0_pay259; kpay_read) | rfl

theorem pay260_apply (v1628 : Vec Ideal S1x1 .f32) :
    k0_pay260 (F := Ideal) v1628 =
      (v1628 (ix2 (0 : Fin 1) (0 : Fin 1))) := by
  first | (unfold k0_pay260; kpay_read) | rfl

theorem pay261_apply (v1630 : Vec Ideal S1x1 .f32) :
    k0_pay261 (F := Ideal) v1630 =
      (v1630 (ix2 (0 : Fin 1) (0 : Fin 1))) := by
  first | (unfold k0_pay261; kpay_read) | rfl

theorem pay262_apply (v1632 : Vec Ideal S1x1 .f32) :
    k0_pay262 (F := Ideal) v1632 =
      (v1632 (ix2 (0 : Fin 1) (0 : Fin 1))) := by
  first | (unfold k0_pay262; kpay_read) | rfl

theorem pay263_apply (v502 : FVec Ideal S64x512 .f32) (v503 : FVec Ideal S64x512 .f32) (v504 : FVec Ideal S64x512 .f32) (v505 : FVec Ideal S64x512 .f32) (v508 : FVec Ideal S64x512 .f32) (v1625 : FVec Ideal S64x512 .f32) (v1627 : Ideal .f32) (v1629 : Ideal .f32) (v1631 : Ideal .f32) (v1633 : Ideal .f32) (r : Fin 64) (l : Fin 512) :
    k0_pay263 (F := Ideal) v502 v503 v504 v505 v508 v1625 v1627 v1629 v1631 v1633 (ix2 r l) =
      ((v1625 (ix2 r l)) + (Ideal.div ((max (Ideal.ofBits .f32 0x00000000#32) ((min (v504 (ix2 r l)) v1631) - (max (v502 (ix2 r l)) v1627))) * (max (Ideal.ofBits .f32 0x00000000#32) ((min (v505 (ix2 r l)) v1633) - (max (v503 (ix2 r l)) v1629)))) (((v508 (ix2 r l)) + ((v1631 - v1627) * (v1633 - v1629))) - ((max (Ideal.ofBits .f32 0x00000000#32) ((min (v504 (ix2 r l)) v1631) - (max (v502 (ix2 r l)) v1627))) * (max (Ideal.ofBits .f32 0x00000000#32) ((min (v505 (ix2 r l)) v1633) - (max (v503 (ix2 r l)) v1629))))))) := by
  first | (unfold k0_pay263; kpay_read) | rfl

theorem pay264_apply (v1657 : Vec Ideal S1x1 .f32) :
    k0_pay264 (F := Ideal) v1657 =
      (v1657 (ix2 (0 : Fin 1) (0 : Fin 1))) := by
  first | (unfold k0_pay264; kpay_read) | rfl

theorem pay265_apply (v1659 : Vec Ideal S1x1 .f32) :
    k0_pay265 (F := Ideal) v1659 =
      (v1659 (ix2 (0 : Fin 1) (0 : Fin 1))) := by
  first | (unfold k0_pay265; kpay_read) | rfl

theorem pay266_apply (v1661 : Vec Ideal S1x1 .f32) :
    k0_pay266 (F := Ideal) v1661 =
      (v1661 (ix2 (0 : Fin 1) (0 : Fin 1))) := by
  first | (unfold k0_pay266; kpay_read) | rfl

theorem pay267_apply (v1663 : Vec Ideal S1x1 .f32) :
    k0_pay267 (F := Ideal) v1663 =
      (v1663 (ix2 (0 : Fin 1) (0 : Fin 1))) := by
  first | (unfold k0_pay267; kpay_read) | rfl

theorem pay268_apply (v502 : FVec Ideal S64x512 .f32) (v503 : FVec Ideal S64x512 .f32) (v504 : FVec Ideal S64x512 .f32) (v505 : FVec Ideal S64x512 .f32) (v1657 : Vec Ideal S1x1 .f32) (v1659 : Vec Ideal S1x1 .f32) (v1661 : Vec Ideal S1x1 .f32) (v1663 : Vec Ideal S1x1 .f32) (r : Fin 64) (l : Fin 512) :
    k0_pay268 (F := Ideal) v502 v503 v504 v505 v1657 v1659 v1661 v1663 (ix2 r l) =
      ((max (Ideal.ofBits .f32 0x00000000#32) ((min (v504 (ix2 r l)) (k0_pay266 (F := Ideal) v1661)) - (max (v502 (ix2 r l)) (k0_pay264 (F := Ideal) v1657)))) * (max (Ideal.ofBits .f32 0x00000000#32) ((min (v505 (ix2 r l)) (k0_pay267 (F := Ideal) v1663)) - (max (v503 (ix2 r l)) (k0_pay265 (F := Ideal) v1659))))) := by
  first | (unfold k0_pay268; kpay_read) | rfl

theorem pay269_apply (v1657 : Vec Ideal S1x1 .f32) (v1661 : Vec Ideal S1x1 .f32) :
    k0_pay269 (F := Ideal) v1657 v1661 =
      ((k0_pay266 (F := Ideal) v1661) - (k0_pay264 (F := Ideal) v1657)) := by
  first | (unfold k0_pay269; kpay_read) | rfl

theorem pay270_apply (v1659 : Vec Ideal S1x1 .f32) (v1663 : Vec Ideal S1x1 .f32) :
    k0_pay270 (F := Ideal) v1659 v1663 =
      ((k0_pay267 (F := Ideal) v1663) - (k0_pay265 (F := Ideal) v1659)) := by
  first | (unfold k0_pay270; kpay_read) | rfl

end Cert.KernelIdeal.KPay

end
-- ==== Proof.KPay.Table4.lean ====
/-
  The payloads k0_pay271 to k0_pay362 of the kernel's body, each read at one index: at row r and lane l of the 64 × 512 tile
  (a scalar payload as it is, a 1 × 1 payload at its one cell), the payload's own operations applied, in its own order,
  to its arguments at that index. A 1 × 1 × 64 × 512 slab is read at (0, 0, r, l), a 1 × 1 load at (0, 0), a payload
  called inside another stays a call at the same index.
-/
import proofs.«157336_j6562710028353_2_alg».proof.Proof.KPay.Ops

noncomputable section

open scoped BigOperators

namespace Cert.KernelIdeal.KPay

open Cert.KernelIdeal Cert.KernelIdeal.Gen
open Idealize.ShloMosaic Idealize.ShloMosaic.ValueIdx

theorem pay271_apply (v502 : FVec Ideal S64x512 .f32) (v503 : FVec Ideal S64x512 .f32) (v504 : FVec Ideal S64x512 .f32) (v505 : FVec Ideal S64x512 .f32) (v508 : FVec Ideal S64x512 .f32) (v1656 : FVec Ideal S64x512 .f32) (v1679 : FVec Ideal S64x512 .f32) (v1680 : Ideal .f32) (v1681 : Ideal .f32) (v1688 : Vec Ideal S1x1 .f32) (v1690 : Vec Ideal S1x1 .f32) (v1692 : Vec Ideal S1x1 .f32) (v1694 : Vec Ideal S1x1 .f32) (r : Fin 64) (l : Fin 512) :
    k0_pay271 (F := Ideal) v502 v503 v504 v505 v508 v1656 v1679 v1680 v1681 v1688 v1690 v1692 v1694 (ix2 r l) =
      (((v1656 (ix2 r l)) + (Ideal.div (v1679 (ix2 r l)) (((v508 (ix2 r l)) + (v1680 * v1681)) - (v1679 (ix2 r l))))) + (Ideal.div ((max (Ideal.ofBits .f32 0x00000000#32) ((min (v504 (ix2 r l)) (v1692 (ix2 (0 : Fin 1) (0 : Fin 1)))) - (max (v502 (ix2 r l)) (v1688 (ix2 (0 : Fin 1) (0 : Fin 1)))))) * (max (Ideal.ofBits .f32 0x00000000#32) ((min (v505 (ix2 r l)) (v1694 (ix2 (0 : Fin 1) (0 : Fin 1)))) - (max (v503 (ix2 r l)) (v1690 (ix2 (0 : Fin 1) (0 : Fin 1))))))) (((v508 (ix2 r l)) + (((v1692 (ix2 (0 : Fin 1) (0 : Fin 1))) - (v1688 (ix2 (0 : Fin 1) (0 : Fin 1)))) * ((v1694 (ix2 (0 : Fin 1) (0 : Fin 1))) - (v1690 (ix2 (0 : Fin 1) (0 : Fin 1)))))) - ((max (Ideal.ofBits .f32 0x00000000#32) ((min (v504 (ix2 r l)) (v1692 (ix2 (0 : Fin 1) (0 : Fin 1)))) - (max (v502 (ix2 r l)) (v1688 (ix2 (0 : Fin 1) (0 : Fin 1)))))) * (max (Ideal.ofBits .f32 0x00000000#32) ((min (v505 (ix2 r l)) (v1694 (ix2 (0 : Fin 1) (0 : Fin 1)))) - (max (v503 (ix2 r l)) (v1690 (ix2 (0 : Fin 1) (0 : Fin 1)))))))))) := by
  first | (unfold k0_pay271; kpay_read) | rfl

theorem pay272_apply (v1719 : Vec Ideal S1x1 .f32) :
    k0_pay272 (F := Ideal) v1719 =
      (v1719 (ix2 (0 : Fin 1) (0 : Fin 1))) := by
  first | (unfold k0_pay272; kpay_read) | rfl

theorem pay273_apply (v1721 : Vec Ideal S1x1 .f32) :
    k0_pay273 (F := Ideal) v1721 =
      (v1721 (ix2 (0 : Fin 1) (0 : Fin 1))) := by
  first | (unfold k0_pay273; kpay_read) | rfl

theorem pay274_apply (v1723 : Vec Ideal S1x1 .f32) :
    k0_pay274 (F := Ideal) v1723 =
      (v1723 (ix2 (0 : Fin 1) (0 : Fin 1))) := by
  first | (unfold k0_pay274; kpay_read) | rfl

theorem pay275_apply (v502 : FVec Ideal S64x512 .f32) (v503 : FVec Ideal S64x512 .f32) (v504 : FVec Ideal S64x512 .f32) (v505 : FVec Ideal S64x512 .f32) (v508 : FVec Ideal S64x512 .f32) (v1718 : FVec Ideal S64x512 .f32) (v1720 : Ideal .f32) (v1722 : Ideal .f32) (v1724 : Ideal .f32) (v1725 : Vec Ideal S1x1 .f32) (r : Fin 64) (l : Fin 512) :
    k0_pay275 (F := Ideal) v502 v503 v504 v505 v508 v1718 v1720 v1722 v1724 v1725 (ix2 r l) =
      ((v1718 (ix2 r l)) + (Ideal.div ((max (Ideal.ofBits .f32 0x00000000#32) ((min (v504 (ix2 r l)) v1724) - (max (v502 (ix2 r l)) v1720))) * (max (Ideal.ofBits .f32 0x00000000#32) ((min (v505 (ix2 r l)) (v1725 (ix2 (0 : Fin 1) (0 : Fin 1)))) - (max (v503 (ix2 r l)) v1722)))) (((v508 (ix2 r l)) + ((v1724 - v1720) * ((v1725 (ix2 (0 : Fin 1) (0 : Fin 1))) - v1722))) - ((max (Ideal.ofBits .f32 0x00000000#32) ((min (v504 (ix2 r l)) v1724) - (max (v502 (ix2 r l)) v1720))) * (max (Ideal.ofBits .f32 0x00000000#32) ((min (v505 (ix2 r l)) (v1725 (ix2 (0 : Fin 1) (0 : Fin 1)))) - (max (v503 (ix2 r l)) v1722))))))) := by
  first | (unfold k0_pay275; kpay_read) | rfl

theorem pay276_apply (v1750 : Vec Ideal S1x1 .f32) :
    k0_pay276 (F := Ideal) v1750 =
      (v1750 (ix2 (0 : Fin 1) (0 : Fin 1))) := by
  first | (unfold k0_pay276; kpay_read) | rfl

theorem pay277_apply (v1752 : Vec Ideal S1x1 .f32) :
    k0_pay277 (F := Ideal) v1752 =
      (v1752 (ix2 (0 : Fin 1) (0 : Fin 1))) := by
  first | (unfold k0_pay277; kpay_read) | rfl

theorem pay278_apply (v1754 : Vec Ideal S1x1 .f32) :
    k0_pay278 (F := Ideal) v1754 =
      (v1754 (ix2 (0 : Fin 1) (0 : Fin 1))) := by
  first | (unfold k0_pay278; kpay_read) | rfl

theorem pay279_apply (v1756 : Vec Ideal S1x1 .f32) :
    k0_pay279 (F := Ideal) v1756 =
      (v1756 (ix2 (0 : Fin 1) (0 : Fin 1))) := by
  first | (unfold k0_pay279; kpay_read) | rfl

theorem pay280_apply (v502 : FVec Ideal S64x512 .f32) (v504 : FVec Ideal S64x512 .f32) (v1750 : Vec Ideal S1x1 .f32) (v1754 : Vec Ideal S1x1 .f32) (r : Fin 64) (l : Fin 512) :
    k0_pay280 (F := Ideal) v502 v504 v1750 v1754 (ix2 r l) =
      (max (Ideal.ofBits .f32 0x00000000#32) ((min (v504 (ix2 r l)) (k0_pay278 (F := Ideal) v1754)) - (max (v502 (ix2 r l)) (k0_pay276 (F := Ideal) v1750)))) := by
  first | (unfold k0_pay280; kpay_read) | rfl

theorem pay281_apply (v503 : FVec Ideal S64x512 .f32) (v505 : FVec Ideal S64x512 .f32) (v1752 : Vec Ideal S1x1 .f32) (v1756 : Vec Ideal S1x1 .f32) (r : Fin 64) (l : Fin 512) :
    k0_pay281 (F := Ideal) v503 v505 v1752 v1756 (ix2 r l) =
      (max (Ideal.ofBits .f32 0x00000000#32) ((min (v505 (ix2 r l)) (k0_pay279 (F := Ideal) v1756)) - (max (v503 (ix2 r l)) (k0_pay277 (F := Ideal) v1752)))) := by
  first | (unfold k0_pay281; kpay_read) | rfl

theorem pay282_apply (v502 : FVec Ideal S64x512 .f32) (v503 : FVec Ideal S64x512 .f32) (v504 : FVec Ideal S64x512 .f32) (v505 : FVec Ideal S64x512 .f32) (v508 : FVec Ideal S64x512 .f32) (v1749 : FVec Ideal S64x512 .f32) (v1751 : Ideal .f32) (v1753 : Ideal .f32) (v1755 : Ideal .f32) (v1757 : Ideal .f32) (v1768 : FVec Ideal S64x512 .f32) (v1771 : FVec Ideal S64x512 .f32) (v1781 : Vec Ideal S1x1 .f32) (v1783 : Vec Ideal S1x1 .f32) (v1785 : Vec Ideal S1x1 .f32) (v1787 : Vec Ideal S1x1 .f32) (r : Fin 64) (l : Fin 512) :
    k0_pay282 (F := Ideal) v502 v503 v504 v505 v508 v1749 v1751 v1753 v1755 v1757 v1768 v1771 v1781 v1783 v1785 v1787 (ix2 r l) =
      (((v1749 (ix2 r l)) + (Ideal.div ((v1768 (ix2 r l)) * (v1771 (ix2 r l))) (((v508 (ix2 r l)) + ((v1755 - v1751) * (v1757 - v1753))) - ((v1768 (ix2 r l)) * (v1771 (ix2 r l)))))) + (Ideal.div ((max (Ideal.ofBits .f32 0x00000000#32) ((min (v504 (ix2 r l)) (v1785 (ix2 (0 : Fin 1) (0 : Fin 1)))) - (max (v502 (ix2 r l)) (v1781 (ix2 (0 : Fin 1) (0 : Fin 1)))))) * (max (Ideal.ofBits .f32 0x00000000#32) ((min (v505 (ix2 r l)) (v1787 (ix2 (0 : Fin 1) (0 : Fin 1)))) - (max (v503 (ix2 r l)) (v1783 (ix2 (0 : Fin 1) (0 : Fin 1))))))) (((v508 (ix2 r l)) + (((v1785 (ix2 (0 : Fin 1) (0 : Fin 1))) - (v1781 (ix2 (0 : Fin 1) (0 : Fin 1)))) * ((v1787 (ix2 (0 : Fin 1) (0 : Fin 1))) - (v1783 (ix2 (0 : Fin 1) (0 : Fin 1)))))) - ((max (Ideal.ofBits .f32 0x00000000#32) ((min (v504 (ix2 r l)) (v1785 (ix2 (0 : Fin 1) (0 : Fin 1)))) - (max (v502 (ix2 r l)) (v1781 (ix2 (0 : Fin 1) (0 : Fin 1)))))) * (max (Ideal.ofBits .f32 0x00000000#32) ((min (v505 (ix2 r l)) (v1787 (ix2 (0 : Fin 1) (0 : Fin 1)))) - (max (v503 (ix2 r l)) (v1783 (ix2 (0 : Fin 1) (0 : Fin 1)))))))))) := by
  first | (unfold k0_pay282; kpay_read) | rfl

theorem pay283_apply (v1812 : Vec Ideal S1x1 .f32) :
    k0_pay283 (F := Ideal) v1812 =
      (v1812 (ix2 (0 : Fin 1) (0 : Fin 1))) := by
  first | (unfold k0_pay283; kpay_read) | rfl

theorem pay284_apply (v1814 : Vec Ideal S1x1 .f32) :
    k0_pay284 (F := Ideal) v1814 =
      (v1814 (ix2 (0 : Fin 1) (0 : Fin 1))) := by
  first | (unfold k0_pay284; kpay_read) | rfl

theorem pay285_apply (v502 : FVec Ideal S64x512 .f32) (v503 : FVec Ideal S64x512 .f32) (v504 : FVec Ideal S64x512 .f32) (v505 : FVec Ideal S64x512 .f32) (v508 : FVec Ideal S64x512 .f32) (v1811 : FVec Ideal S64x512 .f32) (v1813 : Ideal .f32) (v1815 : Ideal .f32) (v1816 : Vec Ideal S1x1 .f32) (v1818 : Vec Ideal S1x1 .f32) (r : Fin 64) (l : Fin 512) :
    k0_pay285 (F := Ideal) v502 v503 v504 v505 v508 v1811 v1813 v1815 v1816 v1818 (ix2 r l) =
      ((v1811 (ix2 r l)) + (Ideal.div ((max (Ideal.ofBits .f32 0x00000000#32) ((min (v504 (ix2 r l)) (v1816 (ix2 (0 : Fin 1) (0 : Fin 1)))) - (max (v502 (ix2 r l)) v1813))) * (max (Ideal.ofBits .f32 0x00000000#32) ((min (v505 (ix2 r l)) (v1818 (ix2 (0 : Fin 1) (0 : Fin 1)))) - (max (v503 (ix2 r l)) v1815)))) (((v508 (ix2 r l)) + (((v1816 (ix2 (0 : Fin 1) (0 : Fin 1))) - v1813) * ((v1818 (ix2 (0 : Fin 1) (0 : Fin 1))) - v1815))) - ((max (Ideal.ofBits .f32 0x00000000#32) ((min (v504 (ix2 r l)) (v1816 (ix2 (0 : Fin 1) (0 : Fin 1)))) - (max (v502 (ix2 r l)) v1813))) * (max (Ideal.ofBits .f32 0x00000000#32) ((min (v505 (ix2 r l)) (v1818 (ix2 (0 : Fin 1) (0 : Fin 1)))) - (max (v503 (ix2 r l)) v1815))))))) := by
  first | (unfold k0_pay285; kpay_read) | rfl

theorem pay286_apply (v1843 : Vec Ideal S1x1 .f32) :
    k0_pay286 (F := Ideal) v1843 =
      (v1843 (ix2 (0 : Fin 1) (0 : Fin 1))) := by
  first | (unfold k0_pay286; kpay_read) | rfl

theorem pay287_apply (v1845 : Vec Ideal S1x1 .f32) :
    k0_pay287 (F := Ideal) v1845 =
      (v1845 (ix2 (0 : Fin 1) (0 : Fin 1))) := by
  first | (unfold k0_pay287; kpay_read) | rfl

theorem pay288_apply (v1847 : Vec Ideal S1x1 .f32) :
    k0_pay288 (F := Ideal) v1847 =
      (v1847 (ix2 (0 : Fin 1) (0 : Fin 1))) := by
  first | (unfold k0_pay288; kpay_read) | rfl

theorem pay289_apply (v1849 : Vec Ideal S1x1 .f32) :
    k0_pay289 (F := Ideal) v1849 =
      (v1849 (ix2 (0 : Fin 1) (0 : Fin 1))) := by
  first | (unfold k0_pay289; kpay_read) | rfl

theorem pay290_apply (v502 : FVec Ideal S64x512 .f32) (v504 : FVec Ideal S64x512 .f32) (v1843 : Vec Ideal S1x1 .f32) (v1847 : Vec Ideal S1x1 .f32) (r : Fin 64) (l : Fin 512) :
    k0_pay290 (F := Ideal) v502 v504 v1843 v1847 (ix2 r l) =
      (max (Ideal.ofBits .f32 0x00000000#32) ((min (v504 (ix2 r l)) (k0_pay288 (F := Ideal) v1847)) - (max (v502 (ix2 r l)) (k0_pay286 (F := Ideal) v1843)))) := by
  first | (unfold k0_pay290; kpay_read) | rfl

theorem pay291_apply (v503 : FVec Ideal S64x512 .f32) (v505 : FVec Ideal S64x512 .f32) (v1845 : Vec Ideal S1x1 .f32) (v1849 : Vec Ideal S1x1 .f32) (r : Fin 64) (l : Fin 512) :
    k0_pay291 (F := Ideal) v503 v505 v1845 v1849 (ix2 r l) =
      ((min (v505 (ix2 r l)) (k0_pay289 (F := Ideal) v1849)) - (max (v503 (ix2 r l)) (k0_pay287 (F := Ideal) v1845))) := by
  first | (unfold k0_pay291; kpay_read) | rfl

theorem pay292_apply (v502 : FVec Ideal S64x512 .f32) (v503 : FVec Ideal S64x512 .f32) (v504 : FVec Ideal S64x512 .f32) (v505 : FVec Ideal S64x512 .f32) (v508 : FVec Ideal S64x512 .f32) (v1842 : FVec Ideal S64x512 .f32) (v1844 : Ideal .f32) (v1846 : Ideal .f32) (v1848 : Ideal .f32) (v1850 : Ideal .f32) (v1861 : FVec Ideal S64x512 .f32) (v1862 : FVec Ideal S64x512 .f32) (v1874 : Vec Ideal S1x1 .f32) (v1876 : Vec Ideal S1x1 .f32) (v1878 : Vec Ideal S1x1 .f32) (v1880 : Vec Ideal S1x1 .f32) (r : Fin 64) (l : Fin 512) :
    k0_pay292 (F := Ideal) v502 v503 v504 v505 v508 v1842 v1844 v1846 v1848 v1850 v1861 v1862 v1874 v1876 v1878 v1880 (ix2 r l) =
      (((v1842 (ix2 r l)) + (Ideal.div ((v1861 (ix2 r l)) * (max (Ideal.ofBits .f32 0x00000000#32) (v1862 (ix2 r l)))) (((v508 (ix2 r l)) + ((v1848 - v1844) * (v1850 - v1846))) - ((v1861 (ix2 r l)) * (max (Ideal.ofBits .f32 0x00000000#32) (v1862 (ix2 r l))))))) + (Ideal.div ((max (Ideal.ofBits .f32 0x00000000#32) ((min (v504 (ix2 r l)) (v1878 (ix2 (0 : Fin 1) (0 : Fin 1)))) - (max (v502 (ix2 r l)) (v1874 (ix2 (0 : Fin 1) (0 : Fin 1)))))) * (max (Ideal.ofBits .f32 0x00000000#32) ((min (v505 (ix2 r l)) (v1880 (ix2 (0 : Fin 1) (0 : Fin 1)))) - (max (v503 (ix2 r l)) (v1876 (ix2 (0 : Fin 1) (0 : Fin 1))))))) (((v508 (ix2 r l)) + (((v1878 (ix2 (0 : Fin 1) (0 : Fin 1))) - (v1874 (ix2 (0 : Fin 1) (0 : Fin 1)))) * ((v1880 (ix2 (0 : Fin 1) (0 : Fin 1))) - (v1876 (ix2 (0 : Fin 1) (0 : Fin 1)))))) - ((max (Ideal.ofBits .f32 0x00000000#32) ((min (v504 (ix2 r l)) (v1878 (ix2 (0 : Fin 1) (0 : Fin 1)))) - (max (v502 (ix2 r l)) (v1874 (ix2 (0 : Fin 1) (0 : Fin 1)))))) * (max (Ideal.ofBits .f32 0x00000000#32) ((min (v505 (ix2 r l)) (v1880 (ix2 (0 : Fin 1) (0 : Fin 1)))) - (max (v503 (ix2 r l)) (v1876 (ix2 (0 : Fin 1) (0 : Fin 1)))))))))) := by
  first | (unfold k0_pay292; kpay_read) | rfl

theorem pay293_apply (v1905 : Vec Ideal S1x1 .f32) :
    k0_pay293 (F := Ideal) v1905 =
      (v1905 (ix2 (0 : Fin 1) (0 : Fin 1))) := by
  first | (unfold k0_pay293; kpay_read) | rfl

theorem pay294_apply (v502 : FVec Ideal S64x512 .f32) (v503 : FVec Ideal S64x512 .f32) (v504 : FVec Ideal S64x512 .f32) (v505 : FVec Ideal S64x512 .f32) (v508 : FVec Ideal S64x512 .f32) (v1904 : FVec Ideal S64x512 .f32) (v1906 : Ideal .f32) (v1907 : Vec Ideal S1x1 .f32) (v1909 : Vec Ideal S1x1 .f32) (v1911 : Vec Ideal S1x1 .f32) (r : Fin 64) (l : Fin 512) :
    k0_pay294 (F := Ideal) v502 v503 v504 v505 v508 v1904 v1906 v1907 v1909 v1911 (ix2 r l) =
      ((v1904 (ix2 r l)) + (Ideal.div ((max (Ideal.ofBits .f32 0x00000000#32) ((min (v504 (ix2 r l)) (v1909 (ix2 (0 : Fin 1) (0 : Fin 1)))) - (max (v502 (ix2 r l)) v1906))) * (max (Ideal.ofBits .f32 0x00000000#32) ((min (v505 (ix2 r l)) (v1911 (ix2 (0 : Fin 1) (0 : Fin 1)))) - (max (v503 (ix2 r l)) (v1907 (ix2 (0 : Fin 1) (0 : Fin 1))))))) (((v508 (ix2 r l)) + (((v1909 (ix2 (0 : Fin 1) (0 : Fin 1))) - v1906) * ((v1911 (ix2 (0 : Fin 1) (0 : Fin 1))) - (v1907 (ix2 (0 : Fin 1) (0 : Fin 1)))))) - ((max (Ideal.ofBits .f32 0x00000000#32) ((min (v504 (ix2 r l)) (v1909 (ix2 (0 : Fin 1) (0 : Fin 1)))) - (max (v502 (ix2 r l)) v1906))) * (max (Ideal.ofBits .f32 0x00000000#32) ((min (v505 (ix2 r l)) (v1911 (ix2 (0 : Fin 1) (0 : Fin 1)))) - (max (v503 (ix2 r l)) (v1907 (ix2 (0 : Fin 1) (0 : Fin 1)))))))))) := by
  first | (unfold k0_pay294; kpay_read) | rfl

theorem pay295_apply (v1936 : Vec Ideal S1x1 .f32) :
    k0_pay295 (F := Ideal) v1936 =
      (v1936 (ix2 (0 : Fin 1) (0 : Fin 1))) := by
  first | (unfold k0_pay295; kpay_read) | rfl

theorem pay296_apply (v1938 : Vec Ideal S1x1 .f32) :
    k0_pay296 (F := Ideal) v1938 =
      (v1938 (ix2 (0 : Fin 1) (0 : Fin 1))) := by
  first | (unfold k0_pay296; kpay_read) | rfl

theorem pay297_apply (v1940 : Vec Ideal S1x1 .f32) :
    k0_pay297 (F := Ideal) v1940 =
      (v1940 (ix2 (0 : Fin 1) (0 : Fin 1))) := by
  first | (unfold k0_pay297; kpay_read) | rfl

theorem pay298_apply (v1942 : Vec Ideal S1x1 .f32) :
    k0_pay298 (F := Ideal) v1942 =
      (v1942 (ix2 (0 : Fin 1) (0 : Fin 1))) := by
  first | (unfold k0_pay298; kpay_read) | rfl

theorem pay299_apply (v503 : FVec Ideal S64x512 .f32) (v1938 : Vec Ideal S1x1 .f32) (r : Fin 64) (l : Fin 512) :
    k0_pay299 (F := Ideal) v503 v1938 (ix2 r l) =
      (max (v503 (ix2 r l)) (k0_pay296 (F := Ideal) v1938)) := by
  first | (unfold k0_pay299; kpay_read) | rfl

theorem pay300_apply (v505 : FVec Ideal S64x512 .f32) (v1942 : Vec Ideal S1x1 .f32) (r : Fin 64) (l : Fin 512) :
    k0_pay300 (F := Ideal) v505 v1942 (ix2 r l) =
      (min (v505 (ix2 r l)) (k0_pay298 (F := Ideal) v1942)) := by
  first | (unfold k0_pay300; kpay_read) | rfl

theorem pay301_apply (v502 : FVec Ideal S64x512 .f32) (v504 : FVec Ideal S64x512 .f32) (v1936 : Vec Ideal S1x1 .f32) (v1940 : Vec Ideal S1x1 .f32) (r : Fin 64) (l : Fin 512) :
    k0_pay301 (F := Ideal) v502 v504 v1936 v1940 (ix2 r l) =
      ((min (v504 (ix2 r l)) (k0_pay297 (F := Ideal) v1940)) - (max (v502 (ix2 r l)) (k0_pay295 (F := Ideal) v1936))) := by
  first | (unfold k0_pay301; kpay_read) | rfl

theorem pay302_apply (v502 : FVec Ideal S64x512 .f32) (v503 : FVec Ideal S64x512 .f32) (v504 : FVec Ideal S64x512 .f32) (v505 : FVec Ideal S64x512 .f32) (v508 : FVec Ideal S64x512 .f32) (v1935 : FVec Ideal S64x512 .f32) (v1937 : Ideal .f32) (v1939 : Ideal .f32) (v1941 : Ideal .f32) (v1943 : Ideal .f32) (v1947 : FVec Ideal S64x512 .f32) (v1951 : FVec Ideal S64x512 .f32) (v1952 : FVec Ideal S64x512 .f32) (cst_515 : Ideal .f32) (v1967 : Vec Ideal S1x1 .f32) (v1969 : Vec Ideal S1x1 .f32) (v1971 : Vec Ideal S1x1 .f32) (v1973 : Vec Ideal S1x1 .f32) (r : Fin 64) (l : Fin 512) :
    k0_pay302 (F := Ideal) v502 v503 v504 v505 v508 v1935 v1937 v1939 v1941 v1943 v1947 v1951 v1952 cst_515 v1967 v1969 v1971 v1973 (ix2 r l) =
      (((v1935 (ix2 r l)) + (Ideal.div ((max cst_515 (v1952 (ix2 r l))) * (max (Ideal.ofBits .f32 0x00000000#32) ((v1951 (ix2 r l)) - (v1947 (ix2 r l))))) (((v508 (ix2 r l)) + ((v1941 - v1937) * (v1943 - v1939))) - ((max cst_515 (v1952 (ix2 r l))) * (max (Ideal.ofBits .f32 0x00000000#32) ((v1951 (ix2 r l)) - (v1947 (ix2 r l)))))))) + (Ideal.div ((max (Ideal.ofBits .f32 0x00000000#32) ((min (v504 (ix2 r l)) (v1971 (ix2 (0 : Fin 1) (0 : Fin 1)))) - (max (v502 (ix2 r l)) (v1967 (ix2 (0 : Fin 1) (0 : Fin 1)))))) * (max (Ideal.ofBits .f32 0x00000000#32) ((min (v505 (ix2 r l)) (v1973 (ix2 (0 : Fin 1) (0 : Fin 1)))) - (max (v503 (ix2 r l)) (v1969 (ix2 (0 : Fin 1) (0 : Fin 1))))))) (((v508 (ix2 r l)) + (((v1971 (ix2 (0 : Fin 1) (0 : Fin 1))) - (v1967 (ix2 (0 : Fin 1) (0 : Fin 1)))) * ((v1973 (ix2 (0 : Fin 1) (0 : Fin 1))) - (v1969 (ix2 (0 : Fin 1) (0 : Fin 1)))))) - ((max (Ideal.ofBits .f32 0x00000000#32) ((min (v504 (ix2 r l)) (v1971 (ix2 (0 : Fin 1) (0 : Fin 1)))) - (max (v502 (ix2 r l)) (v1967 (ix2 (0 : Fin 1) (0 : Fin 1)))))) * (max (Ideal.ofBits .f32 0x00000000#32) ((min (v505 (ix2 r l)) (v1973 (ix2 (0 : Fin 1) (0 : Fin 1)))) - (max (v503 (ix2 r l)) (v1969 (ix2 (0 : Fin 1) (0 : Fin 1)))))))))) := by
  first | (unfold k0_pay302; kpay_read) | rfl

theorem pay303_apply (v1998 : Vec Ideal S1x1 .f32) :
    k0_pay303 (F := Ideal) v1998 =
      (v1998 (ix2 (0 : Fin 1) (0 : Fin 1))) := by
  first | (unfold k0_pay303; kpay_read) | rfl

theorem pay304_apply (v502 : FVec Ideal S64x512 .f32) (v503 : FVec Ideal S64x512 .f32) (v504 : FVec Ideal S64x512 .f32) (v505 : FVec Ideal S64x512 .f32) (v508 : FVec Ideal S64x512 .f32) (v1997 : FVec Ideal S64x512 .f32) (v1999 : Ideal .f32) (v2000 : Vec Ideal S1x1 .f32) (v2002 : Vec Ideal S1x1 .f32) (v2004 : Vec Ideal S1x1 .f32) (r : Fin 64) (l : Fin 512) :
    k0_pay304 (F := Ideal) v502 v503 v504 v505 v508 v1997 v1999 v2000 v2002 v2004 (ix2 r l) =
      ((v1997 (ix2 r l)) + (Ideal.div ((max (Ideal.ofBits .f32 0x00000000#32) ((min (v504 (ix2 r l)) (v2002 (ix2 (0 : Fin 1) (0 : Fin 1)))) - (max (v502 (ix2 r l)) v1999))) * (max (Ideal.ofBits .f32 0x00000000#32) ((min (v505 (ix2 r l)) (v2004 (ix2 (0 : Fin 1) (0 : Fin 1)))) - (max (v503 (ix2 r l)) (v2000 (ix2 (0 : Fin 1) (0 : Fin 1))))))) (((v508 (ix2 r l)) + (((v2002 (ix2 (0 : Fin 1) (0 : Fin 1))) - v1999) * ((v2004 (ix2 (0 : Fin 1) (0 : Fin 1))) - (v2000 (ix2 (0 : Fin 1) (0 : Fin 1)))))) - ((max (Ideal.ofBits .f32 0x00000000#32) ((min (v504 (ix2 r l)) (v2002 (ix2 (0 : Fin 1) (0 : Fin 1)))) - (max (v502 (ix2 r l)) v1999))) * (max (Ideal.ofBits .f32 0x00000000#32) ((min (v505 (ix2 r l)) (v2004 (ix2 (0 : Fin 1) (0 : Fin 1)))) - (max (v503 (ix2 r l)) (v2000 (ix2 (0 : Fin 1) (0 : Fin 1)))))))))) := by
  first | (unfold k0_pay304; kpay_read) | rfl

theorem pay305_apply (v2029 : Vec Ideal S1x1 .f32) :
    k0_pay305 (F := Ideal) v2029 =
      (v2029 (ix2 (0 : Fin 1) (0 : Fin 1))) := by
  first | (unfold k0_pay305; kpay_read) | rfl

theorem pay306_apply (v2031 : Vec Ideal S1x1 .f32) :
    k0_pay306 (F := Ideal) v2031 =
      (v2031 (ix2 (0 : Fin 1) (0 : Fin 1))) := by
  first | (unfold k0_pay306; kpay_read) | rfl

theorem pay307_apply (v2033 : Vec Ideal S1x1 .f32) :
    k0_pay307 (F := Ideal) v2033 =
      (v2033 (ix2 (0 : Fin 1) (0 : Fin 1))) := by
  first | (unfold k0_pay307; kpay_read) | rfl

theorem pay308_apply (v2035 : Vec Ideal S1x1 .f32) :
    k0_pay308 (F := Ideal) v2035 =
      (v2035 (ix2 (0 : Fin 1) (0 : Fin 1))) := by
  first | (unfold k0_pay308; kpay_read) | rfl

theorem pay309_apply (v502 : FVec Ideal S64x512 .f32) (v2029 : Vec Ideal S1x1 .f32) (r : Fin 64) (l : Fin 512) :
    k0_pay309 (F := Ideal) v502 v2029 (ix2 r l) =
      (max (v502 (ix2 r l)) (k0_pay305 (F := Ideal) v2029)) := by
  first | (unfold k0_pay309; kpay_read) | rfl

theorem pay310_apply (v503 : FVec Ideal S64x512 .f32) (v2031 : Vec Ideal S1x1 .f32) (r : Fin 64) (l : Fin 512) :
    k0_pay310 (F := Ideal) v503 v2031 (ix2 r l) =
      (max (v503 (ix2 r l)) (k0_pay306 (F := Ideal) v2031)) := by
  first | (unfold k0_pay310; kpay_read) | rfl

theorem pay311_apply (v504 : FVec Ideal S64x512 .f32) (v2033 : Vec Ideal S1x1 .f32) (r : Fin 64) (l : Fin 512) :
    k0_pay311 (F := Ideal) v504 v2033 (ix2 r l) =
      (min (v504 (ix2 r l)) (k0_pay307 (F := Ideal) v2033)) := by
  first | (unfold k0_pay311; kpay_read) | rfl

theorem pay312_apply (v2035 : Vec Ideal S1x1 .f32) (r : Fin 64) (l : Fin 512) :
    k0_pay312 (F := Ideal) v2035 (ix2 r l) =
      (k0_pay308 (F := Ideal) v2035) := by
  first | (unfold k0_pay312; kpay_read) | rfl

theorem pay313_apply (v502 : FVec Ideal S64x512 .f32) (v503 : FVec Ideal S64x512 .f32) (v504 : FVec Ideal S64x512 .f32) (v505 : FVec Ideal S64x512 .f32) (v508 : FVec Ideal S64x512 .f32) (v2028 : FVec Ideal S64x512 .f32) (v2030 : Ideal .f32) (v2032 : Ideal .f32) (v2034 : Ideal .f32) (v2036 : Ideal .f32) (v2038 : FVec Ideal S64x512 .f32) (v2040 : FVec Ideal S64x512 .f32) (v2042 : FVec Ideal S64x512 .f32) (v2043 : FVec Ideal S64x512 .f32) (v2060 : Vec Ideal S1x1 .f32) (v2062 : Vec Ideal S1x1 .f32) (v2064 : Vec Ideal S1x1 .f32) (v2066 : Vec Ideal S1x1 .f32) (r : Fin 64) (l : Fin 512) :
    k0_pay313 (F := Ideal) v502 v503 v504 v505 v508 v2028 v2030 v2032 v2034 v2036 v2038 v2040 v2042 v2043 v2060 v2062 v2064 v2066 (ix2 r l) =
      (((v2028 (ix2 r l)) + (Ideal.div ((max (Ideal.ofBits .f32 0x00000000#32) ((v2042 (ix2 r l)) - (v2038 (ix2 r l)))) * (max (Ideal.ofBits .f32 0x00000000#32) ((min (v505 (ix2 r l)) (v2043 (ix2 r l))) - (v2040 (ix2 r l))))) (((v508 (ix2 r l)) + ((v2034 - v2030) * (v2036 - v2032))) - ((max (Ideal.ofBits .f32 0x00000000#32) ((v2042 (ix2 r l)) - (v2038 (ix2 r l)))) * (max (Ideal.ofBits .f32 0x00000000#32) ((min (v505 (ix2 r l)) (v2043 (ix2 r l))) - (v2040 (ix2 r l)))))))) + (Ideal.div ((max (Ideal.ofBits .f32 0x00000000#32) ((min (v504 (ix2 r l)) (v2064 (ix2 (0 : Fin 1) (0 : Fin 1)))) - (max (v502 (ix2 r l)) (v2060 (ix2 (0 : Fin 1) (0 : Fin 1)))))) * (max (Ideal.ofBits .f32 0x00000000#32) ((min (v505 (ix2 r l)) (v2066 (ix2 (0 : Fin 1) (0 : Fin 1)))) - (max (v503 (ix2 r l)) (v2062 (ix2 (0 : Fin 1) (0 : Fin 1))))))) (((v508 (ix2 r l)) + (((v2064 (ix2 (0 : Fin 1) (0 : Fin 1))) - (v2060 (ix2 (0 : Fin 1) (0 : Fin 1)))) * ((v2066 (ix2 (0 : Fin 1) (0 : Fin 1))) - (v2062 (ix2 (0 : Fin 1) (0 : Fin 1)))))) - ((max (Ideal.ofBits .f32 0x00000000#32) ((min (v504 (ix2 r l)) (v2064 (ix2 (0 : Fin 1) (0 : Fin 1)))) - (max (v502 (ix2 r l)) (v2060 (ix2 (0 : Fin 1) (0 : Fin 1)))))) * (max (Ideal.ofBits .f32 0x00000000#32) ((min (v505 (ix2 r l)) (v2066 (ix2 (0 : Fin 1) (0 : Fin 1)))) - (max (v503 (ix2 r l)) (v2062 (ix2 (0 : Fin 1) (0 : Fin 1)))))))))) := by
  first | (unfold k0_pay313; kpay_read) | rfl

theorem pay314_apply (v502 : FVec Ideal S64x512 .f32) (v503 : FVec Ideal S64x512 .f32) (v504 : FVec Ideal S64x512 .f32) (v505 : FVec Ideal S64x512 .f32) (v508 : FVec Ideal S64x512 .f32) (v2090 : FVec Ideal S64x512 .f32) (v2091 : Vec Ideal S1x1 .f32) (v2093 : Vec Ideal S1x1 .f32) (v2095 : Vec Ideal S1x1 .f32) (v2097 : Vec Ideal S1x1 .f32) (r : Fin 64) (l : Fin 512) :
    k0_pay314 (F := Ideal) v502 v503 v504 v505 v508 v2090 v2091 v2093 v2095 v2097 (ix2 r l) =
      ((v2090 (ix2 r l)) + (Ideal.div ((max (Ideal.ofBits .f32 0x00000000#32) ((min (v504 (ix2 r l)) (v2095 (ix2 (0 : Fin 1) (0 : Fin 1)))) - (max (v502 (ix2 r l)) (v2091 (ix2 (0 : Fin 1) (0 : Fin 1)))))) * (max (Ideal.ofBits .f32 0x00000000#32) ((min (v505 (ix2 r l)) (v2097 (ix2 (0 : Fin 1) (0 : Fin 1)))) - (max (v503 (ix2 r l)) (v2093 (ix2 (0 : Fin 1) (0 : Fin 1))))))) (((v508 (ix2 r l)) + (((v2095 (ix2 (0 : Fin 1) (0 : Fin 1))) - (v2091 (ix2 (0 : Fin 1) (0 : Fin 1)))) * ((v2097 (ix2 (0 : Fin 1) (0 : Fin 1))) - (v2093 (ix2 (0 : Fin 1) (0 : Fin 1)))))) - ((max (Ideal.ofBits .f32 0x00000000#32) ((min (v504 (ix2 r l)) (v2095 (ix2 (0 : Fin 1) (0 : Fin 1)))) - (max (v502 (ix2 r l)) (v2091 (ix2 (0 : Fin 1) (0 : Fin 1)))))) * (max (Ideal.ofBits .f32 0x00000000#32) ((min (v505 (ix2 r l)) (v2097 (ix2 (0 : Fin 1) (0 : Fin 1)))) - (max (v503 (ix2 r l)) (v2093 (ix2 (0 : Fin 1) (0 : Fin 1)))))))))) := by
  first | (unfold k0_pay314; kpay_read) | rfl

theorem pay315_apply (v2122 : Vec Ideal S1x1 .f32) :
    k0_pay315 (F := Ideal) v2122 =
      (v2122 (ix2 (0 : Fin 1) (0 : Fin 1))) := by
  first | (unfold k0_pay315; kpay_read) | rfl

theorem pay316_apply (v2124 : Vec Ideal S1x1 .f32) :
    k0_pay316 (F := Ideal) v2124 =
      (v2124 (ix2 (0 : Fin 1) (0 : Fin 1))) := by
  first | (unfold k0_pay316; kpay_read) | rfl

theorem pay317_apply (v2126 : Vec Ideal S1x1 .f32) :
    k0_pay317 (F := Ideal) v2126 =
      (v2126 (ix2 (0 : Fin 1) (0 : Fin 1))) := by
  first | (unfold k0_pay317; kpay_read) | rfl

theorem pay318_apply (v2128 : Vec Ideal S1x1 .f32) :
    k0_pay318 (F := Ideal) v2128 =
      (v2128 (ix2 (0 : Fin 1) (0 : Fin 1))) := by
  first | (unfold k0_pay318; kpay_read) | rfl

theorem pay319_apply (v502 : FVec Ideal S64x512 .f32) (v2122 : Vec Ideal S1x1 .f32) (r : Fin 64) (l : Fin 512) :
    k0_pay319 (F := Ideal) v502 v2122 (ix2 r l) =
      (max (v502 (ix2 r l)) (k0_pay315 (F := Ideal) v2122)) := by
  first | (unfold k0_pay319; kpay_read) | rfl

theorem pay320_apply (v503 : FVec Ideal S64x512 .f32) (v2124 : Vec Ideal S1x1 .f32) (r : Fin 64) (l : Fin 512) :
    k0_pay320 (F := Ideal) v503 v2124 (ix2 r l) =
      (max (v503 (ix2 r l)) (k0_pay316 (F := Ideal) v2124)) := by
  first | (unfold k0_pay320; kpay_read) | rfl

theorem pay321_apply (v504 : FVec Ideal S64x512 .f32) (v505 : FVec Ideal S64x512 .f32) (v508 : FVec Ideal S64x512 .f32) (v2121 : FVec Ideal S64x512 .f32) (v2123 : Ideal .f32) (v2125 : Ideal .f32) (v2127 : Ideal .f32) (v2129 : Ideal .f32) (v2131 : FVec Ideal S64x512 .f32) (v2133 : FVec Ideal S64x512 .f32) (r : Fin 64) (l : Fin 512) :
    k0_pay321 (F := Ideal) v504 v505 v508 v2121 v2123 v2125 v2127 v2129 v2131 v2133 (ix2 r l) =
      ((v2121 (ix2 r l)) + (Ideal.div ((max (Ideal.ofBits .f32 0x00000000#32) ((min (v504 (ix2 r l)) v2127) - (v2131 (ix2 r l)))) * (max (Ideal.ofBits .f32 0x00000000#32) ((min (v505 (ix2 r l)) v2129) - (v2133 (ix2 r l))))) (((v508 (ix2 r l)) + ((v2127 - v2123) * (v2129 - v2125))) - ((max (Ideal.ofBits .f32 0x00000000#32) ((min (v504 (ix2 r l)) v2127) - (v2131 (ix2 r l)))) * (max (Ideal.ofBits .f32 0x00000000#32) ((min (v505 (ix2 r l)) v2129) - (v2133 (ix2 r l)))))))) := by
  first | (unfold k0_pay321; kpay_read) | rfl

theorem pay322_apply (v2153 : Vec Ideal S1x1 .f32) :
    k0_pay322 (F := Ideal) v2153 =
      (v2153 (ix2 (0 : Fin 1) (0 : Fin 1))) := by
  first | (unfold k0_pay322; kpay_read) | rfl

theorem pay323_apply (v2155 : Vec Ideal S1x1 .f32) :
    k0_pay323 (F := Ideal) v2155 =
      (v2155 (ix2 (0 : Fin 1) (0 : Fin 1))) := by
  first | (unfold k0_pay323; kpay_read) | rfl

theorem pay324_apply (v2157 : Vec Ideal S1x1 .f32) :
    k0_pay324 (F := Ideal) v2157 =
      (v2157 (ix2 (0 : Fin 1) (0 : Fin 1))) := by
  first | (unfold k0_pay324; kpay_read) | rfl

theorem pay325_apply (v2159 : Vec Ideal S1x1 .f32) :
    k0_pay325 (F := Ideal) v2159 =
      (v2159 (ix2 (0 : Fin 1) (0 : Fin 1))) := by
  first | (unfold k0_pay325; kpay_read) | rfl

theorem pay326_apply (v502 : FVec Ideal S64x512 .f32) (v503 : FVec Ideal S64x512 .f32) (v504 : FVec Ideal S64x512 .f32) (v505 : FVec Ideal S64x512 .f32) (v2153 : Vec Ideal S1x1 .f32) (v2155 : Vec Ideal S1x1 .f32) (v2157 : Vec Ideal S1x1 .f32) (v2159 : Vec Ideal S1x1 .f32) (r : Fin 64) (l : Fin 512) :
    k0_pay326 (F := Ideal) v502 v503 v504 v505 v2153 v2155 v2157 v2159 (ix2 r l) =
      ((max (Ideal.ofBits .f32 0x00000000#32) ((min (v504 (ix2 r l)) (k0_pay324 (F := Ideal) v2157)) - (max (v502 (ix2 r l)) (k0_pay322 (F := Ideal) v2153)))) * (max (Ideal.ofBits .f32 0x00000000#32) ((min (v505 (ix2 r l)) (k0_pay325 (F := Ideal) v2159)) - (max (v503 (ix2 r l)) (k0_pay323 (F := Ideal) v2155))))) := by
  first | (unfold k0_pay326; kpay_read) | rfl

theorem pay327_apply (v502 : FVec Ideal S64x512 .f32) (v503 : FVec Ideal S64x512 .f32) (v504 : FVec Ideal S64x512 .f32) (v505 : FVec Ideal S64x512 .f32) (v508 : FVec Ideal S64x512 .f32) (v2153 : Vec Ideal S1x1 .f32) (v2155 : Vec Ideal S1x1 .f32) (v2157 : Vec Ideal S1x1 .f32) (v2159 : Vec Ideal S1x1 .f32) (r : Fin 64) (l : Fin 512) :
    k0_pay327 (F := Ideal) v502 v503 v504 v505 v508 v2153 v2155 v2157 v2159 (ix2 r l) =
      (((v508 (ix2 r l)) + (((k0_pay324 (F := Ideal) v2157) - (k0_pay322 (F := Ideal) v2153)) * ((k0_pay325 (F := Ideal) v2159) - (k0_pay323 (F := Ideal) v2155)))) - (k0_pay326 (F := Ideal) v502 v503 v504 v505 v2153 v2155 v2157 v2159 (ix2 r l))) := by
  first | (unfold k0_pay327; kpay_read) | rfl

theorem pay328_apply (v502 : FVec Ideal S64x512 .f32) (v503 : FVec Ideal S64x512 .f32) (v504 : FVec Ideal S64x512 .f32) (v505 : FVec Ideal S64x512 .f32) (v508 : FVec Ideal S64x512 .f32) (v2152 : FVec Ideal S64x512 .f32) (v2175 : FVec Ideal S64x512 .f32) (v2181 : FVec Ideal S64x512 .f32) (v2184 : Vec Ideal S1x1 .f32) (v2186 : Vec Ideal S1x1 .f32) (v2188 : Vec Ideal S1x1 .f32) (v2190 : Vec Ideal S1x1 .f32) (r : Fin 64) (l : Fin 512) :
    k0_pay328 (F := Ideal) v502 v503 v504 v505 v508 v2152 v2175 v2181 v2184 v2186 v2188 v2190 (ix2 r l) =
      (((v2152 (ix2 r l)) + (Ideal.div (v2175 (ix2 r l)) (v2181 (ix2 r l)))) + (Ideal.div ((max (Ideal.ofBits .f32 0x00000000#32) ((min (v504 (ix2 r l)) (v2188 (ix2 (0 : Fin 1) (0 : Fin 1)))) - (max (v502 (ix2 r l)) (v2184 (ix2 (0 : Fin 1) (0 : Fin 1)))))) * (max (Ideal.ofBits .f32 0x00000000#32) ((min (v505 (ix2 r l)) (v2190 (ix2 (0 : Fin 1) (0 : Fin 1)))) - (max (v503 (ix2 r l)) (v2186 (ix2 (0 : Fin 1) (0 : Fin 1))))))) (((v508 (ix2 r l)) + (((v2188 (ix2 (0 : Fin 1) (0 : Fin 1))) - (v2184 (ix2 (0 : Fin 1) (0 : Fin 1)))) * ((v2190 (ix2 (0 : Fin 1) (0 : Fin 1))) - (v2186 (ix2 (0 : Fin 1) (0 : Fin 1)))))) - ((max (Ideal.ofBits .f32 0x00000000#32) ((min (v504 (ix2 r l)) (v2188 (ix2 (0 : Fin 1) (0 : Fin 1)))) - (max (v502 (ix2 r l)) (v2184 (ix2 (0 : Fin 1) (0 : Fin 1)))))) * (max (Ideal.ofBits .f32 0x00000000#32) ((min (v505 (ix2 r l)) (v2190 (ix2 (0 : Fin 1) (0 : Fin 1)))) - (max (v503 (ix2 r l)) (v2186 (ix2 (0 : Fin 1) (0 : Fin 1)))))))))) := by
  first | (unfold k0_pay328; kpay_read) | rfl

theorem pay329_apply (v2215 : Vec Ideal S1x1 .f32) :
    k0_pay329 (F := Ideal) v2215 =
      (v2215 (ix2 (0 : Fin 1) (0 : Fin 1))) := by
  first | (unfold k0_pay329; kpay_read) | rfl

theorem pay330_apply (v2217 : Vec Ideal S1x1 .f32) :
    k0_pay330 (F := Ideal) v2217 =
      (v2217 (ix2 (0 : Fin 1) (0 : Fin 1))) := by
  first | (unfold k0_pay330; kpay_read) | rfl

theorem pay331_apply (v2219 : Vec Ideal S1x1 .f32) :
    k0_pay331 (F := Ideal) v2219 =
      (v2219 (ix2 (0 : Fin 1) (0 : Fin 1))) := by
  first | (unfold k0_pay331; kpay_read) | rfl

theorem pay332_apply (v2221 : Vec Ideal S1x1 .f32) :
    k0_pay332 (F := Ideal) v2221 =
      (v2221 (ix2 (0 : Fin 1) (0 : Fin 1))) := by
  first | (unfold k0_pay332; kpay_read) | rfl

theorem pay333_apply (v2215 : Vec Ideal S1x1 .f32) (r : Fin 64) (l : Fin 512) :
    k0_pay333 (F := Ideal) v2215 (ix2 r l) =
      (k0_pay329 (F := Ideal) v2215) := by
  first | (unfold k0_pay333; kpay_read) | rfl

theorem pay334_apply (v502 : FVec Ideal S64x512 .f32) (v503 : FVec Ideal S64x512 .f32) (v504 : FVec Ideal S64x512 .f32) (v505 : FVec Ideal S64x512 .f32) (v508 : FVec Ideal S64x512 .f32) (v2214 : FVec Ideal S64x512 .f32) (v2216 : Ideal .f32) (v2218 : Ideal .f32) (v2220 : Ideal .f32) (v2222 : Ideal .f32) (v2223 : FVec Ideal S64x512 .f32) (r : Fin 64) (l : Fin 512) :
    k0_pay334 (F := Ideal) v502 v503 v504 v505 v508 v2214 v2216 v2218 v2220 v2222 v2223 (ix2 r l) =
      ((v2214 (ix2 r l)) + (Ideal.div ((max (Ideal.ofBits .f32 0x00000000#32) ((min (v504 (ix2 r l)) v2220) - (max (v502 (ix2 r l)) (v2223 (ix2 r l))))) * (max (Ideal.ofBits .f32 0x00000000#32) ((min (v505 (ix2 r l)) v2222) - (max (v503 (ix2 r l)) v2218)))) (((v508 (ix2 r l)) + ((v2220 - v2216) * (v2222 - v2218))) - ((max (Ideal.ofBits .f32 0x00000000#32) ((min (v504 (ix2 r l)) v2220) - (max (v502 (ix2 r l)) (v2223 (ix2 r l))))) * (max (Ideal.ofBits .f32 0x00000000#32) ((min (v505 (ix2 r l)) v2222) - (max (v503 (ix2 r l)) v2218))))))) := by
  first | (unfold k0_pay334; kpay_read) | rfl

theorem pay335_apply (v2246 : Vec Ideal S1x1 .f32) :
    k0_pay335 (F := Ideal) v2246 =
      (v2246 (ix2 (0 : Fin 1) (0 : Fin 1))) := by
  first | (unfold k0_pay335; kpay_read) | rfl

theorem pay336_apply (v2248 : Vec Ideal S1x1 .f32) :
    k0_pay336 (F := Ideal) v2248 =
      (v2248 (ix2 (0 : Fin 1) (0 : Fin 1))) := by
  first | (unfold k0_pay336; kpay_read) | rfl

theorem pay337_apply (v2250 : Vec Ideal S1x1 .f32) :
    k0_pay337 (F := Ideal) v2250 =
      (v2250 (ix2 (0 : Fin 1) (0 : Fin 1))) := by
  first | (unfold k0_pay337; kpay_read) | rfl

theorem pay338_apply (v2252 : Vec Ideal S1x1 .f32) :
    k0_pay338 (F := Ideal) v2252 =
      (v2252 (ix2 (0 : Fin 1) (0 : Fin 1))) := by
  first | (unfold k0_pay338; kpay_read) | rfl

theorem pay339_apply (v502 : FVec Ideal S64x512 .f32) (v503 : FVec Ideal S64x512 .f32) (v504 : FVec Ideal S64x512 .f32) (v505 : FVec Ideal S64x512 .f32) (v2246 : Vec Ideal S1x1 .f32) (v2248 : Vec Ideal S1x1 .f32) (v2250 : Vec Ideal S1x1 .f32) (v2252 : Vec Ideal S1x1 .f32) (r : Fin 64) (l : Fin 512) :
    k0_pay339 (F := Ideal) v502 v503 v504 v505 v2246 v2248 v2250 v2252 (ix2 r l) =
      ((max (Ideal.ofBits .f32 0x00000000#32) ((min (v504 (ix2 r l)) (k0_pay337 (F := Ideal) v2250)) - (max (v502 (ix2 r l)) (k0_pay335 (F := Ideal) v2246)))) * (max (Ideal.ofBits .f32 0x00000000#32) ((min (v505 (ix2 r l)) (k0_pay338 (F := Ideal) v2252)) - (max (v503 (ix2 r l)) (k0_pay336 (F := Ideal) v2248))))) := by
  first | (unfold k0_pay339; kpay_read) | rfl

theorem pay340_apply (v2246 : Vec Ideal S1x1 .f32) (v2248 : Vec Ideal S1x1 .f32) (v2250 : Vec Ideal S1x1 .f32) (v2252 : Vec Ideal S1x1 .f32) :
    k0_pay340 (F := Ideal) v2246 v2248 v2250 v2252 =
      (((k0_pay337 (F := Ideal) v2250) - (k0_pay335 (F := Ideal) v2246)) * ((k0_pay338 (F := Ideal) v2252) - (k0_pay336 (F := Ideal) v2248))) := by
  first | (unfold k0_pay340; kpay_read) | rfl

theorem pay341_apply (v502 : FVec Ideal S64x512 .f32) (v503 : FVec Ideal S64x512 .f32) (v504 : FVec Ideal S64x512 .f32) (v505 : FVec Ideal S64x512 .f32) (v508 : FVec Ideal S64x512 .f32) (v2245 : FVec Ideal S64x512 .f32) (v2268 : FVec Ideal S64x512 .f32) (v2271 : Ideal .f32) (v2277 : Vec Ideal S1x1 .f32) (v2279 : Vec Ideal S1x1 .f32) (v2281 : Vec Ideal S1x1 .f32) (v2283 : Vec Ideal S1x1 .f32) (r : Fin 64) (l : Fin 512) :
    k0_pay341 (F := Ideal) v502 v503 v504 v505 v508 v2245 v2268 v2271 v2277 v2279 v2281 v2283 (ix2 r l) =
      (((v2245 (ix2 r l)) + (Ideal.div (v2268 (ix2 r l)) (((v508 (ix2 r l)) + v2271) - (v2268 (ix2 r l))))) + (Ideal.div ((max (Ideal.ofBits .f32 0x00000000#32) ((min (v504 (ix2 r l)) (v2281 (ix2 (0 : Fin 1) (0 : Fin 1)))) - (max (v502 (ix2 r l)) (v2277 (ix2 (0 : Fin 1) (0 : Fin 1)))))) * (max (Ideal.ofBits .f32 0x00000000#32) ((min (v505 (ix2 r l)) (v2283 (ix2 (0 : Fin 1) (0 : Fin 1)))) - (max (v503 (ix2 r l)) (v2279 (ix2 (0 : Fin 1) (0 : Fin 1))))))) (((v508 (ix2 r l)) + (((v2281 (ix2 (0 : Fin 1) (0 : Fin 1))) - (v2277 (ix2 (0 : Fin 1) (0 : Fin 1)))) * ((v2283 (ix2 (0 : Fin 1) (0 : Fin 1))) - (v2279 (ix2 (0 : Fin 1) (0 : Fin 1)))))) - ((max (Ideal.ofBits .f32 0x00000000#32) ((min (v504 (ix2 r l)) (v2281 (ix2 (0 : Fin 1) (0 : Fin 1)))) - (max (v502 (ix2 r l)) (v2277 (ix2 (0 : Fin 1) (0 : Fin 1)))))) * (max (Ideal.ofBits .f32 0x00000000#32) ((min (v505 (ix2 r l)) (v2283 (ix2 (0 : Fin 1) (0 : Fin 1)))) - (max (v503 (ix2 r l)) (v2279 (ix2 (0 : Fin 1) (0 : Fin 1)))))))))) := by
  first | (unfold k0_pay341; kpay_read) | rfl

theorem pay342_apply (v2308 : Vec Ideal S1x1 .f32) :
    k0_pay342 (F := Ideal) v2308 =
      (v2308 (ix2 (0 : Fin 1) (0 : Fin 1))) := by
  first | (unfold k0_pay342; kpay_read) | rfl

theorem pay343_apply (v2310 : Vec Ideal S1x1 .f32) :
    k0_pay343 (F := Ideal) v2310 =
      (v2310 (ix2 (0 : Fin 1) (0 : Fin 1))) := by
  first | (unfold k0_pay343; kpay_read) | rfl

theorem pay344_apply (v2312 : Vec Ideal S1x1 .f32) :
    k0_pay344 (F := Ideal) v2312 =
      (v2312 (ix2 (0 : Fin 1) (0 : Fin 1))) := by
  first | (unfold k0_pay344; kpay_read) | rfl

theorem pay345_apply (v502 : FVec Ideal S64x512 .f32) (v503 : FVec Ideal S64x512 .f32) (v504 : FVec Ideal S64x512 .f32) (v505 : FVec Ideal S64x512 .f32) (v508 : FVec Ideal S64x512 .f32) (v2307 : FVec Ideal S64x512 .f32) (v2309 : Ideal .f32) (v2311 : Ideal .f32) (v2313 : Ideal .f32) (v2314 : Vec Ideal S1x1 .f32) (r : Fin 64) (l : Fin 512) :
    k0_pay345 (F := Ideal) v502 v503 v504 v505 v508 v2307 v2309 v2311 v2313 v2314 (ix2 r l) =
      ((v2307 (ix2 r l)) + (Ideal.div ((max (Ideal.ofBits .f32 0x00000000#32) ((min (v504 (ix2 r l)) v2313) - (max (v502 (ix2 r l)) v2309))) * (max (Ideal.ofBits .f32 0x00000000#32) ((min (v505 (ix2 r l)) (v2314 (ix2 (0 : Fin 1) (0 : Fin 1)))) - (max (v503 (ix2 r l)) v2311)))) (((v508 (ix2 r l)) + ((v2313 - v2309) * ((v2314 (ix2 (0 : Fin 1) (0 : Fin 1))) - v2311))) - ((max (Ideal.ofBits .f32 0x00000000#32) ((min (v504 (ix2 r l)) v2313) - (max (v502 (ix2 r l)) v2309))) * (max (Ideal.ofBits .f32 0x00000000#32) ((min (v505 (ix2 r l)) (v2314 (ix2 (0 : Fin 1) (0 : Fin 1)))) - (max (v503 (ix2 r l)) v2311))))))) := by
  first | (unfold k0_pay345; kpay_read) | rfl

theorem pay346_apply (v2339 : Vec Ideal S1x1 .f32) :
    k0_pay346 (F := Ideal) v2339 =
      (v2339 (ix2 (0 : Fin 1) (0 : Fin 1))) := by
  first | (unfold k0_pay346; kpay_read) | rfl

theorem pay347_apply (v2341 : Vec Ideal S1x1 .f32) :
    k0_pay347 (F := Ideal) v2341 =
      (v2341 (ix2 (0 : Fin 1) (0 : Fin 1))) := by
  first | (unfold k0_pay347; kpay_read) | rfl

theorem pay348_apply (v2343 : Vec Ideal S1x1 .f32) :
    k0_pay348 (F := Ideal) v2343 =
      (v2343 (ix2 (0 : Fin 1) (0 : Fin 1))) := by
  first | (unfold k0_pay348; kpay_read) | rfl

theorem pay349_apply (v2345 : Vec Ideal S1x1 .f32) :
    k0_pay349 (F := Ideal) v2345 =
      (v2345 (ix2 (0 : Fin 1) (0 : Fin 1))) := by
  first | (unfold k0_pay349; kpay_read) | rfl

theorem pay350_apply (v502 : FVec Ideal S64x512 .f32) (v503 : FVec Ideal S64x512 .f32) (v504 : FVec Ideal S64x512 .f32) (v505 : FVec Ideal S64x512 .f32) (v2339 : Vec Ideal S1x1 .f32) (v2341 : Vec Ideal S1x1 .f32) (v2343 : Vec Ideal S1x1 .f32) (v2345 : Vec Ideal S1x1 .f32) (r : Fin 64) (l : Fin 512) :
    k0_pay350 (F := Ideal) v502 v503 v504 v505 v2339 v2341 v2343 v2345 (ix2 r l) =
      ((max (Ideal.ofBits .f32 0x00000000#32) ((min (v504 (ix2 r l)) (k0_pay348 (F := Ideal) v2343)) - (max (v502 (ix2 r l)) (k0_pay346 (F := Ideal) v2339)))) * (max (Ideal.ofBits .f32 0x00000000#32) ((min (v505 (ix2 r l)) (k0_pay349 (F := Ideal) v2345)) - (max (v503 (ix2 r l)) (k0_pay347 (F := Ideal) v2341))))) := by
  first | (unfold k0_pay350; kpay_read) | rfl

theorem pay351_apply (v502 : FVec Ideal S64x512 .f32) (v503 : FVec Ideal S64x512 .f32) (v504 : FVec Ideal S64x512 .f32) (v505 : FVec Ideal S64x512 .f32) (v508 : FVec Ideal S64x512 .f32) (v2338 : FVec Ideal S64x512 .f32) (v2340 : Ideal .f32) (v2342 : Ideal .f32) (v2344 : Ideal .f32) (v2346 : Ideal .f32) (v2361 : FVec Ideal S64x512 .f32) (v2370 : Vec Ideal S1x1 .f32) (v2372 : Vec Ideal S1x1 .f32) (v2374 : Vec Ideal S1x1 .f32) (v2376 : Vec Ideal S1x1 .f32) (r : Fin 64) (l : Fin 512) :
    k0_pay351 (F := Ideal) v502 v503 v504 v505 v508 v2338 v2340 v2342 v2344 v2346 v2361 v2370 v2372 v2374 v2376 (ix2 r l) =
      (((v2338 (ix2 r l)) + (Ideal.div (v2361 (ix2 r l)) (((v508 (ix2 r l)) + ((v2344 - v2340) * (v2346 - v2342))) - (v2361 (ix2 r l))))) + (Ideal.div ((max (Ideal.ofBits .f32 0x00000000#32) ((min (v504 (ix2 r l)) (v2374 (ix2 (0 : Fin 1) (0 : Fin 1)))) - (max (v502 (ix2 r l)) (v2370 (ix2 (0 : Fin 1) (0 : Fin 1)))))) * (max (Ideal.ofBits .f32 0x00000000#32) ((min (v505 (ix2 r l)) (v2376 (ix2 (0 : Fin 1) (0 : Fin 1)))) - (max (v503 (ix2 r l)) (v2372 (ix2 (0 : Fin 1) (0 : Fin 1))))))) (((v508 (ix2 r l)) + (((v2374 (ix2 (0 : Fin 1) (0 : Fin 1))) - (v2370 (ix2 (0 : Fin 1) (0 : Fin 1)))) * ((v2376 (ix2 (0 : Fin 1) (0 : Fin 1))) - (v2372 (ix2 (0 : Fin 1) (0 : Fin 1)))))) - ((max (Ideal.ofBits .f32 0x00000000#32) ((min (v504 (ix2 r l)) (v2374 (ix2 (0 : Fin 1) (0 : Fin 1)))) - (max (v502 (ix2 r l)) (v2370 (ix2 (0 : Fin 1) (0 : Fin 1)))))) * (max (Ideal.ofBits .f32 0x00000000#32) ((min (v505 (ix2 r l)) (v2376 (ix2 (0 : Fin 1) (0 : Fin 1)))) - (max (v503 (ix2 r l)) (v2372 (ix2 (0 : Fin 1) (0 : Fin 1)))))))))) := by
  first | (unfold k0_pay351; kpay_read) | rfl

theorem pay352_apply (v2401 : Vec Ideal S1x1 .f32) :
    k0_pay352 (F := Ideal) v2401 =
      (v2401 (ix2 (0 : Fin 1) (0 : Fin 1))) := by
  first | (unfold k0_pay352; kpay_read) | rfl

theorem pay353_apply (v2403 : Vec Ideal S1x1 .f32) :
    k0_pay353 (F := Ideal) v2403 =
      (v2403 (ix2 (0 : Fin 1) (0 : Fin 1))) := by
  first | (unfold k0_pay353; kpay_read) | rfl

theorem pay354_apply (v502 : FVec Ideal S64x512 .f32) (v503 : FVec Ideal S64x512 .f32) (v504 : FVec Ideal S64x512 .f32) (v505 : FVec Ideal S64x512 .f32) (v508 : FVec Ideal S64x512 .f32) (v2400 : FVec Ideal S64x512 .f32) (v2402 : Ideal .f32) (v2404 : Ideal .f32) (v2405 : Vec Ideal S1x1 .f32) (v2407 : Vec Ideal S1x1 .f32) (r : Fin 64) (l : Fin 512) :
    k0_pay354 (F := Ideal) v502 v503 v504 v505 v508 v2400 v2402 v2404 v2405 v2407 (ix2 r l) =
      ((v2400 (ix2 r l)) + (Ideal.div ((max (Ideal.ofBits .f32 0x00000000#32) ((min (v504 (ix2 r l)) (v2405 (ix2 (0 : Fin 1) (0 : Fin 1)))) - (max (v502 (ix2 r l)) v2402))) * (max (Ideal.ofBits .f32 0x00000000#32) ((min (v505 (ix2 r l)) (v2407 (ix2 (0 : Fin 1) (0 : Fin 1)))) - (max (v503 (ix2 r l)) v2404)))) (((v508 (ix2 r l)) + (((v2405 (ix2 (0 : Fin 1) (0 : Fin 1))) - v2402) * ((v2407 (ix2 (0 : Fin 1) (0 : Fin 1))) - v2404))) - ((max (Ideal.ofBits .f32 0x00000000#32) ((min (v504 (ix2 r l)) (v2405 (ix2 (0 : Fin 1) (0 : Fin 1)))) - (max (v502 (ix2 r l)) v2402))) * (max (Ideal.ofBits .f32 0x00000000#32) ((min (v505 (ix2 r l)) (v2407 (ix2 (0 : Fin 1) (0 : Fin 1)))) - (max (v503 (ix2 r l)) v2404))))))) := by
  first | (unfold k0_pay354; kpay_read) | rfl

theorem pay355_apply (v2432 : Vec Ideal S1x1 .f32) :
    k0_pay355 (F := Ideal) v2432 =
      (v2432 (ix2 (0 : Fin 1) (0 : Fin 1))) := by
  first | (unfold k0_pay355; kpay_read) | rfl

theorem pay356_apply (v2434 : Vec Ideal S1x1 .f32) :
    k0_pay356 (F := Ideal) v2434 =
      (v2434 (ix2 (0 : Fin 1) (0 : Fin 1))) := by
  first | (unfold k0_pay356; kpay_read) | rfl

theorem pay357_apply (v2436 : Vec Ideal S1x1 .f32) :
    k0_pay357 (F := Ideal) v2436 =
      (v2436 (ix2 (0 : Fin 1) (0 : Fin 1))) := by
  first | (unfold k0_pay357; kpay_read) | rfl

theorem pay358_apply (v2438 : Vec Ideal S1x1 .f32) :
    k0_pay358 (F := Ideal) v2438 =
      (v2438 (ix2 (0 : Fin 1) (0 : Fin 1))) := by
  first | (unfold k0_pay358; kpay_read) | rfl

theorem pay359_apply (v502 : FVec Ideal S64x512 .f32) (v504 : FVec Ideal S64x512 .f32) (v2432 : Vec Ideal S1x1 .f32) (v2436 : Vec Ideal S1x1 .f32) (r : Fin 64) (l : Fin 512) :
    k0_pay359 (F := Ideal) v502 v504 v2432 v2436 (ix2 r l) =
      (max (Ideal.ofBits .f32 0x00000000#32) ((min (v504 (ix2 r l)) (k0_pay357 (F := Ideal) v2436)) - (max (v502 (ix2 r l)) (k0_pay355 (F := Ideal) v2432)))) := by
  first | (unfold k0_pay359; kpay_read) | rfl

theorem pay360_apply (v503 : FVec Ideal S64x512 .f32) (v505 : FVec Ideal S64x512 .f32) (v2434 : Vec Ideal S1x1 .f32) (v2438 : Vec Ideal S1x1 .f32) (r : Fin 64) (l : Fin 512) :
    k0_pay360 (F := Ideal) v503 v505 v2434 v2438 (ix2 r l) =
      ((min (v505 (ix2 r l)) (k0_pay358 (F := Ideal) v2438)) - (max (v503 (ix2 r l)) (k0_pay356 (F := Ideal) v2434))) := by
  first | (unfold k0_pay360; kpay_read) | rfl

theorem pay361_apply (v11 : FVec Ideal S64x512 .f32) (v14 : FVec Ideal S64x512 .f32) (v502 : FVec Ideal S64x512 .f32) (v503 : FVec Ideal S64x512 .f32) (v504 : FVec Ideal S64x512 .f32) (v505 : FVec Ideal S64x512 .f32) (v508 : FVec Ideal S64x512 .f32) (v2431 : FVec Ideal S64x512 .f32) (v2433 : Ideal .f32) (v2435 : Ideal .f32) (v2437 : Ideal .f32) (v2439 : Ideal .f32) (v2450 : FVec Ideal S64x512 .f32) (v2451 : FVec Ideal S64x512 .f32) (cst_660 : Ideal .f32) (v2463 : Vec Ideal S1x1 .f32) (v2465 : Vec Ideal S1x1 .f32) (v2467 : Vec Ideal S1x1 .f32) (v2469 : Vec Ideal S1x1 .f32) :
    k0_pay361 (F := Ideal) v11 v14 v502 v503 v504 v505 v508 v2431 v2433 v2435 v2437 v2439 v2450 v2451 cst_660 v2463 v2465 v2467 v2469 (ix2 (0 : Fin 1) (0 : Fin 1)) =
      (∑ r : Fin 64, ∑ l : Fin 512, (((v11 (ix2 r l)) * (v14 (ix2 r l))) * (((v2431 (ix2 r l)) + (Ideal.div ((v2450 (ix2 r l)) * (max cst_660 (v2451 (ix2 r l)))) (((v508 (ix2 r l)) + ((v2437 - v2433) * (v2439 - v2435))) - ((v2450 (ix2 r l)) * (max cst_660 (v2451 (ix2 r l))))))) + (Ideal.div ((max (Ideal.ofBits .f32 0x00000000#32) ((min (v504 (ix2 r l)) (v2467 (ix2 (0 : Fin 1) (0 : Fin 1)))) - (max (v502 (ix2 r l)) (v2463 (ix2 (0 : Fin 1) (0 : Fin 1)))))) * (max (Ideal.ofBits .f32 0x00000000#32) ((min (v505 (ix2 r l)) (v2469 (ix2 (0 : Fin 1) (0 : Fin 1)))) - (max (v503 (ix2 r l)) (v2465 (ix2 (0 : Fin 1) (0 : Fin 1))))))) (((v508 (ix2 r l)) + (((v2467 (ix2 (0 : Fin 1) (0 : Fin 1))) - (v2463 (ix2 (0 : Fin 1) (0 : Fin 1)))) * ((v2469 (ix2 (0 : Fin 1) (0 : Fin 1))) - (v2465 (ix2 (0 : Fin 1) (0 : Fin 1)))))) - ((max (Ideal.ofBits .f32 0x00000000#32) ((min (v504 (ix2 r l)) (v2467 (ix2 (0 : Fin 1) (0 : Fin 1)))) - (max (v502 (ix2 r l)) (v2463 (ix2 (0 : Fin 1) (0 : Fin 1)))))) * (max (Ideal.ofBits .f32 0x00000000#32) ((min (v505 (ix2 r l)) (v2469 (ix2 (0 : Fin 1) (0 : Fin 1)))) - (max (v503 (ix2 r l)) (v2465 (ix2 (0 : Fin 1) (0 : Fin 1)))))))))))) := by
  unfold k0_pay361
  dsimp only
  try simp only [cast11_apply, addf_apply]
  rw [tileSum_apply]
  kpay_read

theorem pay362_apply (v4 : FVec Ideal S1x1 .f32) (v2499 : FVec Ideal S1x1 .f32) :
    k0_pay362 (F := Ideal) v4 v2499 (ix2 (0 : Fin 1) (0 : Fin 1)) =
      ((v4 (ix2 (0 : Fin 1) (0 : Fin 1))) + (v2499 (ix2 (0 : Fin 1) (0 : Fin 1)))) := by
  first | (unfold k0_pay362; kpay_read) | rfl

end Cert.KernelIdeal.KPay

end
-- ==== Proof.KPay.Table5.lean ====
/-
  The payloads k0_pay363 to k0_pay450 of the kernel's body, each read at one index: at row r and lane l of the 64 × 512 tile
  (a scalar payload as it is, a 1 × 1 payload at its one cell), the payload's own operations applied, in its own order,
  to its arguments at that index. A 1 × 1 × 64 × 512 slab is read at (0, 0, r, l), a 1 × 1 load at (0, 0), a payload
  called inside another stays a call at the same index.
-/
import proofs.«157336_j6562710028353_2_alg».proof.Proof.KPay.Ops

noncomputable section

open scoped BigOperators

namespace Cert.KernelIdeal.KPay

open Cert.KernelIdeal Cert.KernelIdeal.Gen
open Idealize.ShloMosaic Idealize.ShloMosaic.ValueIdx

theorem pay363_apply (v2501 : Vec Ideal S1x1x64x512 .f32) (r : Fin 64) (l : Fin 512) :
    k0_pay363 (F := Ideal) v2501 (ix2 r l) =
      (Ideal.logistic (v2501 (ix4 (0 : Fin 1) (0 : Fin 1) r l))) := by
  first | (unfold k0_pay363; kpay_read) | rfl

theorem pay364_apply (v2501 : Vec Ideal S1x1x64x512 .f32) (r : Fin 64) (l : Fin 512) :
    k0_pay364 (F := Ideal) v2501 (ix2 r l) =
      (gtInd (k0_pay363 (F := Ideal) v2501 (ix2 r l)) (Ideal.ofBits .f32 0x3DCCCCCD#32)) := by
  first | (unfold k0_pay364; kpay_read) | rfl

theorem pay365_apply (v2501 : Vec Ideal S1x1x64x512 .f32) (r : Fin 64) (l : Fin 512) :
    k0_pay365 (F := Ideal) v2501 (ix2 r l) =
      (Ideal.log ((Ideal.ofBits .f32 0x3F800000#32) - (k0_pay363 (F := Ideal) v2501 (ix2 r l)))) := by
  first | (unfold k0_pay365; kpay_read) | rfl

theorem pay366_apply (v2511 : Vec Ideal S1x1x64x512 .f32) (r : Fin 64) (l : Fin 512) :
    k0_pay366 (F := Ideal) v2511 (ix2 r l) =
      (v2511 (ix4 (0 : Fin 1) (0 : Fin 1) r l)) := by
  first | (unfold k0_pay366; kpay_read) | rfl

theorem pay367_apply (v2513 : Vec Ideal S1x1x64x512 .f32) (r : Fin 64) (l : Fin 512) :
    k0_pay367 (F := Ideal) v2513 (ix2 r l) =
      (v2513 (ix4 (0 : Fin 1) (0 : Fin 1) r l)) := by
  first | (unfold k0_pay367; kpay_read) | rfl

theorem pay368_apply (v2515 : Vec Ideal S1x1x64x512 .f32) (r : Fin 64) (l : Fin 512) :
    k0_pay368 (F := Ideal) v2515 (ix2 r l) =
      (v2515 (ix4 (0 : Fin 1) (0 : Fin 1) r l)) := by
  first | (unfold k0_pay368; kpay_read) | rfl

theorem pay369_apply (v2517 : Vec Ideal S1x1x64x512 .f32) (r : Fin 64) (l : Fin 512) :
    k0_pay369 (F := Ideal) v2517 (ix2 r l) =
      (v2517 (ix4 (0 : Fin 1) (0 : Fin 1) r l)) := by
  first | (unfold k0_pay369; kpay_read) | rfl

theorem pay370_apply (v2519 : Vec Ideal S1x1x64x512 .f32) (r : Fin 64) (l : Fin 512) :
    k0_pay370 (F := Ideal) v2519 (ix2 r l) =
      (v2519 (ix4 (0 : Fin 1) (0 : Fin 1) r l)) := by
  first | (unfold k0_pay370; kpay_read) | rfl

theorem pay371_apply (v2521 : Vec Ideal S1x1x64x512 .f32) (r : Fin 64) (l : Fin 512) :
    k0_pay371 (F := Ideal) v2521 (ix2 r l) =
      (v2521 (ix4 (0 : Fin 1) (0 : Fin 1) r l)) := by
  first | (unfold k0_pay371; kpay_read) | rfl

theorem pay372_apply (v2523 : Vec Ideal S1x1x64x512 .f32) (r : Fin 64) (l : Fin 512) :
    k0_pay372 (F := Ideal) v2523 (ix2 r l) =
      (v2523 (ix4 (0 : Fin 1) (0 : Fin 1) r l)) := by
  first | (unfold k0_pay372; kpay_read) | rfl

theorem pay373_apply (v2531 : Vec Ideal S1x1x64x512 .f32) (r : Fin 64) (l : Fin 512) :
    k0_pay373 (F := Ideal) v2531 (ix2 r l) =
      (v2531 (ix4 (0 : Fin 1) (0 : Fin 1) r l)) := by
  first | (unfold k0_pay373; kpay_read) | rfl

theorem pay374_apply (v2533 : Vec Ideal S1x1x64x512 .f32) (r : Fin 64) (l : Fin 512) :
    k0_pay374 (F := Ideal) v2533 (ix2 r l) =
      (v2533 (ix4 (0 : Fin 1) (0 : Fin 1) r l)) := by
  first | (unfold k0_pay374; kpay_read) | rfl

theorem pay375_apply (v2535 : Vec Ideal S1x1x64x512 .f32) (r : Fin 64) (l : Fin 512) :
    k0_pay375 (F := Ideal) v2535 (ix2 r l) =
      (v2535 (ix4 (0 : Fin 1) (0 : Fin 1) r l)) := by
  first | (unfold k0_pay375; kpay_read) | rfl

theorem pay376_apply (v2533 : Vec Ideal S1x1x64x512 .f32) (v2535 : Vec Ideal S1x1x64x512 .f32) (r : Fin 64) (l : Fin 512) :
    k0_pay376 (F := Ideal) v2533 v2535 (ix2 r l) =
      (Ideal.sqrt (((k0_pay374 (F := Ideal) v2533 (ix2 r l)) * (k0_pay374 (F := Ideal) v2533 (ix2 r l))) + ((k0_pay375 (F := Ideal) v2535 (ix2 r l)) * (k0_pay375 (F := Ideal) v2535 (ix2 r l))))) := by
  first | (unfold k0_pay376; kpay_read) | rfl

theorem pay377_apply (v2512 : FVec Ideal S64x512 .f32) (v2525 : Vec Ideal S1x1x64x512 .f32) (v2533 : Vec Ideal S1x1x64x512 .f32) (v2535 : Vec Ideal S1x1x64x512 .f32) (r : Fin 64) (l : Fin 512) :
    k0_pay377 (F := Ideal) v2512 v2525 v2533 v2535 (ix2 r l) =
      (((v2512 (ix2 r l)) * (k0_pay376 (F := Ideal) v2533 v2535 (ix2 r l))) + (v2525 (ix4 (0 : Fin 1) (0 : Fin 1) r l))) := by
  first | (unfold k0_pay377; kpay_read) | rfl

theorem pay378_apply (v2514 : FVec Ideal S64x512 .f32) (v2527 : Vec Ideal S1x1x64x512 .f32) (v2533 : Vec Ideal S1x1x64x512 .f32) (v2535 : Vec Ideal S1x1x64x512 .f32) (r : Fin 64) (l : Fin 512) :
    k0_pay378 (F := Ideal) v2514 v2527 v2533 v2535 (ix2 r l) =
      (((v2514 (ix2 r l)) * (k0_pay376 (F := Ideal) v2533 v2535 (ix2 r l))) + (v2527 (ix4 (0 : Fin 1) (0 : Fin 1) r l))) := by
  first | (unfold k0_pay378; kpay_read) | rfl

theorem pay379_apply (v2516 : FVec Ideal S64x512 .f32) (v2529 : Vec Ideal S1x1x64x512 .f32) (v2531 : Vec Ideal S1x1x64x512 .f32) (r : Fin 64) (l : Fin 512) :
    k0_pay379 (F := Ideal) v2516 v2529 v2531 (ix2 r l) =
      (((v2516 (ix2 r l)) * (k0_pay373 (F := Ideal) v2531 (ix2 r l))) + (v2529 (ix4 (0 : Fin 1) (0 : Fin 1) r l))) := by
  first | (unfold k0_pay379; kpay_read) | rfl

theorem pay380_apply (v2518 : FVec Ideal S64x512 .f32) (v2531 : Vec Ideal S1x1x64x512 .f32) (r : Fin 64) (l : Fin 512) :
    k0_pay380 (F := Ideal) v2518 v2531 (ix2 r l) =
      ((Ideal.exp (v2518 (ix2 r l))) * (k0_pay373 (F := Ideal) v2531 (ix2 r l))) := by
  first | (unfold k0_pay380; kpay_read) | rfl

theorem pay381_apply (v2520 : FVec Ideal S64x512 .f32) (v2533 : Vec Ideal S1x1x64x512 .f32) (r : Fin 64) (l : Fin 512) :
    k0_pay381 (F := Ideal) v2520 v2533 (ix2 r l) =
      ((Ideal.exp (v2520 (ix2 r l))) * (k0_pay374 (F := Ideal) v2533 (ix2 r l))) := by
  first | (unfold k0_pay381; kpay_read) | rfl

theorem pay382_apply (v2522 : FVec Ideal S64x512 .f32) (v2535 : Vec Ideal S1x1x64x512 .f32) (r : Fin 64) (l : Fin 512) :
    k0_pay382 (F := Ideal) v2522 v2535 (ix2 r l) =
      ((Ideal.exp (v2522 (ix2 r l))) * (k0_pay375 (F := Ideal) v2535 (ix2 r l))) := by
  first | (unfold k0_pay382; kpay_read) | rfl

theorem pay383_apply (v2524 : FVec Ideal S64x512 .f32) (v2537 : Vec Ideal S1x1x64x512 .f32) (r : Fin 64) (l : Fin 512) :
    k0_pay383 (F := Ideal) v2524 v2537 (ix2 r l) =
      ((v2524 (ix2 r l)) + (v2537 (ix4 (0 : Fin 1) (0 : Fin 1) r l))) := by
  first | (unfold k0_pay383; kpay_read) | rfl

theorem pay384_apply (v2524 : FVec Ideal S64x512 .f32) (v2537 : Vec Ideal S1x1x64x512 .f32) (r : Fin 64) (l : Fin 512) :
    k0_pay384 (F := Ideal) v2524 v2537 (ix2 r l) =
      (Ideal.cos (k0_pay383 (F := Ideal) v2524 v2537 (ix2 r l))) := by
  first | (unfold k0_pay384; kpay_read) | rfl

theorem pay385_apply (v2524 : FVec Ideal S64x512 .f32) (v2537 : Vec Ideal S1x1x64x512 .f32) (r : Fin 64) (l : Fin 512) :
    k0_pay385 (F := Ideal) v2524 v2537 (ix2 r l) =
      (Ideal.sin (k0_pay383 (F := Ideal) v2524 v2537 (ix2 r l))) := by
  first | (unfold k0_pay385; kpay_read) | rfl

theorem pay386_apply  (r : Fin 64) (l : Fin 512) :
    k0_pay386 (F := Ideal) (ix2 r l) =
      (Ideal.ofBits .f32 0x7F800000#32) := by
  first | (unfold k0_pay386; kpay_read) | rfl

theorem pay387_apply  (r : Fin 64) (l : Fin 512) :
    k0_pay387 (F := Ideal) (ix2 r l) =
      (Ideal.ofBits .f32 0x7F800000#32) := by
  first | (unfold k0_pay387; kpay_read) | rfl

theorem pay388_apply  (r : Fin 64) (l : Fin 512) :
    k0_pay388 (F := Ideal) (ix2 r l) =
      (Ideal.ofBits .f32 0xFF800000#32) := by
  first | (unfold k0_pay388; kpay_read) | rfl

theorem pay389_apply  (r : Fin 64) (l : Fin 512) :
    k0_pay389 (F := Ideal) (ix2 r l) =
      (Ideal.ofBits .f32 0xFF800000#32) := by
  first | (unfold k0_pay389; kpay_read) | rfl

theorem pay390_apply (v2554 : FVec Ideal S64x512 .f32) (r : Fin 64) (l : Fin 512) :
    k0_pay390 (F := Ideal) v2554 (ix2 r l) =
      ((Ideal.ofBits .f32 0x3F000000#32) * (v2554 (ix2 r l))) := by
  first | (unfold k0_pay390; kpay_read) | rfl

theorem pay391_apply (v2552 : FVec Ideal S64x512 .f32) (r : Fin 64) (l : Fin 512) :
    k0_pay391 (F := Ideal) v2552 (ix2 r l) =
      ((Ideal.ofBits .f32 0x3F000000#32) * (v2552 (ix2 r l))) := by
  first | (unfold k0_pay391; kpay_read) | rfl

theorem pay392_apply (v2544 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay392 (F := Ideal) v2544 v2552 v2554 v2556 v2557 (ix2 r l) =
      ((((k0_pay390 (F := Ideal) v2554 (ix2 r l)) * (v2556 (ix2 r l))) - ((k0_pay391 (F := Ideal) v2552 (ix2 r l)) * (v2557 (ix2 r l)))) + (v2544 (ix2 r l))) := by
  first | (unfold k0_pay392; kpay_read) | rfl

theorem pay393_apply (v2546 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay393 (F := Ideal) v2546 v2552 v2554 v2556 v2557 (ix2 r l) =
      ((((k0_pay390 (F := Ideal) v2554 (ix2 r l)) * (v2557 (ix2 r l))) + ((k0_pay391 (F := Ideal) v2552 (ix2 r l)) * (v2556 (ix2 r l)))) + (v2546 (ix2 r l))) := by
  first | (unfold k0_pay393; kpay_read) | rfl

theorem pay394_apply (v2548 : FVec Ideal S64x512 .f32) (v2550 : FVec Ideal S64x512 .f32) (r : Fin 64) (l : Fin 512) :
    k0_pay394 (F := Ideal) v2548 v2550 (ix2 r l) =
      (((Ideal.ofBits .f32 0xBF000000#32) * (v2550 (ix2 r l))) + (v2548 (ix2 r l))) := by
  first | (unfold k0_pay394; kpay_read) | rfl

theorem pay395_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay395 (F := Ideal) v3 v2544 v2546 v2548 v2550 v2552 v2554 v2556 v2557 (ix2 r l) =
      (((((v3 (ix2 (0 : Fin 4) (0 : Fin 4))) * (k0_pay392 (F := Ideal) v2544 v2552 v2554 v2556 v2557 (ix2 r l))) + ((v3 (ix2 (0 : Fin 4) (1 : Fin 4))) * (k0_pay393 (F := Ideal) v2546 v2552 v2554 v2556 v2557 (ix2 r l)))) + ((v3 (ix2 (0 : Fin 4) (2 : Fin 4))) * (k0_pay394 (F := Ideal) v2548 v2550 (ix2 r l)))) + (v3 (ix2 (0 : Fin 4) (3 : Fin 4)))) := by
  first | (unfold k0_pay395; kpay_read) | rfl

theorem pay396_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay396 (F := Ideal) v3 v2544 v2546 v2548 v2550 v2552 v2554 v2556 v2557 (ix2 r l) =
      ((((v3 (ix2 (1 : Fin 4) (0 : Fin 4))) * (k0_pay392 (F := Ideal) v2544 v2552 v2554 v2556 v2557 (ix2 r l))) + ((v3 (ix2 (1 : Fin 4) (1 : Fin 4))) * (k0_pay393 (F := Ideal) v2546 v2552 v2554 v2556 v2557 (ix2 r l)))) + ((v3 (ix2 (1 : Fin 4) (2 : Fin 4))) * (k0_pay394 (F := Ideal) v2548 v2550 (ix2 r l)))) := by
  first | (unfold k0_pay396; kpay_read) | rfl

theorem pay397_apply (v3 : Vec Ideal S4x4 .f32) :
    k0_pay397 (F := Ideal) v3 =
      (v3 (ix2 (1 : Fin 4) (3 : Fin 4))) := by
  first | (unfold k0_pay397; kpay_read) | rfl

theorem pay398_apply (v2608 : FVec Ideal S64x512 .f32) (v2610 : Ideal .f32) (r : Fin 64) (l : Fin 512) :
    k0_pay398 (F := Ideal) v2608 v2610 (ix2 r l) =
      ((v2608 (ix2 r l)) + v2610) := by
  first | (unfold k0_pay398; kpay_read) | rfl

theorem pay399_apply (v2558 : FVec Ideal S64x512 .f32) (v2594 : FVec Ideal S64x512 .f32) (r : Fin 64) (l : Fin 512) :
    k0_pay399 (F := Ideal) v2558 v2594 (ix2 r l) =
      (min (v2558 (ix2 r l)) (v2594 (ix2 r l))) := by
  first | (unfold k0_pay399; kpay_read) | rfl

theorem pay400_apply (v2559 : FVec Ideal S64x512 .f32) (v2608 : FVec Ideal S64x512 .f32) (v2610 : Ideal .f32) (r : Fin 64) (l : Fin 512) :
    k0_pay400 (F := Ideal) v2559 v2608 v2610 (ix2 r l) =
      (min (v2559 (ix2 r l)) (k0_pay398 (F := Ideal) v2608 v2610 (ix2 r l))) := by
  first | (unfold k0_pay400; kpay_read) | rfl

theorem pay401_apply (v2560 : FVec Ideal S64x512 .f32) (v2594 : FVec Ideal S64x512 .f32) (r : Fin 64) (l : Fin 512) :
    k0_pay401 (F := Ideal) v2560 v2594 (ix2 r l) =
      (max (v2560 (ix2 r l)) (v2594 (ix2 r l))) := by
  first | (unfold k0_pay401; kpay_read) | rfl

theorem pay402_apply (v2561 : FVec Ideal S64x512 .f32) (v2608 : FVec Ideal S64x512 .f32) (v2610 : Ideal .f32) (r : Fin 64) (l : Fin 512) :
    k0_pay402 (F := Ideal) v2561 v2608 v2610 (ix2 r l) =
      (max (v2561 (ix2 r l)) (k0_pay398 (F := Ideal) v2608 v2610 (ix2 r l))) := by
  first | (unfold k0_pay402; kpay_read) | rfl

theorem pay403_apply (v2554 : FVec Ideal S64x512 .f32) (r : Fin 64) (l : Fin 512) :
    k0_pay403 (F := Ideal) v2554 (ix2 r l) =
      ((Ideal.ofBits .f32 0x3F000000#32) * (v2554 (ix2 r l))) := by
  first | (unfold k0_pay403; kpay_read) | rfl

theorem pay404_apply (v2552 : FVec Ideal S64x512 .f32) (r : Fin 64) (l : Fin 512) :
    k0_pay404 (F := Ideal) v2552 (ix2 r l) =
      ((Ideal.ofBits .f32 0xBF000000#32) * (v2552 (ix2 r l))) := by
  first | (unfold k0_pay404; kpay_read) | rfl

theorem pay405_apply (v2544 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay405 (F := Ideal) v2544 v2552 v2554 v2556 v2557 (ix2 r l) =
      ((((k0_pay403 (F := Ideal) v2554 (ix2 r l)) * (v2556 (ix2 r l))) - ((k0_pay404 (F := Ideal) v2552 (ix2 r l)) * (v2557 (ix2 r l)))) + (v2544 (ix2 r l))) := by
  first | (unfold k0_pay405; kpay_read) | rfl

theorem pay406_apply (v2546 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay406 (F := Ideal) v2546 v2552 v2554 v2556 v2557 (ix2 r l) =
      ((((k0_pay403 (F := Ideal) v2554 (ix2 r l)) * (v2557 (ix2 r l))) + ((k0_pay404 (F := Ideal) v2552 (ix2 r l)) * (v2556 (ix2 r l)))) + (v2546 (ix2 r l))) := by
  first | (unfold k0_pay406; kpay_read) | rfl

theorem pay407_apply (v2548 : FVec Ideal S64x512 .f32) (v2550 : FVec Ideal S64x512 .f32) (r : Fin 64) (l : Fin 512) :
    k0_pay407 (F := Ideal) v2548 v2550 (ix2 r l) =
      (((Ideal.ofBits .f32 0xBF000000#32) * (v2550 (ix2 r l))) + (v2548 (ix2 r l))) := by
  first | (unfold k0_pay407; kpay_read) | rfl

theorem pay408_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay408 (F := Ideal) v3 v2544 v2546 v2548 v2550 v2552 v2554 v2556 v2557 (ix2 r l) =
      (((((v3 (ix2 (0 : Fin 4) (0 : Fin 4))) * (k0_pay405 (F := Ideal) v2544 v2552 v2554 v2556 v2557 (ix2 r l))) + ((v3 (ix2 (0 : Fin 4) (1 : Fin 4))) * (k0_pay406 (F := Ideal) v2546 v2552 v2554 v2556 v2557 (ix2 r l)))) + ((v3 (ix2 (0 : Fin 4) (2 : Fin 4))) * (k0_pay407 (F := Ideal) v2548 v2550 (ix2 r l)))) + (v3 (ix2 (0 : Fin 4) (3 : Fin 4)))) := by
  first | (unfold k0_pay408; kpay_read) | rfl

theorem pay409_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay409 (F := Ideal) v3 v2544 v2546 v2548 v2550 v2552 v2554 v2556 v2557 (ix2 r l) =
      (((((v3 (ix2 (1 : Fin 4) (0 : Fin 4))) * (k0_pay405 (F := Ideal) v2544 v2552 v2554 v2556 v2557 (ix2 r l))) + ((v3 (ix2 (1 : Fin 4) (1 : Fin 4))) * (k0_pay406 (F := Ideal) v2546 v2552 v2554 v2556 v2557 (ix2 r l)))) + ((v3 (ix2 (1 : Fin 4) (2 : Fin 4))) * (k0_pay407 (F := Ideal) v2548 v2550 (ix2 r l)))) + (v3 (ix2 (1 : Fin 4) (3 : Fin 4)))) := by
  first | (unfold k0_pay409; kpay_read) | rfl

theorem pay410_apply (v2615 : FVec Ideal S64x512 .f32) (v2649 : FVec Ideal S64x512 .f32) (r : Fin 64) (l : Fin 512) :
    k0_pay410 (F := Ideal) v2615 v2649 (ix2 r l) =
      (max (v2615 (ix2 r l)) (v2649 (ix2 r l))) := by
  first | (unfold k0_pay410; kpay_read) | rfl

theorem pay411_apply (v2616 : FVec Ideal S64x512 .f32) (v2667 : FVec Ideal S64x512 .f32) (r : Fin 64) (l : Fin 512) :
    k0_pay411 (F := Ideal) v2616 v2667 (ix2 r l) =
      (max (v2616 (ix2 r l)) (v2667 (ix2 r l))) := by
  first | (unfold k0_pay411; kpay_read) | rfl

theorem pay412_apply (v2554 : FVec Ideal S64x512 .f32) (r : Fin 64) (l : Fin 512) :
    k0_pay412 (F := Ideal) v2554 (ix2 r l) =
      ((Ideal.ofBits .f32 0xBF000000#32) * (v2554 (ix2 r l))) := by
  first | (unfold k0_pay412; kpay_read) | rfl

theorem pay413_apply (v2552 : FVec Ideal S64x512 .f32) (r : Fin 64) (l : Fin 512) :
    k0_pay413 (F := Ideal) v2552 (ix2 r l) =
      ((Ideal.ofBits .f32 0xBF000000#32) * (v2552 (ix2 r l))) := by
  first | (unfold k0_pay413; kpay_read) | rfl

theorem pay414_apply (v2544 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay414 (F := Ideal) v2544 v2552 v2554 v2556 v2557 (ix2 r l) =
      ((((k0_pay412 (F := Ideal) v2554 (ix2 r l)) * (v2556 (ix2 r l))) - ((k0_pay413 (F := Ideal) v2552 (ix2 r l)) * (v2557 (ix2 r l)))) + (v2544 (ix2 r l))) := by
  first | (unfold k0_pay414; kpay_read) | rfl

theorem pay415_apply (v2546 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay415 (F := Ideal) v2546 v2552 v2554 v2556 v2557 (ix2 r l) =
      ((((k0_pay412 (F := Ideal) v2554 (ix2 r l)) * (v2557 (ix2 r l))) + ((k0_pay413 (F := Ideal) v2552 (ix2 r l)) * (v2556 (ix2 r l)))) + (v2546 (ix2 r l))) := by
  first | (unfold k0_pay415; kpay_read) | rfl

theorem pay416_apply (v2548 : FVec Ideal S64x512 .f32) (v2550 : FVec Ideal S64x512 .f32) (r : Fin 64) (l : Fin 512) :
    k0_pay416 (F := Ideal) v2548 v2550 (ix2 r l) =
      (((Ideal.ofBits .f32 0xBF000000#32) * (v2550 (ix2 r l))) + (v2548 (ix2 r l))) := by
  first | (unfold k0_pay416; kpay_read) | rfl

theorem pay417_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay417 (F := Ideal) v3 v2544 v2546 v2548 v2550 v2552 v2554 v2556 v2557 (ix2 r l) =
      (((((v3 (ix2 (0 : Fin 4) (0 : Fin 4))) * (k0_pay414 (F := Ideal) v2544 v2552 v2554 v2556 v2557 (ix2 r l))) + ((v3 (ix2 (0 : Fin 4) (1 : Fin 4))) * (k0_pay415 (F := Ideal) v2546 v2552 v2554 v2556 v2557 (ix2 r l)))) + ((v3 (ix2 (0 : Fin 4) (2 : Fin 4))) * (k0_pay416 (F := Ideal) v2548 v2550 (ix2 r l)))) + (v3 (ix2 (0 : Fin 4) (3 : Fin 4)))) := by
  first | (unfold k0_pay417; kpay_read) | rfl

theorem pay418_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay418 (F := Ideal) v3 v2544 v2546 v2548 v2550 v2552 v2554 v2556 v2557 (ix2 r l) =
      (((((v3 (ix2 (1 : Fin 4) (0 : Fin 4))) * (k0_pay414 (F := Ideal) v2544 v2552 v2554 v2556 v2557 (ix2 r l))) + ((v3 (ix2 (1 : Fin 4) (1 : Fin 4))) * (k0_pay415 (F := Ideal) v2546 v2552 v2554 v2556 v2557 (ix2 r l)))) + ((v3 (ix2 (1 : Fin 4) (2 : Fin 4))) * (k0_pay416 (F := Ideal) v2548 v2550 (ix2 r l)))) + (v3 (ix2 (1 : Fin 4) (3 : Fin 4)))) := by
  first | (unfold k0_pay418; kpay_read) | rfl

theorem pay419_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (v2613 : FVec Ideal S64x512 .f32) (v2649 : FVec Ideal S64x512 .f32) (r : Fin 64) (l : Fin 512) :
    k0_pay419 (F := Ideal) v3 v2544 v2546 v2548 v2550 v2552 v2554 v2556 v2557 v2613 v2649 (ix2 r l) =
      (min (min (v2613 (ix2 r l)) (v2649 (ix2 r l))) (k0_pay417 (F := Ideal) v3 v2544 v2546 v2548 v2550 v2552 v2554 v2556 v2557 (ix2 r l))) := by
  first | (unfold k0_pay419; kpay_read) | rfl

theorem pay420_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (v2614 : FVec Ideal S64x512 .f32) (v2667 : FVec Ideal S64x512 .f32) (r : Fin 64) (l : Fin 512) :
    k0_pay420 (F := Ideal) v3 v2544 v2546 v2548 v2550 v2552 v2554 v2556 v2557 v2614 v2667 (ix2 r l) =
      (min (min (v2614 (ix2 r l)) (v2667 (ix2 r l))) (k0_pay418 (F := Ideal) v3 v2544 v2546 v2548 v2550 v2552 v2554 v2556 v2557 (ix2 r l))) := by
  first | (unfold k0_pay420; kpay_read) | rfl

theorem pay421_apply (v2554 : FVec Ideal S64x512 .f32) (r : Fin 64) (l : Fin 512) :
    k0_pay421 (F := Ideal) v2554 (ix2 r l) =
      ((Ideal.ofBits .f32 0xBF000000#32) * (v2554 (ix2 r l))) := by
  first | (unfold k0_pay421; kpay_read) | rfl

theorem pay422_apply (v2552 : FVec Ideal S64x512 .f32) (r : Fin 64) (l : Fin 512) :
    k0_pay422 (F := Ideal) v2552 (ix2 r l) =
      ((Ideal.ofBits .f32 0x3F000000#32) * (v2552 (ix2 r l))) := by
  first | (unfold k0_pay422; kpay_read) | rfl

theorem pay423_apply (v2544 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay423 (F := Ideal) v2544 v2552 v2554 v2556 v2557 (ix2 r l) =
      ((((k0_pay421 (F := Ideal) v2554 (ix2 r l)) * (v2556 (ix2 r l))) - ((k0_pay422 (F := Ideal) v2552 (ix2 r l)) * (v2557 (ix2 r l)))) + (v2544 (ix2 r l))) := by
  first | (unfold k0_pay423; kpay_read) | rfl

theorem pay424_apply (v2546 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay424 (F := Ideal) v2546 v2552 v2554 v2556 v2557 (ix2 r l) =
      ((((k0_pay421 (F := Ideal) v2554 (ix2 r l)) * (v2557 (ix2 r l))) + ((k0_pay422 (F := Ideal) v2552 (ix2 r l)) * (v2556 (ix2 r l)))) + (v2546 (ix2 r l))) := by
  first | (unfold k0_pay424; kpay_read) | rfl

theorem pay425_apply (v2548 : FVec Ideal S64x512 .f32) (v2550 : FVec Ideal S64x512 .f32) (r : Fin 64) (l : Fin 512) :
    k0_pay425 (F := Ideal) v2548 v2550 (ix2 r l) =
      (((Ideal.ofBits .f32 0xBF000000#32) * (v2550 (ix2 r l))) + (v2548 (ix2 r l))) := by
  first | (unfold k0_pay425; kpay_read) | rfl

theorem pay426_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay426 (F := Ideal) v3 v2544 v2546 v2548 v2550 v2552 v2554 v2556 v2557 (ix2 r l) =
      (((((v3 (ix2 (0 : Fin 4) (0 : Fin 4))) * (k0_pay423 (F := Ideal) v2544 v2552 v2554 v2556 v2557 (ix2 r l))) + ((v3 (ix2 (0 : Fin 4) (1 : Fin 4))) * (k0_pay424 (F := Ideal) v2546 v2552 v2554 v2556 v2557 (ix2 r l)))) + ((v3 (ix2 (0 : Fin 4) (2 : Fin 4))) * (k0_pay425 (F := Ideal) v2548 v2550 (ix2 r l)))) + (v3 (ix2 (0 : Fin 4) (3 : Fin 4)))) := by
  first | (unfold k0_pay426; kpay_read) | rfl

theorem pay427_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay427 (F := Ideal) v3 v2544 v2546 v2548 v2550 v2552 v2554 v2556 v2557 (ix2 r l) =
      (((((v3 (ix2 (1 : Fin 4) (0 : Fin 4))) * (k0_pay423 (F := Ideal) v2544 v2552 v2554 v2556 v2557 (ix2 r l))) + ((v3 (ix2 (1 : Fin 4) (1 : Fin 4))) * (k0_pay424 (F := Ideal) v2546 v2552 v2554 v2556 v2557 (ix2 r l)))) + ((v3 (ix2 (1 : Fin 4) (2 : Fin 4))) * (k0_pay425 (F := Ideal) v2548 v2550 (ix2 r l)))) + (v3 (ix2 (1 : Fin 4) (3 : Fin 4)))) := by
  first | (unfold k0_pay427; kpay_read) | rfl

theorem pay428_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (v2723 : FVec Ideal S64x512 .f32) (r : Fin 64) (l : Fin 512) :
    k0_pay428 (F := Ideal) v3 v2544 v2546 v2548 v2550 v2552 v2554 v2556 v2557 v2723 (ix2 r l) =
      (min (v2723 (ix2 r l)) (k0_pay426 (F := Ideal) v3 v2544 v2546 v2548 v2550 v2552 v2554 v2556 v2557 (ix2 r l))) := by
  first | (unfold k0_pay428; kpay_read) | rfl

theorem pay429_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (v2724 : FVec Ideal S64x512 .f32) (r : Fin 64) (l : Fin 512) :
    k0_pay429 (F := Ideal) v3 v2544 v2546 v2548 v2550 v2552 v2554 v2556 v2557 v2724 (ix2 r l) =
      (min (v2724 (ix2 r l)) (k0_pay427 (F := Ideal) v3 v2544 v2546 v2548 v2550 v2552 v2554 v2556 v2557 (ix2 r l))) := by
  first | (unfold k0_pay429; kpay_read) | rfl

theorem pay430_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (v2670 : FVec Ideal S64x512 .f32) (v2704 : FVec Ideal S64x512 .f32) (r : Fin 64) (l : Fin 512) :
    k0_pay430 (F := Ideal) v3 v2544 v2546 v2548 v2550 v2552 v2554 v2556 v2557 v2670 v2704 (ix2 r l) =
      (max (max (v2670 (ix2 r l)) (v2704 (ix2 r l))) (k0_pay426 (F := Ideal) v3 v2544 v2546 v2548 v2550 v2552 v2554 v2556 v2557 (ix2 r l))) := by
  first | (unfold k0_pay430; kpay_read) | rfl

theorem pay431_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (v2671 : FVec Ideal S64x512 .f32) (v2722 : FVec Ideal S64x512 .f32) (r : Fin 64) (l : Fin 512) :
    k0_pay431 (F := Ideal) v3 v2544 v2546 v2548 v2550 v2552 v2554 v2556 v2557 v2671 v2722 (ix2 r l) =
      (max (max (v2671 (ix2 r l)) (v2722 (ix2 r l))) (k0_pay427 (F := Ideal) v3 v2544 v2546 v2548 v2550 v2552 v2554 v2556 v2557 (ix2 r l))) := by
  first | (unfold k0_pay431; kpay_read) | rfl

theorem pay432_apply (v2554 : FVec Ideal S64x512 .f32) (r : Fin 64) (l : Fin 512) :
    k0_pay432 (F := Ideal) v2554 (ix2 r l) =
      ((Ideal.ofBits .f32 0x3F000000#32) * (v2554 (ix2 r l))) := by
  first | (unfold k0_pay432; kpay_read) | rfl

theorem pay433_apply (v2552 : FVec Ideal S64x512 .f32) (r : Fin 64) (l : Fin 512) :
    k0_pay433 (F := Ideal) v2552 (ix2 r l) =
      ((Ideal.ofBits .f32 0x3F000000#32) * (v2552 (ix2 r l))) := by
  first | (unfold k0_pay433; kpay_read) | rfl

theorem pay434_apply (v2544 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay434 (F := Ideal) v2544 v2552 v2554 v2556 v2557 (ix2 r l) =
      ((((k0_pay432 (F := Ideal) v2554 (ix2 r l)) * (v2556 (ix2 r l))) - ((k0_pay433 (F := Ideal) v2552 (ix2 r l)) * (v2557 (ix2 r l)))) + (v2544 (ix2 r l))) := by
  first | (unfold k0_pay434; kpay_read) | rfl

theorem pay435_apply (v2546 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay435 (F := Ideal) v2546 v2552 v2554 v2556 v2557 (ix2 r l) =
      ((((k0_pay432 (F := Ideal) v2554 (ix2 r l)) * (v2557 (ix2 r l))) + ((k0_pay433 (F := Ideal) v2552 (ix2 r l)) * (v2556 (ix2 r l)))) + (v2546 (ix2 r l))) := by
  first | (unfold k0_pay435; kpay_read) | rfl

theorem pay436_apply (v2548 : FVec Ideal S64x512 .f32) (v2550 : FVec Ideal S64x512 .f32) (r : Fin 64) (l : Fin 512) :
    k0_pay436 (F := Ideal) v2548 v2550 (ix2 r l) =
      (((Ideal.ofBits .f32 0x3F000000#32) * (v2550 (ix2 r l))) + (v2548 (ix2 r l))) := by
  first | (unfold k0_pay436; kpay_read) | rfl

theorem pay437_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay437 (F := Ideal) v3 v2544 v2546 v2548 v2550 v2552 v2554 v2556 v2557 (ix2 r l) =
      (((((v3 (ix2 (0 : Fin 4) (0 : Fin 4))) * (k0_pay434 (F := Ideal) v2544 v2552 v2554 v2556 v2557 (ix2 r l))) + ((v3 (ix2 (0 : Fin 4) (1 : Fin 4))) * (k0_pay435 (F := Ideal) v2546 v2552 v2554 v2556 v2557 (ix2 r l)))) + ((v3 (ix2 (0 : Fin 4) (2 : Fin 4))) * (k0_pay436 (F := Ideal) v2548 v2550 (ix2 r l)))) + (v3 (ix2 (0 : Fin 4) (3 : Fin 4)))) := by
  first | (unfold k0_pay437; kpay_read) | rfl

theorem pay438_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (r : Fin 64) (l : Fin 512) :
    k0_pay438 (F := Ideal) v3 v2544 v2546 v2548 v2550 v2552 v2554 v2556 v2557 (ix2 r l) =
      (((((v3 (ix2 (1 : Fin 4) (0 : Fin 4))) * (k0_pay434 (F := Ideal) v2544 v2552 v2554 v2556 v2557 (ix2 r l))) + ((v3 (ix2 (1 : Fin 4) (1 : Fin 4))) * (k0_pay435 (F := Ideal) v2546 v2552 v2554 v2556 v2557 (ix2 r l)))) + ((v3 (ix2 (1 : Fin 4) (2 : Fin 4))) * (k0_pay436 (F := Ideal) v2548 v2550 (ix2 r l)))) + (v3 (ix2 (1 : Fin 4) (3 : Fin 4)))) := by
  first | (unfold k0_pay438; kpay_read) | rfl

theorem pay439_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (v2778 : FVec Ideal S64x512 .f32) (r : Fin 64) (l : Fin 512) :
    k0_pay439 (F := Ideal) v3 v2544 v2546 v2548 v2550 v2552 v2554 v2556 v2557 v2778 (ix2 r l) =
      (min (v2778 (ix2 r l)) (k0_pay437 (F := Ideal) v3 v2544 v2546 v2548 v2550 v2552 v2554 v2556 v2557 (ix2 r l))) := by
  first | (unfold k0_pay439; kpay_read) | rfl

theorem pay440_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (v2779 : FVec Ideal S64x512 .f32) (r : Fin 64) (l : Fin 512) :
    k0_pay440 (F := Ideal) v3 v2544 v2546 v2548 v2550 v2552 v2554 v2556 v2557 v2779 (ix2 r l) =
      (min (v2779 (ix2 r l)) (k0_pay438 (F := Ideal) v3 v2544 v2546 v2548 v2550 v2552 v2554 v2556 v2557 (ix2 r l))) := by
  first | (unfold k0_pay440; kpay_read) | rfl

theorem pay441_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (v2780 : FVec Ideal S64x512 .f32) (r : Fin 64) (l : Fin 512) :
    k0_pay441 (F := Ideal) v3 v2544 v2546 v2548 v2550 v2552 v2554 v2556 v2557 v2780 (ix2 r l) =
      (max (v2780 (ix2 r l)) (k0_pay437 (F := Ideal) v3 v2544 v2546 v2548 v2550 v2552 v2554 v2556 v2557 (ix2 r l))) := by
  first | (unfold k0_pay441; kpay_read) | rfl

theorem pay442_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (v2781 : FVec Ideal S64x512 .f32) (r : Fin 64) (l : Fin 512) :
    k0_pay442 (F := Ideal) v3 v2544 v2546 v2548 v2550 v2552 v2554 v2556 v2557 v2781 (ix2 r l) =
      (max (v2781 (ix2 r l)) (k0_pay438 (F := Ideal) v3 v2544 v2546 v2548 v2550 v2552 v2554 v2556 v2557 (ix2 r l))) := by
  first | (unfold k0_pay442; kpay_read) | rfl

theorem pay443_apply  (r : Fin 64) (l : Fin 512) :
    k0_pay443 (F := Ideal) (ix2 r l) =
      (Ideal.ofBits .f32 0x3F000000#32) := by
  first | (unfold k0_pay443; kpay_read) | rfl

theorem pay444_apply (v2554 : FVec Ideal S64x512 .f32) (v2837 : FVec Ideal S64x512 .f32) (r : Fin 64) (l : Fin 512) :
    k0_pay444 (F := Ideal) v2554 v2837 (ix2 r l) =
      ((v2837 (ix2 r l)) * (v2554 (ix2 r l))) := by
  first | (unfold k0_pay444; kpay_read) | rfl

theorem pay445_apply (v2552 : FVec Ideal S64x512 .f32) (r : Fin 64) (l : Fin 512) :
    k0_pay445 (F := Ideal) v2552 (ix2 r l) =
      ((Ideal.ofBits .f32 0xBF000000#32) * (v2552 (ix2 r l))) := by
  first | (unfold k0_pay445; kpay_read) | rfl

theorem pay446_apply (v2544 : FVec Ideal S64x512 .f32) (v2552 : FVec Ideal S64x512 .f32) (v2554 : FVec Ideal S64x512 .f32) (v2556 : FVec Ideal S64x512 .f32) (v2557 : FVec Ideal S64x512 .f32) (v2837 : FVec Ideal S64x512 .f32) (r : Fin 64) (l : Fin 512) :
    k0_pay446 (F := Ideal) v2544 v2552 v2554 v2556 v2557 v2837 (ix2 r l) =
      ((((k0_pay444 (F := Ideal) v2554 v2837 (ix2 r l)) * (v2556 (ix2 r l))) - ((k0_pay445 (F := Ideal) v2552 (ix2 r l)) * (v2557 (ix2 r l)))) + (v2544 (ix2 r l))) := by
  first | (unfold k0_pay446; kpay_read) | rfl

theorem pay447_apply (v2546 : FVec Ideal S64x512 .f32) (v2552 : FVec Ideal S64x512 .f32) (v2554 : FVec Ideal S64x512 .f32) (v2556 : FVec Ideal S64x512 .f32) (v2557 : FVec Ideal S64x512 .f32) (v2837 : FVec Ideal S64x512 .f32) (r : Fin 64) (l : Fin 512) :
    k0_pay447 (F := Ideal) v2546 v2552 v2554 v2556 v2557 v2837 (ix2 r l) =
      ((((k0_pay444 (F := Ideal) v2554 v2837 (ix2 r l)) * (v2557 (ix2 r l))) + ((k0_pay445 (F := Ideal) v2552 (ix2 r l)) * (v2556 (ix2 r l)))) + (v2546 (ix2 r l))) := by
  first | (unfold k0_pay447; kpay_read) | rfl

theorem pay448_apply (v2548 : FVec Ideal S64x512 .f32) (v2550 : FVec Ideal S64x512 .f32) (r : Fin 64) (l : Fin 512) :
    k0_pay448 (F := Ideal) v2548 v2550 (ix2 r l) =
      (((Ideal.ofBits .f32 0x3F000000#32) * (v2550 (ix2 r l))) + (v2548 (ix2 r l))) := by
  first | (unfold k0_pay448; kpay_read) | rfl

theorem pay449_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (v2837 : FVec Ideal S64x512 .f32) (r : Fin 64) (l : Fin 512) :
    k0_pay449 (F := Ideal) v3 v2544 v2546 v2548 v2550 v2552 v2554 v2556 v2557 v2837 (ix2 r l) =
      (((((v3 (ix2 (0 : Fin 4) (0 : Fin 4))) * (k0_pay446 (F := Ideal) v2544 v2552 v2554 v2556 v2557 v2837 (ix2 r l))) + ((v3 (ix2 (0 : Fin 4) (1 : Fin 4))) * (k0_pay447 (F := Ideal) v2546 v2552 v2554 v2556 v2557 v2837 (ix2 r l)))) + ((v3 (ix2 (0 : Fin 4) (2 : Fin 4))) * (k0_pay448 (F := Ideal) v2548 v2550 (ix2 r l)))) + (v3 (ix2 (0 : Fin 4) (3 : Fin 4)))) := by
  first | (unfold k0_pay449; kpay_read) | rfl

theorem pay450_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (v2837 : FVec Ideal S64x512 .f32) (r : Fin 64) (l : Fin 512) :
    k0_pay450 (F := Ideal) v3 v2544 v2546 v2548 v2550 v2552 v2554 v2556 v2557 v2837 (ix2 r l) =
      (((((v3 (ix2 (1 : Fin 4) (0 : Fin 4))) * (k0_pay446 (F := Ideal) v2544 v2552 v2554 v2556 v2557 v2837 (ix2 r l))) + ((v3 (ix2 (1 : Fin 4) (1 : Fin 4))) * (k0_pay447 (F := Ideal) v2546 v2552 v2554 v2556 v2557 v2837 (ix2 r l)))) + ((v3 (ix2 (1 : Fin 4) (2 : Fin 4))) * (k0_pay448 (F := Ideal) v2548 v2550 (ix2 r l)))) + (v3 (ix2 (1 : Fin 4) (3 : Fin 4)))) := by
  first | (unfold k0_pay450; kpay_read) | rfl

end Cert.KernelIdeal.KPay

end
-- ==== Proof.KPay.Table6.lean ====
/-
  The payloads k0_pay451 to k0_pay540 of the kernel's body, each read at one index: at row r and lane l of the 64 × 512 tile
  (a scalar payload as it is, a 1 × 1 payload at its one cell), the payload's own operations applied, in its own order,
  to its arguments at that index. A 1 × 1 × 64 × 512 slab is read at (0, 0, r, l), a 1 × 1 load at (0, 0), a payload
  called inside another stays a call at the same index.
-/
import proofs.«157336_j6562710028353_2_alg».proof.Proof.KPay.Ops

noncomputable section

open scoped BigOperators

namespace Cert.KernelIdeal.KPay

open Cert.KernelIdeal Cert.KernelIdeal.Gen
open Idealize.ShloMosaic Idealize.ShloMosaic.ValueIdx

theorem pay451_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (v2833 : FVec Ideal S64x512 .f32) (v2837 : FVec Ideal S64x512 .f32) (r : Fin 64) (l : Fin 512) :
    k0_pay451 (F := Ideal) v3 v2544 v2546 v2548 v2550 v2552 v2554 v2556 v2557 v2833 v2837 (ix2 r l) =
      (min (v2833 (ix2 r l)) (k0_pay449 (F := Ideal) v3 v2544 v2546 v2548 v2550 v2552 v2554 v2556 v2557 v2837 (ix2 r l))) := by
  first | (unfold k0_pay451; kpay_read) | rfl

theorem pay452_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (v2834 : FVec Ideal S64x512 .f32) (v2837 : FVec Ideal S64x512 .f32) (r : Fin 64) (l : Fin 512) :
    k0_pay452 (F := Ideal) v3 v2544 v2546 v2548 v2550 v2552 v2554 v2556 v2557 v2834 v2837 (ix2 r l) =
      (min (v2834 (ix2 r l)) (k0_pay450 (F := Ideal) v3 v2544 v2546 v2548 v2550 v2552 v2554 v2556 v2557 v2837 (ix2 r l))) := by
  first | (unfold k0_pay452; kpay_read) | rfl

theorem pay453_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (v2835 : FVec Ideal S64x512 .f32) (v2837 : FVec Ideal S64x512 .f32) (r : Fin 64) (l : Fin 512) :
    k0_pay453 (F := Ideal) v3 v2544 v2546 v2548 v2550 v2552 v2554 v2556 v2557 v2835 v2837 (ix2 r l) =
      (max (v2835 (ix2 r l)) (k0_pay449 (F := Ideal) v3 v2544 v2546 v2548 v2550 v2552 v2554 v2556 v2557 v2837 (ix2 r l))) := by
  first | (unfold k0_pay453; kpay_read) | rfl

theorem pay454_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2554 : FVec Ideal S64x512 .f32) (v2556 : FVec Ideal S64x512 .f32) (v2557 : FVec Ideal S64x512 .f32) (v2836 : FVec Ideal S64x512 .f32) (v2837 : FVec Ideal S64x512 .f32) (r : Fin 64) (l : Fin 512) :
    k0_pay454 (F := Ideal) v3 v2544 v2546 v2548 v2550 v2552 v2554 v2556 v2557 v2836 v2837 (ix2 r l) =
      (max (v2836 (ix2 r l)) (k0_pay450 (F := Ideal) v3 v2544 v2546 v2548 v2550 v2552 v2554 v2556 v2557 v2837 (ix2 r l))) := by
  first | (unfold k0_pay454; kpay_read) | rfl

theorem pay455_apply (v2554 : FVec Ideal S64x512 .f32) (r : Fin 64) (l : Fin 512) :
    k0_pay455 (F := Ideal) v2554 (ix2 r l) =
      ((Ideal.ofBits .f32 0xBF000000#32) * (v2554 (ix2 r l))) := by
  first | (unfold k0_pay455; kpay_read) | rfl

theorem pay456_apply (v2552 : FVec Ideal S64x512 .f32) (cst_757 : Ideal .f32) (r : Fin 64) (l : Fin 512) :
    k0_pay456 (F := Ideal) v2552 cst_757 (ix2 r l) =
      (cst_757 * (v2552 (ix2 r l))) := by
  first | (unfold k0_pay456; kpay_read) | rfl

theorem pay457_apply (v2544 : FVec Ideal S64x512 .f32) (v2552 : FVec Ideal S64x512 .f32) (v2556 : FVec Ideal S64x512 .f32) (v2557 : FVec Ideal S64x512 .f32) (v2893 : FVec Ideal S64x512 .f32) (cst_757 : Ideal .f32) (r : Fin 64) (l : Fin 512) :
    k0_pay457 (F := Ideal) v2544 v2552 v2556 v2557 v2893 cst_757 (ix2 r l) =
      ((((v2893 (ix2 r l)) * (v2556 (ix2 r l))) - ((k0_pay456 (F := Ideal) v2552 cst_757 (ix2 r l)) * (v2557 (ix2 r l)))) + (v2544 (ix2 r l))) := by
  first | (unfold k0_pay457; kpay_read) | rfl

theorem pay458_apply (v2546 : FVec Ideal S64x512 .f32) (v2552 : FVec Ideal S64x512 .f32) (v2556 : FVec Ideal S64x512 .f32) (v2557 : FVec Ideal S64x512 .f32) (v2893 : FVec Ideal S64x512 .f32) (cst_757 : Ideal .f32) (r : Fin 64) (l : Fin 512) :
    k0_pay458 (F := Ideal) v2546 v2552 v2556 v2557 v2893 cst_757 (ix2 r l) =
      ((((v2893 (ix2 r l)) * (v2557 (ix2 r l))) + ((k0_pay456 (F := Ideal) v2552 cst_757 (ix2 r l)) * (v2556 (ix2 r l)))) + (v2546 (ix2 r l))) := by
  first | (unfold k0_pay458; kpay_read) | rfl

theorem pay459_apply (v2548 : FVec Ideal S64x512 .f32) (v2550 : FVec Ideal S64x512 .f32) (r : Fin 64) (l : Fin 512) :
    k0_pay459 (F := Ideal) v2548 v2550 (ix2 r l) =
      (((Ideal.ofBits .f32 0x3F000000#32) * (v2550 (ix2 r l))) + (v2548 (ix2 r l))) := by
  first | (unfold k0_pay459; kpay_read) | rfl

theorem pay460_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2556 : FVec Ideal S64x512 .f32) (v2557 : FVec Ideal S64x512 .f32) (v2893 : FVec Ideal S64x512 .f32) (cst_757 : Ideal .f32) (r : Fin 64) (l : Fin 512) :
    k0_pay460 (F := Ideal) v3 v2544 v2546 v2548 v2550 v2552 v2556 v2557 v2893 cst_757 (ix2 r l) =
      (((((v3 (ix2 (0 : Fin 4) (0 : Fin 4))) * (k0_pay457 (F := Ideal) v2544 v2552 v2556 v2557 v2893 cst_757 (ix2 r l))) + ((v3 (ix2 (0 : Fin 4) (1 : Fin 4))) * (k0_pay458 (F := Ideal) v2546 v2552 v2556 v2557 v2893 cst_757 (ix2 r l)))) + ((v3 (ix2 (0 : Fin 4) (2 : Fin 4))) * (k0_pay459 (F := Ideal) v2548 v2550 (ix2 r l)))) + (v3 (ix2 (0 : Fin 4) (3 : Fin 4)))) := by
  first | (unfold k0_pay460; kpay_read) | rfl

theorem pay461_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2556 : FVec Ideal S64x512 .f32) (v2557 : FVec Ideal S64x512 .f32) (v2893 : FVec Ideal S64x512 .f32) (cst_757 : Ideal .f32) (r : Fin 64) (l : Fin 512) :
    k0_pay461 (F := Ideal) v3 v2544 v2546 v2548 v2550 v2552 v2556 v2557 v2893 cst_757 (ix2 r l) =
      (((((v3 (ix2 (1 : Fin 4) (0 : Fin 4))) * (k0_pay457 (F := Ideal) v2544 v2552 v2556 v2557 v2893 cst_757 (ix2 r l))) + ((v3 (ix2 (1 : Fin 4) (1 : Fin 4))) * (k0_pay458 (F := Ideal) v2546 v2552 v2556 v2557 v2893 cst_757 (ix2 r l)))) + ((v3 (ix2 (1 : Fin 4) (2 : Fin 4))) * (k0_pay459 (F := Ideal) v2548 v2550 (ix2 r l)))) + (v3 (ix2 (1 : Fin 4) (3 : Fin 4)))) := by
  first | (unfold k0_pay461; kpay_read) | rfl

theorem pay462_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2556 : FVec Ideal S64x512 .f32) (v2557 : FVec Ideal S64x512 .f32) (v2888 : FVec Ideal S64x512 .f32) (v2893 : FVec Ideal S64x512 .f32) (cst_757 : Ideal .f32) (r : Fin 64) (l : Fin 512) :
    k0_pay462 (F := Ideal) v3 v2544 v2546 v2548 v2550 v2552 v2556 v2557 v2888 v2893 cst_757 (ix2 r l) =
      (min (v2888 (ix2 r l)) (k0_pay460 (F := Ideal) v3 v2544 v2546 v2548 v2550 v2552 v2556 v2557 v2893 cst_757 (ix2 r l))) := by
  first | (unfold k0_pay462; kpay_read) | rfl

theorem pay463_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2556 : FVec Ideal S64x512 .f32) (v2557 : FVec Ideal S64x512 .f32) (v2889 : FVec Ideal S64x512 .f32) (v2893 : FVec Ideal S64x512 .f32) (cst_757 : Ideal .f32) (r : Fin 64) (l : Fin 512) :
    k0_pay463 (F := Ideal) v3 v2544 v2546 v2548 v2550 v2552 v2556 v2557 v2889 v2893 cst_757 (ix2 r l) =
      (min (v2889 (ix2 r l)) (k0_pay461 (F := Ideal) v3 v2544 v2546 v2548 v2550 v2552 v2556 v2557 v2893 cst_757 (ix2 r l))) := by
  first | (unfold k0_pay463; kpay_read) | rfl

theorem pay464_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2556 : FVec Ideal S64x512 .f32) (v2557 : FVec Ideal S64x512 .f32) (v2890 : FVec Ideal S64x512 .f32) (v2893 : FVec Ideal S64x512 .f32) (cst_757 : Ideal .f32) (r : Fin 64) (l : Fin 512) :
    k0_pay464 (F := Ideal) v3 v2544 v2546 v2548 v2550 v2552 v2556 v2557 v2890 v2893 cst_757 (ix2 r l) =
      (max (v2890 (ix2 r l)) (k0_pay460 (F := Ideal) v3 v2544 v2546 v2548 v2550 v2552 v2556 v2557 v2893 cst_757 (ix2 r l))) := by
  first | (unfold k0_pay464; kpay_read) | rfl

theorem pay465_apply (v3 : Vec Ideal S4x4 .f32) (v2544 : FVec Ideal S64x512 .f32) (v2546 : FVec Ideal S64x512 .f32) (v2548 : FVec Ideal S64x512 .f32) (v2550 : FVec Ideal S64x512 .f32) (v2552 : FVec Ideal S64x512 .f32) (v2556 : FVec Ideal S64x512 .f32) (v2557 : FVec Ideal S64x512 .f32) (v2891 : FVec Ideal S64x512 .f32) (v2893 : FVec Ideal S64x512 .f32) (cst_757 : Ideal .f32) (r : Fin 64) (l : Fin 512) :
    k0_pay465 (F := Ideal) v3 v2544 v2546 v2548 v2550 v2552 v2556 v2557 v2891 v2893 cst_757 (ix2 r l) =
      (max (v2891 (ix2 r l)) (k0_pay461 (F := Ideal) v3 v2544 v2546 v2548 v2550 v2552 v2556 v2557 v2893 cst_757 (ix2 r l))) := by
  first | (unfold k0_pay465; kpay_read) | rfl

theorem pay466_apply (v2554 : FVec Ideal S64x512 .f32) (r : Fin 64) (l : Fin 512) :
    k0_pay466 (F := Ideal) v2554 (ix2 r l) =
      ((Ideal.ofBits .f32 0xBF000000#32) * (v2554 (ix2 r l))) := by
  first | (unfold k0_pay466; kpay_read) | rfl

theorem pay467_apply (v2552 : FVec Ideal S64x512 .f32) (r : Fin 64) (l : Fin 512) :
    k0_pay467 (F := Ideal) v2552 (ix2 r l) =
      ((Ideal.ofBits .f32 0x3F000000#32) * (v2552 (ix2 r l))) := by
  first | (unfold k0_pay467; kpay_read) | rfl

theorem pay468_apply (v2544 : FVec Ideal S64x512 .f32) (v2556 : FVec Ideal S64x512 .f32) (v2557 : FVec Ideal S64x512 .f32) (v2948 : FVec Ideal S64x512 .f32) (v2950 : FVec Ideal S64x512 .f32) (r : Fin 64) (l : Fin 512) :
    k0_pay468 (F := Ideal) v2544 v2556 v2557 v2948 v2950 (ix2 r l) =
      ((((v2948 (ix2 r l)) * (v2556 (ix2 r l))) - ((v2950 (ix2 r l)) * (v2557 (ix2 r l)))) + (v2544 (ix2 r l))) := by
  first | (unfold k0_pay468; kpay_read) | rfl

theorem pay469_apply (v2546 : FVec Ideal S64x512 .f32) (v2556 : FVec Ideal S64x512 .f32) (v2557 : FVec Ideal S64x512 .f32) (v2948 : FVec Ideal S64x512 .f32) (v2950 : FVec Ideal S64x512 .f32) (r : Fin 64) (l : Fin 512) :
    k0_pay469 (F := Ideal) v2546 v2556 v2557 v2948 v2950 (ix2 r l) =
      ((((v2948 (ix2 r l)) * (v2557 (ix2 r l))) + ((v2950 (ix2 r l)) * (v2556 (ix2 r l)))) + (v2546 (ix2 r l))) := by
  first | (unfold k0_pay469; kpay_read) | rfl

theorem pay470_apply (v2548 : FVec Ideal S64x512 .f32) (v2550 : FVec Ideal S64x512 .f32) (r : Fin 64) (l : Fin 512) :
    k0_pay470 (F := Ideal) v2548 v2550 (ix2 r l) =
      (((Ideal.ofBits .f32 0x3F000000#32) * (v2550 (ix2 r l))) + (v2548 (ix2 r l))) := by
  first | (unfold k0_pay470; kpay_read) | rfl

theorem pay471_apply (v3 : Vec Ideal S4x4 .f32) (v2544 : FVec Ideal S64x512 .f32) (v2546 : FVec Ideal S64x512 .f32) (v2548 : FVec Ideal S64x512 .f32) (v2550 : FVec Ideal S64x512 .f32) (v2556 : FVec Ideal S64x512 .f32) (v2557 : FVec Ideal S64x512 .f32) (v2948 : FVec Ideal S64x512 .f32) (v2950 : FVec Ideal S64x512 .f32) (r : Fin 64) (l : Fin 512) :
    k0_pay471 (F := Ideal) v3 v2544 v2546 v2548 v2550 v2556 v2557 v2948 v2950 (ix2 r l) =
      (((((v3 (ix2 (0 : Fin 4) (0 : Fin 4))) * (k0_pay468 (F := Ideal) v2544 v2556 v2557 v2948 v2950 (ix2 r l))) + ((v3 (ix2 (0 : Fin 4) (1 : Fin 4))) * (k0_pay469 (F := Ideal) v2546 v2556 v2557 v2948 v2950 (ix2 r l)))) + ((v3 (ix2 (0 : Fin 4) (2 : Fin 4))) * (k0_pay470 (F := Ideal) v2548 v2550 (ix2 r l)))) + (v3 (ix2 (0 : Fin 4) (3 : Fin 4)))) := by
  first | (unfold k0_pay471; kpay_read) | rfl

theorem pay472_apply (v3 : Vec Ideal S4x4 .f32) (v2544 : FVec Ideal S64x512 .f32) (v2546 : FVec Ideal S64x512 .f32) (v2548 : FVec Ideal S64x512 .f32) (v2550 : FVec Ideal S64x512 .f32) (v2556 : FVec Ideal S64x512 .f32) (v2557 : FVec Ideal S64x512 .f32) (v2948 : FVec Ideal S64x512 .f32) (v2950 : FVec Ideal S64x512 .f32) (r : Fin 64) (l : Fin 512) :
    k0_pay472 (F := Ideal) v3 v2544 v2546 v2548 v2550 v2556 v2557 v2948 v2950 (ix2 r l) =
      (((((v3 (ix2 (1 : Fin 4) (0 : Fin 4))) * (k0_pay468 (F := Ideal) v2544 v2556 v2557 v2948 v2950 (ix2 r l))) + ((v3 (ix2 (1 : Fin 4) (1 : Fin 4))) * (k0_pay469 (F := Ideal) v2546 v2556 v2557 v2948 v2950 (ix2 r l)))) + ((v3 (ix2 (1 : Fin 4) (2 : Fin 4))) * (k0_pay470 (F := Ideal) v2548 v2550 (ix2 r l)))) + (v3 (ix2 (1 : Fin 4) (3 : Fin 4)))) := by
  first | (unfold k0_pay472; kpay_read) | rfl

theorem pay473_apply (v3 : Vec Ideal S4x4 .f32) (v2544 : FVec Ideal S64x512 .f32) (v2546 : FVec Ideal S64x512 .f32) (v2548 : FVec Ideal S64x512 .f32) (v2550 : FVec Ideal S64x512 .f32) (v2556 : FVec Ideal S64x512 .f32) (v2557 : FVec Ideal S64x512 .f32) (v2943 : FVec Ideal S64x512 .f32) (v2948 : FVec Ideal S64x512 .f32) (v2950 : FVec Ideal S64x512 .f32) (r : Fin 64) (l : Fin 512) :
    k0_pay473 (F := Ideal) v3 v2544 v2546 v2548 v2550 v2556 v2557 v2943 v2948 v2950 (ix2 r l) =
      (min (v2943 (ix2 r l)) (k0_pay471 (F := Ideal) v3 v2544 v2546 v2548 v2550 v2556 v2557 v2948 v2950 (ix2 r l))) := by
  first | (unfold k0_pay473; kpay_read) | rfl

theorem pay474_apply (v3 : Vec Ideal S4x4 .f32) (v2544 : FVec Ideal S64x512 .f32) (v2546 : FVec Ideal S64x512 .f32) (v2548 : FVec Ideal S64x512 .f32) (v2550 : FVec Ideal S64x512 .f32) (v2556 : FVec Ideal S64x512 .f32) (v2557 : FVec Ideal S64x512 .f32) (v2944 : FVec Ideal S64x512 .f32) (v2948 : FVec Ideal S64x512 .f32) (v2950 : FVec Ideal S64x512 .f32) (r : Fin 64) (l : Fin 512) :
    k0_pay474 (F := Ideal) v3 v2544 v2546 v2548 v2550 v2556 v2557 v2944 v2948 v2950 (ix2 r l) =
      (min (v2944 (ix2 r l)) (k0_pay472 (F := Ideal) v3 v2544 v2546 v2548 v2550 v2556 v2557 v2948 v2950 (ix2 r l))) := by
  first | (unfold k0_pay474; kpay_read) | rfl

theorem pay475_apply (v3 : Vec Ideal S4x4 .f32) (v2544 : FVec Ideal S64x512 .f32) (v2546 : FVec Ideal S64x512 .f32) (v2548 : FVec Ideal S64x512 .f32) (v2550 : FVec Ideal S64x512 .f32) (v2556 : FVec Ideal S64x512 .f32) (v2557 : FVec Ideal S64x512 .f32) (v2945 : FVec Ideal S64x512 .f32) (v2948 : FVec Ideal S64x512 .f32) (v2950 : FVec Ideal S64x512 .f32) (r : Fin 64) (l : Fin 512) :
    k0_pay475 (F := Ideal) v3 v2544 v2546 v2548 v2550 v2556 v2557 v2945 v2948 v2950 (ix2 r l) =
      (max (v2945 (ix2 r l)) (k0_pay471 (F := Ideal) v3 v2544 v2546 v2548 v2550 v2556 v2557 v2948 v2950 (ix2 r l))) := by
  first | (unfold k0_pay475; kpay_read) | rfl

theorem pay476_apply (v3 : Vec Ideal S4x4 .f32) (v2544 : FVec Ideal S64x512 .f32) (v2546 : FVec Ideal S64x512 .f32) (v2548 : FVec Ideal S64x512 .f32) (v2550 : FVec Ideal S64x512 .f32) (v2556 : FVec Ideal S64x512 .f32) (v2557 : FVec Ideal S64x512 .f32) (v2946 : FVec Ideal S64x512 .f32) (v2948 : FVec Ideal S64x512 .f32) (v2950 : FVec Ideal S64x512 .f32) (r : Fin 64) (l : Fin 512) :
    k0_pay476 (F := Ideal) v3 v2544 v2546 v2548 v2550 v2556 v2557 v2946 v2948 v2950 (ix2 r l) =
      (max (v2946 (ix2 r l)) (k0_pay472 (F := Ideal) v3 v2544 v2546 v2548 v2550 v2556 v2557 v2948 v2950 (ix2 r l))) := by
  first | (unfold k0_pay476; kpay_read) | rfl

theorem pay477_apply (v3 : Vec Ideal S4x4 .f32) (v2544 : FVec Ideal S64x512 .f32) (v2546 : FVec Ideal S64x512 .f32) (v2548 : FVec Ideal S64x512 .f32) (v2550 : FVec Ideal S64x512 .f32) (v2556 : FVec Ideal S64x512 .f32) (v2557 : FVec Ideal S64x512 .f32) (v2943 : FVec Ideal S64x512 .f32) (v2944 : FVec Ideal S64x512 .f32) (v2945 : FVec Ideal S64x512 .f32) (v2946 : FVec Ideal S64x512 .f32) (v2948 : FVec Ideal S64x512 .f32) (v2950 : FVec Ideal S64x512 .f32) (r : Fin 64) (l : Fin 512) :
    k0_pay477 (F := Ideal) v3 v2544 v2546 v2548 v2550 v2556 v2557 v2943 v2944 v2945 v2946 v2948 v2950 (ix2 r l) =
      (((k0_pay475 (F := Ideal) v3 v2544 v2546 v2548 v2550 v2556 v2557 v2945 v2948 v2950 (ix2 r l)) - (k0_pay473 (F := Ideal) v3 v2544 v2546 v2548 v2550 v2556 v2557 v2943 v2948 v2950 (ix2 r l))) * ((k0_pay476 (F := Ideal) v3 v2544 v2546 v2548 v2550 v2556 v2557 v2946 v2948 v2950 (ix2 r l)) - (k0_pay474 (F := Ideal) v3 v2544 v2546 v2548 v2550 v2556 v2557 v2944 v2948 v2950 (ix2 r l)))) := by
  first | (unfold k0_pay477; kpay_read) | rfl

theorem pay478_apply  (r : Fin 64) (l : Fin 512) :
    k0_pay478 (F := Ideal) (ix2 r l) =
      (Ideal.ofBits .f32 0x00000000#32) := by
  first | (unfold k0_pay478; kpay_read) | rfl

theorem pay479_apply (v2998 : FVec Ideal S64x512 .f32) (v2999 : FVec Ideal S64x512 .f32) (v3000 : FVec Ideal S64x512 .f32) (v3001 : FVec Ideal S64x512 .f32) (v3004 : FVec Ideal S64x512 .f32) (v3005 : FVec Ideal S64x512 .f32) (v3006 : Vec Ideal S1x1 .f32) (v3008 : Vec Ideal S1x1 .f32) (v3010 : Vec Ideal S1x1 .f32) (v3012 : Vec Ideal S1x1 .f32) (r : Fin 64) (l : Fin 512) :
    k0_pay479 (F := Ideal) v2998 v2999 v3000 v3001 v3004 v3005 v3006 v3008 v3010 v3012 (ix2 r l) =
      ((v3005 (ix2 r l)) + (Ideal.div ((max (Ideal.ofBits .f32 0x00000000#32) ((min (v3000 (ix2 r l)) (v3010 (ix2 (0 : Fin 1) (0 : Fin 1)))) - (max (v2998 (ix2 r l)) (v3006 (ix2 (0 : Fin 1) (0 : Fin 1)))))) * (max (Ideal.ofBits .f32 0x00000000#32) ((min (v3001 (ix2 r l)) (v3012 (ix2 (0 : Fin 1) (0 : Fin 1)))) - (max (v2999 (ix2 r l)) (v3008 (ix2 (0 : Fin 1) (0 : Fin 1))))))) (((v3004 (ix2 r l)) + (((v3010 (ix2 (0 : Fin 1) (0 : Fin 1))) - (v3006 (ix2 (0 : Fin 1) (0 : Fin 1)))) * ((v3012 (ix2 (0 : Fin 1) (0 : Fin 1))) - (v3008 (ix2 (0 : Fin 1) (0 : Fin 1)))))) - ((max (Ideal.ofBits .f32 0x00000000#32) ((min (v3000 (ix2 r l)) (v3010 (ix2 (0 : Fin 1) (0 : Fin 1)))) - (max (v2998 (ix2 r l)) (v3006 (ix2 (0 : Fin 1) (0 : Fin 1)))))) * (max (Ideal.ofBits .f32 0x00000000#32) ((min (v3001 (ix2 r l)) (v3012 (ix2 (0 : Fin 1) (0 : Fin 1)))) - (max (v2999 (ix2 r l)) (v3008 (ix2 (0 : Fin 1) (0 : Fin 1)))))))))) := by
  first | (unfold k0_pay479; kpay_read) | rfl

theorem pay480_apply (v3037 : Vec Ideal S1x1 .f32) :
    k0_pay480 (F := Ideal) v3037 =
      (v3037 (ix2 (0 : Fin 1) (0 : Fin 1))) := by
  first | (unfold k0_pay480; kpay_read) | rfl

theorem pay481_apply (v3039 : Vec Ideal S1x1 .f32) :
    k0_pay481 (F := Ideal) v3039 =
      (v3039 (ix2 (0 : Fin 1) (0 : Fin 1))) := by
  first | (unfold k0_pay481; kpay_read) | rfl

theorem pay482_apply (v3041 : Vec Ideal S1x1 .f32) :
    k0_pay482 (F := Ideal) v3041 =
      (v3041 (ix2 (0 : Fin 1) (0 : Fin 1))) := by
  first | (unfold k0_pay482; kpay_read) | rfl

theorem pay483_apply (v3043 : Vec Ideal S1x1 .f32) :
    k0_pay483 (F := Ideal) v3043 =
      (v3043 (ix2 (0 : Fin 1) (0 : Fin 1))) := by
  first | (unfold k0_pay483; kpay_read) | rfl

theorem pay484_apply (v2998 : FVec Ideal S64x512 .f32) (v3037 : Vec Ideal S1x1 .f32) (r : Fin 64) (l : Fin 512) :
    k0_pay484 (F := Ideal) v2998 v3037 (ix2 r l) =
      (max (v2998 (ix2 r l)) (k0_pay480 (F := Ideal) v3037)) := by
  first | (unfold k0_pay484; kpay_read) | rfl

theorem pay485_apply (v2999 : FVec Ideal S64x512 .f32) (v3039 : Vec Ideal S1x1 .f32) (r : Fin 64) (l : Fin 512) :
    k0_pay485 (F := Ideal) v2999 v3039 (ix2 r l) =
      (max (v2999 (ix2 r l)) (k0_pay481 (F := Ideal) v3039)) := by
  first | (unfold k0_pay485; kpay_read) | rfl

theorem pay486_apply (v3000 : FVec Ideal S64x512 .f32) (v3041 : Vec Ideal S1x1 .f32) (r : Fin 64) (l : Fin 512) :
    k0_pay486 (F := Ideal) v3000 v3041 (ix2 r l) =
      (min (v3000 (ix2 r l)) (k0_pay482 (F := Ideal) v3041)) := by
  first | (unfold k0_pay486; kpay_read) | rfl

theorem pay487_apply (v2998 : FVec Ideal S64x512 .f32) (v2999 : FVec Ideal S64x512 .f32) (v3000 : FVec Ideal S64x512 .f32) (v3001 : FVec Ideal S64x512 .f32) (v3004 : FVec Ideal S64x512 .f32) (v3036 : FVec Ideal S64x512 .f32) (v3038 : Ideal .f32) (v3040 : Ideal .f32) (v3042 : Ideal .f32) (v3044 : Ideal .f32) (v3046 : FVec Ideal S64x512 .f32) (v3048 : FVec Ideal S64x512 .f32) (v3050 : FVec Ideal S64x512 .f32) (v3068 : Vec Ideal S1x1 .f32) (v3070 : Vec Ideal S1x1 .f32) (v3072 : Vec Ideal S1x1 .f32) (v3074 : Vec Ideal S1x1 .f32) (r : Fin 64) (l : Fin 512) :
    k0_pay487 (F := Ideal) v2998 v2999 v3000 v3001 v3004 v3036 v3038 v3040 v3042 v3044 v3046 v3048 v3050 v3068 v3070 v3072 v3074 (ix2 r l) =
      (((v3036 (ix2 r l)) + (Ideal.div ((max (Ideal.ofBits .f32 0x00000000#32) ((v3050 (ix2 r l)) - (v3046 (ix2 r l)))) * (max (Ideal.ofBits .f32 0x00000000#32) ((min (v3001 (ix2 r l)) v3044) - (v3048 (ix2 r l))))) (((v3004 (ix2 r l)) + ((v3042 - v3038) * (v3044 - v3040))) - ((max (Ideal.ofBits .f32 0x00000000#32) ((v3050 (ix2 r l)) - (v3046 (ix2 r l)))) * (max (Ideal.ofBits .f32 0x00000000#32) ((min (v3001 (ix2 r l)) v3044) - (v3048 (ix2 r l)))))))) + (Ideal.div ((max (Ideal.ofBits .f32 0x00000000#32) ((min (v3000 (ix2 r l)) (v3072 (ix2 (0 : Fin 1) (0 : Fin 1)))) - (max (v2998 (ix2 r l)) (v3068 (ix2 (0 : Fin 1) (0 : Fin 1)))))) * (max (Ideal.ofBits .f32 0x00000000#32) ((min (v3001 (ix2 r l)) (v3074 (ix2 (0 : Fin 1) (0 : Fin 1)))) - (max (v2999 (ix2 r l)) (v3070 (ix2 (0 : Fin 1) (0 : Fin 1))))))) (((v3004 (ix2 r l)) + (((v3072 (ix2 (0 : Fin 1) (0 : Fin 1))) - (v3068 (ix2 (0 : Fin 1) (0 : Fin 1)))) * ((v3074 (ix2 (0 : Fin 1) (0 : Fin 1))) - (v3070 (ix2 (0 : Fin 1) (0 : Fin 1)))))) - ((max (Ideal.ofBits .f32 0x00000000#32) ((min (v3000 (ix2 r l)) (v3072 (ix2 (0 : Fin 1) (0 : Fin 1)))) - (max (v2998 (ix2 r l)) (v3068 (ix2 (0 : Fin 1) (0 : Fin 1)))))) * (max (Ideal.ofBits .f32 0x00000000#32) ((min (v3001 (ix2 r l)) (v3074 (ix2 (0 : Fin 1) (0 : Fin 1)))) - (max (v2999 (ix2 r l)) (v3070 (ix2 (0 : Fin 1) (0 : Fin 1)))))))))) := by
  first | (unfold k0_pay487; kpay_read) | rfl

theorem pay488_apply (v2998 : FVec Ideal S64x512 .f32) (v2999 : FVec Ideal S64x512 .f32) (v3000 : FVec Ideal S64x512 .f32) (v3001 : FVec Ideal S64x512 .f32) (v3004 : FVec Ideal S64x512 .f32) (v3098 : FVec Ideal S64x512 .f32) (v3099 : Vec Ideal S1x1 .f32) (v3101 : Vec Ideal S1x1 .f32) (v3103 : Vec Ideal S1x1 .f32) (v3105 : Vec Ideal S1x1 .f32) (r : Fin 64) (l : Fin 512) :
    k0_pay488 (F := Ideal) v2998 v2999 v3000 v3001 v3004 v3098 v3099 v3101 v3103 v3105 (ix2 r l) =
      ((v3098 (ix2 r l)) + (Ideal.div ((max (Ideal.ofBits .f32 0x00000000#32) ((min (v3000 (ix2 r l)) (v3103 (ix2 (0 : Fin 1) (0 : Fin 1)))) - (max (v2998 (ix2 r l)) (v3099 (ix2 (0 : Fin 1) (0 : Fin 1)))))) * (max (Ideal.ofBits .f32 0x00000000#32) ((min (v3001 (ix2 r l)) (v3105 (ix2 (0 : Fin 1) (0 : Fin 1)))) - (max (v2999 (ix2 r l)) (v3101 (ix2 (0 : Fin 1) (0 : Fin 1))))))) (((v3004 (ix2 r l)) + (((v3103 (ix2 (0 : Fin 1) (0 : Fin 1))) - (v3099 (ix2 (0 : Fin 1) (0 : Fin 1)))) * ((v3105 (ix2 (0 : Fin 1) (0 : Fin 1))) - (v3101 (ix2 (0 : Fin 1) (0 : Fin 1)))))) - ((max (Ideal.ofBits .f32 0x00000000#32) ((min (v3000 (ix2 r l)) (v3103 (ix2 (0 : Fin 1) (0 : Fin 1)))) - (max (v2998 (ix2 r l)) (v3099 (ix2 (0 : Fin 1) (0 : Fin 1)))))) * (max (Ideal.ofBits .f32 0x00000000#32) ((min (v3001 (ix2 r l)) (v3105 (ix2 (0 : Fin 1) (0 : Fin 1)))) - (max (v2999 (ix2 r l)) (v3101 (ix2 (0 : Fin 1) (0 : Fin 1)))))))))) := by
  first | (unfold k0_pay488; kpay_read) | rfl

theorem pay489_apply (v3130 : Vec Ideal S1x1 .f32) :
    k0_pay489 (F := Ideal) v3130 =
      (v3130 (ix2 (0 : Fin 1) (0 : Fin 1))) := by
  first | (unfold k0_pay489; kpay_read) | rfl

theorem pay490_apply (v3132 : Vec Ideal S1x1 .f32) :
    k0_pay490 (F := Ideal) v3132 =
      (v3132 (ix2 (0 : Fin 1) (0 : Fin 1))) := by
  first | (unfold k0_pay490; kpay_read) | rfl

theorem pay491_apply (v3134 : Vec Ideal S1x1 .f32) :
    k0_pay491 (F := Ideal) v3134 =
      (v3134 (ix2 (0 : Fin 1) (0 : Fin 1))) := by
  first | (unfold k0_pay491; kpay_read) | rfl

theorem pay492_apply (v3136 : Vec Ideal S1x1 .f32) :
    k0_pay492 (F := Ideal) v3136 =
      (v3136 (ix2 (0 : Fin 1) (0 : Fin 1))) := by
  first | (unfold k0_pay492; kpay_read) | rfl

theorem pay493_apply (v2998 : FVec Ideal S64x512 .f32) (v3130 : Vec Ideal S1x1 .f32) (r : Fin 64) (l : Fin 512) :
    k0_pay493 (F := Ideal) v2998 v3130 (ix2 r l) =
      (max (v2998 (ix2 r l)) (k0_pay489 (F := Ideal) v3130)) := by
  first | (unfold k0_pay493; kpay_read) | rfl

theorem pay494_apply (v3132 : Vec Ideal S1x1 .f32) (r : Fin 64) (l : Fin 512) :
    k0_pay494 (F := Ideal) v3132 (ix2 r l) =
      (k0_pay490 (F := Ideal) v3132) := by
  first | (unfold k0_pay494; kpay_read) | rfl

theorem pay495_apply (v2999 : FVec Ideal S64x512 .f32) (v3000 : FVec Ideal S64x512 .f32) (v3001 : FVec Ideal S64x512 .f32) (v3004 : FVec Ideal S64x512 .f32) (v3129 : FVec Ideal S64x512 .f32) (v3131 : Ideal .f32) (v3133 : Ideal .f32) (v3135 : Ideal .f32) (v3137 : Ideal .f32) (v3139 : FVec Ideal S64x512 .f32) (v3140 : FVec Ideal S64x512 .f32) (r : Fin 64) (l : Fin 512) :
    k0_pay495 (F := Ideal) v2999 v3000 v3001 v3004 v3129 v3131 v3133 v3135 v3137 v3139 v3140 (ix2 r l) =
      ((v3129 (ix2 r l)) + (Ideal.div ((max (Ideal.ofBits .f32 0x00000000#32) ((min (v3000 (ix2 r l)) v3135) - (v3139 (ix2 r l)))) * (max (Ideal.ofBits .f32 0x00000000#32) ((min (v3001 (ix2 r l)) v3137) - (max (v2999 (ix2 r l)) (v3140 (ix2 r l)))))) (((v3004 (ix2 r l)) + ((v3135 - v3131) * (v3137 - v3133))) - ((max (Ideal.ofBits .f32 0x00000000#32) ((min (v3000 (ix2 r l)) v3135) - (v3139 (ix2 r l)))) * (max (Ideal.ofBits .f32 0x00000000#32) ((min (v3001 (ix2 r l)) v3137) - (max (v2999 (ix2 r l)) (v3140 (ix2 r l))))))))) := by
  first | (unfold k0_pay495; kpay_read) | rfl

theorem pay496_apply (v3161 : Vec Ideal S1x1 .f32) :
    k0_pay496 (F := Ideal) v3161 =
      (v3161 (ix2 (0 : Fin 1) (0 : Fin 1))) := by
  first | (unfold k0_pay496; kpay_read) | rfl

theorem pay497_apply (v3163 : Vec Ideal S1x1 .f32) :
    k0_pay497 (F := Ideal) v3163 =
      (v3163 (ix2 (0 : Fin 1) (0 : Fin 1))) := by
  first | (unfold k0_pay497; kpay_read) | rfl

theorem pay498_apply (v3165 : Vec Ideal S1x1 .f32) :
    k0_pay498 (F := Ideal) v3165 =
      (v3165 (ix2 (0 : Fin 1) (0 : Fin 1))) := by
  first | (unfold k0_pay498; kpay_read) | rfl

theorem pay499_apply (v3167 : Vec Ideal S1x1 .f32) :
    k0_pay499 (F := Ideal) v3167 =
      (v3167 (ix2 (0 : Fin 1) (0 : Fin 1))) := by
  first | (unfold k0_pay499; kpay_read) | rfl

theorem pay500_apply (v2998 : FVec Ideal S64x512 .f32) (v2999 : FVec Ideal S64x512 .f32) (v3000 : FVec Ideal S64x512 .f32) (v3001 : FVec Ideal S64x512 .f32) (v3161 : Vec Ideal S1x1 .f32) (v3163 : Vec Ideal S1x1 .f32) (v3165 : Vec Ideal S1x1 .f32) (v3167 : Vec Ideal S1x1 .f32) (r : Fin 64) (l : Fin 512) :
    k0_pay500 (F := Ideal) v2998 v2999 v3000 v3001 v3161 v3163 v3165 v3167 (ix2 r l) =
      ((max (Ideal.ofBits .f32 0x00000000#32) ((min (v3000 (ix2 r l)) (k0_pay498 (F := Ideal) v3165)) - (max (v2998 (ix2 r l)) (k0_pay496 (F := Ideal) v3161)))) * (max (Ideal.ofBits .f32 0x00000000#32) ((min (v3001 (ix2 r l)) (k0_pay499 (F := Ideal) v3167)) - (max (v2999 (ix2 r l)) (k0_pay497 (F := Ideal) v3163))))) := by
  first | (unfold k0_pay500; kpay_read) | rfl

theorem pay501_apply (v3004 : FVec Ideal S64x512 .f32) (v3161 : Vec Ideal S1x1 .f32) (v3163 : Vec Ideal S1x1 .f32) (v3165 : Vec Ideal S1x1 .f32) (v3167 : Vec Ideal S1x1 .f32) (r : Fin 64) (l : Fin 512) :
    k0_pay501 (F := Ideal) v3004 v3161 v3163 v3165 v3167 (ix2 r l) =
      ((v3004 (ix2 r l)) + (((k0_pay498 (F := Ideal) v3165) - (k0_pay496 (F := Ideal) v3161)) * ((k0_pay499 (F := Ideal) v3167) - (k0_pay497 (F := Ideal) v3163)))) := by
  first | (unfold k0_pay501; kpay_read) | rfl

theorem pay502_apply (v2998 : FVec Ideal S64x512 .f32) (v2999 : FVec Ideal S64x512 .f32) (v3000 : FVec Ideal S64x512 .f32) (v3001 : FVec Ideal S64x512 .f32) (v3004 : FVec Ideal S64x512 .f32) (v3160 : FVec Ideal S64x512 .f32) (v3183 : FVec Ideal S64x512 .f32) (v3188 : FVec Ideal S64x512 .f32) (v3192 : Vec Ideal S1x1 .f32) (v3194 : Vec Ideal S1x1 .f32) (v3196 : Vec Ideal S1x1 .f32) (v3198 : Vec Ideal S1x1 .f32) (r : Fin 64) (l : Fin 512) :
    k0_pay502 (F := Ideal) v2998 v2999 v3000 v3001 v3004 v3160 v3183 v3188 v3192 v3194 v3196 v3198 (ix2 r l) =
      (((v3160 (ix2 r l)) + (Ideal.div (v3183 (ix2 r l)) ((v3188 (ix2 r l)) - (v3183 (ix2 r l))))) + (Ideal.div ((max (Ideal.ofBits .f32 0x00000000#32) ((min (v3000 (ix2 r l)) (v3196 (ix2 (0 : Fin 1) (0 : Fin 1)))) - (max (v2998 (ix2 r l)) (v3192 (ix2 (0 : Fin 1) (0 : Fin 1)))))) * (max (Ideal.ofBits .f32 0x00000000#32) ((min (v3001 (ix2 r l)) (v3198 (ix2 (0 : Fin 1) (0 : Fin 1)))) - (max (v2999 (ix2 r l)) (v3194 (ix2 (0 : Fin 1) (0 : Fin 1))))))) (((v3004 (ix2 r l)) + (((v3196 (ix2 (0 : Fin 1) (0 : Fin 1))) - (v3192 (ix2 (0 : Fin 1) (0 : Fin 1)))) * ((v3198 (ix2 (0 : Fin 1) (0 : Fin 1))) - (v3194 (ix2 (0 : Fin 1) (0 : Fin 1)))))) - ((max (Ideal.ofBits .f32 0x00000000#32) ((min (v3000 (ix2 r l)) (v3196 (ix2 (0 : Fin 1) (0 : Fin 1)))) - (max (v2998 (ix2 r l)) (v3192 (ix2 (0 : Fin 1) (0 : Fin 1)))))) * (max (Ideal.ofBits .f32 0x00000000#32) ((min (v3001 (ix2 r l)) (v3198 (ix2 (0 : Fin 1) (0 : Fin 1)))) - (max (v2999 (ix2 r l)) (v3194 (ix2 (0 : Fin 1) (0 : Fin 1)))))))))) := by
  first | (unfold k0_pay502; kpay_read) | rfl

theorem pay503_apply (v3223 : Vec Ideal S1x1 .f32) :
    k0_pay503 (F := Ideal) v3223 =
      (v3223 (ix2 (0 : Fin 1) (0 : Fin 1))) := by
  first | (unfold k0_pay503; kpay_read) | rfl

theorem pay504_apply (v3225 : Vec Ideal S1x1 .f32) :
    k0_pay504 (F := Ideal) v3225 =
      (v3225 (ix2 (0 : Fin 1) (0 : Fin 1))) := by
  first | (unfold k0_pay504; kpay_read) | rfl

theorem pay505_apply (v3227 : Vec Ideal S1x1 .f32) :
    k0_pay505 (F := Ideal) v3227 =
      (v3227 (ix2 (0 : Fin 1) (0 : Fin 1))) := by
  first | (unfold k0_pay505; kpay_read) | rfl

theorem pay506_apply (v3229 : Vec Ideal S1x1 .f32) :
    k0_pay506 (F := Ideal) v3229 =
      (v3229 (ix2 (0 : Fin 1) (0 : Fin 1))) := by
  first | (unfold k0_pay506; kpay_read) | rfl

theorem pay507_apply (v2998 : FVec Ideal S64x512 .f32) (v2999 : FVec Ideal S64x512 .f32) (v3000 : FVec Ideal S64x512 .f32) (v3001 : FVec Ideal S64x512 .f32) (v3004 : FVec Ideal S64x512 .f32) (v3222 : FVec Ideal S64x512 .f32) (v3224 : Ideal .f32) (v3226 : Ideal .f32) (v3228 : Ideal .f32) (v3230 : Ideal .f32) (r : Fin 64) (l : Fin 512) :
    k0_pay507 (F := Ideal) v2998 v2999 v3000 v3001 v3004 v3222 v3224 v3226 v3228 v3230 (ix2 r l) =
      ((v3222 (ix2 r l)) + (Ideal.div ((max (Ideal.ofBits .f32 0x00000000#32) ((min (v3000 (ix2 r l)) v3228) - (max (v2998 (ix2 r l)) v3224))) * (max (Ideal.ofBits .f32 0x00000000#32) ((min (v3001 (ix2 r l)) v3230) - (max (v2999 (ix2 r l)) v3226)))) (((v3004 (ix2 r l)) + ((v3228 - v3224) * (v3230 - v3226))) - ((max (Ideal.ofBits .f32 0x00000000#32) ((min (v3000 (ix2 r l)) v3228) - (max (v2998 (ix2 r l)) v3224))) * (max (Ideal.ofBits .f32 0x00000000#32) ((min (v3001 (ix2 r l)) v3230) - (max (v2999 (ix2 r l)) v3226))))))) := by
  first | (unfold k0_pay507; kpay_read) | rfl

theorem pay508_apply (v3254 : Vec Ideal S1x1 .f32) :
    k0_pay508 (F := Ideal) v3254 =
      (v3254 (ix2 (0 : Fin 1) (0 : Fin 1))) := by
  first | (unfold k0_pay508; kpay_read) | rfl

theorem pay509_apply (v3256 : Vec Ideal S1x1 .f32) :
    k0_pay509 (F := Ideal) v3256 =
      (v3256 (ix2 (0 : Fin 1) (0 : Fin 1))) := by
  first | (unfold k0_pay509; kpay_read) | rfl

theorem pay510_apply (v3258 : Vec Ideal S1x1 .f32) :
    k0_pay510 (F := Ideal) v3258 =
      (v3258 (ix2 (0 : Fin 1) (0 : Fin 1))) := by
  first | (unfold k0_pay510; kpay_read) | rfl

theorem pay511_apply (v3260 : Vec Ideal S1x1 .f32) :
    k0_pay511 (F := Ideal) v3260 =
      (v3260 (ix2 (0 : Fin 1) (0 : Fin 1))) := by
  first | (unfold k0_pay511; kpay_read) | rfl

theorem pay512_apply (v2998 : FVec Ideal S64x512 .f32) (v2999 : FVec Ideal S64x512 .f32) (v3000 : FVec Ideal S64x512 .f32) (v3001 : FVec Ideal S64x512 .f32) (v3254 : Vec Ideal S1x1 .f32) (v3256 : Vec Ideal S1x1 .f32) (v3258 : Vec Ideal S1x1 .f32) (v3260 : Vec Ideal S1x1 .f32) (r : Fin 64) (l : Fin 512) :
    k0_pay512 (F := Ideal) v2998 v2999 v3000 v3001 v3254 v3256 v3258 v3260 (ix2 r l) =
      ((max (Ideal.ofBits .f32 0x00000000#32) ((min (v3000 (ix2 r l)) (k0_pay510 (F := Ideal) v3258)) - (max (v2998 (ix2 r l)) (k0_pay508 (F := Ideal) v3254)))) * (max (Ideal.ofBits .f32 0x00000000#32) ((min (v3001 (ix2 r l)) (k0_pay511 (F := Ideal) v3260)) - (max (v2999 (ix2 r l)) (k0_pay509 (F := Ideal) v3256))))) := by
  first | (unfold k0_pay512; kpay_read) | rfl

theorem pay513_apply (v3254 : Vec Ideal S1x1 .f32) (v3258 : Vec Ideal S1x1 .f32) :
    k0_pay513 (F := Ideal) v3254 v3258 =
      ((k0_pay510 (F := Ideal) v3258) - (k0_pay508 (F := Ideal) v3254)) := by
  first | (unfold k0_pay513; kpay_read) | rfl

theorem pay514_apply (v3256 : Vec Ideal S1x1 .f32) (v3260 : Vec Ideal S1x1 .f32) :
    k0_pay514 (F := Ideal) v3256 v3260 =
      ((k0_pay511 (F := Ideal) v3260) - (k0_pay509 (F := Ideal) v3256)) := by
  first | (unfold k0_pay514; kpay_read) | rfl

theorem pay515_apply (v2998 : FVec Ideal S64x512 .f32) (v2999 : FVec Ideal S64x512 .f32) (v3000 : FVec Ideal S64x512 .f32) (v3001 : FVec Ideal S64x512 .f32) (v3004 : FVec Ideal S64x512 .f32) (v3253 : FVec Ideal S64x512 .f32) (v3276 : FVec Ideal S64x512 .f32) (v3277 : Ideal .f32) (v3278 : Ideal .f32) (v3285 : Vec Ideal S1x1 .f32) (v3287 : Vec Ideal S1x1 .f32) (v3289 : Vec Ideal S1x1 .f32) (v3291 : Vec Ideal S1x1 .f32) (r : Fin 64) (l : Fin 512) :
    k0_pay515 (F := Ideal) v2998 v2999 v3000 v3001 v3004 v3253 v3276 v3277 v3278 v3285 v3287 v3289 v3291 (ix2 r l) =
      (((v3253 (ix2 r l)) + (Ideal.div (v3276 (ix2 r l)) (((v3004 (ix2 r l)) + (v3277 * v3278)) - (v3276 (ix2 r l))))) + (Ideal.div ((max (Ideal.ofBits .f32 0x00000000#32) ((min (v3000 (ix2 r l)) (v3289 (ix2 (0 : Fin 1) (0 : Fin 1)))) - (max (v2998 (ix2 r l)) (v3285 (ix2 (0 : Fin 1) (0 : Fin 1)))))) * (max (Ideal.ofBits .f32 0x00000000#32) ((min (v3001 (ix2 r l)) (v3291 (ix2 (0 : Fin 1) (0 : Fin 1)))) - (max (v2999 (ix2 r l)) (v3287 (ix2 (0 : Fin 1) (0 : Fin 1))))))) (((v3004 (ix2 r l)) + (((v3289 (ix2 (0 : Fin 1) (0 : Fin 1))) - (v3285 (ix2 (0 : Fin 1) (0 : Fin 1)))) * ((v3291 (ix2 (0 : Fin 1) (0 : Fin 1))) - (v3287 (ix2 (0 : Fin 1) (0 : Fin 1)))))) - ((max (Ideal.ofBits .f32 0x00000000#32) ((min (v3000 (ix2 r l)) (v3289 (ix2 (0 : Fin 1) (0 : Fin 1)))) - (max (v2998 (ix2 r l)) (v3285 (ix2 (0 : Fin 1) (0 : Fin 1)))))) * (max (Ideal.ofBits .f32 0x00000000#32) ((min (v3001 (ix2 r l)) (v3291 (ix2 (0 : Fin 1) (0 : Fin 1)))) - (max (v2999 (ix2 r l)) (v3287 (ix2 (0 : Fin 1) (0 : Fin 1)))))))))) := by
  first | (unfold k0_pay515; kpay_read) | rfl

theorem pay516_apply (v3316 : Vec Ideal S1x1 .f32) :
    k0_pay516 (F := Ideal) v3316 =
      (v3316 (ix2 (0 : Fin 1) (0 : Fin 1))) := by
  first | (unfold k0_pay516; kpay_read) | rfl

theorem pay517_apply (v3318 : Vec Ideal S1x1 .f32) :
    k0_pay517 (F := Ideal) v3318 =
      (v3318 (ix2 (0 : Fin 1) (0 : Fin 1))) := by
  first | (unfold k0_pay517; kpay_read) | rfl

theorem pay518_apply (v3320 : Vec Ideal S1x1 .f32) :
    k0_pay518 (F := Ideal) v3320 =
      (v3320 (ix2 (0 : Fin 1) (0 : Fin 1))) := by
  first | (unfold k0_pay518; kpay_read) | rfl

theorem pay519_apply (v2998 : FVec Ideal S64x512 .f32) (v2999 : FVec Ideal S64x512 .f32) (v3000 : FVec Ideal S64x512 .f32) (v3001 : FVec Ideal S64x512 .f32) (v3004 : FVec Ideal S64x512 .f32) (v3315 : FVec Ideal S64x512 .f32) (v3317 : Ideal .f32) (v3319 : Ideal .f32) (v3321 : Ideal .f32) (v3322 : Vec Ideal S1x1 .f32) (r : Fin 64) (l : Fin 512) :
    k0_pay519 (F := Ideal) v2998 v2999 v3000 v3001 v3004 v3315 v3317 v3319 v3321 v3322 (ix2 r l) =
      ((v3315 (ix2 r l)) + (Ideal.div ((max (Ideal.ofBits .f32 0x00000000#32) ((min (v3000 (ix2 r l)) v3321) - (max (v2998 (ix2 r l)) v3317))) * (max (Ideal.ofBits .f32 0x00000000#32) ((min (v3001 (ix2 r l)) (v3322 (ix2 (0 : Fin 1) (0 : Fin 1)))) - (max (v2999 (ix2 r l)) v3319)))) (((v3004 (ix2 r l)) + ((v3321 - v3317) * ((v3322 (ix2 (0 : Fin 1) (0 : Fin 1))) - v3319))) - ((max (Ideal.ofBits .f32 0x00000000#32) ((min (v3000 (ix2 r l)) v3321) - (max (v2998 (ix2 r l)) v3317))) * (max (Ideal.ofBits .f32 0x00000000#32) ((min (v3001 (ix2 r l)) (v3322 (ix2 (0 : Fin 1) (0 : Fin 1)))) - (max (v2999 (ix2 r l)) v3319))))))) := by
  first | (unfold k0_pay519; kpay_read) | rfl

theorem pay520_apply (v3347 : Vec Ideal S1x1 .f32) :
    k0_pay520 (F := Ideal) v3347 =
      (v3347 (ix2 (0 : Fin 1) (0 : Fin 1))) := by
  first | (unfold k0_pay520; kpay_read) | rfl

theorem pay521_apply (v3349 : Vec Ideal S1x1 .f32) :
    k0_pay521 (F := Ideal) v3349 =
      (v3349 (ix2 (0 : Fin 1) (0 : Fin 1))) := by
  first | (unfold k0_pay521; kpay_read) | rfl

theorem pay522_apply (v3351 : Vec Ideal S1x1 .f32) :
    k0_pay522 (F := Ideal) v3351 =
      (v3351 (ix2 (0 : Fin 1) (0 : Fin 1))) := by
  first | (unfold k0_pay522; kpay_read) | rfl

theorem pay523_apply (v3353 : Vec Ideal S1x1 .f32) :
    k0_pay523 (F := Ideal) v3353 =
      (v3353 (ix2 (0 : Fin 1) (0 : Fin 1))) := by
  first | (unfold k0_pay523; kpay_read) | rfl

theorem pay524_apply (v2998 : FVec Ideal S64x512 .f32) (v3000 : FVec Ideal S64x512 .f32) (v3347 : Vec Ideal S1x1 .f32) (v3351 : Vec Ideal S1x1 .f32) (r : Fin 64) (l : Fin 512) :
    k0_pay524 (F := Ideal) v2998 v3000 v3347 v3351 (ix2 r l) =
      (max (Ideal.ofBits .f32 0x00000000#32) ((min (v3000 (ix2 r l)) (k0_pay522 (F := Ideal) v3351)) - (max (v2998 (ix2 r l)) (k0_pay520 (F := Ideal) v3347)))) := by
  first | (unfold k0_pay524; kpay_read) | rfl

theorem pay525_apply (v2999 : FVec Ideal S64x512 .f32) (v3001 : FVec Ideal S64x512 .f32) (v3349 : Vec Ideal S1x1 .f32) (v3353 : Vec Ideal S1x1 .f32) (r : Fin 64) (l : Fin 512) :
    k0_pay525 (F := Ideal) v2999 v3001 v3349 v3353 (ix2 r l) =
      (max (Ideal.ofBits .f32 0x00000000#32) ((min (v3001 (ix2 r l)) (k0_pay523 (F := Ideal) v3353)) - (max (v2999 (ix2 r l)) (k0_pay521 (F := Ideal) v3349)))) := by
  first | (unfold k0_pay525; kpay_read) | rfl

theorem pay526_apply (v2998 : FVec Ideal S64x512 .f32) (v2999 : FVec Ideal S64x512 .f32) (v3000 : FVec Ideal S64x512 .f32) (v3001 : FVec Ideal S64x512 .f32) (v3004 : FVec Ideal S64x512 .f32) (v3346 : FVec Ideal S64x512 .f32) (v3348 : Ideal .f32) (v3350 : Ideal .f32) (v3352 : Ideal .f32) (v3354 : Ideal .f32) (v3365 : FVec Ideal S64x512 .f32) (v3368 : FVec Ideal S64x512 .f32) (v3378 : Vec Ideal S1x1 .f32) (v3380 : Vec Ideal S1x1 .f32) (v3382 : Vec Ideal S1x1 .f32) (v3384 : Vec Ideal S1x1 .f32) (r : Fin 64) (l : Fin 512) :
    k0_pay526 (F := Ideal) v2998 v2999 v3000 v3001 v3004 v3346 v3348 v3350 v3352 v3354 v3365 v3368 v3378 v3380 v3382 v3384 (ix2 r l) =
      (((v3346 (ix2 r l)) + (Ideal.div ((v3365 (ix2 r l)) * (v3368 (ix2 r l))) (((v3004 (ix2 r l)) + ((v3352 - v3348) * (v3354 - v3350))) - ((v3365 (ix2 r l)) * (v3368 (ix2 r l)))))) + (Ideal.div ((max (Ideal.ofBits .f32 0x00000000#32) ((min (v3000 (ix2 r l)) (v3382 (ix2 (0 : Fin 1) (0 : Fin 1)))) - (max (v2998 (ix2 r l)) (v3378 (ix2 (0 : Fin 1) (0 : Fin 1)))))) * (max (Ideal.ofBits .f32 0x00000000#32) ((min (v3001 (ix2 r l)) (v3384 (ix2 (0 : Fin 1) (0 : Fin 1)))) - (max (v2999 (ix2 r l)) (v3380 (ix2 (0 : Fin 1) (0 : Fin 1))))))) (((v3004 (ix2 r l)) + (((v3382 (ix2 (0 : Fin 1) (0 : Fin 1))) - (v3378 (ix2 (0 : Fin 1) (0 : Fin 1)))) * ((v3384 (ix2 (0 : Fin 1) (0 : Fin 1))) - (v3380 (ix2 (0 : Fin 1) (0 : Fin 1)))))) - ((max (Ideal.ofBits .f32 0x00000000#32) ((min (v3000 (ix2 r l)) (v3382 (ix2 (0 : Fin 1) (0 : Fin 1)))) - (max (v2998 (ix2 r l)) (v3378 (ix2 (0 : Fin 1) (0 : Fin 1)))))) * (max (Ideal.ofBits .f32 0x00000000#32) ((min (v3001 (ix2 r l)) (v3384 (ix2 (0 : Fin 1) (0 : Fin 1)))) - (max (v2999 (ix2 r l)) (v3380 (ix2 (0 : Fin 1) (0 : Fin 1)))))))))) := by
  first | (unfold k0_pay526; kpay_read) | rfl

theorem pay527_apply (v3409 : Vec Ideal S1x1 .f32) :
    k0_pay527 (F := Ideal) v3409 =
      (v3409 (ix2 (0 : Fin 1) (0 : Fin 1))) := by
  first | (unfold k0_pay527; kpay_read) | rfl

theorem pay528_apply (v3411 : Vec Ideal S1x1 .f32) :
    k0_pay528 (F := Ideal) v3411 =
      (v3411 (ix2 (0 : Fin 1) (0 : Fin 1))) := by
  first | (unfold k0_pay528; kpay_read) | rfl

theorem pay529_apply (v2998 : FVec Ideal S64x512 .f32) (v2999 : FVec Ideal S64x512 .f32) (v3000 : FVec Ideal S64x512 .f32) (v3001 : FVec Ideal S64x512 .f32) (v3004 : FVec Ideal S64x512 .f32) (v3408 : FVec Ideal S64x512 .f32) (v3410 : Ideal .f32) (v3412 : Ideal .f32) (v3413 : Vec Ideal S1x1 .f32) (v3415 : Vec Ideal S1x1 .f32) (r : Fin 64) (l : Fin 512) :
    k0_pay529 (F := Ideal) v2998 v2999 v3000 v3001 v3004 v3408 v3410 v3412 v3413 v3415 (ix2 r l) =
      ((v3408 (ix2 r l)) + (Ideal.div ((max (Ideal.ofBits .f32 0x00000000#32) ((min (v3000 (ix2 r l)) (v3413 (ix2 (0 : Fin 1) (0 : Fin 1)))) - (max (v2998 (ix2 r l)) v3410))) * (max (Ideal.ofBits .f32 0x00000000#32) ((min (v3001 (ix2 r l)) (v3415 (ix2 (0 : Fin 1) (0 : Fin 1)))) - (max (v2999 (ix2 r l)) v3412)))) (((v3004 (ix2 r l)) + (((v3413 (ix2 (0 : Fin 1) (0 : Fin 1))) - v3410) * ((v3415 (ix2 (0 : Fin 1) (0 : Fin 1))) - v3412))) - ((max (Ideal.ofBits .f32 0x00000000#32) ((min (v3000 (ix2 r l)) (v3413 (ix2 (0 : Fin 1) (0 : Fin 1)))) - (max (v2998 (ix2 r l)) v3410))) * (max (Ideal.ofBits .f32 0x00000000#32) ((min (v3001 (ix2 r l)) (v3415 (ix2 (0 : Fin 1) (0 : Fin 1)))) - (max (v2999 (ix2 r l)) v3412))))))) := by
  first | (unfold k0_pay529; kpay_read) | rfl

theorem pay530_apply (v3440 : Vec Ideal S1x1 .f32) :
    k0_pay530 (F := Ideal) v3440 =
      (v3440 (ix2 (0 : Fin 1) (0 : Fin 1))) := by
  first | (unfold k0_pay530; kpay_read) | rfl

theorem pay531_apply (v3442 : Vec Ideal S1x1 .f32) :
    k0_pay531 (F := Ideal) v3442 =
      (v3442 (ix2 (0 : Fin 1) (0 : Fin 1))) := by
  first | (unfold k0_pay531; kpay_read) | rfl

theorem pay532_apply (v3444 : Vec Ideal S1x1 .f32) :
    k0_pay532 (F := Ideal) v3444 =
      (v3444 (ix2 (0 : Fin 1) (0 : Fin 1))) := by
  first | (unfold k0_pay532; kpay_read) | rfl

theorem pay533_apply (v3446 : Vec Ideal S1x1 .f32) :
    k0_pay533 (F := Ideal) v3446 =
      (v3446 (ix2 (0 : Fin 1) (0 : Fin 1))) := by
  first | (unfold k0_pay533; kpay_read) | rfl

theorem pay534_apply (v2998 : FVec Ideal S64x512 .f32) (v3000 : FVec Ideal S64x512 .f32) (v3440 : Vec Ideal S1x1 .f32) (v3444 : Vec Ideal S1x1 .f32) (r : Fin 64) (l : Fin 512) :
    k0_pay534 (F := Ideal) v2998 v3000 v3440 v3444 (ix2 r l) =
      (max (Ideal.ofBits .f32 0x00000000#32) ((min (v3000 (ix2 r l)) (k0_pay532 (F := Ideal) v3444)) - (max (v2998 (ix2 r l)) (k0_pay530 (F := Ideal) v3440)))) := by
  first | (unfold k0_pay534; kpay_read) | rfl

theorem pay535_apply (v2999 : FVec Ideal S64x512 .f32) (v3001 : FVec Ideal S64x512 .f32) (v3442 : Vec Ideal S1x1 .f32) (v3446 : Vec Ideal S1x1 .f32) (r : Fin 64) (l : Fin 512) :
    k0_pay535 (F := Ideal) v2999 v3001 v3442 v3446 (ix2 r l) =
      ((min (v3001 (ix2 r l)) (k0_pay533 (F := Ideal) v3446)) - (max (v2999 (ix2 r l)) (k0_pay531 (F := Ideal) v3442))) := by
  first | (unfold k0_pay535; kpay_read) | rfl

theorem pay536_apply (v2998 : FVec Ideal S64x512 .f32) (v2999 : FVec Ideal S64x512 .f32) (v3000 : FVec Ideal S64x512 .f32) (v3001 : FVec Ideal S64x512 .f32) (v3004 : FVec Ideal S64x512 .f32) (v3439 : FVec Ideal S64x512 .f32) (v3441 : Ideal .f32) (v3443 : Ideal .f32) (v3445 : Ideal .f32) (v3447 : Ideal .f32) (v3458 : FVec Ideal S64x512 .f32) (v3459 : FVec Ideal S64x512 .f32) (v3471 : Vec Ideal S1x1 .f32) (v3473 : Vec Ideal S1x1 .f32) (v3475 : Vec Ideal S1x1 .f32) (v3477 : Vec Ideal S1x1 .f32) (r : Fin 64) (l : Fin 512) :
    k0_pay536 (F := Ideal) v2998 v2999 v3000 v3001 v3004 v3439 v3441 v3443 v3445 v3447 v3458 v3459 v3471 v3473 v3475 v3477 (ix2 r l) =
      (((v3439 (ix2 r l)) + (Ideal.div ((v3458 (ix2 r l)) * (max (Ideal.ofBits .f32 0x00000000#32) (v3459 (ix2 r l)))) (((v3004 (ix2 r l)) + ((v3445 - v3441) * (v3447 - v3443))) - ((v3458 (ix2 r l)) * (max (Ideal.ofBits .f32 0x00000000#32) (v3459 (ix2 r l))))))) + (Ideal.div ((max (Ideal.ofBits .f32 0x00000000#32) ((min (v3000 (ix2 r l)) (v3475 (ix2 (0 : Fin 1) (0 : Fin 1)))) - (max (v2998 (ix2 r l)) (v3471 (ix2 (0 : Fin 1) (0 : Fin 1)))))) * (max (Ideal.ofBits .f32 0x00000000#32) ((min (v3001 (ix2 r l)) (v3477 (ix2 (0 : Fin 1) (0 : Fin 1)))) - (max (v2999 (ix2 r l)) (v3473 (ix2 (0 : Fin 1) (0 : Fin 1))))))) (((v3004 (ix2 r l)) + (((v3475 (ix2 (0 : Fin 1) (0 : Fin 1))) - (v3471 (ix2 (0 : Fin 1) (0 : Fin 1)))) * ((v3477 (ix2 (0 : Fin 1) (0 : Fin 1))) - (v3473 (ix2 (0 : Fin 1) (0 : Fin 1)))))) - ((max (Ideal.ofBits .f32 0x00000000#32) ((min (v3000 (ix2 r l)) (v3475 (ix2 (0 : Fin 1) (0 : Fin 1)))) - (max (v2998 (ix2 r l)) (v3471 (ix2 (0 : Fin 1) (0 : Fin 1)))))) * (max (Ideal.ofBits .f32 0x00000000#32) ((min (v3001 (ix2 r l)) (v3477 (ix2 (0 : Fin 1) (0 : Fin 1)))) - (max (v2999 (ix2 r l)) (v3473 (ix2 (0 : Fin 1) (0 : Fin 1)))))))))) := by
  first | (unfold k0_pay536; kpay_read) | rfl

theorem pay537_apply (v3502 : Vec Ideal S1x1 .f32) :
    k0_pay537 (F := Ideal) v3502 =
      (v3502 (ix2 (0 : Fin 1) (0 : Fin 1))) := by
  first | (unfold k0_pay537; kpay_read) | rfl

theorem pay538_apply (v2998 : FVec Ideal S64x512 .f32) (v2999 : FVec Ideal S64x512 .f32) (v3000 : FVec Ideal S64x512 .f32) (v3001 : FVec Ideal S64x512 .f32) (v3004 : FVec Ideal S64x512 .f32) (v3501 : FVec Ideal S64x512 .f32) (v3503 : Ideal .f32) (v3504 : Vec Ideal S1x1 .f32) (v3506 : Vec Ideal S1x1 .f32) (v3508 : Vec Ideal S1x1 .f32) (r : Fin 64) (l : Fin 512) :
    k0_pay538 (F := Ideal) v2998 v2999 v3000 v3001 v3004 v3501 v3503 v3504 v3506 v3508 (ix2 r l) =
      ((v3501 (ix2 r l)) + (Ideal.div ((max (Ideal.ofBits .f32 0x00000000#32) ((min (v3000 (ix2 r l)) (v3506 (ix2 (0 : Fin 1) (0 : Fin 1)))) - (max (v2998 (ix2 r l)) v3503))) * (max (Ideal.ofBits .f32 0x00000000#32) ((min (v3001 (ix2 r l)) (v3508 (ix2 (0 : Fin 1) (0 : Fin 1)))) - (max (v2999 (ix2 r l)) (v3504 (ix2 (0 : Fin 1) (0 : Fin 1))))))) (((v3004 (ix2 r l)) + (((v3506 (ix2 (0 : Fin 1) (0 : Fin 1))) - v3503) * ((v3508 (ix2 (0 : Fin 1) (0 : Fin 1))) - (v3504 (ix2 (0 : Fin 1) (0 : Fin 1)))))) - ((max (Ideal.ofBits .f32 0x00000000#32) ((min (v3000 (ix2 r l)) (v3506 (ix2 (0 : Fin 1) (0 : Fin 1)))) - (max (v2998 (ix2 r l)) v3503))) * (max (Ideal.ofBits .f32 0x00000000#32) ((min (v3001 (ix2 r l)) (v3508 (ix2 (0 : Fin 1) (0 : Fin 1)))) - (max (v2999 (ix2 r l)) (v3504 (ix2 (0 : Fin 1) (0 : Fin 1)))))))))) := by
  first | (unfold k0_pay538; kpay_read) | rfl

theorem pay539_apply (v3533 : Vec Ideal S1x1 .f32) :
    k0_pay539 (F := Ideal) v3533 =
      (v3533 (ix2 (0 : Fin 1) (0 : Fin 1))) := by
  first | (unfold k0_pay539; kpay_read) | rfl

theorem pay540_apply (v3535 : Vec Ideal S1x1 .f32) :
    k0_pay540 (F := Ideal) v3535 =
      (v3535 (ix2 (0 : Fin 1) (0 : Fin 1))) := by
  first | (unfold k0_pay540; kpay_read) | rfl

end Cert.KernelIdeal.KPay

end
-- ==== Proof.KPay.Table7.lean ====
/-
  The payloads k0_pay541 to k0_pay630 of the kernel's body, each read at one index: at row r and lane l of the 64 × 512 tile
  (a scalar payload as it is, a 1 × 1 payload at its one cell), the payload's own operations applied, in its own order,
  to its arguments at that index. A 1 × 1 × 64 × 512 slab is read at (0, 0, r, l), a 1 × 1 load at (0, 0), a payload
  called inside another stays a call at the same index.
-/
import proofs.«157336_j6562710028353_2_alg».proof.Proof.KPay.Ops

noncomputable section

open scoped BigOperators

namespace Cert.KernelIdeal.KPay

open Cert.KernelIdeal Cert.KernelIdeal.Gen
open Idealize.ShloMosaic Idealize.ShloMosaic.ValueIdx

theorem pay541_apply (v3537 : Vec Ideal S1x1 .f32) :
    k0_pay541 (F := Ideal) v3537 =
      (v3537 (ix2 (0 : Fin 1) (0 : Fin 1))) := by
  first | (unfold k0_pay541; kpay_read) | rfl

theorem pay542_apply (v3539 : Vec Ideal S1x1 .f32) :
    k0_pay542 (F := Ideal) v3539 =
      (v3539 (ix2 (0 : Fin 1) (0 : Fin 1))) := by
  first | (unfold k0_pay542; kpay_read) | rfl

theorem pay543_apply (v2999 : FVec Ideal S64x512 .f32) (v3535 : Vec Ideal S1x1 .f32) (r : Fin 64) (l : Fin 512) :
    k0_pay543 (F := Ideal) v2999 v3535 (ix2 r l) =
      (max (v2999 (ix2 r l)) (k0_pay540 (F := Ideal) v3535)) := by
  first | (unfold k0_pay543; kpay_read) | rfl

theorem pay544_apply (v3001 : FVec Ideal S64x512 .f32) (v3539 : Vec Ideal S1x1 .f32) (r : Fin 64) (l : Fin 512) :
    k0_pay544 (F := Ideal) v3001 v3539 (ix2 r l) =
      (min (v3001 (ix2 r l)) (k0_pay542 (F := Ideal) v3539)) := by
  first | (unfold k0_pay544; kpay_read) | rfl

theorem pay545_apply (v2998 : FVec Ideal S64x512 .f32) (v3000 : FVec Ideal S64x512 .f32) (v3533 : Vec Ideal S1x1 .f32) (v3537 : Vec Ideal S1x1 .f32) (r : Fin 64) (l : Fin 512) :
    k0_pay545 (F := Ideal) v2998 v3000 v3533 v3537 (ix2 r l) =
      ((min (v3000 (ix2 r l)) (k0_pay541 (F := Ideal) v3537)) - (max (v2998 (ix2 r l)) (k0_pay539 (F := Ideal) v3533))) := by
  first | (unfold k0_pay545; kpay_read) | rfl

theorem pay546_apply (v2998 : FVec Ideal S64x512 .f32) (v2999 : FVec Ideal S64x512 .f32) (v3000 : FVec Ideal S64x512 .f32) (v3001 : FVec Ideal S64x512 .f32) (v3004 : FVec Ideal S64x512 .f32) (v3532 : FVec Ideal S64x512 .f32) (v3534 : Ideal .f32) (v3536 : Ideal .f32) (v3538 : Ideal .f32) (v3540 : Ideal .f32) (v3544 : FVec Ideal S64x512 .f32) (v3548 : FVec Ideal S64x512 .f32) (v3549 : FVec Ideal S64x512 .f32) (cst_941 : Ideal .f32) (v3564 : Vec Ideal S1x1 .f32) (v3566 : Vec Ideal S1x1 .f32) (v3568 : Vec Ideal S1x1 .f32) (v3570 : Vec Ideal S1x1 .f32) (r : Fin 64) (l : Fin 512) :
    k0_pay546 (F := Ideal) v2998 v2999 v3000 v3001 v3004 v3532 v3534 v3536 v3538 v3540 v3544 v3548 v3549 cst_941 v3564 v3566 v3568 v3570 (ix2 r l) =
      (((v3532 (ix2 r l)) + (Ideal.div ((max cst_941 (v3549 (ix2 r l))) * (max (Ideal.ofBits .f32 0x00000000#32) ((v3548 (ix2 r l)) - (v3544 (ix2 r l))))) (((v3004 (ix2 r l)) + ((v3538 - v3534) * (v3540 - v3536))) - ((max cst_941 (v3549 (ix2 r l))) * (max (Ideal.ofBits .f32 0x00000000#32) ((v3548 (ix2 r l)) - (v3544 (ix2 r l)))))))) + (Ideal.div ((max (Ideal.ofBits .f32 0x00000000#32) ((min (v3000 (ix2 r l)) (v3568 (ix2 (0 : Fin 1) (0 : Fin 1)))) - (max (v2998 (ix2 r l)) (v3564 (ix2 (0 : Fin 1) (0 : Fin 1)))))) * (max (Ideal.ofBits .f32 0x00000000#32) ((min (v3001 (ix2 r l)) (v3570 (ix2 (0 : Fin 1) (0 : Fin 1)))) - (max (v2999 (ix2 r l)) (v3566 (ix2 (0 : Fin 1) (0 : Fin 1))))))) (((v3004 (ix2 r l)) + (((v3568 (ix2 (0 : Fin 1) (0 : Fin 1))) - (v3564 (ix2 (0 : Fin 1) (0 : Fin 1)))) * ((v3570 (ix2 (0 : Fin 1) (0 : Fin 1))) - (v3566 (ix2 (0 : Fin 1) (0 : Fin 1)))))) - ((max (Ideal.ofBits .f32 0x00000000#32) ((min (v3000 (ix2 r l)) (v3568 (ix2 (0 : Fin 1) (0 : Fin 1)))) - (max (v2998 (ix2 r l)) (v3564 (ix2 (0 : Fin 1) (0 : Fin 1)))))) * (max (Ideal.ofBits .f32 0x00000000#32) ((min (v3001 (ix2 r l)) (v3570 (ix2 (0 : Fin 1) (0 : Fin 1)))) - (max (v2999 (ix2 r l)) (v3566 (ix2 (0 : Fin 1) (0 : Fin 1)))))))))) := by
  first | (unfold k0_pay546; kpay_read) | rfl

theorem pay547_apply (v3595 : Vec Ideal S1x1 .f32) :
    k0_pay547 (F := Ideal) v3595 =
      (v3595 (ix2 (0 : Fin 1) (0 : Fin 1))) := by
  first | (unfold k0_pay547; kpay_read) | rfl

theorem pay548_apply (v2998 : FVec Ideal S64x512 .f32) (v2999 : FVec Ideal S64x512 .f32) (v3000 : FVec Ideal S64x512 .f32) (v3001 : FVec Ideal S64x512 .f32) (v3004 : FVec Ideal S64x512 .f32) (v3594 : FVec Ideal S64x512 .f32) (v3596 : Ideal .f32) (v3597 : Vec Ideal S1x1 .f32) (v3599 : Vec Ideal S1x1 .f32) (v3601 : Vec Ideal S1x1 .f32) (r : Fin 64) (l : Fin 512) :
    k0_pay548 (F := Ideal) v2998 v2999 v3000 v3001 v3004 v3594 v3596 v3597 v3599 v3601 (ix2 r l) =
      ((v3594 (ix2 r l)) + (Ideal.div ((max (Ideal.ofBits .f32 0x00000000#32) ((min (v3000 (ix2 r l)) (v3599 (ix2 (0 : Fin 1) (0 : Fin 1)))) - (max (v2998 (ix2 r l)) v3596))) * (max (Ideal.ofBits .f32 0x00000000#32) ((min (v3001 (ix2 r l)) (v3601 (ix2 (0 : Fin 1) (0 : Fin 1)))) - (max (v2999 (ix2 r l)) (v3597 (ix2 (0 : Fin 1) (0 : Fin 1))))))) (((v3004 (ix2 r l)) + (((v3599 (ix2 (0 : Fin 1) (0 : Fin 1))) - v3596) * ((v3601 (ix2 (0 : Fin 1) (0 : Fin 1))) - (v3597 (ix2 (0 : Fin 1) (0 : Fin 1)))))) - ((max (Ideal.ofBits .f32 0x00000000#32) ((min (v3000 (ix2 r l)) (v3599 (ix2 (0 : Fin 1) (0 : Fin 1)))) - (max (v2998 (ix2 r l)) v3596))) * (max (Ideal.ofBits .f32 0x00000000#32) ((min (v3001 (ix2 r l)) (v3601 (ix2 (0 : Fin 1) (0 : Fin 1)))) - (max (v2999 (ix2 r l)) (v3597 (ix2 (0 : Fin 1) (0 : Fin 1)))))))))) := by
  first | (unfold k0_pay548; kpay_read) | rfl

theorem pay549_apply (v3626 : Vec Ideal S1x1 .f32) :
    k0_pay549 (F := Ideal) v3626 =
      (v3626 (ix2 (0 : Fin 1) (0 : Fin 1))) := by
  first | (unfold k0_pay549; kpay_read) | rfl

theorem pay550_apply (v3628 : Vec Ideal S1x1 .f32) :
    k0_pay550 (F := Ideal) v3628 =
      (v3628 (ix2 (0 : Fin 1) (0 : Fin 1))) := by
  first | (unfold k0_pay550; kpay_read) | rfl

theorem pay551_apply (v3630 : Vec Ideal S1x1 .f32) :
    k0_pay551 (F := Ideal) v3630 =
      (v3630 (ix2 (0 : Fin 1) (0 : Fin 1))) := by
  first | (unfold k0_pay551; kpay_read) | rfl

theorem pay552_apply (v3632 : Vec Ideal S1x1 .f32) :
    k0_pay552 (F := Ideal) v3632 =
      (v3632 (ix2 (0 : Fin 1) (0 : Fin 1))) := by
  first | (unfold k0_pay552; kpay_read) | rfl

theorem pay553_apply (v2998 : FVec Ideal S64x512 .f32) (v3626 : Vec Ideal S1x1 .f32) (r : Fin 64) (l : Fin 512) :
    k0_pay553 (F := Ideal) v2998 v3626 (ix2 r l) =
      (max (v2998 (ix2 r l)) (k0_pay549 (F := Ideal) v3626)) := by
  first | (unfold k0_pay553; kpay_read) | rfl

theorem pay554_apply (v2999 : FVec Ideal S64x512 .f32) (v3628 : Vec Ideal S1x1 .f32) (r : Fin 64) (l : Fin 512) :
    k0_pay554 (F := Ideal) v2999 v3628 (ix2 r l) =
      (max (v2999 (ix2 r l)) (k0_pay550 (F := Ideal) v3628)) := by
  first | (unfold k0_pay554; kpay_read) | rfl

theorem pay555_apply (v3000 : FVec Ideal S64x512 .f32) (v3630 : Vec Ideal S1x1 .f32) (r : Fin 64) (l : Fin 512) :
    k0_pay555 (F := Ideal) v3000 v3630 (ix2 r l) =
      (min (v3000 (ix2 r l)) (k0_pay551 (F := Ideal) v3630)) := by
  first | (unfold k0_pay555; kpay_read) | rfl

theorem pay556_apply (v3632 : Vec Ideal S1x1 .f32) (r : Fin 64) (l : Fin 512) :
    k0_pay556 (F := Ideal) v3632 (ix2 r l) =
      (k0_pay552 (F := Ideal) v3632) := by
  first | (unfold k0_pay556; kpay_read) | rfl

theorem pay557_apply (v2998 : FVec Ideal S64x512 .f32) (v2999 : FVec Ideal S64x512 .f32) (v3000 : FVec Ideal S64x512 .f32) (v3001 : FVec Ideal S64x512 .f32) (v3004 : FVec Ideal S64x512 .f32) (v3625 : FVec Ideal S64x512 .f32) (v3627 : Ideal .f32) (v3629 : Ideal .f32) (v3631 : Ideal .f32) (v3633 : Ideal .f32) (v3635 : FVec Ideal S64x512 .f32) (v3637 : FVec Ideal S64x512 .f32) (v3639 : FVec Ideal S64x512 .f32) (v3640 : FVec Ideal S64x512 .f32) (v3657 : Vec Ideal S1x1 .f32) (v3659 : Vec Ideal S1x1 .f32) (v3661 : Vec Ideal S1x1 .f32) (v3663 : Vec Ideal S1x1 .f32) (r : Fin 64) (l : Fin 512) :
    k0_pay557 (F := Ideal) v2998 v2999 v3000 v3001 v3004 v3625 v3627 v3629 v3631 v3633 v3635 v3637 v3639 v3640 v3657 v3659 v3661 v3663 (ix2 r l) =
      (((v3625 (ix2 r l)) + (Ideal.div ((max (Ideal.ofBits .f32 0x00000000#32) ((v3639 (ix2 r l)) - (v3635 (ix2 r l)))) * (max (Ideal.ofBits .f32 0x00000000#32) ((min (v3001 (ix2 r l)) (v3640 (ix2 r l))) - (v3637 (ix2 r l))))) (((v3004 (ix2 r l)) + ((v3631 - v3627) * (v3633 - v3629))) - ((max (Ideal.ofBits .f32 0x00000000#32) ((v3639 (ix2 r l)) - (v3635 (ix2 r l)))) * (max (Ideal.ofBits .f32 0x00000000#32) ((min (v3001 (ix2 r l)) (v3640 (ix2 r l))) - (v3637 (ix2 r l)))))))) + (Ideal.div ((max (Ideal.ofBits .f32 0x00000000#32) ((min (v3000 (ix2 r l)) (v3661 (ix2 (0 : Fin 1) (0 : Fin 1)))) - (max (v2998 (ix2 r l)) (v3657 (ix2 (0 : Fin 1) (0 : Fin 1)))))) * (max (Ideal.ofBits .f32 0x00000000#32) ((min (v3001 (ix2 r l)) (v3663 (ix2 (0 : Fin 1) (0 : Fin 1)))) - (max (v2999 (ix2 r l)) (v3659 (ix2 (0 : Fin 1) (0 : Fin 1))))))) (((v3004 (ix2 r l)) + (((v3661 (ix2 (0 : Fin 1) (0 : Fin 1))) - (v3657 (ix2 (0 : Fin 1) (0 : Fin 1)))) * ((v3663 (ix2 (0 : Fin 1) (0 : Fin 1))) - (v3659 (ix2 (0 : Fin 1) (0 : Fin 1)))))) - ((max (Ideal.ofBits .f32 0x00000000#32) ((min (v3000 (ix2 r l)) (v3661 (ix2 (0 : Fin 1) (0 : Fin 1)))) - (max (v2998 (ix2 r l)) (v3657 (ix2 (0 : Fin 1) (0 : Fin 1)))))) * (max (Ideal.ofBits .f32 0x00000000#32) ((min (v3001 (ix2 r l)) (v3663 (ix2 (0 : Fin 1) (0 : Fin 1)))) - (max (v2999 (ix2 r l)) (v3659 (ix2 (0 : Fin 1) (0 : Fin 1)))))))))) := by
  first | (unfold k0_pay557; kpay_read) | rfl

theorem pay558_apply (v2998 : FVec Ideal S64x512 .f32) (v2999 : FVec Ideal S64x512 .f32) (v3000 : FVec Ideal S64x512 .f32) (v3001 : FVec Ideal S64x512 .f32) (v3004 : FVec Ideal S64x512 .f32) (v3687 : FVec Ideal S64x512 .f32) (v3688 : Vec Ideal S1x1 .f32) (v3690 : Vec Ideal S1x1 .f32) (v3692 : Vec Ideal S1x1 .f32) (v3694 : Vec Ideal S1x1 .f32) (r : Fin 64) (l : Fin 512) :
    k0_pay558 (F := Ideal) v2998 v2999 v3000 v3001 v3004 v3687 v3688 v3690 v3692 v3694 (ix2 r l) =
      ((v3687 (ix2 r l)) + (Ideal.div ((max (Ideal.ofBits .f32 0x00000000#32) ((min (v3000 (ix2 r l)) (v3692 (ix2 (0 : Fin 1) (0 : Fin 1)))) - (max (v2998 (ix2 r l)) (v3688 (ix2 (0 : Fin 1) (0 : Fin 1)))))) * (max (Ideal.ofBits .f32 0x00000000#32) ((min (v3001 (ix2 r l)) (v3694 (ix2 (0 : Fin 1) (0 : Fin 1)))) - (max (v2999 (ix2 r l)) (v3690 (ix2 (0 : Fin 1) (0 : Fin 1))))))) (((v3004 (ix2 r l)) + (((v3692 (ix2 (0 : Fin 1) (0 : Fin 1))) - (v3688 (ix2 (0 : Fin 1) (0 : Fin 1)))) * ((v3694 (ix2 (0 : Fin 1) (0 : Fin 1))) - (v3690 (ix2 (0 : Fin 1) (0 : Fin 1)))))) - ((max (Ideal.ofBits .f32 0x00000000#32) ((min (v3000 (ix2 r l)) (v3692 (ix2 (0 : Fin 1) (0 : Fin 1)))) - (max (v2998 (ix2 r l)) (v3688 (ix2 (0 : Fin 1) (0 : Fin 1)))))) * (max (Ideal.ofBits .f32 0x00000000#32) ((min (v3001 (ix2 r l)) (v3694 (ix2 (0 : Fin 1) (0 : Fin 1)))) - (max (v2999 (ix2 r l)) (v3690 (ix2 (0 : Fin 1) (0 : Fin 1)))))))))) := by
  first | (unfold k0_pay558; kpay_read) | rfl

theorem pay559_apply (v3719 : Vec Ideal S1x1 .f32) :
    k0_pay559 (F := Ideal) v3719 =
      (v3719 (ix2 (0 : Fin 1) (0 : Fin 1))) := by
  first | (unfold k0_pay559; kpay_read) | rfl

theorem pay560_apply (v3721 : Vec Ideal S1x1 .f32) :
    k0_pay560 (F := Ideal) v3721 =
      (v3721 (ix2 (0 : Fin 1) (0 : Fin 1))) := by
  first | (unfold k0_pay560; kpay_read) | rfl

theorem pay561_apply (v3723 : Vec Ideal S1x1 .f32) :
    k0_pay561 (F := Ideal) v3723 =
      (v3723 (ix2 (0 : Fin 1) (0 : Fin 1))) := by
  first | (unfold k0_pay561; kpay_read) | rfl

theorem pay562_apply (v3725 : Vec Ideal S1x1 .f32) :
    k0_pay562 (F := Ideal) v3725 =
      (v3725 (ix2 (0 : Fin 1) (0 : Fin 1))) := by
  first | (unfold k0_pay562; kpay_read) | rfl

theorem pay563_apply (v2998 : FVec Ideal S64x512 .f32) (v3719 : Vec Ideal S1x1 .f32) (r : Fin 64) (l : Fin 512) :
    k0_pay563 (F := Ideal) v2998 v3719 (ix2 r l) =
      (max (v2998 (ix2 r l)) (k0_pay559 (F := Ideal) v3719)) := by
  first | (unfold k0_pay563; kpay_read) | rfl

theorem pay564_apply (v2999 : FVec Ideal S64x512 .f32) (v3721 : Vec Ideal S1x1 .f32) (r : Fin 64) (l : Fin 512) :
    k0_pay564 (F := Ideal) v2999 v3721 (ix2 r l) =
      (max (v2999 (ix2 r l)) (k0_pay560 (F := Ideal) v3721)) := by
  first | (unfold k0_pay564; kpay_read) | rfl

theorem pay565_apply (v3000 : FVec Ideal S64x512 .f32) (v3001 : FVec Ideal S64x512 .f32) (v3004 : FVec Ideal S64x512 .f32) (v3718 : FVec Ideal S64x512 .f32) (v3720 : Ideal .f32) (v3722 : Ideal .f32) (v3724 : Ideal .f32) (v3726 : Ideal .f32) (v3728 : FVec Ideal S64x512 .f32) (v3730 : FVec Ideal S64x512 .f32) (r : Fin 64) (l : Fin 512) :
    k0_pay565 (F := Ideal) v3000 v3001 v3004 v3718 v3720 v3722 v3724 v3726 v3728 v3730 (ix2 r l) =
      ((v3718 (ix2 r l)) + (Ideal.div ((max (Ideal.ofBits .f32 0x00000000#32) ((min (v3000 (ix2 r l)) v3724) - (v3728 (ix2 r l)))) * (max (Ideal.ofBits .f32 0x00000000#32) ((min (v3001 (ix2 r l)) v3726) - (v3730 (ix2 r l))))) (((v3004 (ix2 r l)) + ((v3724 - v3720) * (v3726 - v3722))) - ((max (Ideal.ofBits .f32 0x00000000#32) ((min (v3000 (ix2 r l)) v3724) - (v3728 (ix2 r l)))) * (max (Ideal.ofBits .f32 0x00000000#32) ((min (v3001 (ix2 r l)) v3726) - (v3730 (ix2 r l)))))))) := by
  first | (unfold k0_pay565; kpay_read) | rfl

theorem pay566_apply (v3750 : Vec Ideal S1x1 .f32) :
    k0_pay566 (F := Ideal) v3750 =
      (v3750 (ix2 (0 : Fin 1) (0 : Fin 1))) := by
  first | (unfold k0_pay566; kpay_read) | rfl

theorem pay567_apply (v3752 : Vec Ideal S1x1 .f32) :
    k0_pay567 (F := Ideal) v3752 =
      (v3752 (ix2 (0 : Fin 1) (0 : Fin 1))) := by
  first | (unfold k0_pay567; kpay_read) | rfl

theorem pay568_apply (v3754 : Vec Ideal S1x1 .f32) :
    k0_pay568 (F := Ideal) v3754 =
      (v3754 (ix2 (0 : Fin 1) (0 : Fin 1))) := by
  first | (unfold k0_pay568; kpay_read) | rfl

theorem pay569_apply (v3756 : Vec Ideal S1x1 .f32) :
    k0_pay569 (F := Ideal) v3756 =
      (v3756 (ix2 (0 : Fin 1) (0 : Fin 1))) := by
  first | (unfold k0_pay569; kpay_read) | rfl

theorem pay570_apply (v2998 : FVec Ideal S64x512 .f32) (v2999 : FVec Ideal S64x512 .f32) (v3000 : FVec Ideal S64x512 .f32) (v3001 : FVec Ideal S64x512 .f32) (v3750 : Vec Ideal S1x1 .f32) (v3752 : Vec Ideal S1x1 .f32) (v3754 : Vec Ideal S1x1 .f32) (v3756 : Vec Ideal S1x1 .f32) (r : Fin 64) (l : Fin 512) :
    k0_pay570 (F := Ideal) v2998 v2999 v3000 v3001 v3750 v3752 v3754 v3756 (ix2 r l) =
      ((max (Ideal.ofBits .f32 0x00000000#32) ((min (v3000 (ix2 r l)) (k0_pay568 (F := Ideal) v3754)) - (max (v2998 (ix2 r l)) (k0_pay566 (F := Ideal) v3750)))) * (max (Ideal.ofBits .f32 0x00000000#32) ((min (v3001 (ix2 r l)) (k0_pay569 (F := Ideal) v3756)) - (max (v2999 (ix2 r l)) (k0_pay567 (F := Ideal) v3752))))) := by
  first | (unfold k0_pay570; kpay_read) | rfl

theorem pay571_apply (v2998 : FVec Ideal S64x512 .f32) (v2999 : FVec Ideal S64x512 .f32) (v3000 : FVec Ideal S64x512 .f32) (v3001 : FVec Ideal S64x512 .f32) (v3004 : FVec Ideal S64x512 .f32) (v3750 : Vec Ideal S1x1 .f32) (v3752 : Vec Ideal S1x1 .f32) (v3754 : Vec Ideal S1x1 .f32) (v3756 : Vec Ideal S1x1 .f32) (r : Fin 64) (l : Fin 512) :
    k0_pay571 (F := Ideal) v2998 v2999 v3000 v3001 v3004 v3750 v3752 v3754 v3756 (ix2 r l) =
      (((v3004 (ix2 r l)) + (((k0_pay568 (F := Ideal) v3754) - (k0_pay566 (F := Ideal) v3750)) * ((k0_pay569 (F := Ideal) v3756) - (k0_pay567 (F := Ideal) v3752)))) - (k0_pay570 (F := Ideal) v2998 v2999 v3000 v3001 v3750 v3752 v3754 v3756 (ix2 r l))) := by
  first | (unfold k0_pay571; kpay_read) | rfl

theorem pay572_apply (v2998 : FVec Ideal S64x512 .f32) (v2999 : FVec Ideal S64x512 .f32) (v3000 : FVec Ideal S64x512 .f32) (v3001 : FVec Ideal S64x512 .f32) (v3004 : FVec Ideal S64x512 .f32) (v3749 : FVec Ideal S64x512 .f32) (v3772 : FVec Ideal S64x512 .f32) (v3778 : FVec Ideal S64x512 .f32) (v3781 : Vec Ideal S1x1 .f32) (v3783 : Vec Ideal S1x1 .f32) (v3785 : Vec Ideal S1x1 .f32) (v3787 : Vec Ideal S1x1 .f32) (r : Fin 64) (l : Fin 512) :
    k0_pay572 (F := Ideal) v2998 v2999 v3000 v3001 v3004 v3749 v3772 v3778 v3781 v3783 v3785 v3787 (ix2 r l) =
      (((v3749 (ix2 r l)) + (Ideal.div (v3772 (ix2 r l)) (v3778 (ix2 r l)))) + (Ideal.div ((max (Ideal.ofBits .f32 0x00000000#32) ((min (v3000 (ix2 r l)) (v3785 (ix2 (0 : Fin 1) (0 : Fin 1)))) - (max (v2998 (ix2 r l)) (v3781 (ix2 (0 : Fin 1) (0 : Fin 1)))))) * (max (Ideal.ofBits .f32 0x00000000#32) ((min (v3001 (ix2 r l)) (v3787 (ix2 (0 : Fin 1) (0 : Fin 1)))) - (max (v2999 (ix2 r l)) (v3783 (ix2 (0 : Fin 1) (0 : Fin 1))))))) (((v3004 (ix2 r l)) + (((v3785 (ix2 (0 : Fin 1) (0 : Fin 1))) - (v3781 (ix2 (0 : Fin 1) (0 : Fin 1)))) * ((v3787 (ix2 (0 : Fin 1) (0 : Fin 1))) - (v3783 (ix2 (0 : Fin 1) (0 : Fin 1)))))) - ((max (Ideal.ofBits .f32 0x00000000#32) ((min (v3000 (ix2 r l)) (v3785 (ix2 (0 : Fin 1) (0 : Fin 1)))) - (max (v2998 (ix2 r l)) (v3781 (ix2 (0 : Fin 1) (0 : Fin 1)))))) * (max (Ideal.ofBits .f32 0x00000000#32) ((min (v3001 (ix2 r l)) (v3787 (ix2 (0 : Fin 1) (0 : Fin 1)))) - (max (v2999 (ix2 r l)) (v3783 (ix2 (0 : Fin 1) (0 : Fin 1)))))))))) := by
  first | (unfold k0_pay572; kpay_read) | rfl

theorem pay573_apply (v3812 : Vec Ideal S1x1 .f32) :
    k0_pay573 (F := Ideal) v3812 =
      (v3812 (ix2 (0 : Fin 1) (0 : Fin 1))) := by
  first | (unfold k0_pay573; kpay_read) | rfl

theorem pay574_apply (v3814 : Vec Ideal S1x1 .f32) :
    k0_pay574 (F := Ideal) v3814 =
      (v3814 (ix2 (0 : Fin 1) (0 : Fin 1))) := by
  first | (unfold k0_pay574; kpay_read) | rfl

theorem pay575_apply (v3816 : Vec Ideal S1x1 .f32) :
    k0_pay575 (F := Ideal) v3816 =
      (v3816 (ix2 (0 : Fin 1) (0 : Fin 1))) := by
  first | (unfold k0_pay575; kpay_read) | rfl

theorem pay576_apply (v3818 : Vec Ideal S1x1 .f32) :
    k0_pay576 (F := Ideal) v3818 =
      (v3818 (ix2 (0 : Fin 1) (0 : Fin 1))) := by
  first | (unfold k0_pay576; kpay_read) | rfl

theorem pay577_apply (v3812 : Vec Ideal S1x1 .f32) (r : Fin 64) (l : Fin 512) :
    k0_pay577 (F := Ideal) v3812 (ix2 r l) =
      (k0_pay573 (F := Ideal) v3812) := by
  first | (unfold k0_pay577; kpay_read) | rfl

theorem pay578_apply (v2998 : FVec Ideal S64x512 .f32) (v2999 : FVec Ideal S64x512 .f32) (v3000 : FVec Ideal S64x512 .f32) (v3001 : FVec Ideal S64x512 .f32) (v3004 : FVec Ideal S64x512 .f32) (v3811 : FVec Ideal S64x512 .f32) (v3813 : Ideal .f32) (v3815 : Ideal .f32) (v3817 : Ideal .f32) (v3819 : Ideal .f32) (v3820 : FVec Ideal S64x512 .f32) (r : Fin 64) (l : Fin 512) :
    k0_pay578 (F := Ideal) v2998 v2999 v3000 v3001 v3004 v3811 v3813 v3815 v3817 v3819 v3820 (ix2 r l) =
      ((v3811 (ix2 r l)) + (Ideal.div ((max (Ideal.ofBits .f32 0x00000000#32) ((min (v3000 (ix2 r l)) v3817) - (max (v2998 (ix2 r l)) (v3820 (ix2 r l))))) * (max (Ideal.ofBits .f32 0x00000000#32) ((min (v3001 (ix2 r l)) v3819) - (max (v2999 (ix2 r l)) v3815)))) (((v3004 (ix2 r l)) + ((v3817 - v3813) * (v3819 - v3815))) - ((max (Ideal.ofBits .f32 0x00000000#32) ((min (v3000 (ix2 r l)) v3817) - (max (v2998 (ix2 r l)) (v3820 (ix2 r l))))) * (max (Ideal.ofBits .f32 0x00000000#32) ((min (v3001 (ix2 r l)) v3819) - (max (v2999 (ix2 r l)) v3815))))))) := by
  first | (unfold k0_pay578; kpay_read) | rfl

theorem pay579_apply (v3843 : Vec Ideal S1x1 .f32) :
    k0_pay579 (F := Ideal) v3843 =
      (v3843 (ix2 (0 : Fin 1) (0 : Fin 1))) := by
  first | (unfold k0_pay579; kpay_read) | rfl

theorem pay580_apply (v3845 : Vec Ideal S1x1 .f32) :
    k0_pay580 (F := Ideal) v3845 =
      (v3845 (ix2 (0 : Fin 1) (0 : Fin 1))) := by
  first | (unfold k0_pay580; kpay_read) | rfl

theorem pay581_apply (v3847 : Vec Ideal S1x1 .f32) :
    k0_pay581 (F := Ideal) v3847 =
      (v3847 (ix2 (0 : Fin 1) (0 : Fin 1))) := by
  first | (unfold k0_pay581; kpay_read) | rfl

theorem pay582_apply (v3849 : Vec Ideal S1x1 .f32) :
    k0_pay582 (F := Ideal) v3849 =
      (v3849 (ix2 (0 : Fin 1) (0 : Fin 1))) := by
  first | (unfold k0_pay582; kpay_read) | rfl

theorem pay583_apply (v2998 : FVec Ideal S64x512 .f32) (v2999 : FVec Ideal S64x512 .f32) (v3000 : FVec Ideal S64x512 .f32) (v3001 : FVec Ideal S64x512 .f32) (v3843 : Vec Ideal S1x1 .f32) (v3845 : Vec Ideal S1x1 .f32) (v3847 : Vec Ideal S1x1 .f32) (v3849 : Vec Ideal S1x1 .f32) (r : Fin 64) (l : Fin 512) :
    k0_pay583 (F := Ideal) v2998 v2999 v3000 v3001 v3843 v3845 v3847 v3849 (ix2 r l) =
      ((max (Ideal.ofBits .f32 0x00000000#32) ((min (v3000 (ix2 r l)) (k0_pay581 (F := Ideal) v3847)) - (max (v2998 (ix2 r l)) (k0_pay579 (F := Ideal) v3843)))) * (max (Ideal.ofBits .f32 0x00000000#32) ((min (v3001 (ix2 r l)) (k0_pay582 (F := Ideal) v3849)) - (max (v2999 (ix2 r l)) (k0_pay580 (F := Ideal) v3845))))) := by
  first | (unfold k0_pay583; kpay_read) | rfl

theorem pay584_apply (v3843 : Vec Ideal S1x1 .f32) (v3845 : Vec Ideal S1x1 .f32) (v3847 : Vec Ideal S1x1 .f32) (v3849 : Vec Ideal S1x1 .f32) :
    k0_pay584 (F := Ideal) v3843 v3845 v3847 v3849 =
      (((k0_pay581 (F := Ideal) v3847) - (k0_pay579 (F := Ideal) v3843)) * ((k0_pay582 (F := Ideal) v3849) - (k0_pay580 (F := Ideal) v3845))) := by
  first | (unfold k0_pay584; kpay_read) | rfl

theorem pay585_apply (v2998 : FVec Ideal S64x512 .f32) (v2999 : FVec Ideal S64x512 .f32) (v3000 : FVec Ideal S64x512 .f32) (v3001 : FVec Ideal S64x512 .f32) (v3004 : FVec Ideal S64x512 .f32) (v3842 : FVec Ideal S64x512 .f32) (v3865 : FVec Ideal S64x512 .f32) (v3868 : Ideal .f32) (v3874 : Vec Ideal S1x1 .f32) (v3876 : Vec Ideal S1x1 .f32) (v3878 : Vec Ideal S1x1 .f32) (v3880 : Vec Ideal S1x1 .f32) (r : Fin 64) (l : Fin 512) :
    k0_pay585 (F := Ideal) v2998 v2999 v3000 v3001 v3004 v3842 v3865 v3868 v3874 v3876 v3878 v3880 (ix2 r l) =
      (((v3842 (ix2 r l)) + (Ideal.div (v3865 (ix2 r l)) (((v3004 (ix2 r l)) + v3868) - (v3865 (ix2 r l))))) + (Ideal.div ((max (Ideal.ofBits .f32 0x00000000#32) ((min (v3000 (ix2 r l)) (v3878 (ix2 (0 : Fin 1) (0 : Fin 1)))) - (max (v2998 (ix2 r l)) (v3874 (ix2 (0 : Fin 1) (0 : Fin 1)))))) * (max (Ideal.ofBits .f32 0x00000000#32) ((min (v3001 (ix2 r l)) (v3880 (ix2 (0 : Fin 1) (0 : Fin 1)))) - (max (v2999 (ix2 r l)) (v3876 (ix2 (0 : Fin 1) (0 : Fin 1))))))) (((v3004 (ix2 r l)) + (((v3878 (ix2 (0 : Fin 1) (0 : Fin 1))) - (v3874 (ix2 (0 : Fin 1) (0 : Fin 1)))) * ((v3880 (ix2 (0 : Fin 1) (0 : Fin 1))) - (v3876 (ix2 (0 : Fin 1) (0 : Fin 1)))))) - ((max (Ideal.ofBits .f32 0x00000000#32) ((min (v3000 (ix2 r l)) (v3878 (ix2 (0 : Fin 1) (0 : Fin 1)))) - (max (v2998 (ix2 r l)) (v3874 (ix2 (0 : Fin 1) (0 : Fin 1)))))) * (max (Ideal.ofBits .f32 0x00000000#32) ((min (v3001 (ix2 r l)) (v3880 (ix2 (0 : Fin 1) (0 : Fin 1)))) - (max (v2999 (ix2 r l)) (v3876 (ix2 (0 : Fin 1) (0 : Fin 1)))))))))) := by
  first | (unfold k0_pay585; kpay_read) | rfl

theorem pay586_apply (v3905 : Vec Ideal S1x1 .f32) :
    k0_pay586 (F := Ideal) v3905 =
      (v3905 (ix2 (0 : Fin 1) (0 : Fin 1))) := by
  first | (unfold k0_pay586; kpay_read) | rfl

theorem pay587_apply (v3907 : Vec Ideal S1x1 .f32) :
    k0_pay587 (F := Ideal) v3907 =
      (v3907 (ix2 (0 : Fin 1) (0 : Fin 1))) := by
  first | (unfold k0_pay587; kpay_read) | rfl

theorem pay588_apply (v3909 : Vec Ideal S1x1 .f32) :
    k0_pay588 (F := Ideal) v3909 =
      (v3909 (ix2 (0 : Fin 1) (0 : Fin 1))) := by
  first | (unfold k0_pay588; kpay_read) | rfl

theorem pay589_apply (v2998 : FVec Ideal S64x512 .f32) (v2999 : FVec Ideal S64x512 .f32) (v3000 : FVec Ideal S64x512 .f32) (v3001 : FVec Ideal S64x512 .f32) (v3004 : FVec Ideal S64x512 .f32) (v3904 : FVec Ideal S64x512 .f32) (v3906 : Ideal .f32) (v3908 : Ideal .f32) (v3910 : Ideal .f32) (v3911 : Vec Ideal S1x1 .f32) (r : Fin 64) (l : Fin 512) :
    k0_pay589 (F := Ideal) v2998 v2999 v3000 v3001 v3004 v3904 v3906 v3908 v3910 v3911 (ix2 r l) =
      ((v3904 (ix2 r l)) + (Ideal.div ((max (Ideal.ofBits .f32 0x00000000#32) ((min (v3000 (ix2 r l)) v3910) - (max (v2998 (ix2 r l)) v3906))) * (max (Ideal.ofBits .f32 0x00000000#32) ((min (v3001 (ix2 r l)) (v3911 (ix2 (0 : Fin 1) (0 : Fin 1)))) - (max (v2999 (ix2 r l)) v3908)))) (((v3004 (ix2 r l)) + ((v3910 - v3906) * ((v3911 (ix2 (0 : Fin 1) (0 : Fin 1))) - v3908))) - ((max (Ideal.ofBits .f32 0x00000000#32) ((min (v3000 (ix2 r l)) v3910) - (max (v2998 (ix2 r l)) v3906))) * (max (Ideal.ofBits .f32 0x00000000#32) ((min (v3001 (ix2 r l)) (v3911 (ix2 (0 : Fin 1) (0 : Fin 1)))) - (max (v2999 (ix2 r l)) v3908))))))) := by
  first | (unfold k0_pay589; kpay_read) | rfl

theorem pay590_apply (v3936 : Vec Ideal S1x1 .f32) :
    k0_pay590 (F := Ideal) v3936 =
      (v3936 (ix2 (0 : Fin 1) (0 : Fin 1))) := by
  first | (unfold k0_pay590; kpay_read) | rfl

theorem pay591_apply (v3938 : Vec Ideal S1x1 .f32) :
    k0_pay591 (F := Ideal) v3938 =
      (v3938 (ix2 (0 : Fin 1) (0 : Fin 1))) := by
  first | (unfold k0_pay591; kpay_read) | rfl

theorem pay592_apply (v3940 : Vec Ideal S1x1 .f32) :
    k0_pay592 (F := Ideal) v3940 =
      (v3940 (ix2 (0 : Fin 1) (0 : Fin 1))) := by
  first | (unfold k0_pay592; kpay_read) | rfl

theorem pay593_apply (v3942 : Vec Ideal S1x1 .f32) :
    k0_pay593 (F := Ideal) v3942 =
      (v3942 (ix2 (0 : Fin 1) (0 : Fin 1))) := by
  first | (unfold k0_pay593; kpay_read) | rfl

theorem pay594_apply (v2998 : FVec Ideal S64x512 .f32) (v2999 : FVec Ideal S64x512 .f32) (v3000 : FVec Ideal S64x512 .f32) (v3001 : FVec Ideal S64x512 .f32) (v3936 : Vec Ideal S1x1 .f32) (v3938 : Vec Ideal S1x1 .f32) (v3940 : Vec Ideal S1x1 .f32) (v3942 : Vec Ideal S1x1 .f32) (r : Fin 64) (l : Fin 512) :
    k0_pay594 (F := Ideal) v2998 v2999 v3000 v3001 v3936 v3938 v3940 v3942 (ix2 r l) =
      ((max (Ideal.ofBits .f32 0x00000000#32) ((min (v3000 (ix2 r l)) (k0_pay592 (F := Ideal) v3940)) - (max (v2998 (ix2 r l)) (k0_pay590 (F := Ideal) v3936)))) * (max (Ideal.ofBits .f32 0x00000000#32) ((min (v3001 (ix2 r l)) (k0_pay593 (F := Ideal) v3942)) - (max (v2999 (ix2 r l)) (k0_pay591 (F := Ideal) v3938))))) := by
  first | (unfold k0_pay594; kpay_read) | rfl

theorem pay595_apply (v2998 : FVec Ideal S64x512 .f32) (v2999 : FVec Ideal S64x512 .f32) (v3000 : FVec Ideal S64x512 .f32) (v3001 : FVec Ideal S64x512 .f32) (v3004 : FVec Ideal S64x512 .f32) (v3935 : FVec Ideal S64x512 .f32) (v3937 : Ideal .f32) (v3939 : Ideal .f32) (v3941 : Ideal .f32) (v3943 : Ideal .f32) (v3958 : FVec Ideal S64x512 .f32) (v3967 : Vec Ideal S1x1 .f32) (v3969 : Vec Ideal S1x1 .f32) (v3971 : Vec Ideal S1x1 .f32) (v3973 : Vec Ideal S1x1 .f32) (r : Fin 64) (l : Fin 512) :
    k0_pay595 (F := Ideal) v2998 v2999 v3000 v3001 v3004 v3935 v3937 v3939 v3941 v3943 v3958 v3967 v3969 v3971 v3973 (ix2 r l) =
      (((v3935 (ix2 r l)) + (Ideal.div (v3958 (ix2 r l)) (((v3004 (ix2 r l)) + ((v3941 - v3937) * (v3943 - v3939))) - (v3958 (ix2 r l))))) + (Ideal.div ((max (Ideal.ofBits .f32 0x00000000#32) ((min (v3000 (ix2 r l)) (v3971 (ix2 (0 : Fin 1) (0 : Fin 1)))) - (max (v2998 (ix2 r l)) (v3967 (ix2 (0 : Fin 1) (0 : Fin 1)))))) * (max (Ideal.ofBits .f32 0x00000000#32) ((min (v3001 (ix2 r l)) (v3973 (ix2 (0 : Fin 1) (0 : Fin 1)))) - (max (v2999 (ix2 r l)) (v3969 (ix2 (0 : Fin 1) (0 : Fin 1))))))) (((v3004 (ix2 r l)) + (((v3971 (ix2 (0 : Fin 1) (0 : Fin 1))) - (v3967 (ix2 (0 : Fin 1) (0 : Fin 1)))) * ((v3973 (ix2 (0 : Fin 1) (0 : Fin 1))) - (v3969 (ix2 (0 : Fin 1) (0 : Fin 1)))))) - ((max (Ideal.ofBits .f32 0x00000000#32) ((min (v3000 (ix2 r l)) (v3971 (ix2 (0 : Fin 1) (0 : Fin 1)))) - (max (v2998 (ix2 r l)) (v3967 (ix2 (0 : Fin 1) (0 : Fin 1)))))) * (max (Ideal.ofBits .f32 0x00000000#32) ((min (v3001 (ix2 r l)) (v3973 (ix2 (0 : Fin 1) (0 : Fin 1)))) - (max (v2999 (ix2 r l)) (v3969 (ix2 (0 : Fin 1) (0 : Fin 1)))))))))) := by
  first | (unfold k0_pay595; kpay_read) | rfl

theorem pay596_apply (v3998 : Vec Ideal S1x1 .f32) :
    k0_pay596 (F := Ideal) v3998 =
      (v3998 (ix2 (0 : Fin 1) (0 : Fin 1))) := by
  first | (unfold k0_pay596; kpay_read) | rfl

theorem pay597_apply (v4000 : Vec Ideal S1x1 .f32) :
    k0_pay597 (F := Ideal) v4000 =
      (v4000 (ix2 (0 : Fin 1) (0 : Fin 1))) := by
  first | (unfold k0_pay597; kpay_read) | rfl

theorem pay598_apply (v2998 : FVec Ideal S64x512 .f32) (v2999 : FVec Ideal S64x512 .f32) (v3000 : FVec Ideal S64x512 .f32) (v3001 : FVec Ideal S64x512 .f32) (v3004 : FVec Ideal S64x512 .f32) (v3997 : FVec Ideal S64x512 .f32) (v3999 : Ideal .f32) (v4001 : Ideal .f32) (v4002 : Vec Ideal S1x1 .f32) (v4004 : Vec Ideal S1x1 .f32) (r : Fin 64) (l : Fin 512) :
    k0_pay598 (F := Ideal) v2998 v2999 v3000 v3001 v3004 v3997 v3999 v4001 v4002 v4004 (ix2 r l) =
      ((v3997 (ix2 r l)) + (Ideal.div ((max (Ideal.ofBits .f32 0x00000000#32) ((min (v3000 (ix2 r l)) (v4002 (ix2 (0 : Fin 1) (0 : Fin 1)))) - (max (v2998 (ix2 r l)) v3999))) * (max (Ideal.ofBits .f32 0x00000000#32) ((min (v3001 (ix2 r l)) (v4004 (ix2 (0 : Fin 1) (0 : Fin 1)))) - (max (v2999 (ix2 r l)) v4001)))) (((v3004 (ix2 r l)) + (((v4002 (ix2 (0 : Fin 1) (0 : Fin 1))) - v3999) * ((v4004 (ix2 (0 : Fin 1) (0 : Fin 1))) - v4001))) - ((max (Ideal.ofBits .f32 0x00000000#32) ((min (v3000 (ix2 r l)) (v4002 (ix2 (0 : Fin 1) (0 : Fin 1)))) - (max (v2998 (ix2 r l)) v3999))) * (max (Ideal.ofBits .f32 0x00000000#32) ((min (v3001 (ix2 r l)) (v4004 (ix2 (0 : Fin 1) (0 : Fin 1)))) - (max (v2999 (ix2 r l)) v4001))))))) := by
  first | (unfold k0_pay598; kpay_read) | rfl

theorem pay599_apply (v4029 : Vec Ideal S1x1 .f32) :
    k0_pay599 (F := Ideal) v4029 =
      (v4029 (ix2 (0 : Fin 1) (0 : Fin 1))) := by
  first | (unfold k0_pay599; kpay_read) | rfl

theorem pay600_apply (v4031 : Vec Ideal S1x1 .f32) :
    k0_pay600 (F := Ideal) v4031 =
      (v4031 (ix2 (0 : Fin 1) (0 : Fin 1))) := by
  first | (unfold k0_pay600; kpay_read) | rfl

theorem pay601_apply (v4033 : Vec Ideal S1x1 .f32) :
    k0_pay601 (F := Ideal) v4033 =
      (v4033 (ix2 (0 : Fin 1) (0 : Fin 1))) := by
  first | (unfold k0_pay601; kpay_read) | rfl

theorem pay602_apply (v4035 : Vec Ideal S1x1 .f32) :
    k0_pay602 (F := Ideal) v4035 =
      (v4035 (ix2 (0 : Fin 1) (0 : Fin 1))) := by
  first | (unfold k0_pay602; kpay_read) | rfl

theorem pay603_apply (v2998 : FVec Ideal S64x512 .f32) (v3000 : FVec Ideal S64x512 .f32) (v4029 : Vec Ideal S1x1 .f32) (v4033 : Vec Ideal S1x1 .f32) (r : Fin 64) (l : Fin 512) :
    k0_pay603 (F := Ideal) v2998 v3000 v4029 v4033 (ix2 r l) =
      (max (Ideal.ofBits .f32 0x00000000#32) ((min (v3000 (ix2 r l)) (k0_pay601 (F := Ideal) v4033)) - (max (v2998 (ix2 r l)) (k0_pay599 (F := Ideal) v4029)))) := by
  first | (unfold k0_pay603; kpay_read) | rfl

theorem pay604_apply (v2999 : FVec Ideal S64x512 .f32) (v3001 : FVec Ideal S64x512 .f32) (v4031 : Vec Ideal S1x1 .f32) (v4035 : Vec Ideal S1x1 .f32) (r : Fin 64) (l : Fin 512) :
    k0_pay604 (F := Ideal) v2999 v3001 v4031 v4035 (ix2 r l) =
      ((min (v3001 (ix2 r l)) (k0_pay602 (F := Ideal) v4035)) - (max (v2999 (ix2 r l)) (k0_pay600 (F := Ideal) v4031))) := by
  first | (unfold k0_pay604; kpay_read) | rfl

theorem pay605_apply (v2998 : FVec Ideal S64x512 .f32) (v2999 : FVec Ideal S64x512 .f32) (v3000 : FVec Ideal S64x512 .f32) (v3001 : FVec Ideal S64x512 .f32) (v3004 : FVec Ideal S64x512 .f32) (v4028 : FVec Ideal S64x512 .f32) (v4030 : Ideal .f32) (v4032 : Ideal .f32) (v4034 : Ideal .f32) (v4036 : Ideal .f32) (v4047 : FVec Ideal S64x512 .f32) (v4048 : FVec Ideal S64x512 .f32) (cst_1102 : Ideal .f32) (v4060 : Vec Ideal S1x1 .f32) (v4062 : Vec Ideal S1x1 .f32) (v4064 : Vec Ideal S1x1 .f32) (v4066 : Vec Ideal S1x1 .f32) (r : Fin 64) (l : Fin 512) :
    k0_pay605 (F := Ideal) v2998 v2999 v3000 v3001 v3004 v4028 v4030 v4032 v4034 v4036 v4047 v4048 cst_1102 v4060 v4062 v4064 v4066 (ix2 r l) =
      (((v4028 (ix2 r l)) + (Ideal.div ((v4047 (ix2 r l)) * (max cst_1102 (v4048 (ix2 r l)))) (((v3004 (ix2 r l)) + ((v4034 - v4030) * (v4036 - v4032))) - ((v4047 (ix2 r l)) * (max cst_1102 (v4048 (ix2 r l))))))) + (Ideal.div ((max (Ideal.ofBits .f32 0x00000000#32) ((min (v3000 (ix2 r l)) (v4064 (ix2 (0 : Fin 1) (0 : Fin 1)))) - (max (v2998 (ix2 r l)) (v4060 (ix2 (0 : Fin 1) (0 : Fin 1)))))) * (max (Ideal.ofBits .f32 0x00000000#32) ((min (v3001 (ix2 r l)) (v4066 (ix2 (0 : Fin 1) (0 : Fin 1)))) - (max (v2999 (ix2 r l)) (v4062 (ix2 (0 : Fin 1) (0 : Fin 1))))))) (((v3004 (ix2 r l)) + (((v4064 (ix2 (0 : Fin 1) (0 : Fin 1))) - (v4060 (ix2 (0 : Fin 1) (0 : Fin 1)))) * ((v4066 (ix2 (0 : Fin 1) (0 : Fin 1))) - (v4062 (ix2 (0 : Fin 1) (0 : Fin 1)))))) - ((max (Ideal.ofBits .f32 0x00000000#32) ((min (v3000 (ix2 r l)) (v4064 (ix2 (0 : Fin 1) (0 : Fin 1)))) - (max (v2998 (ix2 r l)) (v4060 (ix2 (0 : Fin 1) (0 : Fin 1)))))) * (max (Ideal.ofBits .f32 0x00000000#32) ((min (v3001 (ix2 r l)) (v4066 (ix2 (0 : Fin 1) (0 : Fin 1)))) - (max (v2999 (ix2 r l)) (v4062 (ix2 (0 : Fin 1) (0 : Fin 1)))))))))) := by
  first | (unfold k0_pay605; kpay_read) | rfl

theorem pay606_apply (v4091 : Vec Ideal S1x1 .f32) :
    k0_pay606 (F := Ideal) v4091 =
      (v4091 (ix2 (0 : Fin 1) (0 : Fin 1))) := by
  first | (unfold k0_pay606; kpay_read) | rfl

theorem pay607_apply (v4093 : Vec Ideal S1x1 .f32) :
    k0_pay607 (F := Ideal) v4093 =
      (v4093 (ix2 (0 : Fin 1) (0 : Fin 1))) := by
  first | (unfold k0_pay607; kpay_read) | rfl

theorem pay608_apply (v2998 : FVec Ideal S64x512 .f32) (v2999 : FVec Ideal S64x512 .f32) (v3000 : FVec Ideal S64x512 .f32) (v3001 : FVec Ideal S64x512 .f32) (v3004 : FVec Ideal S64x512 .f32) (v4090 : FVec Ideal S64x512 .f32) (v4092 : Ideal .f32) (v4094 : Ideal .f32) (v4095 : Vec Ideal S1x1 .f32) (v4097 : Vec Ideal S1x1 .f32) (r : Fin 64) (l : Fin 512) :
    k0_pay608 (F := Ideal) v2998 v2999 v3000 v3001 v3004 v4090 v4092 v4094 v4095 v4097 (ix2 r l) =
      ((v4090 (ix2 r l)) + (Ideal.div ((max (Ideal.ofBits .f32 0x00000000#32) ((min (v3000 (ix2 r l)) (v4095 (ix2 (0 : Fin 1) (0 : Fin 1)))) - (max (v2998 (ix2 r l)) v4092))) * (max (Ideal.ofBits .f32 0x00000000#32) ((min (v3001 (ix2 r l)) (v4097 (ix2 (0 : Fin 1) (0 : Fin 1)))) - (max (v2999 (ix2 r l)) v4094)))) (((v3004 (ix2 r l)) + (((v4095 (ix2 (0 : Fin 1) (0 : Fin 1))) - v4092) * ((v4097 (ix2 (0 : Fin 1) (0 : Fin 1))) - v4094))) - ((max (Ideal.ofBits .f32 0x00000000#32) ((min (v3000 (ix2 r l)) (v4095 (ix2 (0 : Fin 1) (0 : Fin 1)))) - (max (v2998 (ix2 r l)) v4092))) * (max (Ideal.ofBits .f32 0x00000000#32) ((min (v3001 (ix2 r l)) (v4097 (ix2 (0 : Fin 1) (0 : Fin 1)))) - (max (v2999 (ix2 r l)) v4094))))))) := by
  first | (unfold k0_pay608; kpay_read) | rfl

theorem pay609_apply (v4122 : Vec Ideal S1x1 .f32) :
    k0_pay609 (F := Ideal) v4122 =
      (v4122 (ix2 (0 : Fin 1) (0 : Fin 1))) := by
  first | (unfold k0_pay609; kpay_read) | rfl

theorem pay610_apply (v4124 : Vec Ideal S1x1 .f32) :
    k0_pay610 (F := Ideal) v4124 =
      (v4124 (ix2 (0 : Fin 1) (0 : Fin 1))) := by
  first | (unfold k0_pay610; kpay_read) | rfl

theorem pay611_apply (v4126 : Vec Ideal S1x1 .f32) :
    k0_pay611 (F := Ideal) v4126 =
      (v4126 (ix2 (0 : Fin 1) (0 : Fin 1))) := by
  first | (unfold k0_pay611; kpay_read) | rfl

theorem pay612_apply (v4128 : Vec Ideal S1x1 .f32) :
    k0_pay612 (F := Ideal) v4128 =
      (v4128 (ix2 (0 : Fin 1) (0 : Fin 1))) := by
  first | (unfold k0_pay612; kpay_read) | rfl

theorem pay613_apply (v2999 : FVec Ideal S64x512 .f32) (v4124 : Vec Ideal S1x1 .f32) (r : Fin 64) (l : Fin 512) :
    k0_pay613 (F := Ideal) v2999 v4124 (ix2 r l) =
      (max (v2999 (ix2 r l)) (k0_pay610 (F := Ideal) v4124)) := by
  first | (unfold k0_pay613; kpay_read) | rfl

theorem pay614_apply (v3001 : FVec Ideal S64x512 .f32) (v4128 : Vec Ideal S1x1 .f32) (r : Fin 64) (l : Fin 512) :
    k0_pay614 (F := Ideal) v3001 v4128 (ix2 r l) =
      (min (v3001 (ix2 r l)) (k0_pay612 (F := Ideal) v4128)) := by
  first | (unfold k0_pay614; kpay_read) | rfl

theorem pay615_apply (v2998 : FVec Ideal S64x512 .f32) (v3000 : FVec Ideal S64x512 .f32) (v4122 : Vec Ideal S1x1 .f32) (v4126 : Vec Ideal S1x1 .f32) (r : Fin 64) (l : Fin 512) :
    k0_pay615 (F := Ideal) v2998 v3000 v4122 v4126 (ix2 r l) =
      ((min (v3000 (ix2 r l)) (k0_pay611 (F := Ideal) v4126)) - (max (v2998 (ix2 r l)) (k0_pay609 (F := Ideal) v4122))) := by
  first | (unfold k0_pay615; kpay_read) | rfl

theorem pay616_apply  (r : Fin 64) (l : Fin 512) :
    k0_pay616 (F := Ideal) (ix2 r l) =
      (Ideal.ofBits .f32 0x00000000#32) := by
  first | (unfold k0_pay616; kpay_read) | rfl

theorem pay617_apply (v2998 : FVec Ideal S64x512 .f32) (v2999 : FVec Ideal S64x512 .f32) (v3000 : FVec Ideal S64x512 .f32) (v3001 : FVec Ideal S64x512 .f32) (v3004 : FVec Ideal S64x512 .f32) (v4121 : FVec Ideal S64x512 .f32) (v4123 : Ideal .f32) (v4125 : Ideal .f32) (v4127 : Ideal .f32) (v4129 : Ideal .f32) (v4133 : FVec Ideal S64x512 .f32) (v4137 : FVec Ideal S64x512 .f32) (v4138 : FVec Ideal S64x512 .f32) (v4139 : FVec Ideal S64x512 .f32) (v4153 : Vec Ideal S1x1 .f32) (v4155 : Vec Ideal S1x1 .f32) (v4157 : Vec Ideal S1x1 .f32) (v4159 : Vec Ideal S1x1 .f32) (r : Fin 64) (l : Fin 512) :
    k0_pay617 (F := Ideal) v2998 v2999 v3000 v3001 v3004 v4121 v4123 v4125 v4127 v4129 v4133 v4137 v4138 v4139 v4153 v4155 v4157 v4159 (ix2 r l) =
      (((v4121 (ix2 r l)) + (Ideal.div ((max (v4139 (ix2 r l)) (v4138 (ix2 r l))) * (max (Ideal.ofBits .f32 0x00000000#32) ((v4137 (ix2 r l)) - (v4133 (ix2 r l))))) (((v3004 (ix2 r l)) + ((v4127 - v4123) * (v4129 - v4125))) - ((max (v4139 (ix2 r l)) (v4138 (ix2 r l))) * (max (Ideal.ofBits .f32 0x00000000#32) ((v4137 (ix2 r l)) - (v4133 (ix2 r l)))))))) + (Ideal.div ((max (Ideal.ofBits .f32 0x00000000#32) ((min (v3000 (ix2 r l)) (v4157 (ix2 (0 : Fin 1) (0 : Fin 1)))) - (max (v2998 (ix2 r l)) (v4153 (ix2 (0 : Fin 1) (0 : Fin 1)))))) * (max (Ideal.ofBits .f32 0x00000000#32) ((min (v3001 (ix2 r l)) (v4159 (ix2 (0 : Fin 1) (0 : Fin 1)))) - (max (v2999 (ix2 r l)) (v4155 (ix2 (0 : Fin 1) (0 : Fin 1))))))) (((v3004 (ix2 r l)) + (((v4157 (ix2 (0 : Fin 1) (0 : Fin 1))) - (v4153 (ix2 (0 : Fin 1) (0 : Fin 1)))) * ((v4159 (ix2 (0 : Fin 1) (0 : Fin 1))) - (v4155 (ix2 (0 : Fin 1) (0 : Fin 1)))))) - ((max (Ideal.ofBits .f32 0x00000000#32) ((min (v3000 (ix2 r l)) (v4157 (ix2 (0 : Fin 1) (0 : Fin 1)))) - (max (v2998 (ix2 r l)) (v4153 (ix2 (0 : Fin 1) (0 : Fin 1)))))) * (max (Ideal.ofBits .f32 0x00000000#32) ((min (v3001 (ix2 r l)) (v4159 (ix2 (0 : Fin 1) (0 : Fin 1)))) - (max (v2999 (ix2 r l)) (v4155 (ix2 (0 : Fin 1) (0 : Fin 1)))))))))) := by
  first | (unfold k0_pay617; kpay_read) | rfl

theorem pay618_apply (v4184 : Vec Ideal S1x1 .f32) :
    k0_pay618 (F := Ideal) v4184 =
      (v4184 (ix2 (0 : Fin 1) (0 : Fin 1))) := by
  first | (unfold k0_pay618; kpay_read) | rfl

theorem pay619_apply (v2998 : FVec Ideal S64x512 .f32) (v2999 : FVec Ideal S64x512 .f32) (v3000 : FVec Ideal S64x512 .f32) (v3001 : FVec Ideal S64x512 .f32) (v3004 : FVec Ideal S64x512 .f32) (v4183 : FVec Ideal S64x512 .f32) (v4185 : Ideal .f32) (v4186 : Vec Ideal S1x1 .f32) (v4188 : Vec Ideal S1x1 .f32) (v4190 : Vec Ideal S1x1 .f32) (r : Fin 64) (l : Fin 512) :
    k0_pay619 (F := Ideal) v2998 v2999 v3000 v3001 v3004 v4183 v4185 v4186 v4188 v4190 (ix2 r l) =
      ((v4183 (ix2 r l)) + (Ideal.div ((max (Ideal.ofBits .f32 0x00000000#32) ((min (v3000 (ix2 r l)) (v4188 (ix2 (0 : Fin 1) (0 : Fin 1)))) - (max (v2998 (ix2 r l)) v4185))) * (max (Ideal.ofBits .f32 0x00000000#32) ((min (v3001 (ix2 r l)) (v4190 (ix2 (0 : Fin 1) (0 : Fin 1)))) - (max (v2999 (ix2 r l)) (v4186 (ix2 (0 : Fin 1) (0 : Fin 1))))))) (((v3004 (ix2 r l)) + (((v4188 (ix2 (0 : Fin 1) (0 : Fin 1))) - v4185) * ((v4190 (ix2 (0 : Fin 1) (0 : Fin 1))) - (v4186 (ix2 (0 : Fin 1) (0 : Fin 1)))))) - ((max (Ideal.ofBits .f32 0x00000000#32) ((min (v3000 (ix2 r l)) (v4188 (ix2 (0 : Fin 1) (0 : Fin 1)))) - (max (v2998 (ix2 r l)) v4185))) * (max (Ideal.ofBits .f32 0x00000000#32) ((min (v3001 (ix2 r l)) (v4190 (ix2 (0 : Fin 1) (0 : Fin 1)))) - (max (v2999 (ix2 r l)) (v4186 (ix2 (0 : Fin 1) (0 : Fin 1)))))))))) := by
  first | (unfold k0_pay619; kpay_read) | rfl

theorem pay620_apply (v4215 : Vec Ideal S1x1 .f32) :
    k0_pay620 (F := Ideal) v4215 =
      (v4215 (ix2 (0 : Fin 1) (0 : Fin 1))) := by
  first | (unfold k0_pay620; kpay_read) | rfl

theorem pay621_apply (v4217 : Vec Ideal S1x1 .f32) :
    k0_pay621 (F := Ideal) v4217 =
      (v4217 (ix2 (0 : Fin 1) (0 : Fin 1))) := by
  first | (unfold k0_pay621; kpay_read) | rfl

theorem pay622_apply (v4219 : Vec Ideal S1x1 .f32) :
    k0_pay622 (F := Ideal) v4219 =
      (v4219 (ix2 (0 : Fin 1) (0 : Fin 1))) := by
  first | (unfold k0_pay622; kpay_read) | rfl

theorem pay623_apply (v4221 : Vec Ideal S1x1 .f32) :
    k0_pay623 (F := Ideal) v4221 =
      (v4221 (ix2 (0 : Fin 1) (0 : Fin 1))) := by
  first | (unfold k0_pay623; kpay_read) | rfl

theorem pay624_apply (v2998 : FVec Ideal S64x512 .f32) (v4215 : Vec Ideal S1x1 .f32) (r : Fin 64) (l : Fin 512) :
    k0_pay624 (F := Ideal) v2998 v4215 (ix2 r l) =
      (max (v2998 (ix2 r l)) (k0_pay620 (F := Ideal) v4215)) := by
  first | (unfold k0_pay624; kpay_read) | rfl

theorem pay625_apply (v2999 : FVec Ideal S64x512 .f32) (v4217 : Vec Ideal S1x1 .f32) (r : Fin 64) (l : Fin 512) :
    k0_pay625 (F := Ideal) v2999 v4217 (ix2 r l) =
      (max (v2999 (ix2 r l)) (k0_pay621 (F := Ideal) v4217)) := by
  first | (unfold k0_pay625; kpay_read) | rfl

theorem pay626_apply (v3000 : FVec Ideal S64x512 .f32) (v4219 : Vec Ideal S1x1 .f32) (r : Fin 64) (l : Fin 512) :
    k0_pay626 (F := Ideal) v3000 v4219 (ix2 r l) =
      (min (v3000 (ix2 r l)) (k0_pay622 (F := Ideal) v4219)) := by
  first | (unfold k0_pay626; kpay_read) | rfl

theorem pay627_apply (v3001 : FVec Ideal S64x512 .f32) (v4221 : Vec Ideal S1x1 .f32) (r : Fin 64) (l : Fin 512) :
    k0_pay627 (F := Ideal) v3001 v4221 (ix2 r l) =
      (min (v3001 (ix2 r l)) (k0_pay623 (F := Ideal) v4221)) := by
  first | (unfold k0_pay627; kpay_read) | rfl

theorem pay628_apply (v2998 : FVec Ideal S64x512 .f32) (v2999 : FVec Ideal S64x512 .f32) (v3000 : FVec Ideal S64x512 .f32) (v3001 : FVec Ideal S64x512 .f32) (v3004 : FVec Ideal S64x512 .f32) (v4214 : FVec Ideal S64x512 .f32) (v4216 : Ideal .f32) (v4218 : Ideal .f32) (v4220 : Ideal .f32) (v4222 : Ideal .f32) (v4224 : FVec Ideal S64x512 .f32) (v4226 : FVec Ideal S64x512 .f32) (v4228 : FVec Ideal S64x512 .f32) (v4230 : FVec Ideal S64x512 .f32) (v4246 : Vec Ideal S1x1 .f32) (v4248 : Vec Ideal S1x1 .f32) (v4250 : Vec Ideal S1x1 .f32) (v4252 : Vec Ideal S1x1 .f32) (r : Fin 64) (l : Fin 512) :
    k0_pay628 (F := Ideal) v2998 v2999 v3000 v3001 v3004 v4214 v4216 v4218 v4220 v4222 v4224 v4226 v4228 v4230 v4246 v4248 v4250 v4252 (ix2 r l) =
      (((v4214 (ix2 r l)) + (Ideal.div ((max (Ideal.ofBits .f32 0x00000000#32) ((v4228 (ix2 r l)) - (v4224 (ix2 r l)))) * (max (Ideal.ofBits .f32 0x00000000#32) ((v4230 (ix2 r l)) - (v4226 (ix2 r l))))) (((v3004 (ix2 r l)) + ((v4220 - v4216) * (v4222 - v4218))) - ((max (Ideal.ofBits .f32 0x00000000#32) ((v4228 (ix2 r l)) - (v4224 (ix2 r l)))) * (max (Ideal.ofBits .f32 0x00000000#32) ((v4230 (ix2 r l)) - (v4226 (ix2 r l)))))))) + (Ideal.div ((max (Ideal.ofBits .f32 0x00000000#32) ((min (v3000 (ix2 r l)) (v4250 (ix2 (0 : Fin 1) (0 : Fin 1)))) - (max (v2998 (ix2 r l)) (v4246 (ix2 (0 : Fin 1) (0 : Fin 1)))))) * (max (Ideal.ofBits .f32 0x00000000#32) ((min (v3001 (ix2 r l)) (v4252 (ix2 (0 : Fin 1) (0 : Fin 1)))) - (max (v2999 (ix2 r l)) (v4248 (ix2 (0 : Fin 1) (0 : Fin 1))))))) (((v3004 (ix2 r l)) + (((v4250 (ix2 (0 : Fin 1) (0 : Fin 1))) - (v4246 (ix2 (0 : Fin 1) (0 : Fin 1)))) * ((v4252 (ix2 (0 : Fin 1) (0 : Fin 1))) - (v4248 (ix2 (0 : Fin 1) (0 : Fin 1)))))) - ((max (Ideal.ofBits .f32 0x00000000#32) ((min (v3000 (ix2 r l)) (v4250 (ix2 (0 : Fin 1) (0 : Fin 1)))) - (max (v2998 (ix2 r l)) (v4246 (ix2 (0 : Fin 1) (0 : Fin 1)))))) * (max (Ideal.ofBits .f32 0x00000000#32) ((min (v3001 (ix2 r l)) (v4252 (ix2 (0 : Fin 1) (0 : Fin 1)))) - (max (v2999 (ix2 r l)) (v4248 (ix2 (0 : Fin 1) (0 : Fin 1)))))))))) := by
  first | (unfold k0_pay628; kpay_read) | rfl

theorem pay629_apply (v2998 : FVec Ideal S64x512 .f32) (v2999 : FVec Ideal S64x512 .f32) (v3000 : FVec Ideal S64x512 .f32) (v3001 : FVec Ideal S64x512 .f32) (v3004 : FVec Ideal S64x512 .f32) (v4276 : FVec Ideal S64x512 .f32) (v4277 : Vec Ideal S1x1 .f32) (v4279 : Vec Ideal S1x1 .f32) (v4281 : Vec Ideal S1x1 .f32) (v4283 : Vec Ideal S1x1 .f32) (r : Fin 64) (l : Fin 512) :
    k0_pay629 (F := Ideal) v2998 v2999 v3000 v3001 v3004 v4276 v4277 v4279 v4281 v4283 (ix2 r l) =
      ((v4276 (ix2 r l)) + (Ideal.div ((max (Ideal.ofBits .f32 0x00000000#32) ((min (v3000 (ix2 r l)) (v4281 (ix2 (0 : Fin 1) (0 : Fin 1)))) - (max (v2998 (ix2 r l)) (v4277 (ix2 (0 : Fin 1) (0 : Fin 1)))))) * (max (Ideal.ofBits .f32 0x00000000#32) ((min (v3001 (ix2 r l)) (v4283 (ix2 (0 : Fin 1) (0 : Fin 1)))) - (max (v2999 (ix2 r l)) (v4279 (ix2 (0 : Fin 1) (0 : Fin 1))))))) (((v3004 (ix2 r l)) + (((v4281 (ix2 (0 : Fin 1) (0 : Fin 1))) - (v4277 (ix2 (0 : Fin 1) (0 : Fin 1)))) * ((v4283 (ix2 (0 : Fin 1) (0 : Fin 1))) - (v4279 (ix2 (0 : Fin 1) (0 : Fin 1)))))) - ((max (Ideal.ofBits .f32 0x00000000#32) ((min (v3000 (ix2 r l)) (v4281 (ix2 (0 : Fin 1) (0 : Fin 1)))) - (max (v2998 (ix2 r l)) (v4277 (ix2 (0 : Fin 1) (0 : Fin 1)))))) * (max (Ideal.ofBits .f32 0x00000000#32) ((min (v3001 (ix2 r l)) (v4283 (ix2 (0 : Fin 1) (0 : Fin 1)))) - (max (v2999 (ix2 r l)) (v4279 (ix2 (0 : Fin 1) (0 : Fin 1)))))))))) := by
  first | (unfold k0_pay629; kpay_read) | rfl

theorem pay630_apply (v4308 : Vec Ideal S1x1 .f32) :
    k0_pay630 (F := Ideal) v4308 =
      (v4308 (ix2 (0 : Fin 1) (0 : Fin 1))) := by
  first | (unfold k0_pay630; kpay_read) | rfl

end Cert.KernelIdeal.KPay

end
-- ==== Proof.KPay.Table8.lean ====
/-
  The payloads k0_pay631 to k0_pay706 of the kernel's body, each read at one index: at row r and lane l of the 64 × 512 tile
  (a scalar payload as it is, a 1 × 1 payload at its one cell), the payload's own operations applied, in its own order,
  to its arguments at that index. A 1 × 1 × 64 × 512 slab is read at (0, 0, r, l), a 1 × 1 load at (0, 0), a payload
  called inside another stays a call at the same index.
-/
import proofs.«157336_j6562710028353_2_alg».proof.Proof.KPay.Ops

noncomputable section

open scoped BigOperators

namespace Cert.KernelIdeal.KPay

open Cert.KernelIdeal Cert.KernelIdeal.Gen
open Idealize.ShloMosaic Idealize.ShloMosaic.ValueIdx

theorem pay631_apply (v4310 : Vec Ideal S1x1 .f32) :
    k0_pay631 (F := Ideal) v4310 =
      (v4310 (ix2 (0 : Fin 1) (0 : Fin 1))) := by
  first | (unfold k0_pay631; kpay_read) | rfl

theorem pay632_apply (v4312 : Vec Ideal S1x1 .f32) :
    k0_pay632 (F := Ideal) v4312 =
      (v4312 (ix2 (0 : Fin 1) (0 : Fin 1))) := by
  first | (unfold k0_pay632; kpay_read) | rfl

theorem pay633_apply (v4314 : Vec Ideal S1x1 .f32) :
    k0_pay633 (F := Ideal) v4314 =
      (v4314 (ix2 (0 : Fin 1) (0 : Fin 1))) := by
  first | (unfold k0_pay633; kpay_read) | rfl

theorem pay634_apply (v2998 : FVec Ideal S64x512 .f32) (v4308 : Vec Ideal S1x1 .f32) (r : Fin 64) (l : Fin 512) :
    k0_pay634 (F := Ideal) v2998 v4308 (ix2 r l) =
      (max (v2998 (ix2 r l)) (k0_pay630 (F := Ideal) v4308)) := by
  first | (unfold k0_pay634; kpay_read) | rfl

theorem pay635_apply (v2999 : FVec Ideal S64x512 .f32) (v4310 : Vec Ideal S1x1 .f32) (r : Fin 64) (l : Fin 512) :
    k0_pay635 (F := Ideal) v2999 v4310 (ix2 r l) =
      (max (v2999 (ix2 r l)) (k0_pay631 (F := Ideal) v4310)) := by
  first | (unfold k0_pay635; kpay_read) | rfl

theorem pay636_apply (v4312 : Vec Ideal S1x1 .f32) (r : Fin 64) (l : Fin 512) :
    k0_pay636 (F := Ideal) v4312 (ix2 r l) =
      (k0_pay632 (F := Ideal) v4312) := by
  first | (unfold k0_pay636; kpay_read) | rfl

theorem pay637_apply (v3000 : FVec Ideal S64x512 .f32) (v3001 : FVec Ideal S64x512 .f32) (v3004 : FVec Ideal S64x512 .f32) (v4307 : FVec Ideal S64x512 .f32) (v4309 : Ideal .f32) (v4311 : Ideal .f32) (v4313 : Ideal .f32) (v4315 : Ideal .f32) (v4317 : FVec Ideal S64x512 .f32) (v4319 : FVec Ideal S64x512 .f32) (v4320 : FVec Ideal S64x512 .f32) (r : Fin 64) (l : Fin 512) :
    k0_pay637 (F := Ideal) v3000 v3001 v3004 v4307 v4309 v4311 v4313 v4315 v4317 v4319 v4320 (ix2 r l) =
      ((v4307 (ix2 r l)) + (Ideal.div ((max (Ideal.ofBits .f32 0x00000000#32) ((min (v3000 (ix2 r l)) (v4320 (ix2 r l))) - (v4317 (ix2 r l)))) * (max (Ideal.ofBits .f32 0x00000000#32) ((min (v3001 (ix2 r l)) v4315) - (v4319 (ix2 r l))))) (((v3004 (ix2 r l)) + ((v4313 - v4309) * (v4315 - v4311))) - ((max (Ideal.ofBits .f32 0x00000000#32) ((min (v3000 (ix2 r l)) (v4320 (ix2 r l))) - (v4317 (ix2 r l)))) * (max (Ideal.ofBits .f32 0x00000000#32) ((min (v3001 (ix2 r l)) v4315) - (v4319 (ix2 r l)))))))) := by
  first | (unfold k0_pay637; kpay_read) | rfl

theorem pay638_apply (v2998 : FVec Ideal S64x512 .f32) (v2999 : FVec Ideal S64x512 .f32) (v3000 : FVec Ideal S64x512 .f32) (v3001 : FVec Ideal S64x512 .f32) (v3004 : FVec Ideal S64x512 .f32) (v4339 : Vec Ideal S1x1 .f32) (v4341 : Vec Ideal S1x1 .f32) (v4343 : Vec Ideal S1x1 .f32) (v4345 : Vec Ideal S1x1 .f32) (r : Fin 64) (l : Fin 512) :
    k0_pay638 (F := Ideal) v2998 v2999 v3000 v3001 v3004 v4339 v4341 v4343 v4345 (ix2 r l) =
      (Ideal.div ((max (Ideal.ofBits .f32 0x00000000#32) ((min (v3000 (ix2 r l)) (v4343 (ix2 (0 : Fin 1) (0 : Fin 1)))) - (max (v2998 (ix2 r l)) (v4339 (ix2 (0 : Fin 1) (0 : Fin 1)))))) * (max (Ideal.ofBits .f32 0x00000000#32) ((min (v3001 (ix2 r l)) (v4345 (ix2 (0 : Fin 1) (0 : Fin 1)))) - (max (v2999 (ix2 r l)) (v4341 (ix2 (0 : Fin 1) (0 : Fin 1))))))) (((v3004 (ix2 r l)) + (((v4343 (ix2 (0 : Fin 1) (0 : Fin 1))) - (v4339 (ix2 (0 : Fin 1) (0 : Fin 1)))) * ((v4345 (ix2 (0 : Fin 1) (0 : Fin 1))) - (v4341 (ix2 (0 : Fin 1) (0 : Fin 1)))))) - ((max (Ideal.ofBits .f32 0x00000000#32) ((min (v3000 (ix2 r l)) (v4343 (ix2 (0 : Fin 1) (0 : Fin 1)))) - (max (v2998 (ix2 r l)) (v4339 (ix2 (0 : Fin 1) (0 : Fin 1)))))) * (max (Ideal.ofBits .f32 0x00000000#32) ((min (v3001 (ix2 r l)) (v4345 (ix2 (0 : Fin 1) (0 : Fin 1)))) - (max (v2999 (ix2 r l)) (v4341 (ix2 (0 : Fin 1) (0 : Fin 1))))))))) := by
  first | (unfold k0_pay638; kpay_read) | rfl

theorem pay639_apply (v2998 : FVec Ideal S64x512 .f32) (v2999 : FVec Ideal S64x512 .f32) (v3000 : FVec Ideal S64x512 .f32) (v3001 : FVec Ideal S64x512 .f32) (v3004 : FVec Ideal S64x512 .f32) (v4338 : FVec Ideal S64x512 .f32) (v4368 : FVec Ideal S64x512 .f32) (v4370 : Vec Ideal S1x1 .f32) (v4372 : Vec Ideal S1x1 .f32) (v4374 : Vec Ideal S1x1 .f32) (v4376 : Vec Ideal S1x1 .f32) (r : Fin 64) (l : Fin 512) :
    k0_pay639 (F := Ideal) v2998 v2999 v3000 v3001 v3004 v4338 v4368 v4370 v4372 v4374 v4376 (ix2 r l) =
      (((v4338 (ix2 r l)) + (v4368 (ix2 r l))) + (Ideal.div ((max (Ideal.ofBits .f32 0x00000000#32) ((min (v3000 (ix2 r l)) (v4374 (ix2 (0 : Fin 1) (0 : Fin 1)))) - (max (v2998 (ix2 r l)) (v4370 (ix2 (0 : Fin 1) (0 : Fin 1)))))) * (max (Ideal.ofBits .f32 0x00000000#32) ((min (v3001 (ix2 r l)) (v4376 (ix2 (0 : Fin 1) (0 : Fin 1)))) - (max (v2999 (ix2 r l)) (v4372 (ix2 (0 : Fin 1) (0 : Fin 1))))))) (((v3004 (ix2 r l)) + (((v4374 (ix2 (0 : Fin 1) (0 : Fin 1))) - (v4370 (ix2 (0 : Fin 1) (0 : Fin 1)))) * ((v4376 (ix2 (0 : Fin 1) (0 : Fin 1))) - (v4372 (ix2 (0 : Fin 1) (0 : Fin 1)))))) - ((max (Ideal.ofBits .f32 0x00000000#32) ((min (v3000 (ix2 r l)) (v4374 (ix2 (0 : Fin 1) (0 : Fin 1)))) - (max (v2998 (ix2 r l)) (v4370 (ix2 (0 : Fin 1) (0 : Fin 1)))))) * (max (Ideal.ofBits .f32 0x00000000#32) ((min (v3001 (ix2 r l)) (v4376 (ix2 (0 : Fin 1) (0 : Fin 1)))) - (max (v2999 (ix2 r l)) (v4372 (ix2 (0 : Fin 1) (0 : Fin 1)))))))))) := by
  first | (unfold k0_pay639; kpay_read) | rfl

theorem pay640_apply (v4401 : Vec Ideal S1x1 .f32) :
    k0_pay640 (F := Ideal) v4401 =
      (v4401 (ix2 (0 : Fin 1) (0 : Fin 1))) := by
  first | (unfold k0_pay640; kpay_read) | rfl

theorem pay641_apply (v4403 : Vec Ideal S1x1 .f32) :
    k0_pay641 (F := Ideal) v4403 =
      (v4403 (ix2 (0 : Fin 1) (0 : Fin 1))) := by
  first | (unfold k0_pay641; kpay_read) | rfl

theorem pay642_apply (v4405 : Vec Ideal S1x1 .f32) :
    k0_pay642 (F := Ideal) v4405 =
      (v4405 (ix2 (0 : Fin 1) (0 : Fin 1))) := by
  first | (unfold k0_pay642; kpay_read) | rfl

theorem pay643_apply (v4407 : Vec Ideal S1x1 .f32) :
    k0_pay643 (F := Ideal) v4407 =
      (v4407 (ix2 (0 : Fin 1) (0 : Fin 1))) := by
  first | (unfold k0_pay643; kpay_read) | rfl

theorem pay644_apply (v2998 : FVec Ideal S64x512 .f32) (v4401 : Vec Ideal S1x1 .f32) (r : Fin 64) (l : Fin 512) :
    k0_pay644 (F := Ideal) v2998 v4401 (ix2 r l) =
      (max (v2998 (ix2 r l)) (k0_pay640 (F := Ideal) v4401)) := by
  first | (unfold k0_pay644; kpay_read) | rfl

theorem pay645_apply (v2999 : FVec Ideal S64x512 .f32) (v3000 : FVec Ideal S64x512 .f32) (v3001 : FVec Ideal S64x512 .f32) (v3004 : FVec Ideal S64x512 .f32) (v4400 : FVec Ideal S64x512 .f32) (v4402 : Ideal .f32) (v4404 : Ideal .f32) (v4406 : Ideal .f32) (v4408 : Ideal .f32) (v4410 : FVec Ideal S64x512 .f32) (r : Fin 64) (l : Fin 512) :
    k0_pay645 (F := Ideal) v2999 v3000 v3001 v3004 v4400 v4402 v4404 v4406 v4408 v4410 (ix2 r l) =
      ((v4400 (ix2 r l)) + (Ideal.div ((max (Ideal.ofBits .f32 0x00000000#32) ((min (v3000 (ix2 r l)) v4406) - (v4410 (ix2 r l)))) * (max (Ideal.ofBits .f32 0x00000000#32) ((min (v3001 (ix2 r l)) v4408) - (max (v2999 (ix2 r l)) v4404)))) (((v3004 (ix2 r l)) + ((v4406 - v4402) * (v4408 - v4404))) - ((max (Ideal.ofBits .f32 0x00000000#32) ((min (v3000 (ix2 r l)) v4406) - (v4410 (ix2 r l)))) * (max (Ideal.ofBits .f32 0x00000000#32) ((min (v3001 (ix2 r l)) v4408) - (max (v2999 (ix2 r l)) v4404))))))) := by
  first | (unfold k0_pay645; kpay_read) | rfl

theorem pay646_apply (v4432 : Vec Ideal S1x1 .f32) :
    k0_pay646 (F := Ideal) v4432 =
      (v4432 (ix2 (0 : Fin 1) (0 : Fin 1))) := by
  first | (unfold k0_pay646; kpay_read) | rfl

theorem pay647_apply (v4434 : Vec Ideal S1x1 .f32) :
    k0_pay647 (F := Ideal) v4434 =
      (v4434 (ix2 (0 : Fin 1) (0 : Fin 1))) := by
  first | (unfold k0_pay647; kpay_read) | rfl

theorem pay648_apply (v4436 : Vec Ideal S1x1 .f32) :
    k0_pay648 (F := Ideal) v4436 =
      (v4436 (ix2 (0 : Fin 1) (0 : Fin 1))) := by
  first | (unfold k0_pay648; kpay_read) | rfl

theorem pay649_apply (v4438 : Vec Ideal S1x1 .f32) :
    k0_pay649 (F := Ideal) v4438 =
      (v4438 (ix2 (0 : Fin 1) (0 : Fin 1))) := by
  first | (unfold k0_pay649; kpay_read) | rfl

theorem pay650_apply (v2998 : FVec Ideal S64x512 .f32) (v2999 : FVec Ideal S64x512 .f32) (v3000 : FVec Ideal S64x512 .f32) (v3001 : FVec Ideal S64x512 .f32) (v4432 : Vec Ideal S1x1 .f32) (v4434 : Vec Ideal S1x1 .f32) (v4436 : Vec Ideal S1x1 .f32) (v4438 : Vec Ideal S1x1 .f32) (r : Fin 64) (l : Fin 512) :
    k0_pay650 (F := Ideal) v2998 v2999 v3000 v3001 v4432 v4434 v4436 v4438 (ix2 r l) =
      ((max (Ideal.ofBits .f32 0x00000000#32) ((min (v3000 (ix2 r l)) (k0_pay648 (F := Ideal) v4436)) - (max (v2998 (ix2 r l)) (k0_pay646 (F := Ideal) v4432)))) * (max (Ideal.ofBits .f32 0x00000000#32) ((min (v3001 (ix2 r l)) (k0_pay649 (F := Ideal) v4438)) - (max (v2999 (ix2 r l)) (k0_pay647 (F := Ideal) v4434))))) := by
  first | (unfold k0_pay650; kpay_read) | rfl

theorem pay651_apply (v4432 : Vec Ideal S1x1 .f32) (v4434 : Vec Ideal S1x1 .f32) (v4436 : Vec Ideal S1x1 .f32) (v4438 : Vec Ideal S1x1 .f32) (r : Fin 64) (l : Fin 512) :
    k0_pay651 (F := Ideal) v4432 v4434 v4436 v4438 (ix2 r l) =
      (((k0_pay648 (F := Ideal) v4436) - (k0_pay646 (F := Ideal) v4432)) * ((k0_pay649 (F := Ideal) v4438) - (k0_pay647 (F := Ideal) v4434))) := by
  first | (unfold k0_pay651; kpay_read) | rfl

theorem pay652_apply (v2998 : FVec Ideal S64x512 .f32) (v2999 : FVec Ideal S64x512 .f32) (v3000 : FVec Ideal S64x512 .f32) (v3001 : FVec Ideal S64x512 .f32) (v3004 : FVec Ideal S64x512 .f32) (v4431 : FVec Ideal S64x512 .f32) (v4454 : FVec Ideal S64x512 .f32) (v4458 : FVec Ideal S64x512 .f32) (v4463 : Vec Ideal S1x1 .f32) (v4465 : Vec Ideal S1x1 .f32) (v4467 : Vec Ideal S1x1 .f32) (v4469 : Vec Ideal S1x1 .f32) (r : Fin 64) (l : Fin 512) :
    k0_pay652 (F := Ideal) v2998 v2999 v3000 v3001 v3004 v4431 v4454 v4458 v4463 v4465 v4467 v4469 (ix2 r l) =
      (((v4431 (ix2 r l)) + (Ideal.div (v4454 (ix2 r l)) (((v3004 (ix2 r l)) + (v4458 (ix2 r l))) - (v4454 (ix2 r l))))) + (Ideal.div ((max (Ideal.ofBits .f32 0x00000000#32) ((min (v3000 (ix2 r l)) (v4467 (ix2 (0 : Fin 1) (0 : Fin 1)))) - (max (v2998 (ix2 r l)) (v4463 (ix2 (0 : Fin 1) (0 : Fin 1)))))) * (max (Ideal.ofBits .f32 0x00000000#32) ((min (v3001 (ix2 r l)) (v4469 (ix2 (0 : Fin 1) (0 : Fin 1)))) - (max (v2999 (ix2 r l)) (v4465 (ix2 (0 : Fin 1) (0 : Fin 1))))))) (((v3004 (ix2 r l)) + (((v4467 (ix2 (0 : Fin 1) (0 : Fin 1))) - (v4463 (ix2 (0 : Fin 1) (0 : Fin 1)))) * ((v4469 (ix2 (0 : Fin 1) (0 : Fin 1))) - (v4465 (ix2 (0 : Fin 1) (0 : Fin 1)))))) - ((max (Ideal.ofBits .f32 0x00000000#32) ((min (v3000 (ix2 r l)) (v4467 (ix2 (0 : Fin 1) (0 : Fin 1)))) - (max (v2998 (ix2 r l)) (v4463 (ix2 (0 : Fin 1) (0 : Fin 1)))))) * (max (Ideal.ofBits .f32 0x00000000#32) ((min (v3001 (ix2 r l)) (v4469 (ix2 (0 : Fin 1) (0 : Fin 1)))) - (max (v2999 (ix2 r l)) (v4465 (ix2 (0 : Fin 1) (0 : Fin 1)))))))))) := by
  first | (unfold k0_pay652; kpay_read) | rfl

theorem pay653_apply (v4494 : Vec Ideal S1x1 .f32) :
    k0_pay653 (F := Ideal) v4494 =
      (v4494 (ix2 (0 : Fin 1) (0 : Fin 1))) := by
  first | (unfold k0_pay653; kpay_read) | rfl

theorem pay654_apply (v4496 : Vec Ideal S1x1 .f32) :
    k0_pay654 (F := Ideal) v4496 =
      (v4496 (ix2 (0 : Fin 1) (0 : Fin 1))) := by
  first | (unfold k0_pay654; kpay_read) | rfl

theorem pay655_apply (v4498 : Vec Ideal S1x1 .f32) :
    k0_pay655 (F := Ideal) v4498 =
      (v4498 (ix2 (0 : Fin 1) (0 : Fin 1))) := by
  first | (unfold k0_pay655; kpay_read) | rfl

theorem pay656_apply (v2998 : FVec Ideal S64x512 .f32) (v2999 : FVec Ideal S64x512 .f32) (v3000 : FVec Ideal S64x512 .f32) (v3001 : FVec Ideal S64x512 .f32) (v3004 : FVec Ideal S64x512 .f32) (v4493 : FVec Ideal S64x512 .f32) (v4495 : Ideal .f32) (v4497 : Ideal .f32) (v4499 : Ideal .f32) (v4500 : Vec Ideal S1x1 .f32) (r : Fin 64) (l : Fin 512) :
    k0_pay656 (F := Ideal) v2998 v2999 v3000 v3001 v3004 v4493 v4495 v4497 v4499 v4500 (ix2 r l) =
      ((v4493 (ix2 r l)) + (Ideal.div ((max (Ideal.ofBits .f32 0x00000000#32) ((min (v3000 (ix2 r l)) v4499) - (max (v2998 (ix2 r l)) v4495))) * (max (Ideal.ofBits .f32 0x00000000#32) ((min (v3001 (ix2 r l)) (v4500 (ix2 (0 : Fin 1) (0 : Fin 1)))) - (max (v2999 (ix2 r l)) v4497)))) (((v3004 (ix2 r l)) + ((v4499 - v4495) * ((v4500 (ix2 (0 : Fin 1) (0 : Fin 1))) - v4497))) - ((max (Ideal.ofBits .f32 0x00000000#32) ((min (v3000 (ix2 r l)) v4499) - (max (v2998 (ix2 r l)) v4495))) * (max (Ideal.ofBits .f32 0x00000000#32) ((min (v3001 (ix2 r l)) (v4500 (ix2 (0 : Fin 1) (0 : Fin 1)))) - (max (v2999 (ix2 r l)) v4497))))))) := by
  first | (unfold k0_pay656; kpay_read) | rfl

theorem pay657_apply (v4525 : Vec Ideal S1x1 .f32) :
    k0_pay657 (F := Ideal) v4525 =
      (v4525 (ix2 (0 : Fin 1) (0 : Fin 1))) := by
  first | (unfold k0_pay657; kpay_read) | rfl

theorem pay658_apply (v4527 : Vec Ideal S1x1 .f32) :
    k0_pay658 (F := Ideal) v4527 =
      (v4527 (ix2 (0 : Fin 1) (0 : Fin 1))) := by
  first | (unfold k0_pay658; kpay_read) | rfl

theorem pay659_apply (v4529 : Vec Ideal S1x1 .f32) :
    k0_pay659 (F := Ideal) v4529 =
      (v4529 (ix2 (0 : Fin 1) (0 : Fin 1))) := by
  first | (unfold k0_pay659; kpay_read) | rfl

theorem pay660_apply (v4531 : Vec Ideal S1x1 .f32) :
    k0_pay660 (F := Ideal) v4531 =
      (v4531 (ix2 (0 : Fin 1) (0 : Fin 1))) := by
  first | (unfold k0_pay660; kpay_read) | rfl

theorem pay661_apply (v2998 : FVec Ideal S64x512 .f32) (v2999 : FVec Ideal S64x512 .f32) (v3000 : FVec Ideal S64x512 .f32) (v3001 : FVec Ideal S64x512 .f32) (v4525 : Vec Ideal S1x1 .f32) (v4527 : Vec Ideal S1x1 .f32) (v4529 : Vec Ideal S1x1 .f32) (v4531 : Vec Ideal S1x1 .f32) (r : Fin 64) (l : Fin 512) :
    k0_pay661 (F := Ideal) v2998 v2999 v3000 v3001 v4525 v4527 v4529 v4531 (ix2 r l) =
      ((max (Ideal.ofBits .f32 0x00000000#32) ((min (v3000 (ix2 r l)) (k0_pay659 (F := Ideal) v4529)) - (max (v2998 (ix2 r l)) (k0_pay657 (F := Ideal) v4525)))) * (max (Ideal.ofBits .f32 0x00000000#32) ((min (v3001 (ix2 r l)) (k0_pay660 (F := Ideal) v4531)) - (max (v2999 (ix2 r l)) (k0_pay658 (F := Ideal) v4527))))) := by
  first | (unfold k0_pay661; kpay_read) | rfl

theorem pay662_apply (v4525 : Vec Ideal S1x1 .f32) (v4529 : Vec Ideal S1x1 .f32) :
    k0_pay662 (F := Ideal) v4525 v4529 =
      ((k0_pay659 (F := Ideal) v4529) - (k0_pay657 (F := Ideal) v4525)) := by
  first | (unfold k0_pay662; kpay_read) | rfl

theorem pay663_apply (v2998 : FVec Ideal S64x512 .f32) (v2999 : FVec Ideal S64x512 .f32) (v3000 : FVec Ideal S64x512 .f32) (v3001 : FVec Ideal S64x512 .f32) (v3004 : FVec Ideal S64x512 .f32) (v4524 : FVec Ideal S64x512 .f32) (v4528 : Ideal .f32) (v4532 : Ideal .f32) (v4547 : FVec Ideal S64x512 .f32) (v4548 : Ideal .f32) (v4556 : Vec Ideal S1x1 .f32) (v4558 : Vec Ideal S1x1 .f32) (v4560 : Vec Ideal S1x1 .f32) (v4562 : Vec Ideal S1x1 .f32) (r : Fin 64) (l : Fin 512) :
    k0_pay663 (F := Ideal) v2998 v2999 v3000 v3001 v3004 v4524 v4528 v4532 v4547 v4548 v4556 v4558 v4560 v4562 (ix2 r l) =
      (((v4524 (ix2 r l)) + (Ideal.div (v4547 (ix2 r l)) (((v3004 (ix2 r l)) + (v4548 * (v4532 - v4528))) - (v4547 (ix2 r l))))) + (Ideal.div ((max (Ideal.ofBits .f32 0x00000000#32) ((min (v3000 (ix2 r l)) (v4560 (ix2 (0 : Fin 1) (0 : Fin 1)))) - (max (v2998 (ix2 r l)) (v4556 (ix2 (0 : Fin 1) (0 : Fin 1)))))) * (max (Ideal.ofBits .f32 0x00000000#32) ((min (v3001 (ix2 r l)) (v4562 (ix2 (0 : Fin 1) (0 : Fin 1)))) - (max (v2999 (ix2 r l)) (v4558 (ix2 (0 : Fin 1) (0 : Fin 1))))))) (((v3004 (ix2 r l)) + (((v4560 (ix2 (0 : Fin 1) (0 : Fin 1))) - (v4556 (ix2 (0 : Fin 1) (0 : Fin 1)))) * ((v4562 (ix2 (0 : Fin 1) (0 : Fin 1))) - (v4558 (ix2 (0 : Fin 1) (0 : Fin 1)))))) - ((max (Ideal.ofBits .f32 0x00000000#32) ((min (v3000 (ix2 r l)) (v4560 (ix2 (0 : Fin 1) (0 : Fin 1)))) - (max (v2998 (ix2 r l)) (v4556 (ix2 (0 : Fin 1) (0 : Fin 1)))))) * (max (Ideal.ofBits .f32 0x00000000#32) ((min (v3001 (ix2 r l)) (v4562 (ix2 (0 : Fin 1) (0 : Fin 1)))) - (max (v2999 (ix2 r l)) (v4558 (ix2 (0 : Fin 1) (0 : Fin 1)))))))))) := by
  first | (unfold k0_pay663; kpay_read) | rfl

theorem pay664_apply (v4587 : Vec Ideal S1x1 .f32) :
    k0_pay664 (F := Ideal) v4587 =
      (v4587 (ix2 (0 : Fin 1) (0 : Fin 1))) := by
  first | (unfold k0_pay664; kpay_read) | rfl

theorem pay665_apply (v4589 : Vec Ideal S1x1 .f32) :
    k0_pay665 (F := Ideal) v4589 =
      (v4589 (ix2 (0 : Fin 1) (0 : Fin 1))) := by
  first | (unfold k0_pay665; kpay_read) | rfl

theorem pay666_apply (v4591 : Vec Ideal S1x1 .f32) :
    k0_pay666 (F := Ideal) v4591 =
      (v4591 (ix2 (0 : Fin 1) (0 : Fin 1))) := by
  first | (unfold k0_pay666; kpay_read) | rfl

theorem pay667_apply (v2998 : FVec Ideal S64x512 .f32) (v2999 : FVec Ideal S64x512 .f32) (v3000 : FVec Ideal S64x512 .f32) (v3001 : FVec Ideal S64x512 .f32) (v3004 : FVec Ideal S64x512 .f32) (v4586 : FVec Ideal S64x512 .f32) (v4588 : Ideal .f32) (v4590 : Ideal .f32) (v4592 : Ideal .f32) (v4593 : Vec Ideal S1x1 .f32) (r : Fin 64) (l : Fin 512) :
    k0_pay667 (F := Ideal) v2998 v2999 v3000 v3001 v3004 v4586 v4588 v4590 v4592 v4593 (ix2 r l) =
      ((v4586 (ix2 r l)) + (Ideal.div ((max (Ideal.ofBits .f32 0x00000000#32) ((min (v3000 (ix2 r l)) v4592) - (max (v2998 (ix2 r l)) v4588))) * (max (Ideal.ofBits .f32 0x00000000#32) ((min (v3001 (ix2 r l)) (v4593 (ix2 (0 : Fin 1) (0 : Fin 1)))) - (max (v2999 (ix2 r l)) v4590)))) (((v3004 (ix2 r l)) + ((v4592 - v4588) * ((v4593 (ix2 (0 : Fin 1) (0 : Fin 1))) - v4590))) - ((max (Ideal.ofBits .f32 0x00000000#32) ((min (v3000 (ix2 r l)) v4592) - (max (v2998 (ix2 r l)) v4588))) * (max (Ideal.ofBits .f32 0x00000000#32) ((min (v3001 (ix2 r l)) (v4593 (ix2 (0 : Fin 1) (0 : Fin 1)))) - (max (v2999 (ix2 r l)) v4590))))))) := by
  first | (unfold k0_pay667; kpay_read) | rfl

theorem pay668_apply (v4618 : Vec Ideal S1x1 .f32) :
    k0_pay668 (F := Ideal) v4618 =
      (v4618 (ix2 (0 : Fin 1) (0 : Fin 1))) := by
  first | (unfold k0_pay668; kpay_read) | rfl

theorem pay669_apply (v4620 : Vec Ideal S1x1 .f32) :
    k0_pay669 (F := Ideal) v4620 =
      (v4620 (ix2 (0 : Fin 1) (0 : Fin 1))) := by
  first | (unfold k0_pay669; kpay_read) | rfl

theorem pay670_apply (v4622 : Vec Ideal S1x1 .f32) :
    k0_pay670 (F := Ideal) v4622 =
      (v4622 (ix2 (0 : Fin 1) (0 : Fin 1))) := by
  first | (unfold k0_pay670; kpay_read) | rfl

theorem pay671_apply (v4624 : Vec Ideal S1x1 .f32) :
    k0_pay671 (F := Ideal) v4624 =
      (v4624 (ix2 (0 : Fin 1) (0 : Fin 1))) := by
  first | (unfold k0_pay671; kpay_read) | rfl

theorem pay672_apply (v2998 : FVec Ideal S64x512 .f32) (v3000 : FVec Ideal S64x512 .f32) (v4618 : Vec Ideal S1x1 .f32) (v4622 : Vec Ideal S1x1 .f32) (r : Fin 64) (l : Fin 512) :
    k0_pay672 (F := Ideal) v2998 v3000 v4618 v4622 (ix2 r l) =
      (max (Ideal.ofBits .f32 0x00000000#32) ((min (v3000 (ix2 r l)) (k0_pay670 (F := Ideal) v4622)) - (max (v2998 (ix2 r l)) (k0_pay668 (F := Ideal) v4618)))) := by
  first | (unfold k0_pay672; kpay_read) | rfl

theorem pay673_apply (v2999 : FVec Ideal S64x512 .f32) (v3001 : FVec Ideal S64x512 .f32) (v4620 : Vec Ideal S1x1 .f32) (v4624 : Vec Ideal S1x1 .f32) (r : Fin 64) (l : Fin 512) :
    k0_pay673 (F := Ideal) v2999 v3001 v4620 v4624 (ix2 r l) =
      ((min (v3001 (ix2 r l)) (k0_pay671 (F := Ideal) v4624)) - (max (v2999 (ix2 r l)) (k0_pay669 (F := Ideal) v4620))) := by
  first | (unfold k0_pay673; kpay_read) | rfl

theorem pay674_apply  (r : Fin 64) (l : Fin 512) :
    k0_pay674 (F := Ideal) (ix2 r l) =
      (Ideal.ofBits .f32 0x00000000#32) := by
  first | (unfold k0_pay674; kpay_read) | rfl

theorem pay675_apply (v2998 : FVec Ideal S64x512 .f32) (v2999 : FVec Ideal S64x512 .f32) (v3000 : FVec Ideal S64x512 .f32) (v3001 : FVec Ideal S64x512 .f32) (v3004 : FVec Ideal S64x512 .f32) (v4617 : FVec Ideal S64x512 .f32) (v4619 : Ideal .f32) (v4621 : Ideal .f32) (v4623 : Ideal .f32) (v4625 : Ideal .f32) (v4636 : FVec Ideal S64x512 .f32) (v4637 : FVec Ideal S64x512 .f32) (v4638 : FVec Ideal S64x512 .f32) (v4649 : Vec Ideal S1x1 .f32) (v4651 : Vec Ideal S1x1 .f32) (v4653 : Vec Ideal S1x1 .f32) (v4655 : Vec Ideal S1x1 .f32) (r : Fin 64) (l : Fin 512) :
    k0_pay675 (F := Ideal) v2998 v2999 v3000 v3001 v3004 v4617 v4619 v4621 v4623 v4625 v4636 v4637 v4638 v4649 v4651 v4653 v4655 (ix2 r l) =
      (((v4617 (ix2 r l)) + (Ideal.div ((v4636 (ix2 r l)) * (max (v4638 (ix2 r l)) (v4637 (ix2 r l)))) (((v3004 (ix2 r l)) + ((v4623 - v4619) * (v4625 - v4621))) - ((v4636 (ix2 r l)) * (max (v4638 (ix2 r l)) (v4637 (ix2 r l))))))) + (Ideal.div ((max (Ideal.ofBits .f32 0x00000000#32) ((min (v3000 (ix2 r l)) (v4653 (ix2 (0 : Fin 1) (0 : Fin 1)))) - (max (v2998 (ix2 r l)) (v4649 (ix2 (0 : Fin 1) (0 : Fin 1)))))) * (max (Ideal.ofBits .f32 0x00000000#32) ((min (v3001 (ix2 r l)) (v4655 (ix2 (0 : Fin 1) (0 : Fin 1)))) - (max (v2999 (ix2 r l)) (v4651 (ix2 (0 : Fin 1) (0 : Fin 1))))))) (((v3004 (ix2 r l)) + (((v4653 (ix2 (0 : Fin 1) (0 : Fin 1))) - (v4649 (ix2 (0 : Fin 1) (0 : Fin 1)))) * ((v4655 (ix2 (0 : Fin 1) (0 : Fin 1))) - (v4651 (ix2 (0 : Fin 1) (0 : Fin 1)))))) - ((max (Ideal.ofBits .f32 0x00000000#32) ((min (v3000 (ix2 r l)) (v4653 (ix2 (0 : Fin 1) (0 : Fin 1)))) - (max (v2998 (ix2 r l)) (v4649 (ix2 (0 : Fin 1) (0 : Fin 1)))))) * (max (Ideal.ofBits .f32 0x00000000#32) ((min (v3001 (ix2 r l)) (v4655 (ix2 (0 : Fin 1) (0 : Fin 1)))) - (max (v2999 (ix2 r l)) (v4651 (ix2 (0 : Fin 1) (0 : Fin 1)))))))))) := by
  first | (unfold k0_pay675; kpay_read) | rfl

theorem pay676_apply (v4680 : Vec Ideal S1x1 .f32) :
    k0_pay676 (F := Ideal) v4680 =
      (v4680 (ix2 (0 : Fin 1) (0 : Fin 1))) := by
  first | (unfold k0_pay676; kpay_read) | rfl

theorem pay677_apply (v4682 : Vec Ideal S1x1 .f32) :
    k0_pay677 (F := Ideal) v4682 =
      (v4682 (ix2 (0 : Fin 1) (0 : Fin 1))) := by
  first | (unfold k0_pay677; kpay_read) | rfl

theorem pay678_apply (v2998 : FVec Ideal S64x512 .f32) (v2999 : FVec Ideal S64x512 .f32) (v3000 : FVec Ideal S64x512 .f32) (v3001 : FVec Ideal S64x512 .f32) (v3004 : FVec Ideal S64x512 .f32) (v4679 : FVec Ideal S64x512 .f32) (v4681 : Ideal .f32) (v4683 : Ideal .f32) (v4684 : Vec Ideal S1x1 .f32) (v4686 : Vec Ideal S1x1 .f32) (r : Fin 64) (l : Fin 512) :
    k0_pay678 (F := Ideal) v2998 v2999 v3000 v3001 v3004 v4679 v4681 v4683 v4684 v4686 (ix2 r l) =
      ((v4679 (ix2 r l)) + (Ideal.div ((max (Ideal.ofBits .f32 0x00000000#32) ((min (v3000 (ix2 r l)) (v4684 (ix2 (0 : Fin 1) (0 : Fin 1)))) - (max (v2998 (ix2 r l)) v4681))) * (max (Ideal.ofBits .f32 0x00000000#32) ((min (v3001 (ix2 r l)) (v4686 (ix2 (0 : Fin 1) (0 : Fin 1)))) - (max (v2999 (ix2 r l)) v4683)))) (((v3004 (ix2 r l)) + (((v4684 (ix2 (0 : Fin 1) (0 : Fin 1))) - v4681) * ((v4686 (ix2 (0 : Fin 1) (0 : Fin 1))) - v4683))) - ((max (Ideal.ofBits .f32 0x00000000#32) ((min (v3000 (ix2 r l)) (v4684 (ix2 (0 : Fin 1) (0 : Fin 1)))) - (max (v2998 (ix2 r l)) v4681))) * (max (Ideal.ofBits .f32 0x00000000#32) ((min (v3001 (ix2 r l)) (v4686 (ix2 (0 : Fin 1) (0 : Fin 1)))) - (max (v2999 (ix2 r l)) v4683))))))) := by
  first | (unfold k0_pay678; kpay_read) | rfl

theorem pay679_apply (v4711 : Vec Ideal S1x1 .f32) :
    k0_pay679 (F := Ideal) v4711 =
      (v4711 (ix2 (0 : Fin 1) (0 : Fin 1))) := by
  first | (unfold k0_pay679; kpay_read) | rfl

theorem pay680_apply (v4713 : Vec Ideal S1x1 .f32) :
    k0_pay680 (F := Ideal) v4713 =
      (v4713 (ix2 (0 : Fin 1) (0 : Fin 1))) := by
  first | (unfold k0_pay680; kpay_read) | rfl

theorem pay681_apply (v4715 : Vec Ideal S1x1 .f32) :
    k0_pay681 (F := Ideal) v4715 =
      (v4715 (ix2 (0 : Fin 1) (0 : Fin 1))) := by
  first | (unfold k0_pay681; kpay_read) | rfl

theorem pay682_apply (v4717 : Vec Ideal S1x1 .f32) :
    k0_pay682 (F := Ideal) v4717 =
      (v4717 (ix2 (0 : Fin 1) (0 : Fin 1))) := by
  first | (unfold k0_pay682; kpay_read) | rfl

theorem pay683_apply (v2999 : FVec Ideal S64x512 .f32) (v4713 : Vec Ideal S1x1 .f32) (r : Fin 64) (l : Fin 512) :
    k0_pay683 (F := Ideal) v2999 v4713 (ix2 r l) =
      (max (v2999 (ix2 r l)) (k0_pay680 (F := Ideal) v4713)) := by
  first | (unfold k0_pay683; kpay_read) | rfl

theorem pay684_apply (v3001 : FVec Ideal S64x512 .f32) (v4717 : Vec Ideal S1x1 .f32) (r : Fin 64) (l : Fin 512) :
    k0_pay684 (F := Ideal) v3001 v4717 (ix2 r l) =
      (min (v3001 (ix2 r l)) (k0_pay682 (F := Ideal) v4717)) := by
  first | (unfold k0_pay684; kpay_read) | rfl

theorem pay685_apply (v2998 : FVec Ideal S64x512 .f32) (v3000 : FVec Ideal S64x512 .f32) (v4711 : Vec Ideal S1x1 .f32) (v4715 : Vec Ideal S1x1 .f32) (r : Fin 64) (l : Fin 512) :
    k0_pay685 (F := Ideal) v2998 v3000 v4711 v4715 (ix2 r l) =
      (max (Ideal.ofBits .f32 0x00000000#32) ((min (v3000 (ix2 r l)) (k0_pay681 (F := Ideal) v4715)) - (max (v2998 (ix2 r l)) (k0_pay679 (F := Ideal) v4711)))) := by
  first | (unfold k0_pay685; kpay_read) | rfl

theorem pay686_apply (v2998 : FVec Ideal S64x512 .f32) (v2999 : FVec Ideal S64x512 .f32) (v3000 : FVec Ideal S64x512 .f32) (v3001 : FVec Ideal S64x512 .f32) (v3004 : FVec Ideal S64x512 .f32) (v4710 : FVec Ideal S64x512 .f32) (v4712 : Ideal .f32) (v4714 : Ideal .f32) (v4716 : Ideal .f32) (v4718 : Ideal .f32) (v4722 : FVec Ideal S64x512 .f32) (v4726 : FVec Ideal S64x512 .f32) (v4729 : FVec Ideal S64x512 .f32) (v4742 : Vec Ideal S1x1 .f32) (v4744 : Vec Ideal S1x1 .f32) (v4746 : Vec Ideal S1x1 .f32) (v4748 : Vec Ideal S1x1 .f32) (r : Fin 64) (l : Fin 512) :
    k0_pay686 (F := Ideal) v2998 v2999 v3000 v3001 v3004 v4710 v4712 v4714 v4716 v4718 v4722 v4726 v4729 v4742 v4744 v4746 v4748 (ix2 r l) =
      (((v4710 (ix2 r l)) + (Ideal.div ((v4729 (ix2 r l)) * (max (Ideal.ofBits .f32 0x00000000#32) ((v4726 (ix2 r l)) - (v4722 (ix2 r l))))) (((v3004 (ix2 r l)) + ((v4716 - v4712) * (v4718 - v4714))) - ((v4729 (ix2 r l)) * (max (Ideal.ofBits .f32 0x00000000#32) ((v4726 (ix2 r l)) - (v4722 (ix2 r l)))))))) + (Ideal.div ((max (Ideal.ofBits .f32 0x00000000#32) ((min (v3000 (ix2 r l)) (v4746 (ix2 (0 : Fin 1) (0 : Fin 1)))) - (max (v2998 (ix2 r l)) (v4742 (ix2 (0 : Fin 1) (0 : Fin 1)))))) * (max (Ideal.ofBits .f32 0x00000000#32) ((min (v3001 (ix2 r l)) (v4748 (ix2 (0 : Fin 1) (0 : Fin 1)))) - (max (v2999 (ix2 r l)) (v4744 (ix2 (0 : Fin 1) (0 : Fin 1))))))) (((v3004 (ix2 r l)) + (((v4746 (ix2 (0 : Fin 1) (0 : Fin 1))) - (v4742 (ix2 (0 : Fin 1) (0 : Fin 1)))) * ((v4748 (ix2 (0 : Fin 1) (0 : Fin 1))) - (v4744 (ix2 (0 : Fin 1) (0 : Fin 1)))))) - ((max (Ideal.ofBits .f32 0x00000000#32) ((min (v3000 (ix2 r l)) (v4746 (ix2 (0 : Fin 1) (0 : Fin 1)))) - (max (v2998 (ix2 r l)) (v4742 (ix2 (0 : Fin 1) (0 : Fin 1)))))) * (max (Ideal.ofBits .f32 0x00000000#32) ((min (v3001 (ix2 r l)) (v4748 (ix2 (0 : Fin 1) (0 : Fin 1)))) - (max (v2999 (ix2 r l)) (v4744 (ix2 (0 : Fin 1) (0 : Fin 1)))))))))) := by
  first | (unfold k0_pay686; kpay_read) | rfl

theorem pay687_apply (v4773 : Vec Ideal S1x1 .f32) :
    k0_pay687 (F := Ideal) v4773 =
      (v4773 (ix2 (0 : Fin 1) (0 : Fin 1))) := by
  first | (unfold k0_pay687; kpay_read) | rfl

theorem pay688_apply (v2998 : FVec Ideal S64x512 .f32) (v2999 : FVec Ideal S64x512 .f32) (v3000 : FVec Ideal S64x512 .f32) (v3001 : FVec Ideal S64x512 .f32) (v3004 : FVec Ideal S64x512 .f32) (v4772 : FVec Ideal S64x512 .f32) (v4774 : Ideal .f32) (v4775 : Vec Ideal S1x1 .f32) (v4777 : Vec Ideal S1x1 .f32) (v4779 : Vec Ideal S1x1 .f32) (r : Fin 64) (l : Fin 512) :
    k0_pay688 (F := Ideal) v2998 v2999 v3000 v3001 v3004 v4772 v4774 v4775 v4777 v4779 (ix2 r l) =
      ((v4772 (ix2 r l)) + (Ideal.div ((max (Ideal.ofBits .f32 0x00000000#32) ((min (v3000 (ix2 r l)) (v4777 (ix2 (0 : Fin 1) (0 : Fin 1)))) - (max (v2998 (ix2 r l)) v4774))) * (max (Ideal.ofBits .f32 0x00000000#32) ((min (v3001 (ix2 r l)) (v4779 (ix2 (0 : Fin 1) (0 : Fin 1)))) - (max (v2999 (ix2 r l)) (v4775 (ix2 (0 : Fin 1) (0 : Fin 1))))))) (((v3004 (ix2 r l)) + (((v4777 (ix2 (0 : Fin 1) (0 : Fin 1))) - v4774) * ((v4779 (ix2 (0 : Fin 1) (0 : Fin 1))) - (v4775 (ix2 (0 : Fin 1) (0 : Fin 1)))))) - ((max (Ideal.ofBits .f32 0x00000000#32) ((min (v3000 (ix2 r l)) (v4777 (ix2 (0 : Fin 1) (0 : Fin 1)))) - (max (v2998 (ix2 r l)) v4774))) * (max (Ideal.ofBits .f32 0x00000000#32) ((min (v3001 (ix2 r l)) (v4779 (ix2 (0 : Fin 1) (0 : Fin 1)))) - (max (v2999 (ix2 r l)) (v4775 (ix2 (0 : Fin 1) (0 : Fin 1)))))))))) := by
  first | (unfold k0_pay688; kpay_read) | rfl

theorem pay689_apply (v4804 : Vec Ideal S1x1 .f32) :
    k0_pay689 (F := Ideal) v4804 =
      (v4804 (ix2 (0 : Fin 1) (0 : Fin 1))) := by
  first | (unfold k0_pay689; kpay_read) | rfl

theorem pay690_apply (v4806 : Vec Ideal S1x1 .f32) :
    k0_pay690 (F := Ideal) v4806 =
      (v4806 (ix2 (0 : Fin 1) (0 : Fin 1))) := by
  first | (unfold k0_pay690; kpay_read) | rfl

theorem pay691_apply (v4808 : Vec Ideal S1x1 .f32) :
    k0_pay691 (F := Ideal) v4808 =
      (v4808 (ix2 (0 : Fin 1) (0 : Fin 1))) := by
  first | (unfold k0_pay691; kpay_read) | rfl

theorem pay692_apply (v4810 : Vec Ideal S1x1 .f32) :
    k0_pay692 (F := Ideal) v4810 =
      (v4810 (ix2 (0 : Fin 1) (0 : Fin 1))) := by
  first | (unfold k0_pay692; kpay_read) | rfl

theorem pay693_apply (v2999 : FVec Ideal S64x512 .f32) (v4806 : Vec Ideal S1x1 .f32) (r : Fin 64) (l : Fin 512) :
    k0_pay693 (F := Ideal) v2999 v4806 (ix2 r l) =
      (max (v2999 (ix2 r l)) (k0_pay690 (F := Ideal) v4806)) := by
  first | (unfold k0_pay693; kpay_read) | rfl

theorem pay694_apply (v3001 : FVec Ideal S64x512 .f32) (v4810 : Vec Ideal S1x1 .f32) (r : Fin 64) (l : Fin 512) :
    k0_pay694 (F := Ideal) v3001 v4810 (ix2 r l) =
      (min (v3001 (ix2 r l)) (k0_pay692 (F := Ideal) v4810)) := by
  first | (unfold k0_pay694; kpay_read) | rfl

theorem pay695_apply (v2998 : FVec Ideal S64x512 .f32) (v3000 : FVec Ideal S64x512 .f32) (v4804 : Vec Ideal S1x1 .f32) (v4808 : Vec Ideal S1x1 .f32) (r : Fin 64) (l : Fin 512) :
    k0_pay695 (F := Ideal) v2998 v3000 v4804 v4808 (ix2 r l) =
      ((min (v3000 (ix2 r l)) (k0_pay691 (F := Ideal) v4808)) - (max (v2998 (ix2 r l)) (k0_pay689 (F := Ideal) v4804))) := by
  first | (unfold k0_pay695; kpay_read) | rfl

theorem pay696_apply (v2998 : FVec Ideal S64x512 .f32) (v2999 : FVec Ideal S64x512 .f32) (v3000 : FVec Ideal S64x512 .f32) (v3001 : FVec Ideal S64x512 .f32) (v3004 : FVec Ideal S64x512 .f32) (v4803 : FVec Ideal S64x512 .f32) (v4805 : Ideal .f32) (v4807 : Ideal .f32) (v4809 : Ideal .f32) (v4811 : Ideal .f32) (v4815 : FVec Ideal S64x512 .f32) (v4819 : FVec Ideal S64x512 .f32) (v4820 : FVec Ideal S64x512 .f32) (v4835 : Vec Ideal S1x1 .f32) (v4837 : Vec Ideal S1x1 .f32) (v4839 : Vec Ideal S1x1 .f32) (v4841 : Vec Ideal S1x1 .f32) (r : Fin 64) (l : Fin 512) :
    k0_pay696 (F := Ideal) v2998 v2999 v3000 v3001 v3004 v4803 v4805 v4807 v4809 v4811 v4815 v4819 v4820 v4835 v4837 v4839 v4841 (ix2 r l) =
      (((v4803 (ix2 r l)) + (Ideal.div ((max (Ideal.ofBits .f32 0x00000000#32) (v4820 (ix2 r l))) * (max (Ideal.ofBits .f32 0x00000000#32) ((v4819 (ix2 r l)) - (v4815 (ix2 r l))))) (((v3004 (ix2 r l)) + ((v4809 - v4805) * (v4811 - v4807))) - ((max (Ideal.ofBits .f32 0x00000000#32) (v4820 (ix2 r l))) * (max (Ideal.ofBits .f32 0x00000000#32) ((v4819 (ix2 r l)) - (v4815 (ix2 r l)))))))) + (Ideal.div ((max (Ideal.ofBits .f32 0x00000000#32) ((min (v3000 (ix2 r l)) (v4839 (ix2 (0 : Fin 1) (0 : Fin 1)))) - (max (v2998 (ix2 r l)) (v4835 (ix2 (0 : Fin 1) (0 : Fin 1)))))) * (max (Ideal.ofBits .f32 0x00000000#32) ((min (v3001 (ix2 r l)) (v4841 (ix2 (0 : Fin 1) (0 : Fin 1)))) - (max (v2999 (ix2 r l)) (v4837 (ix2 (0 : Fin 1) (0 : Fin 1))))))) (((v3004 (ix2 r l)) + (((v4839 (ix2 (0 : Fin 1) (0 : Fin 1))) - (v4835 (ix2 (0 : Fin 1) (0 : Fin 1)))) * ((v4841 (ix2 (0 : Fin 1) (0 : Fin 1))) - (v4837 (ix2 (0 : Fin 1) (0 : Fin 1)))))) - ((max (Ideal.ofBits .f32 0x00000000#32) ((min (v3000 (ix2 r l)) (v4839 (ix2 (0 : Fin 1) (0 : Fin 1)))) - (max (v2998 (ix2 r l)) (v4835 (ix2 (0 : Fin 1) (0 : Fin 1)))))) * (max (Ideal.ofBits .f32 0x00000000#32) ((min (v3001 (ix2 r l)) (v4841 (ix2 (0 : Fin 1) (0 : Fin 1)))) - (max (v2999 (ix2 r l)) (v4837 (ix2 (0 : Fin 1) (0 : Fin 1)))))))))) := by
  first | (unfold k0_pay696; kpay_read) | rfl

theorem pay697_apply (v2998 : FVec Ideal S64x512 .f32) (v2999 : FVec Ideal S64x512 .f32) (v3000 : FVec Ideal S64x512 .f32) (v3001 : FVec Ideal S64x512 .f32) (v3004 : FVec Ideal S64x512 .f32) (v4865 : FVec Ideal S64x512 .f32) (v4866 : Vec Ideal S1x1 .f32) (v4868 : Vec Ideal S1x1 .f32) (v4870 : Vec Ideal S1x1 .f32) (v4872 : Vec Ideal S1x1 .f32) (r : Fin 64) (l : Fin 512) :
    k0_pay697 (F := Ideal) v2998 v2999 v3000 v3001 v3004 v4865 v4866 v4868 v4870 v4872 (ix2 r l) =
      ((v4865 (ix2 r l)) + (Ideal.div ((max (Ideal.ofBits .f32 0x00000000#32) ((min (v3000 (ix2 r l)) (v4870 (ix2 (0 : Fin 1) (0 : Fin 1)))) - (max (v2998 (ix2 r l)) (v4866 (ix2 (0 : Fin 1) (0 : Fin 1)))))) * (max (Ideal.ofBits .f32 0x00000000#32) ((min (v3001 (ix2 r l)) (v4872 (ix2 (0 : Fin 1) (0 : Fin 1)))) - (max (v2999 (ix2 r l)) (v4868 (ix2 (0 : Fin 1) (0 : Fin 1))))))) (((v3004 (ix2 r l)) + (((v4870 (ix2 (0 : Fin 1) (0 : Fin 1))) - (v4866 (ix2 (0 : Fin 1) (0 : Fin 1)))) * ((v4872 (ix2 (0 : Fin 1) (0 : Fin 1))) - (v4868 (ix2 (0 : Fin 1) (0 : Fin 1)))))) - ((max (Ideal.ofBits .f32 0x00000000#32) ((min (v3000 (ix2 r l)) (v4870 (ix2 (0 : Fin 1) (0 : Fin 1)))) - (max (v2998 (ix2 r l)) (v4866 (ix2 (0 : Fin 1) (0 : Fin 1)))))) * (max (Ideal.ofBits .f32 0x00000000#32) ((min (v3001 (ix2 r l)) (v4872 (ix2 (0 : Fin 1) (0 : Fin 1)))) - (max (v2999 (ix2 r l)) (v4868 (ix2 (0 : Fin 1) (0 : Fin 1)))))))))) := by
  first | (unfold k0_pay697; kpay_read) | rfl

theorem pay698_apply (v4897 : Vec Ideal S1x1 .f32) :
    k0_pay698 (F := Ideal) v4897 =
      (v4897 (ix2 (0 : Fin 1) (0 : Fin 1))) := by
  first | (unfold k0_pay698; kpay_read) | rfl

theorem pay699_apply (v4899 : Vec Ideal S1x1 .f32) :
    k0_pay699 (F := Ideal) v4899 =
      (v4899 (ix2 (0 : Fin 1) (0 : Fin 1))) := by
  first | (unfold k0_pay699; kpay_read) | rfl

theorem pay700_apply (v4901 : Vec Ideal S1x1 .f32) :
    k0_pay700 (F := Ideal) v4901 =
      (v4901 (ix2 (0 : Fin 1) (0 : Fin 1))) := by
  first | (unfold k0_pay700; kpay_read) | rfl

theorem pay701_apply (v4903 : Vec Ideal S1x1 .f32) :
    k0_pay701 (F := Ideal) v4903 =
      (v4903 (ix2 (0 : Fin 1) (0 : Fin 1))) := by
  first | (unfold k0_pay701; kpay_read) | rfl

theorem pay702_apply (v2998 : FVec Ideal S64x512 .f32) (v4897 : Vec Ideal S1x1 .f32) (r : Fin 64) (l : Fin 512) :
    k0_pay702 (F := Ideal) v2998 v4897 (ix2 r l) =
      (max (v2998 (ix2 r l)) (k0_pay698 (F := Ideal) v4897)) := by
  first | (unfold k0_pay702; kpay_read) | rfl

theorem pay703_apply (v2999 : FVec Ideal S64x512 .f32) (v4899 : Vec Ideal S1x1 .f32) (r : Fin 64) (l : Fin 512) :
    k0_pay703 (F := Ideal) v2999 v4899 (ix2 r l) =
      (max (v2999 (ix2 r l)) (k0_pay699 (F := Ideal) v4899)) := by
  first | (unfold k0_pay703; kpay_read) | rfl

theorem pay704_apply (v3000 : FVec Ideal S64x512 .f32) (v4901 : Vec Ideal S1x1 .f32) (r : Fin 64) (l : Fin 512) :
    k0_pay704 (F := Ideal) v3000 v4901 (ix2 r l) =
      (min (v3000 (ix2 r l)) (k0_pay700 (F := Ideal) v4901)) := by
  first | (unfold k0_pay704; kpay_read) | rfl

theorem pay705_apply (v2998 : FVec Ideal S64x512 .f32) (v2999 : FVec Ideal S64x512 .f32) (v3000 : FVec Ideal S64x512 .f32) (v3001 : FVec Ideal S64x512 .f32) (v3004 : FVec Ideal S64x512 .f32) (v4896 : FVec Ideal S64x512 .f32) (v4898 : Ideal .f32) (v4900 : Ideal .f32) (v4902 : Ideal .f32) (v4904 : Ideal .f32) (v4906 : FVec Ideal S64x512 .f32) (v4908 : FVec Ideal S64x512 .f32) (v4910 : FVec Ideal S64x512 .f32) (v4928 : Vec Ideal S1x1 .f32) (v4930 : Vec Ideal S1x1 .f32) (v4932 : Vec Ideal S1x1 .f32) (v4934 : Vec Ideal S1x1 .f32) (r : Fin 64) (l : Fin 512) :
    k0_pay705 (F := Ideal) v2998 v2999 v3000 v3001 v3004 v4896 v4898 v4900 v4902 v4904 v4906 v4908 v4910 v4928 v4930 v4932 v4934 (ix2 r l) =
      (((v4896 (ix2 r l)) + (Ideal.div ((max (Ideal.ofBits .f32 0x00000000#32) ((v4910 (ix2 r l)) - (v4906 (ix2 r l)))) * (max (Ideal.ofBits .f32 0x00000000#32) ((min (v3001 (ix2 r l)) v4904) - (v4908 (ix2 r l))))) (((v3004 (ix2 r l)) + ((v4902 - v4898) * (v4904 - v4900))) - ((max (Ideal.ofBits .f32 0x00000000#32) ((v4910 (ix2 r l)) - (v4906 (ix2 r l)))) * (max (Ideal.ofBits .f32 0x00000000#32) ((min (v3001 (ix2 r l)) v4904) - (v4908 (ix2 r l)))))))) + (Ideal.div ((max (Ideal.ofBits .f32 0x00000000#32) ((min (v3000 (ix2 r l)) (v4932 (ix2 (0 : Fin 1) (0 : Fin 1)))) - (max (v2998 (ix2 r l)) (v4928 (ix2 (0 : Fin 1) (0 : Fin 1)))))) * (max (Ideal.ofBits .f32 0x00000000#32) ((min (v3001 (ix2 r l)) (v4934 (ix2 (0 : Fin 1) (0 : Fin 1)))) - (max (v2999 (ix2 r l)) (v4930 (ix2 (0 : Fin 1) (0 : Fin 1))))))) (((v3004 (ix2 r l)) + (((v4932 (ix2 (0 : Fin 1) (0 : Fin 1))) - (v4928 (ix2 (0 : Fin 1) (0 : Fin 1)))) * ((v4934 (ix2 (0 : Fin 1) (0 : Fin 1))) - (v4930 (ix2 (0 : Fin 1) (0 : Fin 1)))))) - ((max (Ideal.ofBits .f32 0x00000000#32) ((min (v3000 (ix2 r l)) (v4932 (ix2 (0 : Fin 1) (0 : Fin 1)))) - (max (v2998 (ix2 r l)) (v4928 (ix2 (0 : Fin 1) (0 : Fin 1)))))) * (max (Ideal.ofBits .f32 0x00000000#32) ((min (v3001 (ix2 r l)) (v4934 (ix2 (0 : Fin 1) (0 : Fin 1)))) - (max (v2999 (ix2 r l)) (v4930 (ix2 (0 : Fin 1) (0 : Fin 1)))))))))) := by
  first | (unfold k0_pay705; kpay_read) | rfl

theorem pay706_apply (v2500 : FVec Ideal S1x1 .f32) (v2507 : FVec Ideal S64x512 .f32) (v2510 : FVec Ideal S64x512 .f32) (v2998 : FVec Ideal S64x512 .f32) (v2999 : FVec Ideal S64x512 .f32) (v3000 : FVec Ideal S64x512 .f32) (v3001 : FVec Ideal S64x512 .f32) (v3004 : FVec Ideal S64x512 .f32) (v4958 : FVec Ideal S64x512 .f32) (v4959 : Vec Ideal S1x1 .f32) (v4961 : Vec Ideal S1x1 .f32) (v4963 : Vec Ideal S1x1 .f32) (v4965 : Vec Ideal S1x1 .f32) (v4997 : Vec Ideal S1x1 .f32) :
    k0_pay706 (F := Ideal) v2500 v2507 v2510 v2998 v2999 v3000 v3001 v3004 v4958 v4959 v4961 v4963 v4965 v4997 (ix2 (0 : Fin 1) (0 : Fin 1)) =
      ((v4997 (ix2 (0 : Fin 1) (0 : Fin 1))) + ((v2500 (ix2 (0 : Fin 1) (0 : Fin 1))) + (∑ r : Fin 64, ∑ l : Fin 512, (((v2507 (ix2 r l)) * (v2510 (ix2 r l))) * ((v4958 (ix2 r l)) + (Ideal.div ((max (Ideal.ofBits .f32 0x00000000#32) ((min (v3000 (ix2 r l)) (v4963 (ix2 (0 : Fin 1) (0 : Fin 1)))) - (max (v2998 (ix2 r l)) (v4959 (ix2 (0 : Fin 1) (0 : Fin 1)))))) * (max (Ideal.ofBits .f32 0x00000000#32) ((min (v3001 (ix2 r l)) (v4965 (ix2 (0 : Fin 1) (0 : Fin 1)))) - (max (v2999 (ix2 r l)) (v4961 (ix2 (0 : Fin 1) (0 : Fin 1))))))) (((v3004 (ix2 r l)) + (((v4963 (ix2 (0 : Fin 1) (0 : Fin 1))) - (v4959 (ix2 (0 : Fin 1) (0 : Fin 1)))) * ((v4965 (ix2 (0 : Fin 1) (0 : Fin 1))) - (v4961 (ix2 (0 : Fin 1) (0 : Fin 1)))))) - ((max (Ideal.ofBits .f32 0x00000000#32) ((min (v3000 (ix2 r l)) (v4963 (ix2 (0 : Fin 1) (0 : Fin 1)))) - (max (v2998 (ix2 r l)) (v4959 (ix2 (0 : Fin 1) (0 : Fin 1)))))) * (max (Ideal.ofBits .f32 0x00000000#32) ((min (v3001 (ix2 r l)) (v4965 (ix2 (0 : Fin 1) (0 : Fin 1)))) - (max (v2999 (ix2 r l)) (v4961 (ix2 (0 : Fin 1) (0 : Fin 1)))))))))))))) := by
  unfold k0_pay706
  dsimp only
  try simp only [cast11_apply, addf_apply]
  rw [tileSum_apply]
  kpay_read

end Cert.KernelIdeal.KPay

end
-- ==== Proof.KPay.All.lean ====
/-
  Every payload's reading (pay1_apply … pay706_apply, the eight table modules) gathered under one import and entered
  into the simp set kpay.
-/
import proofs.«157336_j6562710028353_2_alg».proof.Proof.KPay.Attr
import proofs.«157336_j6562710028353_2_alg».proof.Proof.KPay.Table1
import proofs.«157336_j6562710028353_2_alg».proof.Proof.KPay.Table2
import proofs.«157336_j6562710028353_2_alg».proof.Proof.KPay.Table3
import proofs.«157336_j6562710028353_2_alg».proof.Proof.KPay.Table4
import proofs.«157336_j6562710028353_2_alg».proof.Proof.KPay.Table5
import proofs.«157336_j6562710028353_2_alg».proof.Proof.KPay.Table6
import proofs.«157336_j6562710028353_2_alg».proof.Proof.KPay.Table7
import proofs.«157336_j6562710028353_2_alg».proof.Proof.KPay.Table8

namespace Cert.KernelIdeal.KPay

attribute [kpay] pay1_apply pay2_apply pay3_apply pay4_apply pay5_apply pay6_apply pay7_apply pay8_apply pay9_apply pay10_apply
attribute [kpay] pay11_apply pay12_apply pay13_apply pay14_apply pay15_apply pay16_apply pay17_apply pay18_apply pay19_apply pay20_apply
attribute [kpay] pay21_apply pay22_apply pay23_apply pay24_apply pay25_apply pay26_apply pay27_apply pay28_apply pay29_apply pay30_apply
attribute [kpay] pay31_apply pay32_apply pay33_apply pay34_apply pay35_apply pay36_apply pay37_apply pay38_apply pay39_apply pay40_apply
attribute [kpay] pay41_apply pay42_apply pay43_apply pay44_apply pay45_apply pay46_apply pay47_apply pay48_apply pay49_apply pay50_apply
attribute [kpay] pay51_apply pay52_apply pay53_apply pay54_apply pay55_apply pay56_apply pay57_apply pay58_apply pay59_apply pay60_apply
attribute [kpay] pay61_apply pay62_apply pay63_apply pay64_apply pay65_apply pay66_apply pay67_apply pay68_apply pay69_apply pay70_apply
attribute [kpay] pay71_apply pay72_apply pay73_apply pay74_apply pay75_apply pay76_apply pay77_apply pay78_apply pay79_apply pay80_apply
attribute [kpay] pay81_apply pay82_apply pay83_apply pay84_apply pay85_apply pay86_apply pay87_apply pay88_apply pay89_apply pay90_apply
attribute [kpay] pay91_apply pay92_apply pay93_apply pay94_apply pay95_apply pay96_apply pay97_apply pay98_apply pay99_apply pay100_apply
attribute [kpay] pay101_apply pay102_apply pay103_apply pay104_apply pay105_apply pay106_apply pay107_apply pay108_apply pay109_apply pay110_apply
attribute [kpay] pay111_apply pay112_apply pay113_apply pay114_apply pay115_apply pay116_apply pay117_apply pay118_apply pay119_apply pay120_apply
attribute [kpay] pay121_apply pay122_apply pay123_apply pay124_apply pay125_apply pay126_apply pay127_apply pay128_apply pay129_apply pay130_apply
attribute [kpay] pay131_apply pay132_apply pay133_apply pay134_apply pay135_apply pay136_apply pay137_apply pay138_apply pay139_apply pay140_apply
attribute [kpay] pay141_apply pay142_apply pay143_apply pay144_apply pay145_apply pay146_apply pay147_apply pay148_apply pay149_apply pay150_apply
attribute [kpay] pay151_apply pay152_apply pay153_apply pay154_apply pay155_apply pay156_apply pay157_apply pay158_apply pay159_apply pay160_apply
attribute [kpay] pay161_apply pay162_apply pay163_apply pay164_apply pay165_apply pay166_apply pay167_apply pay168_apply pay169_apply pay170_apply
attribute [kpay] pay171_apply pay172_apply pay173_apply pay174_apply pay175_apply pay176_apply pay177_apply pay178_apply pay179_apply pay180_apply
attribute [kpay] pay181_apply pay182_apply pay183_apply pay184_apply pay185_apply pay186_apply pay187_apply pay188_apply pay189_apply pay190_apply
attribute [kpay] pay191_apply pay192_apply pay193_apply pay194_apply pay195_apply pay196_apply pay197_apply pay198_apply pay199_apply pay200_apply
attribute [kpay] pay201_apply pay202_apply pay203_apply pay204_apply pay205_apply pay206_apply pay207_apply pay208_apply pay209_apply pay210_apply
attribute [kpay] pay211_apply pay212_apply pay213_apply pay214_apply pay215_apply pay216_apply pay217_apply pay218_apply pay219_apply pay220_apply
attribute [kpay] pay221_apply pay222_apply pay223_apply pay224_apply pay225_apply pay226_apply pay227_apply pay228_apply pay229_apply pay230_apply
attribute [kpay] pay231_apply pay232_apply pay233_apply pay234_apply pay235_apply pay236_apply pay237_apply pay238_apply pay239_apply pay240_apply
attribute [kpay] pay241_apply pay242_apply pay243_apply pay244_apply pay245_apply pay246_apply pay247_apply pay248_apply pay249_apply pay250_apply
attribute [kpay] pay251_apply pay252_apply pay253_apply pay254_apply pay255_apply pay256_apply pay257_apply pay258_apply pay259_apply pay260_apply
attribute [kpay] pay261_apply pay262_apply pay263_apply pay264_apply pay265_apply pay266_apply pay267_apply pay268_apply pay269_apply pay270_apply
attribute [kpay] pay271_apply pay272_apply pay273_apply pay274_apply pay275_apply pay276_apply pay277_apply pay278_apply pay279_apply pay280_apply
attribute [kpay] pay281_apply pay282_apply pay283_apply pay284_apply pay285_apply pay286_apply pay287_apply pay288_apply pay289_apply pay290_apply
attribute [kpay] pay291_apply pay292_apply pay293_apply pay294_apply pay295_apply pay296_apply pay297_apply pay298_apply pay299_apply pay300_apply
attribute [kpay] pay301_apply pay302_apply pay303_apply pay304_apply pay305_apply pay306_apply pay307_apply pay308_apply pay309_apply pay310_apply
attribute [kpay] pay311_apply pay312_apply pay313_apply pay314_apply pay315_apply pay316_apply pay317_apply pay318_apply pay319_apply pay320_apply
attribute [kpay] pay321_apply pay322_apply pay323_apply pay324_apply pay325_apply pay326_apply pay327_apply pay328_apply pay329_apply pay330_apply
attribute [kpay] pay331_apply pay332_apply pay333_apply pay334_apply pay335_apply pay336_apply pay337_apply pay338_apply pay339_apply pay340_apply
attribute [kpay] pay341_apply pay342_apply pay343_apply pay344_apply pay345_apply pay346_apply pay347_apply pay348_apply pay349_apply pay350_apply
attribute [kpay] pay351_apply pay352_apply pay353_apply pay354_apply pay355_apply pay356_apply pay357_apply pay358_apply pay359_apply pay360_apply
attribute [kpay] pay361_apply pay362_apply pay363_apply pay364_apply pay365_apply pay366_apply pay367_apply pay368_apply pay369_apply pay370_apply
attribute [kpay] pay371_apply pay372_apply pay373_apply pay374_apply pay375_apply pay376_apply pay377_apply pay378_apply pay379_apply pay380_apply
attribute [kpay] pay381_apply pay382_apply pay383_apply pay384_apply pay385_apply pay386_apply pay387_apply pay388_apply pay389_apply pay390_apply
attribute [kpay] pay391_apply pay392_apply pay393_apply pay394_apply pay395_apply pay396_apply pay397_apply pay398_apply pay399_apply pay400_apply
attribute [kpay] pay401_apply pay402_apply pay403_apply pay404_apply pay405_apply pay406_apply pay407_apply pay408_apply pay409_apply pay410_apply
attribute [kpay] pay411_apply pay412_apply pay413_apply pay414_apply pay415_apply pay416_apply pay417_apply pay418_apply pay419_apply pay420_apply
attribute [kpay] pay421_apply pay422_apply pay423_apply pay424_apply pay425_apply pay426_apply pay427_apply pay428_apply pay429_apply pay430_apply
attribute [kpay] pay431_apply pay432_apply pay433_apply pay434_apply pay435_apply pay436_apply pay437_apply pay438_apply pay439_apply pay440_apply
attribute [kpay] pay441_apply pay442_apply pay443_apply pay444_apply pay445_apply pay446_apply pay447_apply pay448_apply pay449_apply pay450_apply
attribute [kpay] pay451_apply pay452_apply pay453_apply pay454_apply pay455_apply pay456_apply pay457_apply pay458_apply pay459_apply pay460_apply
attribute [kpay] pay461_apply pay462_apply pay463_apply pay464_apply pay465_apply pay466_apply pay467_apply pay468_apply pay469_apply pay470_apply
attribute [kpay] pay471_apply pay472_apply pay473_apply pay474_apply pay475_apply pay476_apply pay477_apply pay478_apply pay479_apply pay480_apply
attribute [kpay] pay481_apply pay482_apply pay483_apply pay484_apply pay485_apply pay486_apply pay487_apply pay488_apply pay489_apply pay490_apply
attribute [kpay] pay491_apply pay492_apply pay493_apply pay494_apply pay495_apply pay496_apply pay497_apply pay498_apply pay499_apply pay500_apply
attribute [kpay] pay501_apply pay502_apply pay503_apply pay504_apply pay505_apply pay506_apply pay507_apply pay508_apply pay509_apply pay510_apply
attribute [kpay] pay511_apply pay512_apply pay513_apply pay514_apply pay515_apply pay516_apply pay517_apply pay518_apply pay519_apply pay520_apply
attribute [kpay] pay521_apply pay522_apply pay523_apply pay524_apply pay525_apply pay526_apply pay527_apply pay528_apply pay529_apply pay530_apply
attribute [kpay] pay531_apply pay532_apply pay533_apply pay534_apply pay535_apply pay536_apply pay537_apply pay538_apply pay539_apply pay540_apply
attribute [kpay] pay541_apply pay542_apply pay543_apply pay544_apply pay545_apply pay546_apply pay547_apply pay548_apply pay549_apply pay550_apply
attribute [kpay] pay551_apply pay552_apply pay553_apply pay554_apply pay555_apply pay556_apply pay557_apply pay558_apply pay559_apply pay560_apply
attribute [kpay] pay561_apply pay562_apply pay563_apply pay564_apply pay565_apply pay566_apply pay567_apply pay568_apply pay569_apply pay570_apply
attribute [kpay] pay571_apply pay572_apply pay573_apply pay574_apply pay575_apply pay576_apply pay577_apply pay578_apply pay579_apply pay580_apply
attribute [kpay] pay581_apply pay582_apply pay583_apply pay584_apply pay585_apply pay586_apply pay587_apply pay588_apply pay589_apply pay590_apply
attribute [kpay] pay591_apply pay592_apply pay593_apply pay594_apply pay595_apply pay596_apply pay597_apply pay598_apply pay599_apply pay600_apply
attribute [kpay] pay601_apply pay602_apply pay603_apply pay604_apply pay605_apply pay606_apply pay607_apply pay608_apply pay609_apply pay610_apply
attribute [kpay] pay611_apply pay612_apply pay613_apply pay614_apply pay615_apply pay616_apply pay617_apply pay618_apply pay619_apply pay620_apply
attribute [kpay] pay621_apply pay622_apply pay623_apply pay624_apply pay625_apply pay626_apply pay627_apply pay628_apply pay629_apply pay630_apply
attribute [kpay] pay631_apply pay632_apply pay633_apply pay634_apply pay635_apply pay636_apply pay637_apply pay638_apply pay639_apply pay640_apply
attribute [kpay] pay641_apply pay642_apply pay643_apply pay644_apply pay645_apply pay646_apply pay647_apply pay648_apply pay649_apply pay650_apply
attribute [kpay] pay651_apply pay652_apply pay653_apply pay654_apply pay655_apply pay656_apply pay657_apply pay658_apply pay659_apply pay660_apply
attribute [kpay] pay661_apply pay662_apply pay663_apply pay664_apply pay665_apply pay666_apply pay667_apply pay668_apply pay669_apply pay670_apply
attribute [kpay] pay671_apply pay672_apply pay673_apply pay674_apply pay675_apply pay676_apply pay677_apply pay678_apply pay679_apply pay680_apply
attribute [kpay] pay681_apply pay682_apply pay683_apply pay684_apply pay685_apply pay686_apply pay687_apply pay688_apply pay689_apply pay690_apply
attribute [kpay] pay691_apply pay692_apply pay693_apply pay694_apply pay695_apply pay696_apply pay697_apply pay698_apply pay699_apply pay700_apply
attribute [kpay] pay701_apply pay702_apply pay703_apply pay704_apply pay705_apply pay706_apply

end Cert.KernelIdeal.KPay
-- ==== Proof.KRun.Point.lean ====
/-
  What one grid point adds to the accumulator cell, as a number: the closed composition of the body's payloads read
  at the one cell, every payload at an index replaced by its own operations on the extended reals, every load by the
  block at its coordinates; the result is zero plus, for each yaw channel, the sum over the 64 × 512 tile of one
  anchor's term, the 64 unrolled target steps gathered into a sum over the targets.
-/
import proofs.«157336_j6562710028353_2_alg».proof.Proof.KRun.Runs
import proofs.«157336_j6562710028353_2_alg».proof.Proof.KRun.Loads
import proofs.«157336_j6562710028353_2_alg».proof.Proof.KRun.PointDefs
import proofs.«157336_j6562710028353_2_alg».proof.Proof.KPay.All

set_option maxRecDepth 65536

noncomputable section

open scoped BigOperators

namespace Cert.KernelIdeal.KRun
open Cert.KernelIdeal Cert.KernelIdeal.Gen Cert.KernelIdeal.Hand Cert.KernelIdeal.KPay
open Idealize.ShloMosaic Idealize.ShloMosaic.ValueIdx

/-! The delta block's second coordinate, as the channel's offset plus the delta's number, is the numeral. -/
theorem dfix0_0 (h : (0 : Fin 7).val < 14) : (⟨(0 : Fin 7).val, h⟩ : Fin 14) = 0 := rfl
theorem dfix1_0 (h : 7 + (0 : Fin 7).val < 14) : (⟨7 + (0 : Fin 7).val, h⟩ : Fin 14) = 7 := rfl
theorem dfix0_1 (h : (1 : Fin 7).val < 14) : (⟨(1 : Fin 7).val, h⟩ : Fin 14) = 1 := rfl
theorem dfix1_1 (h : 7 + (1 : Fin 7).val < 14) : (⟨7 + (1 : Fin 7).val, h⟩ : Fin 14) = 8 := rfl
theorem dfix0_2 (h : (2 : Fin 7).val < 14) : (⟨(2 : Fin 7).val, h⟩ : Fin 14) = 2 := rfl
theorem dfix1_2 (h : 7 + (2 : Fin 7).val < 14) : (⟨7 + (2 : Fin 7).val, h⟩ : Fin 14) = 9 := rfl
theorem dfix0_3 (h : (3 : Fin 7).val < 14) : (⟨(3 : Fin 7).val, h⟩ : Fin 14) = 3 := rfl
theorem dfix1_3 (h : 7 + (3 : Fin 7).val < 14) : (⟨7 + (3 : Fin 7).val, h⟩ : Fin 14) = 10 := rfl
theorem dfix0_4 (h : (4 : Fin 7).val < 14) : (⟨(4 : Fin 7).val, h⟩ : Fin 14) = 4 := rfl
theorem dfix1_4 (h : 7 + (4 : Fin 7).val < 14) : (⟨7 + (4 : Fin 7).val, h⟩ : Fin 14) = 11 := rfl
theorem dfix0_5 (h : (5 : Fin 7).val < 14) : (⟨(5 : Fin 7).val, h⟩ : Fin 14) = 5 := rfl
theorem dfix1_5 (h : 7 + (5 : Fin 7).val < 14) : (⟨7 + (5 : Fin 7).val, h⟩ : Fin 14) = 12 := rfl
theorem dfix0_6 (h : (6 : Fin 7).val < 14) : (⟨(6 : Fin 7).val, h⟩ : Fin 14) = 6 := rfl
theorem dfix1_6 (h : 7 + (6 : Fin 7).val < 14) : (⟨7 + (6 : Fin 7).val, h⟩ : Fin 14) = 13 := rfl

/-- The one index of a 1 × 1 vector. -/
theorem idx11 (i : S1x1.Idx) : i = ix2 (0 : Fin 1) (0 : Fin 1) := by
  funext a
  apply Fin.ext
  match a with
  | ⟨0, _⟩ => have := (i 0).isLt; show (i 0).val = 0; simp at this; omega
  | ⟨1, _⟩ => have := (i 1).isLt; show (i 1).val = 0; simp at this; omega

set_option maxHeartbeats 40000000 in
/-- The composition read at the one cell, every payload and load opened. -/
theorem pointVec_cell (x0 : Vec Ideal S1x2x64x512 .f32) (x1 : Vec Ideal S1x14x64x512 .f32) (x2 : Vec Ideal S2x7x64x512 .f32) (x3 : Vec Ideal S4x4 .f32) (x4 : Vec Ideal S64x4 .f32) (acc : Vec Ideal S1x1 .f32) :
    pointVec (F := Ideal) x0 x1 x2 x3 x4 acc (ix2 (0 : Fin 1) (0 : Fin 1))
      = acc (ix2 (0 : Fin 1) (0 : Fin 1)) + pointTotal x0 x1 x2 x3 x4 := by
  unfold pointVec packB
  dsimp only
  have hmat := fun inb y => congrFun (ld_mat x3 inb) y
  have hacc := fun inb y => congrFun (ld_acc acc inb) y
  have hx0_0_0 := fun inb u v r l => x0_0_0 x0 inb u v r l
  have hx0_0_1 := fun inb u v r l => x0_0_1 x0 inb u v r l
  have hx1_0_0 := fun inb u v r l => x1_0_0 x1 inb u v r l
  have hx1_0_1 := fun inb u v r l => x1_0_1 x1 inb u v r l
  have hx1_0_2 := fun inb u v r l => x1_0_2 x1 inb u v r l
  have hx1_0_3 := fun inb u v r l => x1_0_3 x1 inb u v r l
  have hx1_0_4 := fun inb u v r l => x1_0_4 x1 inb u v r l
  have hx1_0_5 := fun inb u v r l => x1_0_5 x1 inb u v r l
  have hx1_0_6 := fun inb u v r l => x1_0_6 x1 inb u v r l
  have hx1_0_7 := fun inb u v r l => x1_0_7 x1 inb u v r l
  have hx1_0_8 := fun inb u v r l => x1_0_8 x1 inb u v r l
  have hx1_0_9 := fun inb u v r l => x1_0_9 x1 inb u v r l
  have hx1_0_10 := fun inb u v r l => x1_0_10 x1 inb u v r l
  have hx1_0_11 := fun inb u v r l => x1_0_11 x1 inb u v r l
  have hx1_0_12 := fun inb u v r l => x1_0_12 x1 inb u v r l
  have hx1_0_13 := fun inb u v r l => x1_0_13 x1 inb u v r l
  have hx2_0_0 := fun inb u v r l => x2_0_0 x2 inb u v r l
  have hx2_0_1 := fun inb u v r l => x2_0_1 x2 inb u v r l
  have hx2_0_2 := fun inb u v r l => x2_0_2 x2 inb u v r l
  have hx2_0_3 := fun inb u v r l => x2_0_3 x2 inb u v r l
  have hx2_0_4 := fun inb u v r l => x2_0_4 x2 inb u v r l
  have hx2_0_5 := fun inb u v r l => x2_0_5 x2 inb u v r l
  have hx2_0_6 := fun inb u v r l => x2_0_6 x2 inb u v r l
  have hx2_1_0 := fun inb u v r l => x2_1_0 x2 inb u v r l
  have hx2_1_1 := fun inb u v r l => x2_1_1 x2 inb u v r l
  have hx2_1_2 := fun inb u v r l => x2_1_2 x2 inb u v r l
  have hx2_1_3 := fun inb u v r l => x2_1_3 x2 inb u v r l
  have hx2_1_4 := fun inb u v r l => x2_1_4 x2 inb u v r l
  have hx2_1_5 := fun inb u v r l => x2_1_5 x2 inb u v r l
  have hx2_1_6 := fun inb u v r l => x2_1_6 x2 inb u v r l
  have hx4_0_0 := fun inb y => x4_0_0 x4 inb y
  have hx4_0_1 := fun inb y => x4_0_1 x4 inb y
  have hx4_0_2 := fun inb y => x4_0_2 x4 inb y
  have hx4_0_3 := fun inb y => x4_0_3 x4 inb y
  have hx4_1_0 := fun inb y => x4_1_0 x4 inb y
  have hx4_1_1 := fun inb y => x4_1_1 x4 inb y
  have hx4_1_2 := fun inb y => x4_1_2 x4 inb y
  have hx4_1_3 := fun inb y => x4_1_3 x4 inb y
  have hx4_2_0 := fun inb y => x4_2_0 x4 inb y
  have hx4_2_1 := fun inb y => x4_2_1 x4 inb y
  have hx4_2_2 := fun inb y => x4_2_2 x4 inb y
  have hx4_2_3 := fun inb y => x4_2_3 x4 inb y
  have hx4_3_0 := fun inb y => x4_3_0 x4 inb y
  have hx4_3_1 := fun inb y => x4_3_1 x4 inb y
  have hx4_3_2 := fun inb y => x4_3_2 x4 inb y
  have hx4_3_3 := fun inb y => x4_3_3 x4 inb y
  have hx4_4_0 := fun inb y => x4_4_0 x4 inb y
  have hx4_4_1 := fun inb y => x4_4_1 x4 inb y
  have hx4_4_2 := fun inb y => x4_4_2 x4 inb y
  have hx4_4_3 := fun inb y => x4_4_3 x4 inb y
  have hx4_5_0 := fun inb y => x4_5_0 x4 inb y
  have hx4_5_1 := fun inb y => x4_5_1 x4 inb y
  have hx4_5_2 := fun inb y => x4_5_2 x4 inb y
  have hx4_5_3 := fun inb y => x4_5_3 x4 inb y
  have hx4_6_0 := fun inb y => x4_6_0 x4 inb y
  have hx4_6_1 := fun inb y => x4_6_1 x4 inb y
  have hx4_6_2 := fun inb y => x4_6_2 x4 inb y
  have hx4_6_3 := fun inb y => x4_6_3 x4 inb y
  have hx4_7_0 := fun inb y => x4_7_0 x4 inb y
  have hx4_7_1 := fun inb y => x4_7_1 x4 inb y
  have hx4_7_2 := fun inb y => x4_7_2 x4 inb y
  have hx4_7_3 := fun inb y => x4_7_3 x4 inb y
  have hx4_8_0 := fun inb y => x4_8_0 x4 inb y
  have hx4_8_1 := fun inb y => x4_8_1 x4 inb y
  have hx4_8_2 := fun inb y => x4_8_2 x4 inb y
  have hx4_8_3 := fun inb y => x4_8_3 x4 inb y
  have hx4_9_0 := fun inb y => x4_9_0 x4 inb y
  have hx4_9_1 := fun inb y => x4_9_1 x4 inb y
  have hx4_9_2 := fun inb y => x4_9_2 x4 inb y
  have hx4_9_3 := fun inb y => x4_9_3 x4 inb y
  have hx4_10_0 := fun inb y => x4_10_0 x4 inb y
  have hx4_10_1 := fun inb y => x4_10_1 x4 inb y
  have hx4_10_2 := fun inb y => x4_10_2 x4 inb y
  have hx4_10_3 := fun inb y => x4_10_3 x4 inb y
  have hx4_11_0 := fun inb y => x4_11_0 x4 inb y
  have hx4_11_1 := fun inb y => x4_11_1 x4 inb y
  have hx4_11_2 := fun inb y => x4_11_2 x4 inb y
  have hx4_11_3 := fun inb y => x4_11_3 x4 inb y
  have hx4_12_0 := fun inb y => x4_12_0 x4 inb y
  have hx4_12_1 := fun inb y => x4_12_1 x4 inb y
  have hx4_12_2 := fun inb y => x4_12_2 x4 inb y
  have hx4_12_3 := fun inb y => x4_12_3 x4 inb y
  have hx4_13_0 := fun inb y => x4_13_0 x4 inb y
  have hx4_13_1 := fun inb y => x4_13_1 x4 inb y
  have hx4_13_2 := fun inb y => x4_13_2 x4 inb y
  have hx4_13_3 := fun inb y => x4_13_3 x4 inb y
  have hx4_14_0 := fun inb y => x4_14_0 x4 inb y
  have hx4_14_1 := fun inb y => x4_14_1 x4 inb y
  have hx4_14_2 := fun inb y => x4_14_2 x4 inb y
  have hx4_14_3 := fun inb y => x4_14_3 x4 inb y
  have hx4_15_0 := fun inb y => x4_15_0 x4 inb y
  have hx4_15_1 := fun inb y => x4_15_1 x4 inb y
  have hx4_15_2 := fun inb y => x4_15_2 x4 inb y
  have hx4_15_3 := fun inb y => x4_15_3 x4 inb y
  have hx4_16_0 := fun inb y => x4_16_0 x4 inb y
  have hx4_16_1 := fun inb y => x4_16_1 x4 inb y
  have hx4_16_2 := fun inb y => x4_16_2 x4 inb y
  have hx4_16_3 := fun inb y => x4_16_3 x4 inb y
  have hx4_17_0 := fun inb y => x4_17_0 x4 inb y
  have hx4_17_1 := fun inb y => x4_17_1 x4 inb y
  have hx4_17_2 := fun inb y => x4_17_2 x4 inb y
  have hx4_17_3 := fun inb y => x4_17_3 x4 inb y
  have hx4_18_0 := fun inb y => x4_18_0 x4 inb y
  have hx4_18_1 := fun inb y => x4_18_1 x4 inb y
  have hx4_18_2 := fun inb y => x4_18_2 x4 inb y
  have hx4_18_3 := fun inb y => x4_18_3 x4 inb y
  have hx4_19_0 := fun inb y => x4_19_0 x4 inb y
  have hx4_19_1 := fun inb y => x4_19_1 x4 inb y
  have hx4_19_2 := fun inb y => x4_19_2 x4 inb y
  have hx4_19_3 := fun inb y => x4_19_3 x4 inb y
  have hx4_20_0 := fun inb y => x4_20_0 x4 inb y
  have hx4_20_1 := fun inb y => x4_20_1 x4 inb y
  have hx4_20_2 := fun inb y => x4_20_2 x4 inb y
  have hx4_20_3 := fun inb y => x4_20_3 x4 inb y
  have hx4_21_0 := fun inb y => x4_21_0 x4 inb y
  have hx4_21_1 := fun inb y => x4_21_1 x4 inb y
  have hx4_21_2 := fun inb y => x4_21_2 x4 inb y
  have hx4_21_3 := fun inb y => x4_21_3 x4 inb y
  have hx4_22_0 := fun inb y => x4_22_0 x4 inb y
  have hx4_22_1 := fun inb y => x4_22_1 x4 inb y
  have hx4_22_2 := fun inb y => x4_22_2 x4 inb y
  have hx4_22_3 := fun inb y => x4_22_3 x4 inb y
  have hx4_23_0 := fun inb y => x4_23_0 x4 inb y
  have hx4_23_1 := fun inb y => x4_23_1 x4 inb y
  have hx4_23_2 := fun inb y => x4_23_2 x4 inb y
  have hx4_23_3 := fun inb y => x4_23_3 x4 inb y
  have hx4_24_0 := fun inb y => x4_24_0 x4 inb y
  have hx4_24_1 := fun inb y => x4_24_1 x4 inb y
  have hx4_24_2 := fun inb y => x4_24_2 x4 inb y
  have hx4_24_3 := fun inb y => x4_24_3 x4 inb y
  have hx4_25_0 := fun inb y => x4_25_0 x4 inb y
  have hx4_25_1 := fun inb y => x4_25_1 x4 inb y
  have hx4_25_2 := fun inb y => x4_25_2 x4 inb y
  have hx4_25_3 := fun inb y => x4_25_3 x4 inb y
  have hx4_26_0 := fun inb y => x4_26_0 x4 inb y
  have hx4_26_1 := fun inb y => x4_26_1 x4 inb y
  have hx4_26_2 := fun inb y => x4_26_2 x4 inb y
  have hx4_26_3 := fun inb y => x4_26_3 x4 inb y
  have hx4_27_0 := fun inb y => x4_27_0 x4 inb y
  have hx4_27_1 := fun inb y => x4_27_1 x4 inb y
  have hx4_27_2 := fun inb y => x4_27_2 x4 inb y
  have hx4_27_3 := fun inb y => x4_27_3 x4 inb y
  have hx4_28_0 := fun inb y => x4_28_0 x4 inb y
  have hx4_28_1 := fun inb y => x4_28_1 x4 inb y
  have hx4_28_2 := fun inb y => x4_28_2 x4 inb y
  have hx4_28_3 := fun inb y => x4_28_3 x4 inb y
  have hx4_29_0 := fun inb y => x4_29_0 x4 inb y
  have hx4_29_1 := fun inb y => x4_29_1 x4 inb y
  have hx4_29_2 := fun inb y => x4_29_2 x4 inb y
  have hx4_29_3 := fun inb y => x4_29_3 x4 inb y
  have hx4_30_0 := fun inb y => x4_30_0 x4 inb y
  have hx4_30_1 := fun inb y => x4_30_1 x4 inb y
  have hx4_30_2 := fun inb y => x4_30_2 x4 inb y
  have hx4_30_3 := fun inb y => x4_30_3 x4 inb y
  have hx4_31_0 := fun inb y => x4_31_0 x4 inb y
  have hx4_31_1 := fun inb y => x4_31_1 x4 inb y
  have hx4_31_2 := fun inb y => x4_31_2 x4 inb y
  have hx4_31_3 := fun inb y => x4_31_3 x4 inb y
  have hx4_32_0 := fun inb y => x4_32_0 x4 inb y
  have hx4_32_1 := fun inb y => x4_32_1 x4 inb y
  have hx4_32_2 := fun inb y => x4_32_2 x4 inb y
  have hx4_32_3 := fun inb y => x4_32_3 x4 inb y
  have hx4_33_0 := fun inb y => x4_33_0 x4 inb y
  have hx4_33_1 := fun inb y => x4_33_1 x4 inb y
  have hx4_33_2 := fun inb y => x4_33_2 x4 inb y
  have hx4_33_3 := fun inb y => x4_33_3 x4 inb y
  have hx4_34_0 := fun inb y => x4_34_0 x4 inb y
  have hx4_34_1 := fun inb y => x4_34_1 x4 inb y
  have hx4_34_2 := fun inb y => x4_34_2 x4 inb y
  have hx4_34_3 := fun inb y => x4_34_3 x4 inb y
  have hx4_35_0 := fun inb y => x4_35_0 x4 inb y
  have hx4_35_1 := fun inb y => x4_35_1 x4 inb y
  have hx4_35_2 := fun inb y => x4_35_2 x4 inb y
  have hx4_35_3 := fun inb y => x4_35_3 x4 inb y
  have hx4_36_0 := fun inb y => x4_36_0 x4 inb y
  have hx4_36_1 := fun inb y => x4_36_1 x4 inb y
  have hx4_36_2 := fun inb y => x4_36_2 x4 inb y
  have hx4_36_3 := fun inb y => x4_36_3 x4 inb y
  have hx4_37_0 := fun inb y => x4_37_0 x4 inb y
  have hx4_37_1 := fun inb y => x4_37_1 x4 inb y
  have hx4_37_2 := fun inb y => x4_37_2 x4 inb y
  have hx4_37_3 := fun inb y => x4_37_3 x4 inb y
  have hx4_38_0 := fun inb y => x4_38_0 x4 inb y
  have hx4_38_1 := fun inb y => x4_38_1 x4 inb y
  have hx4_38_2 := fun inb y => x4_38_2 x4 inb y
  have hx4_38_3 := fun inb y => x4_38_3 x4 inb y
  have hx4_39_0 := fun inb y => x4_39_0 x4 inb y
  have hx4_39_1 := fun inb y => x4_39_1 x4 inb y
  have hx4_39_2 := fun inb y => x4_39_2 x4 inb y
  have hx4_39_3 := fun inb y => x4_39_3 x4 inb y
  have hx4_40_0 := fun inb y => x4_40_0 x4 inb y
  have hx4_40_1 := fun inb y => x4_40_1 x4 inb y
  have hx4_40_2 := fun inb y => x4_40_2 x4 inb y
  have hx4_40_3 := fun inb y => x4_40_3 x4 inb y
  have hx4_41_0 := fun inb y => x4_41_0 x4 inb y
  have hx4_41_1 := fun inb y => x4_41_1 x4 inb y
  have hx4_41_2 := fun inb y => x4_41_2 x4 inb y
  have hx4_41_3 := fun inb y => x4_41_3 x4 inb y
  have hx4_42_0 := fun inb y => x4_42_0 x4 inb y
  have hx4_42_1 := fun inb y => x4_42_1 x4 inb y
  have hx4_42_2 := fun inb y => x4_42_2 x4 inb y
  have hx4_42_3 := fun inb y => x4_42_3 x4 inb y
  have hx4_43_0 := fun inb y => x4_43_0 x4 inb y
  have hx4_43_1 := fun inb y => x4_43_1 x4 inb y
  have hx4_43_2 := fun inb y => x4_43_2 x4 inb y
  have hx4_43_3 := fun inb y => x4_43_3 x4 inb y
  have hx4_44_0 := fun inb y => x4_44_0 x4 inb y
  have hx4_44_1 := fun inb y => x4_44_1 x4 inb y
  have hx4_44_2 := fun inb y => x4_44_2 x4 inb y
  have hx4_44_3 := fun inb y => x4_44_3 x4 inb y
  have hx4_45_0 := fun inb y => x4_45_0 x4 inb y
  have hx4_45_1 := fun inb y => x4_45_1 x4 inb y
  have hx4_45_2 := fun inb y => x4_45_2 x4 inb y
  have hx4_45_3 := fun inb y => x4_45_3 x4 inb y
  have hx4_46_0 := fun inb y => x4_46_0 x4 inb y
  have hx4_46_1 := fun inb y => x4_46_1 x4 inb y
  have hx4_46_2 := fun inb y => x4_46_2 x4 inb y
  have hx4_46_3 := fun inb y => x4_46_3 x4 inb y
  have hx4_47_0 := fun inb y => x4_47_0 x4 inb y
  have hx4_47_1 := fun inb y => x4_47_1 x4 inb y
  have hx4_47_2 := fun inb y => x4_47_2 x4 inb y
  have hx4_47_3 := fun inb y => x4_47_3 x4 inb y
  have hx4_48_0 := fun inb y => x4_48_0 x4 inb y
  have hx4_48_1 := fun inb y => x4_48_1 x4 inb y
  have hx4_48_2 := fun inb y => x4_48_2 x4 inb y
  have hx4_48_3 := fun inb y => x4_48_3 x4 inb y
  have hx4_49_0 := fun inb y => x4_49_0 x4 inb y
  have hx4_49_1 := fun inb y => x4_49_1 x4 inb y
  have hx4_49_2 := fun inb y => x4_49_2 x4 inb y
  have hx4_49_3 := fun inb y => x4_49_3 x4 inb y
  have hx4_50_0 := fun inb y => x4_50_0 x4 inb y
  have hx4_50_1 := fun inb y => x4_50_1 x4 inb y
  have hx4_50_2 := fun inb y => x4_50_2 x4 inb y
  have hx4_50_3 := fun inb y => x4_50_3 x4 inb y
  have hx4_51_0 := fun inb y => x4_51_0 x4 inb y
  have hx4_51_1 := fun inb y => x4_51_1 x4 inb y
  have hx4_51_2 := fun inb y => x4_51_2 x4 inb y
  have hx4_51_3 := fun inb y => x4_51_3 x4 inb y
  have hx4_52_0 := fun inb y => x4_52_0 x4 inb y
  have hx4_52_1 := fun inb y => x4_52_1 x4 inb y
  have hx4_52_2 := fun inb y => x4_52_2 x4 inb y
  have hx4_52_3 := fun inb y => x4_52_3 x4 inb y
  have hx4_53_0 := fun inb y => x4_53_0 x4 inb y
  have hx4_53_1 := fun inb y => x4_53_1 x4 inb y
  have hx4_53_2 := fun inb y => x4_53_2 x4 inb y
  have hx4_53_3 := fun inb y => x4_53_3 x4 inb y
  have hx4_54_0 := fun inb y => x4_54_0 x4 inb y
  have hx4_54_1 := fun inb y => x4_54_1 x4 inb y
  have hx4_54_2 := fun inb y => x4_54_2 x4 inb y
  have hx4_54_3 := fun inb y => x4_54_3 x4 inb y
  have hx4_55_0 := fun inb y => x4_55_0 x4 inb y
  have hx4_55_1 := fun inb y => x4_55_1 x4 inb y
  have hx4_55_2 := fun inb y => x4_55_2 x4 inb y
  have hx4_55_3 := fun inb y => x4_55_3 x4 inb y
  have hx4_56_0 := fun inb y => x4_56_0 x4 inb y
  have hx4_56_1 := fun inb y => x4_56_1 x4 inb y
  have hx4_56_2 := fun inb y => x4_56_2 x4 inb y
  have hx4_56_3 := fun inb y => x4_56_3 x4 inb y
  have hx4_57_0 := fun inb y => x4_57_0 x4 inb y
  have hx4_57_1 := fun inb y => x4_57_1 x4 inb y
  have hx4_57_2 := fun inb y => x4_57_2 x4 inb y
  have hx4_57_3 := fun inb y => x4_57_3 x4 inb y
  have hx4_58_0 := fun inb y => x4_58_0 x4 inb y
  have hx4_58_1 := fun inb y => x4_58_1 x4 inb y
  have hx4_58_2 := fun inb y => x4_58_2 x4 inb y
  have hx4_58_3 := fun inb y => x4_58_3 x4 inb y
  have hx4_59_0 := fun inb y => x4_59_0 x4 inb y
  have hx4_59_1 := fun inb y => x4_59_1 x4 inb y
  have hx4_59_2 := fun inb y => x4_59_2 x4 inb y
  have hx4_59_3 := fun inb y => x4_59_3 x4 inb y
  have hx4_60_0 := fun inb y => x4_60_0 x4 inb y
  have hx4_60_1 := fun inb y => x4_60_1 x4 inb y
  have hx4_60_2 := fun inb y => x4_60_2 x4 inb y
  have hx4_60_3 := fun inb y => x4_60_3 x4 inb y
  have hx4_61_0 := fun inb y => x4_61_0 x4 inb y
  have hx4_61_1 := fun inb y => x4_61_1 x4 inb y
  have hx4_61_2 := fun inb y => x4_61_2 x4 inb y
  have hx4_61_3 := fun inb y => x4_61_3 x4 inb y
  have hx4_62_0 := fun inb y => x4_62_0 x4 inb y
  have hx4_62_1 := fun inb y => x4_62_1 x4 inb y
  have hx4_62_2 := fun inb y => x4_62_2 x4 inb y
  have hx4_62_3 := fun inb y => x4_62_3 x4 inb y
  have hx4_63_0 := fun inb y => x4_63_0 x4 inb y
  have hx4_63_1 := fun inb y => x4_63_1 x4 inb y
  have hx4_63_2 := fun inb y => x4_63_2 x4 inb y
  have hx4_63_3 := fun inb y => x4_63_3 x4 inb y
  simp only [kpay,
    hmat, hacc, hx0_0_0, hx0_0_1, hx1_0_0, hx1_0_1, hx1_0_2, hx1_0_3, hx1_0_4, hx1_0_5, hx1_0_6, hx1_0_7,
    hx1_0_8, hx1_0_9, hx1_0_10, hx1_0_11, hx1_0_12, hx1_0_13, hx2_0_0, hx2_0_1, hx2_0_2, hx2_0_3, hx2_0_4, hx2_0_5,
    hx2_0_6, hx2_1_0, hx2_1_1, hx2_1_2, hx2_1_3, hx2_1_4, hx2_1_5, hx2_1_6, hx4_0_0, hx4_0_1, hx4_0_2, hx4_0_3,
    hx4_1_0, hx4_1_1, hx4_1_2, hx4_1_3, hx4_2_0, hx4_2_1, hx4_2_2, hx4_2_3, hx4_3_0, hx4_3_1, hx4_3_2, hx4_3_3,
    hx4_4_0, hx4_4_1, hx4_4_2, hx4_4_3, hx4_5_0, hx4_5_1, hx4_5_2, hx4_5_3, hx4_6_0, hx4_6_1, hx4_6_2, hx4_6_3,
    hx4_7_0, hx4_7_1, hx4_7_2, hx4_7_3, hx4_8_0, hx4_8_1, hx4_8_2, hx4_8_3, hx4_9_0, hx4_9_1, hx4_9_2, hx4_9_3,
    hx4_10_0, hx4_10_1, hx4_10_2, hx4_10_3, hx4_11_0, hx4_11_1, hx4_11_2, hx4_11_3, hx4_12_0, hx4_12_1, hx4_12_2, hx4_12_3,
    hx4_13_0, hx4_13_1, hx4_13_2, hx4_13_3, hx4_14_0, hx4_14_1, hx4_14_2, hx4_14_3, hx4_15_0, hx4_15_1, hx4_15_2, hx4_15_3,
    hx4_16_0, hx4_16_1, hx4_16_2, hx4_16_3, hx4_17_0, hx4_17_1, hx4_17_2, hx4_17_3, hx4_18_0, hx4_18_1, hx4_18_2, hx4_18_3,
    hx4_19_0, hx4_19_1, hx4_19_2, hx4_19_3, hx4_20_0, hx4_20_1, hx4_20_2, hx4_20_3, hx4_21_0, hx4_21_1, hx4_21_2, hx4_21_3,
    hx4_22_0, hx4_22_1, hx4_22_2, hx4_22_3, hx4_23_0, hx4_23_1, hx4_23_2, hx4_23_3, hx4_24_0, hx4_24_1, hx4_24_2, hx4_24_3,
    hx4_25_0, hx4_25_1, hx4_25_2, hx4_25_3, hx4_26_0, hx4_26_1, hx4_26_2, hx4_26_3, hx4_27_0, hx4_27_1, hx4_27_2, hx4_27_3,
    hx4_28_0, hx4_28_1, hx4_28_2, hx4_28_3, hx4_29_0, hx4_29_1, hx4_29_2, hx4_29_3, hx4_30_0, hx4_30_1, hx4_30_2, hx4_30_3,
    hx4_31_0, hx4_31_1, hx4_31_2, hx4_31_3, hx4_32_0, hx4_32_1, hx4_32_2, hx4_32_3, hx4_33_0, hx4_33_1, hx4_33_2, hx4_33_3,
    hx4_34_0, hx4_34_1, hx4_34_2, hx4_34_3, hx4_35_0, hx4_35_1, hx4_35_2, hx4_35_3, hx4_36_0, hx4_36_1, hx4_36_2, hx4_36_3,
    hx4_37_0, hx4_37_1, hx4_37_2, hx4_37_3, hx4_38_0, hx4_38_1, hx4_38_2, hx4_38_3, hx4_39_0, hx4_39_1, hx4_39_2, hx4_39_3,
    hx4_40_0, hx4_40_1, hx4_40_2, hx4_40_3, hx4_41_0, hx4_41_1, hx4_41_2, hx4_41_3, hx4_42_0, hx4_42_1, hx4_42_2, hx4_42_3,
    hx4_43_0, hx4_43_1, hx4_43_2, hx4_43_3, hx4_44_0, hx4_44_1, hx4_44_2, hx4_44_3, hx4_45_0, hx4_45_1, hx4_45_2, hx4_45_3,
    hx4_46_0, hx4_46_1, hx4_46_2, hx4_46_3, hx4_47_0, hx4_47_1, hx4_47_2, hx4_47_3, hx4_48_0, hx4_48_1, hx4_48_2, hx4_48_3,
    hx4_49_0, hx4_49_1, hx4_49_2, hx4_49_3, hx4_50_0, hx4_50_1, hx4_50_2, hx4_50_3, hx4_51_0, hx4_51_1, hx4_51_2, hx4_51_3,
    hx4_52_0, hx4_52_1, hx4_52_2, hx4_52_3, hx4_53_0, hx4_53_1, hx4_53_2, hx4_53_3, hx4_54_0, hx4_54_1, hx4_54_2, hx4_54_3,
    hx4_55_0, hx4_55_1, hx4_55_2, hx4_55_3, hx4_56_0, hx4_56_1, hx4_56_2, hx4_56_3, hx4_57_0, hx4_57_1, hx4_57_2, hx4_57_3,
    hx4_58_0, hx4_58_1, hx4_58_2, hx4_58_3, hx4_59_0, hx4_59_1, hx4_59_2, hx4_59_3, hx4_60_0, hx4_60_1, hx4_60_2, hx4_60_3,
    hx4_61_0, hx4_61_1, hx4_61_2, hx4_61_3, hx4_62_0, hx4_62_1, hx4_62_2, hx4_62_3, hx4_63_0, hx4_63_1, hx4_63_2, hx4_63_3]
  unfold pointTotal
  refine congrArg (acc (ix2 (0 : Fin 1) (0 : Fin 1)) + ·) ?_
  refine congrArg₂ (· + ·) (congrArg (c0 + ·) ?_) ?_
  · refine Finset.sum_congr rfl fun r _ => Finset.sum_congr rfl fun l _ => ?_
    unfold contribK iouSum
    rw [← chain64]
    simp only [hullMin, hullMax, outK, weight, mask, prob, logNot, diag, boxXY, boxZ, boxSize, boxYaw, cornerX, cornerY, cornerZ, proj, ovl, inter, tArea, iou, iouStep, hullArea, c0, c1, cThr, cHalf, cNegHalf, cInf, cNegInf, dfix0_0, dfix0_1, dfix0_2, dfix0_3, dfix0_4, dfix0_5, dfix0_6]
    run_tac do
      let g ← Lean.Elab.Tactic.getMainGoal
      let t ← Lean.instantiateMVars (← g.getType)
      let some (_, lhs, _) := t.eq? | throwError "not an equation"
      Lean.Elab.Tactic.closeMainGoal `rfl (← Lean.Meta.mkEqRefl lhs)
  · refine Finset.sum_congr rfl fun r _ => Finset.sum_congr rfl fun l _ => ?_
    unfold contribK iouSum
    rw [← chain64]
    simp only [hullMin, hullMax, outK, weight, mask, prob, logNot, diag, boxXY, boxZ, boxSize, boxYaw, cornerX, cornerY, cornerZ, proj, ovl, inter, tArea, iou, iouStep, hullArea, c0, c1, cThr, cHalf, cNegHalf, cInf, cNegInf, dfix1_0, dfix1_1, dfix1_2, dfix1_3, dfix1_4, dfix1_5, dfix1_6]
    run_tac do
      let g ← Lean.Elab.Tactic.getMainGoal
      let t ← Lean.instantiateMVars (← g.getType)
      let some (_, lhs, _) := t.eq? | throwError "not an equation"
      Lean.Elab.Tactic.closeMainGoal `rfl (← Lean.Meta.mkEqRefl lhs)

end Cert.KernelIdeal.KRun
end
-- ==== Proof.KRun.Final.lean ====
/-
  The three kinds of grid point, as numbers: a middle point and the last point add the point's total to what the
  accumulator cell held, the first point adds it to the zero its reset stores.
-/
import proofs.«157336_j6562710028353_2_alg».proof.Proof.KRun.Point

noncomputable section

namespace Cert.KernelIdeal.KRun
open Cert.KernelIdeal Cert.KernelIdeal.Gen Cert.KernelIdeal.Hand Cert.KernelIdeal.KPay
open Idealize.ShloMosaic Idealize.ShloMosaic.ValueIdx

/-- The accumulator cell's new contents, whole: its one cell holds the old contents plus the point's total. -/
theorem pointVec_eq (x0 : Vec Ideal S1x2x64x512 .f32) (x1 : Vec Ideal S1x14x64x512 .f32) (x2 : Vec Ideal S2x7x64x512 .f32) (x3 : Vec Ideal S4x4 .f32) (x4 : Vec Ideal S64x4 .f32) (acc : Vec Ideal S1x1 .f32) :
    pointVec (F := Ideal) x0 x1 x2 x3 x4 acc
      = fun _ => acc (ix2 (0 : Fin 1) (0 : Fin 1)) + pointTotal x0 x1 x2 x3 x4 := by
  funext i
  rw [idx11 i]
  exact pointVec_cell x0 x1 x2 x3 x4 acc

/-- A middle point adds its total to what the accumulator cell held. -/
theorem sout_B (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 : Vec Ideal S1x2x64x512 .f32) (x1 : Vec Ideal S1x14x64x512 .f32) (x2 : Vec Ideal S2x7x64x512 .f32) (x3 : Vec Ideal S4x4 .f32) (x4 : Vec Ideal S64x4 .f32) (xs0 : Vec Ideal S1x1 .f32) :
    sout0_B_0 (F := Ideal) c i arg1 harg1 arg2 harg2 arg3 harg3 arg4 harg4 arg5 harg5 arg6 harg6 arg7 harg7 hc0 hc1 x0 x1 x2 x3 x4 xs0
      = fun _ => xs0 (ix2 (0 : Fin 1) (0 : Fin 1)) + pointTotal x0 x1 x2 x3 x4 :=
  (soutB_vec c i arg1 harg1 arg2 harg2 arg3 harg3 arg4 harg4 arg5 harg5 arg6 harg6 arg7 harg7 hc0 hc1 x0 x1 x2 x3 x4 xs0).trans (pointVec_eq x0 x1 x2 x3 x4 xs0)

/-- So does the last point. -/
theorem sout_C (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 : Vec Ideal S1x2x64x512 .f32) (x1 : Vec Ideal S1x14x64x512 .f32) (x2 : Vec Ideal S2x7x64x512 .f32) (x3 : Vec Ideal S4x4 .f32) (x4 : Vec Ideal S64x4 .f32) (xs0 : Vec Ideal S1x1 .f32) :
    sout0_C_0 (F := Ideal) c i arg1 harg1 arg2 harg2 arg3 harg3 arg4 harg4 arg5 harg5 arg6 harg6 arg7 harg7 hc0 hc1 x0 x1 x2 x3 x4 xs0
      = fun _ => xs0 (ix2 (0 : Fin 1) (0 : Fin 1)) + pointTotal x0 x1 x2 x3 x4 :=
  (soutC_vec c i arg1 harg1 arg2 harg2 arg3 harg3 arg4 harg4 arg5 harg5 arg6 harg6 arg7 harg7 hc0 hc1 x0 x1 x2 x3 x4 xs0).trans (pointVec_eq x0 x1 x2 x3 x4 xs0)

/-- The first point adds its total to the zero its reset has stored. -/
theorem sout_A (c : Dev nD) (i : grid0.Coords) (arg1 : Memref sig .tc .vmem S1x2x64x512 .f32) (harg1 : arg1.IsWhole) (arg2 : Memref sig .tc .vmem S1x14x64x512 .f32) (harg2 : arg2.IsWhole) (arg3 : Memref sig .tc .vmem S2x7x64x512 .f32) (harg3 : arg3.IsWhole) (arg4 : Memref sig .tc .vmem S4x4 .f32) (harg4 : arg4.IsWhole) (arg5 : Memref sig .tc .vmem S64x4 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 : Vec Ideal S1x2x64x512 .f32) (x1 : Vec Ideal S1x14x64x512 .f32) (x2 : Vec Ideal S2x7x64x512 .f32) (x3 : Vec Ideal S4x4 .f32) (x4 : Vec Ideal S64x4 .f32) :
    sout0_A_0 (F := Ideal) c i arg1 harg1 arg2 harg2 arg3 harg3 arg4 harg4 arg5 harg5 arg6 harg6 arg7 harg7 hc0 hc1 x0 x1 x2 x3 x4
      = fun _ => c0 + pointTotal x0 x1 x2 x3 x4 := by
  rw [soutA_vec c i arg1 harg1 arg2 harg2 arg3 harg3 arg4 harg4 arg5 harg5 arg6 harg6 arg7 harg7 hc0 hc1 x0 x1 x2 x3 x4, pointVec_eq, pay1_apply]

end Cert.KernelIdeal.KRun
end
-- ==== Proof.KAnchor.lean ====
/-
  One anchor's term in the kernel's own arithmetic, assembled from the class functions: the decoded box, its eight
  corners in the template's order (signs of the half-extents along length, width and height), each rotated, moved
  and projected by the first two rows of the matrix, the running least and greatest of the projected coordinates,
  and the weighted sum of the overlap ratios with the 64 target hulls.
-/
import proofs.«157336_j6562710028353_2_alg».proof.Proof.KPay.Classes

noncomputable section

namespace Cert.KernelIdeal.KAnchor

open Idealize.ShloMosaic Cert.KernelIdeal.KPay

/-- The template's signs, corner by corner: the half-extent along the length, the width and the height. -/
def sgn : Fin 8 → Fin 3 → EReal :=
  ![![cHalf, cHalf, cNegHalf], ![cHalf, cNegHalf, cNegHalf], ![cNegHalf, cNegHalf, cNegHalf], ![cNegHalf, cHalf, cNegHalf],
    ![cHalf, cHalf, cHalf], ![cHalf, cNegHalf, cHalf], ![cNegHalf, cNegHalf, cHalf], ![cNegHalf, cHalf, cHalf]]

/-- Row `o` of the matrix applied to corner `k` of the box with sizes (ll, ww, hh), yaw cosine and sine (co, si) and centre (bx, by, bz). -/
def cornerOut (T : Fin 4 → Fin 4 → EReal) (o : Fin 4) (ll ww hh co si bx by' bz : EReal) (k : Fin 8) : EReal :=
  proj (T o 0) (T o 1) (T o 2) (T o 3)
    (cornerX (sgn k 0 * ll) (sgn k 1 * ww) co si bx) (cornerY (sgn k 0 * ll) (sgn k 1 * ww) co si by') (cornerZ (sgn k 2 * hh) bz)

/-- The running minimum over the eight corners, from +∞, in the corners' order. -/
def min8 (f : Fin 8 → EReal) : EReal :=
  min (min (min (min (min (min (min (min cInf (f 0)) (f 1)) (f 2)) (f 3)) (f 4)) (f 5)) (f 6)) (f 7)
/-- The running maximum, from −∞. -/
def max8 (f : Fin 8 → EReal) : EReal :=
  max (max (max (max (max (max (max (max cNegInf (f 0)) (f 1)) (f 2)) (f 3)) (f 4)) (f 5)) (f 6)) (f 7)

/-- The hull (x1, y1, x2, y2) of the decoded box of deltas `d` against the anchor `a`, under the matrix `T`. -/
def hullK (T : Fin 4 → Fin 4 → EReal) (d a : Fin 7 → EReal) : Fin 4 → EReal :=
  let dg := diag (a 4) (a 5)
  let bx := boxXY (d 0) dg (a 0)
  let by' := boxXY (d 1) dg (a 1)
  let bz := boxZ (d 2) (a 3) (a 2)
  let hh := boxSize (d 3) (a 3)
  let ww := boxSize (d 4) (a 4)
  let ll := boxSize (d 5) (a 5)
  let co := Ideal.cos (boxYaw (d 6) (a 6))
  let si := Ideal.sin (boxYaw (d 6) (a 6))
  ![min8 (cornerOut T 0 ll ww hh co si bx by' bz), min8 (cornerOut T 1 ll ww hh co si bx by' bz),
    max8 (cornerOut T 0 ll ww hh co si bx by' bz), max8 (cornerOut T 1 ll ww hh co si bx by' bz)]

/-- One anchor's term: weight · (0 + Σ over the 64 targets of the overlap ratio with the hull). -/
def contribK (T : Fin 4 → Fin 4 → EReal) (tg : Fin 64 → Fin 4 → EReal) (s : EReal) (d a : Fin 7 → EReal) : EReal :=
  weight s * (c0 + ∑ j : Fin 64, iou (hullK T d a 0) (hullK T d a 1) (hullK T d a 2) (hullK T d a 3)
      (hullArea (hullK T d a 0) (hullK T d a 1) (hullK T d a 2) (hullK T d a 3)) (tg j 0) (tg j 1) (tg j 2) (tg j 3))

end Cert.KernelIdeal.KAnchor

end
-- ==== Proof.RefStages.lean ====
/-
  The reference's straight line cut into four consecutive stretches: the decoding of the boxes and the scores
  (stretch A), the corners, their projection and the axis-aligned hull of every decoded box (B), the hulls of the
  target boxes (C), and the overlap ratios, their weighted sum and the total (D). The line is the four stretches
  one after the other, so its fold is the stretches' folds composed.
-/
import proofs.«157336_j6562710028353_2_alg».proof.Proof.RefRun

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch A: operations 1 … 50 of the line. -/
abbrev opsA : List (HloOp τ sig (Elt F)) :=
  [ StableHlo.nullary main_c (fun i => lit0 (S3.rowMajor i)),
    StableHlo.nullary main_cst (fun i => FloatOps.ofBits .f32 (lit1 (S8x3.rowMajor i))),
    StableHlo.nullary main_c_0 (fun i => lit2 (S3.rowMajor i)),
    StableHlo.unary main_arg0 main_v0 ((transpose S1x512x512x2 [0, 2, 3, 1] · transposes_S1x2x512x512_S1x512x512x2_0_2_3_1) : (⟨S1x2x512x512, .f32⟩ : BufTy).Contents (Elt F) → (⟨S1x512x512x2, .f32⟩ : BufTy).Contents (Elt F)),
    StableHlo.unary main_v0 main_v1 (Host.negf : (⟨S1x512x512x2, .f32⟩ : BufTy).Contents (Elt F) → (⟨S1x512x512x2, .f32⟩ : BufTy).Contents (Elt F)),
    StableHlo.unary main_v1 main_v2 (Host.exp : (⟨S1x512x512x2, .f32⟩ : BufTy).Contents (Elt F) → (⟨S1x512x512x2, .f32⟩ : BufTy).Contents (Elt F)),
    StableHlo.nullary main_cst_1 (constant S_ .f32 0x3F800000#32),
    StableHlo.unary main_cst_1 main_v3 (broadcastInDim S1x512x512x2 ![] bcast_S_S1x512x512x2 : (⟨S_, .f32⟩ : BufTy).Contents (Elt F) → (⟨S1x512x512x2, .f32⟩ : BufTy).Contents (Elt F)),
    StableHlo.binary main_v3 main_v2 main_v4 (addf : (⟨S1x512x512x2, .f32⟩ : BufTy).Contents (Elt F) → (⟨S1x512x512x2, .f32⟩ : BufTy).Contents (Elt F) → (⟨S1x512x512x2, .f32⟩ : BufTy).Contents (Elt F)),
    StableHlo.nullary main_cst_2 (constant S_ .f32 0x3F800000#32),
    StableHlo.unary main_cst_2 main_v5 (broadcastInDim S1x512x512x2 ![] bcast_S_S1x512x512x2 : (⟨S_, .f32⟩ : BufTy).Contents (Elt F) → (⟨S1x512x512x2, .f32⟩ : BufTy).Contents (Elt F)),
    StableHlo.binary main_v5 main_v4 main_v6 (Host.divf : (⟨S1x512x512x2, .f32⟩ : BufTy).Contents (Elt F) → (⟨S1x512x512x2, .f32⟩ : BufTy).Contents (Elt F) → (⟨S1x512x512x2, .f32⟩ : BufTy).Contents (Elt F)),
    StableHlo.reshape main_v6 main_v7 rfl shapeCasts_S1x512x512x2_S524288,
    StableHlo.unary main_arg1 main_v8 ((transpose S1x512x512x14 [0, 2, 3, 1] · transposes_S1x14x512x512_S1x512x512x14_0_2_3_1) : (⟨S1x14x512x512, .f32⟩ : BufTy).Contents (Elt F) → (⟨S1x512x512x14, .f32⟩ : BufTy).Contents (Elt F)),
    StableHlo.reshape main_v8 main_v9 rfl shapeCasts_S1x512x512x14_S524288x7,
    StableHlo.reshape main_arg2 main_v10 rfl shapeCasts_S512x512x2x7_S524288x7,
    StableHlo.unary main_v10 main_v11 ((extractStridedSlice S524288x1 ![0, 4] · slices_S524288x7_S524288x1_0_4) : (⟨S524288x7, .f32⟩ : BufTy).Contents (Elt F) → (⟨S524288x1, .f32⟩ : BufTy).Contents (Elt F)),
    StableHlo.reshape main_v11 main_v12 rfl shapeCasts_S524288x1_S524288,
    StableHlo.binary main_v12 main_v12 main_v13 (mulf : (⟨S524288, .f32⟩ : BufTy).Contents (Elt F) → (⟨S524288, .f32⟩ : BufTy).Contents (Elt F) → (⟨S524288, .f32⟩ : BufTy).Contents (Elt F)),
    StableHlo.unary main_v10 main_v14 ((extractStridedSlice S524288x1 ![0, 5] · slices_S524288x7_S524288x1_0_5) : (⟨S524288x7, .f32⟩ : BufTy).Contents (Elt F) → (⟨S524288x1, .f32⟩ : BufTy).Contents (Elt F)),
    StableHlo.reshape main_v14 main_v15 rfl shapeCasts_S524288x1_S524288,
    StableHlo.binary main_v15 main_v15 main_v16 (mulf : (⟨S524288, .f32⟩ : BufTy).Contents (Elt F) → (⟨S524288, .f32⟩ : BufTy).Contents (Elt F) → (⟨S524288, .f32⟩ : BufTy).Contents (Elt F)),
    StableHlo.binary main_v13 main_v16 main_v17 (addf : (⟨S524288, .f32⟩ : BufTy).Contents (Elt F) → (⟨S524288, .f32⟩ : BufTy).Contents (Elt F) → (⟨S524288, .f32⟩ : BufTy).Contents (Elt F)),
    StableHlo.unary main_v17 main_v18 (Host.sqrt : (⟨S524288, .f32⟩ : BufTy).Contents (Elt F) → (⟨S524288, .f32⟩ : BufTy).Contents (Elt F)),
    StableHlo.unary main_v9 main_v19 ((extractStridedSlice S524288x2 ![0, 0] · slices_S524288x7_S524288x2_0_0) : (⟨S524288x7, .f32⟩ : BufTy).Contents (Elt F) → (⟨S524288x2, .f32⟩ : BufTy).Contents (Elt F)),
    StableHlo.unary main_v18 main_v20 (broadcastInDim S524288x1 ![0] bcast_S524288_S524288x1_0 : (⟨S524288, .f32⟩ : BufTy).Contents (Elt F) → (⟨S524288x1, .f32⟩ : BufTy).Contents (Elt F)),
    StableHlo.unary main_v20 main_v21 (broadcastInDim S524288x2 ![0, 1] bcast_S524288x1_S524288x2_0_1 : (⟨S524288x1, .f32⟩ : BufTy).Contents (Elt F) → (⟨S524288x2, .f32⟩ : BufTy).Contents (Elt F)),
    StableHlo.binary main_v19 main_v21 main_v22 (mulf : (⟨S524288x2, .f32⟩ : BufTy).Contents (Elt F) → (⟨S524288x2, .f32⟩ : BufTy).Contents (Elt F) → (⟨S524288x2, .f32⟩ : BufTy).Contents (Elt F)),
    StableHlo.unary main_v10 main_v23 ((extractStridedSlice S524288x2 ![0, 0] · slices_S524288x7_S524288x2_0_0) : (⟨S524288x7, .f32⟩ : BufTy).Contents (Elt F) → (⟨S524288x2, .f32⟩ : BufTy).Contents (Elt F)),
    StableHlo.binary main_v22 main_v23 main_v24 (addf : (⟨S524288x2, .f32⟩ : BufTy).Contents (Elt F) → (⟨S524288x2, .f32⟩ : BufTy).Contents (Elt F) → (⟨S524288x2, .f32⟩ : BufTy).Contents (Elt F)),
    StableHlo.unary main_v9 main_v25 ((extractStridedSlice S524288x1 ![0, 2] · slices_S524288x7_S524288x1_0_2) : (⟨S524288x7, .f32⟩ : BufTy).Contents (Elt F) → (⟨S524288x1, .f32⟩ : BufTy).Contents (Elt F)),
    StableHlo.unary main_v10 main_v26 ((extractStridedSlice S524288x1 ![0, 3] · slices_S524288x7_S524288x1_0_3) : (⟨S524288x7, .f32⟩ : BufTy).Contents (Elt F) → (⟨S524288x1, .f32⟩ : BufTy).Contents (Elt F)),
    StableHlo.binary main_v25 main_v26 main_v27 (mulf : (⟨S524288x1, .f32⟩ : BufTy).Contents (Elt F) → (⟨S524288x1, .f32⟩ : BufTy).Contents (Elt F) → (⟨S524288x1, .f32⟩ : BufTy).Contents (Elt F)),
    StableHlo.unary main_v10 main_v28 ((extractStridedSlice S524288x1 ![0, 2] · slices_S524288x7_S524288x1_0_2) : (⟨S524288x7, .f32⟩ : BufTy).Contents (Elt F) → (⟨S524288x1, .f32⟩ : BufTy).Contents (Elt F)),
    StableHlo.binary main_v27 main_v28 main_v29 (addf : (⟨S524288x1, .f32⟩ : BufTy).Contents (Elt F) → (⟨S524288x1, .f32⟩ : BufTy).Contents (Elt F) → (⟨S524288x1, .f32⟩ : BufTy).Contents (Elt F)),
    StableHlo.unary main_v9 main_v30 ((extractStridedSlice S524288x3 ![0, 3] · slices_S524288x7_S524288x3_0_3) : (⟨S524288x7, .f32⟩ : BufTy).Contents (Elt F) → (⟨S524288x3, .f32⟩ : BufTy).Contents (Elt F)),
    StableHlo.unary main_v30 main_v31 (Host.exp : (⟨S524288x3, .f32⟩ : BufTy).Contents (Elt F) → (⟨S524288x3, .f32⟩ : BufTy).Contents (Elt F)),
    StableHlo.unary main_v10 main_v32 ((extractStridedSlice S524288x3 ![0, 3] · slices_S524288x7_S524288x3_0_3) : (⟨S524288x7, .f32⟩ : BufTy).Contents (Elt F) → (⟨S524288x3, .f32⟩ : BufTy).Contents (Elt F)),
    StableHlo.binary main_v31 main_v32 main_v33 (mulf : (⟨S524288x3, .f32⟩ : BufTy).Contents (Elt F) → (⟨S524288x3, .f32⟩ : BufTy).Contents (Elt F) → (⟨S524288x3, .f32⟩ : BufTy).Contents (Elt F)),
    StableHlo.unary main_v9 main_v34 ((extractStridedSlice S524288x1 ![0, 6] · slices_S524288x7_S524288x1_0_6) : (⟨S524288x7, .f32⟩ : BufTy).Contents (Elt F) → (⟨S524288x1, .f32⟩ : BufTy).Contents (Elt F)),
    StableHlo.reshape main_v34 main_v35 rfl shapeCasts_S524288x1_S524288,
    StableHlo.unary main_v10 main_v36 ((extractStridedSlice S524288x1 ![0, 6] · slices_S524288x7_S524288x1_0_6) : (⟨S524288x7, .f32⟩ : BufTy).Contents (Elt F) → (⟨S524288x1, .f32⟩ : BufTy).Contents (Elt F)),
    StableHlo.reshape main_v36 main_v37 rfl shapeCasts_S524288x1_S524288,
    StableHlo.binary main_v35 main_v37 main_v38 (addf : (⟨S524288, .f32⟩ : BufTy).Contents (Elt F) → (⟨S524288, .f32⟩ : BufTy).Contents (Elt F) → (⟨S524288, .f32⟩ : BufTy).Contents (Elt F)),
    StableHlo.unary main_v38 main_v39 (broadcastInDim S524288x1 ![0] bcast_S524288_S524288x1_0 : (⟨S524288, .f32⟩ : BufTy).Contents (Elt F) → (⟨S524288x1, .f32⟩ : BufTy).Contents (Elt F)),
    StableHlo.nary ![main_v24, main_v29, main_v33, main_v39] main_v40 (fun u => concatenate S524288x7 1 [⟨S524288x2, u 0⟩, ⟨S524288x1, u 1⟩, ⟨S524288x3, u 2⟩, ⟨S524288x1, u 3⟩] concatenates_S524288x2_S524288x1_S524288x3_S524288x1_S524288x7_d1),
    StableHlo.nullary main_cst_3 (constant S_ .f32 0x3DCCCCCD#32),
    StableHlo.unary main_cst_3 main_v41 (broadcastInDim S524288 ![] bcast_S_S524288 : (⟨S_, .f32⟩ : BufTy).Contents (Elt F) → (⟨S524288, .f32⟩ : BufTy).Contents (Elt F)),
    StableHlo.binary main_v7 main_v41 main_v42 (cmpf .ogt : (⟨S524288, .f32⟩ : BufTy).Contents (Elt F) → (⟨S524288, .f32⟩ : BufTy).Contents (Elt F) → (⟨S524288, .i1⟩ : BufTy).Contents (Elt F)),
    StableHlo.unary main_v42 main_v43 (uitofp .f32 : (⟨S524288, .i1⟩ : BufTy).Contents (Elt F) → (⟨S524288, .f32⟩ : BufTy).Contents (Elt F)) ]

/-- Stretch B: operations 51 … 115 of the line. -/
abbrev opsB : List (HloOp τ sig (Elt F)) :=
  [ StableHlo.nullary main_c_4 (constantI S_ 32 0#32),
    StableHlo.unary main_c_4 main_v44 (broadcastInDim S3 ![] bcast_S_S3 : (⟨S_, .i32⟩ : BufTy).Contents (Elt F) → (⟨S3, .i32⟩ : BufTy).Contents (Elt F)),
    StableHlo.binary main_c main_v44 main_v45 (cmpi .slt : (⟨S3, .i32⟩ : BufTy).Contents (Elt F) → (⟨S3, .i32⟩ : BufTy).Contents (Elt F) → (⟨S3, .i1⟩ : BufTy).Contents (Elt F)),
    StableHlo.nullary main_c_5 (constantI S_ 32 7#32),
    StableHlo.unary main_c_5 main_v46 (broadcastInDim S3 ![] bcast_S_S3 : (⟨S_, .i32⟩ : BufTy).Contents (Elt F) → (⟨S3, .i32⟩ : BufTy).Contents (Elt F)),
    StableHlo.binary main_c main_v46 main_v47 (addi : (⟨S3, .i32⟩ : BufTy).Contents (Elt F) → (⟨S3, .i32⟩ : BufTy).Contents (Elt F) → (⟨S3, .i32⟩ : BufTy).Contents (Elt F)),
    StableHlo.ternary main_v45 main_v47 main_c main_v48 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v48 main_v49 (broadcastInDim S3x1 ![0] bcast_S3_S3x1_0 : (⟨S3, .i32⟩ : BufTy).Contents (Elt F) → (⟨S3x1, .i32⟩ : BufTy).Contents (Elt F)),
    StableHlo.binary main_v40 main_v49 main_v50 ((fun x i => Host.gather gather_S524288x7_S3x1_S524288x3_0_1_n_n_1_1_5242881 x i) : (⟨S524288x7, .f32⟩ : BufTy).Contents (Elt F) → (⟨S3x1, .i32⟩ : BufTy).Contents (Elt F) → (⟨S524288x3, .f32⟩ : BufTy).Contents (Elt F)),
    StableHlo.unary main_v50 main_v51 (broadcastInDim S524288x1x3 ![0, 2] bcast_S524288x3_S524288x1x3_0_2 : (⟨S524288x3, .f32⟩ : BufTy).Contents (Elt F) → (⟨S524288x1x3, .f32⟩ : BufTy).Contents (Elt F)),
    StableHlo.unary main_cst main_v52 (broadcastInDim S1x8x3 ![1, 2] bcast_S8x3_S1x8x3_1_2 : (⟨S8x3, .f32⟩ : BufTy).Contents (Elt F) → (⟨S1x8x3, .f32⟩ : BufTy).Contents (Elt F)),
    StableHlo.unary main_v51 main_v53 (broadcastInDim S524288x8x3 ![0, 1, 2] bcast_S524288x1x3_S524288x8x3_0_1_2 : (⟨S524288x1x3, .f32⟩ : BufTy).Contents (Elt F) → (⟨S524288x8x3, .f32⟩ : BufTy).Contents (Elt F)),
    StableHlo.unary main_v52 main_v54 (broadcastInDim S524288x8x3 ![0, 1, 2] bcast_S1x8x3_S524288x8x3_0_1_2 : (⟨S1x8x3, .f32⟩ : BufTy).Contents (Elt F) → (⟨S524288x8x3, .f32⟩ : BufTy).Contents (Elt F)),
    StableHlo.binary main_v53 main_v54 main_v55 (mulf : (⟨S524288x8x3, .f32⟩ : BufTy).Contents (Elt F) → (⟨S524288x8x3, .f32⟩ : BufTy).Contents (Elt F) → (⟨S524288x8x3, .f32⟩ : BufTy).Contents (Elt F)),
    StableHlo.unary main_v40 main_v56 ((extractStridedSlice S524288x1 ![0, 6] · slices_S524288x7_S524288x1_0_6) : (⟨S524288x7, .f32⟩ : BufTy).Contents (Elt F) → (⟨S524288x1, .f32⟩ : BufTy).Contents (Elt F)),
    StableHlo.reshape main_v56 main_v57 rfl shapeCasts_S524288x1_S524288,
    StableHlo.unary main_v57 main_v58 (Host.cos : (⟨S524288, .f32⟩ : BufTy).Contents (Elt F) → (⟨S524288, .f32⟩ : BufTy).Contents (Elt F)),
    StableHlo.unary main_v57 main_v59 (Host.sin : (⟨S524288, .f32⟩ : BufTy).Contents (Elt F) → (⟨S524288, .f32⟩ : BufTy).Contents (Elt F)),
    StableHlo.nullary main_cst_6 (constant S_ .f32 0x00000000#32),
    StableHlo.unary main_cst_6 main_v60 (broadcastInDim S524288 ![] bcast_S_S524288 : (⟨S_, .f32⟩ : BufTy).Contents (Elt F) → (⟨S524288, .f32⟩ : BufTy).Contents (Elt F)),
    StableHlo.nullary main_cst_7 (constant S_ .f32 0x3F800000#32),
    StableHlo.unary main_cst_7 main_v61 (broadcastInDim S524288 ![] bcast_S_S524288 : (⟨S_, .f32⟩ : BufTy).Contents (Elt F) → (⟨S524288, .f32⟩ : BufTy).Contents (Elt F)),
    StableHlo.unary main_v59 main_v62 (Host.negf : (⟨S524288, .f32⟩ : BufTy).Contents (Elt F) → (⟨S524288, .f32⟩ : BufTy).Contents (Elt F)),
    StableHlo.unary main_v58 main_v63 (broadcastInDim S524288x1 ![0] bcast_S524288_S524288x1_0 : (⟨S524288, .f32⟩ : BufTy).Contents (Elt F) → (⟨S524288x1, .f32⟩ : BufTy).Contents (Elt F)),
    StableHlo.unary main_v59 main_v64 (broadcastInDim S524288x1 ![0] bcast_S524288_S524288x1_0 : (⟨S524288, .f32⟩ : BufTy).Contents (Elt F) → (⟨S524288x1, .f32⟩ : BufTy).Contents (Elt F)),
    StableHlo.unary main_v60 main_v65 (broadcastInDim S524288x1 ![0] bcast_S524288_S524288x1_0 : (⟨S524288, .f32⟩ : BufTy).Contents (Elt F) → (⟨S524288x1, .f32⟩ : BufTy).Contents (Elt F)),
    StableHlo.unary main_v62 main_v66 (broadcastInDim S524288x1 ![0] bcast_S524288_S524288x1_0 : (⟨S524288, .f32⟩ : BufTy).Contents (Elt F) → (⟨S524288x1, .f32⟩ : BufTy).Contents (Elt F)),
    StableHlo.unary main_v58 main_v67 (broadcastInDim S524288x1 ![0] bcast_S524288_S524288x1_0 : (⟨S524288, .f32⟩ : BufTy).Contents (Elt F) → (⟨S524288x1, .f32⟩ : BufTy).Contents (Elt F)),
    StableHlo.unary main_v60 main_v68 (broadcastInDim S524288x1 ![0] bcast_S524288_S524288x1_0 : (⟨S524288, .f32⟩ : BufTy).Contents (Elt F) → (⟨S524288x1, .f32⟩ : BufTy).Contents (Elt F)),
    StableHlo.unary main_v60 main_v69 (broadcastInDim S524288x1 ![0] bcast_S524288_S524288x1_0 : (⟨S524288, .f32⟩ : BufTy).Contents (Elt F) → (⟨S524288x1, .f32⟩ : BufTy).Contents (Elt F)),
    StableHlo.unary main_v60 main_v70 (broadcastInDim S524288x1 ![0] bcast_S524288_S524288x1_0 : (⟨S524288, .f32⟩ : BufTy).Contents (Elt F) → (⟨S524288x1, .f32⟩ : BufTy).Contents (Elt F)),
    StableHlo.unary main_v61 main_v71 (broadcastInDim S524288x1 ![0] bcast_S524288_S524288x1_0 : (⟨S524288, .f32⟩ : BufTy).Contents (Elt F) → (⟨S524288x1, .f32⟩ : BufTy).Contents (Elt F)),
    StableHlo.nary ![main_v63, main_v64, main_v65, main_v66, main_v67, main_v68, main_v69, main_v70, main_v71] main_v72 (fun u => concatenate S524288x9 1 [⟨S524288x1, u 0⟩, ⟨S524288x1, u 1⟩, ⟨S524288x1, u 2⟩, ⟨S524288x1, u 3⟩, ⟨S524288x1, u 4⟩, ⟨S524288x1, u 5⟩, ⟨S524288x1, u 6⟩, ⟨S524288x1, u 7⟩, ⟨S524288x1, u 8⟩] concatenates_S524288x1_S524288x1_S524288x1_S524288x1_S524288x1_S524288x1_S524288x1_S524288x1_S524288x1_S524288x9_d1),
    StableHlo.reshape main_v72 main_v73 rfl shapeCasts_S524288x9_S524288x3x3,
    StableHlo.binary main_v55 main_v73 main_v74 ((fun l r => Host.dotGeneral dot_S524288x8x3_S524288x3x3_S524288x8x3_2_1_1_2_0_0 none l r) : (⟨S524288x8x3, .f32⟩ : BufTy).Contents (Elt F) → (⟨S524288x3x3, .f32⟩ : BufTy).Contents (Elt F) → (⟨S524288x8x3, .f32⟩ : BufTy).Contents (Elt F)),
    StableHlo.unary main_v40 main_v75 ((extractStridedSlice S524288x3 ![0, 0] · slices_S524288x7_S524288x3_0_0) : (⟨S524288x7, .f32⟩ : BufTy).Contents (Elt F) → (⟨S524288x3, .f32⟩ : BufTy).Contents (Elt F)),
    StableHlo.unary main_v75 main_v76 (broadcastInDim S524288x1x3 ![0, 2] bcast_S524288x3_S524288x1x3_0_2 : (⟨S524288x3, .f32⟩ : BufTy).Contents (Elt F) → (⟨S524288x1x3, .f32⟩ : BufTy).Contents (Elt F)),
    StableHlo.unary main_v76 main_v77 (broadcastInDim S524288x8x3 ![0, 1, 2] bcast_S524288x1x3_S524288x8x3_0_1_2 : (⟨S524288x1x3, .f32⟩ : BufTy).Contents (Elt F) → (⟨S524288x8x3, .f32⟩ : BufTy).Contents (Elt F)),
    StableHlo.binary main_v74 main_v77 main_v78 (addf : (⟨S524288x8x3, .f32⟩ : BufTy).Contents (Elt F) → (⟨S524288x8x3, .f32⟩ : BufTy).Contents (Elt F) → (⟨S524288x8x3, .f32⟩ : BufTy).Contents (Elt F)),
    StableHlo.nullary main_cst_8 (constant S_ .f32 0x3F800000#32),
    StableHlo.unary main_cst_8 main_v79 (broadcastInDim S524288x8x1 ![] bcast_S_S524288x8x1 : (⟨S_, .f32⟩ : BufTy).Contents (Elt F) → (⟨S524288x8x1, .f32⟩ : BufTy).Contents (Elt F)),
    StableHlo.binary main_v78 main_v79 main_v80 ((fun a b => concatenate S524288x8x4 2 [⟨S524288x8x3, a⟩, ⟨S524288x8x1, b⟩] concatenates_S524288x8x3_S524288x8x1_S524288x8x4_d2) : (⟨S524288x8x3, .f32⟩ : BufTy).Contents (Elt F) → (⟨S524288x8x1, .f32⟩ : BufTy).Contents (Elt F) → (⟨S524288x8x4, .f32⟩ : BufTy).Contents (Elt F)),
    StableHlo.binary main_v80 main_arg3 main_v81 ((fun l r => Host.dotGeneral dot_S524288x8x4_S4x4_S524288x8x4_2_1_01_0_n_n none l r) : (⟨S524288x8x4, .f32⟩ : BufTy).Contents (Elt F) → (⟨S4x4, .f32⟩ : BufTy).Contents (Elt F) → (⟨S524288x8x4, .f32⟩ : BufTy).Contents (Elt F)),
    StableHlo.unary main_v81 main_v82 ((extractStridedSlice S524288x8x3 ![0, 0, 0] · slices_S524288x8x4_S524288x8x3_0_0_0) : (⟨S524288x8x4, .f32⟩ : BufTy).Contents (Elt F) → (⟨S524288x8x3, .f32⟩ : BufTy).Contents (Elt F)),
    StableHlo.unary main_v82 main_v83 ((extractStridedSlice S524288x8x1 ![0, 0, 0] · slices_S524288x8x3_S524288x8x1_0_0_0) : (⟨S524288x8x3, .f32⟩ : BufTy).Contents (Elt F) → (⟨S524288x8x1, .f32⟩ : BufTy).Contents (Elt F)),
    StableHlo.reshape main_v83 main_v84 rfl shapeCasts_S524288x8x1_S524288x8,
    StableHlo.nullary main_cst_9 (constant S_ .f32 0x7F800000#32),
    StableHlo.binary main_v84 main_cst_9 main_v85 ((fun x v => Host.reduce FloatOps.minimumf x v reducesTo_S524288x8_S524288_d1 h_S_) : (⟨S524288x8, .f32⟩ : BufTy).Contents (Elt F) → (⟨S_, .f32⟩ : BufTy).Contents (Elt F) → (⟨S524288, .f32⟩ : BufTy).Contents (Elt F)),
    StableHlo.unary main_v82 main_v86 ((extractStridedSlice S524288x8x1 ![0, 0, 1] · slices_S524288x8x3_S524288x8x1_0_0_1) : (⟨S524288x8x3, .f32⟩ : BufTy).Contents (Elt F) → (⟨S524288x8x1, .f32⟩ : BufTy).Contents (Elt F)),
    StableHlo.reshape main_v86 main_v87 rfl shapeCasts_S524288x8x1_S524288x8,
    StableHlo.nullary main_cst_10 (constant S_ .f32 0x7F800000#32),
    StableHlo.binary main_v87 main_cst_10 main_v88 ((fun x v => Host.reduce FloatOps.minimumf x v reducesTo_S524288x8_S524288_d1 h_S_) : (⟨S524288x8, .f32⟩ : BufTy).Contents (Elt F) → (⟨S_, .f32⟩ : BufTy).Contents (Elt F) → (⟨S524288, .f32⟩ : BufTy).Contents (Elt F)),
    StableHlo.unary main_v82 main_v89 ((extractStridedSlice S524288x8x1 ![0, 0, 0] · slices_S524288x8x3_S524288x8x1_0_0_0) : (⟨S524288x8x3, .f32⟩ : BufTy).Contents (Elt F) → (⟨S524288x8x1, .f32⟩ : BufTy).Contents (Elt F)),
    StableHlo.reshape main_v89 main_v90 rfl shapeCasts_S524288x8x1_S524288x8,
    StableHlo.nullary main_cst_11 (constant S_ .f32 0xFF800000#32),
    StableHlo.binary main_v90 main_cst_11 main_v91 ((fun x v => Host.reduce FloatOps.maximumf x v reducesTo_S524288x8_S524288_d1 h_S_) : (⟨S524288x8, .f32⟩ : BufTy).Contents (Elt F) → (⟨S_, .f32⟩ : BufTy).Contents (Elt F) → (⟨S524288, .f32⟩ : BufTy).Contents (Elt F)),
    StableHlo.unary main_v82 main_v92 ((extractStridedSlice S524288x8x1 ![0, 0, 1] · slices_S524288x8x3_S524288x8x1_0_0_1) : (⟨S524288x8x3, .f32⟩ : BufTy).Contents (Elt F) → (⟨S524288x8x1, .f32⟩ : BufTy).Contents (Elt F)),
    StableHlo.reshape main_v92 main_v93 rfl shapeCasts_S524288x8x1_S524288x8,
    StableHlo.nullary main_cst_12 (constant S_ .f32 0xFF800000#32),
    StableHlo.binary main_v93 main_cst_12 main_v94 ((fun x v => Host.reduce FloatOps.maximumf x v reducesTo_S524288x8_S524288_d1 h_S_) : (⟨S524288x8, .f32⟩ : BufTy).Contents (Elt F) → (⟨S_, .f32⟩ : BufTy).Contents (Elt F) → (⟨S524288, .f32⟩ : BufTy).Contents (Elt F)),
    StableHlo.unary main_v85 main_v95 (broadcastInDim S524288x1 ![0] bcast_S524288_S524288x1_0 : (⟨S524288, .f32⟩ : BufTy).Contents (Elt F) → (⟨S524288x1, .f32⟩ : BufTy).Contents (Elt F)),
    StableHlo.unary main_v88 main_v96 (broadcastInDim S524288x1 ![0] bcast_S524288_S524288x1_0 : (⟨S524288, .f32⟩ : BufTy).Contents (Elt F) → (⟨S524288x1, .f32⟩ : BufTy).Contents (Elt F)),
    StableHlo.unary main_v91 main_v97 (broadcastInDim S524288x1 ![0] bcast_S524288_S524288x1_0 : (⟨S524288, .f32⟩ : BufTy).Contents (Elt F) → (⟨S524288x1, .f32⟩ : BufTy).Contents (Elt F)),
    StableHlo.unary main_v94 main_v98 (broadcastInDim S524288x1 ![0] bcast_S524288_S524288x1_0 : (⟨S524288, .f32⟩ : BufTy).Contents (Elt F) → (⟨S524288x1, .f32⟩ : BufTy).Contents (Elt F)),
    StableHlo.nary ![main_v95, main_v96, main_v97, main_v98] main_v99 (fun u => concatenate S524288x4 1 [⟨S524288x1, u 0⟩, ⟨S524288x1, u 1⟩, ⟨S524288x1, u 2⟩, ⟨S524288x1, u 3⟩] concatenates_S524288x1_S524288x1_S524288x1_S524288x1_S524288x4_d1) ]

/-- Stretch C: operations 116 … 175 of the line. -/
abbrev opsC : List (HloOp τ sig (Elt F)) :=
  [ StableHlo.nullary main_c_13 (constantI S_ 32 0#32),
    StableHlo.unary main_c_13 main_v100 (broadcastInDim S3 ![] bcast_S_S3 : (⟨S_, .i32⟩ : BufTy).Contents (Elt F) → (⟨S3, .i32⟩ : BufTy).Contents (Elt F)),
    StableHlo.binary main_c_0 main_v100 main_v101 (cmpi .slt : (⟨S3, .i32⟩ : BufTy).Contents (Elt F) → (⟨S3, .i32⟩ : BufTy).Contents (Elt F) → (⟨S3, .i1⟩ : BufTy).Contents (Elt F)),
    StableHlo.nullary main_c_14 (constantI S_ 32 7#32),
    StableHlo.unary main_c_14 main_v102 (broadcastInDim S3 ![] bcast_S_S3 : (⟨S_, .i32⟩ : BufTy).Contents (Elt F) → (⟨S3, .i32⟩ : BufTy).Contents (Elt F)),
    StableHlo.binary main_c_0 main_v102 main_v103 (addi : (⟨S3, .i32⟩ : BufTy).Contents (Elt F) → (⟨S3, .i32⟩ : BufTy).Contents (Elt F) → (⟨S3, .i32⟩ : BufTy).Contents (Elt F)),
    StableHlo.ternary main_v101 main_v103 main_c_0 main_v104 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v104 main_v105 (broadcastInDim S3x1 ![0] bcast_S3_S3x1_0 : (⟨S3, .i32⟩ : BufTy).Contents (Elt F) → (⟨S3x1, .i32⟩ : BufTy).Contents (Elt F)),
    StableHlo.binary main_arg4 main_v105 main_v106 ((fun x i => Host.gather gather_S64x7_S3x1_S64x3_0_1_n_n_1_1_641 x i) : (⟨S64x7, .f32⟩ : BufTy).Contents (Elt F) → (⟨S3x1, .i32⟩ : BufTy).Contents (Elt F) → (⟨S64x3, .f32⟩ : BufTy).Contents (Elt F)),
    StableHlo.unary main_v106 main_v107 (broadcastInDim S64x1x3 ![0, 2] bcast_S64x3_S64x1x3_0_2 : (⟨S64x3, .f32⟩ : BufTy).Contents (Elt F) → (⟨S64x1x3, .f32⟩ : BufTy).Contents (Elt F)),
    StableHlo.unary main_cst main_v108 (broadcastInDim S1x8x3 ![1, 2] bcast_S8x3_S1x8x3_1_2 : (⟨S8x3, .f32⟩ : BufTy).Contents (Elt F) → (⟨S1x8x3, .f32⟩ : BufTy).Contents (Elt F)),
    StableHlo.unary main_v107 main_v109 (broadcastInDim S64x8x3 ![0, 1, 2] bcast_S64x1x3_S64x8x3_0_1_2 : (⟨S64x1x3, .f32⟩ : BufTy).Contents (Elt F) → (⟨S64x8x3, .f32⟩ : BufTy).Contents (Elt F)),
    StableHlo.unary main_v108 main_v110 (broadcastInDim S64x8x3 ![0, 1, 2] bcast_S1x8x3_S64x8x3_0_1_2 : (⟨S1x8x3, .f32⟩ : BufTy).Contents (Elt F) → (⟨S64x8x3, .f32⟩ : BufTy).Contents (Elt F)),
    StableHlo.binary main_v109 main_v110 main_v111 (mulf : (⟨S64x8x3, .f32⟩ : BufTy).Contents (Elt F) → (⟨S64x8x3, .f32⟩ : BufTy).Contents (Elt F) → (⟨S64x8x3, .f32⟩ : BufTy).Contents (Elt F)),
    StableHlo.unary main_arg4 main_v112 ((extractStridedSlice S64x1 ![0, 6] · slices_S64x7_S64x1_0_6) : (⟨S64x7, .f32⟩ : BufTy).Contents (Elt F) → (⟨S64x1, .f32⟩ : BufTy).Contents (Elt F)),
    StableHlo.reshape main_v112 main_v113 rfl shapeCasts_S64x1_S64,
    StableHlo.unary main_v113 main_v114 (Host.cos : (⟨S64, .f32⟩ : BufTy).Contents (Elt F) → (⟨S64, .f32⟩ : BufTy).Contents (Elt F)),
    StableHlo.unary main_v113 main_v115 (Host.sin : (⟨S64, .f32⟩ : BufTy).Contents (Elt F) → (⟨S64, .f32⟩ : BufTy).Contents (Elt F)),
    StableHlo.nullary main_cst_15 (constant S_ .f32 0x00000000#32),
    StableHlo.unary main_cst_15 main_v116 (broadcastInDim S64 ![] bcast_S_S64 : (⟨S_, .f32⟩ : BufTy).Contents (Elt F) → (⟨S64, .f32⟩ : BufTy).Contents (Elt F)),
    StableHlo.nullary main_cst_16 (constant S_ .f32 0x3F800000#32),
    StableHlo.unary main_cst_16 main_v117 (broadcastInDim S64 ![] bcast_S_S64 : (⟨S_, .f32⟩ : BufTy).Contents (Elt F) → (⟨S64, .f32⟩ : BufTy).Contents (Elt F)),
    StableHlo.unary main_v115 main_v118 (Host.negf : (⟨S64, .f32⟩ : BufTy).Contents (Elt F) → (⟨S64, .f32⟩ : BufTy).Contents (Elt F)),
    StableHlo.unary main_v114 main_v119 (broadcastInDim S64x1 ![0] bcast_S64_S64x1_0 : (⟨S64, .f32⟩ : BufTy).Contents (Elt F) → (⟨S64x1, .f32⟩ : BufTy).Contents (Elt F)),
    StableHlo.unary main_v115 main_v120 (broadcastInDim S64x1 ![0] bcast_S64_S64x1_0 : (⟨S64, .f32⟩ : BufTy).Contents (Elt F) → (⟨S64x1, .f32⟩ : BufTy).Contents (Elt F)),
    StableHlo.unary main_v116 main_v121 (broadcastInDim S64x1 ![0] bcast_S64_S64x1_0 : (⟨S64, .f32⟩ : BufTy).Contents (Elt F) → (⟨S64x1, .f32⟩ : BufTy).Contents (Elt F)),
    StableHlo.unary main_v118 main_v122 (broadcastInDim S64x1 ![0] bcast_S64_S64x1_0 : (⟨S64, .f32⟩ : BufTy).Contents (Elt F) → (⟨S64x1, .f32⟩ : BufTy).Contents (Elt F)),
    StableHlo.unary main_v114 main_v123 (broadcastInDim S64x1 ![0] bcast_S64_S64x1_0 : (⟨S64, .f32⟩ : BufTy).Contents (Elt F) → (⟨S64x1, .f32⟩ : BufTy).Contents (Elt F)),
    StableHlo.unary main_v116 main_v124 (broadcastInDim S64x1 ![0] bcast_S64_S64x1_0 : (⟨S64, .f32⟩ : BufTy).Contents (Elt F) → (⟨S64x1, .f32⟩ : BufTy).Contents (Elt F)),
    StableHlo.unary main_v116 main_v125 (broadcastInDim S64x1 ![0] bcast_S64_S64x1_0 : (⟨S64, .f32⟩ : BufTy).Contents (Elt F) → (⟨S64x1, .f32⟩ : BufTy).Contents (Elt F)),
    StableHlo.unary main_v116 main_v126 (broadcastInDim S64x1 ![0] bcast_S64_S64x1_0 : (⟨S64, .f32⟩ : BufTy).Contents (Elt F) → (⟨S64x1, .f32⟩ : BufTy).Contents (Elt F)),
    StableHlo.unary main_v117 main_v127 (broadcastInDim S64x1 ![0] bcast_S64_S64x1_0 : (⟨S64, .f32⟩ : BufTy).Contents (Elt F) → (⟨S64x1, .f32⟩ : BufTy).Contents (Elt F)),
    StableHlo.nary ![main_v119, main_v120, main_v121, main_v122, main_v123, main_v124, main_v125, main_v126, main_v127] main_v128 (fun u => concatenate S64x9 1 [⟨S64x1, u 0⟩, ⟨S64x1, u 1⟩, ⟨S64x1, u 2⟩, ⟨S64x1, u 3⟩, ⟨S64x1, u 4⟩, ⟨S64x1, u 5⟩, ⟨S64x1, u 6⟩, ⟨S64x1, u 7⟩, ⟨S64x1, u 8⟩] concatenates_S64x1_S64x1_S64x1_S64x1_S64x1_S64x1_S64x1_S64x1_S64x1_S64x9_d1),
    StableHlo.reshape main_v128 main_v129 rfl shapeCasts_S64x9_S64x3x3,
    StableHlo.binary main_v111 main_v129 main_v130 ((fun l r => Host.dotGeneral dot_S64x8x3_S64x3x3_S64x8x3_2_1_1_2_0_0 none l r) : (⟨S64x8x3, .f32⟩ : BufTy).Contents (Elt F) → (⟨S64x3x3, .f32⟩ : BufTy).Contents (Elt F) → (⟨S64x8x3, .f32⟩ : BufTy).Contents (Elt F)),
    StableHlo.unary main_arg4 main_v131 ((extractStridedSlice S64x3 ![0, 0] · slices_S64x7_S64x3_0_0) : (⟨S64x7, .f32⟩ : BufTy).Contents (Elt F) → (⟨S64x3, .f32⟩ : BufTy).Contents (Elt F)),
    StableHlo.unary main_v131 main_v132 (broadcastInDim S64x1x3 ![0, 2] bcast_S64x3_S64x1x3_0_2 : (⟨S64x3, .f32⟩ : BufTy).Contents (Elt F) → (⟨S64x1x3, .f32⟩ : BufTy).Contents (Elt F)),
    StableHlo.unary main_v132 main_v133 (broadcastInDim S64x8x3 ![0, 1, 2] bcast_S64x1x3_S64x8x3_0_1_2 : (⟨S64x1x3, .f32⟩ : BufTy).Contents (Elt F) → (⟨S64x8x3, .f32⟩ : BufTy).Contents (Elt F)),
    StableHlo.binary main_v130 main_v133 main_v134 (addf : (⟨S64x8x3, .f32⟩ : BufTy).Contents (Elt F) → (⟨S64x8x3, .f32⟩ : BufTy).Contents (Elt F) → (⟨S64x8x3, .f32⟩ : BufTy).Contents (Elt F)),
    StableHlo.unary main_v134 main_v135 ((extractStridedSlice S64x8x1 ![0, 0, 0] · slices_S64x8x3_S64x8x1_0_0_0) : (⟨S64x8x3, .f32⟩ : BufTy).Contents (Elt F) → (⟨S64x8x1, .f32⟩ : BufTy).Contents (Elt F)),
    StableHlo.reshape main_v135 main_v136 rfl shapeCasts_S64x8x1_S64x8,
    StableHlo.nullary main_cst_17 (constant S_ .f32 0x7F800000#32),
    StableHlo.binary main_v136 main_cst_17 main_v137 ((fun x v => Host.reduce FloatOps.minimumf x v reducesTo_S64x8_S64_d1 h_S_) : (⟨S64x8, .f32⟩ : BufTy).Contents (Elt F) → (⟨S_, .f32⟩ : BufTy).Contents (Elt F) → (⟨S64, .f32⟩ : BufTy).Contents (Elt F)),
    StableHlo.unary main_v134 main_v138 ((extractStridedSlice S64x8x1 ![0, 0, 1] · slices_S64x8x3_S64x8x1_0_0_1) : (⟨S64x8x3, .f32⟩ : BufTy).Contents (Elt F) → (⟨S64x8x1, .f32⟩ : BufTy).Contents (Elt F)),
    StableHlo.reshape main_v138 main_v139 rfl shapeCasts_S64x8x1_S64x8,
    StableHlo.nullary main_cst_18 (constant S_ .f32 0x7F800000#32),
    StableHlo.binary main_v139 main_cst_18 main_v140 ((fun x v => Host.reduce FloatOps.minimumf x v reducesTo_S64x8_S64_d1 h_S_) : (⟨S64x8, .f32⟩ : BufTy).Contents (Elt F) → (⟨S_, .f32⟩ : BufTy).Contents (Elt F) → (⟨S64, .f32⟩ : BufTy).Contents (Elt F)),
    StableHlo.unary main_v134 main_v141 ((extractStridedSlice S64x8x1 ![0, 0, 0] · slices_S64x8x3_S64x8x1_0_0_0) : (⟨S64x8x3, .f32⟩ : BufTy).Contents (Elt F) → (⟨S64x8x1, .f32⟩ : BufTy).Contents (Elt F)),
    StableHlo.reshape main_v141 main_v142 rfl shapeCasts_S64x8x1_S64x8,
    StableHlo.nullary main_cst_19 (constant S_ .f32 0xFF800000#32),
    StableHlo.binary main_v142 main_cst_19 main_v143 ((fun x v => Host.reduce FloatOps.maximumf x v reducesTo_S64x8_S64_d1 h_S_) : (⟨S64x8, .f32⟩ : BufTy).Contents (Elt F) → (⟨S_, .f32⟩ : BufTy).Contents (Elt F) → (⟨S64, .f32⟩ : BufTy).Contents (Elt F)),
    StableHlo.unary main_v134 main_v144 ((extractStridedSlice S64x8x1 ![0, 0, 1] · slices_S64x8x3_S64x8x1_0_0_1) : (⟨S64x8x3, .f32⟩ : BufTy).Contents (Elt F) → (⟨S64x8x1, .f32⟩ : BufTy).Contents (Elt F)),
    StableHlo.reshape main_v144 main_v145 rfl shapeCasts_S64x8x1_S64x8,
    StableHlo.nullary main_cst_20 (constant S_ .f32 0xFF800000#32),
    StableHlo.binary main_v145 main_cst_20 main_v146 ((fun x v => Host.reduce FloatOps.maximumf x v reducesTo_S64x8_S64_d1 h_S_) : (⟨S64x8, .f32⟩ : BufTy).Contents (Elt F) → (⟨S_, .f32⟩ : BufTy).Contents (Elt F) → (⟨S64, .f32⟩ : BufTy).Contents (Elt F)),
    StableHlo.unary main_v137 main_v147 (broadcastInDim S64x1 ![0] bcast_S64_S64x1_0 : (⟨S64, .f32⟩ : BufTy).Contents (Elt F) → (⟨S64x1, .f32⟩ : BufTy).Contents (Elt F)),
    StableHlo.unary main_v140 main_v148 (broadcastInDim S64x1 ![0] bcast_S64_S64x1_0 : (⟨S64, .f32⟩ : BufTy).Contents (Elt F) → (⟨S64x1, .f32⟩ : BufTy).Contents (Elt F)),
    StableHlo.unary main_v143 main_v149 (broadcastInDim S64x1 ![0] bcast_S64_S64x1_0 : (⟨S64, .f32⟩ : BufTy).Contents (Elt F) → (⟨S64x1, .f32⟩ : BufTy).Contents (Elt F)),
    StableHlo.unary main_v146 main_v150 (broadcastInDim S64x1 ![0] bcast_S64_S64x1_0 : (⟨S64, .f32⟩ : BufTy).Contents (Elt F) → (⟨S64x1, .f32⟩ : BufTy).Contents (Elt F)),
    StableHlo.nary ![main_v147, main_v148, main_v149, main_v150] main_v151 (fun u => concatenate S64x4 1 [⟨S64x1, u 0⟩, ⟨S64x1, u 1⟩, ⟨S64x1, u 2⟩, ⟨S64x1, u 3⟩] concatenates_S64x1_S64x1_S64x1_S64x1_S64x4_d1) ]

/-- Stretch D: operations 176 … 251 of the line. -/
abbrev opsD : List (HloOp τ sig (Elt F)) :=
  [ StableHlo.unary main_v151 main_v152 (broadcastInDim S1x64x4 ![1, 2] bcast_S64x4_S1x64x4_1_2 : (⟨S64x4, .f32⟩ : BufTy).Contents (Elt F) → (⟨S1x64x4, .f32⟩ : BufTy).Contents (Elt F)),
    StableHlo.unary main_v99 main_v153 (broadcastInDim S524288x1x4 ![0, 2] bcast_S524288x4_S524288x1x4_0_2 : (⟨S524288x4, .f32⟩ : BufTy).Contents (Elt F) → (⟨S524288x1x4, .f32⟩ : BufTy).Contents (Elt F)),
    StableHlo.unary main_v153 main_v154 ((extractStridedSlice S524288x1x1 ![0, 0, 0] · slices_S524288x1x4_S524288x1x1_0_0_0) : (⟨S524288x1x4, .f32⟩ : BufTy).Contents (Elt F) → (⟨S524288x1x1, .f32⟩ : BufTy).Contents (Elt F)),
    StableHlo.reshape main_v154 main_v155 rfl shapeCasts_S524288x1x1_S524288x1,
    StableHlo.unary main_v152 main_v156 ((extractStridedSlice S1x64x1 ![0, 0, 0] · slices_S1x64x4_S1x64x1_0_0_0) : (⟨S1x64x4, .f32⟩ : BufTy).Contents (Elt F) → (⟨S1x64x1, .f32⟩ : BufTy).Contents (Elt F)),
    StableHlo.reshape main_v156 main_v157 rfl shapeCasts_S1x64x1_S1x64,
    StableHlo.unary main_v155 main_v158 (broadcastInDim S524288x64 ![0, 1] bcast_S524288x1_S524288x64_0_1 : (⟨S524288x1, .f32⟩ : BufTy).Contents (Elt F) → (⟨S524288x64, .f32⟩ : BufTy).Contents (Elt F)),
    StableHlo.unary main_v157 main_v159 (broadcastInDim S524288x64 ![0, 1] bcast_S1x64_S524288x64_0_1 : (⟨S1x64, .f32⟩ : BufTy).Contents (Elt F) → (⟨S524288x64, .f32⟩ : BufTy).Contents (Elt F)),
    StableHlo.binary main_v158 main_v159 main_v160 (maximumf : (⟨S524288x64, .f32⟩ : BufTy).Contents (Elt F) → (⟨S524288x64, .f32⟩ : BufTy).Contents (Elt F) → (⟨S524288x64, .f32⟩ : BufTy).Contents (Elt F)),
    StableHlo.unary main_v153 main_v161 ((extractStridedSlice S524288x1x1 ![0, 0, 1] · slices_S524288x1x4_S524288x1x1_0_0_1) : (⟨S524288x1x4, .f32⟩ : BufTy).Contents (Elt F) → (⟨S524288x1x1, .f32⟩ : BufTy).Contents (Elt F)),
    StableHlo.reshape main_v161 main_v162 rfl shapeCasts_S524288x1x1_S524288x1,
    StableHlo.unary main_v152 main_v163 ((extractStridedSlice S1x64x1 ![0, 0, 1] · slices_S1x64x4_S1x64x1_0_0_1) : (⟨S1x64x4, .f32⟩ : BufTy).Contents (Elt F) → (⟨S1x64x1, .f32⟩ : BufTy).Contents (Elt F)),
    StableHlo.reshape main_v163 main_v164 rfl shapeCasts_S1x64x1_S1x64,
    StableHlo.unary main_v162 main_v165 (broadcastInDim S524288x64 ![0, 1] bcast_S524288x1_S524288x64_0_1 : (⟨S524288x1, .f32⟩ : BufTy).Contents (Elt F) → (⟨S524288x64, .f32⟩ : BufTy).Contents (Elt F)),
    StableHlo.unary main_v164 main_v166 (broadcastInDim S524288x64 ![0, 1] bcast_S1x64_S524288x64_0_1 : (⟨S1x64, .f32⟩ : BufTy).Contents (Elt F) → (⟨S524288x64, .f32⟩ : BufTy).Contents (Elt F)),
    StableHlo.binary main_v165 main_v166 main_v167 (maximumf : (⟨S524288x64, .f32⟩ : BufTy).Contents (Elt F) → (⟨S524288x64, .f32⟩ : BufTy).Contents (Elt F) → (⟨S524288x64, .f32⟩ : BufTy).Contents (Elt F)),
    StableHlo.unary main_v153 main_v168 ((extractStridedSlice S524288x1x1 ![0, 0, 2] · slices_S524288x1x4_S524288x1x1_0_0_2) : (⟨S524288x1x4, .f32⟩ : BufTy).Contents (Elt F) → (⟨S524288x1x1, .f32⟩ : BufTy).Contents (Elt F)),
    StableHlo.reshape main_v168 main_v169 rfl shapeCasts_S524288x1x1_S524288x1,
    StableHlo.unary main_v152 main_v170 ((extractStridedSlice S1x64x1 ![0, 0, 2] · slices_S1x64x4_S1x64x1_0_0_2) : (⟨S1x64x4, .f32⟩ : BufTy).Contents (Elt F) → (⟨S1x64x1, .f32⟩ : BufTy).Contents (Elt F)),
    StableHlo.reshape main_v170 main_v171 rfl shapeCasts_S1x64x1_S1x64,
    StableHlo.unary main_v169 main_v172 (broadcastInDim S524288x64 ![0, 1] bcast_S524288x1_S524288x64_0_1 : (⟨S524288x1, .f32⟩ : BufTy).Contents (Elt F) → (⟨S524288x64, .f32⟩ : BufTy).Contents (Elt F)),
    StableHlo.unary main_v171 main_v173 (broadcastInDim S524288x64 ![0, 1] bcast_S1x64_S524288x64_0_1 : (⟨S1x64, .f32⟩ : BufTy).Contents (Elt F) → (⟨S524288x64, .f32⟩ : BufTy).Contents (Elt F)),
    StableHlo.binary main_v172 main_v173 main_v174 (minimumf : (⟨S524288x64, .f32⟩ : BufTy).Contents (Elt F) → (⟨S524288x64, .f32⟩ : BufTy).Contents (Elt F) → (⟨S524288x64, .f32⟩ : BufTy).Contents (Elt F)),
    StableHlo.unary main_v153 main_v175 ((extractStridedSlice S524288x1x1 ![0, 0, 3] · slices_S524288x1x4_S524288x1x1_0_0_3) : (⟨S524288x1x4, .f32⟩ : BufTy).Contents (Elt F) → (⟨S524288x1x1, .f32⟩ : BufTy).Contents (Elt F)),
    StableHlo.reshape main_v175 main_v176 rfl shapeCasts_S524288x1x1_S524288x1,
    StableHlo.unary main_v152 main_v177 ((extractStridedSlice S1x64x1 ![0, 0, 3] · slices_S1x64x4_S1x64x1_0_0_3) : (⟨S1x64x4, .f32⟩ : BufTy).Contents (Elt F) → (⟨S1x64x1, .f32⟩ : BufTy).Contents (Elt F)),
    StableHlo.reshape main_v177 main_v178 rfl shapeCasts_S1x64x1_S1x64,
    StableHlo.unary main_v176 main_v179 (broadcastInDim S524288x64 ![0, 1] bcast_S524288x1_S524288x64_0_1 : (⟨S524288x1, .f32⟩ : BufTy).Contents (Elt F) → (⟨S524288x64, .f32⟩ : BufTy).Contents (Elt F)),
    StableHlo.unary main_v178 main_v180 (broadcastInDim S524288x64 ![0, 1] bcast_S1x64_S524288x64_0_1 : (⟨S1x64, .f32⟩ : BufTy).Contents (Elt F) → (⟨S524288x64, .f32⟩ : BufTy).Contents (Elt F)),
    StableHlo.binary main_v179 main_v180 main_v181 (minimumf : (⟨S524288x64, .f32⟩ : BufTy).Contents (Elt F) → (⟨S524288x64, .f32⟩ : BufTy).Contents (Elt F) → (⟨S524288x64, .f32⟩ : BufTy).Contents (Elt F)),
    StableHlo.binary main_v174 main_v160 main_v182 (subf : (⟨S524288x64, .f32⟩ : BufTy).Contents (Elt F) → (⟨S524288x64, .f32⟩ : BufTy).Contents (Elt F) → (⟨S524288x64, .f32⟩ : BufTy).Contents (Elt F)),
    StableHlo.nullary main_cst_21 (constant S_ .f32 0x00000000#32),
    StableHlo.unary main_cst_21 main_v183 (broadcastInDim S524288x64 ![] bcast_S_S524288x64 : (⟨S_, .f32⟩ : BufTy).Contents (Elt F) → (⟨S524288x64, .f32⟩ : BufTy).Contents (Elt F)),
    StableHlo.binary main_v183 main_v182 main_v184 (maximumf : (⟨S524288x64, .f32⟩ : BufTy).Contents (Elt F) → (⟨S524288x64, .f32⟩ : BufTy).Contents (Elt F) → (⟨S524288x64, .f32⟩ : BufTy).Contents (Elt F)),
    StableHlo.binary main_v181 main_v167 main_v185 (subf : (⟨S524288x64, .f32⟩ : BufTy).Contents (Elt F) → (⟨S524288x64, .f32⟩ : BufTy).Contents (Elt F) → (⟨S524288x64, .f32⟩ : BufTy).Contents (Elt F)),
    StableHlo.nullary main_cst_22 (constant S_ .f32 0x00000000#32),
    StableHlo.unary main_cst_22 main_v186 (broadcastInDim S524288x64 ![] bcast_S_S524288x64 : (⟨S_, .f32⟩ : BufTy).Contents (Elt F) → (⟨S524288x64, .f32⟩ : BufTy).Contents (Elt F)),
    StableHlo.binary main_v186 main_v185 main_v187 (maximumf : (⟨S524288x64, .f32⟩ : BufTy).Contents (Elt F) → (⟨S524288x64, .f32⟩ : BufTy).Contents (Elt F) → (⟨S524288x64, .f32⟩ : BufTy).Contents (Elt F)),
    StableHlo.binary main_v184 main_v187 main_v188 (mulf : (⟨S524288x64, .f32⟩ : BufTy).Contents (Elt F) → (⟨S524288x64, .f32⟩ : BufTy).Contents (Elt F) → (⟨S524288x64, .f32⟩ : BufTy).Contents (Elt F)),
    StableHlo.unary main_v153 main_v189 ((extractStridedSlice S524288x1x1 ![0, 0, 2] · slices_S524288x1x4_S524288x1x1_0_0_2) : (⟨S524288x1x4, .f32⟩ : BufTy).Contents (Elt F) → (⟨S524288x1x1, .f32⟩ : BufTy).Contents (Elt F)),
    StableHlo.reshape main_v189 main_v190 rfl shapeCasts_S524288x1x1_S524288x1,
    StableHlo.unary main_v153 main_v191 ((extractStridedSlice S524288x1x1 ![0, 0, 0] · slices_S524288x1x4_S524288x1x1_0_0_0) : (⟨S524288x1x4, .f32⟩ : BufTy).Contents (Elt F) → (⟨S524288x1x1, .f32⟩ : BufTy).Contents (Elt F)),
    StableHlo.reshape main_v191 main_v192 rfl shapeCasts_S524288x1x1_S524288x1,
    StableHlo.binary main_v190 main_v192 main_v193 (subf : (⟨S524288x1, .f32⟩ : BufTy).Contents (Elt F) → (⟨S524288x1, .f32⟩ : BufTy).Contents (Elt F) → (⟨S524288x1, .f32⟩ : BufTy).Contents (Elt F)),
    StableHlo.unary main_v153 main_v194 ((extractStridedSlice S524288x1x1 ![0, 0, 3] · slices_S524288x1x4_S524288x1x1_0_0_3) : (⟨S524288x1x4, .f32⟩ : BufTy).Contents (Elt F) → (⟨S524288x1x1, .f32⟩ : BufTy).Contents (Elt F)),
    StableHlo.reshape main_v194 main_v195 rfl shapeCasts_S524288x1x1_S524288x1,
    StableHlo.unary main_v153 main_v196 ((extractStridedSlice S524288x1x1 ![0, 0, 1] · slices_S524288x1x4_S524288x1x1_0_0_1) : (⟨S524288x1x4, .f32⟩ : BufTy).Contents (Elt F) → (⟨S524288x1x1, .f32⟩ : BufTy).Contents (Elt F)),
    StableHlo.reshape main_v196 main_v197 rfl shapeCasts_S524288x1x1_S524288x1,
    StableHlo.binary main_v195 main_v197 main_v198 (subf : (⟨S524288x1, .f32⟩ : BufTy).Contents (Elt F) → (⟨S524288x1, .f32⟩ : BufTy).Contents (Elt F) → (⟨S524288x1, .f32⟩ : BufTy).Contents (Elt F)),
    StableHlo.binary main_v193 main_v198 main_v199 (mulf : (⟨S524288x1, .f32⟩ : BufTy).Contents (Elt F) → (⟨S524288x1, .f32⟩ : BufTy).Contents (Elt F) → (⟨S524288x1, .f32⟩ : BufTy).Contents (Elt F)),
    StableHlo.unary main_v152 main_v200 ((extractStridedSlice S1x64x1 ![0, 0, 2] · slices_S1x64x4_S1x64x1_0_0_2) : (⟨S1x64x4, .f32⟩ : BufTy).Contents (Elt F) → (⟨S1x64x1, .f32⟩ : BufTy).Contents (Elt F)),
    StableHlo.reshape main_v200 main_v201 rfl shapeCasts_S1x64x1_S1x64,
    StableHlo.unary main_v152 main_v202 ((extractStridedSlice S1x64x1 ![0, 0, 0] · slices_S1x64x4_S1x64x1_0_0_0) : (⟨S1x64x4, .f32⟩ : BufTy).Contents (Elt F) → (⟨S1x64x1, .f32⟩ : BufTy).Contents (Elt F)),
    StableHlo.reshape main_v202 main_v203 rfl shapeCasts_S1x64x1_S1x64,
    StableHlo.binary main_v201 main_v203 main_v204 (subf : (⟨S1x64, .f32⟩ : BufTy).Contents (Elt F) → (⟨S1x64, .f32⟩ : BufTy).Contents (Elt F) → (⟨S1x64, .f32⟩ : BufTy).Contents (Elt F)),
    StableHlo.unary main_v152 main_v205 ((extractStridedSlice S1x64x1 ![0, 0, 3] · slices_S1x64x4_S1x64x1_0_0_3) : (⟨S1x64x4, .f32⟩ : BufTy).Contents (Elt F) → (⟨S1x64x1, .f32⟩ : BufTy).Contents (Elt F)),
    StableHlo.reshape main_v205 main_v206 rfl shapeCasts_S1x64x1_S1x64,
    StableHlo.unary main_v152 main_v207 ((extractStridedSlice S1x64x1 ![0, 0, 1] · slices_S1x64x4_S1x64x1_0_0_1) : (⟨S1x64x4, .f32⟩ : BufTy).Contents (Elt F) → (⟨S1x64x1, .f32⟩ : BufTy).Contents (Elt F)),
    StableHlo.reshape main_v207 main_v208 rfl shapeCasts_S1x64x1_S1x64,
    StableHlo.binary main_v206 main_v208 main_v209 (subf : (⟨S1x64, .f32⟩ : BufTy).Contents (Elt F) → (⟨S1x64, .f32⟩ : BufTy).Contents (Elt F) → (⟨S1x64, .f32⟩ : BufTy).Contents (Elt F)),
    StableHlo.binary main_v204 main_v209 main_v210 (mulf : (⟨S1x64, .f32⟩ : BufTy).Contents (Elt F) → (⟨S1x64, .f32⟩ : BufTy).Contents (Elt F) → (⟨S1x64, .f32⟩ : BufTy).Contents (Elt F)),
    StableHlo.unary main_v199 main_v211 (broadcastInDim S524288x64 ![0, 1] bcast_S524288x1_S524288x64_0_1 : (⟨S524288x1, .f32⟩ : BufTy).Contents (Elt F) → (⟨S524288x64, .f32⟩ : BufTy).Contents (Elt F)),
    StableHlo.unary main_v210 main_v212 (broadcastInDim S524288x64 ![0, 1] bcast_S1x64_S524288x64_0_1 : (⟨S1x64, .f32⟩ : BufTy).Contents (Elt F) → (⟨S524288x64, .f32⟩ : BufTy).Contents (Elt F)),
    StableHlo.binary main_v211 main_v212 main_v213 (addf : (⟨S524288x64, .f32⟩ : BufTy).Contents (Elt F) → (⟨S524288x64, .f32⟩ : BufTy).Contents (Elt F) → (⟨S524288x64, .f32⟩ : BufTy).Contents (Elt F)),
    StableHlo.binary main_v213 main_v188 main_v214 (subf : (⟨S524288x64, .f32⟩ : BufTy).Contents (Elt F) → (⟨S524288x64, .f32⟩ : BufTy).Contents (Elt F) → (⟨S524288x64, .f32⟩ : BufTy).Contents (Elt F)),
    StableHlo.binary main_v188 main_v214 main_v215 (Host.divf : (⟨S524288x64, .f32⟩ : BufTy).Contents (Elt F) → (⟨S524288x64, .f32⟩ : BufTy).Contents (Elt F) → (⟨S524288x64, .f32⟩ : BufTy).Contents (Elt F)),
    StableHlo.nullary main_cst_23 (constant S_ .f32 0x3F800000#32),
    StableHlo.unary main_cst_23 main_v216 (broadcastInDim S524288 ![] bcast_S_S524288 : (⟨S_, .f32⟩ : BufTy).Contents (Elt F) → (⟨S524288, .f32⟩ : BufTy).Contents (Elt F)),
    StableHlo.binary main_v216 main_v7 main_v217 (subf : (⟨S524288, .f32⟩ : BufTy).Contents (Elt F) → (⟨S524288, .f32⟩ : BufTy).Contents (Elt F) → (⟨S524288, .f32⟩ : BufTy).Contents (Elt F)),
    StableHlo.unary main_v217 main_v218 (Host.log : (⟨S524288, .f32⟩ : BufTy).Contents (Elt F) → (⟨S524288, .f32⟩ : BufTy).Contents (Elt F)),
    StableHlo.binary main_v43 main_v218 main_v219 (mulf : (⟨S524288, .f32⟩ : BufTy).Contents (Elt F) → (⟨S524288, .f32⟩ : BufTy).Contents (Elt F) → (⟨S524288, .f32⟩ : BufTy).Contents (Elt F)),
    StableHlo.nullary main_cst_24 (constant S_ .f32 0x00000000#32),
    StableHlo.binary main_v215 main_cst_24 main_v220 ((fun x v => Host.reduceAdd x v reducesTo_S524288x64_S524288_d1 h_S_) : (⟨S524288x64, .f32⟩ : BufTy).Contents (Elt F) → (⟨S_, .f32⟩ : BufTy).Contents (Elt F) → (⟨S524288, .f32⟩ : BufTy).Contents (Elt F)),
    StableHlo.binary main_v219 main_v220 main_v221 (mulf : (⟨S524288, .f32⟩ : BufTy).Contents (Elt F) → (⟨S524288, .f32⟩ : BufTy).Contents (Elt F) → (⟨S524288, .f32⟩ : BufTy).Contents (Elt F)),
    StableHlo.nullary main_cst_25 (constant S_ .f32 0x00000000#32),
    StableHlo.binary main_v221 main_cst_25 main_v222 ((fun x v => Host.reduceAdd x v reducesTo_S524288_S_d0 h_S_) : (⟨S524288, .f32⟩ : BufTy).Contents (Elt F) → (⟨S_, .f32⟩ : BufTy).Contents (Elt F) → (⟨S_, .f32⟩ : BufTy).Contents (Elt F)) ]

set_option maxRecDepth 16384 in
/-- The line is the four stretches in order. -/
theorem ops_eq_stages : (ops : List (HloOp τ sig (Elt F))) = opsA ++ (opsB ++ (opsC ++ opsD)) := rfl

/-- So its fold is the stretches' folds composed. -/
theorem after_ops_stages (V : Valuation τ sig (Elt F)) :
    after ops V = after opsD (after opsC (after opsB (after opsA V))) := by
  rw [ops_eq_stages, after_append, after_append, after_append]

end Cert.ReferenceIdeal.RefRun

end
-- ==== Proof.Spec.lean ====
/-
  Anchors are numbered cell by cell, the two yaw channels of a cell side by side: cell (w, l) of the 512 × 512
  grid and channel g have the flat number (512 w + l) · 2 + g. Every flat number below 524288 is one such, once.
-/
import Idealize.ShloMosaic.PureOps.Ideal
import Idealize.ShloMosaic.Lib.ValueIdx

namespace Cert.Spec

/-- The flat number of the anchor at cell `(w, l)` and yaw channel `g`. -/
def anc (w l : Fin 512) (g : Fin 2) : Fin 524288 :=
  ⟨(w.val * 512 + l.val) * 2 + g.val, by have := w.isLt; have := l.isLt; have := g.isLt; omega⟩

theorem anc_val (w l : Fin 512) (g : Fin 2) : (anc w l g).val = (w.val * 512 + l.val) * 2 + g.val := rfl

/-- Cell, lane and channel of a flat number. -/
def ancEquiv : (Fin 512 × Fin 512) × Fin 2 ≃ Fin 524288 where
  toFun x := anc x.1.1 x.1.2 x.2
  invFun a := ((⟨a.val / 1024, by have := a.isLt; omega⟩, ⟨a.val / 2 % 512, by omega⟩), ⟨a.val % 2, by omega⟩)
  left_inv x := by
    obtain ⟨⟨w, l⟩, g⟩ := x
    have := w.isLt; have := l.isLt; have := g.isLt
    refine Prod.ext (Prod.ext (Fin.ext ?_) (Fin.ext ?_)) (Fin.ext ?_) <;> simp only [anc_val] <;> omega
  right_inv a := by
    apply Fin.ext
    have := a.isLt
    simp only [anc_val]
    omega

/-- A sum over all anchors is the sum over cells, lanes and channels. -/
theorem sum_anc {M : Type*} [AddCommMonoid M] (f : Fin 524288 → M) :
    ∑ a, f a = ∑ w : Fin 512, ∑ l : Fin 512, ∑ g : Fin 2, f (anc w l g) := by
  rw [← Equiv.sum_comp ancEquiv f, Fintype.sum_prod_type, Fintype.sum_prod_type]
  rfl

end Cert.Spec
-- ==== Proof.RefA.lean ====
/-
  Stretch A of the reference, read at an anchor.

  The stretch turns the three network outputs into one row per anchor: the sigmoid of the score, the mask of the scores
  above the threshold, and the decoded box. An anchor is cell (w, l) of the 512 × 512 grid and yaw channel g, numbered
  (512 w + l) · 2 + g. The two transposes move the channel axis last and the three reshapes read the same row-major
  position, so the flattened score at that number is the score at [0, g, w, l], row q of the flattened deltas is the
  delta at [0, 7 g + q, w, l], and row q of the flattened anchors is the anchor entry at [w, l, g, q]. The decoded box is
  then a concatenation of four groups of columns, each an elementwise expression in slices of those two rows; reading the
  concatenation at column q picks the group holding q, and each slice shifts the column by its offset.
-/
import proofs.«157336_j6562710028353_2_alg».proof.Proof.RefStages
import proofs.«157336_j6562710028353_2_alg».proof.Proof.Spec
import Idealize.ShloMosaic.Lib.ValueIdx
import Idealize.ShloMosaic.Lib.Pipeline.Value
import Idealize.ShloMosaic.PureOps.Ideal.Laws

set_option Elab.async false

noncomputable section

namespace Cert.ReferenceIdeal.RefA

open Cert.ReferenceIdeal Cert.ReferenceIdeal.Gen Cert.ReferenceIdeal.RefRun Idealize.ShloMosaic Idealize.ShloMosaic.TcCoe Idealize.ShloMosaic.StableHlo ValueIdx

/-- The score's sigmoid, as the reference computes it: one over one plus the exponential of the negated score. -/
def probR (s : EReal) : EReal :=
  Ideal.div (Ideal.ofBits .f32 0x3F800000#32) (Ideal.ofBits .f32 0x3F800000#32 + Ideal.exp (-s))

/-- The mask: one where the sigmoid exceeds the threshold literal, zero elsewhere. -/
def maskR (s : EReal) : EReal :=
  (((Ideal.cmp .ogt (probR s) (Ideal.ofBits .f32 0x3DCCCCCD#32)).toNat : ℝ) : EReal)

/-- The decoded box from the seven regression deltas `d` and the seven anchor entries `a`. -/
def boxR (d a : Fin 7 → EReal) : Fin 7 → EReal :=
  ![d 0 * Ideal.sqrt (a 4 * a 4 + a 5 * a 5) + a 0,
    d 1 * Ideal.sqrt (a 4 * a 4 + a 5 * a 5) + a 1,
    d 2 * a 3 + a 2,
    Ideal.exp (d 3) * a 3,
    Ideal.exp (d 4) * a 4,
    Ideal.exp (d 5) * a 5,
    d 6 + a 6]

theorem chan_lt (g : Fin 2) (q : Fin 7) : 7 * g.val + q.val < 14 := by
  have := g.isLt; have := q.isLt; omega

/-! ## The buffers of the stretch as functions of the three argument arrays -/

/-- Buffer %7: the sigmoid of the scores, channel last, flattened. -/
def val_v7 (x0 : FVec Ideal S1x2x512x512 .f32) : FVec Ideal S524288 .f32 :=
  shapeCast S524288
    (Host.divf (broadcastInDim S1x512x512x2 ![] bcast_S_S1x512x512x2 (constant (F := Ideal) S_ .f32 0x3F800000#32))
      (addf (broadcastInDim S1x512x512x2 ![] bcast_S_S1x512x512x2 (constant (F := Ideal) S_ .f32 0x3F800000#32))
        (Host.exp (Host.negf (transpose S1x512x512x2 [0, 2, 3, 1] x0 transposes_S1x2x512x512_S1x512x512x2_0_2_3_1)))))
    shapeCasts_S1x512x512x2_S524288

/-- Buffer %43: the mask of the scores above the threshold. -/
def val_v43 (x0 : FVec Ideal S1x2x512x512 .f32) : FVec Ideal S524288 .f32 :=
  uitofp .f32 (cmpf .ogt (val_v7 x0) (broadcastInDim S524288 ![] bcast_S_S524288 (constant (F := Ideal) S_ .f32 0x3DCCCCCD#32)))

/-- Buffer %9: the regression deltas, channel last, one row of seven per anchor. -/
def val_v9 (x1 : FVec Ideal S1x14x512x512 .f32) : FVec Ideal S524288x7 .f32 :=
  shapeCast S524288x7 (transpose S1x512x512x14 [0, 2, 3, 1] x1 transposes_S1x14x512x512_S1x512x512x14_0_2_3_1)
    shapeCasts_S1x512x512x14_S524288x7

/-- Buffer %10: the anchors, one row of seven per anchor. -/
def val_v10 (x2 : FVec Ideal S512x512x2x7 .f32) : FVec Ideal S524288x7 .f32 :=
  shapeCast S524288x7 x2 shapeCasts_S512x512x2x7_S524288x7

def val_v12 (A : FVec Ideal S524288x7 .f32) : FVec Ideal S524288 .f32 :=
  shapeCast S524288 (extractStridedSlice S524288x1 ![0, 4] A slices_S524288x7_S524288x1_0_4) shapeCasts_S524288x1_S524288

def val_v15 (A : FVec Ideal S524288x7 .f32) : FVec Ideal S524288 .f32 :=
  shapeCast S524288 (extractStridedSlice S524288x1 ![0, 5] A slices_S524288x7_S524288x1_0_5) shapeCasts_S524288x1_S524288

/-- Buffer %18: the anchors' diagonal. -/
def val_v18 (A : FVec Ideal S524288x7 .f32) : FVec Ideal S524288 .f32 :=
  Host.sqrt (addf (mulf (val_v12 A) (val_v12 A)) (mulf (val_v15 A) (val_v15 A)))

/-- Buffer %24: the two decoded centre coordinates in the plane. -/
def val_v24 (D A : FVec Ideal S524288x7 .f32) : FVec Ideal S524288x2 .f32 :=
  addf (mulf (extractStridedSlice S524288x2 ![0, 0] D slices_S524288x7_S524288x2_0_0)
      (broadcastInDim S524288x2 ![0, 1] bcast_S524288x1_S524288x2_0_1
        (broadcastInDim S524288x1 ![0] bcast_S524288_S524288x1_0 (val_v18 A))))
    (extractStridedSlice S524288x2 ![0, 0] A slices_S524288x7_S524288x2_0_0)

/-- Buffer %29: the decoded height coordinate. -/
def val_v29 (D A : FVec Ideal S524288x7 .f32) : FVec Ideal S524288x1 .f32 :=
  addf (mulf (extractStridedSlice S524288x1 ![0, 2] D slices_S524288x7_S524288x1_0_2)
      (extractStridedSlice S524288x1 ![0, 3] A slices_S524288x7_S524288x1_0_3))
    (extractStridedSlice S524288x1 ![0, 2] A slices_S524288x7_S524288x1_0_2)

/-- Buffer %33: the three decoded extents. -/
def val_v33 (D A : FVec Ideal S524288x7 .f32) : FVec Ideal S524288x3 .f32 :=
  mulf (Host.exp (extractStridedSlice S524288x3 ![0, 3] D slices_S524288x7_S524288x3_0_3))
    (extractStridedSlice S524288x3 ![0, 3] A slices_S524288x7_S524288x3_0_3)

/-- Buffer %39: the decoded yaw. -/
def val_v39 (D A : FVec Ideal S524288x7 .f32) : FVec Ideal S524288x1 .f32 :=
  broadcastInDim S524288x1 ![0] bcast_S524288_S524288x1_0
    (addf (shapeCast S524288 (extractStridedSlice S524288x1 ![0, 6] D slices_S524288x7_S524288x1_0_6) shapeCasts_S524288x1_S524288)
      (shapeCast S524288 (extractStridedSlice S524288x1 ![0, 6] A slices_S524288x7_S524288x1_0_6) shapeCasts_S524288x1_S524288))

/-- Buffer %40: the decoded boxes, the four groups of columns side by side. -/
def val_v40 (D A : FVec Ideal S524288x7 .f32) : FVec Ideal S524288x7 .f32 :=
  concatenate S524288x7 1 [⟨S524288x2, val_v24 D A⟩, ⟨S524288x1, val_v29 D A⟩, ⟨S524288x3, val_v33 D A⟩, ⟨S524288x1, val_v39 D A⟩]
    concatenates_S524288x2_S524288x1_S524288x3_S524288x1_S524288x7_d1

/-! ## The stretch's fold at the buffers it hands on -/

section Runs
variable (W : Valuation τ sig (Elt Ideal))

set_option maxHeartbeats 4000000 in
theorem v7_eq : after (opsA (F := Ideal)) W (Proc.devRef .tc main_v7) = val_v7 (W (Proc.devRef .tc main_arg0)) := by
  after_results
  rfl

set_option maxHeartbeats 4000000 in
theorem v43_eq : after (opsA (F := Ideal)) W (Proc.devRef .tc main_v43) = val_v43 (W (Proc.devRef .tc main_arg0)) := by
  after_results
  rfl

set_option maxHeartbeats 8000000 in
theorem v40_eq : after (opsA (F := Ideal)) W (Proc.devRef .tc main_v40)
    = val_v40 (val_v9 (W (Proc.devRef .tc main_arg1))) (val_v10 (W (Proc.devRef .tc main_arg2))) := by
  after_results_simp
  rfl

end Runs

/-! ## Reading the layout operations at an anchor's row -/

section Reads

theorem hexp_apply {s : Shape} (x : FVec Ideal s .f32) (i : s.Idx) : Host.exp x i = Ideal.exp (x i) := rfl
theorem hsqrt_apply {s : Shape} (x : FVec Ideal s .f32) (i : s.Idx) : Host.sqrt x i = Ideal.sqrt (x i) := rfl

/-- A slice of some columns of the seven, read at a row: the same row, the column shifted by the offset. -/
theorem slice_apply {K o : Nat} (x : FVec Ideal S524288x7 .f32) (h : S524288x7.Slices ![0, o] ⟨2, ![524288, K]⟩)
    (a : Fin 524288) (c : Fin K) (c' : Fin 7) (hc : c'.val = o + c.val) :
    extractStridedSlice ⟨2, ![524288, K]⟩ ![0, o] x h (ix2 a c) = x (ix2 a c') :=
  extractStridedSlice_apply _ x h (ix2 a c) (ix2 a c') fun b => match b with
    | ⟨0, _⟩ => by show a.val = 0 + a.val; omega
    | ⟨1, _⟩ => hc

/-- One column of the seven as a vector over the anchors. -/
theorem col_apply {o : Nat} (x : FVec Ideal S524288x7 .f32) (h : S524288x7.Slices ![0, o] S524288x1) (a : Fin 524288)
    (c' : Fin 7) (hc : c'.val = o) :
    shapeCast S524288 (extractStridedSlice S524288x1 ![0, o] x h) shapeCasts_S524288x1_S524288 (ix1 a) = x (ix2 a c') :=
  (shapeCast_apply _ shapeCasts_S524288x1_S524288 (ix1 a) (ix2 a (0 : Fin 1))
    (by rw [Shape.rowMajor_val_two, Shape.rowMajor_val_one]; show a.val * 1 + 0 = a.val; omega)).trans
    (slice_apply x h a 0 c' (by show c'.val = o + 0; omega))

theorem bcast1_apply (v : FVec Ideal S524288 .f32) (a : Fin 524288) (c : Fin 1) :
    broadcastInDim S524288x1 ![0] bcast_S524288_S524288x1_0 v (ix2 a c) = v (ix1 a) :=
  broadcastInDim_apply _ _ v (ix2 a c) (ix1 a) fun b => match b with
    | ⟨0, _⟩ => rfl

theorem bcast2_apply (v : FVec Ideal S524288x1 .f32) (a : Fin 524288) (c : Fin 2) :
    broadcastInDim S524288x2 ![0, 1] bcast_S524288x1_S524288x2_0_1 v (ix2 a c) = v (ix2 a (0 : Fin 1)) :=
  broadcastInDim_apply _ _ v (ix2 a c) (ix2 a (0 : Fin 1)) fun b => match b with
    | ⟨0, _⟩ => rfl
    | ⟨1, _⟩ => rfl

variable (D A : FVec Ideal S524288x7 .f32) (a : Fin 524288)

theorem val_v12_apply : val_v12 A (ix1 a) = A (ix2 a 4) := col_apply A slices_S524288x7_S524288x1_0_4 a 4 rfl
theorem val_v15_apply : val_v15 A (ix1 a) = A (ix2 a 5) := col_apply A slices_S524288x7_S524288x1_0_5 a 5 rfl

theorem val_v18_apply : val_v18 A (ix1 a) = Ideal.sqrt (A (ix2 a 4) * A (ix2 a 4) + A (ix2 a 5) * A (ix2 a 5)) := by
  show Ideal.sqrt (val_v12 A (ix1 a) * val_v12 A (ix1 a) + val_v15 A (ix1 a) * val_v15 A (ix1 a)) = _
  rw [val_v12_apply, val_v15_apply]

theorem val_v24_apply (c : Fin 2) (c' : Fin 7) (hc : c'.val = c.val) :
    val_v24 D A (ix2 a c)
      = D (ix2 a c') * Ideal.sqrt (A (ix2 a 4) * A (ix2 a 4) + A (ix2 a 5) * A (ix2 a 5)) + A (ix2 a c') := by
  show extractStridedSlice S524288x2 ![0, 0] D slices_S524288x7_S524288x2_0_0 (ix2 a c)
      * broadcastInDim S524288x2 ![0, 1] bcast_S524288x1_S524288x2_0_1
          (broadcastInDim S524288x1 ![0] bcast_S524288_S524288x1_0 (val_v18 A)) (ix2 a c)
      + extractStridedSlice S524288x2 ![0, 0] A slices_S524288x7_S524288x2_0_0 (ix2 a c) = _
  rw [slice_apply D slices_S524288x7_S524288x2_0_0 a c c' (by omega),
    slice_apply A slices_S524288x7_S524288x2_0_0 a c c' (by omega), bcast2_apply, bcast1_apply, val_v18_apply]

theorem val_v29_apply (c : Fin 1) : val_v29 D A (ix2 a c) = D (ix2 a 2) * A (ix2 a 3) + A (ix2 a 2) := by
  show extractStridedSlice S524288x1 ![0, 2] D slices_S524288x7_S524288x1_0_2 (ix2 a c)
      * extractStridedSlice S524288x1 ![0, 3] A slices_S524288x7_S524288x1_0_3 (ix2 a c)
      + extractStridedSlice S524288x1 ![0, 2] A slices_S524288x7_S524288x1_0_2 (ix2 a c) = _
  have hc : c.val = 0 := by omega
  rw [slice_apply D slices_S524288x7_S524288x1_0_2 a c 2 (by show 2 = 2 + c.val; omega),
    slice_apply A slices_S524288x7_S524288x1_0_3 a c 3 (by show 3 = 3 + c.val; omega),
    slice_apply A slices_S524288x7_S524288x1_0_2 a c 2 (by show 2 = 2 + c.val; omega)]

theorem val_v33_apply (c : Fin 3) (c' : Fin 7) (hc : c'.val = 3 + c.val) :
    val_v33 D A (ix2 a c) = Ideal.exp (D (ix2 a c')) * A (ix2 a c') := by
  show Ideal.exp (extractStridedSlice S524288x3 ![0, 3] D slices_S524288x7_S524288x3_0_3 (ix2 a c))
      * extractStridedSlice S524288x3 ![0, 3] A slices_S524288x7_S524288x3_0_3 (ix2 a c) = _
  rw [slice_apply D slices_S524288x7_S524288x3_0_3 a c c' hc, slice_apply A slices_S524288x7_S524288x3_0_3 a c c' hc]

theorem val_v39_apply (c : Fin 1) : val_v39 D A (ix2 a c) = D (ix2 a 6) + A (ix2 a 6) := by
  unfold val_v39
  rw [bcast1_apply]
  show shapeCast S524288 (extractStridedSlice S524288x1 ![0, 6] D slices_S524288x7_S524288x1_0_6) shapeCasts_S524288x1_S524288 (ix1 a)
      + shapeCast S524288 (extractStridedSlice S524288x1 ![0, 6] A slices_S524288x7_S524288x1_0_6) shapeCasts_S524288x1_S524288 (ix1 a) = _
  rw [col_apply D slices_S524288x7_S524288x1_0_6 a 6 rfl, col_apply A slices_S524288x7_S524288x1_0_6 a 6 rfl]

end Reads

/-! ## The decoded box at an anchor's row, column by column -/

section Box
variable (D A : FVec Ideal S524288x7 .f32) (a : Fin 524288)

/-- The four groups of columns of the decoded box, in order. -/
abbrev pieces : List ((s : Shape) × (s.Idx → Ideal .f32)) :=
  [⟨S524288x2, val_v24 D A⟩, ⟨S524288x1, val_v29 D A⟩, ⟨S524288x3, val_v33 D A⟩, ⟨S524288x1, val_v39 D A⟩]

theorem val_v40_apply (q : Fin 7) :
    val_v40 D A (ix2 a q) = boxR (fun q' => D (ix2 a q')) (fun q' => A (ix2 a q')) q := by
  unfold val_v40
  match q with
  | ⟨0, _⟩ =>
    refine (concatenate_apply_piece (t := S524288x7) (1 : Fin 2) (pieces D A) concatenates_S524288x2_S524288x1_S524288x3_S524288x1_S524288x7_d1 (ix2 a (⟨0, by omega⟩ : Fin 7)) 0 (by show 0 < 4; omega) S524288x2 (val_v24 D A) rfl rfl 0 rfl
      (ix2 a (0 : Fin 2)) (fun b hb => ?_) rfl).trans ?_
    · match b with
      | ⟨0, _⟩ => rfl
      | ⟨1, _⟩ => exact absurd rfl hb
    · rw [val_v24_apply D A a 0 0 rfl]; rfl
  | ⟨1, _⟩ =>
    refine (concatenate_apply_piece (t := S524288x7) (1 : Fin 2) (pieces D A) concatenates_S524288x2_S524288x1_S524288x3_S524288x1_S524288x7_d1 (ix2 a (⟨1, by omega⟩ : Fin 7)) 0 (by show 0 < 4; omega) S524288x2 (val_v24 D A) rfl rfl 0 rfl
      (ix2 a (1 : Fin 2)) (fun b hb => ?_) rfl).trans ?_
    · match b with
      | ⟨0, _⟩ => rfl
      | ⟨1, _⟩ => exact absurd rfl hb
    · rw [val_v24_apply D A a 1 1 rfl]; rfl
  | ⟨2, _⟩ =>
    refine (concatenate_apply_piece (t := S524288x7) (1 : Fin 2) (pieces D A) concatenates_S524288x2_S524288x1_S524288x3_S524288x1_S524288x7_d1 (ix2 a (⟨2, by omega⟩ : Fin 7)) 1 (by show 1 < 4; omega) S524288x1 (val_v29 D A) rfl rfl 2 rfl
      (ix2 a (0 : Fin 1)) (fun b hb => ?_) rfl).trans ?_
    · match b with
      | ⟨0, _⟩ => rfl
      | ⟨1, _⟩ => exact absurd rfl hb
    · rw [val_v29_apply]; rfl
  | ⟨3, _⟩ =>
    refine (concatenate_apply_piece (t := S524288x7) (1 : Fin 2) (pieces D A) concatenates_S524288x2_S524288x1_S524288x3_S524288x1_S524288x7_d1 (ix2 a (⟨3, by omega⟩ : Fin 7)) 2 (by show 2 < 4; omega) S524288x3 (val_v33 D A) rfl rfl 3 rfl
      (ix2 a (0 : Fin 3)) (fun b hb => ?_) rfl).trans ?_
    · match b with
      | ⟨0, _⟩ => rfl
      | ⟨1, _⟩ => exact absurd rfl hb
    · rw [val_v33_apply D A a 0 3 rfl]; rfl
  | ⟨4, _⟩ =>
    refine (concatenate_apply_piece (t := S524288x7) (1 : Fin 2) (pieces D A) concatenates_S524288x2_S524288x1_S524288x3_S524288x1_S524288x7_d1 (ix2 a (⟨4, by omega⟩ : Fin 7)) 2 (by show 2 < 4; omega) S524288x3 (val_v33 D A) rfl rfl 3 rfl
      (ix2 a (1 : Fin 3)) (fun b hb => ?_) rfl).trans ?_
    · match b with
      | ⟨0, _⟩ => rfl
      | ⟨1, _⟩ => exact absurd rfl hb
    · rw [val_v33_apply D A a 1 4 rfl]; rfl
  | ⟨5, _⟩ =>
    refine (concatenate_apply_piece (t := S524288x7) (1 : Fin 2) (pieces D A) concatenates_S524288x2_S524288x1_S524288x3_S524288x1_S524288x7_d1 (ix2 a (⟨5, by omega⟩ : Fin 7)) 2 (by show 2 < 4; omega) S524288x3 (val_v33 D A) rfl rfl 3 rfl
      (ix2 a (2 : Fin 3)) (fun b hb => ?_) rfl).trans ?_
    · match b with
      | ⟨0, _⟩ => rfl
      | ⟨1, _⟩ => exact absurd rfl hb
    · rw [val_v33_apply D A a 2 5 rfl]; rfl
  | ⟨6, _⟩ =>
    refine (concatenate_apply_piece (t := S524288x7) (1 : Fin 2) (pieces D A) concatenates_S524288x2_S524288x1_S524288x3_S524288x1_S524288x7_d1 (ix2 a (⟨6, by omega⟩ : Fin 7)) 3 (by show 3 < 4; omega) S524288x1 (val_v39 D A) rfl rfl 6 rfl
      (ix2 a (0 : Fin 1)) (fun b hb => ?_) rfl).trans ?_
    · match b with
      | ⟨0, _⟩ => rfl
      | ⟨1, _⟩ => exact absurd rfl hb
    · rw [val_v39_apply]; rfl

end Box

/-! ## The three reshapes to one row per anchor, and the two transposes, read at an anchor -/

section Final

theorem val_v7_apply (x0 : FVec Ideal S1x2x512x512 .f32) (w l : Fin 512) (g : Fin 2) :
    val_v7 x0 (ix1 (Cert.Spec.anc w l g)) = probR (x0 (ix4 0 g w l)) := by
  unfold val_v7
  refine (shapeCast_apply _ shapeCasts_S1x512x512x2_S524288 (ix1 (Cert.Spec.anc w l g)) (ix4 (0 : Fin 1) w l g) ?_).trans ?_
  · rw [Shape.rowMajor_val_four, Shape.rowMajor_val_one]
    show ((0 * 512 + w.val) * 512 + l.val) * 2 + g.val = (w.val * 512 + l.val) * 2 + g.val
    omega
  · show Ideal.div (Ideal.ofBits .f32 0x3F800000#32) (Ideal.ofBits .f32 0x3F800000#32
        + Ideal.exp (-(transpose S1x512x512x2 [0, 2, 3, 1] x0 transposes_S1x2x512x512_S1x512x512x2_0_2_3_1 (ix4 (0 : Fin 1) w l g)))) = _
    rw [transpose_apply [0, 2, 3, 1] x0 transposes_S1x2x512x512_S1x512x512x2_0_2_3_1 (ix4 (0 : Fin 1) w l g) (ix4 (0 : Fin 1) g w l)
      (fun b => match b with | ⟨0, _⟩ => rfl | ⟨1, _⟩ => rfl | ⟨2, _⟩ => rfl | ⟨3, _⟩ => rfl)]
    rfl

theorem val_v43_apply (x0 : FVec Ideal S1x2x512x512 .f32) (w l : Fin 512) (g : Fin 2) :
    val_v43 x0 (ix1 (Cert.Spec.anc w l g)) = maskR (x0 (ix4 0 g w l)) := by
  show (((Ideal.cmp .ogt (val_v7 x0 (ix1 (Cert.Spec.anc w l g))) (Ideal.ofBits .f32 0x3DCCCCCD#32)).toNat : ℝ) : EReal) = _
  rw [val_v7_apply]
  rfl

theorem val_v9_apply (x1 : FVec Ideal S1x14x512x512 .f32) (w l : Fin 512) (g : Fin 2) (q : Fin 7) :
    val_v9 x1 (ix2 (Cert.Spec.anc w l g) q) = x1 (ix4 0 ⟨7 * g.val + q.val, chan_lt g q⟩ w l) := by
  unfold val_v9
  refine (shapeCast_apply _ shapeCasts_S1x512x512x14_S524288x7 (ix2 (Cert.Spec.anc w l g) q)
    (ix4 (0 : Fin 1) w l (⟨7 * g.val + q.val, chan_lt g q⟩ : Fin 14)) ?_).trans ?_
  · rw [Shape.rowMajor_val_four, Shape.rowMajor_val_two]
    show ((0 * 512 + w.val) * 512 + l.val) * 14 + (7 * g.val + q.val) = ((w.val * 512 + l.val) * 2 + g.val) * 7 + q.val
    omega
  · exact transpose_apply [0, 2, 3, 1] x1 transposes_S1x14x512x512_S1x512x512x14_0_2_3_1
      (ix4 (0 : Fin 1) w l (⟨7 * g.val + q.val, chan_lt g q⟩ : Fin 14))
      (ix4 (0 : Fin 1) (⟨7 * g.val + q.val, chan_lt g q⟩ : Fin 14) w l)
      (fun b => match b with | ⟨0, _⟩ => rfl | ⟨1, _⟩ => rfl | ⟨2, _⟩ => rfl | ⟨3, _⟩ => rfl)

theorem val_v10_apply (x2 : FVec Ideal S512x512x2x7 .f32) (w l : Fin 512) (g : Fin 2) (q : Fin 7) :
    val_v10 x2 (ix2 (Cert.Spec.anc w l g) q) = x2 (ix4 w l g q) := by
  unfold val_v10
  refine shapeCast_apply _ shapeCasts_S512x512x2x7_S524288x7 (ix2 (Cert.Spec.anc w l g) q) (ix4 w l g q) ?_
  rw [Shape.rowMajor_val_four, Shape.rowMajor_val_two]
  show ((w.val * 512 + l.val) * 2 + g.val) * 7 + q.val = ((w.val * 512 + l.val) * 2 + g.val) * 7 + q.val
  rfl

variable (W : Valuation τ sig (Elt Ideal))

/-- The flattened sigmoid at an anchor is the sigmoid of that anchor's score. -/
theorem prob_apply (w l : Fin 512) (g : Fin 2) :
    after (opsA (F := Ideal)) W (Proc.devRef .tc main_v7) (ix1 (Cert.Spec.anc w l g))
      = probR (W (Proc.devRef .tc main_arg0) (ix4 0 g w l)) :=
  (congrFun (v7_eq W) (ix1 (Cert.Spec.anc w l g))).trans (val_v7_apply _ w l g)

/-- The mask at an anchor is the threshold test of that anchor's score. -/
theorem mask_apply (w l : Fin 512) (g : Fin 2) :
    after (opsA (F := Ideal)) W (Proc.devRef .tc main_v43) (ix1 (Cert.Spec.anc w l g))
      = maskR (W (Proc.devRef .tc main_arg0) (ix4 0 g w l)) :=
  (congrFun (v43_eq W) (ix1 (Cert.Spec.anc w l g))).trans (val_v43_apply _ w l g)

/-- The decoded box at an anchor, from that anchor's seven deltas and seven anchor entries. -/
theorem box_apply (w l : Fin 512) (g : Fin 2) (q : Fin 7) :
    after (opsA (F := Ideal)) W (Proc.devRef .tc main_v40) (ix2 (Cert.Spec.anc w l g) q)
      = boxR (fun q' => W (Proc.devRef .tc main_arg1) (ix4 0 ⟨7 * g.val + q'.val, chan_lt g q'⟩ w l))
          (fun q' => W (Proc.devRef .tc main_arg2) (ix4 w l g q')) q :=
  ((congrFun (v40_eq W) (ix2 (Cert.Spec.anc w l g) q)).trans (val_v40_apply _ _ (Cert.Spec.anc w l g) q)).trans
    (congrArg₂ (fun d a => boxR d a q) (funext fun q' => val_v9_apply _ w l g q') (funext fun q' => val_v10_apply _ w l g q'))

/-! ## What the stretch leaves alone, and its constant tables -/

set_option maxHeartbeats 4000000 in
theorem keeps_arg0 : after (opsA (F := Ideal)) W (Proc.devRef .tc main_arg0) = W (Proc.devRef .tc main_arg0) := by
  after_results_simp
set_option maxHeartbeats 4000000 in
theorem keeps_arg1 : after (opsA (F := Ideal)) W (Proc.devRef .tc main_arg1) = W (Proc.devRef .tc main_arg1) := by
  after_results_simp
set_option maxHeartbeats 4000000 in
theorem keeps_arg2 : after (opsA (F := Ideal)) W (Proc.devRef .tc main_arg2) = W (Proc.devRef .tc main_arg2) := by
  after_results_simp
set_option maxHeartbeats 4000000 in
theorem keeps_arg3 : after (opsA (F := Ideal)) W (Proc.devRef .tc main_arg3) = W (Proc.devRef .tc main_arg3) := by
  after_results_simp
set_option maxHeartbeats 4000000 in
theorem keeps_arg4 : after (opsA (F := Ideal)) W (Proc.devRef .tc main_arg4) = W (Proc.devRef .tc main_arg4) := by
  after_results_simp
set_option maxHeartbeats 4000000 in
theorem keeps_cst : after (opsA (F := Ideal)) W (Proc.devRef .tc main_cst)
    = fun i => FloatOps.ofBits (F := Ideal) .f32 (lit1 (S8x3.rowMajor i)) := by
  after_results_simp <;> rfl
set_option maxHeartbeats 4000000 in
theorem keeps_c : after (opsA (F := Ideal)) W (Proc.devRef .tc main_c) = fun i => lit0 (S3.rowMajor i) := by
  after_results_simp <;> rfl
set_option maxHeartbeats 4000000 in
theorem keeps_c_0 : after (opsA (F := Ideal)) W (Proc.devRef .tc main_c_0) = fun i => lit2 (S3.rowMajor i) := by
  after_results_simp <;> rfl

end Final

end Cert.ReferenceIdeal.RefA

end
-- ==== Proof.Anchor.lean ====
/-
  The per-anchor algebra on the extended reals that joins the two programs' arithmetic, and the joined statement:
  one anchor's term as the kernel computes it (explicit rotate / translate / project per corner, running least and
  greatest, a clamped overlap per target) is the term as the reference computes it (the scaled corner template times
  the rotation matrix, the homogeneous point against a matrix row, folds of min and max over the eight corners,
  the same overlap ratio). Only commutativity, the zero and unit laws and the sign law of multiplication are used,
  and that the literal words 0, 1, ±∞ denote those values: nothing here needs finiteness.
-/
import proofs.«157336_j6562710028353_2_alg».proof.Proof.KAnchor
import proofs.«157336_j6562710028353_2_alg».proof.Proof.RefA
import Idealize.ShloMosaic.PureOps.Ideal
import Idealize.ShloMosaic.PureOps.Ideal.Laws
import Idealize.ShloMosaic.Lib.ValueIdx

noncomputable section

namespace Cert.Alg

open Idealize.ShloMosaic

/-! ## The literals -/

theorem one_f32 : Ideal.ofBits .f32 0x3F800000#32 = 1 := by
  simp [Ideal.ofBits, Ideal.ieee, -EReal.coe_mul]
  norm_num
theorem zero_f32 : Ideal.ofBits .f32 0x00000000#32 = 0 := Ideal.ofBits_zero_f32
theorem inf_f32 : Ideal.ofBits .f32 0x7F800000#32 = ⊤ := by
  simp [Ideal.ofBits, Ideal.ieee]
theorem neg_inf_f32 : Ideal.ofBits .f32 0xFF800000#32 = ⊥ := by
  simp [Ideal.ofBits, Ideal.ieee]

/-! ## The sigmoid and the indicator -/

theorem prob_eq (s : EReal) :
    Ideal.div (Ideal.ofBits .f32 0x3F800000#32) (Ideal.ofBits .f32 0x3F800000#32 + Ideal.exp (-s)) = Ideal.logistic s := by
  rw [one_f32]; rfl

/-- A one-bit word read unsigned is the same word zero-extended and read signed. -/
theorem bit_toInt (b : BitVec 1) : ((b.setWidth 32).toInt : ℝ) = (b.toNat : ℝ) := by
  rcases BitVec.eq_zero_or_eq_one b with h | h <;> subst h <;> norm_num

theorem mask_eq (x y : EReal) :
    (((Ideal.cmp .ogt x y).toNat : ℝ) : EReal)
      = FloatOps.sitofp (F := Ideal) .f32 ((FloatOps.cmpf (F := Ideal) (φ := .f32) .ogt x y).setWidth 32) := by
  show _ = (((((Ideal.cmp .ogt x y)).setWidth 32).toInt : ℝ) : EReal)
  rw [bit_toInt]

/-! ## A corner -/

/-- Row `c`, column `d` of the rotation by an angle with cosine `co` and sine `si`. -/
def rot (co si : EReal) (c d : Fin 3) : EReal :=
  (![![co, si, 0], ![-si, co, 0], ![0, 0, 1]] : Fin 3 → Fin 3 → EReal) c d

theorem corner0 (e0 e1 e2 co si bx : EReal) :
    (∑ c : Fin 3, (![e0, e1, e2] : Fin 3 → EReal) c * rot co si c 0) + bx = e0 * co - e1 * si + bx := by
  simp [Fin.sum_univ_three, rot, sub_eq_add_neg]
theorem corner1 (e0 e1 e2 co si by' : EReal) :
    (∑ c : Fin 3, (![e0, e1, e2] : Fin 3 → EReal) c * rot co si c 1) + by' = e0 * si + e1 * co + by' := by
  simp [Fin.sum_univ_three, rot]
theorem corner2 (e0 e1 e2 co si bz : EReal) :
    (∑ c : Fin 3, (![e0, e1, e2] : Fin 3 → EReal) c * rot co si c 2) + bz = e2 + bz := by
  simp [Fin.sum_univ_three, rot]

/-- A homogeneous point against a matrix row. -/
theorem projRow (x y z t0 t1 t2 t3 : EReal) :
    (∑ c : Fin 4, (![x, y, z, 1] : Fin 4 → EReal) c * (![t0, t1, t2, t3] : Fin 4 → EReal) c) = t0 * x + t1 * y + t2 * z + t3 := by
  simp [Fin.sum_univ_four, mul_comm]

/-! ## The eight corners' least and greatest -/

theorem foldMin8 (f : Fin 8 → EReal) :
    (Finset.univ : Finset (Fin 8)).fold min ⊤ f
      = min (min (min (min (min (min (min (min ⊤ (f 0)) (f 1)) (f 2)) (f 3)) (f 4)) (f 5)) (f 6)) (f 7) := by
  refine eq_of_forall_le_iff fun x => ?_
  rw [Finset.le_fold_min]
  simp only [le_min_iff, le_top, true_and, Finset.mem_univ, true_implies]
  constructor
  · intro h
    exact ⟨⟨⟨⟨⟨⟨⟨h 0, h 1⟩, h 2⟩, h 3⟩, h 4⟩, h 5⟩, h 6⟩, h 7⟩
  · rintro ⟨⟨⟨⟨⟨⟨⟨h0, h1⟩, h2⟩, h3⟩, h4⟩, h5⟩, h6⟩, h7⟩ k
    fin_cases k <;> assumption

theorem foldMax8 (f : Fin 8 → EReal) :
    (Finset.univ : Finset (Fin 8)).fold max ⊥ f
      = max (max (max (max (max (max (max (max ⊥ (f 0)) (f 1)) (f 2)) (f 3)) (f 4)) (f 5)) (f 6)) (f 7) := by
  refine eq_of_forall_ge_iff fun x => ?_
  rw [Finset.fold_max_le]
  simp only [max_le_iff, bot_le, true_and, Finset.mem_univ, true_implies]
  constructor
  · intro h
    exact ⟨⟨⟨⟨⟨⟨⟨h 0, h 1⟩, h 2⟩, h 3⟩, h 4⟩, h 5⟩, h 6⟩, h 7⟩
  · rintro ⟨⟨⟨⟨⟨⟨⟨h0, h1⟩, h2⟩, h3⟩, h4⟩, h5⟩, h6⟩, h7⟩ k
    fin_cases k <;> assumption

/-! ## The reference's per-anchor arithmetic (the hull and the overlap ratio), as its stretches spell it -/

namespace Ref

open Cert.ReferenceIdeal

/-- The columns of a box the corner template is scaled by, in the template's order: columns 5, 4, 3. -/
def dimCol : Fin 3 → Fin 7 := ![5, 4, 3]
/-- The corner template's entry for corner `k`, coordinate `c`, by its word in the literal table. -/
def tmpl (k : Fin 8) (c : Fin 3) : EReal := Ideal.ofBits .f32 (lit1 ⟨3 * k.val + c.val, by omega⟩)
/-- The rotation by the yaw `y`. -/
def rotR (y : EReal) (c d : Fin 3) : EReal :=
  (![![Ideal.cos y, Ideal.sin y, 0], ![-Ideal.sin y, Ideal.cos y, 0], ![0, 0, 1]] : Fin 3 → Fin 3 → EReal) c d
def cornerR (b : Fin 7 → EReal) (k : Fin 8) (d : Fin 3) : EReal :=
  (∑ c : Fin 3, (b (dimCol c) * tmpl k c) * rotR (b 6) c d) + b ⟨d.val, by omega⟩
def homR (b : Fin 7 → EReal) (k : Fin 8) (c : Fin 4) : EReal :=
  if h : c.val < 3 then cornerR b k ⟨c.val, h⟩ else 1
def projR (b : Fin 7 → EReal) (T : Fin 4 → Fin 4 → EReal) (k : Fin 8) (o : Fin 4) : EReal :=
  ∑ c : Fin 4, homR b k c * T o c
def hullR (b : Fin 7 → EReal) (T : Fin 4 → Fin 4 → EReal) : Fin 4 → EReal :=
  ![(Finset.univ : Finset (Fin 8)).fold min ⊤ (fun k => projR b T k 0),
    (Finset.univ : Finset (Fin 8)).fold min ⊤ (fun k => projR b T k 1),
    (Finset.univ : Finset (Fin 8)).fold max ⊥ (fun k => projR b T k 0),
    (Finset.univ : Finset (Fin 8)).fold max ⊥ (fun k => projR b T k 1)]
def whR (p t : Fin 4 → EReal) : EReal :=
  max 0 (min (p 2) (t 2) - max (p 0) (t 0)) * max 0 (min (p 3) (t 3) - max (p 1) (t 1))
def iouR (p t : Fin 4 → EReal) : EReal :=
  Ideal.div (whR p t) ((p 2 - p 0) * (p 3 - p 1) + (t 2 - t 0) * (t 3 - t 1) - whR p t)

end Ref

open Cert.KernelIdeal.KPay Cert.KernelIdeal.KAnchor Cert.ReferenceIdeal.RefA

/-! ## The template's entries are the kernel's signs -/

theorem tmpl_sgn (k : Fin 8) (c : Fin 3) : Ref.tmpl k c = sgn k c := by
  fin_cases k <;> fin_cases c <;> rfl

/-! ## A projected corner -/

theorem proj_eq (T : Fin 4 → Fin 4 → EReal) (d a : Fin 7 → EReal) (k : Fin 8) (o : Fin 4) :
    Ref.projR (boxR d a) T k o
      = cornerOut T o (boxSize (d 5) (a 5)) (boxSize (d 4) (a 4)) (boxSize (d 3) (a 3))
          (Ideal.cos (boxYaw (d 6) (a 6))) (Ideal.sin (boxYaw (d 6) (a 6)))
          (boxXY (d 0) (diag (a 4) (a 5)) (a 0)) (boxXY (d 1) (diag (a 4) (a 5)) (a 1)) (boxZ (d 2) (a 3) (a 2)) k := by
  have hh : (fun c => Ref.homR (boxR d a) k c)
      = ![Ref.cornerR (boxR d a) k 0, Ref.cornerR (boxR d a) k 1, Ref.cornerR (boxR d a) k 2, 1] := by
    funext c; fin_cases c <;> rfl
  have hT : (fun c => T o c) = ![T o 0, T o 1, T o 2, T o 3] := by
    funext c; fin_cases c <;> rfl
  have he : (fun c => boxR d a (Ref.dimCol c) * Ref.tmpl k c)
      = ![boxR d a 5 * sgn k 0, boxR d a 4 * sgn k 1, boxR d a 3 * sgn k 2] := by
    funext c; fin_cases c <;> simp [Ref.dimCol, tmpl_sgn]
  have hr : Ref.rotR (boxR d a 6) = rot (Ideal.cos (boxR d a 6)) (Ideal.sin (boxR d a 6)) := rfl
  unfold Ref.projR
  have := projRow (Ref.cornerR (boxR d a) k 0) (Ref.cornerR (boxR d a) k 1) (Ref.cornerR (boxR d a) k 2) (T o 0) (T o 1) (T o 2) (T o 3)
  rw [← hh, ← hT] at this
  rw [this]
  unfold Ref.cornerR
  rw [hr]
  have c0' := corner0 (boxR d a 5 * sgn k 0) (boxR d a 4 * sgn k 1) (boxR d a 3 * sgn k 2) (Ideal.cos (boxR d a 6)) (Ideal.sin (boxR d a 6)) (boxR d a 0)
  have c1' := corner1 (boxR d a 5 * sgn k 0) (boxR d a 4 * sgn k 1) (boxR d a 3 * sgn k 2) (Ideal.cos (boxR d a 6)) (Ideal.sin (boxR d a 6)) (boxR d a 1)
  have c2' := corner2 (boxR d a 5 * sgn k 0) (boxR d a 4 * sgn k 1) (boxR d a 3 * sgn k 2) (Ideal.cos (boxR d a 6)) (Ideal.sin (boxR d a 6)) (boxR d a 2)
  rw [← he] at c0' c1' c2'
  rw [show (⟨(0 : Fin 3).val, by omega⟩ : Fin 7) = 0 from rfl, show (⟨(1 : Fin 3).val, by omega⟩ : Fin 7) = 1 from rfl,
    show (⟨(2 : Fin 3).val, by omega⟩ : Fin 7) = 2 from rfl, c0', c1', c2']
  unfold cornerOut proj cornerX cornerY cornerZ
  simp only [boxR, boxSize, boxYaw, boxXY, boxZ, diag, Matrix.cons_val_zero, Matrix.cons_val_one, Matrix.head_cons, Matrix.cons_val]
  simp only [mul_comm]

/-! ## The hull, the overlap ratio, the weight, and the whole term -/

theorem hull_eq (T : Fin 4 → Fin 4 → EReal) (d a : Fin 7 → EReal) : Ref.hullR (boxR d a) T = hullK T d a := by
  funext k
  fin_cases k
  · show (Finset.univ : Finset (Fin 8)).fold min ⊤ (fun k => Ref.projR (boxR d a) T k 0) = min8 _
    rw [foldMin8]; simp only [proj_eq]; unfold min8; rw [show cInf = ⊤ from inf_f32]
  · show (Finset.univ : Finset (Fin 8)).fold min ⊤ (fun k => Ref.projR (boxR d a) T k 1) = min8 _
    rw [foldMin8]; simp only [proj_eq]; unfold min8; rw [show cInf = ⊤ from inf_f32]
  · show (Finset.univ : Finset (Fin 8)).fold max ⊥ (fun k => Ref.projR (boxR d a) T k 0) = max8 _
    rw [foldMax8]; simp only [proj_eq]; unfold max8; rw [show cNegInf = ⊥ from neg_inf_f32]
  · show (Finset.univ : Finset (Fin 8)).fold max ⊥ (fun k => Ref.projR (boxR d a) T k 1) = max8 _
    rw [foldMax8]; simp only [proj_eq]; unfold max8; rw [show cNegInf = ⊥ from neg_inf_f32]

theorem iou_eq (h t : Fin 4 → EReal) :
    iou (h 0) (h 1) (h 2) (h 3) (hullArea (h 0) (h 1) (h 2) (h 3)) (t 0) (t 1) (t 2) (t 3) = Ref.iouR h t := by
  unfold iou inter ovl tArea hullArea Ref.iouR Ref.whR
  rw [show c0 = 0 from zero_f32]

theorem weight_eq (s : EReal) : weight s = maskR s * Ideal.log (1 - probR s) := by
  unfold weight mask logNot prob maskR gtInd probR
  rw [prob_eq, mask_eq, show c1 = 1 from one_f32]

/-- ONE ANCHOR: the kernel's term is the reference's term. -/
theorem anchor_eq (T : Fin 4 → Fin 4 → EReal) (tg : Fin 64 → Fin 4 → EReal) (s : EReal) (d a : Fin 7 → EReal) :
    contribK T tg s d a
      = (maskR s * Ideal.log (1 - probR s)) * ∑ j : Fin 64, Ref.iouR (Ref.hullR (boxR d a) T) (tg j) := by
  unfold contribK
  rw [weight_eq, show c0 = 0 from zero_f32, zero_add, hull_eq]
  refine congrArg _ (Finset.sum_congr rfl fun j _ => ?_)
  exact iou_eq (hullK T d a) (tg j)

end Cert.Alg

end
-- ==== Proof.KSide.lean ====
/-
  The kernel program's scalar, closed: with what one grid point adds read back from the three runs, the accumulation
  over the eight points and the final host sum give the sum, over all cells, lanes and both yaw channels, of one
  anchor's term read off the argument arrays.
-/
import proofs.«157336_j6562710028353_2_alg».proof.Proof.KTot
import proofs.«157336_j6562710028353_2_alg».proof.Proof.KRun.Final
import proofs.«157336_j6562710028353_2_alg».proof.Proof.KRun.Runs
import proofs.«157336_j6562710028353_2_alg».proof.Proof.KAnchor
import proofs.«157336_j6562710028353_2_alg».proof.Proof.Anchor

set_option maxRecDepth 16384

noncomputable section

namespace Cert.KernelIdeal.KSide

open Cert.KernelIdeal Cert.KernelIdeal.Gen Cert.KernelIdeal.Hand Cert.KernelIdeal.KPay
open Idealize.ShloMosaic Idealize.ShloMosaic.TcCoe Idealize.SL.Sem ValueIdx

/-- The two spellings of one anchor's term (corners by a sign table, or one by one) are one function. -/
theorem contrib_bridge (T : Fin 4 → Fin 4 → EReal) (tg : Fin 64 → Fin 4 → EReal) (s : EReal) (d a : Fin 7 → EReal) :
    Cert.KernelIdeal.KRun.contribK T tg s d a = Cert.KernelIdeal.KAnchor.contribK T tg s d a := rfl

theorem kernel_total (m : (ℓ : Loc nD τ sig) → Buf (Elt Ideal) ℓ) (c : Dev nD) :
    Pipeline.afterTail₀ cfgs (dats m) 0 (V0 m) [hostOps1] c main_v54
      = fun _ => ∑ w : Fin 512, ∑ l : Fin 512, ∑ g : Fin 2, Cert.KernelIdeal.KTot.termAt m Cert.KernelIdeal.KRun.contribK c w l g := by
  rw [Cert.KernelIdeal.KAcc.tail_eq m Cert.KernelIdeal.KRun.pointTotal c0
    Cert.KernelIdeal.KRun.sout_A Cert.KernelIdeal.KRun.sout_B Cert.KernelIdeal.KRun.sout_C Cert.KernelIdeal.KRun.out_C c]
  funext _
  exact Cert.KernelIdeal.KTot.accAt_total m Cert.KernelIdeal.KRun.pointTotal Cert.KernelIdeal.KRun.contribK c0 Cert.Alg.zero_f32
    (fun x0 x1 x2 x3 x4 => rfl) c0 Cert.Alg.zero_f32 c _

end Cert.KernelIdeal.KSide

end
-- ==== Proof.RefD.lean ====
/-
  Stretch D of the reference, read at an index. From the predicted hulls (one box `(x₁, y₁, x₂, y₂)` per anchor), the 64
  target hulls, the mask and the scores, the stretch computes for every (anchor, target) pair the overlap ratio of the two
  boxes, sums the ratios of each anchor over the targets, multiplies by the anchor's weight `mask · log (1 − score)`, and
  sums over the anchors. Most of its operations only move indices: a column of a box array is sliced out and repeated
  along the other array's axis. Read at an index, each such chain is the box array at one entry; the elementwise
  operations are then the extended reals' own, and the two reductions are finite sums from the initial value `0`.
-/
import proofs.«157336_j6562710028353_2_alg».proof.Proof.RefStages
import proofs.«157336_j6562710028353_2_alg».proof.Proof.Spec
import Idealize.ShloMosaic.Lib.ValueIdx
import Idealize.ShloMosaic.Lib.Pipeline.Value
import Idealize.ShloMosaic.PureOps.Ideal.Laws

set_option Elab.async false

noncomputable section

namespace Cert.ReferenceIdeal.RefD

open Cert.ReferenceIdeal Cert.ReferenceIdeal.Gen Idealize.ShloMosaic Idealize.ShloMosaic.TcCoe Idealize.SL.Sem Idealize.ShloMosaic.StableHlo
open Cert.ReferenceIdeal.RefRun Idealize.ShloMosaic.ValueIdx
open scoped BigOperators

/-! ## Layout steps read at an index

Stretch D moves a column of the predicted hulls, a `[524288, 4]` array, to the `[524288, 64]` grid of
(anchor, target) pairs in four steps: a unit axis is inserted (`[524288, 1, 4]`), column `k` is sliced out
(`[524288, 1, 1]`), one unit axis is dropped (`[524288, 1]`), and the column is repeated along the targets. A column of
the target hulls, a `[64, 4]` array, goes the same way through `[1, 64, 4]`, `[1, 64, 1]` and `[1, 64]` and is
repeated along the anchors. Each lemma below reads one such chain at an index. -/

section Layout
variable {α : Type}

/-- Column `k` of a `[524288, 4]` array as a `[524288, 1]` array. -/
def pcol (k : Nat) (hs : S524288x1x4.Slices ![0, 0, k] S524288x1x1) (x : S524288x4.Idx → α) : S524288x1.Idx → α :=
  fun i => shapeCast S524288x1 (extractStridedSlice S524288x1x1 ![0, 0, k]
    (broadcastInDim S524288x1x4 ![0, 2] bcast_S524288x4_S524288x1x4_0_2 x) hs) shapeCasts_S524288x1x1_S524288x1 i

/-- Column `k` of a `[64, 4]` array as a `[1, 64]` array. -/
def tcol (k : Nat) (hs : S1x64x4.Slices ![0, 0, k] S1x64x1) (x : S64x4.Idx → α) : S1x64.Idx → α :=
  fun i => shapeCast S1x64 (extractStridedSlice S1x64x1 ![0, 0, k]
    (broadcastInDim S1x64x4 ![1, 2] bcast_S64x4_S1x64x4_1_2 x) hs) shapeCasts_S1x64x1_S1x64 i

/-- The column at row `a` is the array at `(a, k)`. -/
theorem pcol_apply (k : Nat) (hk : k < 4) (hs : S524288x1x4.Slices ![0, 0, k] S524288x1x1) (x : S524288x4.Idx → α)
    (a : Fin 524288) (z : Fin 1) : pcol k hs x (ix2 a z) = x (ix2 a ⟨k, hk⟩) := by
  unfold pcol
  refine (shapeCast_apply _ _ (ix2 a z) (ix3 a (0 : Fin 1) (0 : Fin 1)) ?_).trans ?_
  · rw [Shape.rowMajor_val_three, Shape.rowMajor_val_two]
    have := z.isLt
    show (a.val * 1 + 0) * 1 + 0 = a.val * 1 + z.val
    omega
  refine (extractStridedSlice_apply _ _ hs _ (ix3 a (0 : Fin 1) (⟨k, hk⟩ : Fin 4)) ?_).trans ?_
  · intro c
    match c with
    | ⟨0, _⟩ => show a.val = 0 + a.val; omega
    | ⟨1, _⟩ => show 0 = 0 + 0; rfl
    | ⟨2, _⟩ => show k = k + 0; rfl
  refine broadcastInDim_apply _ _ _ _ (ix2 a (⟨k, hk⟩ : Fin 4)) ?_
  intro c
  match c with
  | ⟨0, _⟩ => rfl
  | ⟨1, _⟩ => rfl

/-- The column at position `j` is the array at `(j, k)`. -/
theorem tcol_apply (k : Nat) (hk : k < 4) (hs : S1x64x4.Slices ![0, 0, k] S1x64x1) (x : S64x4.Idx → α)
    (z : Fin 1) (j : Fin 64) : tcol k hs x (ix2 z j) = x (ix2 j ⟨k, hk⟩) := by
  unfold tcol
  refine (shapeCast_apply _ _ (ix2 z j) (ix3 (0 : Fin 1) j (0 : Fin 1)) ?_).trans ?_
  · rw [Shape.rowMajor_val_three, Shape.rowMajor_val_two]
    have := z.isLt
    show (0 * 64 + j.val) * 1 + 0 = z.val * 64 + j.val
    omega
  refine (extractStridedSlice_apply _ _ hs _ (ix3 (0 : Fin 1) j (⟨k, hk⟩ : Fin 4)) ?_).trans ?_
  · intro c
    match c with
    | ⟨0, _⟩ => show 0 = 0 + 0; rfl
    | ⟨1, _⟩ => show j.val = 0 + j.val; omega
    | ⟨2, _⟩ => show k = k + 0; rfl
  refine broadcastInDim_apply _ _ _ _ (ix2 j (⟨k, hk⟩ : Fin 4)) ?_
  intro c
  match c with
  | ⟨0, _⟩ => rfl
  | ⟨1, _⟩ => rfl

/-- A `[524288, 1]` array repeated along the targets: at `(a, j)` it is the array at `(a, 0)`. -/
theorem rowB_apply (x : S524288x1.Idx → α) (a : Fin 524288) (j : Fin 64) :
    broadcastInDim S524288x64 ![0, 1] bcast_S524288x1_S524288x64_0_1 x (ix2 a j) = x (ix2 a (0 : Fin 1)) := by
  refine broadcastInDim_apply _ _ _ _ (ix2 a (0 : Fin 1)) ?_
  intro c
  match c with
  | ⟨0, _⟩ => rfl
  | ⟨1, _⟩ => rfl

/-- A `[1, 64]` array repeated along the anchors: at `(a, j)` it is the array at `(0, j)`. -/
theorem colB_apply (x : S1x64.Idx → α) (a : Fin 524288) (j : Fin 64) :
    broadcastInDim S524288x64 ![0, 1] bcast_S1x64_S524288x64_0_1 x (ix2 a j) = x (ix2 (0 : Fin 1) j) := by
  refine broadcastInDim_apply _ _ _ _ (ix2 (0 : Fin 1) j) ?_
  intro c
  match c with
  | ⟨0, _⟩ => rfl
  | ⟨1, _⟩ => rfl

/-- A scalar repeated over the grid of pairs is the scalar. -/
theorem scalB2_apply (x : S_.Idx → α) (i : S524288x64.Idx) :
    broadcastInDim S524288x64 ![] bcast_S_S524288x64 x i = x ix0 := by
  refine broadcastInDim_apply _ _ _ _ ix0 ?_
  intro c; exact c.elim0

/-- A scalar repeated over the anchors is the scalar. -/
theorem scalB1_apply (x : S_.Idx → α) (i : S524288.Idx) :
    broadcastInDim S524288 ![] bcast_S_S524288 x i = x ix0 := by
  refine broadcastInDim_apply _ _ _ _ ix0 ?_
  intro c; exact c.elim0

end Layout

/-! ## The stretch's arrays

The overlap of anchor `a`'s hull `p` with target `j`'s hull `t` is `w · h` with
`w = max 0 (min p₂ t₂ − max p₀ t₀)` and `h = max 0 (min p₃ t₃ − max p₁ t₁)`; the ratio divides it by the two areas' sum
less the overlap. The weight of an anchor is its mask times `log (1 − score)`; the total sums, over the anchors, the
weight times the sum of the anchor's 64 ratios. The definitions below are the stretch's operations composed, in the
order and with the operand order the operations have. -/

/-- Overlap area of two axis-aligned boxes `(x₁, y₁, x₂, y₂)`. -/
def whR (p t : Fin 4 → EReal) : EReal :=
  max 0 (min (p 2) (t 2) - max (p 0) (t 0)) * max 0 (min (p 3) (t 3) - max (p 1) (t 1))

/-- Overlap ratio of two axis-aligned boxes: the overlap over the sum of the areas less the overlap. -/
def iouR (p t : Fin 4 → EReal) : EReal :=
  Ideal.div (whR p t) ((p 2 - p 0) * (p 3 - p 1) + (t 2 - t 0) * (t 3 - t 1) - whR p t)

/-- The overlap areas of all (anchor, target) pairs. -/
def whD (P : FVec Ideal S524288x4 .f32) (T : FVec Ideal S64x4 .f32) : FVec Ideal S524288x64 .f32 :=
  mulf
    (maximumf (broadcastInDim S524288x64 ![] bcast_S_S524288x64 (constant S_ .f32 0x00000000#32))
      (subf (minimumf (broadcastInDim S524288x64 ![0, 1] bcast_S524288x1_S524288x64_0_1 (pcol 2 slices_S524288x1x4_S524288x1x1_0_0_2 P)) (broadcastInDim S524288x64 ![0, 1] bcast_S1x64_S524288x64_0_1 (tcol 2 slices_S1x64x4_S1x64x1_0_0_2 T)))
        (maximumf (broadcastInDim S524288x64 ![0, 1] bcast_S524288x1_S524288x64_0_1 (pcol 0 slices_S524288x1x4_S524288x1x1_0_0_0 P)) (broadcastInDim S524288x64 ![0, 1] bcast_S1x64_S524288x64_0_1 (tcol 0 slices_S1x64x4_S1x64x1_0_0_0 T)))))
    (maximumf (broadcastInDim S524288x64 ![] bcast_S_S524288x64 (constant S_ .f32 0x00000000#32))
      (subf (minimumf (broadcastInDim S524288x64 ![0, 1] bcast_S524288x1_S524288x64_0_1 (pcol 3 slices_S524288x1x4_S524288x1x1_0_0_3 P)) (broadcastInDim S524288x64 ![0, 1] bcast_S1x64_S524288x64_0_1 (tcol 3 slices_S1x64x4_S1x64x1_0_0_3 T)))
        (maximumf (broadcastInDim S524288x64 ![0, 1] bcast_S524288x1_S524288x64_0_1 (pcol 1 slices_S524288x1x4_S524288x1x1_0_0_1 P)) (broadcastInDim S524288x64 ![0, 1] bcast_S1x64_S524288x64_0_1 (tcol 1 slices_S1x64x4_S1x64x1_0_0_1 T)))))

/-- The overlap ratios of all (anchor, target) pairs. -/
def iouD (P : FVec Ideal S524288x4 .f32) (T : FVec Ideal S64x4 .f32) : FVec Ideal S524288x64 .f32 :=
  Host.divf (whD P T)
    (subf
      (addf
        (broadcastInDim S524288x64 ![0, 1] bcast_S524288x1_S524288x64_0_1 (mulf (subf (pcol 2 slices_S524288x1x4_S524288x1x1_0_0_2 P) (pcol 0 slices_S524288x1x4_S524288x1x1_0_0_0 P)) (subf (pcol 3 slices_S524288x1x4_S524288x1x1_0_0_3 P) (pcol 1 slices_S524288x1x4_S524288x1x1_0_0_1 P))))
        (broadcastInDim S524288x64 ![0, 1] bcast_S1x64_S524288x64_0_1 (mulf (subf (tcol 2 slices_S1x64x4_S1x64x1_0_0_2 T) (tcol 0 slices_S1x64x4_S1x64x1_0_0_0 T)) (subf (tcol 3 slices_S1x64x4_S1x64x1_0_0_3 T) (tcol 1 slices_S1x64x4_S1x64x1_0_0_1 T)))))
      (whD P T))

/-- The anchors' weights: mask times `log (1 − score)`. -/
def wgtD (M Pr : FVec Ideal S524288 .f32) : FVec Ideal S524288 .f32 :=
  mulf M (Host.log (subf (broadcastInDim S524288 ![] bcast_S_S524288 (constant S_ .f32 0x3F800000#32)) Pr))

/-- The total: over the anchors, the weight times the sum of the anchor's ratios. -/
def totalD (M Pr : FVec Ideal S524288 .f32) (P : FVec Ideal S524288x4 .f32) (T : FVec Ideal S64x4 .f32) : FVec Ideal S_ .f32 :=
  Host.reduceAdd
    (mulf (wgtD M Pr)
      (Host.reduceAdd (iouD P T) (constant S_ .f32 0x00000000#32) reducesTo_S524288x64_S524288_d1 h_S_))
    (constant S_ .f32 0x00000000#32) reducesTo_S524288_S_d0 h_S_

/-! ## The arrays read at an index -/

section AtIndex
variable {s : Shape} {φ : FTy}

/-- The host's quotient at an index is the quotient of the elements. -/
theorem hostDivf_apply (a b : FVec Ideal s φ) (i : s.Idx) : Host.divf a b i = Ideal.div (a i) (b i) := rfl
/-- The host's logarithm at an index is the logarithm of the element. -/
theorem hostLog_apply (a : FVec Ideal s φ) (i : s.Idx) : Host.log a i = Ideal.log (a i) := rfl

end AtIndex

/-- The word `0x3F800000` is the number one. -/
theorem ofBits_one_f32 : Ideal.ofBits .f32 0x3F800000#32 = 1 := by
  simp [Ideal.ofBits, Ideal.ieee, -EReal.coe_mul]; norm_num

theorem pcol0_apply {α : Type} (hs : S524288x1x4.Slices ![0, 0, 0] S524288x1x1) (x : S524288x4.Idx → α) (a : Fin 524288) (z : Fin 1) :
    pcol 0 hs x (ix2 a z) = x (ix2 a (0 : Fin 4)) := pcol_apply 0 (by omega) hs x a z
theorem tcol0_apply {α : Type} (hs : S1x64x4.Slices ![0, 0, 0] S1x64x1) (x : S64x4.Idx → α) (z : Fin 1) (j : Fin 64) :
    tcol 0 hs x (ix2 z j) = x (ix2 j (0 : Fin 4)) := tcol_apply 0 (by omega) hs x z j
theorem pcol1_apply {α : Type} (hs : S524288x1x4.Slices ![0, 0, 1] S524288x1x1) (x : S524288x4.Idx → α) (a : Fin 524288) (z : Fin 1) :
    pcol 1 hs x (ix2 a z) = x (ix2 a (1 : Fin 4)) := pcol_apply 1 (by omega) hs x a z
theorem tcol1_apply {α : Type} (hs : S1x64x4.Slices ![0, 0, 1] S1x64x1) (x : S64x4.Idx → α) (z : Fin 1) (j : Fin 64) :
    tcol 1 hs x (ix2 z j) = x (ix2 j (1 : Fin 4)) := tcol_apply 1 (by omega) hs x z j
theorem pcol2_apply {α : Type} (hs : S524288x1x4.Slices ![0, 0, 2] S524288x1x1) (x : S524288x4.Idx → α) (a : Fin 524288) (z : Fin 1) :
    pcol 2 hs x (ix2 a z) = x (ix2 a (2 : Fin 4)) := pcol_apply 2 (by omega) hs x a z
theorem tcol2_apply {α : Type} (hs : S1x64x4.Slices ![0, 0, 2] S1x64x1) (x : S64x4.Idx → α) (z : Fin 1) (j : Fin 64) :
    tcol 2 hs x (ix2 z j) = x (ix2 j (2 : Fin 4)) := tcol_apply 2 (by omega) hs x z j
theorem pcol3_apply {α : Type} (hs : S524288x1x4.Slices ![0, 0, 3] S524288x1x1) (x : S524288x4.Idx → α) (a : Fin 524288) (z : Fin 1) :
    pcol 3 hs x (ix2 a z) = x (ix2 a (3 : Fin 4)) := pcol_apply 3 (by omega) hs x a z
theorem tcol3_apply {α : Type} (hs : S1x64x4.Slices ![0, 0, 3] S1x64x1) (x : S64x4.Idx → α) (z : Fin 1) (j : Fin 64) :
    tcol 3 hs x (ix2 z j) = x (ix2 j (3 : Fin 4)) := tcol_apply 3 (by omega) hs x z j

/-- The overlap of pair `(a, j)` is the overlap of row `a` of the one array with row `j` of the other. -/
theorem whD_apply (P : FVec Ideal S524288x4 .f32) (T : FVec Ideal S64x4 .f32) (a : Fin 524288) (j : Fin 64) :
    whD P T (ix2 a j) = whR (fun k => P (ix2 a k)) (fun k => T (ix2 j k)) := by
  unfold whD whR
  simp only [mulf_apply, maximumf_apply, minimumf_apply, subf_apply]
  rw [scalB2_apply, constant_apply, Ideal.ofBits_zero_f32]
  iterate 4 rw [rowB_apply]
  iterate 4 rw [colB_apply]
  rw [pcol0_apply, pcol1_apply, pcol2_apply, pcol3_apply, tcol0_apply, tcol1_apply, tcol2_apply, tcol3_apply]

/-- The ratio of pair `(a, j)` is the ratio of row `a` of the one array and row `j` of the other. -/
theorem iouD_apply (P : FVec Ideal S524288x4 .f32) (T : FVec Ideal S64x4 .f32) (a : Fin 524288) (j : Fin 64) :
    iouD P T (ix2 a j) = iouR (fun k => P (ix2 a k)) (fun k => T (ix2 j k)) := by
  unfold iouD iouR
  simp only [hostDivf_apply, subf_apply, addf_apply]
  rw [whD_apply, rowB_apply, colB_apply]
  simp only [mulf_apply, subf_apply]
  rw [pcol0_apply, pcol1_apply, pcol2_apply, pcol3_apply, tcol0_apply, tcol1_apply, tcol2_apply, tcol3_apply]

/-- The weight of anchor `a`. -/
theorem wgtD_apply (M Pr : FVec Ideal S524288 .f32) (a : Fin 524288) :
    wgtD M Pr (ix1 a) = M (ix1 a) * Ideal.log (1 - Pr (ix1 a)) := by
  unfold wgtD
  rw [mulf_apply, hostLog_apply, subf_apply, scalB1_apply, constant_apply, ofBits_one_f32]

/-- A sum over the targets, read at an anchor: the initial value plus the row's sum. -/
theorem rowSum_apply (x : FVec Ideal S524288x64 .f32) (init : FVec Ideal S_ .f32) (a : Fin 524288) :
    Host.reduceAdd x init reducesTo_S524288x64_S524288_d1 h_S_ (ix1 a) = init ix0 + ∑ j : Fin 64, x (ix2 a j) := by
  have hR : S524288x64.Reduces [1] S524288 := by decide
  unfold Host.reduceAdd
  rw [Ideal.hostReduceAdd_def, Ideal.hostReduceAdd_single _ hR]
  refine congrArg₂ (· + ·) (congrArg init (eq_ix0 _)) (Finset.sum_congr rfl fun j _ => congrArg x ?_)
  funext c
  match c with
  | ⟨0, _⟩ => rfl
  | ⟨1, _⟩ => rfl

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the anchors: the initial value plus the sum. -/
theorem allSum_apply (x : FVec Ideal S524288 .f32) (init : FVec Ideal S_ .f32) :
    Host.reduceAdd x init reducesTo_S524288_S_d0 h_S_ ix0 = init ix0 + ∑ a : Fin 524288, x (ix1 a) := by
  unfold Host.reduceAdd
  rw [Ideal.hostReduceAdd_def, Ideal.hostReduceAdd_total _ (fun b => b.elim0), sum_idx1]
  exact congrArg (· + _) (congrArg init (eq_ix0 _))

/-- The total is the sum, over the anchors, of the weight times the sum of the anchor's ratios. -/
theorem totalD_apply (M Pr : FVec Ideal S524288 .f32) (P : FVec Ideal S524288x4 .f32) (T : FVec Ideal S64x4 .f32) :
    totalD M Pr P T ix0
      = ∑ a : Fin 524288, (M (ix1 a) * Ideal.log (1 - Pr (ix1 a)))
          * ∑ j : Fin 64, iouR (fun k => P (ix2 a k)) (fun k => T (ix2 j k)) := by
  unfold totalD
  rw [allSum_apply, constant_apply, Ideal.ofBits_zero_f32, zero_add]
  refine Finset.sum_congr rfl fun a _ => ?_
  rw [mulf_apply, wgtD_apply, rowSum_apply, constant_apply, Ideal.ofBits_zero_f32, zero_add]
  refine congrArg _ (Finset.sum_congr rfl fun j _ => ?_)
  exact iouD_apply P T a j

/-! ## The stretch's fold at the total's buffer -/

set_option maxHeartbeats 4000000 in
/-- What the stretch leaves in the total's buffer is the composed array of what it finds in the four buffers it reads:
    the mask, the scores, the predicted hulls and the target hulls. -/
theorem after_total (W : Valuation τ sig (Elt Ideal)) :
    after (opsD (F := Ideal)) W (Proc.devRef .tc main_v222)
      = totalD (W (Proc.devRef .tc main_v43)) (W (Proc.devRef .tc main_v7)) (W (Proc.devRef .tc main_v99))
          (W (Proc.devRef .tc main_v151)) := by
  after_results_simp
  rfl

/-! ## The total, read off what the stretch finds in its four input buffers -/

/-- The reference's total after stretch D, from the four arrays the stretch reads — the mask `M`, the scores `Pr`, the
    predicted hulls `P` and the target hulls `T`: over the anchors, mask times `log (1 − score)` times the sum over the
    64 targets of the overlap ratio of the anchor's hull with the target's hull. Both sums start from the initial value `0`
    and the literal `1` is the number one, so neither is left in the statement. -/
theorem total_of_arrays (W : Valuation τ sig (Elt Ideal)) (M Pr : FVec Ideal S524288 .f32) (P : FVec Ideal S524288x4 .f32)
    (T : FVec Ideal S64x4 .f32) (hM : W (Proc.devRef .tc main_v43) = M) (hPr : W (Proc.devRef .tc main_v7) = Pr)
    (hP : W (Proc.devRef .tc main_v99) = P) (hT : W (Proc.devRef .tc main_v151) = T) :
    @Eq EReal (after (opsD (F := Ideal)) W (Proc.devRef .tc main_v222) ix0)
      (∑ a : Fin 524288, (M (ix1 a) * Ideal.log (1 - Pr (ix1 a)))
          * ∑ j : Fin 64, iouR (fun k => P (ix2 a k)) (fun k => T (ix2 j k))) := by
  subst hM hPr hP hT
  exact @Eq.trans EReal _ _ _ (congrFun (after_total W) ix0) (totalD_apply _ _ _ _)

/-- The same with the four arrays given entry by entry: `m a` and `pr a` the mask and the score of anchor `a`, `p a` its
    hull, `t j` the hull of target `j`. -/
theorem total_apply (W : Valuation τ sig (Elt Ideal)) (m pr : Fin 524288 → EReal) (p : Fin 524288 → Fin 4 → EReal)
    (t : Fin 64 → Fin 4 → EReal)
    (hm : ∀ a : Fin 524288, W (Proc.devRef .tc main_v43) (ix1 a) = m a)
    (hpr : ∀ a : Fin 524288, W (Proc.devRef .tc main_v7) (ix1 a) = pr a)
    (hp : ∀ (a : Fin 524288) (k : Fin 4), W (Proc.devRef .tc main_v99) (ix2 a k) = p a k)
    (ht : ∀ (j : Fin 64) (k : Fin 4), W (Proc.devRef .tc main_v151) (ix2 j k) = t j k) :
    @Eq EReal (after (opsD (F := Ideal)) W (Proc.devRef .tc main_v222) ix0)
      (∑ a : Fin 524288, (m a * Ideal.log (1 - pr a)) * ∑ j : Fin 64, iouR (p a) (t j)) := by
  refine @Eq.trans EReal _ _ _ (total_of_arrays W _ _ _ _ rfl rfl rfl rfl) (Finset.sum_congr rfl fun a _ => ?_)
  exact congrArg₂ (· * ·) (congrArg₂ (fun x y => x * Ideal.log (1 - y)) (hm a) (hpr a))
    (Finset.sum_congr rfl fun j _ => congrArg₂ iouR (funext (hp a)) (funext (ht j)))

end Cert.ReferenceIdeal.RefD

end
-- ==== Proof.RefKeep.lean ====
/-
  The third stretch of the reference (the target boxes' hulls) writes none of the buffers the last stretch reads
  from the first two: the scores' sigmoid, the mask, and the decoded boxes' hulls pass through it unchanged. Likewise
  the second stretch leaves the target argument and the two literal tables the third stretch reads.
-/
import proofs.«157336_j6562710028353_2_alg».proof.Proof.RefStages

set_option maxRecDepth 16384

noncomputable section

namespace Cert.ReferenceIdeal.RefKeep

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

theorem keepsC_main_v7 (W : Valuation τ sig (Elt F)) : after (opsC (F := F)) W (Proc.devRef .tc main_v7) = W (Proc.devRef .tc main_v7) :=
  after_of_forall_not_mem (b := Proc.devRef .tc main_v7) _ _ (List.forall_iff_forall_mem.mp (by
    simp only [opsC, List.Forall, nullary_writes, unary_writes, binary_writes, ternary_writes, quaternary_writes, reshape_writes, binaryIndexed_writes, nary_writes, Finset.mem_singleton]
    repeat' apply And.intro
    all_goals exact devRef_ne_of_ne (by decide)))

theorem keepsC_main_v43 (W : Valuation τ sig (Elt F)) : after (opsC (F := F)) W (Proc.devRef .tc main_v43) = W (Proc.devRef .tc main_v43) :=
  after_of_forall_not_mem (b := Proc.devRef .tc main_v43) _ _ (List.forall_iff_forall_mem.mp (by
    simp only [opsC, List.Forall, nullary_writes, unary_writes, binary_writes, ternary_writes, quaternary_writes, reshape_writes, binaryIndexed_writes, nary_writes, Finset.mem_singleton]
    repeat' apply And.intro
    all_goals exact devRef_ne_of_ne (by decide)))

theorem keepsC_main_v99 (W : Valuation τ sig (Elt F)) : after (opsC (F := F)) W (Proc.devRef .tc main_v99) = W (Proc.devRef .tc main_v99) :=
  after_of_forall_not_mem (b := Proc.devRef .tc main_v99) _ _ (List.forall_iff_forall_mem.mp (by
    simp only [opsC, List.Forall, nullary_writes, unary_writes, binary_writes, ternary_writes, quaternary_writes, reshape_writes, binaryIndexed_writes, nary_writes, Finset.mem_singleton]
    repeat' apply And.intro
    all_goals exact devRef_ne_of_ne (by decide)))

theorem keepsB_main_arg4 (W : Valuation τ sig (Elt F)) : after (opsB (F := F)) W (Proc.devRef .tc main_arg4) = W (Proc.devRef .tc main_arg4) :=
  after_of_forall_not_mem (b := Proc.devRef .tc main_arg4) _ _ (List.forall_iff_forall_mem.mp (by
    simp only [opsB, List.Forall, nullary_writes, unary_writes, binary_writes, ternary_writes, quaternary_writes, reshape_writes, binaryIndexed_writes, nary_writes, Finset.mem_singleton]
    repeat' apply And.intro
    all_goals exact devRef_ne_of_ne (by decide)))

theorem keepsB_main_cst (W : Valuation τ sig (Elt F)) : after (opsB (F := F)) W (Proc.devRef .tc main_cst) = W (Proc.devRef .tc main_cst) :=
  after_of_forall_not_mem (b := Proc.devRef .tc main_cst) _ _ (List.forall_iff_forall_mem.mp (by
    simp only [opsB, List.Forall, nullary_writes, unary_writes, binary_writes, ternary_writes, quaternary_writes, reshape_writes, binaryIndexed_writes, nary_writes, Finset.mem_singleton]
    repeat' apply And.intro
    all_goals exact devRef_ne_of_ne (by decide)))

theorem keepsB_main_c_0 (W : Valuation τ sig (Elt F)) : after (opsB (F := F)) W (Proc.devRef .tc main_c_0) = W (Proc.devRef .tc main_c_0) :=
  after_of_forall_not_mem (b := Proc.devRef .tc main_c_0) _ _ (List.forall_iff_forall_mem.mp (by
    simp only [opsB, List.Forall, nullary_writes, unary_writes, binary_writes, ternary_writes, quaternary_writes, reshape_writes, binaryIndexed_writes, nary_writes, Finset.mem_singleton]
    repeat' apply And.intro
    all_goals exact devRef_ne_of_ne (by decide)))

end Cert.ReferenceIdeal.RefKeep

end
-- ==== Proof.RefVal.lean ====
/-
  The reference's scalar as one sum over cells, lanes and yaw channels: the four stretches' readings composed. The last
  stretch's total is a sum over the flat anchor number of  (mask · log (1 − probability)) · Σ_j ratio(hull, target hull j).
  The mask and the probability come from the first stretch and pass through the second and third unchanged; the hull is
  the second stretch's, applied to the first stretch's decoded box and the projection matrix, and passes through the
  third unchanged; the target hulls are what the third stretch leaves. A flat anchor number is a cell, a lane and a
  channel, once each, so the sum over flat numbers is the triple sum.
-/
import proofs.«157336_j6562710028353_2_alg».proof.Proof.RefA
import proofs.«157336_j6562710028353_2_alg».proof.Proof.RefD
import proofs.«157336_j6562710028353_2_alg».proof.Proof.RefKeep
import proofs.«157336_j6562710028353_2_alg».proof.Proof.Spec

set_option Elab.async false
set_option maxRecDepth 16384

noncomputable section

namespace Cert.ReferenceIdeal.RefVal

open Cert.ReferenceIdeal Cert.ReferenceIdeal.Gen Cert.ReferenceIdeal.RefRun Cert.ReferenceIdeal.RefA Cert.ReferenceIdeal.RefD Cert.ReferenceIdeal.RefKeep
open Idealize.ShloMosaic Idealize.ShloMosaic.TcCoe Idealize.SL.Sem Idealize.ShloMosaic.StableHlo ValueIdx
open scoped BigOperators

/-! ## The second stretch writes neither the probabilities nor the mask -/

section KeepsB
variable {F : FTy → Type} [FloatOps F]

theorem keepsB_main_v7 (W : Valuation τ sig (Elt F)) : after (opsB (F := F)) W (Proc.devRef .tc main_v7) = W (Proc.devRef .tc main_v7) :=
  after_of_forall_not_mem (b := Proc.devRef .tc main_v7) _ _ (List.forall_iff_forall_mem.mp (by
    simp only [opsB, List.Forall, nullary_writes, unary_writes, binary_writes, ternary_writes, quaternary_writes, reshape_writes, binaryIndexed_writes, nary_writes, Finset.mem_singleton]
    repeat' apply And.intro
    all_goals exact devRef_ne_of_ne (by decide)))

theorem keepsB_main_v43 (W : Valuation τ sig (Elt F)) : after (opsB (F := F)) W (Proc.devRef .tc main_v43) = W (Proc.devRef .tc main_v43) :=
  after_of_forall_not_mem (b := Proc.devRef .tc main_v43) _ _ (List.forall_iff_forall_mem.mp (by
    simp only [opsB, List.Forall, nullary_writes, unary_writes, binary_writes, ternary_writes, quaternary_writes, reshape_writes, binaryIndexed_writes, nary_writes, Finset.mem_singleton]
    repeat' apply And.intro
    all_goals exact devRef_ne_of_ne (by decide)))

end KeepsB

/-! ## The composition -/

/-- The buffers after the first stretch, after the first two, after the first three. -/
abbrev WA (W : Valuation τ sig (Elt Ideal)) : Valuation τ sig (Elt Ideal) := after (opsA (F := Ideal)) W
abbrev WB (W : Valuation τ sig (Elt Ideal)) : Valuation τ sig (Elt Ideal) := after (opsB (F := Ideal)) (WA W)
abbrev WC (W : Valuation τ sig (Elt Ideal)) : Valuation τ sig (Elt Ideal) := after (opsC (F := Ideal)) (WB W)

section Compose

/- The second stretch's reading, taken as given here: the hull `hullR b T` of a decoded box `b` under the matrix `T`, and
   that the stretch leaves at `(a, k)` the hull's entry `k` of anchor `a`'s box, when it finds the corner template and
   the column permutation in their constant buffers. -/
variable (hullR : (Fin 7 → EReal) → (Fin 4 → Fin 4 → EReal) → Fin 4 → EReal)
variable (hull_apply : ∀ (W : Valuation τ sig (Elt Ideal))
    (_ : W (Proc.devRef .tc main_cst) = fun i => FloatOps.ofBits (F := Ideal) .f32 (lit1 (S8x3.rowMajor i)))
    (_ : W (Proc.devRef .tc main_c) = fun i => lit0 (S3.rowMajor i)) (a : Fin 524288) (k : Fin 4),
    @Eq EReal (after (opsB (F := Ideal)) W (Proc.devRef .tc main_v99) (ix2 a k))
      (hullR (fun q => W (Proc.devRef .tc main_v40) (ix2 a q)) (fun o c => W (Proc.devRef .tc main_arg3) (ix2 o c)) k))

variable (W : Valuation τ sig (Elt Ideal))

/-- The mask the last stretch finds at an anchor. -/
theorem mask_at (w l : Fin 512) (g : Fin 2) :
    @Eq EReal (WC W (Proc.devRef .tc main_v43) (ix1 (Cert.Spec.anc w l g))) (maskR (W (Proc.devRef .tc main_arg0) (ix4 0 g w l))) :=
  @Eq.trans EReal _ _ _ (congrFun (keepsC_main_v43 (WB W)) _)
    (@Eq.trans EReal _ _ _ (congrFun (keepsB_main_v43 (WA W)) _) (mask_apply W w l g))

/-- The probability the last stretch finds at an anchor. -/
theorem prob_at (w l : Fin 512) (g : Fin 2) :
    @Eq EReal (WC W (Proc.devRef .tc main_v7) (ix1 (Cert.Spec.anc w l g))) (probR (W (Proc.devRef .tc main_arg0) (ix4 0 g w l))) :=
  @Eq.trans EReal _ _ _ (congrFun (keepsC_main_v7 (WB W)) _)
    (@Eq.trans EReal _ _ _ (congrFun (keepsB_main_v7 (WA W)) _) (prob_apply W w l g))

include hull_apply in
/-- The hull the last stretch finds at an anchor: the hull of the anchor's decoded box. -/
theorem hull_at (w l : Fin 512) (g : Fin 2) (k : Fin 4) :
    @Eq EReal (WC W (Proc.devRef .tc main_v99) (ix2 (Cert.Spec.anc w l g) k))
      (hullR (boxR (fun q => W (Proc.devRef .tc main_arg1) (ix4 0 ⟨7 * g.val + q.val, chan_lt g q⟩ w l))
          (fun q => W (Proc.devRef .tc main_arg2) (ix4 w l g q)))
        (fun o c => W (Proc.devRef .tc main_arg3) (ix2 o c)) k) :=
  @Eq.trans EReal _ _ _ (congrFun (keepsC_main_v99 (WB W)) _)
    (@Eq.trans EReal _ _ _ (hull_apply (WA W) (keeps_cst W) (keeps_c W) (Cert.Spec.anc w l g) k)
      (congrArg₂ (fun b T => hullR b T k) (funext fun q => box_apply W w l g q)
        (funext fun o => funext fun c => congrFun (keeps_arg3 W) (ix2 o c))))

include hull_apply in
/-- THE REFERENCE'S SCALAR, from the four argument arrays it reads entry by entry and the target hulls `TG` its third
    stretch leaves: the sum over cells, lanes and channels of mask times `log (1 − probability)` times the sum over the
    targets of the overlap ratio of the anchor's hull with the target's. -/
theorem total_eq (psm : FVec Ideal S1x2x512x512 .f32) (rm : FVec Ideal S1x14x512x512 .f32)
    (ab : FVec Ideal S512x512x2x7 .f32) (T : FVec Ideal S4x4 .f32) (TG : FVec Ideal S64x4 .f32)
    (h0 : W (Proc.devRef .tc main_arg0) = psm) (h1 : W (Proc.devRef .tc main_arg1) = rm)
    (h2 : W (Proc.devRef .tc main_arg2) = ab) (h3 : W (Proc.devRef .tc main_arg3) = T)
    (hTG : after (opsC (F := Ideal)) (after (opsB (F := Ideal)) (after (opsA (F := Ideal)) W)) (Proc.devRef .tc main_v151) = TG) :
    @Eq EReal (after (ops (F := Ideal)) W (Proc.devRef .tc main_v222) ix0)
      (∑ w : Fin 512, ∑ l : Fin 512, ∑ g : Fin 2,
        (maskR (psm (ix4 0 g w l)) * Ideal.log (1 - probR (psm (ix4 0 g w l))))
          * ∑ j : Fin 64, iouR (hullR (boxR (fun q => rm (ix4 0 ⟨7 * g.val + q.val, chan_lt g q⟩ w l)) (fun q => ab (ix4 w l g q)))
              (fun o c => T (ix2 o c))) (fun k => TG (ix2 j k))) := by
  subst h0 h1 h2 h3 hTG
  -- the line is the four stretches in order; the last one's total, fed the first three's readings at the anchor
  -- whose flat number is `a`
  refine @Eq.trans EReal _ _ _ (congrFun (congrFun (after_ops_stages W) (Proc.devRef .tc main_v222)) ix0) ?_
  refine @Eq.trans EReal _ _ _ (total_apply (WC W)
    (fun a => maskR (W (Proc.devRef .tc main_arg0)
      (ix4 0 (Cert.Spec.ancEquiv.symm a).2 (Cert.Spec.ancEquiv.symm a).1.1 (Cert.Spec.ancEquiv.symm a).1.2)))
    (fun a => probR (W (Proc.devRef .tc main_arg0)
      (ix4 0 (Cert.Spec.ancEquiv.symm a).2 (Cert.Spec.ancEquiv.symm a).1.1 (Cert.Spec.ancEquiv.symm a).1.2)))
    (fun a => hullR (boxR
        (fun q => W (Proc.devRef .tc main_arg1) (ix4 0 ⟨7 * (Cert.Spec.ancEquiv.symm a).2.val + q.val, chan_lt (Cert.Spec.ancEquiv.symm a).2 q⟩
          (Cert.Spec.ancEquiv.symm a).1.1 (Cert.Spec.ancEquiv.symm a).1.2))
        (fun q => W (Proc.devRef .tc main_arg2) (ix4 (Cert.Spec.ancEquiv.symm a).1.1 (Cert.Spec.ancEquiv.symm a).1.2 (Cert.Spec.ancEquiv.symm a).2 q)))
      (fun o c => W (Proc.devRef .tc main_arg3) (ix2 o c)))
    (fun j k => WC W (Proc.devRef .tc main_v151) (ix2 j k))
    (fun a => ?_) (fun a => ?_) (fun a k => ?_) (fun j k => rfl)) ?_
  · have h := mask_at W (Cert.Spec.ancEquiv.symm a).1.1 (Cert.Spec.ancEquiv.symm a).1.2 (Cert.Spec.ancEquiv.symm a).2
    rwa [show Cert.Spec.anc (Cert.Spec.ancEquiv.symm a).1.1 (Cert.Spec.ancEquiv.symm a).1.2 (Cert.Spec.ancEquiv.symm a).2 = a from
      Cert.Spec.ancEquiv.apply_symm_apply a] at h
  · have h := prob_at W (Cert.Spec.ancEquiv.symm a).1.1 (Cert.Spec.ancEquiv.symm a).1.2 (Cert.Spec.ancEquiv.symm a).2
    rwa [show Cert.Spec.anc (Cert.Spec.ancEquiv.symm a).1.1 (Cert.Spec.ancEquiv.symm a).1.2 (Cert.Spec.ancEquiv.symm a).2 = a from
      Cert.Spec.ancEquiv.apply_symm_apply a] at h
  · have h := hull_at hullR hull_apply W (Cert.Spec.ancEquiv.symm a).1.1 (Cert.Spec.ancEquiv.symm a).1.2 (Cert.Spec.ancEquiv.symm a).2 k
    rwa [show Cert.Spec.anc (Cert.Spec.ancEquiv.symm a).1.1 (Cert.Spec.ancEquiv.symm a).1.2 (Cert.Spec.ancEquiv.symm a).2 = a from
      Cert.Spec.ancEquiv.apply_symm_apply a] at h
  -- a flat number is a cell, a lane and a channel, once each
  refine @Eq.trans EReal _ _ _ (Cert.Spec.sum_anc _) ?_
  refine Finset.sum_congr rfl fun w _ => Finset.sum_congr rfl fun l _ => Finset.sum_congr rfl fun g _ => ?_
  have e : Cert.Spec.ancEquiv.symm (Cert.Spec.anc w l g) = ((w, l), g) := Cert.Spec.ancEquiv.symm_apply_apply ((w, l), g)
  simp only [e]

end Compose

end Cert.ReferenceIdeal.RefVal

end
-- ==== Proof.RefB.lean ====
/-
  Stretch B of the reference read at an index: for every decoded box, its eight corners (the half-unit template scaled by
  the box's sizes, turned by its yaw and moved to its centre), their projection by the 4 × 4 matrix in homogeneous
  coordinates, and the axis-aligned hull of the eight projected corners (least and greatest first and second coordinate).
  `hullR` is that hull of one box in the extended reals' arithmetic, written as the stretch computes it; `valB` is the
  stretch's result array as a function of the four arrays it reads, `valB_eq` says the fold of the stretch's operations
  leaves it, `valB_apply` reads it at `(a, k)`, and `hull_apply` is the two together.
-/
import proofs.«157336_j6562710028353_2_alg».proof.Proof.RefStages
import proofs.«157336_j6562710028353_2_alg».proof.Proof.Spec
import proofs.«157336_j6562710028353_2_alg».proof.Proof.LibNary
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StackMember

set_option Elab.async false

noncomputable section

namespace Cert.ReferenceIdeal.RefB

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx Idealize.ShloMosaic.StackMember

section Families
variable {τ : Topo} {sig : RefSig} {Val : EltTy → Type}
variable {x0 x1 x2 x3 x4 x5 x6 x7 x8 y : Ref sig .tc}

/-- A nine-operand operation's function at nine operands, each of its own reference's type. -/
def napp9 (f : ((k : Fin 9) → ((![x0, x1, x2, x3, x4, x5, x6, x7, x8] : Fin 9 → Ref sig .tc) k).ty.Contents Val) → y.ty.Contents Val)
    (a0 : x0.ty.Contents Val) (a1 : x1.ty.Contents Val) (a2 : x2.ty.Contents Val) (a3 : x3.ty.Contents Val)
    (a4 : x4.ty.Contents Val) (a5 : x5.ty.Contents Val) (a6 : x6.ty.Contents Val) (a7 : x7.ty.Contents Val) (a8 : x8.ty.Contents Val) :
    y.ty.Contents Val :=
  f (Fin.cons a0 (Fin.cons a1 (Fin.cons a2 (Fin.cons a3 (Fin.cons a4 (Fin.cons a5 (Fin.cons a6 (Fin.cons a7 (Fin.cons a8 (fun i => i.elim0))))))))))

/-- A four-operand operation's function at four operands likewise. -/
def napp4 (f : ((k : Fin 4) → ((![x0, x1, x2, x3] : Fin 4 → Ref sig .tc) k).ty.Contents Val) → y.ty.Contents Val)
    (a0 : x0.ty.Contents Val) (a1 : x1.ty.Contents Val) (a2 : x2.ty.Contents Val) (a3 : x3.ty.Contents Val) : y.ty.Contents Val :=
  f (Fin.cons a0 (Fin.cons a1 (Fin.cons a2 (Fin.cons a3 (fun i => i.elim0)))))

/-- A nine-operand operation's result: its function at its operands' contents, each read at its own reference. -/
theorem nary9_app
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = napp9 f (F (Proc.devRef .tc x0)) (F (Proc.devRef .tc x1)) (F (Proc.devRef .tc x2)) (F (Proc.devRef .tc x3)) (F (Proc.devRef .tc x4))
            (F (Proc.devRef .tc x5)) (F (Proc.devRef .tc x6)) (F (Proc.devRef .tc x7)) (F (Proc.devRef .tc x8)) :=
  Cert.LibNary.nary9_result f hxs hy F

/-- A four-operand operation's result likewise. -/
theorem nary4_app
    (f : ((k : Fin 4) → ((![x0, x1, x2, x3] : Fin 4 → Ref sig .tc) k).ty.Contents Val) → y.ty.Contents Val) (hxs hy)
    (F : Valuation τ sig Val) :
    (nary (τ := τ) ![x0, x1, x2, x3] y f hxs hy).result F (no_index (Proc.devRef .tc y))
      = napp4 f (F (Proc.devRef .tc x0)) (F (Proc.devRef .tc x1)) (F (Proc.devRef .tc x2)) (F (Proc.devRef .tc x3)) :=
  nary4_result f hxs hy F

end Families

/-- The fold of a list of host operations read at one buffer, in one rewriting pass; a family of four or of nine operands is
    read with each operand at its own reference. -/
macro "after_results_B" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.reshape_result',
      Cert.ReferenceIdeal.RefB.nary4_app, Cert.ReferenceIdeal.RefB.nary9_app,
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.reshape_result_ne',
      Idealize.ShloMosaic.StableHlo.nary_result_ne']))

/-! ## The hull of one decoded box, in the reference's arithmetic -/

/-- The columns of a box the corner template is scaled by, in the template's order: columns 5, 4, 3. -/
def dimCol : Fin 3 → Fin 7 := ![5, 4, 3]

/-- The corner template's entry for corner `k`, coordinate `c` (a half, with a sign), by its word in the literal table. -/
def tmpl (k : Fin 8) (c : Fin 3) : EReal := Ideal.ofBits .f32 (lit1 ⟨3 * k.val + c.val, by omega⟩)

/-- The rotation by the yaw `y`: rows `[cos y, sin y, 0]`, `[-sin y, cos y, 0]`, `[0, 0, 1]`. -/
def rotR (y : EReal) (c d : Fin 3) : EReal :=
  (![![Ideal.cos y, Ideal.sin y, 0], ![-Ideal.sin y, Ideal.cos y, 0], ![0, 0, 1]] : Fin 3 → Fin 3 → EReal) c d

/-- Coordinate `d` of corner `k` of the box `b`: the scaled template's row times the rotation, plus the centre. -/
def cornerR (b : Fin 7 → EReal) (k : Fin 8) (d : Fin 3) : EReal :=
  (∑ c : Fin 3, (b (dimCol c) * tmpl k c) * rotR (b 6) c d) + b ⟨d.val, by omega⟩

/-- The corner in homogeneous coordinates: a fourth coordinate `1`. -/
def homR (b : Fin 7 → EReal) (k : Fin 8) (c : Fin 4) : EReal :=
  if h : c.val < 3 then cornerR b k ⟨c.val, h⟩ else 1

/-- Coordinate `o` of the projected corner `k`: the homogeneous corner against row `o` of the matrix `T`. -/
def projR (b : Fin 7 → EReal) (T : Fin 4 → Fin 4 → EReal) (k : Fin 8) (o : Fin 4) : EReal :=
  ∑ c : Fin 4, homR b k c * T o c

/-- The axis-aligned hull of the eight projected corners: least first coordinate, least second, greatest first, greatest second. -/
def hullR (b : Fin 7 → EReal) (T : Fin 4 → Fin 4 → EReal) : Fin 4 → EReal :=
  ![(Finset.univ : Finset (Fin 8)).fold min ⊤ (fun k => projR b T k 0),
    (Finset.univ : Finset (Fin 8)).fold min ⊤ (fun k => projR b T k 1),
    (Finset.univ : Finset (Fin 8)).fold max ⊥ (fun k => projR b T k 0),
    (Finset.univ : Finset (Fin 8)).fold max ⊥ (fun k => projR b T k 1)]

theorem ofBits_one : Ideal.ofBits .f32 0x3F800000#32 = 1 := by simp [Ideal.ofBits, Ideal.ieee, -EReal.coe_mul]; norm_num
theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

/-! ## The stretch's arrays, as functions of what it reads -/

/-- The index table, a negative entry wrapped (none is), as a column. -/
def valIdx (c : IVec S3 32) : IVec S3x1 32 :=
  broadcastInDim S3x1 ![0] bcast_S3_S3x1_0
    (select (cmpi CmpIPredicate.slt c (broadcastInDim S3 ![] bcast_S_S3 (constantI S_ 32 0#32)))
      (addi c (broadcastInDim S3 ![] bcast_S_S3 (constantI S_ 32 7#32))) c)

/-- The three sizes of every box, in the template's order. -/
def valDims (x : FVec Ideal S524288x7 .f32) (c : IVec S3 32) : FVec Ideal S524288x3 .f32 :=
  Host.gather gather_S524288x7_S3x1_S524288x3_0_1_n_n_1_1_5242881 x (valIdx c)

/-- The template scaled by the sizes. -/
def valScaled (x : FVec Ideal S524288x7 .f32) (c : IVec S3 32) (cst : FVec Ideal S8x3 .f32) : FVec Ideal S524288x8x3 .f32 :=
  mulf (broadcastInDim S524288x8x3 ![0, 1, 2] bcast_S524288x1x3_S524288x8x3_0_1_2
          (broadcastInDim S524288x1x3 ![0, 2] bcast_S524288x3_S524288x1x3_0_2 (valDims x c)))
       (broadcastInDim S524288x8x3 ![0, 1, 2] bcast_S1x8x3_S524288x8x3_0_1_2
          (broadcastInDim S1x8x3 ![1, 2] bcast_S8x3_S1x8x3_1_2 cst))

/-- The yaw of every box. -/
def valYaw (x : FVec Ideal S524288x7 .f32) : FVec Ideal S524288 .f32 :=
  shapeCast S524288 (extractStridedSlice S524288x1 ![0, 6] x slices_S524288x7_S524288x1_0_6) shapeCasts_S524288x1_S524288

/-- The rotation of every box. -/
def valRot (x : FVec Ideal S524288x7 .f32) : FVec Ideal S524288x3x3 .f32 :=
  shapeCast S524288x3x3
    (concatenate S524288x9 1
      [⟨S524288x1, broadcastInDim S524288x1 ![0] bcast_S524288_S524288x1_0 (Host.cos (valYaw x))⟩,
       ⟨S524288x1, broadcastInDim S524288x1 ![0] bcast_S524288_S524288x1_0 (Host.sin (valYaw x))⟩,
       ⟨S524288x1, broadcastInDim S524288x1 ![0] bcast_S524288_S524288x1_0 (broadcastInDim S524288 ![] bcast_S_S524288 (constant S_ .f32 0x00000000#32))⟩,
       ⟨S524288x1, broadcastInDim S524288x1 ![0] bcast_S524288_S524288x1_0 (Host.negf (Host.sin (valYaw x)))⟩,
       ⟨S524288x1, broadcastInDim S524288x1 ![0] bcast_S524288_S524288x1_0 (Host.cos (valYaw x))⟩,
       ⟨S524288x1, broadcastInDim S524288x1 ![0] bcast_S524288_S524288x1_0 (broadcastInDim S524288 ![] bcast_S_S524288 (constant S_ .f32 0x00000000#32))⟩,
       ⟨S524288x1, broadcastInDim S524288x1 ![0] bcast_S524288_S524288x1_0 (broadcastInDim S524288 ![] bcast_S_S524288 (constant S_ .f32 0x00000000#32))⟩,
       ⟨S524288x1, broadcastInDim S524288x1 ![0] bcast_S524288_S524288x1_0 (broadcastInDim S524288 ![] bcast_S_S524288 (constant S_ .f32 0x00000000#32))⟩,
       ⟨S524288x1, broadcastInDim S524288x1 ![0] bcast_S524288_S524288x1_0 (broadcastInDim S524288 ![] bcast_S_S524288 (constant S_ .f32 0x3F800000#32))⟩]
      concatenates_S524288x1_S524288x1_S524288x1_S524288x1_S524288x1_S524288x1_S524288x1_S524288x1_S524288x1_S524288x9_d1)
    shapeCasts_S524288x9_S524288x3x3

/-- The corners, rotated and moved to the centre. -/
def valCorners (x : FVec Ideal S524288x7 .f32) (c : IVec S3 32) (cst : FVec Ideal S8x3 .f32) : FVec Ideal S524288x8x3 .f32 :=
  addf (Host.dotGeneral dot_S524288x8x3_S524288x3x3_S524288x8x3_2_1_1_2_0_0 none (valScaled x c cst) (valRot x))
    (broadcastInDim S524288x8x3 ![0, 1, 2] bcast_S524288x1x3_S524288x8x3_0_1_2
      (broadcastInDim S524288x1x3 ![0, 2] bcast_S524288x3_S524288x1x3_0_2
        (extractStridedSlice S524288x3 ![0, 0] x slices_S524288x7_S524288x3_0_0)))

/-- The corners in homogeneous coordinates. -/
def valHom (x : FVec Ideal S524288x7 .f32) (c : IVec S3 32) (cst : FVec Ideal S8x3 .f32) : FVec Ideal S524288x8x4 .f32 :=
  concatenate S524288x8x4 2
    [⟨S524288x8x3, valCorners x c cst⟩,
     ⟨S524288x8x1, broadcastInDim S524288x8x1 ![] bcast_S_S524288x8x1 (constant S_ .f32 0x3F800000#32)⟩]
    concatenates_S524288x8x3_S524288x8x1_S524288x8x4_d2

/-- The projected corners' first three coordinates. -/
def valProj (x : FVec Ideal S524288x7 .f32) (c : IVec S3 32) (cst : FVec Ideal S8x3 .f32) (T : FVec Ideal S4x4 .f32) :
    FVec Ideal S524288x8x3 .f32 :=
  extractStridedSlice S524288x8x3 ![0, 0, 0]
    (Host.dotGeneral dot_S524288x8x4_S4x4_S524288x8x4_2_1_01_0_n_n none (valHom x c cst) T) slices_S524288x8x4_S524288x8x3_0_0_0

/-- The projected corners' first coordinate. -/
def valCoord0 (x : FVec Ideal S524288x7 .f32) (c : IVec S3 32) (cst : FVec Ideal S8x3 .f32) (T : FVec Ideal S4x4 .f32) :
    FVec Ideal S524288x8 .f32 :=
  shapeCast S524288x8 (extractStridedSlice S524288x8x1 ![0, 0, 0] (valProj x c cst T) slices_S524288x8x3_S524288x8x1_0_0_0)
    shapeCasts_S524288x8x1_S524288x8

/-- The projected corners' second coordinate. -/
def valCoord1 (x : FVec Ideal S524288x7 .f32) (c : IVec S3 32) (cst : FVec Ideal S8x3 .f32) (T : FVec Ideal S4x4 .f32) :
    FVec Ideal S524288x8 .f32 :=
  shapeCast S524288x8 (extractStridedSlice S524288x8x1 ![0, 0, 1] (valProj x c cst T) slices_S524288x8x3_S524288x8x1_0_0_1)
    shapeCasts_S524288x8x1_S524288x8

/-- The hull of every box: least first coordinate, least second, greatest first, greatest second. -/
def valB (x : FVec Ideal S524288x7 .f32) (c : IVec S3 32) (cst : FVec Ideal S8x3 .f32) (T : FVec Ideal S4x4 .f32) :
    FVec Ideal S524288x4 .f32 :=
  concatenate S524288x4 1
    [⟨S524288x1, broadcastInDim S524288x1 ![0] bcast_S524288_S524288x1_0 (Host.reduce FloatOps.minimumf (valCoord0 x c cst T) (constant S_ .f32 0x7F800000#32) reducesTo_S524288x8_S524288_d1 h_S_)⟩,
     ⟨S524288x1, broadcastInDim S524288x1 ![0] bcast_S524288_S524288x1_0 (Host.reduce FloatOps.minimumf (valCoord1 x c cst T) (constant S_ .f32 0x7F800000#32) reducesTo_S524288x8_S524288_d1 h_S_)⟩,
     ⟨S524288x1, broadcastInDim S524288x1 ![0] bcast_S524288_S524288x1_0 (Host.reduce FloatOps.maximumf (valCoord0 x c cst T) (constant S_ .f32 0xFF800000#32) reducesTo_S524288x8_S524288_d1 h_S_)⟩,
     ⟨S524288x1, broadcastInDim S524288x1 ![0] bcast_S524288_S524288x1_0 (Host.reduce FloatOps.maximumf (valCoord1 x c cst T) (constant S_ .f32 0xFF800000#32) reducesTo_S524288x8_S524288_d1 h_S_)⟩]
    concatenates_S524288x1_S524288x1_S524288x1_S524288x1_S524288x4_d1

/-- Four columns side by side, equal column by column. -/
theorem cat4_congr (a0 a1 a2 a3 b0 b1 b2 b3 : FVec Ideal S524288x1 .f32) (h0 : a0 = b0) (h1 : a1 = b1) (h2 : a2 = b2) (h3 : a3 = b3) :
    concatenate S524288x4 1 [⟨S524288x1, a0⟩, ⟨S524288x1, a1⟩, ⟨S524288x1, a2⟩, ⟨S524288x1, a3⟩] concatenates_S524288x1_S524288x1_S524288x1_S524288x1_S524288x4_d1
      = concatenate S524288x4 1 [⟨S524288x1, b0⟩, ⟨S524288x1, b1⟩, ⟨S524288x1, b2⟩, ⟨S524288x1, b3⟩] concatenates_S524288x1_S524288x1_S524288x1_S524288x1_S524288x4_d1 := by
  subst h0 h1 h2 h3; rfl

/-- The four-column concatenation's function at four operands is the concatenation of the four. -/
theorem napp4_cat4 (a0 : main_v95.ty.Contents (Elt Ideal)) (a1 : main_v96.ty.Contents (Elt Ideal))
    (a2 : main_v97.ty.Contents (Elt Ideal)) (a3 : main_v98.ty.Contents (Elt Ideal)) :
    napp4 (x0 := main_v95) (x1 := main_v96) (x2 := main_v97) (x3 := main_v98) (y := main_v99)
        (fun u => concatenate S524288x4 1 [⟨S524288x1, u 0⟩, ⟨S524288x1, u 1⟩, ⟨S524288x1, u 2⟩, ⟨S524288x1, u 3⟩] concatenates_S524288x1_S524288x1_S524288x1_S524288x1_S524288x4_d1) a0 a1 a2 a3
      = concatenate S524288x4 1 [⟨S524288x1, a0⟩, ⟨S524288x1, a1⟩, ⟨S524288x1, a2⟩, ⟨S524288x1, a3⟩] concatenates_S524288x1_S524288x1_S524288x1_S524288x1_S524288x4_d1 := rfl

/-- The stretch's result is that array of what it finds in the decoded boxes, the index table, the template and the matrix. -/
theorem valB_eq (W : Valuation τ sig (Elt Ideal)) :
    after (opsB (F := Ideal)) W (Proc.devRef .tc main_v99)
      = valB (W (Proc.devRef .tc main_v40)) (W (Proc.devRef .tc main_c)) (W (Proc.devRef .tc main_cst)) (W (Proc.devRef .tc main_arg3)) := by
  after_results_B
  refine (napp4_cat4 _ _ _ _).trans ?_
  unfold valB
  refine cat4_congr _ _ _ _ _ _ _ _ ?_ ?_ ?_ ?_
  · rfl
  · rfl
  · rfl
  · rfl

section Columns
variable {N : Nat}

/-- Columns side by side, read at `(a, n)`: column `n` at `(a, 0)` (the row count a variable). -/
theorem cols_apply (m : Nat) (xs : List ((s : Shape) × (s.Idx → Ideal .f32)))
    (h : Shape.Concatenates (xs.map (·.1)) (⟨2, ![N, m]⟩ : Shape) 1) (a : Fin N) (n : Nat) (hn : n < m) (hl : n < xs.length)
    (P : (⟨2, ![N, 1]⟩ : Shape).Idx → Ideal .f32) (hx : xs[n] = ⟨(⟨2, ![N, 1]⟩ : Shape), P⟩)
    (hpre : (((xs.take n).map (·.1)).map fun s => if h : s.rank = (⟨2, ![N, m]⟩ : Shape).rank then s.size ((1 : Fin (⟨2, ![N, m]⟩ : Shape).rank).cast h.symm) else 0).sum = n) :
    concatenate (⟨2, ![N, m]⟩ : Shape) 1 xs h (ix2 a (⟨n, hn⟩ : Fin m)) = P (ix2 a (0 : Fin 1)) :=
  concatenate_apply_piece (t := (⟨2, ![N, m]⟩ : Shape)) 1 xs h (ix2 a (⟨n, hn⟩ : Fin m)) n hl (⟨2, ![N, 1]⟩ : Shape) P hx rfl n hpre (ix2 a (0 : Fin 1))
    (by
      intro b hb
      match b with
      | ⟨0, _⟩ => rfl
      | ⟨1, _⟩ => exact absurd rfl hb)
    (by show n + 0 = n; omega)

/-- Nine columns side by side. -/
theorem cols9_apply (P0 P1 P2 P3 P4 P5 P6 P7 P8 : (⟨2, ![N, 1]⟩ : Shape).Idx → Ideal .f32)
    (h : Shape.Concatenates [(⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape), (⟨2, ![N, 1]⟩ : Shape)] (⟨2, ![N, 9]⟩ : Shape) 1)
    (a : Fin N) (n : Fin 9) :
    concatenate (⟨2, ![N, 9]⟩ : Shape) 1 [⟨(⟨2, ![N, 1]⟩ : Shape), P0⟩, ⟨(⟨2, ![N, 1]⟩ : Shape), P1⟩, ⟨(⟨2, ![N, 1]⟩ : Shape), P2⟩, ⟨(⟨2, ![N, 1]⟩ : Shape), P3⟩, ⟨(⟨2, ![N, 1]⟩ : Shape), P4⟩, ⟨(⟨2, ![N, 1]⟩ : Shape), P5⟩, ⟨(⟨2, ![N, 1]⟩ : Shape), P6⟩, ⟨(⟨2, ![N, 1]⟩ : Shape), P7⟩, ⟨(⟨2, ![N, 1]⟩ : Shape), P8⟩] h (ix2 a n)
      = (![P0, P1, P2, P3, P4, P5, P6, P7, P8] : Fin 9 → (⟨2, ![N, 1]⟩ : Shape).Idx → Ideal .f32) n (ix2 a (0 : Fin 1)) := by
  fin_cases n
  · exact cols_apply 9 [⟨(⟨2, ![N, 1]⟩ : Shape), P0⟩, ⟨(⟨2, ![N, 1]⟩ : Shape), P1⟩, ⟨(⟨2, ![N, 1]⟩ : Shape), P2⟩, ⟨(⟨2, ![N, 1]⟩ : Shape), P3⟩, ⟨(⟨2, ![N, 1]⟩ : Shape), P4⟩, ⟨(⟨2, ![N, 1]⟩ : Shape), P5⟩, ⟨(⟨2, ![N, 1]⟩ : Shape), P6⟩, ⟨(⟨2, ![N, 1]⟩ : Shape), P7⟩, ⟨(⟨2, ![N, 1]⟩ : Shape), P8⟩] h a 0 (by omega) (by simp) P0 rfl rfl
  · exact cols_apply 9 [⟨(⟨2, ![N, 1]⟩ : Shape), P0⟩, ⟨(⟨2, ![N, 1]⟩ : Shape), P1⟩, ⟨(⟨2, ![N, 1]⟩ : Shape), P2⟩, ⟨(⟨2, ![N, 1]⟩ : Shape), P3⟩, ⟨(⟨2, ![N, 1]⟩ : Shape), P4⟩, ⟨(⟨2, ![N, 1]⟩ : Shape), P5⟩, ⟨(⟨2, ![N, 1]⟩ : Shape), P6⟩, ⟨(⟨2, ![N, 1]⟩ : Shape), P7⟩, ⟨(⟨2, ![N, 1]⟩ : Shape), P8⟩] h a 1 (by omega) (by simp) P1 rfl rfl
  · exact cols_apply 9 [⟨(⟨2, ![N, 1]⟩ : Shape), P0⟩, ⟨(⟨2, ![N, 1]⟩ : Shape), P1⟩, ⟨(⟨2, ![N, 1]⟩ : Shape), P2⟩, ⟨(⟨2, ![N, 1]⟩ : Shape), P3⟩, ⟨(⟨2, ![N, 1]⟩ : Shape), P4⟩, ⟨(⟨2, ![N, 1]⟩ : Shape), P5⟩, ⟨(⟨2, ![N, 1]⟩ : Shape), P6⟩, ⟨(⟨2, ![N, 1]⟩ : Shape), P7⟩, ⟨(⟨2, ![N, 1]⟩ : Shape), P8⟩] h a 2 (by omega) (by simp) P2 rfl rfl
  · exact cols_apply 9 [⟨(⟨2, ![N, 1]⟩ : Shape), P0⟩, ⟨(⟨2, ![N, 1]⟩ : Shape), P1⟩, ⟨(⟨2, ![N, 1]⟩ : Shape), P2⟩, ⟨(⟨2, ![N, 1]⟩ : Shape), P3⟩, ⟨(⟨2, ![N, 1]⟩ : Shape), P4⟩, ⟨(⟨2, ![N, 1]⟩ : Shape), P5⟩, ⟨(⟨2, ![N, 1]⟩ : Shape), P6⟩, ⟨(⟨2, ![N, 1]⟩ : Shape), P7⟩, ⟨(⟨2, ![N, 1]⟩ : Shape), P8⟩] h a 3 (by omega) (by simp) P3 rfl rfl
  · exact cols_apply 9 [⟨(⟨2, ![N, 1]⟩ : Shape), P0⟩, ⟨(⟨2, ![N, 1]⟩ : Shape), P1⟩, ⟨(⟨2, ![N, 1]⟩ : Shape), P2⟩, ⟨(⟨2, ![N, 1]⟩ : Shape), P3⟩, ⟨(⟨2, ![N, 1]⟩ : Shape), P4⟩, ⟨(⟨2, ![N, 1]⟩ : Shape), P5⟩, ⟨(⟨2, ![N, 1]⟩ : Shape), P6⟩, ⟨(⟨2, ![N, 1]⟩ : Shape), P7⟩, ⟨(⟨2, ![N, 1]⟩ : Shape), P8⟩] h a 4 (by omega) (by simp) P4 rfl rfl
  · exact cols_apply 9 [⟨(⟨2, ![N, 1]⟩ : Shape), P0⟩, ⟨(⟨2, ![N, 1]⟩ : Shape), P1⟩, ⟨(⟨2, ![N, 1]⟩ : Shape), P2⟩, ⟨(⟨2, ![N, 1]⟩ : Shape), P3⟩, ⟨(⟨2, ![N, 1]⟩ : Shape), P4⟩, ⟨(⟨2, ![N, 1]⟩ : Shape), P5⟩, ⟨(⟨2, ![N, 1]⟩ : Shape), P6⟩, ⟨(⟨2, ![N, 1]⟩ : Shape), P7⟩, ⟨(⟨2, ![N, 1]⟩ : Shape), P8⟩] h a 5 (by omega) (by simp) P5 rfl rfl
  · exact cols_apply 9 [⟨(⟨2, ![N, 1]⟩ : Shape), P0⟩, ⟨(⟨2, ![N, 1]⟩ : Shape), P1⟩, ⟨(⟨2, ![N, 1]⟩ : Shape), P2⟩, ⟨(⟨2, ![N, 1]⟩ : Shape), P3⟩, ⟨(⟨2, ![N, 1]⟩ : Shape), P4⟩, ⟨(⟨2, ![N, 1]⟩ : Shape), P5⟩, ⟨(⟨2, ![N, 1]⟩ : Shape), P6⟩, ⟨(⟨2, ![N, 1]⟩ : Shape), P7⟩, ⟨(⟨2, ![N, 1]⟩ : Shape), P8⟩] h a 6 (by omega) (by simp) P6 rfl rfl
  · exact cols_apply 9 [⟨(⟨2, ![N, 1]⟩ : Shape), P0⟩, ⟨(⟨2, ![N, 1]⟩ : Shape), P1⟩, ⟨(⟨2, ![N, 1]⟩ : Shape), P2⟩, ⟨(⟨2, ![N, 1]⟩ : Shape), P3⟩, ⟨(⟨2, ![N, 1]⟩ : Shape), P4⟩, ⟨(⟨2, ![N, 1]⟩ : Shape), P5⟩, ⟨(⟨2, ![N, 1]⟩ : Shape), P6⟩, ⟨(⟨2, ![N, 1]⟩ : Shape), P7⟩, ⟨(⟨2, ![N, 1]⟩ : Shape), P8⟩] h a 7 (by omega) (by simp) P7 rfl rfl
  · exact cols_apply 9 [⟨(⟨2, ![N, 1]⟩ : Shape), P0⟩, ⟨(⟨2, ![N, 1]⟩ : Shape), P1⟩, ⟨(⟨2, ![N, 1]⟩ : Shape), P2⟩, ⟨(⟨2, ![N, 1]⟩ : Shape), P3⟩, ⟨(⟨2, ![N, 1]⟩ : Shape), P4⟩, ⟨(⟨2, ![N, 1]⟩ : Shape), P5⟩, ⟨(⟨2, ![N, 1]⟩ : Shape), P6⟩, ⟨(⟨2, ![N, 1]⟩ : Shape), P7⟩, ⟨(⟨2, ![N, 1]⟩ : Shape), P8⟩] h a 8 (by omega) (by simp) P8 rfl rfl

/-- Four columns side by side. -/
theorem cols4_apply (P0 P1 P2 P3 : (⟨2, ![N, 1]⟩ : Shape).Idx → Ideal .f32)
    (h : Shape.Concatenates [(⟨2, ![N, 1]⟩ : Shape), (⟨2, ![N, 1]⟩ : Shape), (⟨2, ![N, 1]⟩ : Shape), (⟨2, ![N, 1]⟩ : Shape)] (⟨2, ![N, 4]⟩ : Shape) 1)
    (a : Fin N) (n : Fin 4) :
    concatenate (⟨2, ![N, 4]⟩ : Shape) 1 [⟨(⟨2, ![N, 1]⟩ : Shape), P0⟩, ⟨(⟨2, ![N, 1]⟩ : Shape), P1⟩, ⟨(⟨2, ![N, 1]⟩ : Shape), P2⟩, ⟨(⟨2, ![N, 1]⟩ : Shape), P3⟩] h (ix2 a n)
      = (![P0, P1, P2, P3] : Fin 4 → (⟨2, ![N, 1]⟩ : Shape).Idx → Ideal .f32) n (ix2 a (0 : Fin 1)) := by
  fin_cases n
  · exact cols_apply 4 [⟨(⟨2, ![N, 1]⟩ : Shape), P0⟩, ⟨(⟨2, ![N, 1]⟩ : Shape), P1⟩, ⟨(⟨2, ![N, 1]⟩ : Shape), P2⟩, ⟨(⟨2, ![N, 1]⟩ : Shape), P3⟩] h a 0 (by omega) (by simp) P0 rfl rfl
  · exact cols_apply 4 [⟨(⟨2, ![N, 1]⟩ : Shape), P0⟩, ⟨(⟨2, ![N, 1]⟩ : Shape), P1⟩, ⟨(⟨2, ![N, 1]⟩ : Shape), P2⟩, ⟨(⟨2, ![N, 1]⟩ : Shape), P3⟩] h a 1 (by omega) (by simp) P1 rfl rfl
  · exact cols_apply 4 [⟨(⟨2, ![N, 1]⟩ : Shape), P0⟩, ⟨(⟨2, ![N, 1]⟩ : Shape), P1⟩, ⟨(⟨2, ![N, 1]⟩ : Shape), P2⟩, ⟨(⟨2, ![N, 1]⟩ : Shape), P3⟩] h a 2 (by omega) (by simp) P2 rfl rfl
  · exact cols_apply 4 [⟨(⟨2, ![N, 1]⟩ : Shape), P0⟩, ⟨(⟨2, ![N, 1]⟩ : Shape), P1⟩, ⟨(⟨2, ![N, 1]⟩ : Shape), P2⟩, ⟨(⟨2, ![N, 1]⟩ : Shape), P3⟩] h a 3 (by omega) (by simp) P3 rfl rfl

end Columns

theorem gather_apply (x : (⟨S524288x7, .f32⟩ : BufTy).Contents (Elt Ideal)) (idx : (⟨S3x1, .i32⟩ : BufTy).Contents (Elt Ideal))
    (hidx : ∀ p : Fin 3, idx (ix2 p (0 : Fin 1)) = lit0 p) (a : Fin 524288) (p : Fin 3) :
    Host.gather gather_S524288x7_S3x1_S524288x3_0_1_n_n_1_1_5242881 x idx (ix2 a p) = x (ix2 a (dimCol p)) := by
  unfold Host.gather
  refine congrArg x (funext fun ax => Fin.ext ?_)
  show gather_S524288x7_S3x1_S524288x3_0_1_n_n_1_1_5242881.start (ix2 a p) idx ax + gather_S524288x7_S3x1_S524288x3_0_1_n_n_1_1_5242881.batchCoord (ix2 a p) ax + gather_S524288x7_S3x1_S524288x3_0_1_n_n_1_1_5242881.offCoord (ix2 a p) ax = _
  rw [GatherDims.batchCoord_eq_zero _ _ _ List.not_mem_nil]
  have m00 : (⟨0, by decide⟩ : Fin S524288x7.rank) ∉ gather_S524288x7_S3x1_S524288x3_0_1_n_n_1_1_5242881.startIndexMap := by decide
  have m01 : (⟨0, by decide⟩ : Fin S524288x7.rank) ∈ gather_S524288x7_S3x1_S524288x3_0_1_n_n_1_1_5242881.sKept := by decide
  have m10 : (⟨1, by decide⟩ : Fin S524288x7.rank) ∈ gather_S524288x7_S3x1_S524288x3_0_1_n_n_1_1_5242881.startIndexMap := by decide
  have m11 : (⟨1, by decide⟩ : Fin S524288x7.rank) ∉ gather_S524288x7_S3x1_S524288x3_0_1_n_n_1_1_5242881.sKept := by decide
  match ax with
  | ⟨0, _⟩ =>
    rw [GatherDims.start, dif_neg m00, GatherDims.offCoord, dif_pos m01]
    simp only [Nat.zero_add]
    have e0 : gather_S524288x7_S3x1_S524288x3_0_1_n_n_1_1_5242881.offsetDims[List.idxOf (⟨0, by decide⟩ : Fin S524288x7.rank)
        gather_S524288x7_S3x1_S524288x3_0_1_n_n_1_1_5242881.sKept]'(by decide) = (⟨0, by decide⟩ : Fin S524288x3.rank) := by decide
    exact congrArg (fun q => ((ix2 a p : S524288x3.Idx) q).val) e0
  | ⟨1, h1⟩ =>
    rw [GatherDims.offCoord_eq_zero _ _ _ m11, GatherDims.start, dif_pos m10]
    have hsi : gather_S524288x7_S3x1_S524288x3_0_1_n_n_1_1_5242881.siIdx (ix2 a p)
        ⟨List.idxOf (⟨1, h1⟩ : Fin S524288x7.rank) gather_S524288x7_S3x1_S524288x3_0_1_n_n_1_1_5242881.startIndexMap,
          List.idxOf_lt_length_iff.2 m10⟩ = ix2 p (0 : Fin 1) := by
      funext b; refine Fin.ext ?_
      match b with
      | ⟨0, _⟩ => rfl
      | ⟨1, _⟩ => rfl
    rw [hsi, hidx p]
    fin_cases p <;> rfl

/-- The scaled template: entry `(a, k, c)` of the product of the broadcast sizes and the broadcast template. -/
theorem scaled_apply (X : FVec Ideal S524288x3 .f32) (C : FVec Ideal S8x3 .f32)
    (a : Fin 524288) (k : Fin 8) (c : Fin 3) :
    mulf (F := Ideal) (s := S524288x8x3) (φ := .f32) (broadcastInDim S524288x8x3 ![0, 1, 2] bcast_S524288x1x3_S524288x8x3_0_1_2
            (broadcastInDim S524288x1x3 ![0, 2] bcast_S524288x3_S524288x1x3_0_2 X))
         (broadcastInDim S524288x8x3 ![0, 1, 2] bcast_S1x8x3_S524288x8x3_0_1_2
            (broadcastInDim S1x8x3 ![1, 2] bcast_S8x3_S1x8x3_1_2 C)) (ix3 a k c)
      = X (ix2 a c) * C (ix2 k c) := by
  have e1 := broadcastInDim_apply ![0, 1, 2] bcast_S524288x1x3_S524288x8x3_0_1_2
    (broadcastInDim S524288x1x3 ![0, 2] bcast_S524288x3_S524288x1x3_0_2 X) (ix3 a k c) (ix3 a (0 : Fin 1) c) (by
      intro ax
      match ax with
      | ⟨0, _⟩ => rfl
      | ⟨1, _⟩ => rfl
      | ⟨2, _⟩ => rfl)
  have e2 := broadcastInDim_apply ![0, 2] bcast_S524288x3_S524288x1x3_0_2 X (ix3 a (0 : Fin 1) c) (ix2 a c) (by
      intro ax
      match ax with
      | ⟨0, _⟩ => rfl
      | ⟨1, _⟩ => rfl)
  have e3 := broadcastInDim_apply ![0, 1, 2] bcast_S1x8x3_S524288x8x3_0_1_2
    (broadcastInDim S1x8x3 ![1, 2] bcast_S8x3_S1x8x3_1_2 C) (ix3 a k c) (ix3 (0 : Fin 1) k c) (by
      intro ax
      match ax with
      | ⟨0, _⟩ => rfl
      | ⟨1, _⟩ => rfl
      | ⟨2, _⟩ => rfl)
  have e4 := broadcastInDim_apply ![1, 2] bcast_S8x3_S1x8x3_1_2 C (ix3 (0 : Fin 1) k c) (ix2 k c) (by
      intro ax
      match ax with
      | ⟨0, _⟩ => rfl
      | ⟨1, _⟩ => rfl)
  rw [mulf_apply, e1, e2, e3, e4]

/-- The yaw column as a flat array: entry `a` is column 6 of row `a`. -/
theorem yaw_apply (x : FVec Ideal S524288x7 .f32) (a : Fin 524288) :
    shapeCast S524288 (extractStridedSlice S524288x1 ![0, 6] x slices_S524288x7_S524288x1_0_6) shapeCasts_S524288x1_S524288 (ix1 a)
      = x (ix2 a (6 : Fin 7)) := by
  have e1 := shapeCast_apply (extractStridedSlice S524288x1 ![0, 6] x slices_S524288x7_S524288x1_0_6) shapeCasts_S524288x1_S524288
    (ix1 a) (ix2 a (0 : Fin 1)) (by
      rw [Shape.rowMajor_val_two, Shape.rowMajor_val_one]
      show a.val * 1 + 0 = a.val
      omega)
  have e2 := extractStridedSlice_apply ![0, 6] x slices_S524288x7_S524288x1_0_6 (ix2 a (0 : Fin 1)) (ix2 a (6 : Fin 7)) (by
      intro ax
      match ax with
      | ⟨0, _⟩ => show a.val = 0 + a.val; omega
      | ⟨1, _⟩ => rfl)
  rw [e1, e2]

/-! ## The arrays read at an index -/

/-- The index table's column at row `p`: the table's entry. -/
theorem valIdx_apply (c : IVec S3 32) (hc : c = fun i => lit0 (S3.rowMajor i)) (p : Fin 3) :
    valIdx c (ix2 p (0 : Fin 1)) = lit0 p := by
  subst hc
  fin_cases p <;> rfl

/-- The sizes of box `a`: columns 5, 4, 3. -/
theorem valDims_apply (x : FVec Ideal S524288x7 .f32) (c : IVec S3 32) (hc : c = fun i => lit0 (S3.rowMajor i))
    (a : Fin 524288) (p : Fin 3) : valDims x c (ix2 a p) = x (ix2 a (dimCol p)) :=
  gather_apply x (valIdx c) (valIdx_apply c hc) a p

/-- The template read at `(k, q)`. -/
theorem cst_apply (cst : FVec Ideal S8x3 .f32) (hcst : cst = fun i => FloatOps.ofBits .f32 (lit1 (S8x3.rowMajor i)))
    (k : Fin 8) (q : Fin 3) : cst (ix2 k q) = tmpl k q := by
  subst hcst
  show Ideal.ofBits .f32 (lit1 (S8x3.rowMajor (ix2 k q))) = Ideal.ofBits .f32 (lit1 ⟨3 * k.val + q.val, _⟩)
  refine congrArg (fun n => Ideal.ofBits .f32 (lit1 n)) (Fin.ext ?_)
  rw [Shape.rowMajor_val_two]
  show k.val * 3 + q.val = 3 * k.val + q.val
  omega

theorem valScaled_apply (x : FVec Ideal S524288x7 .f32) (c : IVec S3 32) (cst : FVec Ideal S8x3 .f32)
    (hc : c = fun i => lit0 (S3.rowMajor i)) (hcst : cst = fun i => FloatOps.ofBits .f32 (lit1 (S8x3.rowMajor i)))
    (a : Fin 524288) (k : Fin 8) (q : Fin 3) :
    valScaled x c cst (ix3 a k q) = x (ix2 a (dimCol q)) * tmpl k q := by
  refine (scaled_apply (valDims x c) cst a k q).trans ?_
  rw [valDims_apply x c hc, cst_apply cst hcst]

/-- The yaw of box `a`: column 6. -/
theorem valYaw_apply (x : FVec Ideal S524288x7 .f32) (a : Fin 524288) : valYaw x (ix1 a) = x (ix2 a (6 : Fin 7)) :=
  yaw_apply x a

/-- A flat array as a column, read at `(a, 0)`. -/
theorem col_apply (v : FVec Ideal S524288 .f32) (a : Fin 524288) :
    broadcastInDim S524288x1 ![0] bcast_S524288_S524288x1_0 v (ix2 a (0 : Fin 1)) = v (ix1 a) :=
  broadcastInDim_apply ![0] bcast_S524288_S524288x1_0 v (ix2 a (0 : Fin 1)) (ix1 a) (by
    intro ax
    match ax with
    | ⟨0, _⟩ => rfl)

/-- A scalar splat read anywhere. -/
theorem splat_apply (b : BitVec 32) (a : Fin 524288) :
    broadcastInDim S524288 ![] bcast_S_S524288 (constant (F := Ideal) S_ .f32 b) (ix1 a) = Ideal.ofBits .f32 b :=
  broadcastInDim_apply ![] bcast_S_S524288 (constant (F := Ideal) S_ .f32 b) (ix1 a) ix0 (fun ax => ax.elim0)

/-- The rotation of box `a`, entry `(p, d)`. -/
theorem valRot_apply (x : FVec Ideal S524288x7 .f32) (a : Fin 524288) (p d : Fin 3) :
    valRot x (ix3 a p d) = rotR (x (ix2 a (6 : Fin 7))) p d := by
  have hflat : ∀ (q : Fin 9), (q.val = 3 * p.val + d.val) →
      valRot x (ix3 a p d) = (concatenate S524288x9 1
      [⟨S524288x1, broadcastInDim S524288x1 ![0] bcast_S524288_S524288x1_0 (Host.cos (valYaw x))⟩,
       ⟨S524288x1, broadcastInDim S524288x1 ![0] bcast_S524288_S524288x1_0 (Host.sin (valYaw x))⟩,
       ⟨S524288x1, broadcastInDim S524288x1 ![0] bcast_S524288_S524288x1_0 (broadcastInDim S524288 ![] bcast_S_S524288 (constant S_ .f32 0x00000000#32))⟩,
       ⟨S524288x1, broadcastInDim S524288x1 ![0] bcast_S524288_S524288x1_0 (Host.negf (Host.sin (valYaw x)))⟩,
       ⟨S524288x1, broadcastInDim S524288x1 ![0] bcast_S524288_S524288x1_0 (Host.cos (valYaw x))⟩,
       ⟨S524288x1, broadcastInDim S524288x1 ![0] bcast_S524288_S524288x1_0 (broadcastInDim S524288 ![] bcast_S_S524288 (constant S_ .f32 0x00000000#32))⟩,
       ⟨S524288x1, broadcastInDim S524288x1 ![0] bcast_S524288_S524288x1_0 (broadcastInDim S524288 ![] bcast_S_S524288 (constant S_ .f32 0x00000000#32))⟩,
       ⟨S524288x1, broadcastInDim S524288x1 ![0] bcast_S524288_S524288x1_0 (broadcastInDim S524288 ![] bcast_S_S524288 (constant S_ .f32 0x00000000#32))⟩,
       ⟨S524288x1, broadcastInDim S524288x1 ![0] bcast_S524288_S524288x1_0 (broadcastInDim S524288 ![] bcast_S_S524288 (constant S_ .f32 0x3F800000#32))⟩]
      concatenates_S524288x1_S524288x1_S524288x1_S524288x1_S524288x1_S524288x1_S524288x1_S524288x1_S524288x1_S524288x9_d1) (ix2 a q) := by
    intro q hq
    exact shapeCast_apply _ shapeCasts_S524288x9_S524288x3x3 (ix3 a p d) (ix2 a q) (by
      rw [Shape.rowMajor_val_two, Shape.rowMajor_val_three]
      show a.val * 9 + q.val = (a.val * 3 + p.val) * 3 + d.val
      omega)
  have piece : ∀ (n : Fin 9), concatenate S524288x9 1 [⟨S524288x1, broadcastInDim S524288x1 ![0] bcast_S524288_S524288x1_0 (Host.cos (valYaw x))⟩,
       ⟨S524288x1, broadcastInDim S524288x1 ![0] bcast_S524288_S524288x1_0 (Host.sin (valYaw x))⟩,
       ⟨S524288x1, broadcastInDim S524288x1 ![0] bcast_S524288_S524288x1_0 (broadcastInDim S524288 ![] bcast_S_S524288 (constant S_ .f32 0x00000000#32))⟩,
       ⟨S524288x1, broadcastInDim S524288x1 ![0] bcast_S524288_S524288x1_0 (Host.negf (Host.sin (valYaw x)))⟩,
       ⟨S524288x1, broadcastInDim S524288x1 ![0] bcast_S524288_S524288x1_0 (Host.cos (valYaw x))⟩,
       ⟨S524288x1, broadcastInDim S524288x1 ![0] bcast_S524288_S524288x1_0 (broadcastInDim S524288 ![] bcast_S_S524288 (constant S_ .f32 0x00000000#32))⟩,
       ⟨S524288x1, broadcastInDim S524288x1 ![0] bcast_S524288_S524288x1_0 (broadcastInDim S524288 ![] bcast_S_S524288 (constant S_ .f32 0x00000000#32))⟩,
       ⟨S524288x1, broadcastInDim S524288x1 ![0] bcast_S524288_S524288x1_0 (broadcastInDim S524288 ![] bcast_S_S524288 (constant S_ .f32 0x00000000#32))⟩,
       ⟨S524288x1, broadcastInDim S524288x1 ![0] bcast_S524288_S524288x1_0 (broadcastInDim S524288 ![] bcast_S_S524288 (constant S_ .f32 0x3F800000#32))⟩] concatenates_S524288x1_S524288x1_S524288x1_S524288x1_S524288x1_S524288x1_S524288x1_S524288x1_S524288x1_S524288x9_d1 (ix2 a n)
      = (![broadcastInDim S524288x1 ![0] bcast_S524288_S524288x1_0 (Host.cos (valYaw x)),
        broadcastInDim S524288x1 ![0] bcast_S524288_S524288x1_0 (Host.sin (valYaw x)),
        broadcastInDim S524288x1 ![0] bcast_S524288_S524288x1_0 (broadcastInDim S524288 ![] bcast_S_S524288 (constant S_ .f32 0x00000000#32)),
        broadcastInDim S524288x1 ![0] bcast_S524288_S524288x1_0 (Host.negf (Host.sin (valYaw x))),
        broadcastInDim S524288x1 ![0] bcast_S524288_S524288x1_0 (Host.cos (valYaw x)),
        broadcastInDim S524288x1 ![0] bcast_S524288_S524288x1_0 (broadcastInDim S524288 ![] bcast_S_S524288 (constant S_ .f32 0x00000000#32)),
        broadcastInDim S524288x1 ![0] bcast_S524288_S524288x1_0 (broadcastInDim S524288 ![] bcast_S_S524288 (constant S_ .f32 0x00000000#32)),
        broadcastInDim S524288x1 ![0] bcast_S524288_S524288x1_0 (broadcastInDim S524288 ![] bcast_S_S524288 (constant S_ .f32 0x00000000#32)),
        broadcastInDim S524288x1 ![0] bcast_S524288_S524288x1_0 (broadcastInDim S524288 ![] bcast_S_S524288 (constant S_ .f32 0x3F800000#32))] : Fin 9 → FVec Ideal S524288x1 .f32) n (ix2 a (0 : Fin 1)) :=
    fun n => cols9_apply (N := 524288) _ _ _ _ _ _ _ _ _ concatenates_S524288x1_S524288x1_S524288x1_S524288x1_S524288x1_S524288x1_S524288x1_S524288x1_S524288x1_S524288x9_d1 a n
  have hcos : Host.cos (valYaw x) (ix1 a) = Ideal.cos (x (ix2 a (6 : Fin 7))) := by
    show FloatOps.hostUnary .cos (valYaw x (ix1 a)) = _
    rw [valYaw_apply]; rfl
  have hsin : Host.sin (valYaw x) (ix1 a) = Ideal.sin (x (ix2 a (6 : Fin 7))) := by
    show FloatOps.hostUnary .sin (valYaw x (ix1 a)) = _
    rw [valYaw_apply]; rfl
  have hneg : Host.negf (Host.sin (valYaw x)) (ix1 a) = -Ideal.sin (x (ix2 a (6 : Fin 7))) := by
    show FloatOps.hostNegf (FloatOps.hostUnary .sin (valYaw x (ix1 a))) = _
    rw [valYaw_apply]; rfl
  fin_cases p <;> fin_cases d
  · rw [hflat ⟨0, by omega⟩ rfl]
    refine (piece ⟨0, by omega⟩).trans ?_
    show (broadcastInDim S524288x1 ![0] bcast_S524288_S524288x1_0 (Host.cos (valYaw x))) (ix2 a (0 : Fin 1)) = _
    rw [col_apply, hcos]; rfl
  · rw [hflat ⟨1, by omega⟩ rfl]
    refine (piece ⟨1, by omega⟩).trans ?_
    show (broadcastInDim S524288x1 ![0] bcast_S524288_S524288x1_0 (Host.sin (valYaw x))) (ix2 a (0 : Fin 1)) = _
    rw [col_apply, hsin]; rfl
  · rw [hflat ⟨2, by omega⟩ rfl]
    refine (piece ⟨2, by omega⟩).trans ?_
    show (broadcastInDim S524288x1 ![0] bcast_S524288_S524288x1_0 (broadcastInDim S524288 ![] bcast_S_S524288 (constant S_ .f32 0x00000000#32))) (ix2 a (0 : Fin 1)) = _
    rw [col_apply, splat_apply]; exact Ideal.ofBits_zero_f32
  · rw [hflat ⟨3, by omega⟩ rfl]
    refine (piece ⟨3, by omega⟩).trans ?_
    show (broadcastInDim S524288x1 ![0] bcast_S524288_S524288x1_0 (Host.negf (Host.sin (valYaw x)))) (ix2 a (0 : Fin 1)) = _
    rw [col_apply, hneg]; rfl
  · rw [hflat ⟨4, by omega⟩ rfl]
    refine (piece ⟨4, by omega⟩).trans ?_
    show (broadcastInDim S524288x1 ![0] bcast_S524288_S524288x1_0 (Host.cos (valYaw x))) (ix2 a (0 : Fin 1)) = _
    rw [col_apply, hcos]; rfl
  · rw [hflat ⟨5, by omega⟩ rfl]
    refine (piece ⟨5, by omega⟩).trans ?_
    show (broadcastInDim S524288x1 ![0] bcast_S524288_S524288x1_0 (broadcastInDim S524288 ![] bcast_S_S524288 (constant S_ .f32 0x00000000#32))) (ix2 a (0 : Fin 1)) = _
    rw [col_apply, splat_apply]; exact Ideal.ofBits_zero_f32
  · rw [hflat ⟨6, by omega⟩ rfl]
    refine (piece ⟨6, by omega⟩).trans ?_
    show (broadcastInDim S524288x1 ![0] bcast_S524288_S524288x1_0 (broadcastInDim S524288 ![] bcast_S_S524288 (constant S_ .f32 0x00000000#32))) (ix2 a (0 : Fin 1)) = _
    rw [col_apply, splat_apply]; exact Ideal.ofBits_zero_f32
  · rw [hflat ⟨7, by omega⟩ rfl]
    refine (piece ⟨7, by omega⟩).trans ?_
    show (broadcastInDim S524288x1 ![0] bcast_S524288_S524288x1_0 (broadcastInDim S524288 ![] bcast_S_S524288 (constant S_ .f32 0x00000000#32))) (ix2 a (0 : Fin 1)) = _
    rw [col_apply, splat_apply]; exact Ideal.ofBits_zero_f32
  · rw [hflat ⟨8, by omega⟩ rfl]
    refine (piece ⟨8, by omega⟩).trans ?_
    show (broadcastInDim S524288x1 ![0] bcast_S524288_S524288x1_0 (broadcastInDim S524288 ![] bcast_S_S524288 (constant S_ .f32 0x3F800000#32))) (ix2 a (0 : Fin 1)) = _
    rw [col_apply, splat_apply]; exact ofBits_one

/-- Corner `k` of box `a`, coordinate `d`. -/
theorem valCorners_apply (x : FVec Ideal S524288x7 .f32) (c : IVec S3 32) (cst : FVec Ideal S8x3 .f32)
    (hc : c = fun i => lit0 (S3.rowMajor i)) (hcst : cst = fun i => FloatOps.ofBits .f32 (lit1 (S8x3.rowMajor i)))
    (a : Fin 524288) (k : Fin 8) (d : Fin 3) :
    valCorners x c cst (ix3 a k d) = cornerR (fun q => x (ix2 a q)) k d := by
  have e1 := dotGeneral_stack_apply dot_S524288x8x3_S524288x3x3_S524288x8x3_2_1_1_2_0_0.wf none (valScaled x c cst) (valRot x) a k d
  have e2 := broadcastInDim_apply ![0, 1, 2] bcast_S524288x1x3_S524288x8x3_0_1_2
    (broadcastInDim S524288x1x3 ![0, 2] bcast_S524288x3_S524288x1x3_0_2 (extractStridedSlice S524288x3 ![0, 0] x slices_S524288x7_S524288x3_0_0))
    (ix3 a k d) (ix3 a (0 : Fin 1) d) (by
      intro ax
      match ax with
      | ⟨0, _⟩ => rfl
      | ⟨1, _⟩ => rfl
      | ⟨2, _⟩ => rfl)
  have e3 := broadcastInDim_apply ![0, 2] bcast_S524288x3_S524288x1x3_0_2 (extractStridedSlice S524288x3 ![0, 0] x slices_S524288x7_S524288x3_0_0)
    (ix3 a (0 : Fin 1) d) (ix2 a d) (by
      intro ax
      match ax with
      | ⟨0, _⟩ => rfl
      | ⟨1, _⟩ => rfl)
  have e4 := extractStridedSlice_apply ![0, 0] x slices_S524288x7_S524288x3_0_0 (ix2 a d) (ix2 a (⟨d.val, by omega⟩ : Fin 7)) (by
      intro ax
      match ax with
      | ⟨0, _⟩ => show a.val = 0 + a.val; omega
      | ⟨1, _⟩ => show d.val = 0 + d.val; omega)
  unfold valCorners cornerR
  rw [addf_apply, e2, e3, e4]
  refine congrArg (· + x (ix2 a (⟨d.val, by omega⟩ : Fin 7))) ?_
  refine e1.trans (Finset.sum_congr rfl fun q _ => ?_)
  rw [valScaled_apply x c cst hc hcst, valRot_apply]

/-- The homogeneous corner. -/
theorem valHom_apply (x : FVec Ideal S524288x7 .f32) (c : IVec S3 32) (cst : FVec Ideal S8x3 .f32)
    (hc : c = fun i => lit0 (S3.rowMajor i)) (hcst : cst = fun i => FloatOps.ofBits .f32 (lit1 (S8x3.rowMajor i)))
    (a : Fin 524288) (k : Fin 8) (q : Fin 4) :
    valHom x c cst (ix3 a k q) = homR (fun q => x (ix2 a q)) k q := by
  unfold valHom homR
  by_cases h : q.val < 3
  · rw [dif_pos h]
    have e := concatenate_pair_apply_left (2 : Fin S524288x8x4.rank) (valCorners x c cst)
      (broadcastInDim S524288x8x1 ![] bcast_S_S524288x8x1 (constant (F := Ideal) S_ .f32 0x3F800000#32))
      concatenates_S524288x8x3_S524288x8x1_S524288x8x4_d2 (ix3 a k q) rfl (ix3 a k (⟨q.val, h⟩ : Fin 3)) (by
        intro b
        match b with
        | ⟨0, _⟩ => rfl
        | ⟨1, _⟩ => rfl
        | ⟨2, _⟩ => rfl)
    exact e.trans (valCorners_apply x c cst hc hcst a k ⟨q.val, h⟩)
  · rw [dif_neg h]
    have e := concatenate_pair_apply_right (2 : Fin S524288x8x4.rank) (valCorners x c cst)
      (broadcastInDim S524288x8x1 ![] bcast_S_S524288x8x1 (constant (F := Ideal) S_ .f32 0x3F800000#32))
      concatenates_S524288x8x3_S524288x8x1_S524288x8x4_d2 (ix3 a k q) rfl rfl (ix3 a k (0 : Fin 1)) (by
        intro b hb
        match b with
        | ⟨0, _⟩ => rfl
        | ⟨1, _⟩ => rfl
        | ⟨2, _⟩ => exact absurd rfl hb)
      (by show 0 + 3 = q.val; have := q.isLt; omega)
    refine e.trans ?_
    exact (broadcastInDim_apply ![] bcast_S_S524288x8x1 (constant (F := Ideal) S_ .f32 0x3F800000#32) (ix3 a k (0 : Fin 1)) ix0
      (fun ax => ax.elim0)).trans ofBits_one

/-- The product of a stack of 8 × 4 matrices with the transpose of a 4 × 4 matrix, read at an index. -/
theorem dot_rows_apply (w : DotDims.WF S524288x8x4 S4x4 S524288x8x4 [2] [1] [0, 1] [0] [] [])
    (A : FVec Ideal S524288x8x4 .f32) (T : FVec Ideal S4x4 .f32) (a : Fin 524288) (k : Fin 8) (o : Fin 4) :
    Host.dotGeneral (⟨[2], [1], [0, 1], [0], [], [], w⟩ : DotDims S524288x8x4 S4x4 S524288x8x4) none A T (ix3 a k o)
      = ∑ q : Fin 4, A (ix3 a k q) * T (ix2 o q) := by
  show FloatOps.dotGeneral _ none _ A T (ix3 a k o) = _
  rw [Ideal.dotGeneral_apply,
    ← Equiv.sum_comp (contrEquiv1 (⟨[2], [1], [0, 1], [0], [], [], w⟩ : DotDims S524288x8x4 S4x4 S524288x8x4) 4 rfl rfl).symm]
  refine Finset.sum_congr rfl fun q _ => ?_
  have c3 := contrEquiv1_symm_val (⟨[2], [1], [0, 1], [0], [], [], w⟩ : DotDims S524288x8x4 S4x4 S524288x8x4) 4 rfl rfl q
  have l3 : (⟨[2], [1], [0, 1], [0], [], [], w⟩ : DotDims S524288x8x4 S4x4 S524288x8x4).lhsIdx (ix3 a k o)
      ((contrEquiv1 _ 4 rfl rfl).symm q) = ix3 a k q := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims S524288x8x4 S4x4 S524288x8x4).rhsIdx (ix3 a k o)
      ((contrEquiv1 _ 4 rfl rfl).symm q) = ix2 o q := by
    funext ax; apply Fin.ext
    match ax with
    | ⟨0, _⟩ => simp [DotDims.rhsIdx]; rfl
    | ⟨1, _⟩ => simp [DotDims.rhsIdx]; exact c3
  rw [l3, r3]

/-- Four columns side by side, read at each of the four columns. -/
theorem hull_cols (P0 P1 P2 P3 : FVec Ideal S524288x1 .f32) (a : Fin 524288) :
    concatenate S524288x4 1 [⟨S524288x1, P0⟩, ⟨S524288x1, P1⟩, ⟨S524288x1, P2⟩, ⟨S524288x1, P3⟩] concatenates_S524288x1_S524288x1_S524288x1_S524288x1_S524288x4_d1 (ix2 a (0 : Fin 4)) = P0 (ix2 a (0 : Fin 1))
    ∧ concatenate S524288x4 1 [⟨S524288x1, P0⟩, ⟨S524288x1, P1⟩, ⟨S524288x1, P2⟩, ⟨S524288x1, P3⟩] concatenates_S524288x1_S524288x1_S524288x1_S524288x1_S524288x4_d1 (ix2 a (1 : Fin 4)) = P1 (ix2 a (0 : Fin 1))
    ∧ concatenate S524288x4 1 [⟨S524288x1, P0⟩, ⟨S524288x1, P1⟩, ⟨S524288x1, P2⟩, ⟨S524288x1, P3⟩] concatenates_S524288x1_S524288x1_S524288x1_S524288x1_S524288x4_d1 (ix2 a (2 : Fin 4)) = P2 (ix2 a (0 : Fin 1))
    ∧ concatenate S524288x4 1 [⟨S524288x1, P0⟩, ⟨S524288x1, P1⟩, ⟨S524288x1, P2⟩, ⟨S524288x1, P3⟩] concatenates_S524288x1_S524288x1_S524288x1_S524288x1_S524288x4_d1 (ix2 a (3 : Fin 4)) = P3 (ix2 a (0 : Fin 1)) :=
  ⟨cols4_apply (N := 524288) P0 P1 P2 P3 concatenates_S524288x1_S524288x1_S524288x1_S524288x1_S524288x4_d1 a 0, cols4_apply (N := 524288) P0 P1 P2 P3 concatenates_S524288x1_S524288x1_S524288x1_S524288x1_S524288x4_d1 a 1,
    cols4_apply (N := 524288) P0 P1 P2 P3 concatenates_S524288x1_S524288x1_S524288x1_S524288x1_S524288x4_d1 a 2, cols4_apply (N := 524288) P0 P1 P2 P3 concatenates_S524288x1_S524288x1_S524288x1_S524288x1_S524288x4_d1 a 3⟩

/-- Coordinate `o` (of the first three) of the projected corner `k` of box `a`. -/
theorem valProj_apply (x : FVec Ideal S524288x7 .f32) (c : IVec S3 32) (cst : FVec Ideal S8x3 .f32) (T : FVec Ideal S4x4 .f32)
    (hc : c = fun i => lit0 (S3.rowMajor i)) (hcst : cst = fun i => FloatOps.ofBits .f32 (lit1 (S8x3.rowMajor i)))
    (a : Fin 524288) (k : Fin 8) (o : Fin 3) :
    valProj x c cst T (ix3 a k o)
      = projR (fun q => x (ix2 a q)) (fun o q => T (ix2 o q)) k (⟨o.val, by omega⟩ : Fin 4) := by
  have e1 := extractStridedSlice_apply ![0, 0, 0]
    (Host.dotGeneral dot_S524288x8x4_S4x4_S524288x8x4_2_1_01_0_n_n none (valHom x c cst) T) slices_S524288x8x4_S524288x8x3_0_0_0
    (ix3 a k o) (ix3 a k (⟨o.val, by omega⟩ : Fin 4)) (by
      intro ax
      match ax with
      | ⟨0, _⟩ => show a.val = 0 + a.val; omega
      | ⟨1, _⟩ => show k.val = 0 + k.val; omega
      | ⟨2, _⟩ => show o.val = 0 + o.val; omega)
  have e2 := dot_rows_apply dot_S524288x8x4_S4x4_S524288x8x4_2_1_01_0_n_n.wf (valHom x c cst) T a k (⟨o.val, by omega⟩ : Fin 4)
  unfold valProj projR
  refine e1.trans (e2.trans (Finset.sum_congr rfl fun q _ => ?_))
  rw [valHom_apply x c cst hc hcst]

/-- The first coordinate of the projected corner `k` of box `a`. -/
theorem valCoord0_apply (x : FVec Ideal S524288x7 .f32) (c : IVec S3 32) (cst : FVec Ideal S8x3 .f32) (T : FVec Ideal S4x4 .f32)
    (hc : c = fun i => lit0 (S3.rowMajor i)) (hcst : cst = fun i => FloatOps.ofBits .f32 (lit1 (S8x3.rowMajor i)))
    (a : Fin 524288) (k : Fin 8) :
    valCoord0 x c cst T (ix2 a k) = projR (fun q => x (ix2 a q)) (fun o q => T (ix2 o q)) k 0 := by
  have e1 := shapeCast_apply (extractStridedSlice S524288x8x1 ![0, 0, 0] (valProj x c cst T) slices_S524288x8x3_S524288x8x1_0_0_0)
    shapeCasts_S524288x8x1_S524288x8 (ix2 a k) (ix3 a k (0 : Fin 1)) (by
      rw [Shape.rowMajor_val_three, Shape.rowMajor_val_two]
      show (a.val * 8 + k.val) * 1 + 0 = a.val * 8 + k.val
      omega)
  have e2 := extractStridedSlice_apply ![0, 0, 0] (valProj x c cst T) slices_S524288x8x3_S524288x8x1_0_0_0
    (ix3 a k (0 : Fin 1)) (ix3 a k (0 : Fin 3)) (by
      intro ax
      match ax with
      | ⟨0, _⟩ => show a.val = 0 + a.val; omega
      | ⟨1, _⟩ => show k.val = 0 + k.val; omega
      | ⟨2, _⟩ => rfl)
  exact e1.trans (e2.trans (valProj_apply x c cst T hc hcst a k 0))

/-- The second coordinate of the projected corner `k` of box `a`. -/
theorem valCoord1_apply (x : FVec Ideal S524288x7 .f32) (c : IVec S3 32) (cst : FVec Ideal S8x3 .f32) (T : FVec Ideal S4x4 .f32)
    (hc : c = fun i => lit0 (S3.rowMajor i)) (hcst : cst = fun i => FloatOps.ofBits .f32 (lit1 (S8x3.rowMajor i)))
    (a : Fin 524288) (k : Fin 8) :
    valCoord1 x c cst T (ix2 a k) = projR (fun q => x (ix2 a q)) (fun o q => T (ix2 o q)) k 1 := by
  have e1 := shapeCast_apply (extractStridedSlice S524288x8x1 ![0, 0, 1] (valProj x c cst T) slices_S524288x8x3_S524288x8x1_0_0_1)
    shapeCasts_S524288x8x1_S524288x8 (ix2 a k) (ix3 a k (0 : Fin 1)) (by
      rw [Shape.rowMajor_val_three, Shape.rowMajor_val_two]
      show (a.val * 8 + k.val) * 1 + 0 = a.val * 8 + k.val
      omega)
  have e2 := extractStridedSlice_apply ![0, 0, 1] (valProj x c cst T) slices_S524288x8x3_S524288x8x1_0_0_1
    (ix3 a k (0 : Fin 1)) (ix3 a k (1 : Fin 3)) (by
      intro ax
      match ax with
      | ⟨0, _⟩ => show a.val = 0 + a.val; omega
      | ⟨1, _⟩ => show k.val = 0 + k.val; omega
      | ⟨2, _⟩ => rfl)
  exact e1.trans (e2.trans (valProj_apply x c cst T hc hcst a k 1))

/-- The reduced index `a` with corner `k` put back is `(a, k)`. -/
theorem lift_row (h : S524288x8.Reduces [1] S524288) (a : Fin 524288) (k : Fin (S524288x8.size 1)) :
    h.lift (ix1 a) k = ix2 a (⟨k.val, k.isLt⟩ : Fin 8) := by
  funext ax; apply Fin.ext
  fin_cases ax <;> rfl

/-- From `+∞` the reduction with a minimum body over the eight corners, at box `a`, is the least of the eight. -/
theorem reduce_min_apply (X : FVec Ideal S524288x8 .f32) (a : Fin 524288) :
    Host.reduce FloatOps.minimumf X (constant S_ .f32 0x7F800000#32) reducesTo_S524288x8_S524288_d1 h_S_ (ix1 a)
      = (Finset.univ : Finset (Fin 8)).fold min ⊤ (fun k => X (ix2 a k)) := by
  have h : S524288x8.Reduces [1] S524288 := by decide
  rw [Host.reduce_eq_fold_single FloatOps.minimumf X _ reducesTo_S524288x8_S524288_d1 h h_S_]
  have hf : (X ∘ h.lift (ix1 a)) = fun k : Fin 8 => X (ix2 a k) := funext fun k => congrArg X (lift_row h a k)
  refine (congrArg (fun f => Finset.fold min (Ideal.ofBits .f32 0x7F800000#32) f (Finset.univ : Finset (Fin 8))) hf).trans ?_
  rw [ofBits_top]

/-- From `-∞` the reduction with a maximum body over the eight corners, at box `a`, is the greatest of the eight. -/
theorem reduce_max_apply (X : FVec Ideal S524288x8 .f32) (a : Fin 524288) :
    Host.reduce FloatOps.maximumf X (constant S_ .f32 0xFF800000#32) reducesTo_S524288x8_S524288_d1 h_S_ (ix1 a)
      = (Finset.univ : Finset (Fin 8)).fold max ⊥ (fun k => X (ix2 a k)) := by
  have h : S524288x8.Reduces [1] S524288 := by decide
  rw [Host.reduce_eq_fold_single FloatOps.maximumf X _ reducesTo_S524288x8_S524288_d1 h h_S_]
  have hf : (X ∘ h.lift (ix1 a)) = fun k : Fin 8 => X (ix2 a k) := funext fun k => congrArg X (lift_row h a k)
  refine (congrArg (fun f => Finset.fold max (Ideal.ofBits .f32 0xFF800000#32) f (Finset.univ : Finset (Fin 8))) hf).trans ?_
  rw [ofBits_bot]

/-- The hull of box `a`, entry `j`. -/
theorem valB_apply (x : FVec Ideal S524288x7 .f32) (c : IVec S3 32) (cst : FVec Ideal S8x3 .f32) (T : FVec Ideal S4x4 .f32)
    (hc : c = fun i => lit0 (S3.rowMajor i)) (hcst : cst = fun i => FloatOps.ofBits .f32 (lit1 (S8x3.rowMajor i)))
    (a : Fin 524288) (j : Fin 4) :
    valB x c cst T (ix2 a j) = hullR (fun q => x (ix2 a q)) (fun o q => T (ix2 o q)) j := by
  have h0 : valB x c cst T (ix2 a (0 : Fin 4)) = hullR (fun q => x (ix2 a q)) (fun o q => T (ix2 o q)) 0 := by
    unfold valB
    refine ((hull_cols _ _ _ _ a).1).trans ?_
    rw [col_apply, reduce_min_apply]
    simp only [valCoord0_apply x c cst T hc hcst]; rfl
  have h1 : valB x c cst T (ix2 a (1 : Fin 4)) = hullR (fun q => x (ix2 a q)) (fun o q => T (ix2 o q)) 1 := by
    unfold valB
    refine ((hull_cols _ _ _ _ a).2.1).trans ?_
    rw [col_apply, reduce_min_apply]
    simp only [valCoord1_apply x c cst T hc hcst]; rfl
  have h2 : valB x c cst T (ix2 a (2 : Fin 4)) = hullR (fun q => x (ix2 a q)) (fun o q => T (ix2 o q)) 2 := by
    unfold valB
    refine ((hull_cols _ _ _ _ a).2.2.1).trans ?_
    rw [col_apply, reduce_max_apply]
    simp only [valCoord0_apply x c cst T hc hcst]; rfl
  have h3 : valB x c cst T (ix2 a (3 : Fin 4)) = hullR (fun q => x (ix2 a q)) (fun o q => T (ix2 o q)) 3 := by
    unfold valB
    refine ((hull_cols _ _ _ _ a).2.2.2).trans ?_
    rw [col_apply, reduce_max_apply]
    simp only [valCoord1_apply x c cst T hc hcst]; rfl
  fin_cases j
  · exact h0
  · exact h1
  · exact h2
  · exact h3

/-! ## The stretch read at an index -/

/-- **The hull of decoded box `a`, entry `k`**, as the stretch leaves it: `hullR` of the box's seven numbers and the matrix. -/
theorem hull_apply (W : Valuation τ sig (Elt Ideal))
    (hcst : W (Proc.devRef .tc main_cst) = fun i => FloatOps.ofBits (F := Ideal) .f32 (lit1 (S8x3.rowMajor i)))
    (hc : W (Proc.devRef .tc main_c) = fun i => lit0 (S3.rowMajor i)) (a : Fin 524288) (k : Fin 4) :
    after (opsB (F := Ideal)) W (Proc.devRef .tc main_v99) (ix2 a k)
      = hullR (fun q => W (Proc.devRef .tc main_v40) (ix2 a q)) (fun o c => W (Proc.devRef .tc main_arg3) (ix2 o c)) k :=
  (congrFun (valB_eq W) (ix2 a k)).trans
    (valB_apply (W (Proc.devRef .tc main_v40)) (W (Proc.devRef .tc main_c)) (W (Proc.devRef .tc main_cst))
      (W (Proc.devRef .tc main_arg3)) hc hcst a k)

/-! ## What the stretch leaves alone -/

theorem keep_v7 (W : Valuation τ sig (Elt Ideal)) :
    after (opsB (F := Ideal)) W (Proc.devRef .tc main_v7) = W (Proc.devRef .tc main_v7) := by
  after_results_B
theorem keep_v43 (W : Valuation τ sig (Elt Ideal)) :
    after (opsB (F := Ideal)) W (Proc.devRef .tc main_v43) = W (Proc.devRef .tc main_v43) := by
  after_results_B
theorem keep_arg4 (W : Valuation τ sig (Elt Ideal)) :
    after (opsB (F := Ideal)) W (Proc.devRef .tc main_arg4) = W (Proc.devRef .tc main_arg4) := by
  after_results_B
theorem keep_cst (W : Valuation τ sig (Elt Ideal)) :
    after (opsB (F := Ideal)) W (Proc.devRef .tc main_cst) = W (Proc.devRef .tc main_cst) := by
  after_results_B
theorem keep_c_0 (W : Valuation τ sig (Elt Ideal)) :
    after (opsB (F := Ideal)) W (Proc.devRef .tc main_c_0) = W (Proc.devRef .tc main_c_0) := by
  after_results_B

/-- The stretch writes none of the scores, the mask, the target boxes, the template and the second index table. -/
theorem keeps_B (W : Valuation τ sig (Elt Ideal)) :
    after (opsB (F := Ideal)) W (Proc.devRef .tc main_v7) = W (Proc.devRef .tc main_v7)
    ∧ after (opsB (F := Ideal)) W (Proc.devRef .tc main_v43) = W (Proc.devRef .tc main_v43)
    ∧ after (opsB (F := Ideal)) W (Proc.devRef .tc main_arg4) = W (Proc.devRef .tc main_arg4)
    ∧ after (opsB (F := Ideal)) W (Proc.devRef .tc main_cst) = W (Proc.devRef .tc main_cst)
    ∧ after (opsB (F := Ideal)) W (Proc.devRef .tc main_c_0) = W (Proc.devRef .tc main_c_0) :=
  ⟨keep_v7 W, keep_v43 W, keep_arg4 W, keep_cst W, keep_c_0 W⟩

end Cert.ReferenceIdeal.RefB

end
-- ==== Proof.StageC.lean ====
/-
  The hulls of the 64 target boxes are computed by the same sixty host operations in both programs — in the kernel's
  program before the region (they fill the window the body reads the targets from), in the reference as its third
  stretch — from the same argument and the same two literal tables. The function is spelt once, as a chain of small
  steps (the gathered extents times the corner template, the rotation by the yaw, the move to the centre, the least and
  greatest of the two plane coordinates over the eight corners), over each program's own shapes and side conditions;
  each program's operations compute its spelling, and the two spellings agree step by step because the shapes, the
  dimension records and the literal tables of the two programs have equal values.
-/
import proofs.«157336_j6562710028353_2_alg».proof.Proof.FrameKI.Shared
import proofs.«157336_j6562710028353_2_alg».proof.Proof.RefStages
import proofs.«157336_j6562710028353_2_alg».proof.Proof.LibNary

set_option maxRecDepth 16384

noncomputable section

namespace Cert.StageC

open Idealize.ShloMosaic Idealize.ShloMosaic.TcCoe Idealize.SL.Sem Idealize.ShloMosaic.StableHlo

/-! ## The hulls of the target boxes, spelt once over each program's own shapes and side conditions -/

namespace R
open Cert.ReferenceIdeal Cert.ReferenceIdeal.Gen

/-- The three gathered columns' numbers: a negative entry of the table counts from the end. -/
def tIdx (c0 : IVec S3 32) : IVec S3x1 32 :=
  broadcastInDim S3x1 ![0] bcast_S3_S3x1_0
    (select (cmpi .slt c0 (broadcastInDim S3 ![] bcast_S_S3 (constantI S_ 32 0#32)))
      (addi c0 (broadcastInDim S3 ![] bcast_S_S3 (constantI S_ 32 7#32))) c0)

/-- The eight corners of every box about its centre, before the rotation: the gathered extents times the template. -/
def tCorners (x : FVec Ideal S64x7 .f32) (cst : FVec Ideal S8x3 .f32) (c0 : IVec S3 32) : FVec Ideal S64x8x3 .f32 :=
  mulf
    (broadcastInDim S64x8x3 ![0, 1, 2] bcast_S64x1x3_S64x8x3_0_1_2
      (broadcastInDim S64x1x3 ![0, 2] bcast_S64x3_S64x1x3_0_2
        (Host.gather gather_S64x7_S3x1_S64x3_0_1_n_n_1_1_641 x (tIdx c0))))
    (broadcastInDim S64x8x3 ![0, 1, 2] bcast_S1x8x3_S64x8x3_0_1_2 (broadcastInDim S1x8x3 ![1, 2] bcast_S8x3_S1x8x3_1_2 cst))

/-- The yaw of every box. -/
def tYaw (x : FVec Ideal S64x7 .f32) : FVec Ideal S64 .f32 :=
  shapeCast S64 (extractStridedSlice S64x1 ![0, 6] x slices_S64x7_S64x1_0_6) shapeCasts_S64x1_S64

/-- A vector over the boxes as one column. -/
def tCol (v : FVec Ideal S64 .f32) : FVec Ideal S64x1 .f32 := broadcastInDim S64x1 ![0] bcast_S64_S64x1_0 v

def tZero : FVec Ideal S64 .f32 := broadcastInDim S64 ![] bcast_S_S64 (constant (F := Ideal) S_ .f32 0x00000000#32)

def tOne : FVec Ideal S64 .f32 := broadcastInDim S64 ![] bcast_S_S64 (constant (F := Ideal) S_ .f32 0x3F800000#32)

/-- The rotation about the vertical axis by every box's yaw, its nine entries row by row. -/
def tRot (x : FVec Ideal S64x7 .f32) : FVec Ideal S64x3x3 .f32 :=
  shapeCast S64x3x3
    (concatenate S64x9 1
      [⟨S64x1, tCol (Host.cos (tYaw x))⟩, ⟨S64x1, tCol (Host.sin (tYaw x))⟩, ⟨S64x1, tCol tZero⟩,
        ⟨S64x1, tCol (Host.negf (Host.sin (tYaw x)))⟩, ⟨S64x1, tCol (Host.cos (tYaw x))⟩, ⟨S64x1, tCol tZero⟩,
        ⟨S64x1, tCol tZero⟩, ⟨S64x1, tCol tZero⟩, ⟨S64x1, tCol tOne⟩]
      concatenates_S64x1_S64x1_S64x1_S64x1_S64x1_S64x1_S64x1_S64x1_S64x1_S64x9_d1)
    shapeCasts_S64x9_S64x3x3

/-- The corners rotated and moved to the centre. -/
def tMoved (x : FVec Ideal S64x7 .f32) (cst : FVec Ideal S8x3 .f32) (c0 : IVec S3 32) : FVec Ideal S64x8x3 .f32 :=
  addf (Host.dotGeneral dot_S64x8x3_S64x3x3_S64x8x3_2_1_1_2_0_0 none (tCorners x cst c0) (tRot x))
    (broadcastInDim S64x8x3 ![0, 1, 2] bcast_S64x1x3_S64x8x3_0_1_2
      (broadcastInDim S64x1x3 ![0, 2] bcast_S64x3_S64x1x3_0_2 (extractStridedSlice S64x3 ![0, 0] x slices_S64x7_S64x3_0_0)))

/-- The corners' first coordinates. -/
def tXs (p : FVec Ideal S64x8x3 .f32) : FVec Ideal S64x8 .f32 :=
  shapeCast S64x8 (extractStridedSlice S64x8x1 ![0, 0, 0] p slices_S64x8x3_S64x8x1_0_0_0) shapeCasts_S64x8x1_S64x8

/-- The corners' second coordinates. -/
def tYs (p : FVec Ideal S64x8x3 .f32) : FVec Ideal S64x8 .f32 :=
  shapeCast S64x8 (extractStridedSlice S64x8x1 ![0, 0, 1] p slices_S64x8x3_S64x8x1_0_0_1) shapeCasts_S64x8x1_S64x8

/-- The axis-aligned hull of every box's corners in the plane: least and greatest of each coordinate. -/
def tHull (p : FVec Ideal S64x8x3 .f32) : FVec Ideal S64x4 .f32 :=
  concatenate S64x4 1
    [⟨S64x1, tCol (Host.reduce (FloatOps.minimumf (F := Ideal) (φ := .f32)) (tXs p) (constant (F := Ideal) S_ .f32 0x7F800000#32) reducesTo_S64x8_S64_d1 h_S_)⟩,
      ⟨S64x1, tCol (Host.reduce (FloatOps.minimumf (F := Ideal) (φ := .f32)) (tYs p) (constant (F := Ideal) S_ .f32 0x7F800000#32) reducesTo_S64x8_S64_d1 h_S_)⟩,
      ⟨S64x1, tCol (Host.reduce (FloatOps.maximumf (F := Ideal) (φ := .f32)) (tXs p) (constant (F := Ideal) S_ .f32 0xFF800000#32) reducesTo_S64x8_S64_d1 h_S_)⟩,
      ⟨S64x1, tCol (Host.reduce (FloatOps.maximumf (F := Ideal) (φ := .f32)) (tYs p) (constant (F := Ideal) S_ .f32 0xFF800000#32) reducesTo_S64x8_S64_d1 h_S_)⟩]
    concatenates_S64x1_S64x1_S64x1_S64x1_S64x4_d1

/-- The hulls of the target boxes as a function of the boxes and the two literal tables. -/
def val (x : FVec Ideal S64x7 .f32) (cst : FVec Ideal S8x3 .f32) (c0 : IVec S3 32) : FVec Ideal S64x4 .f32 :=
  tHull (tMoved x cst c0)

end R

namespace K
open Cert.KernelIdeal Cert.KernelIdeal.Gen

/-- The three gathered columns' numbers: a negative entry of the table counts from the end. -/
def tIdx (c0 : IVec S3 32) : IVec S3x1 32 :=
  broadcastInDim S3x1 ![0] bcast_S3_S3x1_0
    (select (cmpi .slt c0 (broadcastInDim S3 ![] bcast_S_S3 (constantI S_ 32 0#32)))
      (addi c0 (broadcastInDim S3 ![] bcast_S_S3 (constantI S_ 32 7#32))) c0)

/-- The eight corners of every box about its centre, before the rotation: the gathered extents times the template. -/
def tCorners (x : FVec Ideal S64x7 .f32) (cst : FVec Ideal S8x3 .f32) (c0 : IVec S3 32) : FVec Ideal S64x8x3 .f32 :=
  mulf
    (broadcastInDim S64x8x3 ![0, 1, 2] bcast_S64x1x3_S64x8x3_0_1_2
      (broadcastInDim S64x1x3 ![0, 2] bcast_S64x3_S64x1x3_0_2
        (Host.gather gather_S64x7_S3x1_S64x3_0_1_n_n_1_1_641 x (tIdx c0))))
    (broadcastInDim S64x8x3 ![0, 1, 2] bcast_S1x8x3_S64x8x3_0_1_2 (broadcastInDim S1x8x3 ![1, 2] bcast_S8x3_S1x8x3_1_2 cst))

/-- The yaw of every box. -/
def tYaw (x : FVec Ideal S64x7 .f32) : FVec Ideal S64 .f32 :=
  shapeCast S64 (extractStridedSlice S64x1 ![0, 6] x slices_S64x7_S64x1_0_6) shapeCasts_S64x1_S64

/-- A vector over the boxes as one column. -/
def tCol (v : FVec Ideal S64 .f32) : FVec Ideal S64x1 .f32 := broadcastInDim S64x1 ![0] bcast_S64_S64x1_0 v

def tZero : FVec Ideal S64 .f32 := broadcastInDim S64 ![] bcast_S_S64 (constant (F := Ideal) S_ .f32 0x00000000#32)

def tOne : FVec Ideal S64 .f32 := broadcastInDim S64 ![] bcast_S_S64 (constant (F := Ideal) S_ .f32 0x3F800000#32)

/-- The rotation about the vertical axis by every box's yaw, its nine entries row by row. -/
def tRot (x : FVec Ideal S64x7 .f32) : FVec Ideal S64x3x3 .f32 :=
  shapeCast S64x3x3
    (concatenate S64x9 1
      [⟨S64x1, tCol (Host.cos (tYaw x))⟩, ⟨S64x1, tCol (Host.sin (tYaw x))⟩, ⟨S64x1, tCol tZero⟩,
        ⟨S64x1, tCol (Host.negf (Host.sin (tYaw x)))⟩, ⟨S64x1, tCol (Host.cos (tYaw x))⟩, ⟨S64x1, tCol tZero⟩,
        ⟨S64x1, tCol tZero⟩, ⟨S64x1, tCol tZero⟩, ⟨S64x1, tCol tOne⟩]
      concatenates_S64x1_S64x1_S64x1_S64x1_S64x1_S64x1_S64x1_S64x1_S64x1_S64x9_d1)
    shapeCasts_S64x9_S64x3x3

/-- The corners rotated and moved to the centre. -/
def tMoved (x : FVec Ideal S64x7 .f32) (cst : FVec Ideal S8x3 .f32) (c0 : IVec S3 32) : FVec Ideal S64x8x3 .f32 :=
  addf (Host.dotGeneral dot_S64x8x3_S64x3x3_S64x8x3_2_1_1_2_0_0 none (tCorners x cst c0) (tRot x))
    (broadcastInDim S64x8x3 ![0, 1, 2] bcast_S64x1x3_S64x8x3_0_1_2
      (broadcastInDim S64x1x3 ![0, 2] bcast_S64x3_S64x1x3_0_2 (extractStridedSlice S64x3 ![0, 0] x slices_S64x7_S64x3_0_0)))

/-- The corners' first coordinates. -/
def tXs (p : FVec Ideal S64x8x3 .f32) : FVec Ideal S64x8 .f32 :=
  shapeCast S64x8 (extractStridedSlice S64x8x1 ![0, 0, 0] p slices_S64x8x3_S64x8x1_0_0_0) shapeCasts_S64x8x1_S64x8

/-- The corners' second coordinates. -/
def tYs (p : FVec Ideal S64x8x3 .f32) : FVec Ideal S64x8 .f32 :=
  shapeCast S64x8 (extractStridedSlice S64x8x1 ![0, 0, 1] p slices_S64x8x3_S64x8x1_0_0_1) shapeCasts_S64x8x1_S64x8

/-- The axis-aligned hull of every box's corners in the plane: least and greatest of each coordinate. -/
def tHull (p : FVec Ideal S64x8x3 .f32) : FVec Ideal S64x4 .f32 :=
  concatenate S64x4 1
    [⟨S64x1, tCol (Host.reduce (FloatOps.minimumf (F := Ideal) (φ := .f32)) (tXs p) (constant (F := Ideal) S_ .f32 0x7F800000#32) reducesTo_S64x8_S64_d1 h_S_)⟩,
      ⟨S64x1, tCol (Host.reduce (FloatOps.minimumf (F := Ideal) (φ := .f32)) (tYs p) (constant (F := Ideal) S_ .f32 0x7F800000#32) reducesTo_S64x8_S64_d1 h_S_)⟩,
      ⟨S64x1, tCol (Host.reduce (FloatOps.maximumf (F := Ideal) (φ := .f32)) (tXs p) (constant (F := Ideal) S_ .f32 0xFF800000#32) reducesTo_S64x8_S64_d1 h_S_)⟩,
      ⟨S64x1, tCol (Host.reduce (FloatOps.maximumf (F := Ideal) (φ := .f32)) (tYs p) (constant (F := Ideal) S_ .f32 0xFF800000#32) reducesTo_S64x8_S64_d1 h_S_)⟩]
    concatenates_S64x1_S64x1_S64x1_S64x1_S64x4_d1

/-- The hulls of the target boxes as a function of the boxes and the two literal tables. -/
def val (x : FVec Ideal S64x7 .f32) (cst : FVec Ideal S8x3 .f32) (c0 : IVec S3 32) : FVec Ideal S64x4 .f32 :=
  tHull (tMoved x cst c0)

end K

/-! ## Each program's sixty operations compute that function -/

set_option maxHeartbeats 4000000 in
/-- The reference's third stretch, at the hulls' buffer. -/
theorem fold_R (W : Valuation Cert.ReferenceIdeal.τ Cert.ReferenceIdeal.sig (Elt Ideal)) :
    after (Cert.ReferenceIdeal.RefRun.opsC (F := Ideal)) W (Proc.devRef .tc Cert.ReferenceIdeal.main_v151)
      = R.val (W (Proc.devRef .tc Cert.ReferenceIdeal.main_arg4)) (W (Proc.devRef .tc Cert.ReferenceIdeal.main_cst))
          (W (Proc.devRef .tc Cert.ReferenceIdeal.main_c_0)) := by
  after_results_lit
  rfl

set_option maxHeartbeats 4000000 in
/-- The kernel program's host lines before its region, at the hulls' buffer. -/
theorem fold_K (V : Valuation Cert.KernelIdeal.τ Cert.KernelIdeal.sig (Elt Ideal)) :
    after (Cert.KernelIdeal.Gen.hostOps0 (F := Ideal)) V (Proc.devRef .tc Cert.KernelIdeal.main_v51)
      = K.val (V (Proc.devRef .tc Cert.KernelIdeal.main_arg4))
          (fun i => FloatOps.ofBits (F := Ideal) .f32 (Cert.KernelIdeal.lit1 (Cert.KernelIdeal.S8x3.rowMajor i)))
          (fun i => Cert.KernelIdeal.lit0 (Cert.KernelIdeal.S3.rowMajor i)) := by
  after_results_lit
  rfl

/-! ## The two spellings are one function -/

theorem lit1_eq : Cert.KernelIdeal.lit1 = Cert.ReferenceIdeal.lit1 := by
  funext i; fin_cases i <;> rfl
theorem lit0_eq : Cert.KernelIdeal.lit0 = Cert.ReferenceIdeal.lit2 := by
  funext i; fin_cases i <;> rfl

section Same
open Cert.ReferenceIdeal
variable (x : FVec Ideal S64x7 .f32) (cst : FVec Ideal S8x3 .f32) (c0 : IVec S3 32)
  (v : FVec Ideal S64 .f32) (p : FVec Ideal S64x8x3 .f32)

theorem tIdx_eq : K.tIdx c0 = R.tIdx c0 := rfl
theorem tCorners_eq : K.tCorners x cst c0 = R.tCorners x cst c0 := by
  unfold K.tCorners R.tCorners; rw [tIdx_eq]; rfl
theorem tYaw_eq : K.tYaw x = R.tYaw x := rfl
theorem tCol_eq : K.tCol v = R.tCol v := rfl
theorem tZero_eq : K.tZero = R.tZero := rfl
theorem tOne_eq : K.tOne = R.tOne := rfl
theorem tRot_eq : K.tRot x = R.tRot x := by
  unfold K.tRot R.tRot; rw [tYaw_eq, tZero_eq, tOne_eq]; simp only [tCol_eq]
theorem tMoved_eq : K.tMoved x cst c0 = R.tMoved x cst c0 := by
  unfold K.tMoved R.tMoved; rw [tCorners_eq, tRot_eq]; rfl
theorem tXs_eq : K.tXs p = R.tXs p := rfl
theorem tYs_eq : K.tYs p = R.tYs p := rfl
theorem tHull_eq : K.tHull p = R.tHull p := by
  unfold K.tHull R.tHull; rw [tXs_eq, tYs_eq]; simp only [tCol_eq]
theorem val_eq : K.val x cst c0 = R.val x cst c0 := by
  unfold K.val R.val; rw [tMoved_eq, tHull_eq]

end Same

/-! ## The two arrays are equal -/

set_option maxHeartbeats 4000000 in
theorem tgt_eq (m : (ℓ : Loc Cert.KernelIdeal.nD Cert.KernelIdeal.τ Cert.KernelIdeal.sig) → Buf (Elt Ideal) ℓ) (c : Dev Cert.KernelIdeal.nD)
    (W : Valuation Cert.ReferenceIdeal.τ Cert.ReferenceIdeal.sig (Elt Ideal))
    (h4 : W (Proc.devRef .tc Cert.ReferenceIdeal.main_arg4) = m ((c : Thread Cert.KernelIdeal.nD Cert.KernelIdeal.τ).loc Cert.KernelIdeal.main_arg4))
    (hcst : W (Proc.devRef .tc Cert.ReferenceIdeal.main_cst) = fun i => FloatOps.ofBits (F := Ideal) .f32 (Cert.ReferenceIdeal.lit1 (Cert.ReferenceIdeal.S8x3.rowMajor i)))
    (hc0 : W (Proc.devRef .tc Cert.ReferenceIdeal.main_c_0) = fun i => Cert.ReferenceIdeal.lit2 (Cert.ReferenceIdeal.S3.rowMajor i)) :
    after (Cert.ReferenceIdeal.RefRun.opsC (F := Ideal)) W (Proc.devRef .tc Cert.ReferenceIdeal.main_v151)
      = Cert.KernelIdeal.Hand.V m c Cert.KernelIdeal.main_v51 := by
  show _ = StableHlo.after (List.flatten [Cert.KernelIdeal.Gen.hostOps0]) (fun b => m (c, b)) (Proc.devRef .tc Cert.KernelIdeal.main_v51)
  simp only [List.flatten_cons, List.flatten_nil, List.append_nil]
  rw [fold_R W, fold_K, h4, hcst, hc0, val_eq, lit1_eq, lit0_eq]

end Cert.StageC

end
-- ==== Proof.lean ====
/-
  The certificate of the masked log-score × box-overlap loss: a tiled kernel that decodes, per grid point, a
  64 × 512 tile of anchors for both yaw channels, projects each decoded box's eight corners, takes the axis-aligned
  hull, sums its overlap ratio with each of the 64 target boxes, weights the sum by the mask and the log-score, and
  accumulates the tile totals in one cell over the eight grid points — against the same quantity computed at once
  over all 524288 anchors by array operations.
  The three frames: each program runs to the end, faults nowhere and leaves its arguments as launched (the kernel's
  body is run symbolically at a first, a middle and a last grid point; the reference is a straight line of array
  operations). The idealization rewrote nothing, so its statement is trivial. The value claim: the kernel program's
  scalar is the sum over cells, lanes and channels of one anchor's term in the kernel's arithmetic; the reference's
  scalar is the same sum of the term in the reference's arithmetic; the target hulls are computed by the same host
  operations in both programs; and the two arithmetics agree anchor by anchor on the extended reals (commutativity,
  the zero and unit laws, the sign law of the product: no finiteness is used).
-/
import proofs.«157336_j6562710028353_2_alg».proof.Defs
import proofs.«157336_j6562710028353_2_alg».proof.Proof.FrameK.Frame
import proofs.«157336_j6562710028353_2_alg».proof.Proof.FrameKI.Frame
import proofs.«157336_j6562710028353_2_alg».proof.Proof.RefRun
import proofs.«157336_j6562710028353_2_alg».proof.Proof.Gen.Pre_finite_inputs
import proofs.«157336_j6562710028353_2_alg».proof.Proof.KSide
import proofs.«157336_j6562710028353_2_alg».proof.Proof.RefVal
import proofs.«157336_j6562710028353_2_alg».proof.Proof.RefB
import proofs.«157336_j6562710028353_2_alg».proof.Proof.StageC
import proofs.«157336_j6562710028353_2_alg».proof.Proof.Anchor
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := Cert.ReferenceIdeal.RefRun.frame_ri
theorem preserves : Cert.preserves_Kernel_KernelIdeal := trivial

/-- THE VALUE EQUATION: from memories that agree on the five arguments, the reference's scalar — the fold of its
    array operations — is the kernel program's scalar — the final sum of the output cell after the eight grid points. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (c : Dev Cert.KernelIdeal.nD) :
    StableHlo.after (Cert.ReferenceIdeal.RefRun.ops (F := Ideal)) (StableHlo.launchContents m' c) (Proc.devRef .tc Cert.ReferenceIdeal.main_v222)
      = Pipeline.afterTail₀ Cert.KernelIdeal.cfgs (Cert.KernelIdeal.Hand.dats m) 0 (Cert.KernelIdeal.Hand.V0 m) [Cert.KernelIdeal.Gen.hostOps1] c Cert.KernelIdeal.main_v54 := by
  rw [Cert.KernelIdeal.KSide.kernel_total m c]
  funext j
  obtain rfl : j = ValueIdx.ix0 := ValueIdx.eq_ix0 j
  have hA := hagree c
  -- the target hulls: the same host operations in both programs
  have hTG := Cert.StageC.tgt_eq m c
    (after (Cert.ReferenceIdeal.RefRun.opsB (F := Ideal)) (after (Cert.ReferenceIdeal.RefRun.opsA (F := Ideal)) (StableHlo.launchContents m' c)))
    ((Cert.ReferenceIdeal.RefKeep.keepsB_main_arg4 _).trans ((Cert.ReferenceIdeal.RefA.keeps_arg4 _).trans hA.2.2.2.2))
    ((Cert.ReferenceIdeal.RefKeep.keepsB_main_cst _).trans (Cert.ReferenceIdeal.RefA.keeps_cst _))
    ((Cert.ReferenceIdeal.RefKeep.keepsB_main_c_0 _).trans (Cert.ReferenceIdeal.RefA.keeps_c_0 _))
  -- the reference's scalar as a sum over cells, lanes and channels
  refine (Cert.ReferenceIdeal.RefVal.total_eq Cert.ReferenceIdeal.RefB.hullR Cert.ReferenceIdeal.RefB.hull_apply (StableHlo.launchContents m' c)
    _ _ _ _ _ hA.1 hA.2.1 hA.2.2.1 hA.2.2.2.1 hTG).trans ?_
  -- anchor by anchor
  refine Finset.sum_congr rfl fun w _ => Finset.sum_congr rfl fun l _ => Finset.sum_congr rfl fun g _ => ?_
  unfold Cert.KernelIdeal.KTot.termAt
  rw [Cert.KernelIdeal.KSide.contrib_bridge, Cert.Alg.anchor_eq]
  rfl

theorem algebraic : Cert.algebraic_KernelIdeal_ReferenceIdeal := by
  intro m ρ m' ρ' hpre hagree
  refine ⟨fun c => Pipeline.afterTail₀ Cert.KernelIdeal.cfgs (Cert.KernelIdeal.Hand.dats m) 0 (Cert.KernelIdeal.Hand.V0 m) [Cert.KernelIdeal.Gen.hostOps1] c Cert.KernelIdeal.main_v54,
    Cert.KernelIdeal.Hand.run_result (F := Ideal) m ρ, ?_⟩
  exact (θ_run Cert.ReferenceIdeal.defs _ _).mono (fun _ h c => ⟨(h c).1.trans (value_eq m m' hagree c), (h c).2⟩)
    (Cert.ReferenceIdeal.RefRun.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
